-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x24x24 : Shape := ⟨3, ![4096, 24, 24]⟩
abbrev S4096 : Shape := ⟨1, ![4096]⟩
abbrev S4096x10 : Shape := ⟨2, ![4096, 10]⟩
abbrev S4x5 : Shape := ⟨2, ![4, 5]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S4096x10 : S_.BroadcastsInDim S4096x10 (![] : Fin 0 → Fin S4096x10.rank)
  reducesTo_S4096x10_S_d0_1 : S4096x10.ReducesTo [0, 1] S_
  bcast_S_S4096x24x24 : S_.BroadcastsInDim S4096x24x24 (![] : Fin 0 → Fin S4096x24x24.rank)
  reducesTo_S4096x24x24_S_d0_1_2 : S4096x24x24.ReducesTo [0, 1, 2] S_
  bcast_S_S4x5 : S_.BroadcastsInDim S4x5 (![] : Fin 0 → Fin S4x5.rank)
  reducesTo_S4x5_S_d0_1 : S4x5.ReducesTo [0, 1] S_

variable [Facts]

def fn_part4 {F : FTy → Type} [FloatOps F] (main_v63 : IVec S_ 1) (main_v65 : IVec S4096x24x24 1) (main_v67 : IVec S4096x24x24 1) : IVec S_ 1 :=
  let main_v68 : IVec S4096x24x24 1 := andi main_v65 main_v67
  let main_c_26 : IVec S_ 1 := constantI S_ 1 1#1
  let main_v69 : IVec S_ 1 := (fun x v => Host.reduce IntOp.andi x v reducesTo_S4096x24x24_S_d0_1_2 h_S_) main_v68 main_c_26
  let main_v70 : IVec S_ 1 := andi main_v63 main_v69
  main_v70

def fn_part3 {F : FTy → Type} [FloatOps F] (main_arg0 : IVec S4096x24x24 32) (main_arg12 : FVec F S4096x24x24 .f32) (main_arg13 : FVec F S4x5 .f32) (main_v48 : IVec S_ 1) (main_v49 : FVec F S4096x24x24 .f32) (main_v50 : FVec F S4096x24x24 .f32) : IVec S_ 1 :=
  let main_v51 : IVec S4096x24x24 1 := cmpf .olt main_v49 main_v50
  let main_c_19 : IVec S_ 1 := constantI S_ 1 1#1
  let main_v52 : IVec S_ 1 := (fun x v => Host.reduce IntOp.andi x v reducesTo_S4096x24x24_S_d0_1_2 h_S_) main_v51 main_c_19
  let main_v53 : IVec S_ 1 := andi main_v48 main_v52
  let main_v54 : FVec F S4096x24x24 .f32 := Host.absf main_arg12
  let main_cst_20 : FVec F S_ .f32 := constant S_ .f32 0x7F800000#32
  let main_v55 : FVec F S4096x24x24 .f32 := broadcastInDim S4096x24x24 ![] bcast_S_S4096x24x24 main_cst_20
  let main_v56 : IVec S4096x24x24 1 := cmpf .olt main_v54 main_v55
  let main_c_21 : IVec S_ 1 := constantI S_ 1 1#1
  let main_v57 : IVec S_ 1 := (fun x v => Host.reduce IntOp.andi x v reducesTo_S4096x24x24_S_d0_1_2 h_S_) main_v56 main_c_21
  let main_v58 : IVec S_ 1 := andi main_v53 main_v57
  let main_v59 : FVec F S4x5 .f32 := Host.absf main_arg13
  let main_cst_22 : FVec F S_ .f32 := constant S_ .f32 0x7F800000#32
  let main_v60 : FVec F S4x5 .f32 := broadcastInDim S4x5 ![] bcast_S_S4x5 main_cst_22
  let main_v61 : IVec S4x5 1 := cmpf .olt main_v59 main_v60
  let main_c_23 : IVec S_ 1 := constantI S_ 1 1#1
  let main_v62 : IVec S_ 1 := (fun x v => Host.reduce IntOp.andi x v reducesTo_S4x5_S_d0_1 h_S_) main_v61 main_c_23
  let main_v63 : IVec S_ 1 := andi main_v58 main_v62
  let main_c_24 : IVec S_ 32 := constantI S_ 32 0#32
  let main_v64 : IVec S4096x24x24 32 := broadcastInDim S4096x24x24 ![] bcast_S_S4096x24x24 main_c_24
  let main_v65 : IVec S4096x24x24 1 := cmpi .sge main_arg0 main_v64
  let main_c_25 : IVec S_ 32 := constantI S_ 32 3#32
  let main_v66 : IVec S4096x24x24 32 := broadcastInDim S4096x24x24 ![] bcast_S_S4096x24x24 main_c_25
  let main_v67 : IVec S4096x24x24 1 := cmpi .sle main_arg0 main_v66
  fn_part4 (F := F) main_v63 main_v65 main_v67

def fn_part2 {F : FTy → Type} [FloatOps F] (main_arg0 : IVec S4096x24x24 32) (main_arg8 : FVec F S4096x24x24 .f32) (main_arg9 : FVec F S4096x24x24 .f32) (main_arg10 : FVec F S4096x24x24 .f32) (main_arg11 : FVec F S4096x24x24 .f32) (main_arg12 : FVec F S4096x24x24 .f32) (main_arg13 : FVec F S4x5 .f32) (main_v33 : IVec S_ 1) : IVec S_ 1 :=
  let main_v34 : FVec F S4096x24x24 .f32 := Host.absf main_arg8
  let main_cst_12 : FVec F S_ .f32 := constant S_ .f32 0x7F800000#32
  let main_v35 : FVec F S4096x24x24 .f32 := broadcastInDim S4096x24x24 ![] bcast_S_S4096x24x24 main_cst_12
  let main_v36 : IVec S4096x24x24 1 := cmpf .olt main_v34 main_v35
  let main_c_13 : IVec S_ 1 := constantI S_ 1 1#1
  let main_v37 : IVec S_ 1 := (fun x v => Host.reduce IntOp.andi x v reducesTo_S4096x24x24_S_d0_1_2 h_S_) main_v36 main_c_13
  let main_v38 : IVec S_ 1 := andi main_v33 main_v37
  let main_v39 : FVec F S4096x24x24 .f32 := Host.absf main_arg9
  let main_cst_14 : FVec F S_ .f32 := constant S_ .f32 0x7F800000#32
  let main_v40 : FVec F S4096x24x24 .f32 := broadcastInDim S4096x24x24 ![] bcast_S_S4096x24x24 main_cst_14
  let main_v41 : IVec S4096x24x24 1 := cmpf .olt main_v39 main_v40
  let main_c_15 : IVec S_ 1 := constantI S_ 1 1#1
  let main_v42 : IVec S_ 1 := (fun x v => Host.reduce IntOp.andi x v reducesTo_S4096x24x24_S_d0_1_2 h_S_) main_v41 main_c_15
  let main_v43 : IVec S_ 1 := andi main_v38 main_v42
  let main_v44 : FVec F S4096x24x24 .f32 := Host.absf main_arg10
  let main_cst_16 : FVec F S_ .f32 := constant S_ .f32 0x7F800000#32
  let main_v45 : FVec F S4096x24x24 .f32 := broadcastInDim S4096x24x24 ![] bcast_S_S4096x24x24 main_cst_16
  let main_v46 : IVec S4096x24x24 1 := cmpf .olt main_v44 main_v45
  let main_c_17 : IVec S_ 1 := constantI S_ 1 1#1
  let main_v47 : IVec S_ 1 := (fun x v => Host.reduce IntOp.andi x v reducesTo_S4096x24x24_S_d0_1_2 h_S_) main_v46 main_c_17
  let main_v48 : IVec S_ 1 := andi main_v43 main_v47
  let main_v49 : FVec F S4096x24x24 .f32 := Host.absf main_arg11
  let main_cst_18 : FVec F S_ .f32 := constant S_ .f32 0x7F800000#32
  let main_v50 : FVec F S4096x24x24 .f32 := broadcastInDim S4096x24x24 ![] bcast_S_S4096x24x24 main_cst_18
  fn_part3 (F := F) main_arg0 main_arg12 main_arg13 main_v48 main_v49 main_v50

def fn_part1 {F : FTy → Type} [FloatOps F] (main_arg0 : IVec S4096x24x24 32) (main_arg5 : FVec F S4096x24x24 .f32) (main_arg6 : FVec F S4096x24x24 .f32) (main_arg7 : FVec F S4096x24x24 .f32) (main_arg8 : FVec F S4096x24x24 .f32) (main_arg9 : FVec F S4096x24x24 .f32) (main_arg10 : FVec F S4096x24x24 .f32) (main_arg11 : FVec F S4096x24x24 .f32) (main_arg12 : FVec F S4096x24x24 .f32) (main_arg13 : FVec F S4x5 .f32) (main_v13 : IVec S_ 1) (main_v16 : IVec S4096x24x24 1) : IVec S_ 1 :=
  let main_c_5 : IVec S_ 1 := constantI S_ 1 1#1
  let main_v17 : IVec S_ 1 := (fun x v => Host.reduce IntOp.andi x v reducesTo_S4096x24x24_S_d0_1_2 h_S_) main_v16 main_c_5
  let main_v18 : IVec S_ 1 := andi main_v13 main_v17
  let main_v19 : FVec F S4096x24x24 .f32 := Host.absf main_arg5
  let main_cst_6 : FVec F S_ .f32 := constant S_ .f32 0x7F800000#32
  let main_v20 : FVec F S4096x24x24 .f32 := broadcastInDim S4096x24x24 ![] bcast_S_S4096x24x24 main_cst_6
  let main_v21 : IVec S4096x24x24 1 := cmpf .olt main_v19 main_v20
  let main_c_7 : IVec S_ 1 := constantI S_ 1 1#1
  let main_v22 : IVec S_ 1 := (fun x v => Host.reduce IntOp.andi x v reducesTo_S4096x24x24_S_d0_1_2 h_S_) main_v21 main_c_7
  let main_v23 : IVec S_ 1 := andi main_v18 main_v22
  let main_v24 : FVec F S4096x24x24 .f32 := Host.absf main_arg6
  let main_cst_8 : FVec F S_ .f32 := constant S_ .f32 0x7F800000#32
  let main_v25 : FVec F S4096x24x24 .f32 := broadcastInDim S4096x24x24 ![] bcast_S_S4096x24x24 main_cst_8
  let main_v26 : IVec S4096x24x24 1 := cmpf .olt main_v24 main_v25
  let main_c_9 : IVec S_ 1 := constantI S_ 1 1#1
  let main_v27 : IVec S_ 1 := (fun x v => Host.reduce IntOp.andi x v reducesTo_S4096x24x24_S_d0_1_2 h_S_) main_v26 main_c_9
  let main_v28 : IVec S_ 1 := andi main_v23 main_v27
  let main_v29 : FVec F S4096x24x24 .f32 := Host.absf main_arg7
  let main_cst_10 : FVec F S_ .f32 := constant S_ .f32 0x7F800000#32
  let main_v30 : FVec F S4096x24x24 .f32 := broadcastInDim S4096x24x24 ![] bcast_S_S4096x24x24 main_cst_10
  let main_v31 : IVec S4096x24x24 1 := cmpf .olt main_v29 main_v30
  let main_c_11 : IVec S_ 1 := constantI S_ 1 1#1
  let main_v32 : IVec S_ 1 := (fun x v => Host.reduce IntOp.andi x v reducesTo_S4096x24x24_S_d0_1_2 h_S_) main_v31 main_c_11
  let main_v33 : IVec S_ 1 := andi main_v28 main_v32
  fn_part2 (F := F) main_arg0 main_arg8 main_arg9 main_arg10 main_arg11 main_arg12 main_arg13 main_v33

def fn {F : FTy → Type} [FloatOps F] (main_arg0 : IVec S4096x24x24 32) (main_arg1 : FVec F S4096 .f32) (main_arg2 : FVec F S4096x10 .f32) (main_arg3 : FVec F S4096x24x24 .f32) (main_arg4 : FVec F S4096x24x24 .f32) (main_arg5 : FVec F S4096x24x24 .f32) (main_arg6 : FVec F S4096x24x24 .f32) (main_arg7 : FVec F S4096x24x24 .f32) (main_arg8 : FVec F S4096x24x24 .f32) (main_arg9 : FVec F S4096x24x24 .f32) (main_arg10 : FVec F S4096x24x24 .f32) (main_arg11 : FVec F S4096x24x24 .f32) (main_arg12 : FVec F S4096x24x24 .f32) (main_arg13 : FVec F S4x5 .f32) : IVec S_ 1 :=
  let main_v0 : FVec F S4096 .f32 := Host.absf main_arg1
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_c : IVec S_ 1 := constantI S_ 1 1#1
  let main_v3 : IVec S_ 1 := (fun x v => Host.reduce IntOp.andi x v reducesTo_S4096_S_d0 h_S_) main_v2 main_c
  let main_v4 : FVec F S4096x10 .f32 := Host.absf main_arg2
  let main_cst_0 : FVec F S_ .f32 := constant S_ .f32 0x7F800000#32
  let main_v5 : FVec F S4096x10 .f32 := broadcastInDim S4096x10 ![] bcast_S_S4096x10 main_cst_0
  let main_v6 : IVec S4096x10 1 := cmpf .olt main_v4 main_v5
  let main_c_1 : IVec S_ 1 := constantI S_ 1 1#1
  let main_v7 : IVec S_ 1 := (fun x v => Host.reduce IntOp.andi x v reducesTo_S4096x10_S_d0_1 h_S_) main_v6 main_c_1
  let main_v8 : IVec S_ 1 := andi main_v3 main_v7
  let main_v9 : FVec F S4096x24x24 .f32 := Host.absf main_arg3
  let main_cst_2 : FVec F S_ .f32 := constant S_ .f32 0x7F800000#32
  let main_v10 : FVec F S4096x24x24 .f32 := broadcastInDim S4096x24x24 ![] bcast_S_S4096x24x24 main_cst_2
  let main_v11 : IVec S4096x24x24 1 := cmpf .olt main_v9 main_v10
  let main_c_3 : IVec S_ 1 := constantI S_ 1 1#1
  let main_v12 : IVec S_ 1 := (fun x v => Host.reduce IntOp.andi x v reducesTo_S4096x24x24_S_d0_1_2 h_S_) main_v11 main_c_3
  let main_v13 : IVec S_ 1 := andi main_v8 main_v12
  let main_v14 : FVec F S4096x24x24 .f32 := Host.absf main_arg4
  let main_cst_4 : FVec F S_ .f32 := constant S_ .f32 0x7F800000#32
  let main_v15 : FVec F S4096x24x24 .f32 := broadcastInDim S4096x24x24 ![] bcast_S_S4096x24x24 main_cst_4
  let main_v16 : IVec S4096x24x24 1 := cmpf .olt main_v14 main_v15
  fn_part1 (F := F) main_arg0 main_arg5 main_arg6 main_arg7 main_arg8 main_arg9 main_arg10 main_arg11 main_arg12 main_arg13 main_v13 main_v16
-- ==== Kernel.lean ====
abbrev S4096x24x24 : Shape := ⟨3, ![4096, 24, 24]⟩
abbrev S4096 : Shape := ⟨1, ![4096]⟩
abbrev S4096x10 : Shape := ⟨2, ![4096, 10]⟩
abbrev S4x5 : Shape := ⟨2, ![4, 5]⟩
abbrev S24x24x4096 : Shape := ⟨3, ![24, 24, 4096]⟩
abbrev S576x4096 : Shape := ⟨2, ![576, 4096]⟩
abbrev S1x4096 : Shape := ⟨2, ![1, 4096]⟩
abbrev S10x4096 : Shape := ⟨2, ![10, 4096]⟩
abbrev S24x26x24x4096 : Shape := ⟨4, ![24, 26, 24, 4096]⟩
abbrev S8x4096 : Shape := ⟨2, ![8, 4096]⟩
abbrev S_ : Shape := ⟨0, ![]⟩
abbrev S1x1x8x4096 : Shape := ⟨4, ![1, 1, 8, 4096]⟩
abbrev S24x1024 : Shape := ⟨2, ![24, 1024]⟩
abbrev S1x1024 : Shape := ⟨2, ![1, 1024]⟩
abbrev S10x1024 : Shape := ⟨2, ![10, 1024]⟩
abbrev S1x21x24x1024 : Shape := ⟨4, ![1, 21, 24, 1024]⟩
abbrev S1x1 : Shape := ⟨2, ![1, 1]⟩
abbrev S1x1x24x1024 : Shape := ⟨4, ![1, 1, 24, 1024]⟩
abbrev S4096x24x24x26 : Shape := ⟨4, ![4096, 24, 24, 26]⟩

abbrev nBuf : Table → Nat
  | .hbm => 41
  | .local .tc .vmem => 18
  | .local .tc .smem => 1
  | .local .scVector .vmem => 2
  | _ => 0

abbrev bufTy : (tb : Table) → Fin (nBuf tb) → BufTy
  | .hbm, ⟨0, _⟩ => ⟨S4096x24x24, .i32⟩
  | .hbm, ⟨1, _⟩ => ⟨S4096, .f32⟩
  | .hbm, ⟨2, _⟩ => ⟨S4096x10, .f32⟩
  | .hbm, ⟨3, _⟩ => ⟨S4096x24x24, .f32⟩
  | .hbm, ⟨4, _⟩ => ⟨S4096x24x24, .f32⟩
  | .hbm, ⟨5, _⟩ => ⟨S4096x24x24, .f32⟩
  | .hbm, ⟨6, _⟩ => ⟨S4096x24x24, .f32⟩
  | .hbm, ⟨7, _⟩ => ⟨S4096x24x24, .f32⟩
  | .hbm, ⟨8, _⟩ => ⟨S4096x24x24, .f32⟩
  | .hbm, ⟨9, _⟩ => ⟨S4096x24x24, .f32⟩
  | .hbm, ⟨10, _⟩ => ⟨S4096x24x24, .f32⟩
  | .hbm, ⟨11, _⟩ => ⟨S4096x24x24, .f32⟩
  | .hbm, ⟨12, _⟩ => ⟨S4096x24x24, .f32⟩
  | .hbm, ⟨13, _⟩ => ⟨S4x5, .f32⟩
  | .hbm, ⟨14, _⟩ => ⟨S24x24x4096, .i32⟩
  | .hbm, ⟨15, _⟩ => ⟨S576x4096, .i32⟩
  | .hbm, ⟨16, _⟩ => ⟨S1x4096, .f32⟩
  | .hbm, ⟨17, _⟩ => ⟨S10x4096, .f32⟩
  | .hbm, ⟨18, _⟩ => ⟨S24x24x4096, .f32⟩
  | .hbm, ⟨19, _⟩ => ⟨S576x4096, .f32⟩
  | .hbm, ⟨20, _⟩ => ⟨S24x24x4096, .f32⟩
  | .hbm, ⟨21, _⟩ => ⟨S576x4096, .f32⟩
  | .hbm, ⟨22, _⟩ => ⟨S24x24x4096, .f32⟩
  | .hbm, ⟨23, _⟩ => ⟨S576x4096, .f32⟩
  | .hbm, ⟨24, _⟩ => ⟨S24x24x4096, .f32⟩
  | .hbm, ⟨25, _⟩ => ⟨S576x4096, .f32⟩
  | .hbm, ⟨26, _⟩ => ⟨S24x24x4096, .f32⟩
  | .hbm, ⟨27, _⟩ => ⟨S576x4096, .f32⟩
  | .hbm, ⟨28, _⟩ => ⟨S24x24x4096, .f32⟩
  | .hbm, ⟨29, _⟩ => ⟨S576x4096, .f32⟩
  | .hbm, ⟨30, _⟩ => ⟨S24x24x4096, .f32⟩
  | .hbm, ⟨31, _⟩ => ⟨S576x4096, .f32⟩
  | .hbm, ⟨32, _⟩ => ⟨S24x24x4096, .f32⟩
  | .hbm, ⟨33, _⟩ => ⟨S576x4096, .f32⟩
  | .hbm, ⟨34, _⟩ => ⟨S24x24x4096, .f32⟩
  | .hbm, ⟨35, _⟩ => ⟨S576x4096, .f32⟩
  | .hbm, ⟨36, _⟩ => ⟨S24x24x4096, .f32⟩
  | .hbm, ⟨37, _⟩ => ⟨S576x4096, .f32⟩
  | .hbm, ⟨38, _⟩ => ⟨S24x26x24x4096, .f32⟩
  | .hbm, ⟨39, _⟩ => ⟨S24x26x24x4096, .f32⟩
  | .hbm, ⟨40, _⟩ => ⟨S4096x24x24x26, .f32⟩
  | .local .tc .vmem, ⟨0, _⟩ => ⟨S24x1024, .i32⟩
  | .local .tc .vmem, ⟨1, _⟩ => ⟨S24x1024, .i32⟩
  | .local .tc .vmem, ⟨2, _⟩ => ⟨S1x1024, .f32⟩
  | .local .tc .vmem, ⟨3, _⟩ => ⟨S1x1024, .f32⟩
  | .local .tc .vmem, ⟨4, _⟩ => ⟨S10x1024, .f32⟩
  | .local .tc .vmem, ⟨5, _⟩ => ⟨S10x1024, .f32⟩
  | .local .tc .vmem, ⟨6, _⟩ => ⟨S24x1024, .f32⟩
  | .local .tc .vmem, ⟨7, _⟩ => ⟨S24x1024, .f32⟩
  | .local .tc .vmem, ⟨8, _⟩ => ⟨S24x1024, .f32⟩
  | .local .tc .vmem, ⟨9, _⟩ => ⟨S24x1024, .f32⟩
  | .local .tc .vmem, ⟨10, _⟩ => ⟨S24x1024, .f32⟩
  | .local .tc .vmem, ⟨11, _⟩ => ⟨S24x1024, .f32⟩
  | .local .tc .vmem, ⟨12, _⟩ => ⟨S24x1024, .f32⟩
  | .local .tc .vmem, ⟨13, _⟩ => ⟨S24x1024, .f32⟩
  | .local .tc .vmem, ⟨14, _⟩ => ⟨S24x1024, .f32⟩
  | .local .tc .vmem, ⟨15, _⟩ => ⟨S24x1024, .f32⟩
  | .local .tc .vmem, ⟨16, _⟩ => ⟨S1x21x24x1024, .f32⟩
  | .local .tc .vmem, ⟨17, _⟩ => ⟨S1x21x24x1024, .f32⟩
  | .local .tc .smem, ⟨0, _⟩ => ⟨S4x5, .f32⟩
  | .local .scVector .vmem, ⟨0, _⟩ => ⟨S8x4096, .f32⟩
  | .local .scVector .vmem, ⟨1, _⟩ => ⟨S8x4096, .f32⟩
  | _, _ => ⟨S4096x24x24, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 41 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTables nBuf rfl bufTy 4 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v15_scv : Ref sig .scVector := ⟨.hbm, 29, rfl⟩
abbrev main_v17_scv : Ref sig .scVector := ⟨.hbm, 31, rfl⟩
abbrev main_v19_scv : Ref sig .scVector := ⟨.hbm, 33, rfl⟩
abbrev main_v21_scv : Ref sig .scVector := ⟨.hbm, 35, rfl⟩
abbrev main_v23_scv : Ref sig .scVector := ⟨.hbm, 37, rfl⟩
abbrev main_v24_scv : Ref sig .scVector := ⟨.hbm, 38, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg9_0 : Ref sig .tc := ⟨.vmem, 16, rfl⟩
abbrev cc1_stg9_1 : Ref sig .tc := ⟨.vmem, 17, rfl⟩
abbrev cc1_stg8_0 : Ref sig .tc := ⟨.smem, 0, rfl⟩
abbrev cc0_scratch0 : Ref sig .scVector := ⟨.vmem, 0, rfl⟩
abbrev cc0_scratch1 : Ref sig .scVector := ⟨.vmem, 1, rfl⟩
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem6_1 : DmaSem sig := 35
abbrev cc1_sem7_0 : DmaSem sig := 36
abbrev cc1_sem7_1 : DmaSem sig := 37
abbrev cc1_sem8_0 : DmaSem sig := 38
abbrev cc1_sem9_0 : DmaSem sig := 39
abbrev cc1_sem9_1 : DmaSem sig := 40
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop (i : grid0.Coords) : Scf.Loop 32 :=
  let c72_i32 : BitVec 32 := 72#32
  let c0_i32_14 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_13 : BitVec 32 := 0#32
  let v39 : BitVec 32 := Scalar.subi v19 c0_i32_13
  let v40 : BitVec 32 := Scalar.maxsi c0_i32_14 v39
  let v41 : BitVec 32 := Scalar.minsi c72_i32 v40
  let c72_i32_17 : BitVec 32 := 72#32
  let c0_i32_16 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c0_i32_15 : BitVec 32 := 0#32
  let v42 : BitVec 32 := Scalar.subi v38 c0_i32_15
  let v43 : BitVec 32 := Scalar.maxsi c0_i32_16 v42
  let v44 : BitVec 32 := Scalar.minsi c72_i32_17 v43
  let v45 : BitVec 32 := Scalar.subi v44 v41
  let c1_i32_20 : BitVec 32 := 1#32
  let v47 : BitVec 32 := Scalar.divsi v45 c1_i32_20
  let v48 : BitVec 32 := Scalar.muli v47 c1_i32_20
  let v49 : BitVec 32 := Scalar.addi v41 v48
  let c1_i32_21 : BitVec 32 := 1#32
  ⟨v41, v49, c1_i32_21⟩
def k0_cond3 (i : grid0.Coords) (k0_t1 : Fin (k0_t1_loop i).trips) : BitVec 1 :=
  let c72_i32 : BitVec 32 := 72#32
  let c0_i32_14 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_13 : BitVec 32 := 0#32
  let v39 : BitVec 32 := Scalar.subi v19 c0_i32_13
  let v40 : BitVec 32 := Scalar.maxsi c0_i32_14 v39
  let v41 : BitVec 32 := Scalar.minsi c72_i32 v40
  let c1_i32_21 : BitVec 32 := 1#32
  let arg12 : BitVec 32 := Scf.iv v41 c1_i32_21 k0_t1
  let c2_i32_67 : BitVec 32 := 2#32
  let c0_i32_68 : BitVec 32 := 0#32
  let v129 : BitVec 1 := Scalar.cmpi .eq c2_i32_67 c0_i32_68
  let c1_i32_69 : BitVec 32 := 1#32
  let v130 : BitVec 32 := Scalar.select v129 c1_i32_69 c2_i32_67
  let v131 : BitVec 32 := Scalar.remsi arg12 v130
  let c0_i32_71 : BitVec 32 := 0#32
  let v133 : BitVec 1 := Scalar.cmpi .slt v131 c0_i32_71
  let c0_i32_72 : BitVec 32 := 0#32
  let v134 : BitVec 1 := Scalar.cmpi .slt v130 c0_i32_72
  let v135 : BitVec 1 := Scalar.xori v133 v134
  let c0_i32_70 : BitVec 32 := 0#32
  let v132 : BitVec 1 := Scalar.cmpi .ne v131 c0_i32_70
  let v136 : BitVec 1 := Scalar.andi v135 v132
  let v137 : BitVec 32 := Scalar.addi v131 v130
  let v138 : BitVec 32 := Scalar.select v136 v137 v131
  let c0_i32_73 : BitVec 32 := 0#32
  let v139 : BitVec 1 := Scalar.cmpi .eq v138 c0_i32_73
  let v153 : BitVec 32 := Scalar.extui v139
  let c0_i32_79 : BitVec 32 := 0#32
  let v154 : BitVec 1 := Scalar.cmpi .ne v153 c0_i32_79
  v154

def k0_off1 (i : grid0.Coords) (k0_t1 : Fin (k0_t1_loop i).trips) : Fin 2 → Nat :=
  let c72_i32 : BitVec 32 := 72#32
  let c0_i32_14 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_13 : BitVec 32 := 0#32
  let v39 : BitVec 32 := Scalar.subi v19 c0_i32_13
  let v40 : BitVec 32 := Scalar.maxsi c0_i32_14 v39
  let v41 : BitVec 32 := Scalar.minsi c72_i32 v40
  let c1_i32_21 : BitVec 32 := 1#32
  let arg12 : BitVec 32 := Scf.iv v41 c1_i32_21 k0_t1
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c24_i32 : BitVec 32 := 24#32
  let v140 : BitVec 32 := Scalar.muli v126 c24_i32
  let c3_i32_66 : BitVec 32 := 3#32
  let v127 : BitVec 32 := Scalar.muli v126 c3_i32_66
  let v128 : BitVec 32 := Scalar.subi arg12 v127
  let c8_i32 : BitVec 32 := 8#32
  let v141 : BitVec 32 := Scalar.muli v128 c8_i32
  let v142 : BitVec 32 := Scalar.addi v140 v141
  let c0_i32_87_r0 : BitVec 32 := 0#32
  ![v142.toNat, 0]
def k0_off2 (i : grid0.Coords) (k0_t1 : Fin (k0_t1_loop i).trips) : Fin 4 → Nat :=
  let c72_i32 : BitVec 32 := 72#32
  let c0_i32_14 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_13 : BitVec 32 := 0#32
  let v39 : BitVec 32 := Scalar.subi v19 c0_i32_13
  let v40 : BitVec 32 := Scalar.maxsi c0_i32_14 v39
  let v41 : BitVec 32 := Scalar.minsi c72_i32 v40
  let c1_i32_21 : BitVec 32 := 1#32
  let arg12 : BitVec 32 := Scf.iv v41 c1_i32_21 k0_t1
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c21_i32 : BitVec 32 := 21#32
  let c3_i32_66 : BitVec 32 := 3#32
  let v127 : BitVec 32 := Scalar.muli v126 c3_i32_66
  let v128 : BitVec 32 := Scalar.subi arg12 v127
  let c8_i32_74 : BitVec 32 := 8#32
  let v143 : BitVec 32 := Scalar.muli v128 c8_i32_74
  let c0_i32_85 : BitVec 32 := 0#32
  ![v126.toNat, 21, v143.toNat, 0]
def k0_cond4 (i : grid0.Coords) (k0_t1 : Fin (k0_t1_loop i).trips) : BitVec 1 :=
  let c72_i32 : BitVec 32 := 72#32
  let c0_i32_14 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_13 : BitVec 32 := 0#32
  let v39 : BitVec 32 := Scalar.subi v19 c0_i32_13
  let v40 : BitVec 32 := Scalar.maxsi c0_i32_14 v39
  let v41 : BitVec 32 := Scalar.minsi c72_i32 v40
  let c1_i32_21 : BitVec 32 := 1#32
  let arg12 : BitVec 32 := Scf.iv v41 c1_i32_21 k0_t1
  let c2_i32_67 : BitVec 32 := 2#32
  let c0_i32_68 : BitVec 32 := 0#32
  let v129 : BitVec 1 := Scalar.cmpi .eq c2_i32_67 c0_i32_68
  let c1_i32_69 : BitVec 32 := 1#32
  let v130 : BitVec 32 := Scalar.select v129 c1_i32_69 c2_i32_67
  let v131 : BitVec 32 := Scalar.remsi arg12 v130
  let c0_i32_71 : BitVec 32 := 0#32
  let v133 : BitVec 1 := Scalar.cmpi .slt v131 c0_i32_71
  let c0_i32_72 : BitVec 32 := 0#32
  let v134 : BitVec 1 := Scalar.cmpi .slt v130 c0_i32_72
  let v135 : BitVec 1 := Scalar.xori v133 v134
  let c0_i32_70 : BitVec 32 := 0#32
  let v132 : BitVec 1 := Scalar.cmpi .ne v131 c0_i32_70
  let v136 : BitVec 1 := Scalar.andi v135 v132
  let v137 : BitVec 32 := Scalar.addi v131 v130
  let v138 : BitVec 32 := Scalar.select v136 v137 v131
  let c0_i32_73 : BitVec 32 := 0#32
  let v139 : BitVec 1 := Scalar.cmpi .eq v138 c0_i32_73
  let true_80 : BitVec 1 := 1#1
  let v155 : BitVec 1 := Scalar.xori v139 true_80
  let v156 : BitVec 32 := Scalar.extui v155
  let c0_i32_82 : BitVec 32 := 0#32
  let v157 : BitVec 1 := Scalar.cmpi .ne v156 c0_i32_82
  v157

def k0_off3 (i : grid0.Coords) (k0_t1 : Fin (k0_t1_loop i).trips) : Fin 2 → Nat :=
  let c72_i32 : BitVec 32 := 72#32
  let c0_i32_14 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_13 : BitVec 32 := 0#32
  let v39 : BitVec 32 := Scalar.subi v19 c0_i32_13
  let v40 : BitVec 32 := Scalar.maxsi c0_i32_14 v39
  let v41 : BitVec 32 := Scalar.minsi c72_i32 v40
  let c1_i32_21 : BitVec 32 := 1#32
  let arg12 : BitVec 32 := Scf.iv v41 c1_i32_21 k0_t1
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c24_i32 : BitVec 32 := 24#32
  let v140 : BitVec 32 := Scalar.muli v126 c24_i32
  let c3_i32_66 : BitVec 32 := 3#32
  let v127 : BitVec 32 := Scalar.muli v126 c3_i32_66
  let v128 : BitVec 32 := Scalar.subi arg12 v127
  let c8_i32 : BitVec 32 := 8#32
  let v141 : BitVec 32 := Scalar.muli v128 c8_i32
  let v142 : BitVec 32 := Scalar.addi v140 v141
  let c0_i32_87_r1 : BitVec 32 := 0#32
  ![v142.toNat, 0]
def k0_off4 (i : grid0.Coords) (k0_t1 : Fin (k0_t1_loop i).trips) : Fin 4 → Nat :=
  let c72_i32 : BitVec 32 := 72#32
  let c0_i32_14 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_13 : BitVec 32 := 0#32
  let v39 : BitVec 32 := Scalar.subi v19 c0_i32_13
  let v40 : BitVec 32 := Scalar.maxsi c0_i32_14 v39
  let v41 : BitVec 32 := Scalar.minsi c72_i32 v40
  let c1_i32_21 : BitVec 32 := 1#32
  let arg12 : BitVec 32 := Scf.iv v41 c1_i32_21 k0_t1
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c21_i32_81 : BitVec 32 := 21#32
  let c3_i32_66 : BitVec 32 := 3#32
  let v127 : BitVec 32 := Scalar.muli v126 c3_i32_66
  let v128 : BitVec 32 := Scalar.subi arg12 v127
  let c8_i32_74 : BitVec 32 := 8#32
  let v143 : BitVec 32 := Scalar.muli v128 c8_i32_74
  let c0_i32_85 : BitVec 32 := 0#32
  ![v126.toNat, 21, v143.toNat, 0]
@[reducible] def k0_t2_loop (i : grid0.Coords) : Scf.Loop 32 :=
  let c72_i32 : BitVec 32 := 72#32
  let c0_i32_14 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_13 : BitVec 32 := 0#32
  let v39 : BitVec 32 := Scalar.subi v19 c0_i32_13
  let v40 : BitVec 32 := Scalar.maxsi c0_i32_14 v39
  let v41 : BitVec 32 := Scalar.minsi c72_i32 v40
  let c72_i32_17 : BitVec 32 := 72#32
  let c0_i32_16 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c0_i32_15 : BitVec 32 := 0#32
  let v42 : BitVec 32 := Scalar.subi v38 c0_i32_15
  let v43 : BitVec 32 := Scalar.maxsi c0_i32_16 v42
  let v44 : BitVec 32 := Scalar.minsi c72_i32_17 v43
  let v45 : BitVec 32 := Scalar.subi v44 v41
  let c1_i32_20 : BitVec 32 := 1#32
  let v47 : BitVec 32 := Scalar.divsi v45 c1_i32_20
  let v48 : BitVec 32 := Scalar.muli v47 c1_i32_20
  let v49 : BitVec 32 := Scalar.addi v41 v48
  let v46 : BitVec 32 := Scalar.addi v41 v45
  let c1_i32_22 : BitVec 32 := 1#32
  ⟨v49, v46, c1_i32_22⟩
def k0_cond7 (i : grid0.Coords) (k0_t2 : Fin (k0_t2_loop i).trips) : BitVec 1 :=
  let c72_i32 : BitVec 32 := 72#32
  let c0_i32_14 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_13 : BitVec 32 := 0#32
  let v39 : BitVec 32 := Scalar.subi v19 c0_i32_13
  let v40 : BitVec 32 := Scalar.maxsi c0_i32_14 v39
  let v41 : BitVec 32 := Scalar.minsi c72_i32 v40
  let c72_i32_17 : BitVec 32 := 72#32
  let c0_i32_16 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c0_i32_15 : BitVec 32 := 0#32
  let v42 : BitVec 32 := Scalar.subi v38 c0_i32_15
  let v43 : BitVec 32 := Scalar.maxsi c0_i32_16 v42
  let v44 : BitVec 32 := Scalar.minsi c72_i32_17 v43
  let v45 : BitVec 32 := Scalar.subi v44 v41
  let c1_i32_20 : BitVec 32 := 1#32
  let v47 : BitVec 32 := Scalar.divsi v45 c1_i32_20
  let v48 : BitVec 32 := Scalar.muli v47 c1_i32_20
  let v49 : BitVec 32 := Scalar.addi v41 v48
  let c1_i32_22 : BitVec 32 := 1#32
  let arg12 : BitVec 32 := Scf.iv v49 c1_i32_22 k0_t2
  let c2_i32_67 : BitVec 32 := 2#32
  let c0_i32_68 : BitVec 32 := 0#32
  let v129 : BitVec 1 := Scalar.cmpi .eq c2_i32_67 c0_i32_68
  let c1_i32_69 : BitVec 32 := 1#32
  let v130 : BitVec 32 := Scalar.select v129 c1_i32_69 c2_i32_67
  let v131 : BitVec 32 := Scalar.remsi arg12 v130
  let c0_i32_71 : BitVec 32 := 0#32
  let v133 : BitVec 1 := Scalar.cmpi .slt v131 c0_i32_71
  let c0_i32_72 : BitVec 32 := 0#32
  let v134 : BitVec 1 := Scalar.cmpi .slt v130 c0_i32_72
  let v135 : BitVec 1 := Scalar.xori v133 v134
  let c0_i32_70 : BitVec 32 := 0#32
  let v132 : BitVec 1 := Scalar.cmpi .ne v131 c0_i32_70
  let v136 : BitVec 1 := Scalar.andi v135 v132
  let v137 : BitVec 32 := Scalar.addi v131 v130
  let v138 : BitVec 32 := Scalar.select v136 v137 v131
  let c0_i32_73 : BitVec 32 := 0#32
  let v139 : BitVec 1 := Scalar.cmpi .eq v138 c0_i32_73
  let v153 : BitVec 32 := Scalar.extui v139
  let c0_i32_79 : BitVec 32 := 0#32
  let v154 : BitVec 1 := Scalar.cmpi .ne v153 c0_i32_79
  v154

def k0_off5 (i : grid0.Coords) (k0_t2 : Fin (k0_t2_loop i).trips) : Fin 2 → Nat :=
  let c72_i32 : BitVec 32 := 72#32
  let c0_i32_14 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_13 : BitVec 32 := 0#32
  let v39 : BitVec 32 := Scalar.subi v19 c0_i32_13
  let v40 : BitVec 32 := Scalar.maxsi c0_i32_14 v39
  let v41 : BitVec 32 := Scalar.minsi c72_i32 v40
  let c72_i32_17 : BitVec 32 := 72#32
  let c0_i32_16 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c0_i32_15 : BitVec 32 := 0#32
  let v42 : BitVec 32 := Scalar.subi v38 c0_i32_15
  let v43 : BitVec 32 := Scalar.maxsi c0_i32_16 v42
  let v44 : BitVec 32 := Scalar.minsi c72_i32_17 v43
  let v45 : BitVec 32 := Scalar.subi v44 v41
  let c1_i32_20 : BitVec 32 := 1#32
  let v47 : BitVec 32 := Scalar.divsi v45 c1_i32_20
  let v48 : BitVec 32 := Scalar.muli v47 c1_i32_20
  let v49 : BitVec 32 := Scalar.addi v41 v48
  let c1_i32_22 : BitVec 32 := 1#32
  let arg12 : BitVec 32 := Scf.iv v49 c1_i32_22 k0_t2
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c24_i32 : BitVec 32 := 24#32
  let v140 : BitVec 32 := Scalar.muli v126 c24_i32
  let c3_i32_66 : BitVec 32 := 3#32
  let v127 : BitVec 32 := Scalar.muli v126 c3_i32_66
  let v128 : BitVec 32 := Scalar.subi arg12 v127
  let c8_i32 : BitVec 32 := 8#32
  let v141 : BitVec 32 := Scalar.muli v128 c8_i32
  let v142 : BitVec 32 := Scalar.addi v140 v141
  let c0_i32_87_r2 : BitVec 32 := 0#32
  ![v142.toNat, 0]
def k0_off6 (i : grid0.Coords) (k0_t2 : Fin (k0_t2_loop i).trips) : Fin 4 → Nat :=
  let c72_i32 : BitVec 32 := 72#32
  let c0_i32_14 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_13 : BitVec 32 := 0#32
  let v39 : BitVec 32 := Scalar.subi v19 c0_i32_13
  let v40 : BitVec 32 := Scalar.maxsi c0_i32_14 v39
  let v41 : BitVec 32 := Scalar.minsi c72_i32 v40
  let c72_i32_17 : BitVec 32 := 72#32
  let c0_i32_16 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c0_i32_15 : BitVec 32 := 0#32
  let v42 : BitVec 32 := Scalar.subi v38 c0_i32_15
  let v43 : BitVec 32 := Scalar.maxsi c0_i32_16 v42
  let v44 : BitVec 32 := Scalar.minsi c72_i32_17 v43
  let v45 : BitVec 32 := Scalar.subi v44 v41
  let c1_i32_20 : BitVec 32 := 1#32
  let v47 : BitVec 32 := Scalar.divsi v45 c1_i32_20
  let v48 : BitVec 32 := Scalar.muli v47 c1_i32_20
  let v49 : BitVec 32 := Scalar.addi v41 v48
  let c1_i32_22 : BitVec 32 := 1#32
  let arg12 : BitVec 32 := Scf.iv v49 c1_i32_22 k0_t2
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c21_i32 : BitVec 32 := 21#32
  let c3_i32_66 : BitVec 32 := 3#32
  let v127 : BitVec 32 := Scalar.muli v126 c3_i32_66
  let v128 : BitVec 32 := Scalar.subi arg12 v127
  let c8_i32_74 : BitVec 32 := 8#32
  let v143 : BitVec 32 := Scalar.muli v128 c8_i32_74
  let c0_i32_85 : BitVec 32 := 0#32
  ![v126.toNat, 21, v143.toNat, 0]
def k0_cond8 (i : grid0.Coords) (k0_t2 : Fin (k0_t2_loop i).trips) : BitVec 1 :=
  let c72_i32 : BitVec 32 := 72#32
  let c0_i32_14 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_13 : BitVec 32 := 0#32
  let v39 : BitVec 32 := Scalar.subi v19 c0_i32_13
  let v40 : BitVec 32 := Scalar.maxsi c0_i32_14 v39
  let v41 : BitVec 32 := Scalar.minsi c72_i32 v40
  let c72_i32_17 : BitVec 32 := 72#32
  let c0_i32_16 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c0_i32_15 : BitVec 32 := 0#32
  let v42 : BitVec 32 := Scalar.subi v38 c0_i32_15
  let v43 : BitVec 32 := Scalar.maxsi c0_i32_16 v42
  let v44 : BitVec 32 := Scalar.minsi c72_i32_17 v43
  let v45 : BitVec 32 := Scalar.subi v44 v41
  let c1_i32_20 : BitVec 32 := 1#32
  let v47 : BitVec 32 := Scalar.divsi v45 c1_i32_20
  let v48 : BitVec 32 := Scalar.muli v47 c1_i32_20
  let v49 : BitVec 32 := Scalar.addi v41 v48
  let c1_i32_22 : BitVec 32 := 1#32
  let arg12 : BitVec 32 := Scf.iv v49 c1_i32_22 k0_t2
  let c2_i32_67 : BitVec 32 := 2#32
  let c0_i32_68 : BitVec 32 := 0#32
  let v129 : BitVec 1 := Scalar.cmpi .eq c2_i32_67 c0_i32_68
  let c1_i32_69 : BitVec 32 := 1#32
  let v130 : BitVec 32 := Scalar.select v129 c1_i32_69 c2_i32_67
  let v131 : BitVec 32 := Scalar.remsi arg12 v130
  let c0_i32_71 : BitVec 32 := 0#32
  let v133 : BitVec 1 := Scalar.cmpi .slt v131 c0_i32_71
  let c0_i32_72 : BitVec 32 := 0#32
  let v134 : BitVec 1 := Scalar.cmpi .slt v130 c0_i32_72
  let v135 : BitVec 1 := Scalar.xori v133 v134
  let c0_i32_70 : BitVec 32 := 0#32
  let v132 : BitVec 1 := Scalar.cmpi .ne v131 c0_i32_70
  let v136 : BitVec 1 := Scalar.andi v135 v132
  let v137 : BitVec 32 := Scalar.addi v131 v130
  let v138 : BitVec 32 := Scalar.select v136 v137 v131
  let c0_i32_73 : BitVec 32 := 0#32
  let v139 : BitVec 1 := Scalar.cmpi .eq v138 c0_i32_73
  let true_80 : BitVec 1 := 1#1
  let v155 : BitVec 1 := Scalar.xori v139 true_80
  let v156 : BitVec 32 := Scalar.extui v155
  let c0_i32_82 : BitVec 32 := 0#32
  let v157 : BitVec 1 := Scalar.cmpi .ne v156 c0_i32_82
  v157

def k0_off7 (i : grid0.Coords) (k0_t2 : Fin (k0_t2_loop i).trips) : Fin 2 → Nat :=
  let c72_i32 : BitVec 32 := 72#32
  let c0_i32_14 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_13 : BitVec 32 := 0#32
  let v39 : BitVec 32 := Scalar.subi v19 c0_i32_13
  let v40 : BitVec 32 := Scalar.maxsi c0_i32_14 v39
  let v41 : BitVec 32 := Scalar.minsi c72_i32 v40
  let c72_i32_17 : BitVec 32 := 72#32
  let c0_i32_16 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c0_i32_15 : BitVec 32 := 0#32
  let v42 : BitVec 32 := Scalar.subi v38 c0_i32_15
  let v43 : BitVec 32 := Scalar.maxsi c0_i32_16 v42
  let v44 : BitVec 32 := Scalar.minsi c72_i32_17 v43
  let v45 : BitVec 32 := Scalar.subi v44 v41
  let c1_i32_20 : BitVec 32 := 1#32
  let v47 : BitVec 32 := Scalar.divsi v45 c1_i32_20
  let v48 : BitVec 32 := Scalar.muli v47 c1_i32_20
  let v49 : BitVec 32 := Scalar.addi v41 v48
  let c1_i32_22 : BitVec 32 := 1#32
  let arg12 : BitVec 32 := Scf.iv v49 c1_i32_22 k0_t2
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c24_i32 : BitVec 32 := 24#32
  let v140 : BitVec 32 := Scalar.muli v126 c24_i32
  let c3_i32_66 : BitVec 32 := 3#32
  let v127 : BitVec 32 := Scalar.muli v126 c3_i32_66
  let v128 : BitVec 32 := Scalar.subi arg12 v127
  let c8_i32 : BitVec 32 := 8#32
  let v141 : BitVec 32 := Scalar.muli v128 c8_i32
  let v142 : BitVec 32 := Scalar.addi v140 v141
  let c0_i32_87_r3 : BitVec 32 := 0#32
  ![v142.toNat, 0]
def k0_off8 (i : grid0.Coords) (k0_t2 : Fin (k0_t2_loop i).trips) : Fin 4 → Nat :=
  let c72_i32 : BitVec 32 := 72#32
  let c0_i32_14 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_13 : BitVec 32 := 0#32
  let v39 : BitVec 32 := Scalar.subi v19 c0_i32_13
  let v40 : BitVec 32 := Scalar.maxsi c0_i32_14 v39
  let v41 : BitVec 32 := Scalar.minsi c72_i32 v40
  let c72_i32_17 : BitVec 32 := 72#32
  let c0_i32_16 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c0_i32_15 : BitVec 32 := 0#32
  let v42 : BitVec 32 := Scalar.subi v38 c0_i32_15
  let v43 : BitVec 32 := Scalar.maxsi c0_i32_16 v42
  let v44 : BitVec 32 := Scalar.minsi c72_i32_17 v43
  let v45 : BitVec 32 := Scalar.subi v44 v41
  let c1_i32_20 : BitVec 32 := 1#32
  let v47 : BitVec 32 := Scalar.divsi v45 c1_i32_20
  let v48 : BitVec 32 := Scalar.muli v47 c1_i32_20
  let v49 : BitVec 32 := Scalar.addi v41 v48
  let c1_i32_22 : BitVec 32 := 1#32
  let arg12 : BitVec 32 := Scf.iv v49 c1_i32_22 k0_t2
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c21_i32_81 : BitVec 32 := 21#32
  let c3_i32_66 : BitVec 32 := 3#32
  let v127 : BitVec 32 := Scalar.muli v126 c3_i32_66
  let v128 : BitVec 32 := Scalar.subi arg12 v127
  let c8_i32_74 : BitVec 32 := 8#32
  let v143 : BitVec 32 := Scalar.muli v128 c8_i32_74
  let c0_i32_85 : BitVec 32 := 0#32
  ![v126.toNat, 21, v143.toNat, 0]
@[reducible] def k0_t3_loop (i : grid0.Coords) : Scf.Loop 32 :=
  let c72_i32_25 : BitVec 32 := 72#32
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c72_i32_23 : BitVec 32 := 72#32
  let v52 : BitVec 32 := Scalar.subi v19 c72_i32_23
  let v53 : BitVec 32 := Scalar.maxsi c0_i32_24 v52
  let v54 : BitVec 32 := Scalar.minsi c72_i32_25 v53
  let c72_i32_28 : BitVec 32 := 72#32
  let c0_i32_27 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c72_i32_26 : BitVec 32 := 72#32
  let v55 : BitVec 32 := Scalar.subi v38 c72_i32_26
  let v56 : BitVec 32 := Scalar.maxsi c0_i32_27 v55
  let v57 : BitVec 32 := Scalar.minsi c72_i32_28 v56
  let v58 : BitVec 32 := Scalar.subi v57 v54
  let c1_i32_29 : BitVec 32 := 1#32
  let v60 : BitVec 32 := Scalar.divsi v58 c1_i32_29
  let v61 : BitVec 32 := Scalar.muli v60 c1_i32_29
  let v62 : BitVec 32 := Scalar.addi v54 v61
  let c1_i32_30 : BitVec 32 := 1#32
  ⟨v54, v62, c1_i32_30⟩
def k0_cond11 (i : grid0.Coords) (k0_t3 : Fin (k0_t3_loop i).trips) : BitVec 1 :=
  let c72_i32_25 : BitVec 32 := 72#32
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c72_i32_23 : BitVec 32 := 72#32
  let v52 : BitVec 32 := Scalar.subi v19 c72_i32_23
  let v53 : BitVec 32 := Scalar.maxsi c0_i32_24 v52
  let v54 : BitVec 32 := Scalar.minsi c72_i32_25 v53
  let c1_i32_30 : BitVec 32 := 1#32
  let arg12 : BitVec 32 := Scf.iv v54 c1_i32_30 k0_t3
  let c2_i32_67 : BitVec 32 := 2#32
  let c0_i32_68 : BitVec 32 := 0#32
  let v129 : BitVec 1 := Scalar.cmpi .eq c2_i32_67 c0_i32_68
  let c1_i32_69 : BitVec 32 := 1#32
  let v130 : BitVec 32 := Scalar.select v129 c1_i32_69 c2_i32_67
  let v131 : BitVec 32 := Scalar.remsi arg12 v130
  let c0_i32_71 : BitVec 32 := 0#32
  let v133 : BitVec 1 := Scalar.cmpi .slt v131 c0_i32_71
  let c0_i32_72 : BitVec 32 := 0#32
  let v134 : BitVec 1 := Scalar.cmpi .slt v130 c0_i32_72
  let v135 : BitVec 1 := Scalar.xori v133 v134
  let c0_i32_70 : BitVec 32 := 0#32
  let v132 : BitVec 1 := Scalar.cmpi .ne v131 c0_i32_70
  let v136 : BitVec 1 := Scalar.andi v135 v132
  let v137 : BitVec 32 := Scalar.addi v131 v130
  let v138 : BitVec 32 := Scalar.select v136 v137 v131
  let c0_i32_73 : BitVec 32 := 0#32
  let v139 : BitVec 1 := Scalar.cmpi .eq v138 c0_i32_73
  let v153 : BitVec 32 := Scalar.extui v139
  let c0_i32_79 : BitVec 32 := 0#32
  let v154 : BitVec 1 := Scalar.cmpi .ne v153 c0_i32_79
  v154

def k0_off9 (i : grid0.Coords) (k0_t3 : Fin (k0_t3_loop i).trips) : Fin 2 → Nat :=
  let c72_i32_25 : BitVec 32 := 72#32
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c72_i32_23 : BitVec 32 := 72#32
  let v52 : BitVec 32 := Scalar.subi v19 c72_i32_23
  let v53 : BitVec 32 := Scalar.maxsi c0_i32_24 v52
  let v54 : BitVec 32 := Scalar.minsi c72_i32_25 v53
  let c1_i32_30 : BitVec 32 := 1#32
  let arg12 : BitVec 32 := Scf.iv v54 c1_i32_30 k0_t3
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c24_i32 : BitVec 32 := 24#32
  let v140 : BitVec 32 := Scalar.muli v126 c24_i32
  let c3_i32_66 : BitVec 32 := 3#32
  let v127 : BitVec 32 := Scalar.muli v126 c3_i32_66
  let v128 : BitVec 32 := Scalar.subi arg12 v127
  let c8_i32 : BitVec 32 := 8#32
  let v141 : BitVec 32 := Scalar.muli v128 c8_i32
  let v142 : BitVec 32 := Scalar.addi v140 v141
  let c0_i32_87_r4 : BitVec 32 := 0#32
  ![v142.toNat, 0]
def k0_off10 (i : grid0.Coords) (k0_t3 : Fin (k0_t3_loop i).trips) : Fin 4 → Nat :=
  let c72_i32_25 : BitVec 32 := 72#32
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c72_i32_23 : BitVec 32 := 72#32
  let v52 : BitVec 32 := Scalar.subi v19 c72_i32_23
  let v53 : BitVec 32 := Scalar.maxsi c0_i32_24 v52
  let v54 : BitVec 32 := Scalar.minsi c72_i32_25 v53
  let c1_i32_30 : BitVec 32 := 1#32
  let arg12 : BitVec 32 := Scf.iv v54 c1_i32_30 k0_t3
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c22_i32 : BitVec 32 := 22#32
  let c3_i32_66 : BitVec 32 := 3#32
  let v127 : BitVec 32 := Scalar.muli v126 c3_i32_66
  let v128 : BitVec 32 := Scalar.subi arg12 v127
  let c8_i32_74 : BitVec 32 := 8#32
  let v143 : BitVec 32 := Scalar.muli v128 c8_i32_74
  let c0_i32_85 : BitVec 32 := 0#32
  ![v126.toNat, 22, v143.toNat, 0]
def k0_cond12 (i : grid0.Coords) (k0_t3 : Fin (k0_t3_loop i).trips) : BitVec 1 :=
  let c72_i32_25 : BitVec 32 := 72#32
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c72_i32_23 : BitVec 32 := 72#32
  let v52 : BitVec 32 := Scalar.subi v19 c72_i32_23
  let v53 : BitVec 32 := Scalar.maxsi c0_i32_24 v52
  let v54 : BitVec 32 := Scalar.minsi c72_i32_25 v53
  let c1_i32_30 : BitVec 32 := 1#32
  let arg12 : BitVec 32 := Scf.iv v54 c1_i32_30 k0_t3
  let c2_i32_67 : BitVec 32 := 2#32
  let c0_i32_68 : BitVec 32 := 0#32
  let v129 : BitVec 1 := Scalar.cmpi .eq c2_i32_67 c0_i32_68
  let c1_i32_69 : BitVec 32 := 1#32
  let v130 : BitVec 32 := Scalar.select v129 c1_i32_69 c2_i32_67
  let v131 : BitVec 32 := Scalar.remsi arg12 v130
  let c0_i32_71 : BitVec 32 := 0#32
  let v133 : BitVec 1 := Scalar.cmpi .slt v131 c0_i32_71
  let c0_i32_72 : BitVec 32 := 0#32
  let v134 : BitVec 1 := Scalar.cmpi .slt v130 c0_i32_72
  let v135 : BitVec 1 := Scalar.xori v133 v134
  let c0_i32_70 : BitVec 32 := 0#32
  let v132 : BitVec 1 := Scalar.cmpi .ne v131 c0_i32_70
  let v136 : BitVec 1 := Scalar.andi v135 v132
  let v137 : BitVec 32 := Scalar.addi v131 v130
  let v138 : BitVec 32 := Scalar.select v136 v137 v131
  let c0_i32_73 : BitVec 32 := 0#32
  let v139 : BitVec 1 := Scalar.cmpi .eq v138 c0_i32_73
  let true_80 : BitVec 1 := 1#1
  let v155 : BitVec 1 := Scalar.xori v139 true_80
  let v156 : BitVec 32 := Scalar.extui v155
  let c0_i32_82 : BitVec 32 := 0#32
  let v157 : BitVec 1 := Scalar.cmpi .ne v156 c0_i32_82
  v157

def k0_off11 (i : grid0.Coords) (k0_t3 : Fin (k0_t3_loop i).trips) : Fin 2 → Nat :=
  let c72_i32_25 : BitVec 32 := 72#32
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c72_i32_23 : BitVec 32 := 72#32
  let v52 : BitVec 32 := Scalar.subi v19 c72_i32_23
  let v53 : BitVec 32 := Scalar.maxsi c0_i32_24 v52
  let v54 : BitVec 32 := Scalar.minsi c72_i32_25 v53
  let c1_i32_30 : BitVec 32 := 1#32
  let arg12 : BitVec 32 := Scf.iv v54 c1_i32_30 k0_t3
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c24_i32 : BitVec 32 := 24#32
  let v140 : BitVec 32 := Scalar.muli v126 c24_i32
  let c3_i32_66 : BitVec 32 := 3#32
  let v127 : BitVec 32 := Scalar.muli v126 c3_i32_66
  let v128 : BitVec 32 := Scalar.subi arg12 v127
  let c8_i32 : BitVec 32 := 8#32
  let v141 : BitVec 32 := Scalar.muli v128 c8_i32
  let v142 : BitVec 32 := Scalar.addi v140 v141
  let c0_i32_87_r5 : BitVec 32 := 0#32
  ![v142.toNat, 0]
def k0_off12 (i : grid0.Coords) (k0_t3 : Fin (k0_t3_loop i).trips) : Fin 4 → Nat :=
  let c72_i32_25 : BitVec 32 := 72#32
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c72_i32_23 : BitVec 32 := 72#32
  let v52 : BitVec 32 := Scalar.subi v19 c72_i32_23
  let v53 : BitVec 32 := Scalar.maxsi c0_i32_24 v52
  let v54 : BitVec 32 := Scalar.minsi c72_i32_25 v53
  let c1_i32_30 : BitVec 32 := 1#32
  let arg12 : BitVec 32 := Scf.iv v54 c1_i32_30 k0_t3
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c22_i32_81 : BitVec 32 := 22#32
  let c3_i32_66 : BitVec 32 := 3#32
  let v127 : BitVec 32 := Scalar.muli v126 c3_i32_66
  let v128 : BitVec 32 := Scalar.subi arg12 v127
  let c8_i32_74 : BitVec 32 := 8#32
  let v143 : BitVec 32 := Scalar.muli v128 c8_i32_74
  let c0_i32_85 : BitVec 32 := 0#32
  ![v126.toNat, 22, v143.toNat, 0]
@[reducible] def k0_t4_loop (i : grid0.Coords) : Scf.Loop 32 :=
  let c72_i32_25 : BitVec 32 := 72#32
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c72_i32_23 : BitVec 32 := 72#32
  let v52 : BitVec 32 := Scalar.subi v19 c72_i32_23
  let v53 : BitVec 32 := Scalar.maxsi c0_i32_24 v52
  let v54 : BitVec 32 := Scalar.minsi c72_i32_25 v53
  let c72_i32_28 : BitVec 32 := 72#32
  let c0_i32_27 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c72_i32_26 : BitVec 32 := 72#32
  let v55 : BitVec 32 := Scalar.subi v38 c72_i32_26
  let v56 : BitVec 32 := Scalar.maxsi c0_i32_27 v55
  let v57 : BitVec 32 := Scalar.minsi c72_i32_28 v56
  let v58 : BitVec 32 := Scalar.subi v57 v54
  let c1_i32_29 : BitVec 32 := 1#32
  let v60 : BitVec 32 := Scalar.divsi v58 c1_i32_29
  let v61 : BitVec 32 := Scalar.muli v60 c1_i32_29
  let v62 : BitVec 32 := Scalar.addi v54 v61
  let v59 : BitVec 32 := Scalar.addi v54 v58
  let c1_i32_31 : BitVec 32 := 1#32
  ⟨v62, v59, c1_i32_31⟩
def k0_cond15 (i : grid0.Coords) (k0_t4 : Fin (k0_t4_loop i).trips) : BitVec 1 :=
  let c72_i32_25 : BitVec 32 := 72#32
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c72_i32_23 : BitVec 32 := 72#32
  let v52 : BitVec 32 := Scalar.subi v19 c72_i32_23
  let v53 : BitVec 32 := Scalar.maxsi c0_i32_24 v52
  let v54 : BitVec 32 := Scalar.minsi c72_i32_25 v53
  let c72_i32_28 : BitVec 32 := 72#32
  let c0_i32_27 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c72_i32_26 : BitVec 32 := 72#32
  let v55 : BitVec 32 := Scalar.subi v38 c72_i32_26
  let v56 : BitVec 32 := Scalar.maxsi c0_i32_27 v55
  let v57 : BitVec 32 := Scalar.minsi c72_i32_28 v56
  let v58 : BitVec 32 := Scalar.subi v57 v54
  let c1_i32_29 : BitVec 32 := 1#32
  let v60 : BitVec 32 := Scalar.divsi v58 c1_i32_29
  let v61 : BitVec 32 := Scalar.muli v60 c1_i32_29
  let v62 : BitVec 32 := Scalar.addi v54 v61
  let c1_i32_31 : BitVec 32 := 1#32
  let arg12 : BitVec 32 := Scf.iv v62 c1_i32_31 k0_t4
  let c2_i32_67 : BitVec 32 := 2#32
  let c0_i32_68 : BitVec 32 := 0#32
  let v129 : BitVec 1 := Scalar.cmpi .eq c2_i32_67 c0_i32_68
  let c1_i32_69 : BitVec 32 := 1#32
  let v130 : BitVec 32 := Scalar.select v129 c1_i32_69 c2_i32_67
  let v131 : BitVec 32 := Scalar.remsi arg12 v130
  let c0_i32_71 : BitVec 32 := 0#32
  let v133 : BitVec 1 := Scalar.cmpi .slt v131 c0_i32_71
  let c0_i32_72 : BitVec 32 := 0#32
  let v134 : BitVec 1 := Scalar.cmpi .slt v130 c0_i32_72
  let v135 : BitVec 1 := Scalar.xori v133 v134
  let c0_i32_70 : BitVec 32 := 0#32
  let v132 : BitVec 1 := Scalar.cmpi .ne v131 c0_i32_70
  let v136 : BitVec 1 := Scalar.andi v135 v132
  let v137 : BitVec 32 := Scalar.addi v131 v130
  let v138 : BitVec 32 := Scalar.select v136 v137 v131
  let c0_i32_73 : BitVec 32 := 0#32
  let v139 : BitVec 1 := Scalar.cmpi .eq v138 c0_i32_73
  let v153 : BitVec 32 := Scalar.extui v139
  let c0_i32_79 : BitVec 32 := 0#32
  let v154 : BitVec 1 := Scalar.cmpi .ne v153 c0_i32_79
  v154

def k0_off13 (i : grid0.Coords) (k0_t4 : Fin (k0_t4_loop i).trips) : Fin 2 → Nat :=
  let c72_i32_25 : BitVec 32 := 72#32
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c72_i32_23 : BitVec 32 := 72#32
  let v52 : BitVec 32 := Scalar.subi v19 c72_i32_23
  let v53 : BitVec 32 := Scalar.maxsi c0_i32_24 v52
  let v54 : BitVec 32 := Scalar.minsi c72_i32_25 v53
  let c72_i32_28 : BitVec 32 := 72#32
  let c0_i32_27 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c72_i32_26 : BitVec 32 := 72#32
  let v55 : BitVec 32 := Scalar.subi v38 c72_i32_26
  let v56 : BitVec 32 := Scalar.maxsi c0_i32_27 v55
  let v57 : BitVec 32 := Scalar.minsi c72_i32_28 v56
  let v58 : BitVec 32 := Scalar.subi v57 v54
  let c1_i32_29 : BitVec 32 := 1#32
  let v60 : BitVec 32 := Scalar.divsi v58 c1_i32_29
  let v61 : BitVec 32 := Scalar.muli v60 c1_i32_29
  let v62 : BitVec 32 := Scalar.addi v54 v61
  let c1_i32_31 : BitVec 32 := 1#32
  let arg12 : BitVec 32 := Scf.iv v62 c1_i32_31 k0_t4
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c24_i32 : BitVec 32 := 24#32
  let v140 : BitVec 32 := Scalar.muli v126 c24_i32
  let c3_i32_66 : BitVec 32 := 3#32
  let v127 : BitVec 32 := Scalar.muli v126 c3_i32_66
  let v128 : BitVec 32 := Scalar.subi arg12 v127
  let c8_i32 : BitVec 32 := 8#32
  let v141 : BitVec 32 := Scalar.muli v128 c8_i32
  let v142 : BitVec 32 := Scalar.addi v140 v141
  let c0_i32_87_r6 : BitVec 32 := 0#32
  ![v142.toNat, 0]
def k0_off14 (i : grid0.Coords) (k0_t4 : Fin (k0_t4_loop i).trips) : Fin 4 → Nat :=
  let c72_i32_25 : BitVec 32 := 72#32
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c72_i32_23 : BitVec 32 := 72#32
  let v52 : BitVec 32 := Scalar.subi v19 c72_i32_23
  let v53 : BitVec 32 := Scalar.maxsi c0_i32_24 v52
  let v54 : BitVec 32 := Scalar.minsi c72_i32_25 v53
  let c72_i32_28 : BitVec 32 := 72#32
  let c0_i32_27 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c72_i32_26 : BitVec 32 := 72#32
  let v55 : BitVec 32 := Scalar.subi v38 c72_i32_26
  let v56 : BitVec 32 := Scalar.maxsi c0_i32_27 v55
  let v57 : BitVec 32 := Scalar.minsi c72_i32_28 v56
  let v58 : BitVec 32 := Scalar.subi v57 v54
  let c1_i32_29 : BitVec 32 := 1#32
  let v60 : BitVec 32 := Scalar.divsi v58 c1_i32_29
  let v61 : BitVec 32 := Scalar.muli v60 c1_i32_29
  let v62 : BitVec 32 := Scalar.addi v54 v61
  let c1_i32_31 : BitVec 32 := 1#32
  let arg12 : BitVec 32 := Scf.iv v62 c1_i32_31 k0_t4
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c22_i32 : BitVec 32 := 22#32
  let c3_i32_66 : BitVec 32 := 3#32
  let v127 : BitVec 32 := Scalar.muli v126 c3_i32_66
  let v128 : BitVec 32 := Scalar.subi arg12 v127
  let c8_i32_74 : BitVec 32 := 8#32
  let v143 : BitVec 32 := Scalar.muli v128 c8_i32_74
  let c0_i32_85 : BitVec 32 := 0#32
  ![v126.toNat, 22, v143.toNat, 0]
def k0_cond16 (i : grid0.Coords) (k0_t4 : Fin (k0_t4_loop i).trips) : BitVec 1 :=
  let c72_i32_25 : BitVec 32 := 72#32
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c72_i32_23 : BitVec 32 := 72#32
  let v52 : BitVec 32 := Scalar.subi v19 c72_i32_23
  let v53 : BitVec 32 := Scalar.maxsi c0_i32_24 v52
  let v54 : BitVec 32 := Scalar.minsi c72_i32_25 v53
  let c72_i32_28 : BitVec 32 := 72#32
  let c0_i32_27 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c72_i32_26 : BitVec 32 := 72#32
  let v55 : BitVec 32 := Scalar.subi v38 c72_i32_26
  let v56 : BitVec 32 := Scalar.maxsi c0_i32_27 v55
  let v57 : BitVec 32 := Scalar.minsi c72_i32_28 v56
  let v58 : BitVec 32 := Scalar.subi v57 v54
  let c1_i32_29 : BitVec 32 := 1#32
  let v60 : BitVec 32 := Scalar.divsi v58 c1_i32_29
  let v61 : BitVec 32 := Scalar.muli v60 c1_i32_29
  let v62 : BitVec 32 := Scalar.addi v54 v61
  let c1_i32_31 : BitVec 32 := 1#32
  let arg12 : BitVec 32 := Scf.iv v62 c1_i32_31 k0_t4
  let c2_i32_67 : BitVec 32 := 2#32
  let c0_i32_68 : BitVec 32 := 0#32
  let v129 : BitVec 1 := Scalar.cmpi .eq c2_i32_67 c0_i32_68
  let c1_i32_69 : BitVec 32 := 1#32
  let v130 : BitVec 32 := Scalar.select v129 c1_i32_69 c2_i32_67
  let v131 : BitVec 32 := Scalar.remsi arg12 v130
  let c0_i32_71 : BitVec 32 := 0#32
  let v133 : BitVec 1 := Scalar.cmpi .slt v131 c0_i32_71
  let c0_i32_72 : BitVec 32 := 0#32
  let v134 : BitVec 1 := Scalar.cmpi .slt v130 c0_i32_72
  let v135 : BitVec 1 := Scalar.xori v133 v134
  let c0_i32_70 : BitVec 32 := 0#32
  let v132 : BitVec 1 := Scalar.cmpi .ne v131 c0_i32_70
  let v136 : BitVec 1 := Scalar.andi v135 v132
  let v137 : BitVec 32 := Scalar.addi v131 v130
  let v138 : BitVec 32 := Scalar.select v136 v137 v131
  let c0_i32_73 : BitVec 32 := 0#32
  let v139 : BitVec 1 := Scalar.cmpi .eq v138 c0_i32_73
  let true_80 : BitVec 1 := 1#1
  let v155 : BitVec 1 := Scalar.xori v139 true_80
  let v156 : BitVec 32 := Scalar.extui v155
  let c0_i32_82 : BitVec 32 := 0#32
  let v157 : BitVec 1 := Scalar.cmpi .ne v156 c0_i32_82
  v157

def k0_off15 (i : grid0.Coords) (k0_t4 : Fin (k0_t4_loop i).trips) : Fin 2 → Nat :=
  let c72_i32_25 : BitVec 32 := 72#32
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c72_i32_23 : BitVec 32 := 72#32
  let v52 : BitVec 32 := Scalar.subi v19 c72_i32_23
  let v53 : BitVec 32 := Scalar.maxsi c0_i32_24 v52
  let v54 : BitVec 32 := Scalar.minsi c72_i32_25 v53
  let c72_i32_28 : BitVec 32 := 72#32
  let c0_i32_27 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c72_i32_26 : BitVec 32 := 72#32
  let v55 : BitVec 32 := Scalar.subi v38 c72_i32_26
  let v56 : BitVec 32 := Scalar.maxsi c0_i32_27 v55
  let v57 : BitVec 32 := Scalar.minsi c72_i32_28 v56
  let v58 : BitVec 32 := Scalar.subi v57 v54
  let c1_i32_29 : BitVec 32 := 1#32
  let v60 : BitVec 32 := Scalar.divsi v58 c1_i32_29
  let v61 : BitVec 32 := Scalar.muli v60 c1_i32_29
  let v62 : BitVec 32 := Scalar.addi v54 v61
  let c1_i32_31 : BitVec 32 := 1#32
  let arg12 : BitVec 32 := Scf.iv v62 c1_i32_31 k0_t4
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c24_i32 : BitVec 32 := 24#32
  let v140 : BitVec 32 := Scalar.muli v126 c24_i32
  let c3_i32_66 : BitVec 32 := 3#32
  let v127 : BitVec 32 := Scalar.muli v126 c3_i32_66
  let v128 : BitVec 32 := Scalar.subi arg12 v127
  let c8_i32 : BitVec 32 := 8#32
  let v141 : BitVec 32 := Scalar.muli v128 c8_i32
  let v142 : BitVec 32 := Scalar.addi v140 v141
  let c0_i32_87_r7 : BitVec 32 := 0#32
  ![v142.toNat, 0]
def k0_off16 (i : grid0.Coords) (k0_t4 : Fin (k0_t4_loop i).trips) : Fin 4 → Nat :=
  let c72_i32_25 : BitVec 32 := 72#32
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c72_i32_23 : BitVec 32 := 72#32
  let v52 : BitVec 32 := Scalar.subi v19 c72_i32_23
  let v53 : BitVec 32 := Scalar.maxsi c0_i32_24 v52
  let v54 : BitVec 32 := Scalar.minsi c72_i32_25 v53
  let c72_i32_28 : BitVec 32 := 72#32
  let c0_i32_27 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c72_i32_26 : BitVec 32 := 72#32
  let v55 : BitVec 32 := Scalar.subi v38 c72_i32_26
  let v56 : BitVec 32 := Scalar.maxsi c0_i32_27 v55
  let v57 : BitVec 32 := Scalar.minsi c72_i32_28 v56
  let v58 : BitVec 32 := Scalar.subi v57 v54
  let c1_i32_29 : BitVec 32 := 1#32
  let v60 : BitVec 32 := Scalar.divsi v58 c1_i32_29
  let v61 : BitVec 32 := Scalar.muli v60 c1_i32_29
  let v62 : BitVec 32 := Scalar.addi v54 v61
  let c1_i32_31 : BitVec 32 := 1#32
  let arg12 : BitVec 32 := Scf.iv v62 c1_i32_31 k0_t4
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c22_i32_81 : BitVec 32 := 22#32
  let c3_i32_66 : BitVec 32 := 3#32
  let v127 : BitVec 32 := Scalar.muli v126 c3_i32_66
  let v128 : BitVec 32 := Scalar.subi arg12 v127
  let c8_i32_74 : BitVec 32 := 8#32
  let v143 : BitVec 32 := Scalar.muli v128 c8_i32_74
  let c0_i32_85 : BitVec 32 := 0#32
  ![v126.toNat, 22, v143.toNat, 0]
@[reducible] def k0_t5_loop (i : grid0.Coords) : Scf.Loop 32 :=
  let c72_i32_33 : BitVec 32 := 72#32
  let c0_i32_32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c144_i32 : BitVec 32 := 144#32
  let v65 : BitVec 32 := Scalar.subi v19 c144_i32
  let v66 : BitVec 32 := Scalar.maxsi c0_i32_32 v65
  let v67 : BitVec 32 := Scalar.minsi c72_i32_33 v66
  let c72_i32_36 : BitVec 32 := 72#32
  let c0_i32_35 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c144_i32_34 : BitVec 32 := 144#32
  let v68 : BitVec 32 := Scalar.subi v38 c144_i32_34
  let v69 : BitVec 32 := Scalar.maxsi c0_i32_35 v68
  let v70 : BitVec 32 := Scalar.minsi c72_i32_36 v69
  let v71 : BitVec 32 := Scalar.subi v70 v67
  let c1_i32_37 : BitVec 32 := 1#32
  let v73 : BitVec 32 := Scalar.divsi v71 c1_i32_37
  let v74 : BitVec 32 := Scalar.muli v73 c1_i32_37
  let v75 : BitVec 32 := Scalar.addi v67 v74
  let c1_i32_38 : BitVec 32 := 1#32
  ⟨v67, v75, c1_i32_38⟩
def k0_cond19 (i : grid0.Coords) (k0_t5 : Fin (k0_t5_loop i).trips) : BitVec 1 :=
  let c72_i32_33 : BitVec 32 := 72#32
  let c0_i32_32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c144_i32 : BitVec 32 := 144#32
  let v65 : BitVec 32 := Scalar.subi v19 c144_i32
  let v66 : BitVec 32 := Scalar.maxsi c0_i32_32 v65
  let v67 : BitVec 32 := Scalar.minsi c72_i32_33 v66
  let c1_i32_38 : BitVec 32 := 1#32
  let arg12 : BitVec 32 := Scf.iv v67 c1_i32_38 k0_t5
  let c2_i32_67 : BitVec 32 := 2#32
  let c0_i32_68 : BitVec 32 := 0#32
  let v129 : BitVec 1 := Scalar.cmpi .eq c2_i32_67 c0_i32_68
  let c1_i32_69 : BitVec 32 := 1#32
  let v130 : BitVec 32 := Scalar.select v129 c1_i32_69 c2_i32_67
  let v131 : BitVec 32 := Scalar.remsi arg12 v130
  let c0_i32_71 : BitVec 32 := 0#32
  let v133 : BitVec 1 := Scalar.cmpi .slt v131 c0_i32_71
  let c0_i32_72 : BitVec 32 := 0#32
  let v134 : BitVec 1 := Scalar.cmpi .slt v130 c0_i32_72
  let v135 : BitVec 1 := Scalar.xori v133 v134
  let c0_i32_70 : BitVec 32 := 0#32
  let v132 : BitVec 1 := Scalar.cmpi .ne v131 c0_i32_70
  let v136 : BitVec 1 := Scalar.andi v135 v132
  let v137 : BitVec 32 := Scalar.addi v131 v130
  let v138 : BitVec 32 := Scalar.select v136 v137 v131
  let c0_i32_73 : BitVec 32 := 0#32
  let v139 : BitVec 1 := Scalar.cmpi .eq v138 c0_i32_73
  let v153 : BitVec 32 := Scalar.extui v139
  let c0_i32_79 : BitVec 32 := 0#32
  let v154 : BitVec 1 := Scalar.cmpi .ne v153 c0_i32_79
  v154

def k0_off17 (i : grid0.Coords) (k0_t5 : Fin (k0_t5_loop i).trips) : Fin 2 → Nat :=
  let c72_i32_33 : BitVec 32 := 72#32
  let c0_i32_32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c144_i32 : BitVec 32 := 144#32
  let v65 : BitVec 32 := Scalar.subi v19 c144_i32
  let v66 : BitVec 32 := Scalar.maxsi c0_i32_32 v65
  let v67 : BitVec 32 := Scalar.minsi c72_i32_33 v66
  let c1_i32_38 : BitVec 32 := 1#32
  let arg12 : BitVec 32 := Scf.iv v67 c1_i32_38 k0_t5
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c24_i32 : BitVec 32 := 24#32
  let v140 : BitVec 32 := Scalar.muli v126 c24_i32
  let c3_i32_66 : BitVec 32 := 3#32
  let v127 : BitVec 32 := Scalar.muli v126 c3_i32_66
  let v128 : BitVec 32 := Scalar.subi arg12 v127
  let c8_i32 : BitVec 32 := 8#32
  let v141 : BitVec 32 := Scalar.muli v128 c8_i32
  let v142 : BitVec 32 := Scalar.addi v140 v141
  let c0_i32_87_r8 : BitVec 32 := 0#32
  ![v142.toNat, 0]
def k0_off18 (i : grid0.Coords) (k0_t5 : Fin (k0_t5_loop i).trips) : Fin 4 → Nat :=
  let c72_i32_33 : BitVec 32 := 72#32
  let c0_i32_32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c144_i32 : BitVec 32 := 144#32
  let v65 : BitVec 32 := Scalar.subi v19 c144_i32
  let v66 : BitVec 32 := Scalar.maxsi c0_i32_32 v65
  let v67 : BitVec 32 := Scalar.minsi c72_i32_33 v66
  let c1_i32_38 : BitVec 32 := 1#32
  let arg12 : BitVec 32 := Scf.iv v67 c1_i32_38 k0_t5
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c23_i32 : BitVec 32 := 23#32
  let c3_i32_66 : BitVec 32 := 3#32
  let v127 : BitVec 32 := Scalar.muli v126 c3_i32_66
  let v128 : BitVec 32 := Scalar.subi arg12 v127
  let c8_i32_74 : BitVec 32 := 8#32
  let v143 : BitVec 32 := Scalar.muli v128 c8_i32_74
  let c0_i32_85 : BitVec 32 := 0#32
  ![v126.toNat, 23, v143.toNat, 0]
def k0_cond20 (i : grid0.Coords) (k0_t5 : Fin (k0_t5_loop i).trips) : BitVec 1 :=
  let c72_i32_33 : BitVec 32 := 72#32
  let c0_i32_32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c144_i32 : BitVec 32 := 144#32
  let v65 : BitVec 32 := Scalar.subi v19 c144_i32
  let v66 : BitVec 32 := Scalar.maxsi c0_i32_32 v65
  let v67 : BitVec 32 := Scalar.minsi c72_i32_33 v66
  let c1_i32_38 : BitVec 32 := 1#32
  let arg12 : BitVec 32 := Scf.iv v67 c1_i32_38 k0_t5
  let c2_i32_67 : BitVec 32 := 2#32
  let c0_i32_68 : BitVec 32 := 0#32
  let v129 : BitVec 1 := Scalar.cmpi .eq c2_i32_67 c0_i32_68
  let c1_i32_69 : BitVec 32 := 1#32
  let v130 : BitVec 32 := Scalar.select v129 c1_i32_69 c2_i32_67
  let v131 : BitVec 32 := Scalar.remsi arg12 v130
  let c0_i32_71 : BitVec 32 := 0#32
  let v133 : BitVec 1 := Scalar.cmpi .slt v131 c0_i32_71
  let c0_i32_72 : BitVec 32 := 0#32
  let v134 : BitVec 1 := Scalar.cmpi .slt v130 c0_i32_72
  let v135 : BitVec 1 := Scalar.xori v133 v134
  let c0_i32_70 : BitVec 32 := 0#32
  let v132 : BitVec 1 := Scalar.cmpi .ne v131 c0_i32_70
  let v136 : BitVec 1 := Scalar.andi v135 v132
  let v137 : BitVec 32 := Scalar.addi v131 v130
  let v138 : BitVec 32 := Scalar.select v136 v137 v131
  let c0_i32_73 : BitVec 32 := 0#32
  let v139 : BitVec 1 := Scalar.cmpi .eq v138 c0_i32_73
  let true_80 : BitVec 1 := 1#1
  let v155 : BitVec 1 := Scalar.xori v139 true_80
  let v156 : BitVec 32 := Scalar.extui v155
  let c0_i32_82 : BitVec 32 := 0#32
  let v157 : BitVec 1 := Scalar.cmpi .ne v156 c0_i32_82
  v157

def k0_off19 (i : grid0.Coords) (k0_t5 : Fin (k0_t5_loop i).trips) : Fin 2 → Nat :=
  let c72_i32_33 : BitVec 32 := 72#32
  let c0_i32_32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c144_i32 : BitVec 32 := 144#32
  let v65 : BitVec 32 := Scalar.subi v19 c144_i32
  let v66 : BitVec 32 := Scalar.maxsi c0_i32_32 v65
  let v67 : BitVec 32 := Scalar.minsi c72_i32_33 v66
  let c1_i32_38 : BitVec 32 := 1#32
  let arg12 : BitVec 32 := Scf.iv v67 c1_i32_38 k0_t5
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c24_i32 : BitVec 32 := 24#32
  let v140 : BitVec 32 := Scalar.muli v126 c24_i32
  let c3_i32_66 : BitVec 32 := 3#32
  let v127 : BitVec 32 := Scalar.muli v126 c3_i32_66
  let v128 : BitVec 32 := Scalar.subi arg12 v127
  let c8_i32 : BitVec 32 := 8#32
  let v141 : BitVec 32 := Scalar.muli v128 c8_i32
  let v142 : BitVec 32 := Scalar.addi v140 v141
  let c0_i32_87_r9 : BitVec 32 := 0#32
  ![v142.toNat, 0]
def k0_off20 (i : grid0.Coords) (k0_t5 : Fin (k0_t5_loop i).trips) : Fin 4 → Nat :=
  let c72_i32_33 : BitVec 32 := 72#32
  let c0_i32_32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c144_i32 : BitVec 32 := 144#32
  let v65 : BitVec 32 := Scalar.subi v19 c144_i32
  let v66 : BitVec 32 := Scalar.maxsi c0_i32_32 v65
  let v67 : BitVec 32 := Scalar.minsi c72_i32_33 v66
  let c1_i32_38 : BitVec 32 := 1#32
  let arg12 : BitVec 32 := Scf.iv v67 c1_i32_38 k0_t5
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c23_i32_81 : BitVec 32 := 23#32
  let c3_i32_66 : BitVec 32 := 3#32
  let v127 : BitVec 32 := Scalar.muli v126 c3_i32_66
  let v128 : BitVec 32 := Scalar.subi arg12 v127
  let c8_i32_74 : BitVec 32 := 8#32
  let v143 : BitVec 32 := Scalar.muli v128 c8_i32_74
  let c0_i32_85 : BitVec 32 := 0#32
  ![v126.toNat, 23, v143.toNat, 0]
@[reducible] def k0_t6_loop (i : grid0.Coords) : Scf.Loop 32 :=
  let c72_i32_33 : BitVec 32 := 72#32
  let c0_i32_32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c144_i32 : BitVec 32 := 144#32
  let v65 : BitVec 32 := Scalar.subi v19 c144_i32
  let v66 : BitVec 32 := Scalar.maxsi c0_i32_32 v65
  let v67 : BitVec 32 := Scalar.minsi c72_i32_33 v66
  let c72_i32_36 : BitVec 32 := 72#32
  let c0_i32_35 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c144_i32_34 : BitVec 32 := 144#32
  let v68 : BitVec 32 := Scalar.subi v38 c144_i32_34
  let v69 : BitVec 32 := Scalar.maxsi c0_i32_35 v68
  let v70 : BitVec 32 := Scalar.minsi c72_i32_36 v69
  let v71 : BitVec 32 := Scalar.subi v70 v67
  let c1_i32_37 : BitVec 32 := 1#32
  let v73 : BitVec 32 := Scalar.divsi v71 c1_i32_37
  let v74 : BitVec 32 := Scalar.muli v73 c1_i32_37
  let v75 : BitVec 32 := Scalar.addi v67 v74
  let v72 : BitVec 32 := Scalar.addi v67 v71
  let c1_i32_39 : BitVec 32 := 1#32
  ⟨v75, v72, c1_i32_39⟩
def k0_cond23 (i : grid0.Coords) (k0_t6 : Fin (k0_t6_loop i).trips) : BitVec 1 :=
  let c72_i32_33 : BitVec 32 := 72#32
  let c0_i32_32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c144_i32 : BitVec 32 := 144#32
  let v65 : BitVec 32 := Scalar.subi v19 c144_i32
  let v66 : BitVec 32 := Scalar.maxsi c0_i32_32 v65
  let v67 : BitVec 32 := Scalar.minsi c72_i32_33 v66
  let c72_i32_36 : BitVec 32 := 72#32
  let c0_i32_35 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c144_i32_34 : BitVec 32 := 144#32
  let v68 : BitVec 32 := Scalar.subi v38 c144_i32_34
  let v69 : BitVec 32 := Scalar.maxsi c0_i32_35 v68
  let v70 : BitVec 32 := Scalar.minsi c72_i32_36 v69
  let v71 : BitVec 32 := Scalar.subi v70 v67
  let c1_i32_37 : BitVec 32 := 1#32
  let v73 : BitVec 32 := Scalar.divsi v71 c1_i32_37
  let v74 : BitVec 32 := Scalar.muli v73 c1_i32_37
  let v75 : BitVec 32 := Scalar.addi v67 v74
  let c1_i32_39 : BitVec 32 := 1#32
  let arg12 : BitVec 32 := Scf.iv v75 c1_i32_39 k0_t6
  let c2_i32_67 : BitVec 32 := 2#32
  let c0_i32_68 : BitVec 32 := 0#32
  let v129 : BitVec 1 := Scalar.cmpi .eq c2_i32_67 c0_i32_68
  let c1_i32_69 : BitVec 32 := 1#32
  let v130 : BitVec 32 := Scalar.select v129 c1_i32_69 c2_i32_67
  let v131 : BitVec 32 := Scalar.remsi arg12 v130
  let c0_i32_71 : BitVec 32 := 0#32
  let v133 : BitVec 1 := Scalar.cmpi .slt v131 c0_i32_71
  let c0_i32_72 : BitVec 32 := 0#32
  let v134 : BitVec 1 := Scalar.cmpi .slt v130 c0_i32_72
  let v135 : BitVec 1 := Scalar.xori v133 v134
  let c0_i32_70 : BitVec 32 := 0#32
  let v132 : BitVec 1 := Scalar.cmpi .ne v131 c0_i32_70
  let v136 : BitVec 1 := Scalar.andi v135 v132
  let v137 : BitVec 32 := Scalar.addi v131 v130
  let v138 : BitVec 32 := Scalar.select v136 v137 v131
  let c0_i32_73 : BitVec 32 := 0#32
  let v139 : BitVec 1 := Scalar.cmpi .eq v138 c0_i32_73
  let v153 : BitVec 32 := Scalar.extui v139
  let c0_i32_79 : BitVec 32 := 0#32
  let v154 : BitVec 1 := Scalar.cmpi .ne v153 c0_i32_79
  v154

def k0_off21 (i : grid0.Coords) (k0_t6 : Fin (k0_t6_loop i).trips) : Fin 2 → Nat :=
  let c72_i32_33 : BitVec 32 := 72#32
  let c0_i32_32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c144_i32 : BitVec 32 := 144#32
  let v65 : BitVec 32 := Scalar.subi v19 c144_i32
  let v66 : BitVec 32 := Scalar.maxsi c0_i32_32 v65
  let v67 : BitVec 32 := Scalar.minsi c72_i32_33 v66
  let c72_i32_36 : BitVec 32 := 72#32
  let c0_i32_35 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c144_i32_34 : BitVec 32 := 144#32
  let v68 : BitVec 32 := Scalar.subi v38 c144_i32_34
  let v69 : BitVec 32 := Scalar.maxsi c0_i32_35 v68
  let v70 : BitVec 32 := Scalar.minsi c72_i32_36 v69
  let v71 : BitVec 32 := Scalar.subi v70 v67
  let c1_i32_37 : BitVec 32 := 1#32
  let v73 : BitVec 32 := Scalar.divsi v71 c1_i32_37
  let v74 : BitVec 32 := Scalar.muli v73 c1_i32_37
  let v75 : BitVec 32 := Scalar.addi v67 v74
  let c1_i32_39 : BitVec 32 := 1#32
  let arg12 : BitVec 32 := Scf.iv v75 c1_i32_39 k0_t6
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c24_i32 : BitVec 32 := 24#32
  let v140 : BitVec 32 := Scalar.muli v126 c24_i32
  let c3_i32_66 : BitVec 32 := 3#32
  let v127 : BitVec 32 := Scalar.muli v126 c3_i32_66
  let v128 : BitVec 32 := Scalar.subi arg12 v127
  let c8_i32 : BitVec 32 := 8#32
  let v141 : BitVec 32 := Scalar.muli v128 c8_i32
  let v142 : BitVec 32 := Scalar.addi v140 v141
  let c0_i32_87_r10 : BitVec 32 := 0#32
  ![v142.toNat, 0]
def k0_off22 (i : grid0.Coords) (k0_t6 : Fin (k0_t6_loop i).trips) : Fin 4 → Nat :=
  let c72_i32_33 : BitVec 32 := 72#32
  let c0_i32_32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c144_i32 : BitVec 32 := 144#32
  let v65 : BitVec 32 := Scalar.subi v19 c144_i32
  let v66 : BitVec 32 := Scalar.maxsi c0_i32_32 v65
  let v67 : BitVec 32 := Scalar.minsi c72_i32_33 v66
  let c72_i32_36 : BitVec 32 := 72#32
  let c0_i32_35 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c144_i32_34 : BitVec 32 := 144#32
  let v68 : BitVec 32 := Scalar.subi v38 c144_i32_34
  let v69 : BitVec 32 := Scalar.maxsi c0_i32_35 v68
  let v70 : BitVec 32 := Scalar.minsi c72_i32_36 v69
  let v71 : BitVec 32 := Scalar.subi v70 v67
  let c1_i32_37 : BitVec 32 := 1#32
  let v73 : BitVec 32 := Scalar.divsi v71 c1_i32_37
  let v74 : BitVec 32 := Scalar.muli v73 c1_i32_37
  let v75 : BitVec 32 := Scalar.addi v67 v74
  let c1_i32_39 : BitVec 32 := 1#32
  let arg12 : BitVec 32 := Scf.iv v75 c1_i32_39 k0_t6
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c23_i32 : BitVec 32 := 23#32
  let c3_i32_66 : BitVec 32 := 3#32
  let v127 : BitVec 32 := Scalar.muli v126 c3_i32_66
  let v128 : BitVec 32 := Scalar.subi arg12 v127
  let c8_i32_74 : BitVec 32 := 8#32
  let v143 : BitVec 32 := Scalar.muli v128 c8_i32_74
  let c0_i32_85 : BitVec 32 := 0#32
  ![v126.toNat, 23, v143.toNat, 0]
def k0_cond24 (i : grid0.Coords) (k0_t6 : Fin (k0_t6_loop i).trips) : BitVec 1 :=
  let c72_i32_33 : BitVec 32 := 72#32
  let c0_i32_32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c144_i32 : BitVec 32 := 144#32
  let v65 : BitVec 32 := Scalar.subi v19 c144_i32
  let v66 : BitVec 32 := Scalar.maxsi c0_i32_32 v65
  let v67 : BitVec 32 := Scalar.minsi c72_i32_33 v66
  let c72_i32_36 : BitVec 32 := 72#32
  let c0_i32_35 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c144_i32_34 : BitVec 32 := 144#32
  let v68 : BitVec 32 := Scalar.subi v38 c144_i32_34
  let v69 : BitVec 32 := Scalar.maxsi c0_i32_35 v68
  let v70 : BitVec 32 := Scalar.minsi c72_i32_36 v69
  let v71 : BitVec 32 := Scalar.subi v70 v67
  let c1_i32_37 : BitVec 32 := 1#32
  let v73 : BitVec 32 := Scalar.divsi v71 c1_i32_37
  let v74 : BitVec 32 := Scalar.muli v73 c1_i32_37
  let v75 : BitVec 32 := Scalar.addi v67 v74
  let c1_i32_39 : BitVec 32 := 1#32
  let arg12 : BitVec 32 := Scf.iv v75 c1_i32_39 k0_t6
  let c2_i32_67 : BitVec 32 := 2#32
  let c0_i32_68 : BitVec 32 := 0#32
  let v129 : BitVec 1 := Scalar.cmpi .eq c2_i32_67 c0_i32_68
  let c1_i32_69 : BitVec 32 := 1#32
  let v130 : BitVec 32 := Scalar.select v129 c1_i32_69 c2_i32_67
  let v131 : BitVec 32 := Scalar.remsi arg12 v130
  let c0_i32_71 : BitVec 32 := 0#32
  let v133 : BitVec 1 := Scalar.cmpi .slt v131 c0_i32_71
  let c0_i32_72 : BitVec 32 := 0#32
  let v134 : BitVec 1 := Scalar.cmpi .slt v130 c0_i32_72
  let v135 : BitVec 1 := Scalar.xori v133 v134
  let c0_i32_70 : BitVec 32 := 0#32
  let v132 : BitVec 1 := Scalar.cmpi .ne v131 c0_i32_70
  let v136 : BitVec 1 := Scalar.andi v135 v132
  let v137 : BitVec 32 := Scalar.addi v131 v130
  let v138 : BitVec 32 := Scalar.select v136 v137 v131
  let c0_i32_73 : BitVec 32 := 0#32
  let v139 : BitVec 1 := Scalar.cmpi .eq v138 c0_i32_73
  let true_80 : BitVec 1 := 1#1
  let v155 : BitVec 1 := Scalar.xori v139 true_80
  let v156 : BitVec 32 := Scalar.extui v155
  let c0_i32_82 : BitVec 32 := 0#32
  let v157 : BitVec 1 := Scalar.cmpi .ne v156 c0_i32_82
  v157

def k0_off23 (i : grid0.Coords) (k0_t6 : Fin (k0_t6_loop i).trips) : Fin 2 → Nat :=
  let c72_i32_33 : BitVec 32 := 72#32
  let c0_i32_32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c144_i32 : BitVec 32 := 144#32
  let v65 : BitVec 32 := Scalar.subi v19 c144_i32
  let v66 : BitVec 32 := Scalar.maxsi c0_i32_32 v65
  let v67 : BitVec 32 := Scalar.minsi c72_i32_33 v66
  let c72_i32_36 : BitVec 32 := 72#32
  let c0_i32_35 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c144_i32_34 : BitVec 32 := 144#32
  let v68 : BitVec 32 := Scalar.subi v38 c144_i32_34
  let v69 : BitVec 32 := Scalar.maxsi c0_i32_35 v68
  let v70 : BitVec 32 := Scalar.minsi c72_i32_36 v69
  let v71 : BitVec 32 := Scalar.subi v70 v67
  let c1_i32_37 : BitVec 32 := 1#32
  let v73 : BitVec 32 := Scalar.divsi v71 c1_i32_37
  let v74 : BitVec 32 := Scalar.muli v73 c1_i32_37
  let v75 : BitVec 32 := Scalar.addi v67 v74
  let c1_i32_39 : BitVec 32 := 1#32
  let arg12 : BitVec 32 := Scf.iv v75 c1_i32_39 k0_t6
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c24_i32 : BitVec 32 := 24#32
  let v140 : BitVec 32 := Scalar.muli v126 c24_i32
  let c3_i32_66 : BitVec 32 := 3#32
  let v127 : BitVec 32 := Scalar.muli v126 c3_i32_66
  let v128 : BitVec 32 := Scalar.subi arg12 v127
  let c8_i32 : BitVec 32 := 8#32
  let v141 : BitVec 32 := Scalar.muli v128 c8_i32
  let v142 : BitVec 32 := Scalar.addi v140 v141
  let c0_i32_87_r11 : BitVec 32 := 0#32
  ![v142.toNat, 0]
def k0_off24 (i : grid0.Coords) (k0_t6 : Fin (k0_t6_loop i).trips) : Fin 4 → Nat :=
  let c72_i32_33 : BitVec 32 := 72#32
  let c0_i32_32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c144_i32 : BitVec 32 := 144#32
  let v65 : BitVec 32 := Scalar.subi v19 c144_i32
  let v66 : BitVec 32 := Scalar.maxsi c0_i32_32 v65
  let v67 : BitVec 32 := Scalar.minsi c72_i32_33 v66
  let c72_i32_36 : BitVec 32 := 72#32
  let c0_i32_35 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c144_i32_34 : BitVec 32 := 144#32
  let v68 : BitVec 32 := Scalar.subi v38 c144_i32_34
  let v69 : BitVec 32 := Scalar.maxsi c0_i32_35 v68
  let v70 : BitVec 32 := Scalar.minsi c72_i32_36 v69
  let v71 : BitVec 32 := Scalar.subi v70 v67
  let c1_i32_37 : BitVec 32 := 1#32
  let v73 : BitVec 32 := Scalar.divsi v71 c1_i32_37
  let v74 : BitVec 32 := Scalar.muli v73 c1_i32_37
  let v75 : BitVec 32 := Scalar.addi v67 v74
  let c1_i32_39 : BitVec 32 := 1#32
  let arg12 : BitVec 32 := Scf.iv v75 c1_i32_39 k0_t6
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c23_i32_81 : BitVec 32 := 23#32
  let c3_i32_66 : BitVec 32 := 3#32
  let v127 : BitVec 32 := Scalar.muli v126 c3_i32_66
  let v128 : BitVec 32 := Scalar.subi arg12 v127
  let c8_i32_74 : BitVec 32 := 8#32
  let v143 : BitVec 32 := Scalar.muli v128 c8_i32_74
  let c0_i32_85 : BitVec 32 := 0#32
  ![v126.toNat, 23, v143.toNat, 0]
@[reducible] def k0_t7_loop (i : grid0.Coords) : Scf.Loop 32 :=
  let c72_i32_41 : BitVec 32 := 72#32
  let c0_i32_40 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c216_i32 : BitVec 32 := 216#32
  let v78 : BitVec 32 := Scalar.subi v19 c216_i32
  let v79 : BitVec 32 := Scalar.maxsi c0_i32_40 v78
  let v80 : BitVec 32 := Scalar.minsi c72_i32_41 v79
  let c72_i32_44 : BitVec 32 := 72#32
  let c0_i32_43 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c216_i32_42 : BitVec 32 := 216#32
  let v81 : BitVec 32 := Scalar.subi v38 c216_i32_42
  let v82 : BitVec 32 := Scalar.maxsi c0_i32_43 v81
  let v83 : BitVec 32 := Scalar.minsi c72_i32_44 v82
  let v84 : BitVec 32 := Scalar.subi v83 v80
  let c1_i32_45 : BitVec 32 := 1#32
  let v86 : BitVec 32 := Scalar.divsi v84 c1_i32_45
  let v87 : BitVec 32 := Scalar.muli v86 c1_i32_45
  let v88 : BitVec 32 := Scalar.addi v80 v87
  let c1_i32_46 : BitVec 32 := 1#32
  ⟨v80, v88, c1_i32_46⟩
def k0_cond27 (i : grid0.Coords) (k0_t7 : Fin (k0_t7_loop i).trips) : BitVec 1 :=
  let c72_i32_41 : BitVec 32 := 72#32
  let c0_i32_40 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c216_i32 : BitVec 32 := 216#32
  let v78 : BitVec 32 := Scalar.subi v19 c216_i32
  let v79 : BitVec 32 := Scalar.maxsi c0_i32_40 v78
  let v80 : BitVec 32 := Scalar.minsi c72_i32_41 v79
  let c1_i32_46 : BitVec 32 := 1#32
  let arg12 : BitVec 32 := Scf.iv v80 c1_i32_46 k0_t7
  let c2_i32_67 : BitVec 32 := 2#32
  let c0_i32_68 : BitVec 32 := 0#32
  let v129 : BitVec 1 := Scalar.cmpi .eq c2_i32_67 c0_i32_68
  let c1_i32_69 : BitVec 32 := 1#32
  let v130 : BitVec 32 := Scalar.select v129 c1_i32_69 c2_i32_67
  let v131 : BitVec 32 := Scalar.remsi arg12 v130
  let c0_i32_71 : BitVec 32 := 0#32
  let v133 : BitVec 1 := Scalar.cmpi .slt v131 c0_i32_71
  let c0_i32_72 : BitVec 32 := 0#32
  let v134 : BitVec 1 := Scalar.cmpi .slt v130 c0_i32_72
  let v135 : BitVec 1 := Scalar.xori v133 v134
  let c0_i32_70 : BitVec 32 := 0#32
  let v132 : BitVec 1 := Scalar.cmpi .ne v131 c0_i32_70
  let v136 : BitVec 1 := Scalar.andi v135 v132
  let v137 : BitVec 32 := Scalar.addi v131 v130
  let v138 : BitVec 32 := Scalar.select v136 v137 v131
  let c0_i32_73 : BitVec 32 := 0#32
  let v139 : BitVec 1 := Scalar.cmpi .eq v138 c0_i32_73
  let v153 : BitVec 32 := Scalar.extui v139
  let c0_i32_80 : BitVec 32 := 0#32
  let v154 : BitVec 1 := Scalar.cmpi .ne v153 c0_i32_80
  v154

def k0_off25 (i : grid0.Coords) (k0_t7 : Fin (k0_t7_loop i).trips) : Fin 2 → Nat :=
  let c72_i32_41 : BitVec 32 := 72#32
  let c0_i32_40 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c216_i32 : BitVec 32 := 216#32
  let v78 : BitVec 32 := Scalar.subi v19 c216_i32
  let v79 : BitVec 32 := Scalar.maxsi c0_i32_40 v78
  let v80 : BitVec 32 := Scalar.minsi c72_i32_41 v79
  let c1_i32_46 : BitVec 32 := 1#32
  let arg12 : BitVec 32 := Scf.iv v80 c1_i32_46 k0_t7
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c24_i32 : BitVec 32 := 24#32
  let v140 : BitVec 32 := Scalar.muli v126 c24_i32
  let c3_i32_66 : BitVec 32 := 3#32
  let v127 : BitVec 32 := Scalar.muli v126 c3_i32_66
  let v128 : BitVec 32 := Scalar.subi arg12 v127
  let c8_i32 : BitVec 32 := 8#32
  let v141 : BitVec 32 := Scalar.muli v128 c8_i32
  let v142 : BitVec 32 := Scalar.addi v140 v141
  let c0_i32_88_r12 : BitVec 32 := 0#32
  ![v142.toNat, 0]
def k0_off26 (i : grid0.Coords) (k0_t7 : Fin (k0_t7_loop i).trips) : Fin 4 → Nat :=
  let c72_i32_41 : BitVec 32 := 72#32
  let c0_i32_40 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c216_i32 : BitVec 32 := 216#32
  let v78 : BitVec 32 := Scalar.subi v19 c216_i32
  let v79 : BitVec 32 := Scalar.maxsi c0_i32_40 v78
  let v80 : BitVec 32 := Scalar.minsi c72_i32_41 v79
  let c1_i32_46 : BitVec 32 := 1#32
  let arg12 : BitVec 32 := Scf.iv v80 c1_i32_46 k0_t7
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c24_i32_79 : BitVec 32 := 24#32
  let c3_i32_66 : BitVec 32 := 3#32
  let v127 : BitVec 32 := Scalar.muli v126 c3_i32_66
  let v128 : BitVec 32 := Scalar.subi arg12 v127
  let c8_i32_74 : BitVec 32 := 8#32
  let v143 : BitVec 32 := Scalar.muli v128 c8_i32_74
  let c0_i32_86 : BitVec 32 := 0#32
  ![v126.toNat, 24, v143.toNat, 0]
def k0_cond28 (i : grid0.Coords) (k0_t7 : Fin (k0_t7_loop i).trips) : BitVec 1 :=
  let c72_i32_41 : BitVec 32 := 72#32
  let c0_i32_40 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c216_i32 : BitVec 32 := 216#32
  let v78 : BitVec 32 := Scalar.subi v19 c216_i32
  let v79 : BitVec 32 := Scalar.maxsi c0_i32_40 v78
  let v80 : BitVec 32 := Scalar.minsi c72_i32_41 v79
  let c1_i32_46 : BitVec 32 := 1#32
  let arg12 : BitVec 32 := Scf.iv v80 c1_i32_46 k0_t7
  let c2_i32_67 : BitVec 32 := 2#32
  let c0_i32_68 : BitVec 32 := 0#32
  let v129 : BitVec 1 := Scalar.cmpi .eq c2_i32_67 c0_i32_68
  let c1_i32_69 : BitVec 32 := 1#32
  let v130 : BitVec 32 := Scalar.select v129 c1_i32_69 c2_i32_67
  let v131 : BitVec 32 := Scalar.remsi arg12 v130
  let c0_i32_71 : BitVec 32 := 0#32
  let v133 : BitVec 1 := Scalar.cmpi .slt v131 c0_i32_71
  let c0_i32_72 : BitVec 32 := 0#32
  let v134 : BitVec 1 := Scalar.cmpi .slt v130 c0_i32_72
  let v135 : BitVec 1 := Scalar.xori v133 v134
  let c0_i32_70 : BitVec 32 := 0#32
  let v132 : BitVec 1 := Scalar.cmpi .ne v131 c0_i32_70
  let v136 : BitVec 1 := Scalar.andi v135 v132
  let v137 : BitVec 32 := Scalar.addi v131 v130
  let v138 : BitVec 32 := Scalar.select v136 v137 v131
  let c0_i32_73 : BitVec 32 := 0#32
  let v139 : BitVec 1 := Scalar.cmpi .eq v138 c0_i32_73
  let true_81 : BitVec 1 := 1#1
  let v155 : BitVec 1 := Scalar.xori v139 true_81
  let v156 : BitVec 32 := Scalar.extui v155
  let c0_i32_83 : BitVec 32 := 0#32
  let v157 : BitVec 1 := Scalar.cmpi .ne v156 c0_i32_83
  v157

def k0_off27 (i : grid0.Coords) (k0_t7 : Fin (k0_t7_loop i).trips) : Fin 2 → Nat :=
  let c72_i32_41 : BitVec 32 := 72#32
  let c0_i32_40 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c216_i32 : BitVec 32 := 216#32
  let v78 : BitVec 32 := Scalar.subi v19 c216_i32
  let v79 : BitVec 32 := Scalar.maxsi c0_i32_40 v78
  let v80 : BitVec 32 := Scalar.minsi c72_i32_41 v79
  let c1_i32_46 : BitVec 32 := 1#32
  let arg12 : BitVec 32 := Scf.iv v80 c1_i32_46 k0_t7
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c24_i32 : BitVec 32 := 24#32
  let v140 : BitVec 32 := Scalar.muli v126 c24_i32
  let c3_i32_66 : BitVec 32 := 3#32
  let v127 : BitVec 32 := Scalar.muli v126 c3_i32_66
  let v128 : BitVec 32 := Scalar.subi arg12 v127
  let c8_i32 : BitVec 32 := 8#32
  let v141 : BitVec 32 := Scalar.muli v128 c8_i32
  let v142 : BitVec 32 := Scalar.addi v140 v141
  let c0_i32_88_r13 : BitVec 32 := 0#32
  ![v142.toNat, 0]
def k0_off28 (i : grid0.Coords) (k0_t7 : Fin (k0_t7_loop i).trips) : Fin 4 → Nat :=
  let c72_i32_41 : BitVec 32 := 72#32
  let c0_i32_40 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c216_i32 : BitVec 32 := 216#32
  let v78 : BitVec 32 := Scalar.subi v19 c216_i32
  let v79 : BitVec 32 := Scalar.maxsi c0_i32_40 v78
  let v80 : BitVec 32 := Scalar.minsi c72_i32_41 v79
  let c1_i32_46 : BitVec 32 := 1#32
  let arg12 : BitVec 32 := Scf.iv v80 c1_i32_46 k0_t7
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c24_i32_82 : BitVec 32 := 24#32
  let c3_i32_66 : BitVec 32 := 3#32
  let v127 : BitVec 32 := Scalar.muli v126 c3_i32_66
  let v128 : BitVec 32 := Scalar.subi arg12 v127
  let c8_i32_74 : BitVec 32 := 8#32
  let v143 : BitVec 32 := Scalar.muli v128 c8_i32_74
  let c0_i32_86 : BitVec 32 := 0#32
  ![v126.toNat, 24, v143.toNat, 0]
@[reducible] def k0_t8_loop (i : grid0.Coords) : Scf.Loop 32 :=
  let c72_i32_41 : BitVec 32 := 72#32
  let c0_i32_40 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c216_i32 : BitVec 32 := 216#32
  let v78 : BitVec 32 := Scalar.subi v19 c216_i32
  let v79 : BitVec 32 := Scalar.maxsi c0_i32_40 v78
  let v80 : BitVec 32 := Scalar.minsi c72_i32_41 v79
  let c72_i32_44 : BitVec 32 := 72#32
  let c0_i32_43 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c216_i32_42 : BitVec 32 := 216#32
  let v81 : BitVec 32 := Scalar.subi v38 c216_i32_42
  let v82 : BitVec 32 := Scalar.maxsi c0_i32_43 v81
  let v83 : BitVec 32 := Scalar.minsi c72_i32_44 v82
  let v84 : BitVec 32 := Scalar.subi v83 v80
  let c1_i32_45 : BitVec 32 := 1#32
  let v86 : BitVec 32 := Scalar.divsi v84 c1_i32_45
  let v87 : BitVec 32 := Scalar.muli v86 c1_i32_45
  let v88 : BitVec 32 := Scalar.addi v80 v87
  let v85 : BitVec 32 := Scalar.addi v80 v84
  let c1_i32_47 : BitVec 32 := 1#32
  ⟨v88, v85, c1_i32_47⟩
def k0_cond31 (i : grid0.Coords) (k0_t8 : Fin (k0_t8_loop i).trips) : BitVec 1 :=
  let c72_i32_41 : BitVec 32 := 72#32
  let c0_i32_40 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c216_i32 : BitVec 32 := 216#32
  let v78 : BitVec 32 := Scalar.subi v19 c216_i32
  let v79 : BitVec 32 := Scalar.maxsi c0_i32_40 v78
  let v80 : BitVec 32 := Scalar.minsi c72_i32_41 v79
  let c72_i32_44 : BitVec 32 := 72#32
  let c0_i32_43 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c216_i32_42 : BitVec 32 := 216#32
  let v81 : BitVec 32 := Scalar.subi v38 c216_i32_42
  let v82 : BitVec 32 := Scalar.maxsi c0_i32_43 v81
  let v83 : BitVec 32 := Scalar.minsi c72_i32_44 v82
  let v84 : BitVec 32 := Scalar.subi v83 v80
  let c1_i32_45 : BitVec 32 := 1#32
  let v86 : BitVec 32 := Scalar.divsi v84 c1_i32_45
  let v87 : BitVec 32 := Scalar.muli v86 c1_i32_45
  let v88 : BitVec 32 := Scalar.addi v80 v87
  let c1_i32_47 : BitVec 32 := 1#32
  let arg12 : BitVec 32 := Scf.iv v88 c1_i32_47 k0_t8
  let c2_i32_67 : BitVec 32 := 2#32
  let c0_i32_68 : BitVec 32 := 0#32
  let v129 : BitVec 1 := Scalar.cmpi .eq c2_i32_67 c0_i32_68
  let c1_i32_69 : BitVec 32 := 1#32
  let v130 : BitVec 32 := Scalar.select v129 c1_i32_69 c2_i32_67
  let v131 : BitVec 32 := Scalar.remsi arg12 v130
  let c0_i32_71 : BitVec 32 := 0#32
  let v133 : BitVec 1 := Scalar.cmpi .slt v131 c0_i32_71
  let c0_i32_72 : BitVec 32 := 0#32
  let v134 : BitVec 1 := Scalar.cmpi .slt v130 c0_i32_72
  let v135 : BitVec 1 := Scalar.xori v133 v134
  let c0_i32_70 : BitVec 32 := 0#32
  let v132 : BitVec 1 := Scalar.cmpi .ne v131 c0_i32_70
  let v136 : BitVec 1 := Scalar.andi v135 v132
  let v137 : BitVec 32 := Scalar.addi v131 v130
  let v138 : BitVec 32 := Scalar.select v136 v137 v131
  let c0_i32_73 : BitVec 32 := 0#32
  let v139 : BitVec 1 := Scalar.cmpi .eq v138 c0_i32_73
  let v153 : BitVec 32 := Scalar.extui v139
  let c0_i32_80 : BitVec 32 := 0#32
  let v154 : BitVec 1 := Scalar.cmpi .ne v153 c0_i32_80
  v154

def k0_off29 (i : grid0.Coords) (k0_t8 : Fin (k0_t8_loop i).trips) : Fin 2 → Nat :=
  let c72_i32_41 : BitVec 32 := 72#32
  let c0_i32_40 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c216_i32 : BitVec 32 := 216#32
  let v78 : BitVec 32 := Scalar.subi v19 c216_i32
  let v79 : BitVec 32 := Scalar.maxsi c0_i32_40 v78
  let v80 : BitVec 32 := Scalar.minsi c72_i32_41 v79
  let c72_i32_44 : BitVec 32 := 72#32
  let c0_i32_43 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c216_i32_42 : BitVec 32 := 216#32
  let v81 : BitVec 32 := Scalar.subi v38 c216_i32_42
  let v82 : BitVec 32 := Scalar.maxsi c0_i32_43 v81
  let v83 : BitVec 32 := Scalar.minsi c72_i32_44 v82
  let v84 : BitVec 32 := Scalar.subi v83 v80
  let c1_i32_45 : BitVec 32 := 1#32
  let v86 : BitVec 32 := Scalar.divsi v84 c1_i32_45
  let v87 : BitVec 32 := Scalar.muli v86 c1_i32_45
  let v88 : BitVec 32 := Scalar.addi v80 v87
  let c1_i32_47 : BitVec 32 := 1#32
  let arg12 : BitVec 32 := Scf.iv v88 c1_i32_47 k0_t8
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c24_i32 : BitVec 32 := 24#32
  let v140 : BitVec 32 := Scalar.muli v126 c24_i32
  let c3_i32_66 : BitVec 32 := 3#32
  let v127 : BitVec 32 := Scalar.muli v126 c3_i32_66
  let v128 : BitVec 32 := Scalar.subi arg12 v127
  let c8_i32 : BitVec 32 := 8#32
  let v141 : BitVec 32 := Scalar.muli v128 c8_i32
  let v142 : BitVec 32 := Scalar.addi v140 v141
  let c0_i32_88_r14 : BitVec 32 := 0#32
  ![v142.toNat, 0]
def k0_off30 (i : grid0.Coords) (k0_t8 : Fin (k0_t8_loop i).trips) : Fin 4 → Nat :=
  let c72_i32_41 : BitVec 32 := 72#32
  let c0_i32_40 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c216_i32 : BitVec 32 := 216#32
  let v78 : BitVec 32 := Scalar.subi v19 c216_i32
  let v79 : BitVec 32 := Scalar.maxsi c0_i32_40 v78
  let v80 : BitVec 32 := Scalar.minsi c72_i32_41 v79
  let c72_i32_44 : BitVec 32 := 72#32
  let c0_i32_43 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c216_i32_42 : BitVec 32 := 216#32
  let v81 : BitVec 32 := Scalar.subi v38 c216_i32_42
  let v82 : BitVec 32 := Scalar.maxsi c0_i32_43 v81
  let v83 : BitVec 32 := Scalar.minsi c72_i32_44 v82
  let v84 : BitVec 32 := Scalar.subi v83 v80
  let c1_i32_45 : BitVec 32 := 1#32
  let v86 : BitVec 32 := Scalar.divsi v84 c1_i32_45
  let v87 : BitVec 32 := Scalar.muli v86 c1_i32_45
  let v88 : BitVec 32 := Scalar.addi v80 v87
  let c1_i32_47 : BitVec 32 := 1#32
  let arg12 : BitVec 32 := Scf.iv v88 c1_i32_47 k0_t8
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c24_i32_79 : BitVec 32 := 24#32
  let c3_i32_66 : BitVec 32 := 3#32
  let v127 : BitVec 32 := Scalar.muli v126 c3_i32_66
  let v128 : BitVec 32 := Scalar.subi arg12 v127
  let c8_i32_74 : BitVec 32 := 8#32
  let v143 : BitVec 32 := Scalar.muli v128 c8_i32_74
  let c0_i32_86 : BitVec 32 := 0#32
  ![v126.toNat, 24, v143.toNat, 0]
def k0_cond32 (i : grid0.Coords) (k0_t8 : Fin (k0_t8_loop i).trips) : BitVec 1 :=
  let c72_i32_41 : BitVec 32 := 72#32
  let c0_i32_40 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c216_i32 : BitVec 32 := 216#32
  let v78 : BitVec 32 := Scalar.subi v19 c216_i32
  let v79 : BitVec 32 := Scalar.maxsi c0_i32_40 v78
  let v80 : BitVec 32 := Scalar.minsi c72_i32_41 v79
  let c72_i32_44 : BitVec 32 := 72#32
  let c0_i32_43 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c216_i32_42 : BitVec 32 := 216#32
  let v81 : BitVec 32 := Scalar.subi v38 c216_i32_42
  let v82 : BitVec 32 := Scalar.maxsi c0_i32_43 v81
  let v83 : BitVec 32 := Scalar.minsi c72_i32_44 v82
  let v84 : BitVec 32 := Scalar.subi v83 v80
  let c1_i32_45 : BitVec 32 := 1#32
  let v86 : BitVec 32 := Scalar.divsi v84 c1_i32_45
  let v87 : BitVec 32 := Scalar.muli v86 c1_i32_45
  let v88 : BitVec 32 := Scalar.addi v80 v87
  let c1_i32_47 : BitVec 32 := 1#32
  let arg12 : BitVec 32 := Scf.iv v88 c1_i32_47 k0_t8
  let c2_i32_67 : BitVec 32 := 2#32
  let c0_i32_68 : BitVec 32 := 0#32
  let v129 : BitVec 1 := Scalar.cmpi .eq c2_i32_67 c0_i32_68
  let c1_i32_69 : BitVec 32 := 1#32
  let v130 : BitVec 32 := Scalar.select v129 c1_i32_69 c2_i32_67
  let v131 : BitVec 32 := Scalar.remsi arg12 v130
  let c0_i32_71 : BitVec 32 := 0#32
  let v133 : BitVec 1 := Scalar.cmpi .slt v131 c0_i32_71
  let c0_i32_72 : BitVec 32 := 0#32
  let v134 : BitVec 1 := Scalar.cmpi .slt v130 c0_i32_72
  let v135 : BitVec 1 := Scalar.xori v133 v134
  let c0_i32_70 : BitVec 32 := 0#32
  let v132 : BitVec 1 := Scalar.cmpi .ne v131 c0_i32_70
  let v136 : BitVec 1 := Scalar.andi v135 v132
  let v137 : BitVec 32 := Scalar.addi v131 v130
  let v138 : BitVec 32 := Scalar.select v136 v137 v131
  let c0_i32_73 : BitVec 32 := 0#32
  let v139 : BitVec 1 := Scalar.cmpi .eq v138 c0_i32_73
  let true_81 : BitVec 1 := 1#1
  let v155 : BitVec 1 := Scalar.xori v139 true_81
  let v156 : BitVec 32 := Scalar.extui v155
  let c0_i32_83 : BitVec 32 := 0#32
  let v157 : BitVec 1 := Scalar.cmpi .ne v156 c0_i32_83
  v157

def k0_off31 (i : grid0.Coords) (k0_t8 : Fin (k0_t8_loop i).trips) : Fin 2 → Nat :=
  let c72_i32_41 : BitVec 32 := 72#32
  let c0_i32_40 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c216_i32 : BitVec 32 := 216#32
  let v78 : BitVec 32 := Scalar.subi v19 c216_i32
  let v79 : BitVec 32 := Scalar.maxsi c0_i32_40 v78
  let v80 : BitVec 32 := Scalar.minsi c72_i32_41 v79
  let c72_i32_44 : BitVec 32 := 72#32
  let c0_i32_43 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c216_i32_42 : BitVec 32 := 216#32
  let v81 : BitVec 32 := Scalar.subi v38 c216_i32_42
  let v82 : BitVec 32 := Scalar.maxsi c0_i32_43 v81
  let v83 : BitVec 32 := Scalar.minsi c72_i32_44 v82
  let v84 : BitVec 32 := Scalar.subi v83 v80
  let c1_i32_45 : BitVec 32 := 1#32
  let v86 : BitVec 32 := Scalar.divsi v84 c1_i32_45
  let v87 : BitVec 32 := Scalar.muli v86 c1_i32_45
  let v88 : BitVec 32 := Scalar.addi v80 v87
  let c1_i32_47 : BitVec 32 := 1#32
  let arg12 : BitVec 32 := Scf.iv v88 c1_i32_47 k0_t8
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c24_i32 : BitVec 32 := 24#32
  let v140 : BitVec 32 := Scalar.muli v126 c24_i32
  let c3_i32_66 : BitVec 32 := 3#32
  let v127 : BitVec 32 := Scalar.muli v126 c3_i32_66
  let v128 : BitVec 32 := Scalar.subi arg12 v127
  let c8_i32 : BitVec 32 := 8#32
  let v141 : BitVec 32 := Scalar.muli v128 c8_i32
  let v142 : BitVec 32 := Scalar.addi v140 v141
  let c0_i32_88_r15 : BitVec 32 := 0#32
  ![v142.toNat, 0]
def k0_off32 (i : grid0.Coords) (k0_t8 : Fin (k0_t8_loop i).trips) : Fin 4 → Nat :=
  let c72_i32_41 : BitVec 32 := 72#32
  let c0_i32_40 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c216_i32 : BitVec 32 := 216#32
  let v78 : BitVec 32 := Scalar.subi v19 c216_i32
  let v79 : BitVec 32 := Scalar.maxsi c0_i32_40 v78
  let v80 : BitVec 32 := Scalar.minsi c72_i32_41 v79
  let c72_i32_44 : BitVec 32 := 72#32
  let c0_i32_43 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c216_i32_42 : BitVec 32 := 216#32
  let v81 : BitVec 32 := Scalar.subi v38 c216_i32_42
  let v82 : BitVec 32 := Scalar.maxsi c0_i32_43 v81
  let v83 : BitVec 32 := Scalar.minsi c72_i32_44 v82
  let v84 : BitVec 32 := Scalar.subi v83 v80
  let c1_i32_45 : BitVec 32 := 1#32
  let v86 : BitVec 32 := Scalar.divsi v84 c1_i32_45
  let v87 : BitVec 32 := Scalar.muli v86 c1_i32_45
  let v88 : BitVec 32 := Scalar.addi v80 v87
  let c1_i32_47 : BitVec 32 := 1#32
  let arg12 : BitVec 32 := Scf.iv v88 c1_i32_47 k0_t8
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c24_i32_82 : BitVec 32 := 24#32
  let c3_i32_66 : BitVec 32 := 3#32
  let v127 : BitVec 32 := Scalar.muli v126 c3_i32_66
  let v128 : BitVec 32 := Scalar.subi arg12 v127
  let c8_i32_74 : BitVec 32 := 8#32
  let v143 : BitVec 32 := Scalar.muli v128 c8_i32_74
  let c0_i32_86 : BitVec 32 := 0#32
  ![v126.toNat, 24, v143.toNat, 0]
@[reducible] def k0_t9_loop (i : grid0.Coords) : Scf.Loop 32 :=
  let c72_i32_49 : BitVec 32 := 72#32
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c288_i32 : BitVec 32 := 288#32
  let v91 : BitVec 32 := Scalar.subi v19 c288_i32
  let v92 : BitVec 32 := Scalar.maxsi c0_i32_48 v91
  let v93 : BitVec 32 := Scalar.minsi c72_i32_49 v92
  let c72_i32_52 : BitVec 32 := 72#32
  let c0_i32_51 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c288_i32_50 : BitVec 32 := 288#32
  let v94 : BitVec 32 := Scalar.subi v38 c288_i32_50
  let v95 : BitVec 32 := Scalar.maxsi c0_i32_51 v94
  let v96 : BitVec 32 := Scalar.minsi c72_i32_52 v95
  let v97 : BitVec 32 := Scalar.subi v96 v93
  let c1_i32_53 : BitVec 32 := 1#32
  let v99 : BitVec 32 := Scalar.divsi v97 c1_i32_53
  let v100 : BitVec 32 := Scalar.muli v99 c1_i32_53
  let v101 : BitVec 32 := Scalar.addi v93 v100
  let c1_i32_54 : BitVec 32 := 1#32
  ⟨v93, v101, c1_i32_54⟩
def k0_cond35 (i : grid0.Coords) (k0_t9 : Fin (k0_t9_loop i).trips) : BitVec 1 :=
  let c72_i32_49 : BitVec 32 := 72#32
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c288_i32 : BitVec 32 := 288#32
  let v91 : BitVec 32 := Scalar.subi v19 c288_i32
  let v92 : BitVec 32 := Scalar.maxsi c0_i32_48 v91
  let v93 : BitVec 32 := Scalar.minsi c72_i32_49 v92
  let c1_i32_54 : BitVec 32 := 1#32
  let arg12 : BitVec 32 := Scf.iv v93 c1_i32_54 k0_t9
  let c2_i32_67 : BitVec 32 := 2#32
  let c0_i32_68 : BitVec 32 := 0#32
  let v129 : BitVec 1 := Scalar.cmpi .eq c2_i32_67 c0_i32_68
  let c1_i32_69 : BitVec 32 := 1#32
  let v130 : BitVec 32 := Scalar.select v129 c1_i32_69 c2_i32_67
  let v131 : BitVec 32 := Scalar.remsi arg12 v130
  let c0_i32_71 : BitVec 32 := 0#32
  let v133 : BitVec 1 := Scalar.cmpi .slt v131 c0_i32_71
  let c0_i32_72 : BitVec 32 := 0#32
  let v134 : BitVec 1 := Scalar.cmpi .slt v130 c0_i32_72
  let v135 : BitVec 1 := Scalar.xori v133 v134
  let c0_i32_70 : BitVec 32 := 0#32
  let v132 : BitVec 1 := Scalar.cmpi .ne v131 c0_i32_70
  let v136 : BitVec 1 := Scalar.andi v135 v132
  let v137 : BitVec 32 := Scalar.addi v131 v130
  let v138 : BitVec 32 := Scalar.select v136 v137 v131
  let c0_i32_73 : BitVec 32 := 0#32
  let v139 : BitVec 1 := Scalar.cmpi .eq v138 c0_i32_73
  let v153 : BitVec 32 := Scalar.extui v139
  let c0_i32_79 : BitVec 32 := 0#32
  let v154 : BitVec 1 := Scalar.cmpi .ne v153 c0_i32_79
  v154

def k0_off33 (i : grid0.Coords) (k0_t9 : Fin (k0_t9_loop i).trips) : Fin 2 → Nat :=
  let c72_i32_49 : BitVec 32 := 72#32
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c288_i32 : BitVec 32 := 288#32
  let v91 : BitVec 32 := Scalar.subi v19 c288_i32
  let v92 : BitVec 32 := Scalar.maxsi c0_i32_48 v91
  let v93 : BitVec 32 := Scalar.minsi c72_i32_49 v92
  let c1_i32_54 : BitVec 32 := 1#32
  let arg12 : BitVec 32 := Scf.iv v93 c1_i32_54 k0_t9
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c24_i32 : BitVec 32 := 24#32
  let v140 : BitVec 32 := Scalar.muli v126 c24_i32
  let c3_i32_66 : BitVec 32 := 3#32
  let v127 : BitVec 32 := Scalar.muli v126 c3_i32_66
  let v128 : BitVec 32 := Scalar.subi arg12 v127
  let c8_i32 : BitVec 32 := 8#32
  let v141 : BitVec 32 := Scalar.muli v128 c8_i32
  let v142 : BitVec 32 := Scalar.addi v140 v141
  let c0_i32_87_r16 : BitVec 32 := 0#32
  ![v142.toNat, 0]
def k0_off34 (i : grid0.Coords) (k0_t9 : Fin (k0_t9_loop i).trips) : Fin 4 → Nat :=
  let c72_i32_49 : BitVec 32 := 72#32
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c288_i32 : BitVec 32 := 288#32
  let v91 : BitVec 32 := Scalar.subi v19 c288_i32
  let v92 : BitVec 32 := Scalar.maxsi c0_i32_48 v91
  let v93 : BitVec 32 := Scalar.minsi c72_i32_49 v92
  let c1_i32_54 : BitVec 32 := 1#32
  let arg12 : BitVec 32 := Scf.iv v93 c1_i32_54 k0_t9
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c25_i32 : BitVec 32 := 25#32
  let c3_i32_66 : BitVec 32 := 3#32
  let v127 : BitVec 32 := Scalar.muli v126 c3_i32_66
  let v128 : BitVec 32 := Scalar.subi arg12 v127
  let c8_i32_74 : BitVec 32 := 8#32
  let v143 : BitVec 32 := Scalar.muli v128 c8_i32_74
  let c0_i32_85 : BitVec 32 := 0#32
  ![v126.toNat, 25, v143.toNat, 0]
def k0_cond36 (i : grid0.Coords) (k0_t9 : Fin (k0_t9_loop i).trips) : BitVec 1 :=
  let c72_i32_49 : BitVec 32 := 72#32
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c288_i32 : BitVec 32 := 288#32
  let v91 : BitVec 32 := Scalar.subi v19 c288_i32
  let v92 : BitVec 32 := Scalar.maxsi c0_i32_48 v91
  let v93 : BitVec 32 := Scalar.minsi c72_i32_49 v92
  let c1_i32_54 : BitVec 32 := 1#32
  let arg12 : BitVec 32 := Scf.iv v93 c1_i32_54 k0_t9
  let c2_i32_67 : BitVec 32 := 2#32
  let c0_i32_68 : BitVec 32 := 0#32
  let v129 : BitVec 1 := Scalar.cmpi .eq c2_i32_67 c0_i32_68
  let c1_i32_69 : BitVec 32 := 1#32
  let v130 : BitVec 32 := Scalar.select v129 c1_i32_69 c2_i32_67
  let v131 : BitVec 32 := Scalar.remsi arg12 v130
  let c0_i32_71 : BitVec 32 := 0#32
  let v133 : BitVec 1 := Scalar.cmpi .slt v131 c0_i32_71
  let c0_i32_72 : BitVec 32 := 0#32
  let v134 : BitVec 1 := Scalar.cmpi .slt v130 c0_i32_72
  let v135 : BitVec 1 := Scalar.xori v133 v134
  let c0_i32_70 : BitVec 32 := 0#32
  let v132 : BitVec 1 := Scalar.cmpi .ne v131 c0_i32_70
  let v136 : BitVec 1 := Scalar.andi v135 v132
  let v137 : BitVec 32 := Scalar.addi v131 v130
  let v138 : BitVec 32 := Scalar.select v136 v137 v131
  let c0_i32_73 : BitVec 32 := 0#32
  let v139 : BitVec 1 := Scalar.cmpi .eq v138 c0_i32_73
  let true_80 : BitVec 1 := 1#1
  let v155 : BitVec 1 := Scalar.xori v139 true_80
  let v156 : BitVec 32 := Scalar.extui v155
  let c0_i32_82 : BitVec 32 := 0#32
  let v157 : BitVec 1 := Scalar.cmpi .ne v156 c0_i32_82
  v157

def k0_off35 (i : grid0.Coords) (k0_t9 : Fin (k0_t9_loop i).trips) : Fin 2 → Nat :=
  let c72_i32_49 : BitVec 32 := 72#32
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c288_i32 : BitVec 32 := 288#32
  let v91 : BitVec 32 := Scalar.subi v19 c288_i32
  let v92 : BitVec 32 := Scalar.maxsi c0_i32_48 v91
  let v93 : BitVec 32 := Scalar.minsi c72_i32_49 v92
  let c1_i32_54 : BitVec 32 := 1#32
  let arg12 : BitVec 32 := Scf.iv v93 c1_i32_54 k0_t9
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c24_i32 : BitVec 32 := 24#32
  let v140 : BitVec 32 := Scalar.muli v126 c24_i32
  let c3_i32_66 : BitVec 32 := 3#32
  let v127 : BitVec 32 := Scalar.muli v126 c3_i32_66
  let v128 : BitVec 32 := Scalar.subi arg12 v127
  let c8_i32 : BitVec 32 := 8#32
  let v141 : BitVec 32 := Scalar.muli v128 c8_i32
  let v142 : BitVec 32 := Scalar.addi v140 v141
  let c0_i32_87_r17 : BitVec 32 := 0#32
  ![v142.toNat, 0]
def k0_off36 (i : grid0.Coords) (k0_t9 : Fin (k0_t9_loop i).trips) : Fin 4 → Nat :=
  let c72_i32_49 : BitVec 32 := 72#32
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c288_i32 : BitVec 32 := 288#32
  let v91 : BitVec 32 := Scalar.subi v19 c288_i32
  let v92 : BitVec 32 := Scalar.maxsi c0_i32_48 v91
  let v93 : BitVec 32 := Scalar.minsi c72_i32_49 v92
  let c1_i32_54 : BitVec 32 := 1#32
  let arg12 : BitVec 32 := Scf.iv v93 c1_i32_54 k0_t9
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c25_i32_81 : BitVec 32 := 25#32
  let c3_i32_66 : BitVec 32 := 3#32
  let v127 : BitVec 32 := Scalar.muli v126 c3_i32_66
  let v128 : BitVec 32 := Scalar.subi arg12 v127
  let c8_i32_74 : BitVec 32 := 8#32
  let v143 : BitVec 32 := Scalar.muli v128 c8_i32_74
  let c0_i32_85 : BitVec 32 := 0#32
  ![v126.toNat, 25, v143.toNat, 0]
@[reducible] def k0_t10_loop (i : grid0.Coords) : Scf.Loop 32 :=
  let c72_i32_49 : BitVec 32 := 72#32
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c288_i32 : BitVec 32 := 288#32
  let v91 : BitVec 32 := Scalar.subi v19 c288_i32
  let v92 : BitVec 32 := Scalar.maxsi c0_i32_48 v91
  let v93 : BitVec 32 := Scalar.minsi c72_i32_49 v92
  let c72_i32_52 : BitVec 32 := 72#32
  let c0_i32_51 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c288_i32_50 : BitVec 32 := 288#32
  let v94 : BitVec 32 := Scalar.subi v38 c288_i32_50
  let v95 : BitVec 32 := Scalar.maxsi c0_i32_51 v94
  let v96 : BitVec 32 := Scalar.minsi c72_i32_52 v95
  let v97 : BitVec 32 := Scalar.subi v96 v93
  let c1_i32_53 : BitVec 32 := 1#32
  let v99 : BitVec 32 := Scalar.divsi v97 c1_i32_53
  let v100 : BitVec 32 := Scalar.muli v99 c1_i32_53
  let v101 : BitVec 32 := Scalar.addi v93 v100
  let v98 : BitVec 32 := Scalar.addi v93 v97
  let c1_i32_55 : BitVec 32 := 1#32
  ⟨v101, v98, c1_i32_55⟩
def k0_cond39 (i : grid0.Coords) (k0_t10 : Fin (k0_t10_loop i).trips) : BitVec 1 :=
  let c72_i32_49 : BitVec 32 := 72#32
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c288_i32 : BitVec 32 := 288#32
  let v91 : BitVec 32 := Scalar.subi v19 c288_i32
  let v92 : BitVec 32 := Scalar.maxsi c0_i32_48 v91
  let v93 : BitVec 32 := Scalar.minsi c72_i32_49 v92
  let c72_i32_52 : BitVec 32 := 72#32
  let c0_i32_51 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c288_i32_50 : BitVec 32 := 288#32
  let v94 : BitVec 32 := Scalar.subi v38 c288_i32_50
  let v95 : BitVec 32 := Scalar.maxsi c0_i32_51 v94
  let v96 : BitVec 32 := Scalar.minsi c72_i32_52 v95
  let v97 : BitVec 32 := Scalar.subi v96 v93
  let c1_i32_53 : BitVec 32 := 1#32
  let v99 : BitVec 32 := Scalar.divsi v97 c1_i32_53
  let v100 : BitVec 32 := Scalar.muli v99 c1_i32_53
  let v101 : BitVec 32 := Scalar.addi v93 v100
  let c1_i32_55 : BitVec 32 := 1#32
  let arg12 : BitVec 32 := Scf.iv v101 c1_i32_55 k0_t10
  let c2_i32_67 : BitVec 32 := 2#32
  let c0_i32_68 : BitVec 32 := 0#32
  let v129 : BitVec 1 := Scalar.cmpi .eq c2_i32_67 c0_i32_68
  let c1_i32_69 : BitVec 32 := 1#32
  let v130 : BitVec 32 := Scalar.select v129 c1_i32_69 c2_i32_67
  let v131 : BitVec 32 := Scalar.remsi arg12 v130
  let c0_i32_71 : BitVec 32 := 0#32
  let v133 : BitVec 1 := Scalar.cmpi .slt v131 c0_i32_71
  let c0_i32_72 : BitVec 32 := 0#32
  let v134 : BitVec 1 := Scalar.cmpi .slt v130 c0_i32_72
  let v135 : BitVec 1 := Scalar.xori v133 v134
  let c0_i32_70 : BitVec 32 := 0#32
  let v132 : BitVec 1 := Scalar.cmpi .ne v131 c0_i32_70
  let v136 : BitVec 1 := Scalar.andi v135 v132
  let v137 : BitVec 32 := Scalar.addi v131 v130
  let v138 : BitVec 32 := Scalar.select v136 v137 v131
  let c0_i32_73 : BitVec 32 := 0#32
  let v139 : BitVec 1 := Scalar.cmpi .eq v138 c0_i32_73
  let v153 : BitVec 32 := Scalar.extui v139
  let c0_i32_79 : BitVec 32 := 0#32
  let v154 : BitVec 1 := Scalar.cmpi .ne v153 c0_i32_79
  v154

def k0_off37 (i : grid0.Coords) (k0_t10 : Fin (k0_t10_loop i).trips) : Fin 2 → Nat :=
  let c72_i32_49 : BitVec 32 := 72#32
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c288_i32 : BitVec 32 := 288#32
  let v91 : BitVec 32 := Scalar.subi v19 c288_i32
  let v92 : BitVec 32 := Scalar.maxsi c0_i32_48 v91
  let v93 : BitVec 32 := Scalar.minsi c72_i32_49 v92
  let c72_i32_52 : BitVec 32 := 72#32
  let c0_i32_51 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c288_i32_50 : BitVec 32 := 288#32
  let v94 : BitVec 32 := Scalar.subi v38 c288_i32_50
  let v95 : BitVec 32 := Scalar.maxsi c0_i32_51 v94
  let v96 : BitVec 32 := Scalar.minsi c72_i32_52 v95
  let v97 : BitVec 32 := Scalar.subi v96 v93
  let c1_i32_53 : BitVec 32 := 1#32
  let v99 : BitVec 32 := Scalar.divsi v97 c1_i32_53
  let v100 : BitVec 32 := Scalar.muli v99 c1_i32_53
  let v101 : BitVec 32 := Scalar.addi v93 v100
  let c1_i32_55 : BitVec 32 := 1#32
  let arg12 : BitVec 32 := Scf.iv v101 c1_i32_55 k0_t10
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c24_i32 : BitVec 32 := 24#32
  let v140 : BitVec 32 := Scalar.muli v126 c24_i32
  let c3_i32_66 : BitVec 32 := 3#32
  let v127 : BitVec 32 := Scalar.muli v126 c3_i32_66
  let v128 : BitVec 32 := Scalar.subi arg12 v127
  let c8_i32 : BitVec 32 := 8#32
  let v141 : BitVec 32 := Scalar.muli v128 c8_i32
  let v142 : BitVec 32 := Scalar.addi v140 v141
  let c0_i32_87_r18 : BitVec 32 := 0#32
  ![v142.toNat, 0]
def k0_off38 (i : grid0.Coords) (k0_t10 : Fin (k0_t10_loop i).trips) : Fin 4 → Nat :=
  let c72_i32_49 : BitVec 32 := 72#32
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c288_i32 : BitVec 32 := 288#32
  let v91 : BitVec 32 := Scalar.subi v19 c288_i32
  let v92 : BitVec 32 := Scalar.maxsi c0_i32_48 v91
  let v93 : BitVec 32 := Scalar.minsi c72_i32_49 v92
  let c72_i32_52 : BitVec 32 := 72#32
  let c0_i32_51 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c288_i32_50 : BitVec 32 := 288#32
  let v94 : BitVec 32 := Scalar.subi v38 c288_i32_50
  let v95 : BitVec 32 := Scalar.maxsi c0_i32_51 v94
  let v96 : BitVec 32 := Scalar.minsi c72_i32_52 v95
  let v97 : BitVec 32 := Scalar.subi v96 v93
  let c1_i32_53 : BitVec 32 := 1#32
  let v99 : BitVec 32 := Scalar.divsi v97 c1_i32_53
  let v100 : BitVec 32 := Scalar.muli v99 c1_i32_53
  let v101 : BitVec 32 := Scalar.addi v93 v100
  let c1_i32_55 : BitVec 32 := 1#32
  let arg12 : BitVec 32 := Scf.iv v101 c1_i32_55 k0_t10
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c25_i32 : BitVec 32 := 25#32
  let c3_i32_66 : BitVec 32 := 3#32
  let v127 : BitVec 32 := Scalar.muli v126 c3_i32_66
  let v128 : BitVec 32 := Scalar.subi arg12 v127
  let c8_i32_74 : BitVec 32 := 8#32
  let v143 : BitVec 32 := Scalar.muli v128 c8_i32_74
  let c0_i32_85 : BitVec 32 := 0#32
  ![v126.toNat, 25, v143.toNat, 0]
def k0_cond40 (i : grid0.Coords) (k0_t10 : Fin (k0_t10_loop i).trips) : BitVec 1 :=
  let c72_i32_49 : BitVec 32 := 72#32
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c288_i32 : BitVec 32 := 288#32
  let v91 : BitVec 32 := Scalar.subi v19 c288_i32
  let v92 : BitVec 32 := Scalar.maxsi c0_i32_48 v91
  let v93 : BitVec 32 := Scalar.minsi c72_i32_49 v92
  let c72_i32_52 : BitVec 32 := 72#32
  let c0_i32_51 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c288_i32_50 : BitVec 32 := 288#32
  let v94 : BitVec 32 := Scalar.subi v38 c288_i32_50
  let v95 : BitVec 32 := Scalar.maxsi c0_i32_51 v94
  let v96 : BitVec 32 := Scalar.minsi c72_i32_52 v95
  let v97 : BitVec 32 := Scalar.subi v96 v93
  let c1_i32_53 : BitVec 32 := 1#32
  let v99 : BitVec 32 := Scalar.divsi v97 c1_i32_53
  let v100 : BitVec 32 := Scalar.muli v99 c1_i32_53
  let v101 : BitVec 32 := Scalar.addi v93 v100
  let c1_i32_55 : BitVec 32 := 1#32
  let arg12 : BitVec 32 := Scf.iv v101 c1_i32_55 k0_t10
  let c2_i32_67 : BitVec 32 := 2#32
  let c0_i32_68 : BitVec 32 := 0#32
  let v129 : BitVec 1 := Scalar.cmpi .eq c2_i32_67 c0_i32_68
  let c1_i32_69 : BitVec 32 := 1#32
  let v130 : BitVec 32 := Scalar.select v129 c1_i32_69 c2_i32_67
  let v131 : BitVec 32 := Scalar.remsi arg12 v130
  let c0_i32_71 : BitVec 32 := 0#32
  let v133 : BitVec 1 := Scalar.cmpi .slt v131 c0_i32_71
  let c0_i32_72 : BitVec 32 := 0#32
  let v134 : BitVec 1 := Scalar.cmpi .slt v130 c0_i32_72
  let v135 : BitVec 1 := Scalar.xori v133 v134
  let c0_i32_70 : BitVec 32 := 0#32
  let v132 : BitVec 1 := Scalar.cmpi .ne v131 c0_i32_70
  let v136 : BitVec 1 := Scalar.andi v135 v132
  let v137 : BitVec 32 := Scalar.addi v131 v130
  let v138 : BitVec 32 := Scalar.select v136 v137 v131
  let c0_i32_73 : BitVec 32 := 0#32
  let v139 : BitVec 1 := Scalar.cmpi .eq v138 c0_i32_73
  let true_80 : BitVec 1 := 1#1
  let v155 : BitVec 1 := Scalar.xori v139 true_80
  let v156 : BitVec 32 := Scalar.extui v155
  let c0_i32_82 : BitVec 32 := 0#32
  let v157 : BitVec 1 := Scalar.cmpi .ne v156 c0_i32_82
  v157

def k0_off39 (i : grid0.Coords) (k0_t10 : Fin (k0_t10_loop i).trips) : Fin 2 → Nat :=
  let c72_i32_49 : BitVec 32 := 72#32
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c288_i32 : BitVec 32 := 288#32
  let v91 : BitVec 32 := Scalar.subi v19 c288_i32
  let v92 : BitVec 32 := Scalar.maxsi c0_i32_48 v91
  let v93 : BitVec 32 := Scalar.minsi c72_i32_49 v92
  let c72_i32_52 : BitVec 32 := 72#32
  let c0_i32_51 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c288_i32_50 : BitVec 32 := 288#32
  let v94 : BitVec 32 := Scalar.subi v38 c288_i32_50
  let v95 : BitVec 32 := Scalar.maxsi c0_i32_51 v94
  let v96 : BitVec 32 := Scalar.minsi c72_i32_52 v95
  let v97 : BitVec 32 := Scalar.subi v96 v93
  let c1_i32_53 : BitVec 32 := 1#32
  let v99 : BitVec 32 := Scalar.divsi v97 c1_i32_53
  let v100 : BitVec 32 := Scalar.muli v99 c1_i32_53
  let v101 : BitVec 32 := Scalar.addi v93 v100
  let c1_i32_55 : BitVec 32 := 1#32
  let arg12 : BitVec 32 := Scf.iv v101 c1_i32_55 k0_t10
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c24_i32 : BitVec 32 := 24#32
  let v140 : BitVec 32 := Scalar.muli v126 c24_i32
  let c3_i32_66 : BitVec 32 := 3#32
  let v127 : BitVec 32 := Scalar.muli v126 c3_i32_66
  let v128 : BitVec 32 := Scalar.subi arg12 v127
  let c8_i32 : BitVec 32 := 8#32
  let v141 : BitVec 32 := Scalar.muli v128 c8_i32
  let v142 : BitVec 32 := Scalar.addi v140 v141
  let c0_i32_87_r19 : BitVec 32 := 0#32
  ![v142.toNat, 0]
def k0_off40 (i : grid0.Coords) (k0_t10 : Fin (k0_t10_loop i).trips) : Fin 4 → Nat :=
  let c72_i32_49 : BitVec 32 := 72#32
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c360_i32 : BitVec 32 := 360#32
  let v2 : BitVec 32 := Scalar.muli v1 c360_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c288_i32 : BitVec 32 := 288#32
  let v91 : BitVec 32 := Scalar.subi v19 c288_i32
  let v92 : BitVec 32 := Scalar.maxsi c0_i32_48 v91
  let v93 : BitVec 32 := Scalar.minsi c72_i32_49 v92
  let c72_i32_52 : BitVec 32 := 72#32
  let c0_i32_51 : BitVec 32 := 0#32
  let c1_i32_4 : BitVec 32 := 1#32
  let v20 : BitVec 32 := Scalar.addi v1 c1_i32_4
  let c360_i32_5 : BitVec 32 := 360#32
  let v21 : BitVec 32 := Scalar.muli v20 c360_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c288_i32_50 : BitVec 32 := 288#32
  let v94 : BitVec 32 := Scalar.subi v38 c288_i32_50
  let v95 : BitVec 32 := Scalar.maxsi c0_i32_51 v94
  let v96 : BitVec 32 := Scalar.minsi c72_i32_52 v95
  let v97 : BitVec 32 := Scalar.subi v96 v93
  let c1_i32_53 : BitVec 32 := 1#32
  let v99 : BitVec 32 := Scalar.divsi v97 c1_i32_53
  let v100 : BitVec 32 := Scalar.muli v99 c1_i32_53
  let v101 : BitVec 32 := Scalar.addi v93 v100
  let c1_i32_55 : BitVec 32 := 1#32
  let arg12 : BitVec 32 := Scf.iv v101 c1_i32_55 k0_t10
  let c0_i32_60 : BitVec 32 := 0#32
  let v111 : BitVec 1 := Scalar.cmpi .sgt arg12 c0_i32_60
  let v112 : BitVec 32 := Scalar.extui v111
  let c0_i32_61 : BitVec 32 := 0#32
  let v113 : BitVec 1 := Scalar.cmpi .slt arg12 c0_i32_61
  let v114 : BitVec 32 := Scalar.extui v113
  let v115 : BitVec 32 := Scalar.subi v112 v114
  let c3_i32 : BitVec 32 := 3#32
  let c0_i32_62 : BitVec 32 := 0#32
  let v116 : BitVec 1 := Scalar.cmpi .sgt c3_i32 c0_i32_62
  let v117 : BitVec 32 := Scalar.extui v116
  let c0_i32_63 : BitVec 32 := 0#32
  let v118 : BitVec 1 := Scalar.cmpi .slt c3_i32 c0_i32_63
  let v119 : BitVec 32 := Scalar.extui v118
  let v120 : BitVec 32 := Scalar.subi v117 v119
  let v121 : BitVec 1 := Scalar.cmpi .ne v115 v120
  let v122 : BitVec 32 := Scalar.remsi arg12 c3_i32
  let c0_i32_64 : BitVec 32 := 0#32
  let v123 : BitVec 1 := Scalar.cmpi .ne v122 c0_i32_64
  let v124 : BitVec 1 := Scalar.andi v121 v123
  let v110 : BitVec 32 := Scalar.divsi arg12 c3_i32
  let c1_i32_65 : BitVec 32 := 1#32
  let v125 : BitVec 32 := Scalar.subi v110 c1_i32_65
  let v126 : BitVec 32 := Scalar.select v124 v125 v110
  let c25_i32_81 : BitVec 32 := 25#32
  let c3_i32_66 : BitVec 32 := 3#32
  let v127 : BitVec 32 := Scalar.muli v126 c3_i32_66
  let v128 : BitVec 32 := Scalar.subi arg12 v127
  let c8_i32_74 : BitVec 32 := 8#32
  let v143 : BitVec 32 := Scalar.muli v128 c8_i32_74
  let c0_i32_85 : BitVec 32 := 0#32
  ![v126.toNat, 25, v143.toNat, 0]
abbrev grid1 : Pipeline.Grid := ⟨2, ![24, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage1_0 : Fin 2 → Memref sig .tc .vmem S24x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S10x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S24x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S24x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S24x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S24x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S24x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 1 → Memref sig .tc .smem S4x5 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S1x21x24x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S4096x24x24_S24x24x4096_1_2_0 : S4096x24x24.Transposes [1, 2, 0] S24x24x4096
  shapeCasts_S24x24x4096_S576x4096 : S24x24x4096.ShapeCasts S576x4096
  shapeCasts_S4096_S1x4096 : S4096.ShapeCasts S1x4096
  transposes_S4096x10_S10x4096_1_0 : S4096x10.Transposes [1, 0] S10x4096
  inb_S24x26x24x4096_S1x1x8x4096_0_0_0_0 : ∀ a, (![0, 0, 0, 0] : Fin 4 → Nat) a + S1x1x8x4096.size a ≤ S24x26x24x4096.size a
  squeezes_S1x1x8x4096_S8x4096 : S1x1x8x4096.Squeezes S8x4096
  inb_S24x1024_S24x1024_0_0 : ∀ a, (![0, 0] : Fin 2 → Nat) a + S24x1024.size a ≤ S24x1024.size a
  h_S24x1024 : 0 < S24x1024.numel
  shapeCasts_S24x1024_S24x1024 : S24x1024.ShapeCasts S24x1024
  inb_S4x5_S1x1_0_0 : ∀ a, (![0, 0] : Fin 2 → Nat) a + S1x1.size a ≤ S4x5.size a
  numel1_S1x1 : S1x1.numel = 1
  inb_S4x5_S1x1_1_0 : ∀ a, (![1, 0] : Fin 2 → Nat) a + S1x1.size a ≤ S4x5.size a
  inb_S4x5_S1x1_2_0 : ∀ a, (![2, 0] : Fin 2 → Nat) a + S1x1.size a ≤ S4x5.size a
  inb_S4x5_S1x1_3_0 : ∀ a, (![3, 0] : Fin 2 → Nat) a + S1x1.size a ≤ S4x5.size a
  inb_S1x21x24x1024_S1x1x24x1024_0_0_0_0 : ∀ a, (![0, 0, 0, 0] : Fin 4 → Nat) a + S1x1x24x1024.size a ≤ S1x21x24x1024.size a
  h_S1x1x24x1024 : 0 < S1x1x24x1024.numel
  shapeCasts_S1x1x24x1024_S24x1024 : S1x1x24x1024.ShapeCasts S24x1024
  shapeCasts_S24x1024_S1x1x24x1024 : S24x1024.ShapeCasts S1x1x24x1024
  inb_S4x5_S1x1_0_1 : ∀ a, (![0, 1] : Fin 2 → Nat) a + S1x1.size a ≤ S4x5.size a
  inb_S4x5_S1x1_1_1 : ∀ a, (![1, 1] : Fin 2 → Nat) a + S1x1.size a ≤ S4x5.size a
  inb_S4x5_S1x1_2_1 : ∀ a, (![2, 1] : Fin 2 → Nat) a + S1x1.size a ≤ S4x5.size a
  inb_S4x5_S1x1_3_1 : ∀ a, (![3, 1] : Fin 2 → Nat) a + S1x1.size a ≤ S4x5.size a
  inb_S1x21x24x1024_S1x1x24x1024_0_1_0_0 : ∀ a, (![0, 1, 0, 0] : Fin 4 → Nat) a + S1x1x24x1024.size a ≤ S1x21x24x1024.size a
  inb_S4x5_S1x1_0_2 : ∀ a, (![0, 2] : Fin 2 → Nat) a + S1x1.size a ≤ S4x5.size a
  inb_S4x5_S1x1_1_2 : ∀ a, (![1, 2] : Fin 2 → Nat) a + S1x1.size a ≤ S4x5.size a
  inb_S4x5_S1x1_2_2 : ∀ a, (![2, 2] : Fin 2 → Nat) a + S1x1.size a ≤ S4x5.size a
  inb_S4x5_S1x1_3_2 : ∀ a, (![3, 2] : Fin 2 → Nat) a + S1x1.size a ≤ S4x5.size a
  inb_S1x21x24x1024_S1x1x24x1024_0_2_0_0 : ∀ a, (![0, 2, 0, 0] : Fin 4 → Nat) a + S1x1x24x1024.size a ≤ S1x21x24x1024.size a
  inb_S4x5_S1x1_0_3 : ∀ a, (![0, 3] : Fin 2 → Nat) a + S1x1.size a ≤ S4x5.size a
  inb_S4x5_S1x1_1_3 : ∀ a, (![1, 3] : Fin 2 → Nat) a + S1x1.size a ≤ S4x5.size a
  inb_S4x5_S1x1_2_3 : ∀ a, (![2, 3] : Fin 2 → Nat) a + S1x1.size a ≤ S4x5.size a
  inb_S4x5_S1x1_3_3 : ∀ a, (![3, 3] : Fin 2 → Nat) a + S1x1.size a ≤ S4x5.size a
  inb_S1x21x24x1024_S1x1x24x1024_0_3_0_0 : ∀ a, (![0, 3, 0, 0] : Fin 4 → Nat) a + S1x1x24x1024.size a ≤ S1x21x24x1024.size a
  inb_S4x5_S1x1_0_4 : ∀ a, (![0, 4] : Fin 2 → Nat) a + S1x1.size a ≤ S4x5.size a
  inb_S4x5_S1x1_1_4 : ∀ a, (![1, 4] : Fin 2 → Nat) a + S1x1.size a ≤ S4x5.size a
  inb_S4x5_S1x1_2_4 : ∀ a, (![2, 4] : Fin 2 → Nat) a + S1x1.size a ≤ S4x5.size a
  inb_S4x5_S1x1_3_4 : ∀ a, (![3, 4] : Fin 2 → Nat) a + S1x1.size a ≤ S4x5.size a
  inb_S1x21x24x1024_S1x1x24x1024_0_4_0_0 : ∀ a, (![0, 4, 0, 0] : Fin 4 → Nat) a + S1x1x24x1024.size a ≤ S1x21x24x1024.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S24x1024 : S1x1024.Broadcasts S24x1024
  inb_S1x21x24x1024_S1x1x24x1024_0_5_0_0 : ∀ a, (![0, 5, 0, 0] : Fin 4 → Nat) a + S1x1x24x1024.size a ≤ S1x21x24x1024.size a
  inb_S10x1024_S1x1024_0_0 : ∀ a, (![0, 0] : Fin 2 → Nat) a + S1x1024.size a ≤ S10x1024.size a
  inb_S1x21x24x1024_S1x1x24x1024_0_6_0_0 : ∀ a, (![0, 6, 0, 0] : Fin 4 → Nat) a + S1x1x24x1024.size a ≤ S1x21x24x1024.size a
  inb_S10x1024_S1x1024_1_0 : ∀ a, (![1, 0] : Fin 2 → Nat) a + S1x1024.size a ≤ S10x1024.size a
  inb_S1x21x24x1024_S1x1x24x1024_0_7_0_0 : ∀ a, (![0, 7, 0, 0] : Fin 4 → Nat) a + S1x1x24x1024.size a ≤ S1x21x24x1024.size a
  inb_S10x1024_S1x1024_2_0 : ∀ a, (![2, 0] : Fin 2 → Nat) a + S1x1024.size a ≤ S10x1024.size a
  inb_S1x21x24x1024_S1x1x24x1024_0_8_0_0 : ∀ a, (![0, 8, 0, 0] : Fin 4 → Nat) a + S1x1x24x1024.size a ≤ S1x21x24x1024.size a
  inb_S10x1024_S1x1024_3_0 : ∀ a, (![3, 0] : Fin 2 → Nat) a + S1x1024.size a ≤ S10x1024.size a
  inb_S1x21x24x1024_S1x1x24x1024_0_9_0_0 : ∀ a, (![0, 9, 0, 0] : Fin 4 → Nat) a + S1x1x24x1024.size a ≤ S1x21x24x1024.size a
  inb_S10x1024_S1x1024_4_0 : ∀ a, (![4, 0] : Fin 2 → Nat) a + S1x1024.size a ≤ S10x1024.size a
  inb_S1x21x24x1024_S1x1x24x1024_0_10_0_0 : ∀ a, (![0, 10, 0, 0] : Fin 4 → Nat) a + S1x1x24x1024.size a ≤ S1x21x24x1024.size a
  inb_S10x1024_S1x1024_5_0 : ∀ a, (![5, 0] : Fin 2 → Nat) a + S1x1024.size a ≤ S10x1024.size a
  inb_S1x21x24x1024_S1x1x24x1024_0_11_0_0 : ∀ a, (![0, 11, 0, 0] : Fin 4 → Nat) a + S1x1x24x1024.size a ≤ S1x21x24x1024.size a
  inb_S10x1024_S1x1024_6_0 : ∀ a, (![6, 0] : Fin 2 → Nat) a + S1x1024.size a ≤ S10x1024.size a
  inb_S1x21x24x1024_S1x1x24x1024_0_12_0_0 : ∀ a, (![0, 12, 0, 0] : Fin 4 → Nat) a + S1x1x24x1024.size a ≤ S1x21x24x1024.size a
  inb_S10x1024_S1x1024_7_0 : ∀ a, (![7, 0] : Fin 2 → Nat) a + S1x1024.size a ≤ S10x1024.size a
  inb_S1x21x24x1024_S1x1x24x1024_0_13_0_0 : ∀ a, (![0, 13, 0, 0] : Fin 4 → Nat) a + S1x1x24x1024.size a ≤ S1x21x24x1024.size a
  inb_S10x1024_S1x1024_8_0 : ∀ a, (![8, 0] : Fin 2 → Nat) a + S1x1024.size a ≤ S10x1024.size a
  inb_S1x21x24x1024_S1x1x24x1024_0_14_0_0 : ∀ a, (![0, 14, 0, 0] : Fin 4 → Nat) a + S1x1x24x1024.size a ≤ S1x21x24x1024.size a
  inb_S10x1024_S1x1024_9_0 : ∀ a, (![9, 0] : Fin 2 → Nat) a + S1x1024.size a ≤ S10x1024.size a
  inb_S1x21x24x1024_S1x1x24x1024_0_15_0_0 : ∀ a, (![0, 15, 0, 0] : Fin 4 → Nat) a + S1x1x24x1024.size a ≤ S1x21x24x1024.size a
  inb_S1x21x24x1024_S1x1x24x1024_0_16_0_0 : ∀ a, (![0, 16, 0, 0] : Fin 4 → Nat) a + S1x1x24x1024.size a ≤ S1x21x24x1024.size a
  inb_S1x21x24x1024_S1x1x24x1024_0_17_0_0 : ∀ a, (![0, 17, 0, 0] : Fin 4 → Nat) a + S1x1x24x1024.size a ≤ S1x21x24x1024.size a
  inb_S1x21x24x1024_S1x1x24x1024_0_18_0_0 : ∀ a, (![0, 18, 0, 0] : Fin 4 → Nat) a + S1x1x24x1024.size a ≤ S1x21x24x1024.size a
  inb_S1x21x24x1024_S1x1x24x1024_0_19_0_0 : ∀ a, (![0, 19, 0, 0] : Fin 4 → Nat) a + S1x1x24x1024.size a ≤ S1x21x24x1024.size a
  inb_S1x21x24x1024_S1x1x24x1024_0_20_0_0 : ∀ a, (![0, 20, 0, 0] : Fin 4 → Nat) a + S1x1x24x1024.size a ≤ S1x21x24x1024.size a
  transposes_S24x26x24x4096_S4096x24x24x26_3_0_2_1 : S24x26x24x4096.Transposes [3, 0, 2, 1] S4096x24x24x26
  hcc0_scratch2 : 0 + S_.numel ≤ 41
  hcc0_scratch3 : 1 + S_.numel ≤ 41
  hcc0_scoped0 : 2 + S_.numel ≤ 41
  hcc0_scoped1 : 3 + S_.numel ≤ 41
  hcc0_scoped2 : 4 + S_.numel ≤ 41
  hcc0_scoped3 : 5 + S_.numel ≤ 41
  hcc0_scoped4 : 6 + S_.numel ≤ 41
  hcc0_scoped5 : 7 + S_.numel ≤ 41
  hcc0_scoped6 : 8 + S_.numel ≤ 41
  hcc0_scoped7 : 9 + S_.numel ≤ 41
  hcc0_scoped8 : 10 + S_.numel ≤ 41
  hcc0_scoped9 : 11 + S_.numel ≤ 41
  hcc0_scoped10 : 12 + S_.numel ≤ 41
  hcc0_scoped11 : 13 + S_.numel ≤ 41
  hcc0_scoped12 : 14 + S_.numel ≤ 41
  hcc0_scoped13 : 15 + S_.numel ≤ 41
  hcc0_scoped14 : 16 + S_.numel ≤ 41
  hcc0_scoped15 : 17 + S_.numel ≤ 41
  hcc0_scoped16 : 18 + S_.numel ≤ 41
  hcc0_scoped17 : 19 + S_.numel ≤ 41
  hcc0_scoped18 : 20 + S_.numel ≤ 41
  hcc0_scoped19 : 21 + S_.numel ≤ 41
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : ∀ i : grid0.Coords, (k0_t1_loop i).OK
  k0_off1_inb : ∀ (i : grid0.Coords) (k0_t1 : Fin (k0_t1_loop i).trips), ∀ (k0_h3 : k0_cond3 i k0_t1 = 1#1), ∀ a, (k0_off1 i k0_t1) a + S8x4096.size a ≤ S576x4096.size a
  k0_off2_inb : ∀ (i : grid0.Coords) (k0_t1 : Fin (k0_t1_loop i).trips), ∀ (k0_h3 : k0_cond3 i k0_t1 = 1#1), ∀ a, (k0_off2 i k0_t1) a + S1x1x8x4096.size a ≤ S24x26x24x4096.size a
  k0_off3_inb : ∀ (i : grid0.Coords) (k0_t1 : Fin (k0_t1_loop i).trips), ∀ (k0_h4 : k0_cond4 i k0_t1 = 1#1), ∀ a, (k0_off3 i k0_t1) a + S8x4096.size a ≤ S576x4096.size a
  k0_off4_inb : ∀ (i : grid0.Coords) (k0_t1 : Fin (k0_t1_loop i).trips), ∀ (k0_h4 : k0_cond4 i k0_t1 = 1#1), ∀ a, (k0_off4 i k0_t1) a + S1x1x8x4096.size a ≤ S24x26x24x4096.size a
  k0_t2_ok : ∀ i : grid0.Coords, (k0_t2_loop i).OK
  k0_off5_inb : ∀ (i : grid0.Coords) (k0_t2 : Fin (k0_t2_loop i).trips), ∀ (k0_h7 : k0_cond7 i k0_t2 = 1#1), ∀ a, (k0_off5 i k0_t2) a + S8x4096.size a ≤ S576x4096.size a
  k0_off6_inb : ∀ (i : grid0.Coords) (k0_t2 : Fin (k0_t2_loop i).trips), ∀ (k0_h7 : k0_cond7 i k0_t2 = 1#1), ∀ a, (k0_off6 i k0_t2) a + S1x1x8x4096.size a ≤ S24x26x24x4096.size a
  k0_off7_inb : ∀ (i : grid0.Coords) (k0_t2 : Fin (k0_t2_loop i).trips), ∀ (k0_h8 : k0_cond8 i k0_t2 = 1#1), ∀ a, (k0_off7 i k0_t2) a + S8x4096.size a ≤ S576x4096.size a
  k0_off8_inb : ∀ (i : grid0.Coords) (k0_t2 : Fin (k0_t2_loop i).trips), ∀ (k0_h8 : k0_cond8 i k0_t2 = 1#1), ∀ a, (k0_off8 i k0_t2) a + S1x1x8x4096.size a ≤ S24x26x24x4096.size a
  k0_t3_ok : ∀ i : grid0.Coords, (k0_t3_loop i).OK
  k0_off9_inb : ∀ (i : grid0.Coords) (k0_t3 : Fin (k0_t3_loop i).trips), ∀ (k0_h11 : k0_cond11 i k0_t3 = 1#1), ∀ a, (k0_off9 i k0_t3) a + S8x4096.size a ≤ S576x4096.size a
  k0_off10_inb : ∀ (i : grid0.Coords) (k0_t3 : Fin (k0_t3_loop i).trips), ∀ (k0_h11 : k0_cond11 i k0_t3 = 1#1), ∀ a, (k0_off10 i k0_t3) a + S1x1x8x4096.size a ≤ S24x26x24x4096.size a
  k0_off11_inb : ∀ (i : grid0.Coords) (k0_t3 : Fin (k0_t3_loop i).trips), ∀ (k0_h12 : k0_cond12 i k0_t3 = 1#1), ∀ a, (k0_off11 i k0_t3) a + S8x4096.size a ≤ S576x4096.size a
  k0_off12_inb : ∀ (i : grid0.Coords) (k0_t3 : Fin (k0_t3_loop i).trips), ∀ (k0_h12 : k0_cond12 i k0_t3 = 1#1), ∀ a, (k0_off12 i k0_t3) a + S1x1x8x4096.size a ≤ S24x26x24x4096.size a
  k0_t4_ok : ∀ i : grid0.Coords, (k0_t4_loop i).OK
  k0_off13_inb : ∀ (i : grid0.Coords) (k0_t4 : Fin (k0_t4_loop i).trips), ∀ (k0_h15 : k0_cond15 i k0_t4 = 1#1), ∀ a, (k0_off13 i k0_t4) a + S8x4096.size a ≤ S576x4096.size a
  k0_off14_inb : ∀ (i : grid0.Coords) (k0_t4 : Fin (k0_t4_loop i).trips), ∀ (k0_h15 : k0_cond15 i k0_t4 = 1#1), ∀ a, (k0_off14 i k0_t4) a + S1x1x8x4096.size a ≤ S24x26x24x4096.size a
  k0_off15_inb : ∀ (i : grid0.Coords) (k0_t4 : Fin (k0_t4_loop i).trips), ∀ (k0_h16 : k0_cond16 i k0_t4 = 1#1), ∀ a, (k0_off15 i k0_t4) a + S8x4096.size a ≤ S576x4096.size a
  k0_off16_inb : ∀ (i : grid0.Coords) (k0_t4 : Fin (k0_t4_loop i).trips), ∀ (k0_h16 : k0_cond16 i k0_t4 = 1#1), ∀ a, (k0_off16 i k0_t4) a + S1x1x8x4096.size a ≤ S24x26x24x4096.size a
  k0_t5_ok : ∀ i : grid0.Coords, (k0_t5_loop i).OK
  k0_off17_inb : ∀ (i : grid0.Coords) (k0_t5 : Fin (k0_t5_loop i).trips), ∀ (k0_h19 : k0_cond19 i k0_t5 = 1#1), ∀ a, (k0_off17 i k0_t5) a + S8x4096.size a ≤ S576x4096.size a
  k0_off18_inb : ∀ (i : grid0.Coords) (k0_t5 : Fin (k0_t5_loop i).trips), ∀ (k0_h19 : k0_cond19 i k0_t5 = 1#1), ∀ a, (k0_off18 i k0_t5) a + S1x1x8x4096.size a ≤ S24x26x24x4096.size a
  k0_off19_inb : ∀ (i : grid0.Coords) (k0_t5 : Fin (k0_t5_loop i).trips), ∀ (k0_h20 : k0_cond20 i k0_t5 = 1#1), ∀ a, (k0_off19 i k0_t5) a + S8x4096.size a ≤ S576x4096.size a
  k0_off20_inb : ∀ (i : grid0.Coords) (k0_t5 : Fin (k0_t5_loop i).trips), ∀ (k0_h20 : k0_cond20 i k0_t5 = 1#1), ∀ a, (k0_off20 i k0_t5) a + S1x1x8x4096.size a ≤ S24x26x24x4096.size a
  k0_t6_ok : ∀ i : grid0.Coords, (k0_t6_loop i).OK
  k0_off21_inb : ∀ (i : grid0.Coords) (k0_t6 : Fin (k0_t6_loop i).trips), ∀ (k0_h23 : k0_cond23 i k0_t6 = 1#1), ∀ a, (k0_off21 i k0_t6) a + S8x4096.size a ≤ S576x4096.size a
  k0_off22_inb : ∀ (i : grid0.Coords) (k0_t6 : Fin (k0_t6_loop i).trips), ∀ (k0_h23 : k0_cond23 i k0_t6 = 1#1), ∀ a, (k0_off22 i k0_t6) a + S1x1x8x4096.size a ≤ S24x26x24x4096.size a
  k0_off23_inb : ∀ (i : grid0.Coords) (k0_t6 : Fin (k0_t6_loop i).trips), ∀ (k0_h24 : k0_cond24 i k0_t6 = 1#1), ∀ a, (k0_off23 i k0_t6) a + S8x4096.size a ≤ S576x4096.size a
  k0_off24_inb : ∀ (i : grid0.Coords) (k0_t6 : Fin (k0_t6_loop i).trips), ∀ (k0_h24 : k0_cond24 i k0_t6 = 1#1), ∀ a, (k0_off24 i k0_t6) a + S1x1x8x4096.size a ≤ S24x26x24x4096.size a
  k0_t7_ok : ∀ i : grid0.Coords, (k0_t7_loop i).OK
  k0_off25_inb : ∀ (i : grid0.Coords) (k0_t7 : Fin (k0_t7_loop i).trips), ∀ (k0_h27 : k0_cond27 i k0_t7 = 1#1), ∀ a, (k0_off25 i k0_t7) a + S8x4096.size a ≤ S576x4096.size a
  k0_off26_inb : ∀ (i : grid0.Coords) (k0_t7 : Fin (k0_t7_loop i).trips), ∀ (k0_h27 : k0_cond27 i k0_t7 = 1#1), ∀ a, (k0_off26 i k0_t7) a + S1x1x8x4096.size a ≤ S24x26x24x4096.size a
  k0_off27_inb : ∀ (i : grid0.Coords) (k0_t7 : Fin (k0_t7_loop i).trips), ∀ (k0_h28 : k0_cond28 i k0_t7 = 1#1), ∀ a, (k0_off27 i k0_t7) a + S8x4096.size a ≤ S576x4096.size a
  k0_off28_inb : ∀ (i : grid0.Coords) (k0_t7 : Fin (k0_t7_loop i).trips), ∀ (k0_h28 : k0_cond28 i k0_t7 = 1#1), ∀ a, (k0_off28 i k0_t7) a + S1x1x8x4096.size a ≤ S24x26x24x4096.size a
  k0_t8_ok : ∀ i : grid0.Coords, (k0_t8_loop i).OK
  k0_off29_inb : ∀ (i : grid0.Coords) (k0_t8 : Fin (k0_t8_loop i).trips), ∀ (k0_h31 : k0_cond31 i k0_t8 = 1#1), ∀ a, (k0_off29 i k0_t8) a + S8x4096.size a ≤ S576x4096.size a
  k0_off30_inb : ∀ (i : grid0.Coords) (k0_t8 : Fin (k0_t8_loop i).trips), ∀ (k0_h31 : k0_cond31 i k0_t8 = 1#1), ∀ a, (k0_off30 i k0_t8) a + S1x1x8x4096.size a ≤ S24x26x24x4096.size a
  k0_off31_inb : ∀ (i : grid0.Coords) (k0_t8 : Fin (k0_t8_loop i).trips), ∀ (k0_h32 : k0_cond32 i k0_t8 = 1#1), ∀ a, (k0_off31 i k0_t8) a + S8x4096.size a ≤ S576x4096.size a
  k0_off32_inb : ∀ (i : grid0.Coords) (k0_t8 : Fin (k0_t8_loop i).trips), ∀ (k0_h32 : k0_cond32 i k0_t8 = 1#1), ∀ a, (k0_off32 i k0_t8) a + S1x1x8x4096.size a ≤ S24x26x24x4096.size a
  k0_t9_ok : ∀ i : grid0.Coords, (k0_t9_loop i).OK
  k0_off33_inb : ∀ (i : grid0.Coords) (k0_t9 : Fin (k0_t9_loop i).trips), ∀ (k0_h35 : k0_cond35 i k0_t9 = 1#1), ∀ a, (k0_off33 i k0_t9) a + S8x4096.size a ≤ S576x4096.size a
  k0_off34_inb : ∀ (i : grid0.Coords) (k0_t9 : Fin (k0_t9_loop i).trips), ∀ (k0_h35 : k0_cond35 i k0_t9 = 1#1), ∀ a, (k0_off34 i k0_t9) a + S1x1x8x4096.size a ≤ S24x26x24x4096.size a
  k0_off35_inb : ∀ (i : grid0.Coords) (k0_t9 : Fin (k0_t9_loop i).trips), ∀ (k0_h36 : k0_cond36 i k0_t9 = 1#1), ∀ a, (k0_off35 i k0_t9) a + S8x4096.size a ≤ S576x4096.size a
  k0_off36_inb : ∀ (i : grid0.Coords) (k0_t9 : Fin (k0_t9_loop i).trips), ∀ (k0_h36 : k0_cond36 i k0_t9 = 1#1), ∀ a, (k0_off36 i k0_t9) a + S1x1x8x4096.size a ≤ S24x26x24x4096.size a
  k0_t10_ok : ∀ i : grid0.Coords, (k0_t10_loop i).OK
  k0_off37_inb : ∀ (i : grid0.Coords) (k0_t10 : Fin (k0_t10_loop i).trips), ∀ (k0_h39 : k0_cond39 i k0_t10 = 1#1), ∀ a, (k0_off37 i k0_t10) a + S8x4096.size a ≤ S576x4096.size a
  k0_off38_inb : ∀ (i : grid0.Coords) (k0_t10 : Fin (k0_t10_loop i).trips), ∀ (k0_h39 : k0_cond39 i k0_t10 = 1#1), ∀ a, (k0_off38 i k0_t10) a + S1x1x8x4096.size a ≤ S24x26x24x4096.size a
  k0_off39_inb : ∀ (i : grid0.Coords) (k0_t10 : Fin (k0_t10_loop i).trips), ∀ (k0_h40 : k0_cond40 i k0_t10 = 1#1), ∀ a, (k0_off39 i k0_t10) a + S8x4096.size a ≤ S576x4096.size a
  k0_off40_inb : ∀ (i : grid0.Coords) (k0_t10 : Fin (k0_t10_loop i).trips), ∀ (k0_h40 : k0_cond40 i k0_t10 = 1#1), ∀ a, (k0_off40 i k0_t10) a + S1x1x8x4096.size a ≤ S24x26x24x4096.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S24x1024.size a ≤ S576x4096.size a
  hwx1_0 : ∀ i : grid1.Coords, EltTy.bits .i32 = 32 ∨ (Rect.block (s := S576x4096) S24x1024.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x4096.size a
  hwx1_1 : ∀ i : grid1.Coords, EltTy.bits .f32 = 32 ∨ (Rect.block (s := S1x4096) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10x1024.size a ≤ S10x4096.size a
  hwx1_2 : ∀ i : grid1.Coords, EltTy.bits .f32 = 32 ∨ (Rect.block (s := S10x4096) S10x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S24x1024.size a ≤ S576x4096.size a
  hwx1_3 : ∀ i : grid1.Coords, EltTy.bits .f32 = 32 ∨ (Rect.block (s := S576x4096) S24x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S24x1024.size a ≤ S576x4096.size a
  hwx1_4 : ∀ i : grid1.Coords, EltTy.bits .f32 = 32 ∨ (Rect.block (s := S576x4096) S24x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S24x1024.size a ≤ S576x4096.size a
  hwx1_5 : ∀ i : grid1.Coords, EltTy.bits .f32 = 32 ∨ (Rect.block (s := S576x4096) S24x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S24x1024.size a ≤ S576x4096.size a
  hwx1_6 : ∀ i : grid1.Coords, EltTy.bits .f32 = 32 ∨ (Rect.block (s := S576x4096) S24x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S24x1024.size a ≤ S576x4096.size a
  hwx1_7 : ∀ i : grid1.Coords, EltTy.bits .f32 = 32 ∨ (Rect.block (s := S576x4096) S24x1024.size (cc1_transform_7 i) (hinb1_7 i)).WholeWords (EltTy.packing .f32)
  hstage1_8 : ∀ j, (stage1_8 j).IsWhole
  nbuf1_8 : grid1.bufCount reads1_8 false = 1
  hreads1_8 : ∀ i i' : grid1.Coords, (∀ a, reads1_8 a = true → i a = i' a) → cc1_transform_8 i = cc1_transform_8 i'
  hinb1_8 : ∀ (i : grid1.Coords) a, (cc1_transform_8 i a + 1) * S4x5.size a ≤ S4x5.size a
  hwx1_8 : ∀ i : grid1.Coords, EltTy.bits .f32 = 32 ∨ (Rect.block (s := S4x5) S4x5.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_10 i = cc1_transform_10 i'
  hstart1_9 : ∀ (i : grid1.Coords) a, cc1_transform_10 i a * S1x21x24x1024.size a < S24x26x24x4096.size a
  hwx1_9 : ∀ i : grid1.Coords, EltTy.bits .f32 = 32 ∨ (Rect.unit (s := S24x26x24x4096) (fun a => cc1_transform_10 i a * S1x21x24x1024.size a) (fun a => (Pipeline.Clip.of (cc1_transform_10 i a) (S1x21x24x1024.size a) (S24x26x24x4096.size a)).extent (S1x21x24x1024.size a)) fun a => Pipeline.Clip.inb (Pipeline.Clip.ok_of (hstart1_9 i a))).WholeWords (EltTy.packing .f32)
  hwxs1_9 : ∀ i : grid1.Coords, EltTy.bits .f32 = 32 ∨ (Rect.unit (s := S1x21x24x1024) (fun _ => 0) (fun a => (Pipeline.Clip.of (cc1_transform_10 i a) (S1x21x24x1024.size a) (S24x26x24x4096.size a)).extent (S1x21x24x1024.size a)) fun a => (Nat.zero_add _).trans_le (Pipeline.Clip.extent_le (Pipeline.Clip.ok_of (hstart1_9 i a)))).WholeWords (EltTy.packing .f32)

variable [Facts₀]

abbrev cc0_scratch2 : DmaSems sig S_ := SemArray.consecutive 0 S_ hcc0_scratch2
abbrev cc0_scratch3 : DmaSems sig S_ := SemArray.consecutive 1 S_ hcc0_scratch3
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2
abbrev cc0_scoped3 : DmaSems sig S_ := SemArray.consecutive 5 S_ hcc0_scoped3
abbrev cc0_scoped4 : DmaSems sig S_ := SemArray.consecutive 6 S_ hcc0_scoped4
abbrev cc0_scoped5 : DmaSems sig S_ := SemArray.consecutive 7 S_ hcc0_scoped5
abbrev cc0_scoped6 : DmaSems sig S_ := SemArray.consecutive 8 S_ hcc0_scoped6
abbrev cc0_scoped7 : DmaSems sig S_ := SemArray.consecutive 9 S_ hcc0_scoped7
abbrev cc0_scoped8 : DmaSems sig S_ := SemArray.consecutive 10 S_ hcc0_scoped8
abbrev cc0_scoped9 : DmaSems sig S_ := SemArray.consecutive 11 S_ hcc0_scoped9
abbrev cc0_scoped10 : DmaSems sig S_ := SemArray.consecutive 12 S_ hcc0_scoped10
abbrev cc0_scoped11 : DmaSems sig S_ := SemArray.consecutive 13 S_ hcc0_scoped11
abbrev cc0_scoped12 : DmaSems sig S_ := SemArray.consecutive 14 S_ hcc0_scoped12
abbrev cc0_scoped13 : DmaSems sig S_ := SemArray.consecutive 15 S_ hcc0_scoped13
abbrev cc0_scoped14 : DmaSems sig S_ := SemArray.consecutive 16 S_ hcc0_scoped14
abbrev cc0_scoped15 : DmaSems sig S_ := SemArray.consecutive 17 S_ hcc0_scoped15
abbrev cc0_scoped16 : DmaSems sig S_ := SemArray.consecutive 18 S_ hcc0_scoped16
abbrev cc0_scoped17 : DmaSems sig S_ := SemArray.consecutive 19 S_ hcc0_scoped17
abbrev cc0_scoped18 : DmaSems sig S_ := SemArray.consecutive 20 S_ hcc0_scoped18
abbrev cc0_scoped19 : DmaSems sig S_ := SemArray.consecutive 21 S_ hcc0_scoped19

abbrev win1_0 : Pipeline.Window sig grid1 :=
  Pipeline.Window.ofSpec (Memref.whole main_v1) S24x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S10x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S24x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S24x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9) S24x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v11) S24x1024.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v13) S24x1024.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_arg13) S4x5.size cc1_transform_8 reads1_8 false false 1 stage1_8 sem1_8
    hrank1 hreads1_8 hinb1_8 nbuf1_8 (Memref.isWhole_whole _) hwx1_8 hstage1_8

abbrev win1_9 : Pipeline.Window sig grid1 :=
  Pipeline.Window.ofSpecClip (Memref.whole main_v25) S1x21x24x1024.size cc1_transform_10 reads1_9 true false 2 stage1_9 sem1_9
    hrank1 hreads1_9 hstart1_9 nbuf1_9 (Memref.isWhole_whole _) hwx1_9 hwxs1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S4096x24x24 : Shape := ⟨3, ![4096, 24, 24]⟩
abbrev S4096 : Shape := ⟨1, ![4096]⟩
abbrev S4096x10 : Shape := ⟨2, ![4096, 10]⟩
abbrev S4x5 : Shape := ⟨2, ![4, 5]⟩
abbrev S_ : Shape := ⟨0, ![]⟩
abbrev S4096x24x24x1 : Shape := ⟨4, ![4096, 24, 24, 1]⟩
abbrev S1 : Shape := ⟨1, ![1]⟩
abbrev S1x1x1x1 : Shape := ⟨4, ![1, 1, 1, 1]⟩
abbrev S4096x24x24x5 : Shape := ⟨4, ![4096, 24, 24, 5]⟩
abbrev S4096x1x1x1 : Shape := ⟨4, ![4096, 1, 1, 1]⟩
abbrev S1x4096x1x1x1x1x1x1 : Shape := ⟨8, ![1, 4096, 1, 1, 1, 1, 1, 1]⟩
abbrev S1x4096x24x1x24x1x1x1 : Shape := ⟨8, ![1, 4096, 24, 1, 24, 1, 1, 1]⟩
abbrev S4096x1x1x10 : Shape := ⟨4, ![4096, 1, 1, 10]⟩
abbrev S1x4096x1x1x1x1x1x10 : Shape := ⟨8, ![1, 4096, 1, 1, 1, 1, 1, 10]⟩
abbrev S1x4096x24x1x24x1x1x10 : Shape := ⟨8, ![1, 4096, 24, 1, 24, 1, 1, 10]⟩
abbrev S4096x24x24x10 : Shape := ⟨4, ![4096, 24, 24, 10]⟩
abbrev S4096x24x24x26 : Shape := ⟨4, ![4096, 24, 24, 26]⟩

abbrev nBuf : Space → Nat
  | .hbm => 56
  | .vmem => 0
  | .smem => 0
  | _ => 0

abbrev bufTy : (tb : Table) → Fin (tcTables nBuf tb) → BufTy
  | .hbm, ⟨0, _⟩ => ⟨S4096x24x24, .i32⟩
  | .hbm, ⟨1, _⟩ => ⟨S4096, .f32⟩
  | .hbm, ⟨2, _⟩ => ⟨S4096x10, .f32⟩
  | .hbm, ⟨3, _⟩ => ⟨S4096x24x24, .f32⟩
  | .hbm, ⟨4, _⟩ => ⟨S4096x24x24, .f32⟩
  | .hbm, ⟨5, _⟩ => ⟨S4096x24x24, .f32⟩
  | .hbm, ⟨6, _⟩ => ⟨S4096x24x24, .f32⟩
  | .hbm, ⟨7, _⟩ => ⟨S4096x24x24, .f32⟩
  | .hbm, ⟨8, _⟩ => ⟨S4096x24x24, .f32⟩
  | .hbm, ⟨9, _⟩ => ⟨S4096x24x24, .f32⟩
  | .hbm, ⟨10, _⟩ => ⟨S4096x24x24, .f32⟩
  | .hbm, ⟨11, _⟩ => ⟨S4096x24x24, .f32⟩
  | .hbm, ⟨12, _⟩ => ⟨S4096x24x24, .f32⟩
  | .hbm, ⟨13, _⟩ => ⟨S4x5, .f32⟩
  | .hbm, ⟨14, _⟩ => ⟨S_, .i32⟩
  | .hbm, ⟨15, _⟩ => ⟨S4096x24x24, .i32⟩
  | .hbm, ⟨16, _⟩ => ⟨S4096x24x24, .i1⟩
  | .hbm, ⟨17, _⟩ => ⟨S_, .i32⟩
  | .hbm, ⟨18, _⟩ => ⟨S4096x24x24, .i32⟩
  | .hbm, ⟨19, _⟩ => ⟨S4096x24x24, .i32⟩
  | .hbm, ⟨20, _⟩ => ⟨S4096x24x24, .i32⟩
  | .hbm, ⟨21, _⟩ => ⟨S4096x24x24x1, .i32⟩
  | .hbm, ⟨22, _⟩ => ⟨S1, .i32⟩
  | .hbm, ⟨23, _⟩ => ⟨S_, .i32⟩
  | .hbm, ⟨24, _⟩ => ⟨S4096x24x24x1, .i32⟩
  | .hbm, ⟨25, _⟩ => ⟨S4096x24x24x1, .i1⟩
  | .hbm, ⟨26, _⟩ => ⟨S1x1x1x1, .i32⟩
  | .hbm, ⟨27, _⟩ => ⟨S4096x24x24x1, .i32⟩
  | .hbm, ⟨28, _⟩ => ⟨S4096x24x24x1, .i1⟩
  | .hbm, ⟨29, _⟩ => ⟨S4096x24x24x1, .i1⟩
  | .hbm, ⟨30, _⟩ => ⟨S_, .i1⟩
  | .hbm, ⟨31, _⟩ => ⟨S4096x24x24, .i1⟩
  | .hbm, ⟨32, _⟩ => ⟨S4096x24x24x5, .f32⟩
  | .hbm, ⟨33, _⟩ => ⟨S4096x24x24x5, .i1⟩
  | .hbm, ⟨34, _⟩ => ⟨S_, .f32⟩
  | .hbm, ⟨35, _⟩ => ⟨S4096x24x24x5, .f32⟩
  | .hbm, ⟨36, _⟩ => ⟨S4096x24x24x5, .f32⟩
  | .hbm, ⟨37, _⟩ => ⟨S4096x1x1x1, .f32⟩
  | .hbm, ⟨38, _⟩ => ⟨S1x4096x1x1x1x1x1x1, .f32⟩
  | .hbm, ⟨39, _⟩ => ⟨S1x4096x24x1x24x1x1x1, .f32⟩
  | .hbm, ⟨40, _⟩ => ⟨S4096x24x24x1, .f32⟩
  | .hbm, ⟨41, _⟩ => ⟨S4096x1x1x10, .f32⟩
  | .hbm, ⟨42, _⟩ => ⟨S1x4096x1x1x1x1x1x10, .f32⟩
  | .hbm, ⟨43, _⟩ => ⟨S1x4096x24x1x24x1x1x10, .f32⟩
  | .hbm, ⟨44, _⟩ => ⟨S4096x24x24x10, .f32⟩
  | .hbm, ⟨45, _⟩ => ⟨S4096x24x24x1, .f32⟩
  | .hbm, ⟨46, _⟩ => ⟨S4096x24x24x1, .f32⟩
  | .hbm, ⟨47, _⟩ => ⟨S4096x24x24x1, .f32⟩
  | .hbm, ⟨48, _⟩ => ⟨S4096x24x24x1, .f32⟩
  | .hbm, ⟨49, _⟩ => ⟨S4096x24x24x1, .f32⟩
  | .hbm, ⟨50, _⟩ => ⟨S4096x24x24x1, .f32⟩
  | .hbm, ⟨51, _⟩ => ⟨S4096x24x24x1, .f32⟩
  | .hbm, ⟨52, _⟩ => ⟨S4096x24x24x1, .f32⟩
  | .hbm, ⟨53, _⟩ => ⟨S4096x24x24x1, .f32⟩
  | .hbm, ⟨54, _⟩ => ⟨S4096x24x24x1, .f32⟩
  | .hbm, ⟨55, _⟩ => ⟨S4096x24x24x26, .f32⟩
  | _, _ => ⟨S4096x24x24, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩

abbrev nD : Nat := 1
abbrev τ : Topo := Topo.v7x

variable {F : FTy → Type} [FloatOps F]

class Facts₀ : Prop where
  bcast_S_S4096x24x24 : S_.BroadcastsInDim S4096x24x24 (![] : Fin 0 → Fin S4096x24x24.rank)
  bcast_S4096x24x24_S4096x24x24x1_0_1_2 : S4096x24x24.BroadcastsInDim S4096x24x24x1 (![0, 1, 2] : Fin 3 → Fin S4096x24x24x1.rank)
  bcast_S_S4096x24x24x1 : S_.BroadcastsInDim S4096x24x24x1 (![] : Fin 0 → Fin S4096x24x24x1.rank)
  bcast_S1_S1x1x1x1_3 : S1.BroadcastsInDim S1x1x1x1 (![3] : Fin 1 → Fin S1x1x1x1.rank)
  bcast_S1x1x1x1_S4096x24x24x1_0_1_2_3 : S1x1x1x1.BroadcastsInDim S4096x24x24x1 (![0, 1, 2, 3] : Fin 4 → Fin S4096x24x24x1.rank)
  reducesTo_S4096x24x24x1_S4096x24x24_d3 : S4096x24x24x1.ReducesTo [3] S4096x24x24
  h_S_ : 0 < S_.numel
  bcast_S4096x24x24_S4096x24x24x5_0_1_2 : S4096x24x24.BroadcastsInDim S4096x24x24x5 (![0, 1, 2] : Fin 3 → Fin S4096x24x24x5.rank)
  bcast_S_S4096x24x24x5 : S_.BroadcastsInDim S4096x24x24x5 (![] : Fin 0 → Fin S4096x24x24x5.rank)
  shapeCasts_S4096_S4096x1x1x1 : S4096.ShapeCasts S4096x1x1x1
  shapeCasts_S4096x1x1x1_S1x4096x1x1x1x1x1x1 : S4096x1x1x1.ShapeCasts S1x4096x1x1x1x1x1x1
  bcast_S1x4096x1x1x1x1x1x1_S1x4096x24x1x24x1x1x1_0_1_2_3_4_5_6_7 : S1x4096x1x1x1x1x1x1.BroadcastsInDim S1x4096x24x1x24x1x1x1 (![0, 1, 2, 3, 4, 5, 6, 7] : Fin 8 → Fin S1x4096x24x1x24x1x1x1.rank)
  shapeCasts_S1x4096x24x1x24x1x1x1_S4096x24x24x1 : S1x4096x24x1x24x1x1x1.ShapeCasts S4096x24x24x1
  shapeCasts_S4096x10_S4096x1x1x10 : S4096x10.ShapeCasts S4096x1x1x10
  shapeCasts_S4096x1x1x10_S1x4096x1x1x1x1x1x10 : S4096x1x1x10.ShapeCasts S1x4096x1x1x1x1x1x10
  bcast_S1x4096x1x1x1x1x1x10_S1x4096x24x1x24x1x1x10_0_1_2_3_4_5_6_7 : S1x4096x1x1x1x1x1x10.BroadcastsInDim S1x4096x24x1x24x1x1x10 (![0, 1, 2, 3, 4, 5, 6, 7] : Fin 8 → Fin S1x4096x24x1x24x1x1x10.rank)
  shapeCasts_S1x4096x24x1x24x1x1x10_S4096x24x24x10 : S1x4096x24x1x24x1x1x10.ShapeCasts S4096x24x24x10
  concatenates_S4096x24x24x5_S4096x24x24x1_S4096x24x24x10_S4096x24x24x1_S4096x24x24x1_S4096x24x24x1_S4096x24x24x1_S4096x24x24x1_S4096x24x24x1_S4096x24x24x1_S4096x24x24x1_S4096x24x24x1_S4096x24x24x1_S4096x24x24x26_d3 : Shape.Concatenates [S4096x24x24x5, S4096x24x24x1, S4096x24x24x10, S4096x24x24x1, S4096x24x24x1, S4096x24x24x1, S4096x24x24x1, S4096x24x24x1, S4096x24x24x1, S4096x24x24x1, S4096x24x24x1, S4096x24x24x1, S4096x24x24x1] S4096x24x24x26 3
  gather_S4x5_S4096x24x24x1_S4096x24x24x5_3_0_n_n_0_3_15_wf : GatherDims.WF S4x5 S4096x24x24x1 S4096x24x24x5 [3] [0] [] [0] [] 3 ![1, 5]

variable [Facts₀]

def gather_S4x5_S4096x24x24x1_S4096x24x24x5_3_0_n_n_0_3_15 : GatherDims S4x5 S4096x24x24x1 S4096x24x24x5 where
  offsetDims := [3]
  collapsedSliceDims := [0]
  operandBatchingDims := []
  startIndicesBatchingDims := []
  startIndexMap := [0]
  indexVectorDim := 3
  sliceSizes := ![1, 5]
  wf := gather_S4x5_S4096x24x24x1_S4096x24x24x5_3_0_n_n_0_3_15_wf

class Facts : Prop extends Facts₀ where

variable [Facts]
-- ==== Proof.KI.Setup.lean ====
/-
  The kernel program as the SparseCore launch theorem sees it: the label table and body table the program is
  printed over, the launch configuration, the ghost state (the handshakes' rounds, the pipeline's staging cells' rounds,
  the local transfers' counters) and their embeddings, and the names of the arrays the two kernels move.
-/
import proofs.«206564_g5145370820828_cont_8to1c4_476_13_alg».proof.Defs
import Idealize.ShloMosaic.Lib.SparseCore.Launch
import Idealize.ShloMosaic.Lib.StableHlo.Run
import Idealize.ShloMosaic.Lib.Pipeline.Kit
import Idealize.ShloMosaic.Lib.Tactic
import proofs.«206564_g5145370820828_cont_8to1c4_476_13_alg».proof.Proof.Gen.KernelIdeal
import proofs.«206564_g5145370820828_cont_8to1c4_476_13_alg».proof.Proof.Gen.KernelIdeal.Skeleton

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's staging cells' rounds, the transfers' counters -/

abbrev UH : Type := URounds (GSem nD τ sig) ℕ
abbrev UU : Type := UH × (UR sig nD τ × Counters)

/-- The handshakes' rounds library, the left factor. -/
abbrev EH : Emb UH (MT nD τ sig (HIx 1) (Elt F) ℕ UU ℕ) := embL
/-- The pipeline's staging cells' rounds library: the left of the right factor. -/
def ER : Emb (UR sig nD τ) (MT nD τ sig (HIx 1) (Elt F) ℕ UU ℕ) :=
  (Emb.inl : Emb (UR sig nD τ) (UR sig nD τ × Counters)).trans embR

instance ER_landsIn : (ER : Emb (UR sig nD τ) (MT nD τ sig (HIx 1) (Elt F) ℕ UU ℕ)).LandsIn (upEmb : UEmb _ (MT nD τ sig (HIx 1) (Elt F) ℕ UU ℕ)) := by
  unfold ER embR; infer_instance

end Cert.KernelIdeal.Hand

end
-- ==== Proof.KI.Bands.lean ====
/-
  The destination bands of the SparseCore kernel.  The kernel moves 360 bands, five grids of 72: band q = gi · 72 + b is
  the eight map columns r · 8 … r · 8 + 7 of map row h, for every batch entry, where h = b / 3 and r = b % 3; it lands in
  channel 21 + gi of the kernel-layout array, at row h, columns r · 8 … + 7.  Vector subcore number w of the 32 (subcore
  index · 2 + core index) moves the bands w · 360 / 32 ≤ q < (w + 1) · 360 / 32.  Here: each band's index set, that
  different bands are disjoint, that a subcore's set is the union of its bands', and that the 32 subcores' sets tile the
  channels 21 … 25.
-/
import proofs.«206564_g5145370820828_cont_8to1c4_476_13_alg».proof.Proof.KI.Setup

noncomputable section

namespace Cert.KernelIdeal.Hand

open Cert.KernelIdeal Cert.KernelIdeal.Gen
open Idealize.ShloMosaic

/-- The first band of subcore number `w`. -/
def lo (w : ℕ) : ℕ := w * 360 / 32

theorem lo_mono {w w' : ℕ} (h : w < w') : lo (w + 1) ≤ lo w' := by unfold lo; omega
theorem lo_zero : lo 0 = 0 := rfl
theorem lo_32 : lo 32 = 360 := rfl

/-- Where band `q` starts in the kernel-layout array (row, channel, column, batch). -/
def bandOff (q : ℕ) : Fin 4 → ℕ := ![(q % 72) / 3, 21 + q / 72, (q % 72 % 3) * 8, 0]

theorem bandOff_inb (q : Fin 360) : ∀ a, bandOff q.val a + S1x1x8x4096.size a ≤ S24x26x24x4096.size a := by
  intro a
  have hq := q.isLt
  match a with
  | ⟨0, _⟩ => show (q.val % 72) / 3 + 1 ≤ 24; omega
  | ⟨1, _⟩ => show 21 + q.val / 72 + 1 ≤ 26; omega
  | ⟨2, _⟩ => show (q.val % 72 % 3) * 8 + 8 ≤ 24; omega
  | ⟨3, _⟩ => show 0 + 4096 ≤ 4096; omega

/-- Band `q` as a rectangle of the kernel-layout array. -/
abbrev bandRect (q : Fin 360) : Rect S24x26x24x4096 := Rect.unit (s := S24x26x24x4096) (bandOff q.val) S1x1x8x4096.size (bandOff_inb q)

/-- The indices of band `q`. -/
def bandSet (q : Fin 360) : Finset S24x26x24x4096.Idx := (bandRect q).set

theorem mem_bandSet {q : Fin 360} {j : S24x26x24x4096.Idx} :
    j ∈ bandSet q ↔ ((j 0).val = (q.val % 72) / 3 ∧ (j 1).val = 21 + q.val / 72
      ∧ (q.val % 72 % 3) * 8 ≤ (j 2).val ∧ (j 2).val < (q.val % 72 % 3) * 8 + 8) := by
  unfold bandSet
  rw [Rect.mem_set_unit]
  constructor
  · intro h
    have h0 : (q.val % 72) / 3 ≤ (j 0).val ∧ (j 0).val < (q.val % 72) / 3 + 1 := h 0
    have h1 : 21 + q.val / 72 ≤ (j 1).val ∧ (j 1).val < 21 + q.val / 72 + 1 := h 1
    have h2 : (q.val % 72 % 3) * 8 ≤ (j 2).val ∧ (j 2).val < (q.val % 72 % 3) * 8 + 8 := h 2
    omega
  · rintro ⟨h0, h1, h2, h3⟩ a
    match a with
    | ⟨0, _⟩ => show (q.val % 72) / 3 ≤ (j 0).val ∧ (j 0).val < (q.val % 72) / 3 + 1; omega
    | ⟨1, _⟩ => show 21 + q.val / 72 ≤ (j 1).val ∧ (j 1).val < 21 + q.val / 72 + 1; omega
    | ⟨2, _⟩ => show (q.val % 72 % 3) * 8 ≤ (j 2).val ∧ (j 2).val < (q.val % 72 % 3) * 8 + 8; omega
    | ⟨3, _⟩ => show 0 ≤ (j 3).val ∧ (j 3).val < 0 + 4096; exact ⟨Nat.zero_le _, by have : (j 3).val < 4096 := (j 3).isLt; omega⟩

/-- The band an index of the channels 21 … 25 lies in. -/
def bandOf (j : S24x26x24x4096.Idx) : ℕ := ((j 1).val - 21) * 72 + (j 0).val * 3 + (j 2).val / 8

theorem mem_bandSet_iff {q : Fin 360} {j : S24x26x24x4096.Idx} : j ∈ bandSet q ↔ (21 ≤ (j 1).val ∧ bandOf j = q.val) := by
  rw [mem_bandSet]; unfold bandOf
  have h0 : (j 0).val < 24 := (j 0).isLt
  have h1 : (j 1).val < 26 := (j 1).isLt
  have h2 : (j 2).val < 24 := (j 2).isLt
  have hq := q.isLt
  constructor
  · rintro ⟨e0, e1, e2, e3⟩; omega
  · rintro ⟨e1, e⟩; omega

theorem bandSet_disjoint {q q' : Fin 360} (h : q ≠ q') : Disjoint (bandSet q) (bandSet q') := by
  rw [Finset.disjoint_left]
  intro j hj hj'
  rw [mem_bandSet_iff] at hj hj'
  exact h (Fin.ext (hj.2.symm.trans hj'.2))

/-- The bands of subcore number `w`. -/
def tileBands (w : Fin 32) : Finset (Fin 360) := Finset.univ.filter fun q => lo w.val ≤ q.val ∧ q.val < lo (w.val + 1)

/-- The indices subcore number `w` writes. -/
def tileSet (w : Fin 32) : Finset S24x26x24x4096.Idx := (tileBands w).biUnion bandSet

theorem mem_tileSet {w : Fin 32} {j : S24x26x24x4096.Idx} :
    j ∈ tileSet w ↔ (21 ≤ (j 1).val ∧ lo w.val ≤ bandOf j ∧ bandOf j < lo (w.val + 1)) := by
  unfold tileSet tileBands
  simp only [Finset.mem_biUnion, Finset.mem_filter, Finset.mem_univ, true_and, mem_bandSet_iff]
  constructor
  · rintro ⟨q, ⟨h1, h2⟩, h21, e⟩; exact ⟨h21, e ▸ h1, e ▸ h2⟩
  · rintro ⟨h21, h1, h2⟩
    have hlt : bandOf j < 360 := by
      have : lo (w.val + 1) ≤ 360 := by have := w.isLt; unfold lo; omega
      omega
    exact ⟨⟨bandOf j, hlt⟩, ⟨h1, h2⟩, h21, rfl⟩

theorem tileSet_disjoint {w w' : Fin 32} (h : w ≠ w') : Disjoint (tileSet w) (tileSet w') := by
  rw [Finset.disjoint_left]
  intro j hj hj'
  rw [mem_tileSet] at hj hj'
  have hne : w.val ≠ w'.val := fun e => h (Fin.ext e)
  rcases Nat.lt_or_gt_of_ne hne with hlt | hlt
  · have := lo_mono hlt; omega
  · have := lo_mono hlt; omega

/-- The channels the SparseCore kernel writes: 21 … 25. -/
def scSet : Finset S24x26x24x4096.Idx := Finset.univ.filter fun j => 21 ≤ (j 1).val

theorem exists_tile (q : ℕ) (hq : q < 360) : ∃ w : Fin 32, lo w.val ≤ q ∧ q < lo (w.val + 1) := by
  refine ⟨⟨(q * 32 + 31) / 360, by omega⟩, ?_, ?_⟩ <;> (unfold lo; dsimp only; omega)

theorem tiles_cover : (Finset.univ : Finset (Fin 32)).biUnion tileSet = scSet := by
  ext j
  simp only [Finset.mem_biUnion, Finset.mem_univ, true_and, mem_tileSet, scSet, Finset.mem_filter]
  constructor
  · rintro ⟨w, h, _⟩; exact h
  · intro h21
    have h0 : (j 0).val < 24 := (j 0).isLt
    have h1 : (j 1).val < 26 := (j 1).isLt
    have h2 : (j 2).val < 24 := (j 2).isLt
    have hlt : bandOf j < 360 := by unfold bandOf; omega
    obtain ⟨w, hw⟩ := exists_tile (bandOf j) hlt
    exact ⟨w, h21, hw⟩

/-- Subcore `i` of SparseCore `c` is subcore number `i · 2 + c`. -/
def wid (c : Fin 2) (i : Fin 16) : Fin 32 := ⟨i.val * 2 + c.val, by omega⟩

theorem wid_injective : Function.Injective fun p : Fin 2 × Fin 16 => wid p.1 p.2 := by
  rintro ⟨c, i⟩ ⟨c', i'⟩ e
  have := congrArg Fin.val e
  simp only [wid] at this
  have hc : c.val = c'.val := by omega
  have hi : i.val = i'.val := by omega
  exact Prod.ext (Fin.ext hc) (Fin.ext hi)

end Cert.KernelIdeal.Hand

end
-- ==== Proof.Spec.lean ====
/-
  What the kernel computes, as functions of arrays, index by index, over literal shapes.  The map is 24 × 24 cells, the
  batch 4096; a result row has 26 channels: five embedding channels looked up in a 4 × 5 table by the cell's tile type,
  one channel of the batch entry's step count, ten of its parameters, ten of per-cell grids.  The kernels work in the
  layout (row, channel, column, batch) over grids laid out (row · 24 + column, batch); the result is that array with the
  batch axis moved to the front and the channel axis to the back.
-/
import Idealize.ShloMosaic.PureOps
import Idealize.ShloMosaic.Lib.ValueIdx

noncomputable section

namespace Cert.Spec

open Idealize.ShloMosaic Idealize.ShloMosaic.ValueIdx

abbrev SA : Shape := ⟨3, ![4096, 24, 24]⟩
abbrev SB : Shape := ⟨1, ![4096]⟩
abbrev SP : Shape := ⟨2, ![4096, 10]⟩
abbrev ST : Shape := ⟨2, ![4, 5]⟩
abbrev SG : Shape := ⟨2, ![576, 4096]⟩
abbrev S1B : Shape := ⟨2, ![1, 4096]⟩
abbrev SPB : Shape := ⟨2, ![10, 4096]⟩
abbrev SK : Shape := ⟨4, ![24, 26, 24, 4096]⟩
abbrev SO : Shape := ⟨4, ![4096, 24, 24, 26]⟩

variable {F : FTy → Type}

/-- The row of a (576, 4096) grid that holds map cell (h, w). -/
def hw (h w : Fin 24) : Fin 576 := ⟨h.val * 24 + w.val, by omega⟩

/-- The table entry of embedding channel `c` chosen for tile type `t`: entry 0, 1, 2 for those types, entry 3 otherwise
    (two comparisons deep, as the kernel selects it). -/
def pick (tbl : FVec F ST .f32) (c : Fin 5) (t : BitVec 32) : F .f32 :=
  if t.slt 2#32 then (if t = 0#32 then tbl (ix2 0 c) else tbl (ix2 1 c)) else (if t = 2#32 then tbl (ix2 2 c) else tbl (ix2 3 c))

/-- For a tile type in range the chosen entry is the table's row at that type. -/
theorem pick_of_lt (tbl : FVec F ST .f32) (c : Fin 5) (t : BitVec 32) (h : t.toNat < 4) :
    pick tbl c t = tbl (ix2 ⟨t.toNat, h⟩ c) := by
  have ht : t = 0#32 ∨ t = 1#32 ∨ t = 2#32 ∨ t = 3#32 := by
    rcases (by omega : t.toNat = 0 ∨ t.toNat = 1 ∨ t.toNat = 2 ∨ t.toNat = 3) with e | e | e | e
    · exact .inl (BitVec.eq_of_toNat_eq (by rw [e]; rfl))
    · exact .inr (.inl (BitVec.eq_of_toNat_eq (by rw [e]; rfl)))
    · exact .inr (.inr (.inl (BitVec.eq_of_toNat_eq (by rw [e]; rfl))))
    · exact .inr (.inr (.inr (BitVec.eq_of_toNat_eq (by rw [e]; rfl))))
  rcases ht with e | e | e | e <;> subst e <;> rfl

/-- The kernel-layout array (row, channel, column, batch) after both kernels have run, from the kernel-layout operands:
    the tile types `tt`, the step counts `st`, the parameters `par`, the ten grids `g`, the table `tbl`. -/
def outK (tt : IVec SG 32) (st : FVec F S1B .f32) (par : FVec F SPB .f32) (g : Fin 10 → FVec F SG .f32) (tbl : FVec F ST .f32) :
    FVec F SK .f32 := fun j =>
  let h : Fin 24 := j 0
  let w : Fin 24 := j 2
  let b : Fin 4096 := j 3
  if h5 : (j 1).val < 5 then pick tbl ⟨(j 1).val, h5⟩ (tt (ix2 (hw h w) b))
  else if (j 1).val = 5 then st (ix2 0 b)
  else if h16 : (j 1).val < 16 then par (ix2 ⟨(j 1).val - 6, by omega⟩ b)
  else g ⟨(j 1).val - 16, by have : (j 1).val < 26 := (j 1).isLt; omega⟩ (ix2 (hw h w) b)

/-- The result: the kernel-layout array with the batch axis first and the channel axis last. -/
def outF (tt : IVec SG 32) (st : FVec F S1B .f32) (par : FVec F SPB .f32) (g : Fin 10 → FVec F SG .f32) (tbl : FVec F ST .f32) :
    FVec F SO .f32 := fun i => outK tt st par g tbl (ix4 (i 1) (i 3) (i 2) (i 0))

/-- The result as a function of the program's own arguments: tile types `a0`, step counts `a1`, parameters `a2`, the
    ten grids `ag`, the table `a13`. -/
def G (a0 : IVec SA 32) (a1 : FVec F SB .f32) (a2 : FVec F SP .f32) (ag : Fin 10 → FVec F SA .f32) (a13 : FVec F ST .f32) :
    FVec F SO .f32 := fun i =>
  let b : Fin 4096 := i 0
  let h : Fin 24 := i 1
  let w : Fin 24 := i 2
  if h5 : (i 3).val < 5 then pick a13 ⟨(i 3).val, h5⟩ (a0 (ix3 b h w))
  else if (i 3).val = 5 then a1 (ix1 b)
  else if h16 : (i 3).val < 16 then a2 (ix2 b ⟨(i 3).val - 6, by omega⟩)
  else ag ⟨(i 3).val - 16, by have : (i 3).val < 26 := (i 3).isLt; omega⟩ (ix3 b h w)

end Cert.Spec

end
-- ==== Proof.KI.Pay.lean ====
/-
  What the SparseCore call's handshakes carry.  The TensorCore hands each SparseCore a read share of the five source
  grids and the part of the kernel-layout array its sixteen subcores write; the sequencer hands each subcore a read share
  of the sources and the subcore's own bands; the subcore hands its bands back holding the source grids' rows, and so
  back to the TensorCore.
-/
import proofs.«206564_g5145370820828_cont_8to1c4_476_13_alg».proof.Proof.KI.Bands
import proofs.«206564_g5145370820828_cont_8to1c4_476_13_alg».proof.Proof.Spec

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-- The kernel-layout array the SparseCore kernel writes, as the TensorCore names it. -/
abbrev oLoc (d : Dev nD) : Loc nD τ sig := (SparseCore.T d).loc main_v24

/-- The five source grids (each 576 × 4096), at contents `g`, each whole at the share `q`. -/
abbrev srcs (d : Dev nD) (q : PosShare TreeShare) (g : Fin 5 → FVec F S576x4096 .f32) : sProp 𝕄 :=
  iprop((((SparseCore.T d).loc main_v15 ↦{q} (g 0 : Buf (Elt F) ((SparseCore.T d).loc main_v15))))
    ∗ (((SparseCore.T d).loc main_v17 ↦{q} (g 1 : Buf (Elt F) ((SparseCore.T d).loc main_v17))))
    ∗ (((SparseCore.T d).loc main_v19 ↦{q} (g 2 : Buf (Elt F) ((SparseCore.T d).loc main_v19))))
    ∗ (((SparseCore.T d).loc main_v21 ↦{q} (g 3 : Buf (Elt F) ((SparseCore.T d).loc main_v21))))
    ∗ (((SparseCore.T d).loc main_v23 ↦{q} (g 4 : Buf (Elt F) ((SparseCore.T d).loc main_v23)))))

/-- What the SparseCore kernel leaves at an index of channels 21 … 25: the entry of source grid (channel − 21) at
    (row · 24 + column, batch). -/
def scVal (g : Fin 5 → FVec F S576x4096 .f32) (j : S24x26x24x4096.Idx) : F .f32 :=
  g ⟨((j 1).val - 21) % 5, Nat.mod_lt _ (by decide)⟩ (ix2 (Cert.Spec.hw (j 0) (j 2)) (j 3))

/-- SparseCore `c`'s share of a source, and subcore `i`'s share of that. -/
abbrev coreShare (c : Fin 2) : PosShare TreeShare := Transfers.shareTok fullShare 2 c
abbrev tileShare (c : Fin 2) (i : Fin 16) : PosShare TreeShare := Transfers.shareTok (coreShare c) 16 i

/-- The indices SparseCore `c`'s subcores write. -/
def coreSet (c : Fin 2) : Finset S24x26x24x4096.Idx := (Finset.univ : Finset (Fin 16)).biUnion fun i => tileSet (wid c i)

/-- A part `I` of the kernel-layout array at some contents that hold the source grids' rows. -/
def outDone (d : Dev nD) (g : Fin 5 → FVec F S576x4096 .f32) (I : Finset S24x26x24x4096.Idx) : sProp 𝕄 :=
  iprop(∃ f : Buf (Elt F) (oLoc d), ⌜∀ j ∈ I, f j = scVal g j⌝ ∗ (oLoc d ↦[I]{fullShare} f))

variable (g : Dev nD → Fin 5 → FVec F S576x4096 .f32) (f0 : (d : Dev nD) → Buf (Elt F) (oLoc d))

/-- The one call: sources' read shares and the destination parts out, the destination parts back at the sources' rows. -/
def P : (K (F := F)).Pay (nD := nD) (Val := Elt F) (Name := ℕ) (U := UU) where
  st := fun q d c => match q with
    | 0 => iprop(srcs d (coreShare (Fin.cast nCore_zero c)) (g d) ∗ oLoc d ↦[coreSet (Fin.cast nCore_zero c)]{fullShare} f0 d)
  dn := fun q d c => match q with
    | 0 => iprop(srcs d (coreShare (Fin.cast nCore_zero c)) (g d) ∗ outDone d (g d) (coreSet (Fin.cast nCore_zero c)))
  go := fun q d c i => match q with
    | 0 => iprop(srcs d (tileShare (Fin.cast nCore_zero c) (Fin.cast nSub_zero i)) (g d)
        ∗ oLoc d ↦[tileSet (wid (Fin.cast nCore_zero c) (Fin.cast nSub_zero i))]{fullShare} f0 d)
  td := fun q d c i => match q with
    | 0 => iprop(srcs d (tileShare (Fin.cast nCore_zero c) (Fin.cast nSub_zero i)) (g d)
        ∗ outDone d (g d) (tileSet (wid (Fin.cast nCore_zero c) (Fin.cast nSub_zero i))))
  x := fun _ _ => iprop(emp)

instance P_storable : (P (F := F) g f0).IsStorable where
  st q d c := match q with | 0 => by unfold P outDone; infer_instance
  dn q d c := match q with | 0 => by unfold P outDone; infer_instance
  go q d c i := match q with | 0 => by unfold P outDone; infer_instance
  td q d c i := match q with | 0 => by unfold P outDone; infer_instance

end Cert.KernelIdeal.Hand

end
-- ==== Proof.KI.Split.lean ====
/-
  Splitting what the SparseCore call carries: the five source grids' shares among the two SparseCores and among a
  SparseCore's sixteen subcores, the written channels of the kernel-layout array among the subcores' band sets, and the
  way back — shares rejoined, the band sets' contents joined into one array that holds the source grids' rows.
-/
import proofs.«206564_g5145370820828_cont_8to1c4_476_13_alg».proof.Proof.KI.Pay

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable (d : Dev nD) (g : Fin 5 → FVec F S576x4096 .f32)

/-- The five sources at a share: the share less `n` read tokens, and the `n` tokens. -/
theorem srcs_split (q : PosShare TreeShare) (n : ℕ) :
    (srcs d q g : sProp 𝕄) ⊢ iprop(srcs d (Transfers.shareDrop q n) g ∗ bigSep Finset.univ fun i : Fin n => srcs d (Transfers.shareTok q n i) g) := by
  unfold srcs
  rw [bigSep_sep', bigSep_sep', bigSep_sep', bigSep_sep']
  iintro ⟨H0, H1, H2, H3, H4⟩
  ihave H0 := (Transfers.pointsTo_toks_split q n) $$ H0
  ihave H1 := (Transfers.pointsTo_toks_split q n) $$ H1
  ihave H2 := (Transfers.pointsTo_toks_split q n) $$ H2
  ihave H3 := (Transfers.pointsTo_toks_split q n) $$ H3
  ihave H4 := (Transfers.pointsTo_toks_split q n) $$ H4
  icases H0 with ⟨A0, B0⟩
  icases H1 with ⟨A1, B1⟩
  icases H2 with ⟨A2, B2⟩
  icases H3 with ⟨A3, B3⟩
  icases H4 with ⟨A4, B4⟩
  isplitl [A0 A1 A2 A3 A4]
  · isplitl [A0]; · iexact A0
    isplitl [A1]; · iexact A1
    isplitl [A2]; · iexact A2
    isplitl [A3]; · iexact A3
    iexact A4
  isplitl [B0]; · iexact B0
  isplitl [B1]; · iexact B1
  isplitl [B2]; · iexact B2
  isplitl [B3]; · iexact B3
  iexact B4

/-- and back. -/
theorem srcs_join (q : PosShare TreeShare) (n : ℕ) :
    iprop(srcs d (Transfers.shareDrop q n) g ∗ bigSep Finset.univ fun i : Fin n => srcs d (Transfers.shareTok q n i) g) ⊢ (srcs d q g : sProp 𝕄) := by
  unfold srcs
  rw [bigSep_sep', bigSep_sep', bigSep_sep', bigSep_sep']
  iintro ⟨⟨A0, A1, A2, A3, A4⟩, B0, B1, B2, B3, B4⟩
  isplitl [A0 B0]
  · iapply (Transfers.pointsTo_toks_join q n); isplitl [A0]; · iexact A0
    iexact B0
  isplitl [A1 B1]
  · iapply (Transfers.pointsTo_toks_join q n); isplitl [A1]; · iexact A1
    iexact B1
  isplitl [A2 B2]
  · iapply (Transfers.pointsTo_toks_join q n); isplitl [A2]; · iexact A2
    iexact B2
  isplitl [A3 B3]
  · iapply (Transfers.pointsTo_toks_join q n); isplitl [A3]; · iexact A3
    iexact B3
  iapply (Transfers.pointsTo_toks_join q n); isplitl [A4]; · iexact A4
  iexact B4

omit g in
/-- A SparseCore's part of the array is its sixteen subcores' parts. -/
theorem out_core_split (c : Fin 2) (f : Buf (Elt F) (oLoc d)) :
    (oLoc d ↦[coreSet c]{fullShare} f : sProp 𝕄) = bigSep Finset.univ fun i : Fin 16 => oLoc d ↦[tileSet (wid c i)]{fullShare} f := by
  unfold coreSet
  exact pointsTo_biUnion Finset.univ (ℓ := oLoc d) (fun i => tileSet (wid c i))
    (fun i _ i' _ h => tileSet_disjoint fun e => h (Prod.ext_iff.mp (wid_injective (a₁ := (c, i)) (a₂ := (c, i')) e)).2)

/-- Parts of the array that each hold the sources' rows, pairwise disjoint, are one part that does. -/
theorem outDone_join {T' : Type} [DecidableEq T'] (S' : Finset T') (Kf : T' → Finset S24x26x24x4096.Idx)
    (hd : ∀ t ∈ S', ∀ t' ∈ S', t ≠ t' → Disjoint (Kf t) (Kf t')) :
    (bigSep S' fun t => outDone d g (Kf t) : sProp 𝕄) ⊢ outDone d g (S'.biUnion Kf) := by
  unfold outDone
  haveI : Nonempty (Buf (Elt F) (oLoc d)) := ⟨fun j => scVal g j⟩
  refine (bigSep_exists_pi S' (fun t (f : Buf (Elt F) (oLoc d)) => iprop(⌜∀ j ∈ Kf t, f j = scVal g j⌝ ∗ (oLoc d ↦[Kf t]{fullShare} f)))).trans ?_
  iintro ⟨%fs, H⟩
  ihave H := (bigSep_pure_sep S' (fun t => ∀ j ∈ Kf t, fs t j = scVal g j) (fun t => (oLoc d ↦[Kf t]{fullShare} fs t : sProp 𝕄))) $$ H
  icases H with ⟨%hp, H⟩
  have f₀ : Buf (Elt F) (oLoc d) := fun j => scVal g j
  ihave H := (pointsTo_biUnion_join S' Kf fs f₀ hd) $$ H
  icases H with ⟨%gg, %hg, H⟩
  iexists gg
  isplitr
  · ipureintro
    intro j hj
    obtain ⟨t, ht, hjt⟩ := Finset.mem_biUnion.mp hj
    rw [hg t ht j hjt]; exact hp t ht j hjt
  · iexact H

end Cert.KernelIdeal.Hand

end
-- ==== Proof.KI.Call.lean ====
/-
  The SparseCore call seen from both ends: how a SparseCore's holding splits among its sixteen subcores and comes back
  (the launch theorem's splitting obligation), and how the TensorCore's holding of the five sources and of the
  kernel-layout array splits between the two SparseCores and comes back with channels 21 … 25 written.
-/
import proofs.«206564_g5145370820828_cont_8to1c4_476_13_alg».proof.Proof.KI.Split

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable (g : Dev nD → Fin 5 → FVec F S576x4096 .f32) (f0 : (d : Dev nD) → Buf (Elt F) (oLoc d))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem tiles_of_core_disjoint (c : Fin 2) :
    ∀ i ∈ (Finset.univ : Finset (Fin 16)), ∀ i' ∈ (Finset.univ : Finset (Fin 16)), i ≠ i' → Disjoint (tileSet (wid c i)) (tileSet (wid c i')) :=
  fun i _ i' _ h => tileSet_disjoint fun e => h (Prod.ext_iff.mp (wid_injective (a₁ := (c, i)) (a₂ := (c, i')) e)).2

/-- The launch theorem's splitting obligation: a SparseCore's holding is its subcores' holdings and a remainder of the
    source shares; the subcores' results rejoin it. -/
theorem vecSplit : (K (F := F)).VecSplit' (P g f0) 0 := by
  intro d c
  show iprop(srcs d (coreShare (Fin.cast nCore_zero c)) (g d) ∗ oLoc d ↦[coreSet (Fin.cast nCore_zero c)]{fullShare} f0 d) ⊢ |={Set.univ}=> iprop(
      (bigSep Finset.univ fun i : Fin ((K (F := F)).nSub 0) =>
        iprop(srcs d (tileShare (Fin.cast nCore_zero c) (Fin.cast nSub_zero i)) (g d)
          ∗ oLoc d ↦[tileSet (wid (Fin.cast nCore_zero c) (Fin.cast nSub_zero i))]{fullShare} f0 d))
      ∗ ((bigSep Finset.univ fun i : Fin ((K (F := F)).nSub 0) =>
          iprop(srcs d (tileShare (Fin.cast nCore_zero c) (Fin.cast nSub_zero i)) (g d)
            ∗ outDone d (g d) (tileSet (wid (Fin.cast nCore_zero c) (Fin.cast nSub_zero i)))))
          -∗ iprop(srcs d (coreShare (Fin.cast nCore_zero c)) (g d) ∗ outDone d (g d) (coreSet (Fin.cast nCore_zero c)))))
  generalize Fin.cast nCore_zero c = cc
  rw [bigSep_tasks (F := F) (fun i => iprop(srcs d (tileShare cc i) (g d) ∗ oLoc d ↦[tileSet (wid cc i)]{fullShare} f0 d)),
    bigSep_tasks (F := F) (fun i => iprop(srcs d (tileShare cc i) (g d) ∗ outDone d (g d) (tileSet (wid cc i)))),
    bigSep_sep' _ (fun i => srcs d (tileShare cc i) (g d)) (fun i => (oLoc d ↦[tileSet (wid cc i)]{fullShare} f0 d : sProp 𝕄)),
    bigSep_sep' _ (fun i => srcs d (tileShare cc i) (g d)) (fun i => outDone d (g d) (tileSet (wid cc i))), out_core_split]
  iintro ⟨Hs, Ho⟩
  ihave Hs := (srcs_split d (g d) (coreShare cc) 16) $$ Hs
  icases Hs with ⟨Hrem, Htoks⟩
  imodintro
  isplitl [Htoks Ho]
  · isplitl [Htoks]; · iexact Htoks
    iexact Ho
  iintro ⟨Hs', Hd⟩
  isplitl [Hrem Hs']
  · iapply (srcs_join d (g d) (coreShare cc) 16)
    isplitl [Hrem]; · iexact Hrem
    iexact Hs'
  · unfold coreSet
    iapply (outDone_join d (g d) Finset.univ (fun i => tileSet (wid cc i)) (tiles_of_core_disjoint cc))
    iexact Hd

/-! ## The TensorCore's side -/

theorem coreSet_disjoint : ∀ c ∈ (Finset.univ : Finset (Fin 2)), ∀ c' ∈ (Finset.univ : Finset (Fin 2)), c ≠ c' → Disjoint (coreSet c) (coreSet c') := by
  intro c _ c' _ h
  unfold coreSet
  rw [Finset.disjoint_biUnion_left]
  intro i _
  rw [Finset.disjoint_biUnion_right]
  intro i' _
  exact tileSet_disjoint fun e => h (Prod.ext_iff.mp (wid_injective (a₁ := (c, i)) (a₂ := (c', i')) e)).1

theorem cores_cover : (Finset.univ : Finset (Fin 2)).biUnion coreSet = scSet := by
  rw [← tiles_cover]
  ext j
  simp only [coreSet, Finset.mem_biUnion, Finset.mem_univ, true_and]
  constructor
  · rintro ⟨c, i, h⟩; exact ⟨_, h⟩
  · rintro ⟨w, h⟩
    refine ⟨⟨w.val % 2, Nat.mod_lt _ (by decide)⟩, ⟨w.val / 2, by have := w.isLt; omega⟩, ?_⟩
    have e : wid ⟨w.val % 2, Nat.mod_lt _ (by decide)⟩ ⟨w.val / 2, by have := w.isLt; omega⟩ = w := Fin.ext (by simp only [wid]; omega)
    rw [e]; exact h

/-- What the call takes for the two SparseCores. -/
theorem st0_eq (d : Dev nD) : (bigSep Finset.univ fun c : Fin ((K (F := F)).nCore 0) => (P g f0).st 0 d c)
    = iprop((srcs d (coreShare 0) (g d) ∗ oLoc d ↦[coreSet 0]{fullShare} f0 d) ∗ (srcs d (coreShare 1) (g d) ∗ oLoc d ↦[coreSet 1]{fullShare} f0 d)) := by
  exact (bigSep_cores (F := F) (fun cc : Fin 2 => iprop(srcs d (coreShare cc) (g d) ∗ oLoc d ↦[coreSet cc]{fullShare} f0 d))).trans (bigSep_univ_two _)

/-- What it hands back. -/
theorem dn0_eq (d : Dev nD) : (bigSep Finset.univ fun c : Fin ((K (F := F)).nCore 0) => (P g f0).dn 0 d c)
    = iprop((srcs d (coreShare 0) (g d) ∗ outDone d (g d) (coreSet 0)) ∗ (srcs d (coreShare 1) (g d) ∗ outDone d (g d) (coreSet 1))) := by
  exact (bigSep_cores (F := F) (fun cc : Fin 2 => iprop(srcs d (coreShare cc) (g d) ∗ outDone d (g d) (coreSet cc)))).trans (bigSep_univ_two _)

/-- The kernel-layout array whole is the two SparseCores' parts and the channels the SparseCore kernel leaves alone. -/
theorem out_split (d : Dev nD) (f : Buf (Elt F) (oLoc d)) :
    (oLoc d ↦{fullShare} f : sProp 𝕄) ⊢ iprop((oLoc d ↦[coreSet 0]{fullShare} f) ∗ (oLoc d ↦[coreSet 1]{fullShare} f) ∗ (oLoc d ↦[Finset.univ \ scSet]{fullShare} f)) := by
  refine (pointsTo_split_subset (ℓ := oLoc d) (I := scSet) (S := Finset.univ) (Finset.subset_univ _)).1.trans ?_
  rw [← cores_cover, pointsTo_biUnion Finset.univ (ℓ := oLoc d) coreSet coreSet_disjoint, bigSep_univ_two]
  iintro ⟨⟨H0, H1⟩, H2⟩
  isplitl [H0]; · iexact H0
  isplitl [H1]; · iexact H1
  iexact H2

/-- and back: the array whole, its channels 21 … 25 holding the sources' rows. -/
theorem out_join (d : Dev nD) (f : Buf (Elt F) (oLoc d)) :
    iprop(outDone d (g d) (coreSet 0) ∗ outDone d (g d) (coreSet 1) ∗ (oLoc d ↦[Finset.univ \ scSet]{fullShare} f))
      ⊢ (iprop(∃ f' : Buf (Elt F) (oLoc d), ⌜∀ j ∈ scSet, f' j = scVal (g d) j⌝ ∗ (oLoc d ↦{fullShare} f')) : sProp 𝕄) := by
  iintro ⟨H0, H1, H2⟩
  ihave H := (outDone_join d (g d) Finset.univ coreSet coreSet_disjoint) $$ [H0 H1]
  · rw [bigSep_univ_two]; isplitl [H0]; · iexact H0
    iexact H1
  rw [cores_cover]
  unfold outDone
  icases H with ⟨%f1, %h1, H⟩
  ihave H := (pointsTo_join_subset (ℓ := oLoc d) (I := scSet) (S := Finset.univ) (g := f1) (f := f) (Finset.subset_univ _)) $$ [H H2]
  · isplitl [H]; · iexact H
    iexact H2
  iexists (scSet.piecewise f1 f)
  isplitr
  · ipureintro; intro j hj; rw [Finset.piecewise_eq_of_mem _ _ _ hj]; exact h1 j hj
  · iexact H

end Cert.KernelIdeal.Hand

end
-- ==== Proof.KI.Host.lean ====
/-
  The TensorCore's program around the two kernels: the twenty-four host operations that bring every input to the
  kernels' layout (a transpose that moves the batch axis last, then the two map axes merged), as a list, and the rest of
  the program after them.
-/
import proofs.«206564_g5145370820828_cont_8to1c4_476_13_alg».proof.Proof.KI.Setup

noncomputable section

namespace Cert.KernelIdeal.Hand

open Cert.KernelIdeal Cert.KernelIdeal.Gen
open Idealize.ShloMosaic Idealize.ShloMosaic.StableHlo
open Idealize.SL.Sem

variable {F : FTy → Type} [FloatOps F]

/-- The host operations before the SparseCore call, in order. -/
abbrev ops0 : List (HloOp τ sig (Elt F)) :=
  [ StableHlo.unary main_arg0 main_v0 ((transpose S24x24x4096 [1, 2, 0] · transposes_S4096x24x24_S24x24x4096_1_2_0) : (⟨S4096x24x24, .i32⟩ : BufTy).Contents (Elt F) → (⟨S24x24x4096, .i32⟩ : BufTy).Contents (Elt F)),
    StableHlo.reshape main_v0 main_v1 rfl shapeCasts_S24x24x4096_S576x4096,
    StableHlo.reshape main_arg1 main_v2 rfl shapeCasts_S4096_S1x4096,
    StableHlo.unary main_arg2 main_v3 ((transpose S10x4096 [1, 0] · transposes_S4096x10_S10x4096_1_0) : (⟨S4096x10, .f32⟩ : BufTy).Contents (Elt F) → (⟨S10x4096, .f32⟩ : BufTy).Contents (Elt F)),
    StableHlo.unary main_arg3 main_v4 ((transpose S24x24x4096 [1, 2, 0] · transposes_S4096x24x24_S24x24x4096_1_2_0) : (⟨S4096x24x24, .f32⟩ : BufTy).Contents (Elt F) → (⟨S24x24x4096, .f32⟩ : BufTy).Contents (Elt F)),
    StableHlo.reshape main_v4 main_v5 rfl shapeCasts_S24x24x4096_S576x4096,
    StableHlo.unary main_arg4 main_v6 ((transpose S24x24x4096 [1, 2, 0] · transposes_S4096x24x24_S24x24x4096_1_2_0) : (⟨S4096x24x24, .f32⟩ : BufTy).Contents (Elt F) → (⟨S24x24x4096, .f32⟩ : BufTy).Contents (Elt F)),
    StableHlo.reshape main_v6 main_v7 rfl shapeCasts_S24x24x4096_S576x4096,
    StableHlo.unary main_arg5 main_v8 ((transpose S24x24x4096 [1, 2, 0] · transposes_S4096x24x24_S24x24x4096_1_2_0) : (⟨S4096x24x24, .f32⟩ : BufTy).Contents (Elt F) → (⟨S24x24x4096, .f32⟩ : BufTy).Contents (Elt F)),
    StableHlo.reshape main_v8 main_v9 rfl shapeCasts_S24x24x4096_S576x4096,
    StableHlo.unary main_arg6 main_v10 ((transpose S24x24x4096 [1, 2, 0] · transposes_S4096x24x24_S24x24x4096_1_2_0) : (⟨S4096x24x24, .f32⟩ : BufTy).Contents (Elt F) → (⟨S24x24x4096, .f32⟩ : BufTy).Contents (Elt F)),
    StableHlo.reshape main_v10 main_v11 rfl shapeCasts_S24x24x4096_S576x4096,
    StableHlo.unary main_arg7 main_v12 ((transpose S24x24x4096 [1, 2, 0] · transposes_S4096x24x24_S24x24x4096_1_2_0) : (⟨S4096x24x24, .f32⟩ : BufTy).Contents (Elt F) → (⟨S24x24x4096, .f32⟩ : BufTy).Contents (Elt F)),
    StableHlo.reshape main_v12 main_v13 rfl shapeCasts_S24x24x4096_S576x4096,
    StableHlo.unary main_arg8 main_v14 ((transpose S24x24x4096 [1, 2, 0] · transposes_S4096x24x24_S24x24x4096_1_2_0) : (⟨S4096x24x24, .f32⟩ : BufTy).Contents (Elt F) → (⟨S24x24x4096, .f32⟩ : BufTy).Contents (Elt F)),
    StableHlo.reshape main_v14 main_v15 rfl shapeCasts_S24x24x4096_S576x4096,
    StableHlo.unary main_arg9 main_v16 ((transpose S24x24x4096 [1, 2, 0] · transposes_S4096x24x24_S24x24x4096_1_2_0) : (⟨S4096x24x24, .f32⟩ : BufTy).Contents (Elt F) → (⟨S24x24x4096, .f32⟩ : BufTy).Contents (Elt F)),
    StableHlo.reshape main_v16 main_v17 rfl shapeCasts_S24x24x4096_S576x4096,
    StableHlo.unary main_arg10 main_v18 ((transpose S24x24x4096 [1, 2, 0] · transposes_S4096x24x24_S24x24x4096_1_2_0) : (⟨S4096x24x24, .f32⟩ : BufTy).Contents (Elt F) → (⟨S24x24x4096, .f32⟩ : BufTy).Contents (Elt F)),
    StableHlo.reshape main_v18 main_v19 rfl shapeCasts_S24x24x4096_S576x4096,
    StableHlo.unary main_arg11 main_v20 ((transpose S24x24x4096 [1, 2, 0] · transposes_S4096x24x24_S24x24x4096_1_2_0) : (⟨S4096x24x24, .f32⟩ : BufTy).Contents (Elt F) → (⟨S24x24x4096, .f32⟩ : BufTy).Contents (Elt F)),
    StableHlo.reshape main_v20 main_v21 rfl shapeCasts_S24x24x4096_S576x4096,
    StableHlo.unary main_arg12 main_v22 ((transpose S24x24x4096 [1, 2, 0] · transposes_S4096x24x24_S24x24x4096_1_2_0) : (⟨S4096x24x24, .f32⟩ : BufTy).Contents (Elt F) → (⟨S24x24x4096, .f32⟩ : BufTy).Contents (Elt F)),
    StableHlo.reshape main_v22 main_v23 rfl shapeCasts_S24x24x4096_S576x4096 ]

/-- The copy of the SparseCore kernel's result into the TensorCore kernel's result buffer. -/
abbrev opCopy : HloOp τ sig (Elt F) := StableHlo.unary main_v24 main_v25 id

/-- The last operation: the batch axis to the front, the channel axis to the back. -/
abbrev opLast : HloOp τ sig (Elt F) := StableHlo.unary main_v25 main_v26 ((transpose S4096x24x24x26 [3, 0, 2, 1] · transposes_S24x26x24x4096_S4096x24x24x26_3_0_2_1) : (⟨S24x26x24x4096, .f32⟩ : BufTy).Contents (Elt F) → (⟨S4096x24x24x26, .f32⟩ : BufTy).Contents (Elt F))

/-- The program after the first twenty-four operations. -/
def mainTail (d : Dev nD) : Prog (TpuEff nD τ sig (Elt F) (SparseCore.Sig (ΛP (F := F)) 1) .tc) PUnit := do
  sc.run d 0
  hlo rfl opCopy (fun _ => .ret ⟨⟩)
  Prog.lift (.customCall (SparseCore.inner (Pipeline.entry 0)) ())
  hlo rfl opLast (fun _ => .ret ⟨⟩)
  pure ⟨⟩

theorem main_eq (d : Dev nD) : main (F := F) d = (seq ops0 >>= fun _ => mainTail d) := rfl

end Cert.KernelIdeal.Hand

end
-- ==== Proof.KI.Held.lean ====
/-
  The TensorCore's arrays as the host operations' rule holds them: all of them, whole, at a valuation; and the thirty the
  two kernels, the copy between them, the last transpose and the claim speak of, taken out one by one.
-/
import proofs.«206564_g5145370820828_cont_8to1c4_476_13_alg».proof.Proof.KI.Split
import proofs.«206564_g5145370820828_cont_8to1c4_476_13_alg».proof.Proof.KI.Host

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within held_sub_split held_congr wp_seq after)

variable {F : FTy → Type}

local notation "𝕄" => MT nD τ sig (HIx 1) (Elt F) ℕ UU ℕ

/-- A TensorCore reference as a device buffer. -/
abbrev dr (b : Ref sig .tc) : DevRef τ sig := Proc.devRef .tc b

/-- The TensorCore's unscoped references — its arrays in HBM — as device buffers. -/
def hbmRefs : Finset (DevRef τ sig) :=
  (Finset.univ.filter fun b : Ref sig .tc => ¬ b.isScoped).map ⟨Proc.devRef (sig := sig) (.tc : Proc τ), Proc.devRef_injective _⟩

theorem mem_hbm (b : Ref sig .tc) (h : b.isScoped = false := by decide) : dr b ∈ hbmRefs :=
  Finset.mem_map_of_mem _ (Finset.mem_filter.mpr ⟨Finset.mem_univ b, by simp [h]⟩)

/-- The launch's holding of the TensorCore's arrays is the host rule's, over those references. -/
theorem unscoped_held (d : Dev nD) (W : Valuation τ sig (Elt F)) :
    (unscopedBufs d (fun b => W (dr b)) : sProp 𝕄) = held (SparseCore.T d) hbmRefs W := by
  unfold unscopedBufs held hbmRefs
  rw [bigSep_map]; rfl

/-- An operation over two unscoped references touches only such. -/
theorem sub_of {op : HloOp τ sig (Elt F)} {x y : Ref sig .tc} (e : op.bufs = {dr x, dr y})
    (h1 : x.isScoped = false) (h2 : y.isScoped = false) : op.bufs ⊆ hbmRefs := by
  rw [e]; intro b hb
  rcases Finset.mem_insert.mp hb with rfl | hb
  · exact mem_hbm x h1
  · rw [Finset.mem_singleton] at hb; subst hb; exact mem_hbm y h2

variable [FloatOps F]

theorem ops0_sub : ∀ op ∈ (ops0 : List (HloOp τ sig (Elt F))), op.bufs ⊆ hbmRefs :=
  List.forall_iff_forall_mem.1 ⟨sub_of rfl rfl rfl, sub_of rfl rfl rfl, sub_of rfl rfl rfl, sub_of rfl rfl rfl, sub_of rfl rfl rfl, sub_of rfl rfl rfl, sub_of rfl rfl rfl, sub_of rfl rfl rfl, sub_of rfl rfl rfl, sub_of rfl rfl rfl, sub_of rfl rfl rfl, sub_of rfl rfl rfl, sub_of rfl rfl rfl, sub_of rfl rfl rfl, sub_of rfl rfl rfl, sub_of rfl rfl rfl, sub_of rfl rfl rfl, sub_of rfl rfl rfl, sub_of rfl rfl rfl, sub_of rfl rfl rfl, sub_of rfl rfl rfl, sub_of rfl rfl rfl, sub_of rfl rfl rfl, sub_of rfl rfl rfl⟩

/-- One array, whole, at what the valuation gives it. -/
abbrev pt (d : Dev nD) (W : Valuation τ sig (Elt F)) (b : Ref sig .tc) : sProp 𝕄 := (SparseCore.T d).loc b ↦{fullShare} W (dr b)

/-- The thirty arrays named after the host operations: the fourteen arguments, the nine operands of the TensorCore
    kernel that are computed, the five sources of the SparseCore kernel, its result, the TensorCore kernel's, the program's. -/
abbrev L30 : List (DevRef τ sig) := [dr main_arg0, dr main_arg1, dr main_arg2, dr main_arg3, dr main_arg4, dr main_arg5, dr main_arg6, dr main_arg7, dr main_arg8, dr main_arg9, dr main_arg10, dr main_arg11, dr main_arg12, dr main_arg13, dr main_v1, dr main_v2, dr main_v3, dr main_v5, dr main_v7, dr main_v9, dr main_v11, dr main_v13, dr main_v15, dr main_v17, dr main_v19, dr main_v21, dr main_v23, dr main_v24, dr main_v25, dr main_v26]
abbrev T30 : Finset (DevRef τ sig) := L30.toFinset

theorem L30_nodup : (L30 : List (DevRef τ sig)).Nodup := by decide

theorem T30_sub : (T30 : Finset (DevRef τ sig)) ⊆ hbmRefs := by
  intro b hb
  simp only [T30, L30, List.mem_toFinset, List.mem_cons, List.mem_nil_iff, or_false] at hb
  rcases hb with rfl | rfl | rfl | rfl | rfl | rfl | rfl | rfl | rfl | rfl | rfl | rfl | rfl | rfl | rfl | rfl | rfl | rfl | rfl | rfl | rfl | rfl | rfl | rfl | rfl | rfl | rfl | rfl | rfl | rfl <;> exact mem_hbm _

omit [FloatOps F] in
theorem held_T30 (d : Dev nD) (W : Valuation τ sig (Elt F)) :
    (held (SparseCore.T d) T30 W : sProp 𝕄) = iprop(pt d W main_arg0 ∗ pt d W main_arg1 ∗ pt d W main_arg2 ∗ pt d W main_arg3 ∗ pt d W main_arg4 ∗ pt d W main_arg5 ∗ pt d W main_arg6 ∗ pt d W main_arg7 ∗ pt d W main_arg8 ∗ pt d W main_arg9 ∗ pt d W main_arg10 ∗ pt d W main_arg11 ∗ pt d W main_arg12 ∗ pt d W main_arg13 ∗ pt d W main_v1 ∗ pt d W main_v2 ∗ pt d W main_v3 ∗ pt d W main_v5 ∗ pt d W main_v7 ∗ pt d W main_v9 ∗ pt d W main_v11 ∗ pt d W main_v13 ∗ pt d W main_v15 ∗ pt d W main_v17 ∗ pt d W main_v19 ∗ pt d W main_v21 ∗ pt d W main_v23 ∗ pt d W main_v24 ∗ pt d W main_v25 ∗ pt d W main_v26) := by
  unfold held T30
  rw [bigSep_eq_bigSepL _ L30_nodup]; rfl

end Cert.KernelIdeal.Hand

end
-- ==== Proof.KI.RegionSpec.lean ====
/-
  What the TensorCore kernel's region is asked to do, as the proof of the TensorCore's program uses it: from the ten
  arrays its windows stage (tile types, step counts, parameters, the first five grids, the table, and its result array)
  held whole, the region boundary, the pipeline's staging cells' ghost state and the thread's debts, it runs to its end
  and hands everything back, the result array's channels 0 … 20 rewritten and its channels 21 … 25 kept.
-/
import proofs.«206564_g5145370820828_cont_8to1c4_476_13_alg».proof.Proof.KI.Held

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The first five grids, as the TensorCore kernel's windows name them, and any five more. -/
def gfam (W : Valuation τ sig (Elt F)) (g : Fin 5 → FVec F S576x4096 .f32) : Fin 10 → FVec F Cert.Spec.SG .f32 :=
  fun | 0 => W (dr main_v5) | 1 => W (dr main_v7) | 2 => W (dr main_v9) | 3 => W (dr main_v11) | 4 => W (dr main_v13)
      | 5 => g 0 | 6 => g 1 | 7 => g 2 | 8 => g 3 | 9 => g 4

/-- The result array after the region: channels below 21 are the kernels' function of the staged operands (its grid
    channels 16 … 20 among them never reach past the first five grids), the others are kept. -/
def tcOut (W : Valuation τ sig (Elt F)) (g : Fin 5 → FVec F S576x4096 .f32) : FVec F Cert.Spec.SK .f32 :=
  fun j => if (j 1).val < 21 then Cert.Spec.outK (W (dr main_v1)) (W (dr main_v2)) (W (dr main_v3)) (gfam W g) (W (dr main_arg13)) j else W (dr main_v25) j

/-- The thread's debts and recorded waits as the SparseCore launch keeps them before call `n`. -/
abbrev tcOwes (d : Dev nD) (n : ℕ) : sProp 𝕄 :=
  iprop(∃ Wt, ⌜(K (F := F)).WBelow (SparseCore.T d) Wt (8 * n)⌝ ∗ owes (SparseCore.T d) ((K (F := F)).Otc d n) Wt)

/-- The nine staged operands. -/
abbrev nine (d : Dev nD) (W : Valuation τ sig (Elt F)) : sProp 𝕄 :=
  iprop(pt d W main_v1 ∗ pt d W main_v2 ∗ pt d W main_v3 ∗ pt d W main_v5 ∗ pt d W main_v7 ∗ pt d W main_v9 ∗ pt d W main_v11 ∗ pt d W main_v13
    ∗ pt d W main_arg13)

variable [FloatOps F]

/-- The region's run, with the value of its result array. -/
def RegionSpec : Prop :=
  ∀ (d : Dev nD) (n : ℕ) (W : Valuation τ sig (Elt F)) (g : Fin 5 → FVec F S576x4096 .f32) (Φ : PUnit → sProp 𝕄),
    iprop(boundary (SparseCore.T d) ∗ levAts (K (F := F)).L (K (F := F)).lev
        ∗ (Pipeline.cellsGhost cfgs ER 0 d ∗ Pipeline.toksInit cfgs ER 0 d) ∗ tcOwes d n ∗ nine d W ∗ pt d W main_v25
        ∗ ((boundary (SparseCore.T d) ∗ tcOwes d n ∗ nine d W ∗ ((SparseCore.T d).loc main_v25 ↦{fullShare} (tcOut W g : Buf (Elt F) ((SparseCore.T d).loc main_v25)))) -∗ Φ ⟨⟩))
      ⊢ wp frame (wpE ((K (F := F)).defs (D (F := F))) 𝒱 (SparseCore.T d) none) Set.univ
          (Prog.lift (.customCall (SparseCore.inner (Pipeline.entry 0)) ())) Φ

/-- The same with the result array at contents not stated. -/
def RegionFrameSpec : Prop :=
  ∀ (d : Dev nD) (n : ℕ) (W : Valuation τ sig (Elt F)) (Φ : PUnit → sProp 𝕄),
    iprop(boundary (SparseCore.T d) ∗ levAts (K (F := F)).L (K (F := F)).lev
        ∗ (Pipeline.cellsGhost cfgs ER 0 d ∗ Pipeline.toksInit cfgs ER 0 d) ∗ tcOwes d n ∗ nine d W ∗ pt d W main_v25
        ∗ ((boundary (SparseCore.T d) ∗ tcOwes d n ∗ nine d W ∗ (∃ f, (SparseCore.T d).loc main_v25 ↦{fullShare} f)) -∗ Φ ⟨⟩))
      ⊢ wp frame (wpE ((K (F := F)).defs (D (F := F))) 𝒱 (SparseCore.T d) none) Set.univ
          (Prog.lift (.customCall (SparseCore.inner (Pipeline.entry 0)) ())) Φ

end Cert.KernelIdeal.Hand

end
-- ==== Proof.KI.Main.lean ====
/-
  The TensorCore's program, proved: the twenty-four host operations, the SparseCore call (the five sources' read shares
  and the written channels handed over and taken back), the copy of the result into the TensorCore kernel's result
  array, the TensorCore kernel's region, the last transpose.
-/
import proofs.«206564_g5145370820828_cont_8to1c4_476_13_alg».proof.Proof.KI.Call
import proofs.«206564_g5145370820828_cont_8to1c4_476_13_alg».proof.Proof.KI.RegionSpec

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within held_sub_split held_congr wp_seq after unary_result unary_result_ne reshape_result reshape_result_ne unary_bufs)

variable {F : FTy → Type}

local notation "𝕄" => MT nD τ sig (HIx 1) (Elt F) ℕ UU ℕ

variable (m : (ℓ : Loc nD τ sig) → Buf (Elt F) ℓ) (ρ : Dev nD → PrngReg)

/-- The launch contents, as a valuation. -/
abbrev V0 (d : Dev nD) : Valuation τ sig (Elt F) := fun b => m (d, b)

/-- Two arrays, whole. -/
theorem held_pair (d : Dev nD) (W : Valuation τ sig (Elt F)) (x y : Ref sig .tc) (h : dr x ≠ dr y) :
    (held (SparseCore.T d) {dr x, dr y} W : sProp 𝕄) = iprop(pt d W x ∗ pt d W y) := by
  unfold held
  rw [SparseCore.bigSep_insert' (by rw [Finset.mem_singleton]; exact h), bigSep_singleton]

variable [FloatOps F]

/-- The contents after the twenty-four host operations. -/
abbrev W1 (d : Dev nD) : Valuation τ sig (Elt F) := after ops0 (V0 m d)

/-- The SparseCore kernel's five sources at the call. -/
def gsrc (d : Dev nD) : Fin 5 → FVec F S576x4096 .f32 :=
  fun | 0 => W1 m d (dr main_v15) | 1 => W1 m d (dr main_v17) | 2 => W1 m d (dr main_v19) | 3 => W1 m d (dr main_v21) | 4 => W1 m d (dr main_v23)

/-- The payload of the one SparseCore call, at this launch. -/
abbrev PP : (K (F := F)).Pay (nD := nD) (Val := Elt F) (Name := ℕ) (U := UU) := P (gsrc m) (fun d => W1 m d (dr main_v24))

/-- The kernel-layout array after both kernels. -/
def out25 (d : Dev nD) : FVec F Cert.Spec.SK .f32 :=
  Cert.Spec.outK (W1 m d (dr main_v1)) (W1 m d (dr main_v2)) (W1 m d (dr main_v3)) (gfam (W1 m d) (gsrc m d)) (W1 m d (dr main_arg13))

/-- The program's result. -/
def out26 (d : Dev nD) : FVec F S4096x24x24x26 .f32 :=
  transpose S4096x24x24x26 [3, 0, 2, 1] (out25 m d) transposes_S24x26x24x4096_S4096x24x24x26_3_0_2_1

theorem ops0_fresh : ∀ op ∈ (ops0 : List (HloOp τ sig (Elt F))), op.fresh = ∅ := by
  intro _ h; (repeat (cases h with | head => rfl | tail _ h => ?_)); exact nomatch h

omit [FloatOps F] in
/-- The grids past the fifth are the SparseCore kernel's sources. -/
theorem gfam_high (W : Valuation τ sig (Elt F)) (g : Fin 5 → FVec F S576x4096 .f32) (a : Fin 5) (k : Fin 10) (h : k.val = a.val + 5) :
    gfam W g k = g a := by
  obtain ⟨kv, hkv⟩ := k
  dsimp only at h
  subst h
  match a with
  | ⟨0, _⟩ => rfl | ⟨1, _⟩ => rfl | ⟨2, _⟩ => rfl | ⟨3, _⟩ => rfl | ⟨4, _⟩ => rfl

/-- The region's result, from a result array whose channels 21 … 25 hold the sources' rows, is the kernels' function. -/
theorem tcOut_eq (d : Dev nD) (f24 : Buf (Elt F) (oLoc d)) (hf : ∀ j ∈ scSet, f24 j = scVal (gsrc m d) j) :
    tcOut (Function.update (W1 m d) (dr main_v25) f24) (gsrc m d) = out25 m d := by
  funext j
  unfold tcOut out25
  have hne : ∀ b : Ref sig .tc, dr b ≠ dr main_v25 → Function.update (W1 m d) (dr main_v25) f24 (dr b) = W1 m d (dr b) :=
    fun b hb => Function.update_of_ne hb _ _
  have hg : gfam (Function.update (W1 m d) (dr main_v25) f24) (gsrc m d) = gfam (W1 m d) (gsrc m d) := by
    funext k
    match k with
    | 0 => exact hne main_v5 (by decide) | 1 => exact hne main_v7 (by decide) | 2 => exact hne main_v9 (by decide)
    | 3 => exact hne main_v11 (by decide) | 4 => exact hne main_v13 (by decide)
    | 5 => rfl | 6 => rfl | 7 => rfl | 8 => rfl | 9 => rfl
  rw [hne main_v1 (by decide), hne main_v2 (by decide), hne main_v3 (by decide), hne main_arg13 (by decide), hg, Function.update_self]
  split
  · rfl
  · next h21 =>
    have hj : j ∈ scSet := by
      unfold scSet; rw [Finset.mem_filter]; exact ⟨Finset.mem_univ _, by omega⟩
    rw [hf j hj]
    have h26 : (j 1).val < 26 := (j 1).isLt
    unfold scVal Cert.Spec.outK
    rw [dif_neg (by omega), if_neg (by omega), dif_neg (by omega)]
    have e5 : ((j 1).val - 21) % 5 = (j 1).val - 21 := Nat.mod_eq_of_lt (by omega)
    exact (congrFun (gfam_high (W1 m d) (gsrc m d) ⟨((j 1).val - 21) % 5, Nat.mod_lt _ (by decide)⟩ ⟨(j 1).val - 16, by omega⟩
      (by show (j 1).val - 16 = ((j 1).val - 21) % 5 + 5; omega)) _).symm

/-! ## The host operations write none of the arguments -/

/-- The references the twenty-four host operations write. -/
abbrev Wl : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23]

omit [FloatOps F] in
theorem w_of {op : HloOp τ sig (Elt F)} {y : Ref sig .tc} (e : op.writes = {dr y}) (hy : y ∈ Wl) :
    op.writes ⊆ ((Wl.map (Proc.devRef (τ := τ) .tc)).toFinset : Finset (DevRef τ sig)) := by
  rw [e]; intro b hb
  rw [Finset.mem_singleton] at hb; subst hb
  exact List.mem_toFinset.mpr (List.mem_map_of_mem hy)

theorem ops0_writes : (ops0 : List (HloOp τ sig (Elt F))).Forall fun op => op.writes ⊆ ((Wl.map (Proc.devRef (τ := τ) .tc)).toFinset : Finset (DevRef τ sig)) :=
  ⟨w_of rfl (by decide), w_of rfl (by decide), w_of rfl (by decide), w_of rfl (by decide), w_of rfl (by decide), w_of rfl (by decide), w_of rfl (by decide), w_of rfl (by decide), w_of rfl (by decide), w_of rfl (by decide), w_of rfl (by decide), w_of rfl (by decide), w_of rfl (by decide), w_of rfl (by decide), w_of rfl (by decide), w_of rfl (by decide), w_of rfl (by decide), w_of rfl (by decide), w_of rfl (by decide), w_of rfl (by decide), w_of rfl (by decide), w_of rfl (by decide), w_of rfl (by decide), w_of rfl (by decide)⟩

/-- A reference the host operations do not write keeps its launch contents. -/
theorem W1_keep (d : Dev nD) (r : Ref sig .tc) (hr : r ∉ Wl) : W1 m d (dr r) = m ((SparseCore.T d).loc r) :=
  StableHlo.after_of_writes_sub ops0 (V0 m d) ops0_writes hr

end Cert.KernelIdeal.Hand

end
-- ==== Proof.KI.TcMain.lean ====
/-
  The TensorCore's program run: from what the launch deals the TensorCore to the claim's holdings.
-/
import proofs.«206564_g5145370820828_cont_8to1c4_476_13_alg».proof.Proof.KI.Main

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within held_sub_split held_congr wp_seq after unary_result unary_result_ne reshape_result reshape_result_ne unary_bufs)

variable {F : FTy → Type}

local notation "𝕄" => MT nD τ sig (HIx 1) (Elt F) ℕ UU ℕ

variable (m : (ℓ : Loc nD τ sig) → Buf (Elt F) ℓ) (ρ : Dev nD → PrngReg) [FloatOps F]

/-- The pipeline's staging cells' ghost state and duty tokens on a device: what the launch funds the region with. -/
abbrev Gp (d : Dev nD) : sProp 𝕄 := iprop(Pipeline.cellsGhost cfgs ER 0 d ∗ Pipeline.toksInit cfgs ER 0 d)

/-- What the TensorCore's program leaves for the claim: the fourteen arguments as the host operations left them (they
    write none of them), and the result. -/
abbrev FIN (d : Dev nD) : sProp 𝕄 :=
  iprop(pt d (W1 m d) main_arg0 ∗ pt d (W1 m d) main_arg1 ∗ pt d (W1 m d) main_arg2 ∗ pt d (W1 m d) main_arg3 ∗ pt d (W1 m d) main_arg4 ∗ pt d (W1 m d) main_arg5 ∗ pt d (W1 m d) main_arg6 ∗ pt d (W1 m d) main_arg7 ∗ pt d (W1 m d) main_arg8 ∗ pt d (W1 m d) main_arg9 ∗ pt d (W1 m d) main_arg10 ∗ pt d (W1 m d) main_arg11 ∗ pt d (W1 m d) main_arg12 ∗ pt d (W1 m d) main_arg13
    ∗ ((SparseCore.T d).loc main_v26 ↦{fullShare} (out26 m d : Buf (Elt F) ((SparseCore.T d).loc main_v26))))

omit [FloatOps F] in
/-- The nine staged operands do not see a new result array. -/
theorem nine_update (d : Dev nD) (W : Valuation τ sig (Elt F)) (f : (dr main_v25).ty.Contents (Elt F)) :
    (nine d (Function.update W (dr main_v25) f) : sProp 𝕄) = nine d W := by
  unfold nine pt
  rw [Function.update_of_ne (show dr main_v1 ≠ dr main_v25 by decide),
    Function.update_of_ne (show dr main_v2 ≠ dr main_v25 by decide),
    Function.update_of_ne (show dr main_v3 ≠ dr main_v25 by decide),
    Function.update_of_ne (show dr main_v5 ≠ dr main_v25 by decide),
    Function.update_of_ne (show dr main_v7 ≠ dr main_v25 by decide),
    Function.update_of_ne (show dr main_v9 ≠ dr main_v25 by decide),
    Function.update_of_ne (show dr main_v11 ≠ dr main_v25 by decide),
    Function.update_of_ne (show dr main_v13 ≠ dr main_v25 by decide),
    Function.update_of_ne (show dr main_arg13 ≠ dr main_v25 by decide)]

set_option backward.isDefEq.respectTransparency.types false in
set_option maxHeartbeats 1600000 in
theorem hmain (hreg : RegionSpec (F := F)) (κ : GSem nD τ sig → ℕ) (d : Dev nD) :
    iprop((K (F := F)).ctx EH (PP m) κ ∗ (K (F := F)).tcSt EH d 0 ∗ (K (F := F)).tcRes m ρ d ∗ Gp d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d).loc b)) : sProp 𝕄) = held (SparseCore.T d) hbmRefs (V0 m d) from unscoped_held d (V0 m d), main_eq]
  iintro ⟨#Hctx, Hst, ⟨Hb, Hheld, -, -⟩, Hcg⟩
  iapply (wp_seq 𝒱 none Set.univ d hbmRefs (fun _ => mainTail d) ops0 ops0_sub ops0_fresh (V0 m d)) $$ [Hb Hheld]
  · isplitl [Hb]; · iexact Hb
    iexact Hheld
  iintro ⟨Hb, Hheld⟩
  ihave Hh := (Entails.of_eq (held_sub_split (SparseCore.T d) T30_sub (W1 m d))) $$ Hheld
  icases Hh with ⟨H30, -⟩
  ihave H30 := (Entails.of_eq (held_T30 d (W1 m d))) $$ H30
  icases H30 with ⟨Harg0, Harg1, Harg2, Harg3, Harg4, Harg5, Harg6, Harg7, Harg8, Harg9, Harg10, Harg11, Harg12, Harg13, Hv1, Hv2, Hv3, Hv5, Hv7, Hv9, Hv11, Hv13, Hv15, Hv17, Hv19, Hv21, Hv23, Hv24, Hv25, Hv26⟩
  unfold mainTail
  simp only [wp_bind]
  -- the SparseCore call: the written channels and the sources' read shares out, and back
  ihave Ho := (out_split d (W1 m d (dr main_v24))) $$ Hv24
  icases Ho with ⟨Ho0, Ho1, Horest⟩
  ihave Hs := (srcs_split d (gsrc m d) fullShare 2) $$ [Hv15 Hv17 Hv19 Hv21 Hv23]
  · isplitl [Hv15]; · iexact Hv15
    isplitl [Hv17]; · iexact Hv17
    isplitl [Hv19]; · iexact Hv19
    isplitl [Hv21]; · iexact Hv21
    iexact Hv23
  icases Hs with ⟨-, Hstoks⟩
  ihave Hstoks := (Entails.of_eq (bigSep_univ_two _)) $$ Hstoks
  icases Hstoks with ⟨Hs0, Hs1⟩
  iapply ((K (F := F)).wp_run (D (F := F)) 𝒱 (EH := EH) (P := PP m) κ d 0) $$ [Hst Hb Hcg Hs0 Hs1 Ho0 Ho1 Horest Harg0 Harg1 Harg2 Harg3 Harg4 Harg5 Harg6 Harg7 Harg8 Harg9 Harg10 Harg11 Harg12 Harg13 Hv1 Hv2 Hv3 Hv5 Hv7 Hv9 Hv11 Hv13 Hv25 Hv26]
  isplitr; · iexact Hctx
  isplitl [Hst]; · iexact Hst
  isplitl [Hs0 Hs1 Ho0 Ho1]
  · rw [st0_eq]
    isplitl [Hs0 Ho0]
    · isplitl [Hs0]; · iexact Hs0
      iexact Ho0
    · isplitl [Hs1]; · iexact Hs1
      iexact Ho1
  iintro ⟨Hst, Hdn⟩
  ihave Hdn := (Entails.of_eq (dn0_eq (gsrc m) (fun d => W1 m d (dr main_v24)) d)) $$ Hdn
  icases Hdn with ⟨⟨-, Hd0⟩, -, Hd1⟩
  ihave Ho := (out_join (gsrc m) d (W1 m d (dr main_v24))) $$ [Hd0 Hd1 Horest]
  · isplitl [Hd0]; · iexact Hd0
    isplitl [Hd1]; · iexact Hd1
    iexact Horest
  icases Ho with ⟨%f24, %hf24, Hv24⟩
  -- the copy into the TensorCore kernel's result array
  have e25 : (opCopy (F := F)).result (Function.update (W1 m d) (dr main_v24) f24) (dr main_v25)
      = Function.update (W1 m d) (dr main_v25) f24 (dr main_v25) := by
    rw [Function.update_self, unary_result, Function.update_self]; rfl
  iapply (wp_hlo_within 𝒱 (SparseCore.T d) none Set.univ (op := opCopy) (S := {dr main_v24, dr main_v25}) (Finset.Subset.refl _)
      (V := Function.update (W1 m d) (dr main_v24) f24)) $$ [Hb Hv24 Hv25]
  · isplitl [Hb]; · iexact Hb
    rw [held_pair d _ main_v24 main_v25 (by decide)]
    unfold pt
    rw [Function.update_self, Function.update_of_ne (show dr main_v25 ≠ dr main_v24 by decide)]
    isplitl [Hv24]; · iexact Hv24
    iexact Hv25
  iintro ⟨Hb, Hheld⟩
  rw [wp_ret]; imodintro
  ihave Hh := (Entails.of_eq (held_pair d _ main_v24 main_v25 (by decide))) $$ Hheld
  icases Hh with ⟨-, Hv25⟩
  -- the TensorCore kernel's region
  unfold SparseCore.Cfg.tcSt
  icases Hst with ⟨Howes, Hrest⟩
  iapply (hreg d 1 (Function.update (W1 m d) (dr main_v25) f24) (gsrc m d) _) $$ [Hb Hcg Howes Hrest Hv25 Hv26 Harg0 Harg1 Harg2 Harg3 Harg4 Harg5 Harg6 Harg7 Harg8 Harg9 Harg10 Harg11 Harg12 Harg13 Hv1 Hv2 Hv3 Hv5 Hv7 Hv9 Hv11 Hv13]
  isplitl [Hb]; · iexact Hb
  isplitr; · iapply (SparseCore.Cfg.ctx_levAts κ); iexact Hctx
  isplitl [Hcg]; · iexact Hcg
  isplitl [Howes]; · iexact Howes
  isplitl [Hv1 Hv2 Hv3 Hv5 Hv7 Hv9 Hv11 Hv13 Harg13]
  · rw [nine_update]
    isplitl [Hv1]; · iexact Hv1
    isplitl [Hv2]; · iexact Hv2
    isplitl [Hv3]; · iexact Hv3
    isplitl [Hv5]; · iexact Hv5
    isplitl [Hv7]; · iexact Hv7
    isplitl [Hv9]; · iexact Hv9
    isplitl [Hv11]; · iexact Hv11
    isplitl [Hv13]; · iexact Hv13
    iexact Harg13
  isplitl [Hv25]
  · unfold pt; rw [← e25]; iexact Hv25
  iintro ⟨Hb, Howes, Hnine, Hv25⟩
  ihave Hnine := (Entails.of_eq (nine_update d (W1 m d) f24)) $$ Hnine
  ihave Hv25 := (Entails.of_eq (congrArg (fun f : Buf (Elt F) ((SparseCore.T d).loc main_v25) => ((SparseCore.T d).loc main_v25 ↦{fullShare} f : sProp 𝕄)) (tcOut_eq m d f24 hf24))) $$ Hv25
  icases Hnine with ⟨Hv1, Hv2, Hv3, Hv5, Hv7, Hv9, Hv11, Hv13, Harg13⟩
  -- the last transpose
  have e26 : (opLast (F := F)).result (Function.update (W1 m d) (dr main_v25) (out25 m d)) (dr main_v26) = out26 m d := by
    rw [unary_result, Function.update_self]; rfl
  iapply (wp_hlo_within 𝒱 (SparseCore.T d) none Set.univ (op := opLast) (S := {dr main_v25, dr main_v26}) (Finset.Subset.refl _)
      (V := Function.update (W1 m d) (dr main_v25) (out25 m d))) $$ [Hb Hv25 Hv26]
  · isplitl [Hb]; · iexact Hb
    rw [held_pair d _ main_v25 main_v26 (by decide)]
    unfold pt
    rw [Function.update_self, Function.update_of_ne (show dr main_v26 ≠ dr main_v25 by decide)]
    isplitl [Hv25]; · iexact Hv25
    iexact Hv26
  iintro ⟨Hb, Hheld⟩
  rw [wp_ret]; imodintro
  ihave Hh := (Entails.of_eq (held_pair d _ main_v25 main_v26 (by decide))) $$ Hheld
  icases Hh with ⟨-, Hv26⟩
  rw [wp_pure]; imodintro
  isplitl [Howes Hrest]
  · isplitl [Howes]; · iexact Howes
    iexact Hrest
  isplitl [Harg0]; · iexact Harg0
  isplitl [Harg1]; · iexact Harg1
  isplitl [Harg2]; · iexact Harg2
  isplitl [Harg3]; · iexact Harg3
  isplitl [Harg4]; · iexact Harg4
  isplitl [Harg5]; · iexact Harg5
  isplitl [Harg6]; · iexact Harg6
  isplitl [Harg7]; · iexact Harg7
  isplitl [Harg8]; · iexact Harg8
  isplitl [Harg9]; · iexact Harg9
  isplitl [Harg10]; · iexact Harg10
  isplitl [Harg11]; · iexact Harg11
  isplitl [Harg12]; · iexact Harg12
  isplitl [Harg13]; · iexact Harg13
  unfold pt; rw [e26]; iexact Hv26

end Cert.KernelIdeal.Hand

end
-- ==== Proof.KI.Launch.lean ====
/-
  The launch: the ghost state's launch element, how the final memory reads the claim, and the program's run.
-/
import proofs.«206564_g5145370820828_cont_8to1c4_476_13_alg».proof.Proof.KI.TcMain
import proofs.«206564_g5145370820828_cont_8to1c4_476_13_alg».proof.Proof.Gen.KernelIdeal.Launch

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within held_sub_split held_congr wp_seq after unary_result unary_result_ne reshape_result reshape_result_ne unary_bufs)

variable {F : FTy → Type}

local notation "𝕄" => MT nD τ sig (HIx 1) (Elt F) ℕ UU ℕ

variable (m : (ℓ : Loc nD τ sig) → Buf (Elt F) ℓ) (ρ : Dev nD → PrngReg) [FloatOps F]

/-! ## The launch element -/

/-- The ghost state at launch: the handshake cells' rounds, the pipeline's staging cells' rounds, no counter. -/
def u₀ : UU := (initOf (K (F := F)).hsCells (K (F := F)).hsToks, (initOf (Pipeline.cells cfgs Gen.cellOf_inj) (Pipeline.launchToks cfgs Gen.cellOf_inj), 1))

omit [FloatOps F] in
theorem bigSep_emp' {I : Type} (s : Finset I) : (bigSep s fun _ => iprop(emp)) = (iprop(emp) : sProp 𝕄) := bigSep_emp_const s

omit [FloatOps F] in
theorem bigSep_fin1 (Φ : Fin 1 → sProp 𝕄) : bigSep Finset.univ Φ = Φ 0 := by
  rw [show (Finset.univ : Finset (Fin 1)) = {0} by decide, bigSep_singleton]

theorem hu₀ : (ownU (u₀ (F := F)) : sProp 𝕄)
    ⊢ |={Set.univ}=> iprop(BI.own (EH (initOf (K (F := F)).hsCells (K (F := F)).hsToks)) ∗ (bigSep Finset.univ fun d : Dev nD => Gp (F := F) d)
        ∗ bigSep Finset.univ fun thr : Thread nD τ => bigSep Finset.univ fun q : Fin 1 => (PP m).x q thr) := by
  unfold u₀
  iintro Hu
  ihave H := (ownU_pair _ _) $$ Hu
  icases H with ⟨HH, HR⟩
  have hsplit : (BI.own ((embR : Emb (UR sig nD τ × Counters) 𝕄) (initOf (Pipeline.cells cfgs Gen.cellOf_inj) (Pipeline.launchToks cfgs Gen.cellOf_inj), (1 : Counters))) : sProp 𝕄)
      ⊢ iprop(BI.own ((ER : Emb (UR sig nD τ) 𝕄) (initOf (Pipeline.cells cfgs Gen.cellOf_inj) (Pipeline.launchToks cfgs Gen.cellOf_inj)))
          ∗ BI.own (((Emb.inr : Emb Counters (UR sig nD τ × Counters)).trans embR) (1 : Counters))) := by unfold ER; exact own_pair_emb (A := UR sig nD τ) (B := Counters) (M' := MT nD τ sig (HIx 1) (Elt F) ℕ UU ℕ) embR _ _
  ihave HR := hsplit $$ HR
  icases HR with ⟨HP, -⟩
  imod (Pipeline.fund_ghost (Ix := HIx 1) (Val := Elt F) (Name := ℕ) (U := UU) (Lvl := ℕ) cfgs ER Gen.cellOf_inj) $$ HP with ⟨Hg, Ht⟩
  imodintro
  isplitl [HH]; · iexact HH
  isplitl [Hg Ht]
  · rw [bigSep_sep']
    isplitl [Hg]
    · ihave Hg := (Entails.of_eq (bigSep_congr fun d _ => bigSep_fin1 (fun p => Pipeline.cellsGhost cfgs ER p d))) $$ Hg
      iexact Hg
    · ihave Ht := (Entails.of_eq (bigSep_congr fun d _ => bigSep_fin1 (fun p => (Pipeline.toksInit cfgs ER p d : sProp 𝕄)))) $$ Ht
      iexact Ht
  have hx : (bigSep Finset.univ fun thr : Thread nD τ => bigSep Finset.univ fun q : Fin 1 => (PP m).x q thr) = (iprop(emp) : sProp 𝕄) := by
    rw [show (fun thr : Thread nD τ => bigSep Finset.univ fun q : Fin 1 => (PP m).x q thr) = fun _ => (iprop(emp) : sProp 𝕄) from
      funext fun _ => bigSep_emp' _, bigSep_emp']
  rw [hx]; iempintro

/-! ## Reading the claim off the final memory -/

/-- What the final memory must show on device `d`. -/
def fq (d : Dev nD) (s' : Phys nD τ sig (Elt F)) : Prop :=
  s'.mem.mem ((SparseCore.T d).loc main_v26) = out26 m d
    ∧ s'.mem.mem ((SparseCore.T d).loc main_arg0) = W1 m d (dr main_arg0)
    ∧ s'.mem.mem ((SparseCore.T d).loc main_arg1) = W1 m d (dr main_arg1)
    ∧ s'.mem.mem ((SparseCore.T d).loc main_arg2) = W1 m d (dr main_arg2)
    ∧ s'.mem.mem ((SparseCore.T d).loc main_arg3) = W1 m d (dr main_arg3)
    ∧ s'.mem.mem ((SparseCore.T d).loc main_arg4) = W1 m d (dr main_arg4)
    ∧ s'.mem.mem ((SparseCore.T d).loc main_arg5) = W1 m d (dr main_arg5)
    ∧ s'.mem.mem ((SparseCore.T d).loc main_arg6) = W1 m d (dr main_arg6)
    ∧ s'.mem.mem ((SparseCore.T d).loc main_arg7) = W1 m d (dr main_arg7)
    ∧ s'.mem.mem ((SparseCore.T d).loc main_arg8) = W1 m d (dr main_arg8)
    ∧ s'.mem.mem ((SparseCore.T d).loc main_arg9) = W1 m d (dr main_arg9)
    ∧ s'.mem.mem ((SparseCore.T d).loc main_arg10) = W1 m d (dr main_arg10)
    ∧ s'.mem.mem ((SparseCore.T d).loc main_arg11) = W1 m d (dr main_arg11)
    ∧ s'.mem.mem ((SparseCore.T d).loc main_arg12) = W1 m d (dr main_arg12)
    ∧ s'.mem.mem ((SparseCore.T d).loc main_arg13) = W1 m d (dr main_arg13)

theorem hfin (d : Dev nD) (s' : Phys nD τ sig (Elt F)) : iprop(FIN m d ∗ SI s') ⊢ (⌜fq m d s'⌝ : sProp 𝕄) := by
  iintro ⟨⟨Harg0, Harg1, Harg2, Harg3, Harg4, Harg5, Harg6, Harg7, Harg8, Harg9, Harg10, Harg11, Harg12, Harg13, Hv26⟩, HSI⟩
  icombine HSI Harg0 gives %h0
  icombine HSI Harg1 gives %h1
  icombine HSI Harg2 gives %h2
  icombine HSI Harg3 gives %h3
  icombine HSI Harg4 gives %h4
  icombine HSI Harg5 gives %h5
  icombine HSI Harg6 gives %h6
  icombine HSI Harg7 gives %h7
  icombine HSI Harg8 gives %h8
  icombine HSI Harg9 gives %h9
  icombine HSI Harg10 gives %h10
  icombine HSI Harg11 gives %h11
  icombine HSI Harg12 gives %h12
  icombine HSI Harg13 gives %h13
  icombine HSI Hv26 gives %hv
  ipureintro
  exact ⟨funext fun i => hv i (Finset.mem_univ i), funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i), funext fun i => h6 i (Finset.mem_univ i), funext fun i => h7 i (Finset.mem_univ i), funext fun i => h8 i (Finset.mem_univ i), funext fun i => h9 i (Finset.mem_univ i), funext fun i => h10 i (Finset.mem_univ i), funext fun i => h11 i (Finset.mem_univ i), funext fun i => h12 i (Finset.mem_univ i), funext fun i => h13 i (Finset.mem_univ i)⟩

/-! ## The program's run -/

/-- The run's post: the result at the kernels' function of the arguments, the arguments unchanged. -/
def QC : PUnit × MemSt nD τ sig (Elt F) → Prop := fun r => ∀ c : Dev nD,
  r.2.mem ((c.tc : Thread nD τ).loc main_v26) = out26 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)

theorem hQ (s' : Phys nD τ sig (Elt F)) (h : ∀ d, fq m d s') : QC m (⟨⟩, s'.mem) := by
  intro c
  obtain ⟨hv, h0, h1, h2, h3, h4, h5, h6, h7, h8, h9, h10, h11, h12, h13⟩ := h c
  exact ⟨hv, h0.trans (W1_keep m c main_arg0 (by decide)), h1.trans (W1_keep m c main_arg1 (by decide)), h2.trans (W1_keep m c main_arg2 (by decide)), h3.trans (W1_keep m c main_arg3 (by decide)), h4.trans (W1_keep m c main_arg4 (by decide)), h5.trans (W1_keep m c main_arg5 (by decide)), h6.trans (W1_keep m c main_arg6 (by decide)), h7.trans (W1_keep m c main_arg7 (by decide)), h8.trans (W1_keep m c main_arg8 (by decide)), h9.trans (W1_keep m c main_arg9 (by decide)), h10.trans (W1_keep m c main_arg10 (by decide)), h11.trans (W1_keep m c main_arg11 (by decide)), h12.trans (W1_keep m c main_arg12 (by decide)), h13.trans (W1_keep m c main_arg13 (by decide))⟩

/-- Every weakly fair execution of the program's threads terminates, nothing faulting, with the result at the kernels'
    function of the arguments and the arguments unchanged — given the vector subcores' task and the TensorCore region. -/
theorem run_main [∀ e, Nonempty (Elt F e)] (hreg : RegionSpec (F := F)) (htile : (K (F := F)).TileObl (D (F := F)) 𝒱 (PP m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => htile)
    (fun q _ => match q with | 0 => SparseCore.Cfg.VecSplit.of_plain (vecSplit (gsrc m) (fun d => W1 m d (dr main_v24))))
    m ρ main (fun d => Gp (F := F) d) (FIN m) (u₀ (F := F)) (sep_elim_left.trans (hu₀ m)) (hmain m ρ hreg) (fq m) (hfin m) (QC m) (hQ m)

end Cert.KernelIdeal.Hand

end
-- ==== Proof.KI.Value.lean ====
/-
  The kernels' function of the host-prepared arrays is the specification's function of the program's arguments: the host
  operations move the batch axis last and merge the two map axes, the last transpose moves it back to the front.
-/
import proofs.«206564_g5145370820828_cont_8to1c4_476_13_alg».proof.Proof.KI.Main
import Idealize.ShloMosaic.Lib.Pipeline.Value
import Idealize.ShloMosaic.Lib.ValueLayout

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within held_sub_split held_congr wp_seq after unary_result unary_result_ne reshape_result reshape_result_ne unary_bufs)

variable {F : FTy → Type}

local notation "𝕄" => MT nD τ sig (HIx 1) (Elt F) ℕ UU ℕ

open Idealize.ShloMosaic.ValueIdx Idealize.ShloMosaic.StableHlo

/-! ## The layout operations at an index -/

section Layout

variable {α : Type}

/-- A grid brought to the kernels' layout holds map cell (h, w) of batch entry b at (h · 24 + w, b). -/
theorem hostGrid_apply (x : S4096x24x24.Idx → α) (h w : Fin 24) (b : Fin 4096) :
    shapeCast S576x4096 (transpose S24x24x4096 [1, 2, 0] x transposes_S4096x24x24_S24x24x4096_1_2_0) shapeCasts_S24x24x4096_S576x4096
      (ix2 (Cert.Spec.hw h w) b) = x (ix3 b h w) := by
  rw [shapeCast_apply _ _ _ (ix3 h w b) (by rw [Shape.rowMajor_val_three, Shape.rowMajor_val_two]; rfl)]
  exact transpose_apply _ x _ _ (ix3 b h w) fun c => match c with | ⟨0, _⟩ => rfl | ⟨1, _⟩ => rfl | ⟨2, _⟩ => rfl

/-- The step counts as a one-row array. -/
theorem hostRow_apply (x : S4096.Idx → α) (b : Fin 4096) :
    shapeCast S1x4096 x shapeCasts_S4096_S1x4096 (ix2 (0 : Fin 1) b) = x (ix1 b) := by
  rw [shapeCast_apply _ _ _ (ix1 b) (by rw [Shape.rowMajor_val_one, Shape.rowMajor_val_two]; show b.val = 0 * 4096 + b.val; omega)]

end Layout

variable (m : (ℓ : Loc nD τ sig) → Buf (Elt F) ℓ) [FloatOps F]

/-! ## The host-prepared arrays -/

theorem W1_v1 (c : Dev nD) : W1 m c (dr main_v1)
    = shapeCast S576x4096 (transpose S24x24x4096 [1, 2, 0] (m ((SparseCore.T c).loc main_arg0)) transposes_S4096x24x24_S24x24x4096_1_2_0) shapeCasts_S24x24x4096_S576x4096 := by
  show StableHlo.after ops0 (V0 m c) (Proc.devRef .tc main_v1) = _
  after_results
  rfl
theorem W1_v2 (c : Dev nD) : W1 m c (dr main_v2) = shapeCast S1x4096 (m ((SparseCore.T c).loc main_arg1)) shapeCasts_S4096_S1x4096 := by
  show StableHlo.after ops0 (V0 m c) (Proc.devRef .tc main_v2) = _
  after_results
  rfl
theorem W1_v3 (c : Dev nD) : W1 m c (dr main_v3) = transpose S10x4096 [1, 0] (m ((SparseCore.T c).loc main_arg2)) transposes_S4096x10_S10x4096_1_0 := by
  show StableHlo.after ops0 (V0 m c) (Proc.devRef .tc main_v3) = _
  after_results
theorem W1_v5 (c : Dev nD) : W1 m c (dr main_v5)
    = shapeCast S576x4096 (transpose S24x24x4096 [1, 2, 0] (m ((SparseCore.T c).loc main_arg3)) transposes_S4096x24x24_S24x24x4096_1_2_0) shapeCasts_S24x24x4096_S576x4096 := by
  show StableHlo.after ops0 (V0 m c) (Proc.devRef .tc main_v5) = _
  after_results
  rfl
theorem W1_v7 (c : Dev nD) : W1 m c (dr main_v7)
    = shapeCast S576x4096 (transpose S24x24x4096 [1, 2, 0] (m ((SparseCore.T c).loc main_arg4)) transposes_S4096x24x24_S24x24x4096_1_2_0) shapeCasts_S24x24x4096_S576x4096 := by
  show StableHlo.after ops0 (V0 m c) (Proc.devRef .tc main_v7) = _
  after_results
  rfl
theorem W1_v9 (c : Dev nD) : W1 m c (dr main_v9)
    = shapeCast S576x4096 (transpose S24x24x4096 [1, 2, 0] (m ((SparseCore.T c).loc main_arg5)) transposes_S4096x24x24_S24x24x4096_1_2_0) shapeCasts_S24x24x4096_S576x4096 := by
  show StableHlo.after ops0 (V0 m c) (Proc.devRef .tc main_v9) = _
  after_results
  rfl
theorem W1_v11 (c : Dev nD) : W1 m c (dr main_v11)
    = shapeCast S576x4096 (transpose S24x24x4096 [1, 2, 0] (m ((SparseCore.T c).loc main_arg6)) transposes_S4096x24x24_S24x24x4096_1_2_0) shapeCasts_S24x24x4096_S576x4096 := by
  show StableHlo.after ops0 (V0 m c) (Proc.devRef .tc main_v11) = _
  after_results
  rfl
theorem W1_v13 (c : Dev nD) : W1 m c (dr main_v13)
    = shapeCast S576x4096 (transpose S24x24x4096 [1, 2, 0] (m ((SparseCore.T c).loc main_arg7)) transposes_S4096x24x24_S24x24x4096_1_2_0) shapeCasts_S24x24x4096_S576x4096 := by
  show StableHlo.after ops0 (V0 m c) (Proc.devRef .tc main_v13) = _
  after_results
  rfl
theorem W1_v15 (c : Dev nD) : W1 m c (dr main_v15)
    = shapeCast S576x4096 (transpose S24x24x4096 [1, 2, 0] (m ((SparseCore.T c).loc main_arg8)) transposes_S4096x24x24_S24x24x4096_1_2_0) shapeCasts_S24x24x4096_S576x4096 := by
  show StableHlo.after ops0 (V0 m c) (Proc.devRef .tc main_v15) = _
  after_results
  rfl
theorem W1_v17 (c : Dev nD) : W1 m c (dr main_v17)
    = shapeCast S576x4096 (transpose S24x24x4096 [1, 2, 0] (m ((SparseCore.T c).loc main_arg9)) transposes_S4096x24x24_S24x24x4096_1_2_0) shapeCasts_S24x24x4096_S576x4096 := by
  show StableHlo.after ops0 (V0 m c) (Proc.devRef .tc main_v17) = _
  after_results
  rfl
theorem W1_v19 (c : Dev nD) : W1 m c (dr main_v19)
    = shapeCast S576x4096 (transpose S24x24x4096 [1, 2, 0] (m ((SparseCore.T c).loc main_arg10)) transposes_S4096x24x24_S24x24x4096_1_2_0) shapeCasts_S24x24x4096_S576x4096 := by
  show StableHlo.after ops0 (V0 m c) (Proc.devRef .tc main_v19) = _
  after_results
  rfl
theorem W1_v21 (c : Dev nD) : W1 m c (dr main_v21)
    = shapeCast S576x4096 (transpose S24x24x4096 [1, 2, 0] (m ((SparseCore.T c).loc main_arg11)) transposes_S4096x24x24_S24x24x4096_1_2_0) shapeCasts_S24x24x4096_S576x4096 := by
  show StableHlo.after ops0 (V0 m c) (Proc.devRef .tc main_v21) = _
  after_results
  rfl
theorem W1_v23 (c : Dev nD) : W1 m c (dr main_v23)
    = shapeCast S576x4096 (transpose S24x24x4096 [1, 2, 0] (m ((SparseCore.T c).loc main_arg12)) transposes_S4096x24x24_S24x24x4096_1_2_0) shapeCasts_S24x24x4096_S576x4096 := by
  show StableHlo.after ops0 (V0 m c) (Proc.devRef .tc main_v23) = _
  after_results
  rfl

/-- The ten grids among the program's arguments. -/
def argGrids (c : Dev nD) : Fin 10 → FVec F Cert.Spec.SA .f32 :=
  fun | 0 => m ((SparseCore.T c).loc main_arg3) | 1 => m ((SparseCore.T c).loc main_arg4) | 2 => m ((SparseCore.T c).loc main_arg5)
      | 3 => m ((SparseCore.T c).loc main_arg6) | 4 => m ((SparseCore.T c).loc main_arg7) | 5 => m ((SparseCore.T c).loc main_arg8)
      | 6 => m ((SparseCore.T c).loc main_arg9) | 7 => m ((SparseCore.T c).loc main_arg10) | 8 => m ((SparseCore.T c).loc main_arg11)
      | 9 => m ((SparseCore.T c).loc main_arg12)

/-- Grid k in the kernels' layout at (h · 24 + w, b) is argument grid k at (b, h, w). -/
theorem gfam_apply (c : Dev nD) (k : Fin 10) (h w : Fin 24) (b : Fin 4096) :
    gfam (W1 m c) (gsrc m c) k (ix2 (Cert.Spec.hw h w) b) = argGrids m c k (ix3 b h w) := by
  match k with
  | 0 => show W1 m c (dr main_v5) _ = _; rw [W1_v5]; exact hostGrid_apply _ h w b
  | 1 => show W1 m c (dr main_v7) _ = _; rw [W1_v7]; exact hostGrid_apply _ h w b
  | 2 => show W1 m c (dr main_v9) _ = _; rw [W1_v9]; exact hostGrid_apply _ h w b
  | 3 => show W1 m c (dr main_v11) _ = _; rw [W1_v11]; exact hostGrid_apply _ h w b
  | 4 => show W1 m c (dr main_v13) _ = _; rw [W1_v13]; exact hostGrid_apply _ h w b
  | 5 => show W1 m c (dr main_v15) _ = _; rw [W1_v15]; exact hostGrid_apply _ h w b
  | 6 => show W1 m c (dr main_v17) _ = _; rw [W1_v17]; exact hostGrid_apply _ h w b
  | 7 => show W1 m c (dr main_v19) _ = _; rw [W1_v19]; exact hostGrid_apply _ h w b
  | 8 => show W1 m c (dr main_v21) _ = _; rw [W1_v21]; exact hostGrid_apply _ h w b
  | 9 => show W1 m c (dr main_v23) _ = _; rw [W1_v23]; exact hostGrid_apply _ h w b

/-- The program's result is the specification's function of its arguments. -/
theorem out26_eq (c : Dev nD) :
    out26 m c = Cert.Spec.G (m ((SparseCore.T c).loc main_arg0)) (m ((SparseCore.T c).loc main_arg1)) (m ((SparseCore.T c).loc main_arg2))
      (argGrids m c) (m ((SparseCore.T c).loc main_arg13)) := by
  funext i
  obtain ⟨b, h, w, ch, rfl⟩ : ∃ (b : Fin 4096) (h w : Fin 24) (ch : Fin 26), i = ix4 b h w ch := ⟨i 0, i 1, i 2, i 3, eq_ix4 i⟩
  unfold out26
  rw [transpose_apply _ _ _ _ (ix4 h ch w b) (fun a => match a with | ⟨0, _⟩ => rfl | ⟨1, _⟩ => rfl | ⟨2, _⟩ => rfl | ⟨3, _⟩ => rfl)]
  unfold out25 Cert.Spec.outK Cert.Spec.G
  show (if h5 : ch.val < 5 then Cert.Spec.pick (W1 m c (dr main_arg13)) ⟨ch.val, h5⟩ (W1 m c (dr main_v1) (ix2 (Cert.Spec.hw h w) b))
      else if ch.val = 5 then W1 m c (dr main_v2) (ix2 0 b)
      else if h16 : ch.val < 16 then W1 m c (dr main_v3) (ix2 ⟨ch.val - 6, by omega⟩ b)
      else gfam (W1 m c) (gsrc m c) ⟨ch.val - 16, by have := ch.isLt; omega⟩ (ix2 (Cert.Spec.hw h w) b))
    = (if h5 : ch.val < 5 then Cert.Spec.pick (m ((SparseCore.T c).loc main_arg13)) ⟨ch.val, h5⟩ (m ((SparseCore.T c).loc main_arg0) (ix3 b h w))
      else if ch.val = 5 then m ((SparseCore.T c).loc main_arg1) (ix1 b)
      else if h16 : ch.val < 16 then m ((SparseCore.T c).loc main_arg2) (ix2 b ⟨ch.val - 6, by omega⟩)
      else argGrids m c ⟨ch.val - 16, by have := ch.isLt; omega⟩ (ix3 b h w))
  rw [W1_v1, W1_v2, W1_v3, hostGrid_apply, hostRow_apply]
  have e13 : W1 m c (dr main_arg13) = m ((SparseCore.T c).loc main_arg13) := W1_keep m c main_arg13 (by decide)
  rw [e13]
  split
  · rfl
  · split
    · rfl
    · split
      · exact transpose_ix2_apply _ _ _ _
      · exact gfam_apply m c _ h w b

end Cert.KernelIdeal.Hand

end
-- ==== Proof.K.Setup.lean ====
/-
  The kernel program as the SparseCore launch theorem sees it: the label table and body table the program is
  printed over, the launch configuration, the ghost state (the handshakes' rounds, the pipeline's staging cells' rounds,
  the local transfers' counters) and their embeddings, and the names of the arrays the two kernels move.
-/
import proofs.«206564_g5145370820828_cont_8to1c4_476_13_alg».proof.Defs
import Idealize.ShloMosaic.Lib.SparseCore.Launch
import Idealize.ShloMosaic.Lib.StableHlo.Run
import Idealize.ShloMosaic.Lib.Pipeline.Kit
import Idealize.ShloMosaic.Lib.Tactic
import proofs.«206564_g5145370820828_cont_8to1c4_476_13_alg».proof.Proof.Gen.Kernel
import proofs.«206564_g5145370820828_cont_8to1c4_476_13_alg».proof.Proof.Gen.Kernel.Skeleton

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's staging cells' rounds, the transfers' counters -/

abbrev UH : Type := URounds (GSem nD τ sig) ℕ
abbrev UU : Type := UH × (UR sig nD τ × Counters)

/-- The handshakes' rounds library, the left factor. -/
abbrev EH : Emb UH (MT nD τ sig (HIx 1) (Elt F) ℕ UU ℕ) := embL
/-- The pipeline's staging cells' rounds library: the left of the right factor. -/
def ER : Emb (UR sig nD τ) (MT nD τ sig (HIx 1) (Elt F) ℕ UU ℕ) :=
  (Emb.inl : Emb (UR sig nD τ) (UR sig nD τ × Counters)).trans embR

instance ER_landsIn : (ER : Emb (UR sig nD τ) (MT nD τ sig (HIx 1) (Elt F) ℕ UU ℕ)).LandsIn (upEmb : UEmb _ (MT nD τ sig (HIx 1) (Elt F) ℕ UU ℕ)) := by
  unfold ER embR; infer_instance

end Cert.Kernel.Hand

end
-- ==== Proof.K.Bands.lean ====
/-
  The destination bands of the SparseCore kernel.  The kernel moves 360 bands, five grids of 72: band q = gi · 72 + b is
  the eight map columns r · 8 … r · 8 + 7 of map row h, for every batch entry, where h = b / 3 and r = b % 3; it lands in
  channel 21 + gi of the kernel-layout array, at row h, columns r · 8 … + 7.  Vector subcore number w of the 32 (subcore
  index · 2 + core index) moves the bands w · 360 / 32 ≤ q < (w + 1) · 360 / 32.  Here: each band's index set, that
  different bands are disjoint, that a subcore's set is the union of its bands', and that the 32 subcores' sets tile the
  channels 21 … 25.
-/
import proofs.«206564_g5145370820828_cont_8to1c4_476_13_alg».proof.Proof.K.Setup

noncomputable section

namespace Cert.Kernel.Hand

open Cert.Kernel Cert.Kernel.Gen
open Idealize.ShloMosaic

/-- The first band of subcore number `w`. -/
def lo (w : ℕ) : ℕ := w * 360 / 32

theorem lo_mono {w w' : ℕ} (h : w < w') : lo (w + 1) ≤ lo w' := by unfold lo; omega
theorem lo_zero : lo 0 = 0 := rfl
theorem lo_32 : lo 32 = 360 := rfl

/-- Where band `q` starts in the kernel-layout array (row, channel, column, batch). -/
def bandOff (q : ℕ) : Fin 4 → ℕ := ![(q % 72) / 3, 21 + q / 72, (q % 72 % 3) * 8, 0]

theorem bandOff_inb (q : Fin 360) : ∀ a, bandOff q.val a + S1x1x8x4096.size a ≤ S24x26x24x4096.size a := by
  intro a
  have hq := q.isLt
  match a with
  | ⟨0, _⟩ => show (q.val % 72) / 3 + 1 ≤ 24; omega
  | ⟨1, _⟩ => show 21 + q.val / 72 + 1 ≤ 26; omega
  | ⟨2, _⟩ => show (q.val % 72 % 3) * 8 + 8 ≤ 24; omega
  | ⟨3, _⟩ => show 0 + 4096 ≤ 4096; omega

/-- Band `q` as a rectangle of the kernel-layout array. -/
abbrev bandRect (q : Fin 360) : Rect S24x26x24x4096 := Rect.unit (s := S24x26x24x4096) (bandOff q.val) S1x1x8x4096.size (bandOff_inb q)

/-- The indices of band `q`. -/
def bandSet (q : Fin 360) : Finset S24x26x24x4096.Idx := (bandRect q).set

theorem mem_bandSet {q : Fin 360} {j : S24x26x24x4096.Idx} :
    j ∈ bandSet q ↔ ((j 0).val = (q.val % 72) / 3 ∧ (j 1).val = 21 + q.val / 72
      ∧ (q.val % 72 % 3) * 8 ≤ (j 2).val ∧ (j 2).val < (q.val % 72 % 3) * 8 + 8) := by
  unfold bandSet
  rw [Rect.mem_set_unit]
  constructor
  · intro h
    have h0 : (q.val % 72) / 3 ≤ (j 0).val ∧ (j 0).val < (q.val % 72) / 3 + 1 := h 0
    have h1 : 21 + q.val / 72 ≤ (j 1).val ∧ (j 1).val < 21 + q.val / 72 + 1 := h 1
    have h2 : (q.val % 72 % 3) * 8 ≤ (j 2).val ∧ (j 2).val < (q.val % 72 % 3) * 8 + 8 := h 2
    omega
  · rintro ⟨h0, h1, h2, h3⟩ a
    match a with
    | ⟨0, _⟩ => show (q.val % 72) / 3 ≤ (j 0).val ∧ (j 0).val < (q.val % 72) / 3 + 1; omega
    | ⟨1, _⟩ => show 21 + q.val / 72 ≤ (j 1).val ∧ (j 1).val < 21 + q.val / 72 + 1; omega
    | ⟨2, _⟩ => show (q.val % 72 % 3) * 8 ≤ (j 2).val ∧ (j 2).val < (q.val % 72 % 3) * 8 + 8; omega
    | ⟨3, _⟩ => show 0 ≤ (j 3).val ∧ (j 3).val < 0 + 4096; exact ⟨Nat.zero_le _, by have : (j 3).val < 4096 := (j 3).isLt; omega⟩

/-- The band an index of the channels 21 … 25 lies in. -/
def bandOf (j : S24x26x24x4096.Idx) : ℕ := ((j 1).val - 21) * 72 + (j 0).val * 3 + (j 2).val / 8

theorem mem_bandSet_iff {q : Fin 360} {j : S24x26x24x4096.Idx} : j ∈ bandSet q ↔ (21 ≤ (j 1).val ∧ bandOf j = q.val) := by
  rw [mem_bandSet]; unfold bandOf
  have h0 : (j 0).val < 24 := (j 0).isLt
  have h1 : (j 1).val < 26 := (j 1).isLt
  have h2 : (j 2).val < 24 := (j 2).isLt
  have hq := q.isLt
  constructor
  · rintro ⟨e0, e1, e2, e3⟩; omega
  · rintro ⟨e1, e⟩; omega

theorem bandSet_disjoint {q q' : Fin 360} (h : q ≠ q') : Disjoint (bandSet q) (bandSet q') := by
  rw [Finset.disjoint_left]
  intro j hj hj'
  rw [mem_bandSet_iff] at hj hj'
  exact h (Fin.ext (hj.2.symm.trans hj'.2))

/-- The bands of subcore number `w`. -/
def tileBands (w : Fin 32) : Finset (Fin 360) := Finset.univ.filter fun q => lo w.val ≤ q.val ∧ q.val < lo (w.val + 1)

/-- The indices subcore number `w` writes. -/
def tileSet (w : Fin 32) : Finset S24x26x24x4096.Idx := (tileBands w).biUnion bandSet

theorem mem_tileSet {w : Fin 32} {j : S24x26x24x4096.Idx} :
    j ∈ tileSet w ↔ (21 ≤ (j 1).val ∧ lo w.val ≤ bandOf j ∧ bandOf j < lo (w.val + 1)) := by
  unfold tileSet tileBands
  simp only [Finset.mem_biUnion, Finset.mem_filter, Finset.mem_univ, true_and, mem_bandSet_iff]
  constructor
  · rintro ⟨q, ⟨h1, h2⟩, h21, e⟩; exact ⟨h21, e ▸ h1, e ▸ h2⟩
  · rintro ⟨h21, h1, h2⟩
    have hlt : bandOf j < 360 := by
      have : lo (w.val + 1) ≤ 360 := by have := w.isLt; unfold lo; omega
      omega
    exact ⟨⟨bandOf j, hlt⟩, ⟨h1, h2⟩, h21, rfl⟩

theorem tileSet_disjoint {w w' : Fin 32} (h : w ≠ w') : Disjoint (tileSet w) (tileSet w') := by
  rw [Finset.disjoint_left]
  intro j hj hj'
  rw [mem_tileSet] at hj hj'
  have hne : w.val ≠ w'.val := fun e => h (Fin.ext e)
  rcases Nat.lt_or_gt_of_ne hne with hlt | hlt
  · have := lo_mono hlt; omega
  · have := lo_mono hlt; omega

/-- The channels the SparseCore kernel writes: 21 … 25. -/
def scSet : Finset S24x26x24x4096.Idx := Finset.univ.filter fun j => 21 ≤ (j 1).val

theorem exists_tile (q : ℕ) (hq : q < 360) : ∃ w : Fin 32, lo w.val ≤ q ∧ q < lo (w.val + 1) := by
  refine ⟨⟨(q * 32 + 31) / 360, by omega⟩, ?_, ?_⟩ <;> (unfold lo; dsimp only; omega)

theorem tiles_cover : (Finset.univ : Finset (Fin 32)).biUnion tileSet = scSet := by
  ext j
  simp only [Finset.mem_biUnion, Finset.mem_univ, true_and, mem_tileSet, scSet, Finset.mem_filter]
  constructor
  · rintro ⟨w, h, _⟩; exact h
  · intro h21
    have h0 : (j 0).val < 24 := (j 0).isLt
    have h1 : (j 1).val < 26 := (j 1).isLt
    have h2 : (j 2).val < 24 := (j 2).isLt
    have hlt : bandOf j < 360 := by unfold bandOf; omega
    obtain ⟨w, hw⟩ := exists_tile (bandOf j) hlt
    exact ⟨w, h21, hw⟩

/-- Subcore `i` of SparseCore `c` is subcore number `i · 2 + c`. -/
def wid (c : Fin 2) (i : Fin 16) : Fin 32 := ⟨i.val * 2 + c.val, by omega⟩

theorem wid_injective : Function.Injective fun p : Fin 2 × Fin 16 => wid p.1 p.2 := by
  rintro ⟨c, i⟩ ⟨c', i'⟩ e
  have := congrArg Fin.val e
  simp only [wid] at this
  have hc : c.val = c'.val := by omega
  have hi : i.val = i'.val := by omega
  exact Prod.ext (Fin.ext hc) (Fin.ext hi)

end Cert.Kernel.Hand

end
-- ==== Proof.K.Pay.lean ====
/-
  What the SparseCore call's handshakes carry.  The TensorCore hands each SparseCore a read share of the five source
  grids and the part of the kernel-layout array its sixteen subcores write; the sequencer hands each subcore a read share
  of the sources and the subcore's own bands; the subcore hands its bands back holding the source grids' rows, and so
  back to the TensorCore.
-/
import proofs.«206564_g5145370820828_cont_8to1c4_476_13_alg».proof.Proof.K.Bands
import proofs.«206564_g5145370820828_cont_8to1c4_476_13_alg».proof.Proof.Spec

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-- The kernel-layout array the SparseCore kernel writes, as the TensorCore names it. -/
abbrev oLoc (d : Dev nD) : Loc nD τ sig := (SparseCore.T d).loc main_v24

/-- The five source grids (each 576 × 4096), at contents `g`, each whole at the share `q`. -/
abbrev srcs (d : Dev nD) (q : PosShare TreeShare) (g : Fin 5 → FVec F S576x4096 .f32) : sProp 𝕄 :=
  iprop((((SparseCore.T d).loc main_v15 ↦{q} (g 0 : Buf (Elt F) ((SparseCore.T d).loc main_v15))))
    ∗ (((SparseCore.T d).loc main_v17 ↦{q} (g 1 : Buf (Elt F) ((SparseCore.T d).loc main_v17))))
    ∗ (((SparseCore.T d).loc main_v19 ↦{q} (g 2 : Buf (Elt F) ((SparseCore.T d).loc main_v19))))
    ∗ (((SparseCore.T d).loc main_v21 ↦{q} (g 3 : Buf (Elt F) ((SparseCore.T d).loc main_v21))))
    ∗ (((SparseCore.T d).loc main_v23 ↦{q} (g 4 : Buf (Elt F) ((SparseCore.T d).loc main_v23)))))

/-- What the SparseCore kernel leaves at an index of channels 21 … 25: the entry of source grid (channel − 21) at
    (row · 24 + column, batch). -/
def scVal (g : Fin 5 → FVec F S576x4096 .f32) (j : S24x26x24x4096.Idx) : F .f32 :=
  g ⟨((j 1).val - 21) % 5, Nat.mod_lt _ (by decide)⟩ (ix2 (Cert.Spec.hw (j 0) (j 2)) (j 3))

/-- SparseCore `c`'s share of a source, and subcore `i`'s share of that. -/
abbrev coreShare (c : Fin 2) : PosShare TreeShare := Transfers.shareTok fullShare 2 c
abbrev tileShare (c : Fin 2) (i : Fin 16) : PosShare TreeShare := Transfers.shareTok (coreShare c) 16 i

/-- The indices SparseCore `c`'s subcores write. -/
def coreSet (c : Fin 2) : Finset S24x26x24x4096.Idx := (Finset.univ : Finset (Fin 16)).biUnion fun i => tileSet (wid c i)

/-- A part `I` of the kernel-layout array at some contents that hold the source grids' rows. -/
def outDone (d : Dev nD) (g : Fin 5 → FVec F S576x4096 .f32) (I : Finset S24x26x24x4096.Idx) : sProp 𝕄 :=
  iprop(∃ f : Buf (Elt F) (oLoc d), ⌜∀ j ∈ I, f j = scVal g j⌝ ∗ (oLoc d ↦[I]{fullShare} f))

variable (g : Dev nD → Fin 5 → FVec F S576x4096 .f32) (f0 : (d : Dev nD) → Buf (Elt F) (oLoc d))

/-- The one call: sources' read shares and the destination parts out, the destination parts back at the sources' rows. -/
def P : (K (F := F)).Pay (nD := nD) (Val := Elt F) (Name := ℕ) (U := UU) where
  st := fun q d c => match q with
    | 0 => iprop(srcs d (coreShare (Fin.cast nCore_zero c)) (g d) ∗ oLoc d ↦[coreSet (Fin.cast nCore_zero c)]{fullShare} f0 d)
  dn := fun q d c => match q with
    | 0 => iprop(srcs d (coreShare (Fin.cast nCore_zero c)) (g d) ∗ outDone d (g d) (coreSet (Fin.cast nCore_zero c)))
  go := fun q d c i => match q with
    | 0 => iprop(srcs d (tileShare (Fin.cast nCore_zero c) (Fin.cast nSub_zero i)) (g d)
        ∗ oLoc d ↦[tileSet (wid (Fin.cast nCore_zero c) (Fin.cast nSub_zero i))]{fullShare} f0 d)
  td := fun q d c i => match q with
    | 0 => iprop(srcs d (tileShare (Fin.cast nCore_zero c) (Fin.cast nSub_zero i)) (g d)
        ∗ outDone d (g d) (tileSet (wid (Fin.cast nCore_zero c) (Fin.cast nSub_zero i))))
  x := fun _ _ => iprop(emp)

instance P_storable : (P (F := F) g f0).IsStorable where
  st q d c := match q with | 0 => by unfold P outDone; infer_instance
  dn q d c := match q with | 0 => by unfold P outDone; infer_instance
  go q d c i := match q with | 0 => by unfold P outDone; infer_instance
  td q d c i := match q with | 0 => by unfold P outDone; infer_instance

end Cert.Kernel.Hand

end
-- ==== Proof.K.Split.lean ====
/-
  Splitting what the SparseCore call carries: the five source grids' shares among the two SparseCores and among a
  SparseCore's sixteen subcores, the written channels of the kernel-layout array among the subcores' band sets, and the
  way back — shares rejoined, the band sets' contents joined into one array that holds the source grids' rows.
-/
import proofs.«206564_g5145370820828_cont_8to1c4_476_13_alg».proof.Proof.K.Pay

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable (d : Dev nD) (g : Fin 5 → FVec F S576x4096 .f32)

/-- The five sources at a share: the share less `n` read tokens, and the `n` tokens. -/
theorem srcs_split (q : PosShare TreeShare) (n : ℕ) :
    (srcs d q g : sProp 𝕄) ⊢ iprop(srcs d (Transfers.shareDrop q n) g ∗ bigSep Finset.univ fun i : Fin n => srcs d (Transfers.shareTok q n i) g) := by
  unfold srcs
  rw [bigSep_sep', bigSep_sep', bigSep_sep', bigSep_sep']
  iintro ⟨H0, H1, H2, H3, H4⟩
  ihave H0 := (Transfers.pointsTo_toks_split q n) $$ H0
  ihave H1 := (Transfers.pointsTo_toks_split q n) $$ H1
  ihave H2 := (Transfers.pointsTo_toks_split q n) $$ H2
  ihave H3 := (Transfers.pointsTo_toks_split q n) $$ H3
  ihave H4 := (Transfers.pointsTo_toks_split q n) $$ H4
  icases H0 with ⟨A0, B0⟩
  icases H1 with ⟨A1, B1⟩
  icases H2 with ⟨A2, B2⟩
  icases H3 with ⟨A3, B3⟩
  icases H4 with ⟨A4, B4⟩
  isplitl [A0 A1 A2 A3 A4]
  · isplitl [A0]; · iexact A0
    isplitl [A1]; · iexact A1
    isplitl [A2]; · iexact A2
    isplitl [A3]; · iexact A3
    iexact A4
  isplitl [B0]; · iexact B0
  isplitl [B1]; · iexact B1
  isplitl [B2]; · iexact B2
  isplitl [B3]; · iexact B3
  iexact B4

/-- and back. -/
theorem srcs_join (q : PosShare TreeShare) (n : ℕ) :
    iprop(srcs d (Transfers.shareDrop q n) g ∗ bigSep Finset.univ fun i : Fin n => srcs d (Transfers.shareTok q n i) g) ⊢ (srcs d q g : sProp 𝕄) := by
  unfold srcs
  rw [bigSep_sep', bigSep_sep', bigSep_sep', bigSep_sep']
  iintro ⟨⟨A0, A1, A2, A3, A4⟩, B0, B1, B2, B3, B4⟩
  isplitl [A0 B0]
  · iapply (Transfers.pointsTo_toks_join q n); isplitl [A0]; · iexact A0
    iexact B0
  isplitl [A1 B1]
  · iapply (Transfers.pointsTo_toks_join q n); isplitl [A1]; · iexact A1
    iexact B1
  isplitl [A2 B2]
  · iapply (Transfers.pointsTo_toks_join q n); isplitl [A2]; · iexact A2
    iexact B2
  isplitl [A3 B3]
  · iapply (Transfers.pointsTo_toks_join q n); isplitl [A3]; · iexact A3
    iexact B3
  iapply (Transfers.pointsTo_toks_join q n); isplitl [A4]; · iexact A4
  iexact B4

omit g in
/-- A SparseCore's part of the array is its sixteen subcores' parts. -/
theorem out_core_split (c : Fin 2) (f : Buf (Elt F) (oLoc d)) :
    (oLoc d ↦[coreSet c]{fullShare} f : sProp 𝕄) = bigSep Finset.univ fun i : Fin 16 => oLoc d ↦[tileSet (wid c i)]{fullShare} f := by
  unfold coreSet
  exact pointsTo_biUnion Finset.univ (ℓ := oLoc d) (fun i => tileSet (wid c i))
    (fun i _ i' _ h => tileSet_disjoint fun e => h (Prod.ext_iff.mp (wid_injective (a₁ := (c, i)) (a₂ := (c, i')) e)).2)

/-- Parts of the array that each hold the sources' rows, pairwise disjoint, are one part that does. -/
theorem outDone_join {T' : Type} [DecidableEq T'] (S' : Finset T') (Kf : T' → Finset S24x26x24x4096.Idx)
    (hd : ∀ t ∈ S', ∀ t' ∈ S', t ≠ t' → Disjoint (Kf t) (Kf t')) :
    (bigSep S' fun t => outDone d g (Kf t) : sProp 𝕄) ⊢ outDone d g (S'.biUnion Kf) := by
  unfold outDone
  haveI : Nonempty (Buf (Elt F) (oLoc d)) := ⟨fun j => scVal g j⟩
  refine (bigSep_exists_pi S' (fun t (f : Buf (Elt F) (oLoc d)) => iprop(⌜∀ j ∈ Kf t, f j = scVal g j⌝ ∗ (oLoc d ↦[Kf t]{fullShare} f)))).trans ?_
  iintro ⟨%fs, H⟩
  ihave H := (bigSep_pure_sep S' (fun t => ∀ j ∈ Kf t, fs t j = scVal g j) (fun t => (oLoc d ↦[Kf t]{fullShare} fs t : sProp 𝕄))) $$ H
  icases H with ⟨%hp, H⟩
  have f₀ : Buf (Elt F) (oLoc d) := fun j => scVal g j
  ihave H := (pointsTo_biUnion_join S' Kf fs f₀ hd) $$ H
  icases H with ⟨%gg, %hg, H⟩
  iexists gg
  isplitr
  · ipureintro
    intro j hj
    obtain ⟨t, ht, hjt⟩ := Finset.mem_biUnion.mp hj
    rw [hg t ht j hjt]; exact hp t ht j hjt
  · iexact H

end Cert.Kernel.Hand

end
-- ==== Proof.K.Call.lean ====
/-
  The SparseCore call seen from both ends: how a SparseCore's holding splits among its sixteen subcores and comes back
  (the launch theorem's splitting obligation), and how the TensorCore's holding of the five sources and of the
  kernel-layout array splits between the two SparseCores and comes back with channels 21 … 25 written.
-/
import proofs.«206564_g5145370820828_cont_8to1c4_476_13_alg».proof.Proof.K.Split

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable (g : Dev nD → Fin 5 → FVec F S576x4096 .f32) (f0 : (d : Dev nD) → Buf (Elt F) (oLoc d))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem tiles_of_core_disjoint (c : Fin 2) :
    ∀ i ∈ (Finset.univ : Finset (Fin 16)), ∀ i' ∈ (Finset.univ : Finset (Fin 16)), i ≠ i' → Disjoint (tileSet (wid c i)) (tileSet (wid c i')) :=
  fun i _ i' _ h => tileSet_disjoint fun e => h (Prod.ext_iff.mp (wid_injective (a₁ := (c, i)) (a₂ := (c, i')) e)).2

/-- The launch theorem's splitting obligation: a SparseCore's holding is its subcores' holdings and a remainder of the
    source shares; the subcores' results rejoin it. -/
theorem vecSplit : (K (F := F)).VecSplit' (P g f0) 0 := by
  intro d c
  show iprop(srcs d (coreShare (Fin.cast nCore_zero c)) (g d) ∗ oLoc d ↦[coreSet (Fin.cast nCore_zero c)]{fullShare} f0 d) ⊢ |={Set.univ}=> iprop(
      (bigSep Finset.univ fun i : Fin ((K (F := F)).nSub 0) =>
        iprop(srcs d (tileShare (Fin.cast nCore_zero c) (Fin.cast nSub_zero i)) (g d)
          ∗ oLoc d ↦[tileSet (wid (Fin.cast nCore_zero c) (Fin.cast nSub_zero i))]{fullShare} f0 d))
      ∗ ((bigSep Finset.univ fun i : Fin ((K (F := F)).nSub 0) =>
          iprop(srcs d (tileShare (Fin.cast nCore_zero c) (Fin.cast nSub_zero i)) (g d)
            ∗ outDone d (g d) (tileSet (wid (Fin.cast nCore_zero c) (Fin.cast nSub_zero i)))))
          -∗ iprop(srcs d (coreShare (Fin.cast nCore_zero c)) (g d) ∗ outDone d (g d) (coreSet (Fin.cast nCore_zero c)))))
  generalize Fin.cast nCore_zero c = cc
  rw [bigSep_tasks (F := F) (fun i => iprop(srcs d (tileShare cc i) (g d) ∗ oLoc d ↦[tileSet (wid cc i)]{fullShare} f0 d)),
    bigSep_tasks (F := F) (fun i => iprop(srcs d (tileShare cc i) (g d) ∗ outDone d (g d) (tileSet (wid cc i)))),
    bigSep_sep' _ (fun i => srcs d (tileShare cc i) (g d)) (fun i => (oLoc d ↦[tileSet (wid cc i)]{fullShare} f0 d : sProp 𝕄)),
    bigSep_sep' _ (fun i => srcs d (tileShare cc i) (g d)) (fun i => outDone d (g d) (tileSet (wid cc i))), out_core_split]
  iintro ⟨Hs, Ho⟩
  ihave Hs := (srcs_split d (g d) (coreShare cc) 16) $$ Hs
  icases Hs with ⟨Hrem, Htoks⟩
  imodintro
  isplitl [Htoks Ho]
  · isplitl [Htoks]; · iexact Htoks
    iexact Ho
  iintro ⟨Hs', Hd⟩
  isplitl [Hrem Hs']
  · iapply (srcs_join d (g d) (coreShare cc) 16)
    isplitl [Hrem]; · iexact Hrem
    iexact Hs'
  · unfold coreSet
    iapply (outDone_join d (g d) Finset.univ (fun i => tileSet (wid cc i)) (tiles_of_core_disjoint cc))
    iexact Hd

/-! ## The TensorCore's side -/

theorem coreSet_disjoint : ∀ c ∈ (Finset.univ : Finset (Fin 2)), ∀ c' ∈ (Finset.univ : Finset (Fin 2)), c ≠ c' → Disjoint (coreSet c) (coreSet c') := by
  intro c _ c' _ h
  unfold coreSet
  rw [Finset.disjoint_biUnion_left]
  intro i _
  rw [Finset.disjoint_biUnion_right]
  intro i' _
  exact tileSet_disjoint fun e => h (Prod.ext_iff.mp (wid_injective (a₁ := (c, i)) (a₂ := (c', i')) e)).1

theorem cores_cover : (Finset.univ : Finset (Fin 2)).biUnion coreSet = scSet := by
  rw [← tiles_cover]
  ext j
  simp only [coreSet, Finset.mem_biUnion, Finset.mem_univ, true_and]
  constructor
  · rintro ⟨c, i, h⟩; exact ⟨_, h⟩
  · rintro ⟨w, h⟩
    refine ⟨⟨w.val % 2, Nat.mod_lt _ (by decide)⟩, ⟨w.val / 2, by have := w.isLt; omega⟩, ?_⟩
    have e : wid ⟨w.val % 2, Nat.mod_lt _ (by decide)⟩ ⟨w.val / 2, by have := w.isLt; omega⟩ = w := Fin.ext (by simp only [wid]; omega)
    rw [e]; exact h

/-- What the call takes for the two SparseCores. -/
theorem st0_eq (d : Dev nD) : (bigSep Finset.univ fun c : Fin ((K (F := F)).nCore 0) => (P g f0).st 0 d c)
    = iprop((srcs d (coreShare 0) (g d) ∗ oLoc d ↦[coreSet 0]{fullShare} f0 d) ∗ (srcs d (coreShare 1) (g d) ∗ oLoc d ↦[coreSet 1]{fullShare} f0 d)) := by
  exact (bigSep_cores (F := F) (fun cc : Fin 2 => iprop(srcs d (coreShare cc) (g d) ∗ oLoc d ↦[coreSet cc]{fullShare} f0 d))).trans (bigSep_univ_two _)

/-- What it hands back. -/
theorem dn0_eq (d : Dev nD) : (bigSep Finset.univ fun c : Fin ((K (F := F)).nCore 0) => (P g f0).dn 0 d c)
    = iprop((srcs d (coreShare 0) (g d) ∗ outDone d (g d) (coreSet 0)) ∗ (srcs d (coreShare 1) (g d) ∗ outDone d (g d) (coreSet 1))) := by
  exact (bigSep_cores (F := F) (fun cc : Fin 2 => iprop(srcs d (coreShare cc) (g d) ∗ outDone d (g d) (coreSet cc)))).trans (bigSep_univ_two _)

/-- The kernel-layout array whole is the two SparseCores' parts and the channels the SparseCore kernel leaves alone. -/
theorem out_split (d : Dev nD) (f : Buf (Elt F) (oLoc d)) :
    (oLoc d ↦{fullShare} f : sProp 𝕄) ⊢ iprop((oLoc d ↦[coreSet 0]{fullShare} f) ∗ (oLoc d ↦[coreSet 1]{fullShare} f) ∗ (oLoc d ↦[Finset.univ \ scSet]{fullShare} f)) := by
  refine (pointsTo_split_subset (ℓ := oLoc d) (I := scSet) (S := Finset.univ) (Finset.subset_univ _)).1.trans ?_
  rw [← cores_cover, pointsTo_biUnion Finset.univ (ℓ := oLoc d) coreSet coreSet_disjoint, bigSep_univ_two]
  iintro ⟨⟨H0, H1⟩, H2⟩
  isplitl [H0]; · iexact H0
  isplitl [H1]; · iexact H1
  iexact H2

/-- and back: the array whole, its channels 21 … 25 holding the sources' rows. -/
theorem out_join (d : Dev nD) (f : Buf (Elt F) (oLoc d)) :
    iprop(outDone d (g d) (coreSet 0) ∗ outDone d (g d) (coreSet 1) ∗ (oLoc d ↦[Finset.univ \ scSet]{fullShare} f))
      ⊢ (iprop(∃ f' : Buf (Elt F) (oLoc d), ⌜∀ j ∈ scSet, f' j = scVal (g d) j⌝ ∗ (oLoc d ↦{fullShare} f')) : sProp 𝕄) := by
  iintro ⟨H0, H1, H2⟩
  ihave H := (outDone_join d (g d) Finset.univ coreSet coreSet_disjoint) $$ [H0 H1]
  · rw [bigSep_univ_two]; isplitl [H0]; · iexact H0
    iexact H1
  rw [cores_cover]
  unfold outDone
  icases H with ⟨%f1, %h1, H⟩
  ihave H := (pointsTo_join_subset (ℓ := oLoc d) (I := scSet) (S := Finset.univ) (g := f1) (f := f) (Finset.subset_univ _)) $$ [H H2]
  · isplitl [H]; · iexact H
    iexact H2
  iexists (scSet.piecewise f1 f)
  isplitr
  · ipureintro; intro j hj; rw [Finset.piecewise_eq_of_mem _ _ _ hj]; exact h1 j hj
  · iexact H

end Cert.Kernel.Hand

end
-- ==== Proof.K.Host.lean ====
/-
  The TensorCore's program around the two kernels: the twenty-four host operations that bring every input to the
  kernels' layout (a transpose that moves the batch axis last, then the two map axes merged), as a list, and the rest of
  the program after them.
-/
import proofs.«206564_g5145370820828_cont_8to1c4_476_13_alg».proof.Proof.K.Setup

noncomputable section

namespace Cert.Kernel.Hand

open Cert.Kernel Cert.Kernel.Gen
open Idealize.ShloMosaic Idealize.ShloMosaic.StableHlo
open Idealize.SL.Sem

variable {F : FTy → Type} [FloatOps F]

/-- The host operations before the SparseCore call, in order. -/
abbrev ops0 : List (HloOp τ sig (Elt F)) :=
  [ StableHlo.unary main_arg0 main_v0 ((transpose S24x24x4096 [1, 2, 0] · transposes_S4096x24x24_S24x24x4096_1_2_0) : (⟨S4096x24x24, .i32⟩ : BufTy).Contents (Elt F) → (⟨S24x24x4096, .i32⟩ : BufTy).Contents (Elt F)),
    StableHlo.reshape main_v0 main_v1 rfl shapeCasts_S24x24x4096_S576x4096,
    StableHlo.reshape main_arg1 main_v2 rfl shapeCasts_S4096_S1x4096,
    StableHlo.unary main_arg2 main_v3 ((transpose S10x4096 [1, 0] · transposes_S4096x10_S10x4096_1_0) : (⟨S4096x10, .f32⟩ : BufTy).Contents (Elt F) → (⟨S10x4096, .f32⟩ : BufTy).Contents (Elt F)),
    StableHlo.unary main_arg3 main_v4 ((transpose S24x24x4096 [1, 2, 0] · transposes_S4096x24x24_S24x24x4096_1_2_0) : (⟨S4096x24x24, .f32⟩ : BufTy).Contents (Elt F) → (⟨S24x24x4096, .f32⟩ : BufTy).Contents (Elt F)),
    StableHlo.reshape main_v4 main_v5 rfl shapeCasts_S24x24x4096_S576x4096,
    StableHlo.unary main_arg4 main_v6 ((transpose S24x24x4096 [1, 2, 0] · transposes_S4096x24x24_S24x24x4096_1_2_0) : (⟨S4096x24x24, .f32⟩ : BufTy).Contents (Elt F) → (⟨S24x24x4096, .f32⟩ : BufTy).Contents (Elt F)),
    StableHlo.reshape main_v6 main_v7 rfl shapeCasts_S24x24x4096_S576x4096,
    StableHlo.unary main_arg5 main_v8 ((transpose S24x24x4096 [1, 2, 0] · transposes_S4096x24x24_S24x24x4096_1_2_0) : (⟨S4096x24x24, .f32⟩ : BufTy).Contents (Elt F) → (⟨S24x24x4096, .f32⟩ : BufTy).Contents (Elt F)),
    StableHlo.reshape main_v8 main_v9 rfl shapeCasts_S24x24x4096_S576x4096,
    StableHlo.unary main_arg6 main_v10 ((transpose S24x24x4096 [1, 2, 0] · transposes_S4096x24x24_S24x24x4096_1_2_0) : (⟨S4096x24x24, .f32⟩ : BufTy).Contents (Elt F) → (⟨S24x24x4096, .f32⟩ : BufTy).Contents (Elt F)),
    StableHlo.reshape main_v10 main_v11 rfl shapeCasts_S24x24x4096_S576x4096,
    StableHlo.unary main_arg7 main_v12 ((transpose S24x24x4096 [1, 2, 0] · transposes_S4096x24x24_S24x24x4096_1_2_0) : (⟨S4096x24x24, .f32⟩ : BufTy).Contents (Elt F) → (⟨S24x24x4096, .f32⟩ : BufTy).Contents (Elt F)),
    StableHlo.reshape main_v12 main_v13 rfl shapeCasts_S24x24x4096_S576x4096,
    StableHlo.unary main_arg8 main_v14 ((transpose S24x24x4096 [1, 2, 0] · transposes_S4096x24x24_S24x24x4096_1_2_0) : (⟨S4096x24x24, .f32⟩ : BufTy).Contents (Elt F) → (⟨S24x24x4096, .f32⟩ : BufTy).Contents (Elt F)),
    StableHlo.reshape main_v14 main_v15 rfl shapeCasts_S24x24x4096_S576x4096,
    StableHlo.unary main_arg9 main_v16 ((transpose S24x24x4096 [1, 2, 0] · transposes_S4096x24x24_S24x24x4096_1_2_0) : (⟨S4096x24x24, .f32⟩ : BufTy).Contents (Elt F) → (⟨S24x24x4096, .f32⟩ : BufTy).Contents (Elt F)),
    StableHlo.reshape main_v16 main_v17 rfl shapeCasts_S24x24x4096_S576x4096,
    StableHlo.unary main_arg10 main_v18 ((transpose S24x24x4096 [1, 2, 0] · transposes_S4096x24x24_S24x24x4096_1_2_0) : (⟨S4096x24x24, .f32⟩ : BufTy).Contents (Elt F) → (⟨S24x24x4096, .f32⟩ : BufTy).Contents (Elt F)),
    StableHlo.reshape main_v18 main_v19 rfl shapeCasts_S24x24x4096_S576x4096,
    StableHlo.unary main_arg11 main_v20 ((transpose S24x24x4096 [1, 2, 0] · transposes_S4096x24x24_S24x24x4096_1_2_0) : (⟨S4096x24x24, .f32⟩ : BufTy).Contents (Elt F) → (⟨S24x24x4096, .f32⟩ : BufTy).Contents (Elt F)),
    StableHlo.reshape main_v20 main_v21 rfl shapeCasts_S24x24x4096_S576x4096,
    StableHlo.unary main_arg12 main_v22 ((transpose S24x24x4096 [1, 2, 0] · transposes_S4096x24x24_S24x24x4096_1_2_0) : (⟨S4096x24x24, .f32⟩ : BufTy).Contents (Elt F) → (⟨S24x24x4096, .f32⟩ : BufTy).Contents (Elt F)),
    StableHlo.reshape main_v22 main_v23 rfl shapeCasts_S24x24x4096_S576x4096 ]

/-- The copy of the SparseCore kernel's result into the TensorCore kernel's result buffer. -/
abbrev opCopy : HloOp τ sig (Elt F) := StableHlo.unary main_v24 main_v25 id

/-- The last operation: the batch axis to the front, the channel axis to the back. -/
abbrev opLast : HloOp τ sig (Elt F) := StableHlo.unary main_v25 main_v26 ((transpose S4096x24x24x26 [3, 0, 2, 1] · transposes_S24x26x24x4096_S4096x24x24x26_3_0_2_1) : (⟨S24x26x24x4096, .f32⟩ : BufTy).Contents (Elt F) → (⟨S4096x24x24x26, .f32⟩ : BufTy).Contents (Elt F))

/-- The program after the first twenty-four operations. -/
def mainTail (d : Dev nD) : Prog (TpuEff nD τ sig (Elt F) (SparseCore.Sig (ΛP (F := F)) 1) .tc) PUnit := do
  sc.run d 0
  hlo rfl opCopy (fun _ => .ret ⟨⟩)
  Prog.lift (.customCall (SparseCore.inner (Pipeline.entry 0)) ())
  hlo rfl opLast (fun _ => .ret ⟨⟩)
  pure ⟨⟩

theorem main_eq (d : Dev nD) : main (F := F) d = (seq ops0 >>= fun _ => mainTail d) := rfl

end Cert.Kernel.Hand

end
-- ==== Proof.K.Held.lean ====
/-
  The TensorCore's arrays as the host operations' rule holds them: all of them, whole, at a valuation; and the thirty the
  two kernels, the copy between them, the last transpose and the claim speak of, taken out one by one.
-/
import proofs.«206564_g5145370820828_cont_8to1c4_476_13_alg».proof.Proof.K.Split
import proofs.«206564_g5145370820828_cont_8to1c4_476_13_alg».proof.Proof.K.Host

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within held_sub_split held_congr wp_seq after)

variable {F : FTy → Type}

local notation "𝕄" => MT nD τ sig (HIx 1) (Elt F) ℕ UU ℕ

/-- A TensorCore reference as a device buffer. -/
abbrev dr (b : Ref sig .tc) : DevRef τ sig := Proc.devRef .tc b

/-- The TensorCore's unscoped references — its arrays in HBM — as device buffers. -/
def hbmRefs : Finset (DevRef τ sig) :=
  (Finset.univ.filter fun b : Ref sig .tc => ¬ b.isScoped).map ⟨Proc.devRef (sig := sig) (.tc : Proc τ), Proc.devRef_injective _⟩

theorem mem_hbm (b : Ref sig .tc) (h : b.isScoped = false := by decide) : dr b ∈ hbmRefs :=
  Finset.mem_map_of_mem _ (Finset.mem_filter.mpr ⟨Finset.mem_univ b, by simp [h]⟩)

/-- The launch's holding of the TensorCore's arrays is the host rule's, over those references. -/
theorem unscoped_held (d : Dev nD) (W : Valuation τ sig (Elt F)) :
    (unscopedBufs d (fun b => W (dr b)) : sProp 𝕄) = held (SparseCore.T d) hbmRefs W := by
  unfold unscopedBufs held hbmRefs
  rw [bigSep_map]; rfl

/-- An operation over two unscoped references touches only such. -/
theorem sub_of {op : HloOp τ sig (Elt F)} {x y : Ref sig .tc} (e : op.bufs = {dr x, dr y})
    (h1 : x.isScoped = false) (h2 : y.isScoped = false) : op.bufs ⊆ hbmRefs := by
  rw [e]; intro b hb
  rcases Finset.mem_insert.mp hb with rfl | hb
  · exact mem_hbm x h1
  · rw [Finset.mem_singleton] at hb; subst hb; exact mem_hbm y h2

variable [FloatOps F]

theorem ops0_sub : ∀ op ∈ (ops0 : List (HloOp τ sig (Elt F))), op.bufs ⊆ hbmRefs :=
  List.forall_iff_forall_mem.1 ⟨sub_of rfl rfl rfl, sub_of rfl rfl rfl, sub_of rfl rfl rfl, sub_of rfl rfl rfl, sub_of rfl rfl rfl, sub_of rfl rfl rfl, sub_of rfl rfl rfl, sub_of rfl rfl rfl, sub_of rfl rfl rfl, sub_of rfl rfl rfl, sub_of rfl rfl rfl, sub_of rfl rfl rfl, sub_of rfl rfl rfl, sub_of rfl rfl rfl, sub_of rfl rfl rfl, sub_of rfl rfl rfl, sub_of rfl rfl rfl, sub_of rfl rfl rfl, sub_of rfl rfl rfl, sub_of rfl rfl rfl, sub_of rfl rfl rfl, sub_of rfl rfl rfl, sub_of rfl rfl rfl, sub_of rfl rfl rfl⟩

/-- One array, whole, at what the valuation gives it. -/
abbrev pt (d : Dev nD) (W : Valuation τ sig (Elt F)) (b : Ref sig .tc) : sProp 𝕄 := (SparseCore.T d).loc b ↦{fullShare} W (dr b)

/-- The thirty arrays named after the host operations: the fourteen arguments, the nine operands of the TensorCore
    kernel that are computed, the five sources of the SparseCore kernel, its result, the TensorCore kernel's, the program's. -/
abbrev L30 : List (DevRef τ sig) := [dr main_arg0, dr main_arg1, dr main_arg2, dr main_arg3, dr main_arg4, dr main_arg5, dr main_arg6, dr main_arg7, dr main_arg8, dr main_arg9, dr main_arg10, dr main_arg11, dr main_arg12, dr main_arg13, dr main_v1, dr main_v2, dr main_v3, dr main_v5, dr main_v7, dr main_v9, dr main_v11, dr main_v13, dr main_v15, dr main_v17, dr main_v19, dr main_v21, dr main_v23, dr main_v24, dr main_v25, dr main_v26]
abbrev T30 : Finset (DevRef τ sig) := L30.toFinset

theorem L30_nodup : (L30 : List (DevRef τ sig)).Nodup := by decide

theorem T30_sub : (T30 : Finset (DevRef τ sig)) ⊆ hbmRefs := by
  intro b hb
  simp only [T30, L30, List.mem_toFinset, List.mem_cons, List.mem_nil_iff, or_false] at hb
  rcases hb with rfl | rfl | rfl | rfl | rfl | rfl | rfl | rfl | rfl | rfl | rfl | rfl | rfl | rfl | rfl | rfl | rfl | rfl | rfl | rfl | rfl | rfl | rfl | rfl | rfl | rfl | rfl | rfl | rfl | rfl <;> exact mem_hbm _

omit [FloatOps F] in
theorem held_T30 (d : Dev nD) (W : Valuation τ sig (Elt F)) :
    (held (SparseCore.T d) T30 W : sProp 𝕄) = iprop(pt d W main_arg0 ∗ pt d W main_arg1 ∗ pt d W main_arg2 ∗ pt d W main_arg3 ∗ pt d W main_arg4 ∗ pt d W main_arg5 ∗ pt d W main_arg6 ∗ pt d W main_arg7 ∗ pt d W main_arg8 ∗ pt d W main_arg9 ∗ pt d W main_arg10 ∗ pt d W main_arg11 ∗ pt d W main_arg12 ∗ pt d W main_arg13 ∗ pt d W main_v1 ∗ pt d W main_v2 ∗ pt d W main_v3 ∗ pt d W main_v5 ∗ pt d W main_v7 ∗ pt d W main_v9 ∗ pt d W main_v11 ∗ pt d W main_v13 ∗ pt d W main_v15 ∗ pt d W main_v17 ∗ pt d W main_v19 ∗ pt d W main_v21 ∗ pt d W main_v23 ∗ pt d W main_v24 ∗ pt d W main_v25 ∗ pt d W main_v26) := by
  unfold held T30
  rw [bigSep_eq_bigSepL _ L30_nodup]; rfl

end Cert.Kernel.Hand

end
-- ==== Proof.K.RegionSpec.lean ====
/-
  What the TensorCore kernel's region is asked to do, as the proof of the TensorCore's program uses it: from the ten
  arrays its windows stage (tile types, step counts, parameters, the first five grids, the table, and its result array)
  held whole, the region boundary, the pipeline's staging cells' ghost state and the thread's debts, it runs to its end
  and hands everything back, the result array's channels 0 … 20 rewritten and its channels 21 … 25 kept.
-/
import proofs.«206564_g5145370820828_cont_8to1c4_476_13_alg».proof.Proof.K.Held

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The first five grids, as the TensorCore kernel's windows name them, and any five more. -/
def gfam (W : Valuation τ sig (Elt F)) (g : Fin 5 → FVec F S576x4096 .f32) : Fin 10 → FVec F Cert.Spec.SG .f32 :=
  fun | 0 => W (dr main_v5) | 1 => W (dr main_v7) | 2 => W (dr main_v9) | 3 => W (dr main_v11) | 4 => W (dr main_v13)
      | 5 => g 0 | 6 => g 1 | 7 => g 2 | 8 => g 3 | 9 => g 4

/-- The result array after the region: channels below 21 are the kernels' function of the staged operands (its grid
    channels 16 … 20 among them never reach past the first five grids), the others are kept. -/
def tcOut (W : Valuation τ sig (Elt F)) (g : Fin 5 → FVec F S576x4096 .f32) : FVec F Cert.Spec.SK .f32 :=
  fun j => if (j 1).val < 21 then Cert.Spec.outK (W (dr main_v1)) (W (dr main_v2)) (W (dr main_v3)) (gfam W g) (W (dr main_arg13)) j else W (dr main_v25) j

/-- The thread's debts and recorded waits as the SparseCore launch keeps them before call `n`. -/
abbrev tcOwes (d : Dev nD) (n : ℕ) : sProp 𝕄 :=
  iprop(∃ Wt, ⌜(K (F := F)).WBelow (SparseCore.T d) Wt (8 * n)⌝ ∗ owes (SparseCore.T d) ((K (F := F)).Otc d n) Wt)

/-- The nine staged operands. -/
abbrev nine (d : Dev nD) (W : Valuation τ sig (Elt F)) : sProp 𝕄 :=
  iprop(pt d W main_v1 ∗ pt d W main_v2 ∗ pt d W main_v3 ∗ pt d W main_v5 ∗ pt d W main_v7 ∗ pt d W main_v9 ∗ pt d W main_v11 ∗ pt d W main_v13
    ∗ pt d W main_arg13)

variable [FloatOps F]

/-- The region's run, with the value of its result array. -/
def RegionSpec : Prop :=
  ∀ (d : Dev nD) (n : ℕ) (W : Valuation τ sig (Elt F)) (g : Fin 5 → FVec F S576x4096 .f32) (Φ : PUnit → sProp 𝕄),
    iprop(boundary (SparseCore.T d) ∗ levAts (K (F := F)).L (K (F := F)).lev
        ∗ (Pipeline.cellsGhost cfgs ER 0 d ∗ Pipeline.toksInit cfgs ER 0 d) ∗ tcOwes d n ∗ nine d W ∗ pt d W main_v25
        ∗ ((boundary (SparseCore.T d) ∗ tcOwes d n ∗ nine d W ∗ ((SparseCore.T d).loc main_v25 ↦{fullShare} (tcOut W g : Buf (Elt F) ((SparseCore.T d).loc main_v25)))) -∗ Φ ⟨⟩))
      ⊢ wp frame (wpE ((K (F := F)).defs (D (F := F))) 𝒱 (SparseCore.T d) none) Set.univ
          (Prog.lift (.customCall (SparseCore.inner (Pipeline.entry 0)) ())) Φ

/-- The same with the result array at contents not stated. -/
def RegionFrameSpec : Prop :=
  ∀ (d : Dev nD) (n : ℕ) (W : Valuation τ sig (Elt F)) (Φ : PUnit → sProp 𝕄),
    iprop(boundary (SparseCore.T d) ∗ levAts (K (F := F)).L (K (F := F)).lev
        ∗ (Pipeline.cellsGhost cfgs ER 0 d ∗ Pipeline.toksInit cfgs ER 0 d) ∗ tcOwes d n ∗ nine d W ∗ pt d W main_v25
        ∗ ((boundary (SparseCore.T d) ∗ tcOwes d n ∗ nine d W ∗ (∃ f, (SparseCore.T d).loc main_v25 ↦{fullShare} f)) -∗ Φ ⟨⟩))
      ⊢ wp frame (wpE ((K (F := F)).defs (D (F := F))) 𝒱 (SparseCore.T d) none) Set.univ
          (Prog.lift (.customCall (SparseCore.inner (Pipeline.entry 0)) ())) Φ

end Cert.Kernel.Hand

end
-- ==== Proof.K.Main.lean ====
/-
  The TensorCore's program, proved: the twenty-four host operations, the SparseCore call (the five sources' read shares
  and the written channels handed over and taken back), the copy of the result into the TensorCore kernel's result
  array, the TensorCore kernel's region, the last transpose.
-/
import proofs.«206564_g5145370820828_cont_8to1c4_476_13_alg».proof.Proof.K.Call
import proofs.«206564_g5145370820828_cont_8to1c4_476_13_alg».proof.Proof.K.RegionSpec

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within held_sub_split held_congr wp_seq after unary_result unary_result_ne reshape_result reshape_result_ne unary_bufs)

variable {F : FTy → Type}

local notation "𝕄" => MT nD τ sig (HIx 1) (Elt F) ℕ UU ℕ

variable (m : (ℓ : Loc nD τ sig) → Buf (Elt F) ℓ) (ρ : Dev nD → PrngReg)

/-- The launch contents, as a valuation. -/
abbrev V0 (d : Dev nD) : Valuation τ sig (Elt F) := fun b => m (d, b)

/-- Two arrays, whole. -/
theorem held_pair (d : Dev nD) (W : Valuation τ sig (Elt F)) (x y : Ref sig .tc) (h : dr x ≠ dr y) :
    (held (SparseCore.T d) {dr x, dr y} W : sProp 𝕄) = iprop(pt d W x ∗ pt d W y) := by
  unfold held
  rw [SparseCore.bigSep_insert' (by rw [Finset.mem_singleton]; exact h), bigSep_singleton]

variable [FloatOps F]

/-- The contents after the twenty-four host operations. -/
abbrev W1 (d : Dev nD) : Valuation τ sig (Elt F) := after ops0 (V0 m d)

/-- The SparseCore kernel's five sources at the call. -/
def gsrc (d : Dev nD) : Fin 5 → FVec F S576x4096 .f32 :=
  fun | 0 => W1 m d (dr main_v15) | 1 => W1 m d (dr main_v17) | 2 => W1 m d (dr main_v19) | 3 => W1 m d (dr main_v21) | 4 => W1 m d (dr main_v23)

/-- The payload of the one SparseCore call, at this launch. -/
abbrev PP : (K (F := F)).Pay (nD := nD) (Val := Elt F) (Name := ℕ) (U := UU) := P (gsrc m) (fun d => W1 m d (dr main_v24))

/-- The kernel-layout array after both kernels. -/
def out25 (d : Dev nD) : FVec F Cert.Spec.SK .f32 :=
  Cert.Spec.outK (W1 m d (dr main_v1)) (W1 m d (dr main_v2)) (W1 m d (dr main_v3)) (gfam (W1 m d) (gsrc m d)) (W1 m d (dr main_arg13))

/-- The program's result. -/
def out26 (d : Dev nD) : FVec F S4096x24x24x26 .f32 :=
  transpose S4096x24x24x26 [3, 0, 2, 1] (out25 m d) transposes_S24x26x24x4096_S4096x24x24x26_3_0_2_1

theorem ops0_fresh : ∀ op ∈ (ops0 : List (HloOp τ sig (Elt F))), op.fresh = ∅ := by
  intro _ h; (repeat (cases h with | head => rfl | tail _ h => ?_)); exact nomatch h

omit [FloatOps F] in
/-- The grids past the fifth are the SparseCore kernel's sources. -/
theorem gfam_high (W : Valuation τ sig (Elt F)) (g : Fin 5 → FVec F S576x4096 .f32) (a : Fin 5) (k : Fin 10) (h : k.val = a.val + 5) :
    gfam W g k = g a := by
  obtain ⟨kv, hkv⟩ := k
  dsimp only at h
  subst h
  match a with
  | ⟨0, _⟩ => rfl | ⟨1, _⟩ => rfl | ⟨2, _⟩ => rfl | ⟨3, _⟩ => rfl | ⟨4, _⟩ => rfl

/-- The region's result, from a result array whose channels 21 … 25 hold the sources' rows, is the kernels' function. -/
theorem tcOut_eq (d : Dev nD) (f24 : Buf (Elt F) (oLoc d)) (hf : ∀ j ∈ scSet, f24 j = scVal (gsrc m d) j) :
    tcOut (Function.update (W1 m d) (dr main_v25) f24) (gsrc m d) = out25 m d := by
  funext j
  unfold tcOut out25
  have hne : ∀ b : Ref sig .tc, dr b ≠ dr main_v25 → Function.update (W1 m d) (dr main_v25) f24 (dr b) = W1 m d (dr b) :=
    fun b hb => Function.update_of_ne hb _ _
  have hg : gfam (Function.update (W1 m d) (dr main_v25) f24) (gsrc m d) = gfam (W1 m d) (gsrc m d) := by
    funext k
    match k with
    | 0 => exact hne main_v5 (by decide) | 1 => exact hne main_v7 (by decide) | 2 => exact hne main_v9 (by decide)
    | 3 => exact hne main_v11 (by decide) | 4 => exact hne main_v13 (by decide)
    | 5 => rfl | 6 => rfl | 7 => rfl | 8 => rfl | 9 => rfl
  rw [hne main_v1 (by decide), hne main_v2 (by decide), hne main_v3 (by decide), hne main_arg13 (by decide), hg, Function.update_self]
  split
  · rfl
  · next h21 =>
    have hj : j ∈ scSet := by
      unfold scSet; rw [Finset.mem_filter]; exact ⟨Finset.mem_univ _, by omega⟩
    rw [hf j hj]
    have h26 : (j 1).val < 26 := (j 1).isLt
    unfold scVal Cert.Spec.outK
    rw [dif_neg (by omega), if_neg (by omega), dif_neg (by omega)]
    have e5 : ((j 1).val - 21) % 5 = (j 1).val - 21 := Nat.mod_eq_of_lt (by omega)
    exact (congrFun (gfam_high (W1 m d) (gsrc m d) ⟨((j 1).val - 21) % 5, Nat.mod_lt _ (by decide)⟩ ⟨(j 1).val - 16, by omega⟩
      (by show (j 1).val - 16 = ((j 1).val - 21) % 5 + 5; omega)) _).symm

/-! ## The host operations write none of the arguments -/

/-- The references the twenty-four host operations write. -/
abbrev Wl : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23]

omit [FloatOps F] in
theorem w_of {op : HloOp τ sig (Elt F)} {y : Ref sig .tc} (e : op.writes = {dr y}) (hy : y ∈ Wl) :
    op.writes ⊆ ((Wl.map (Proc.devRef (τ := τ) .tc)).toFinset : Finset (DevRef τ sig)) := by
  rw [e]; intro b hb
  rw [Finset.mem_singleton] at hb; subst hb
  exact List.mem_toFinset.mpr (List.mem_map_of_mem hy)

theorem ops0_writes : (ops0 : List (HloOp τ sig (Elt F))).Forall fun op => op.writes ⊆ ((Wl.map (Proc.devRef (τ := τ) .tc)).toFinset : Finset (DevRef τ sig)) :=
  ⟨w_of rfl (by decide), w_of rfl (by decide), w_of rfl (by decide), w_of rfl (by decide), w_of rfl (by decide), w_of rfl (by decide), w_of rfl (by decide), w_of rfl (by decide), w_of rfl (by decide), w_of rfl (by decide), w_of rfl (by decide), w_of rfl (by decide), w_of rfl (by decide), w_of rfl (by decide), w_of rfl (by decide), w_of rfl (by decide), w_of rfl (by decide), w_of rfl (by decide), w_of rfl (by decide), w_of rfl (by decide), w_of rfl (by decide), w_of rfl (by decide), w_of rfl (by decide), w_of rfl (by decide)⟩

/-- A reference the host operations do not write keeps its launch contents. -/
theorem W1_keep (d : Dev nD) (r : Ref sig .tc) (hr : r ∉ Wl) : W1 m d (dr r) = m ((SparseCore.T d).loc r) :=
  StableHlo.after_of_writes_sub ops0 (V0 m d) ops0_writes hr

end Cert.Kernel.Hand

end
-- ==== Proof.K.TcMain.lean ====
/-
  The TensorCore's program run: from what the launch deals the TensorCore to the claim's holdings.
-/
import proofs.«206564_g5145370820828_cont_8to1c4_476_13_alg».proof.Proof.K.Main

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within held_sub_split held_congr wp_seq after unary_result unary_result_ne reshape_result reshape_result_ne unary_bufs)

variable {F : FTy → Type}

local notation "𝕄" => MT nD τ sig (HIx 1) (Elt F) ℕ UU ℕ

variable (m : (ℓ : Loc nD τ sig) → Buf (Elt F) ℓ) (ρ : Dev nD → PrngReg) [FloatOps F]

/-- The pipeline's staging cells' ghost state and duty tokens on a device: what the launch funds the region with. -/
abbrev Gp (d : Dev nD) : sProp 𝕄 := iprop(Pipeline.cellsGhost cfgs ER 0 d ∗ Pipeline.toksInit cfgs ER 0 d)

/-- What the TensorCore's program leaves for the claim: the fourteen arguments as the host operations left them (they
    write none of them), and the result. -/
abbrev FIN (d : Dev nD) : sProp 𝕄 :=
  iprop(pt d (W1 m d) main_arg0 ∗ pt d (W1 m d) main_arg1 ∗ pt d (W1 m d) main_arg2 ∗ pt d (W1 m d) main_arg3 ∗ pt d (W1 m d) main_arg4 ∗ pt d (W1 m d) main_arg5 ∗ pt d (W1 m d) main_arg6 ∗ pt d (W1 m d) main_arg7 ∗ pt d (W1 m d) main_arg8 ∗ pt d (W1 m d) main_arg9 ∗ pt d (W1 m d) main_arg10 ∗ pt d (W1 m d) main_arg11 ∗ pt d (W1 m d) main_arg12 ∗ pt d (W1 m d) main_arg13
    ∗ ((SparseCore.T d).loc main_v26 ↦{fullShare} (out26 m d : Buf (Elt F) ((SparseCore.T d).loc main_v26))))

omit [FloatOps F] in
/-- The nine staged operands do not see a new result array. -/
theorem nine_update (d : Dev nD) (W : Valuation τ sig (Elt F)) (f : (dr main_v25).ty.Contents (Elt F)) :
    (nine d (Function.update W (dr main_v25) f) : sProp 𝕄) = nine d W := by
  unfold nine pt
  rw [Function.update_of_ne (show dr main_v1 ≠ dr main_v25 by decide),
    Function.update_of_ne (show dr main_v2 ≠ dr main_v25 by decide),
    Function.update_of_ne (show dr main_v3 ≠ dr main_v25 by decide),
    Function.update_of_ne (show dr main_v5 ≠ dr main_v25 by decide),
    Function.update_of_ne (show dr main_v7 ≠ dr main_v25 by decide),
    Function.update_of_ne (show dr main_v9 ≠ dr main_v25 by decide),
    Function.update_of_ne (show dr main_v11 ≠ dr main_v25 by decide),
    Function.update_of_ne (show dr main_v13 ≠ dr main_v25 by decide),
    Function.update_of_ne (show dr main_arg13 ≠ dr main_v25 by decide)]

set_option backward.isDefEq.respectTransparency.types false in
set_option maxHeartbeats 1600000 in
theorem hmain (hreg : RegionSpec (F := F)) (κ : GSem nD τ sig → ℕ) (d : Dev nD) :
    iprop((K (F := F)).ctx EH (PP m) κ ∗ (K (F := F)).tcSt EH d 0 ∗ (K (F := F)).tcRes m ρ d ∗ Gp d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d).loc b)) : sProp 𝕄) = held (SparseCore.T d) hbmRefs (V0 m d) from unscoped_held d (V0 m d), main_eq]
  iintro ⟨#Hctx, Hst, ⟨Hb, Hheld, -, -⟩, Hcg⟩
  iapply (wp_seq 𝒱 none Set.univ d hbmRefs (fun _ => mainTail d) ops0 ops0_sub ops0_fresh (V0 m d)) $$ [Hb Hheld]
  · isplitl [Hb]; · iexact Hb
    iexact Hheld
  iintro ⟨Hb, Hheld⟩
  ihave Hh := (Entails.of_eq (held_sub_split (SparseCore.T d) T30_sub (W1 m d))) $$ Hheld
  icases Hh with ⟨H30, -⟩
  ihave H30 := (Entails.of_eq (held_T30 d (W1 m d))) $$ H30
  icases H30 with ⟨Harg0, Harg1, Harg2, Harg3, Harg4, Harg5, Harg6, Harg7, Harg8, Harg9, Harg10, Harg11, Harg12, Harg13, Hv1, Hv2, Hv3, Hv5, Hv7, Hv9, Hv11, Hv13, Hv15, Hv17, Hv19, Hv21, Hv23, Hv24, Hv25, Hv26⟩
  unfold mainTail
  simp only [wp_bind]
  -- the SparseCore call: the written channels and the sources' read shares out, and back
  ihave Ho := (out_split d (W1 m d (dr main_v24))) $$ Hv24
  icases Ho with ⟨Ho0, Ho1, Horest⟩
  ihave Hs := (srcs_split d (gsrc m d) fullShare 2) $$ [Hv15 Hv17 Hv19 Hv21 Hv23]
  · isplitl [Hv15]; · iexact Hv15
    isplitl [Hv17]; · iexact Hv17
    isplitl [Hv19]; · iexact Hv19
    isplitl [Hv21]; · iexact Hv21
    iexact Hv23
  icases Hs with ⟨-, Hstoks⟩
  ihave Hstoks := (Entails.of_eq (bigSep_univ_two _)) $$ Hstoks
  icases Hstoks with ⟨Hs0, Hs1⟩
  iapply ((K (F := F)).wp_run (D (F := F)) 𝒱 (EH := EH) (P := PP m) κ d 0) $$ [Hst Hb Hcg Hs0 Hs1 Ho0 Ho1 Horest Harg0 Harg1 Harg2 Harg3 Harg4 Harg5 Harg6 Harg7 Harg8 Harg9 Harg10 Harg11 Harg12 Harg13 Hv1 Hv2 Hv3 Hv5 Hv7 Hv9 Hv11 Hv13 Hv25 Hv26]
  isplitr; · iexact Hctx
  isplitl [Hst]; · iexact Hst
  isplitl [Hs0 Hs1 Ho0 Ho1]
  · rw [st0_eq]
    isplitl [Hs0 Ho0]
    · isplitl [Hs0]; · iexact Hs0
      iexact Ho0
    · isplitl [Hs1]; · iexact Hs1
      iexact Ho1
  iintro ⟨Hst, Hdn⟩
  ihave Hdn := (Entails.of_eq (dn0_eq (gsrc m) (fun d => W1 m d (dr main_v24)) d)) $$ Hdn
  icases Hdn with ⟨⟨-, Hd0⟩, -, Hd1⟩
  ihave Ho := (out_join (gsrc m) d (W1 m d (dr main_v24))) $$ [Hd0 Hd1 Horest]
  · isplitl [Hd0]; · iexact Hd0
    isplitl [Hd1]; · iexact Hd1
    iexact Horest
  icases Ho with ⟨%f24, %hf24, Hv24⟩
  -- the copy into the TensorCore kernel's result array
  have e25 : (opCopy (F := F)).result (Function.update (W1 m d) (dr main_v24) f24) (dr main_v25)
      = Function.update (W1 m d) (dr main_v25) f24 (dr main_v25) := by
    rw [Function.update_self, unary_result, Function.update_self]; rfl
  iapply (wp_hlo_within 𝒱 (SparseCore.T d) none Set.univ (op := opCopy) (S := {dr main_v24, dr main_v25}) (Finset.Subset.refl _)
      (V := Function.update (W1 m d) (dr main_v24) f24)) $$ [Hb Hv24 Hv25]
  · isplitl [Hb]; · iexact Hb
    rw [held_pair d _ main_v24 main_v25 (by decide)]
    unfold pt
    rw [Function.update_self, Function.update_of_ne (show dr main_v25 ≠ dr main_v24 by decide)]
    isplitl [Hv24]; · iexact Hv24
    iexact Hv25
  iintro ⟨Hb, Hheld⟩
  rw [wp_ret]; imodintro
  ihave Hh := (Entails.of_eq (held_pair d _ main_v24 main_v25 (by decide))) $$ Hheld
  icases Hh with ⟨-, Hv25⟩
  -- the TensorCore kernel's region
  unfold SparseCore.Cfg.tcSt
  icases Hst with ⟨Howes, Hrest⟩
  iapply (hreg d 1 (Function.update (W1 m d) (dr main_v25) f24) (gsrc m d) _) $$ [Hb Hcg Howes Hrest Hv25 Hv26 Harg0 Harg1 Harg2 Harg3 Harg4 Harg5 Harg6 Harg7 Harg8 Harg9 Harg10 Harg11 Harg12 Harg13 Hv1 Hv2 Hv3 Hv5 Hv7 Hv9 Hv11 Hv13]
  isplitl [Hb]; · iexact Hb
  isplitr; · iapply (SparseCore.Cfg.ctx_levAts κ); iexact Hctx
  isplitl [Hcg]; · iexact Hcg
  isplitl [Howes]; · iexact Howes
  isplitl [Hv1 Hv2 Hv3 Hv5 Hv7 Hv9 Hv11 Hv13 Harg13]
  · rw [nine_update]
    isplitl [Hv1]; · iexact Hv1
    isplitl [Hv2]; · iexact Hv2
    isplitl [Hv3]; · iexact Hv3
    isplitl [Hv5]; · iexact Hv5
    isplitl [Hv7]; · iexact Hv7
    isplitl [Hv9]; · iexact Hv9
    isplitl [Hv11]; · iexact Hv11
    isplitl [Hv13]; · iexact Hv13
    iexact Harg13
  isplitl [Hv25]
  · unfold pt; rw [← e25]; iexact Hv25
  iintro ⟨Hb, Howes, Hnine, Hv25⟩
  ihave Hnine := (Entails.of_eq (nine_update d (W1 m d) f24)) $$ Hnine
  ihave Hv25 := (Entails.of_eq (congrArg (fun f : Buf (Elt F) ((SparseCore.T d).loc main_v25) => ((SparseCore.T d).loc main_v25 ↦{fullShare} f : sProp 𝕄)) (tcOut_eq m d f24 hf24))) $$ Hv25
  icases Hnine with ⟨Hv1, Hv2, Hv3, Hv5, Hv7, Hv9, Hv11, Hv13, Harg13⟩
  -- the last transpose
  have e26 : (opLast (F := F)).result (Function.update (W1 m d) (dr main_v25) (out25 m d)) (dr main_v26) = out26 m d := by
    rw [unary_result, Function.update_self]; rfl
  iapply (wp_hlo_within 𝒱 (SparseCore.T d) none Set.univ (op := opLast) (S := {dr main_v25, dr main_v26}) (Finset.Subset.refl _)
      (V := Function.update (W1 m d) (dr main_v25) (out25 m d))) $$ [Hb Hv25 Hv26]
  · isplitl [Hb]; · iexact Hb
    rw [held_pair d _ main_v25 main_v26 (by decide)]
    unfold pt
    rw [Function.update_self, Function.update_of_ne (show dr main_v26 ≠ dr main_v25 by decide)]
    isplitl [Hv25]; · iexact Hv25
    iexact Hv26
  iintro ⟨Hb, Hheld⟩
  rw [wp_ret]; imodintro
  ihave Hh := (Entails.of_eq (held_pair d _ main_v25 main_v26 (by decide))) $$ Hheld
  icases Hh with ⟨-, Hv26⟩
  rw [wp_pure]; imodintro
  isplitl [Howes Hrest]
  · isplitl [Howes]; · iexact Howes
    iexact Hrest
  isplitl [Harg0]; · iexact Harg0
  isplitl [Harg1]; · iexact Harg1
  isplitl [Harg2]; · iexact Harg2
  isplitl [Harg3]; · iexact Harg3
  isplitl [Harg4]; · iexact Harg4
  isplitl [Harg5]; · iexact Harg5
  isplitl [Harg6]; · iexact Harg6
  isplitl [Harg7]; · iexact Harg7
  isplitl [Harg8]; · iexact Harg8
  isplitl [Harg9]; · iexact Harg9
  isplitl [Harg10]; · iexact Harg10
  isplitl [Harg11]; · iexact Harg11
  isplitl [Harg12]; · iexact Harg12
  isplitl [Harg13]; · iexact Harg13
  unfold pt; rw [e26]; iexact Hv26

end Cert.Kernel.Hand

end
-- ==== Proof.K.Launch.lean ====
/-
  The launch: the ghost state's launch element, how the final memory reads the claim, and the program's run.
-/
import proofs.«206564_g5145370820828_cont_8to1c4_476_13_alg».proof.Proof.K.TcMain
import proofs.«206564_g5145370820828_cont_8to1c4_476_13_alg».proof.Proof.Gen.Kernel.Launch

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within held_sub_split held_congr wp_seq after unary_result unary_result_ne reshape_result reshape_result_ne unary_bufs)

variable {F : FTy → Type}

local notation "𝕄" => MT nD τ sig (HIx 1) (Elt F) ℕ UU ℕ

variable (m : (ℓ : Loc nD τ sig) → Buf (Elt F) ℓ) (ρ : Dev nD → PrngReg) [FloatOps F]

/-! ## The launch element -/

/-- The ghost state at launch: the handshake cells' rounds, the pipeline's staging cells' rounds, no counter. -/
def u₀ : UU := (initOf (K (F := F)).hsCells (K (F := F)).hsToks, (initOf (Pipeline.cells cfgs Gen.cellOf_inj) (Pipeline.launchToks cfgs Gen.cellOf_inj), 1))

omit [FloatOps F] in
theorem bigSep_emp' {I : Type} (s : Finset I) : (bigSep s fun _ => iprop(emp)) = (iprop(emp) : sProp 𝕄) := bigSep_emp_const s

omit [FloatOps F] in
theorem bigSep_fin1 (Φ : Fin 1 → sProp 𝕄) : bigSep Finset.univ Φ = Φ 0 := by
  rw [show (Finset.univ : Finset (Fin 1)) = {0} by decide, bigSep_singleton]

theorem hu₀ : (ownU (u₀ (F := F)) : sProp 𝕄)
    ⊢ |={Set.univ}=> iprop(BI.own (EH (initOf (K (F := F)).hsCells (K (F := F)).hsToks)) ∗ (bigSep Finset.univ fun d : Dev nD => Gp (F := F) d)
        ∗ bigSep Finset.univ fun thr : Thread nD τ => bigSep Finset.univ fun q : Fin 1 => (PP m).x q thr) := by
  unfold u₀
  iintro Hu
  ihave H := (ownU_pair _ _) $$ Hu
  icases H with ⟨HH, HR⟩
  have hsplit : (BI.own ((embR : Emb (UR sig nD τ × Counters) 𝕄) (initOf (Pipeline.cells cfgs Gen.cellOf_inj) (Pipeline.launchToks cfgs Gen.cellOf_inj), (1 : Counters))) : sProp 𝕄)
      ⊢ iprop(BI.own ((ER : Emb (UR sig nD τ) 𝕄) (initOf (Pipeline.cells cfgs Gen.cellOf_inj) (Pipeline.launchToks cfgs Gen.cellOf_inj)))
          ∗ BI.own (((Emb.inr : Emb Counters (UR sig nD τ × Counters)).trans embR) (1 : Counters))) := by unfold ER; exact own_pair_emb (A := UR sig nD τ) (B := Counters) (M' := MT nD τ sig (HIx 1) (Elt F) ℕ UU ℕ) embR _ _
  ihave HR := hsplit $$ HR
  icases HR with ⟨HP, -⟩
  imod (Pipeline.fund_ghost (Ix := HIx 1) (Val := Elt F) (Name := ℕ) (U := UU) (Lvl := ℕ) cfgs ER Gen.cellOf_inj) $$ HP with ⟨Hg, Ht⟩
  imodintro
  isplitl [HH]; · iexact HH
  isplitl [Hg Ht]
  · rw [bigSep_sep']
    isplitl [Hg]
    · ihave Hg := (Entails.of_eq (bigSep_congr fun d _ => bigSep_fin1 (fun p => Pipeline.cellsGhost cfgs ER p d))) $$ Hg
      iexact Hg
    · ihave Ht := (Entails.of_eq (bigSep_congr fun d _ => bigSep_fin1 (fun p => (Pipeline.toksInit cfgs ER p d : sProp 𝕄)))) $$ Ht
      iexact Ht
  have hx : (bigSep Finset.univ fun thr : Thread nD τ => bigSep Finset.univ fun q : Fin 1 => (PP m).x q thr) = (iprop(emp) : sProp 𝕄) := by
    rw [show (fun thr : Thread nD τ => bigSep Finset.univ fun q : Fin 1 => (PP m).x q thr) = fun _ => (iprop(emp) : sProp 𝕄) from
      funext fun _ => bigSep_emp' _, bigSep_emp']
  rw [hx]; iempintro

/-! ## Reading the claim off the final memory -/

/-- What the final memory must show on device `d`. -/
def fq (d : Dev nD) (s' : Phys nD τ sig (Elt F)) : Prop :=
  s'.mem.mem ((SparseCore.T d).loc main_v26) = out26 m d
    ∧ s'.mem.mem ((SparseCore.T d).loc main_arg0) = W1 m d (dr main_arg0)
    ∧ s'.mem.mem ((SparseCore.T d).loc main_arg1) = W1 m d (dr main_arg1)
    ∧ s'.mem.mem ((SparseCore.T d).loc main_arg2) = W1 m d (dr main_arg2)
    ∧ s'.mem.mem ((SparseCore.T d).loc main_arg3) = W1 m d (dr main_arg3)
    ∧ s'.mem.mem ((SparseCore.T d).loc main_arg4) = W1 m d (dr main_arg4)
    ∧ s'.mem.mem ((SparseCore.T d).loc main_arg5) = W1 m d (dr main_arg5)
    ∧ s'.mem.mem ((SparseCore.T d).loc main_arg6) = W1 m d (dr main_arg6)
    ∧ s'.mem.mem ((SparseCore.T d).loc main_arg7) = W1 m d (dr main_arg7)
    ∧ s'.mem.mem ((SparseCore.T d).loc main_arg8) = W1 m d (dr main_arg8)
    ∧ s'.mem.mem ((SparseCore.T d).loc main_arg9) = W1 m d (dr main_arg9)
    ∧ s'.mem.mem ((SparseCore.T d).loc main_arg10) = W1 m d (dr main_arg10)
    ∧ s'.mem.mem ((SparseCore.T d).loc main_arg11) = W1 m d (dr main_arg11)
    ∧ s'.mem.mem ((SparseCore.T d).loc main_arg12) = W1 m d (dr main_arg12)
    ∧ s'.mem.mem ((SparseCore.T d).loc main_arg13) = W1 m d (dr main_arg13)

theorem hfin (d : Dev nD) (s' : Phys nD τ sig (Elt F)) : iprop(FIN m d ∗ SI s') ⊢ (⌜fq m d s'⌝ : sProp 𝕄) := by
  iintro ⟨⟨Harg0, Harg1, Harg2, Harg3, Harg4, Harg5, Harg6, Harg7, Harg8, Harg9, Harg10, Harg11, Harg12, Harg13, Hv26⟩, HSI⟩
  icombine HSI Harg0 gives %h0
  icombine HSI Harg1 gives %h1
  icombine HSI Harg2 gives %h2
  icombine HSI Harg3 gives %h3
  icombine HSI Harg4 gives %h4
  icombine HSI Harg5 gives %h5
  icombine HSI Harg6 gives %h6
  icombine HSI Harg7 gives %h7
  icombine HSI Harg8 gives %h8
  icombine HSI Harg9 gives %h9
  icombine HSI Harg10 gives %h10
  icombine HSI Harg11 gives %h11
  icombine HSI Harg12 gives %h12
  icombine HSI Harg13 gives %h13
  icombine HSI Hv26 gives %hv
  ipureintro
  exact ⟨funext fun i => hv i (Finset.mem_univ i), funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i), funext fun i => h6 i (Finset.mem_univ i), funext fun i => h7 i (Finset.mem_univ i), funext fun i => h8 i (Finset.mem_univ i), funext fun i => h9 i (Finset.mem_univ i), funext fun i => h10 i (Finset.mem_univ i), funext fun i => h11 i (Finset.mem_univ i), funext fun i => h12 i (Finset.mem_univ i), funext fun i => h13 i (Finset.mem_univ i)⟩

/-! ## The program's run -/

/-- The run's post: the result at the kernels' function of the arguments, the arguments unchanged. -/
def QC : PUnit × MemSt nD τ sig (Elt F) → Prop := fun r => ∀ c : Dev nD,
  r.2.mem ((c.tc : Thread nD τ).loc main_v26) = out26 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)

theorem hQ (s' : Phys nD τ sig (Elt F)) (h : ∀ d, fq m d s') : QC m (⟨⟩, s'.mem) := by
  intro c
  obtain ⟨hv, h0, h1, h2, h3, h4, h5, h6, h7, h8, h9, h10, h11, h12, h13⟩ := h c
  exact ⟨hv, h0.trans (W1_keep m c main_arg0 (by decide)), h1.trans (W1_keep m c main_arg1 (by decide)), h2.trans (W1_keep m c main_arg2 (by decide)), h3.trans (W1_keep m c main_arg3 (by decide)), h4.trans (W1_keep m c main_arg4 (by decide)), h5.trans (W1_keep m c main_arg5 (by decide)), h6.trans (W1_keep m c main_arg6 (by decide)), h7.trans (W1_keep m c main_arg7 (by decide)), h8.trans (W1_keep m c main_arg8 (by decide)), h9.trans (W1_keep m c main_arg9 (by decide)), h10.trans (W1_keep m c main_arg10 (by decide)), h11.trans (W1_keep m c main_arg11 (by decide)), h12.trans (W1_keep m c main_arg12 (by decide)), h13.trans (W1_keep m c main_arg13 (by decide))⟩

/-- Every weakly fair execution of the program's threads terminates, nothing faulting, with the result at the kernels'
    function of the arguments and the arguments unchanged — given the vector subcores' task and the TensorCore region. -/
theorem run_main [∀ e, Nonempty (Elt F e)] (hreg : RegionSpec (F := F)) (htile : (K (F := F)).TileObl (D (F := F)) 𝒱 (PP m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => htile)
    (fun q _ => match q with | 0 => SparseCore.Cfg.VecSplit.of_plain (vecSplit (gsrc m) (fun d => W1 m d (dr main_v24))))
    m ρ main (fun d => Gp (F := F) d) (FIN m) (u₀ (F := F)) (sep_elim_left.trans (hu₀ m)) (hmain m ρ hreg) (fq m) (hfin m) (QC m) (hQ m)

end Cert.Kernel.Hand

end
-- ==== Proof.KI.ScBase.lean ====
import proofs.«206564_g5145370820828_cont_8to1c4_476_13_alg».proof.Proof.KI.Pay

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## The vector subcore's thread and coordinates -/

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- The subcore's number among the 32. -/
def widL (L : grid0.Coords) : Fin 32 := ⟨(L 1).val * 2 + (L 0).val, by
  have h0 : (L 0).val < 2 := (L 0).isLt
  have h1 : (L 1).val < 16 := (L 1).isLt
  omega⟩

theorem defs₀_vector [FloatOps F] (c : Fin τ.nSC) (s : Fin τ.nSub) :
    defs₀ (F := F) (.scVector c s) 0 ()
      = SparseCore.onTile hcore0 hsub0 (fun c s => cc0_sc_body (coordsV c s) (Memref.whole main_v15_scv) (Memref.isWhole_whole _) (Memref.whole main_v17_scv) (Memref.isWhole_whole _) (Memref.whole main_v19_scv) (Memref.isWhole_whole _) (Memref.whole main_v21_scv) (Memref.isWhole_whole _) (Memref.whole main_v23_scv) (Memref.isWhole_whole _) (Memref.whole main_v24_scv) (Memref.isWhole_whole _) (Memref.whole cc0_scratch0) (Memref.isWhole_whole _) (Memref.whole cc0_scratch1) (Memref.isWhole_whole _) cc0_scratch2 cc0_scratch3 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.KernelIdeal.Hand

end
-- ==== Proof.KI.ScSets.lean ====
import proofs.«206564_g5145370820828_cont_8to1c4_476_13_alg».proof.Proof.KI.ScBase

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## The bands as ranges of band numbers

An index of channels 21 … 25 lies in exactly one band, number `bandOf`; a run of consecutive bands is the set of
indices whose band number lies in a range. -/

/-- The indices of channels 21 … 25 whose band number lies in `[a, b)`. -/
def rng (a b : ℕ) : Finset S24x26x24x4096.Idx :=
  Finset.univ.filter fun j => 21 ≤ (j 1).val ∧ a ≤ bandOf j ∧ bandOf j < b

theorem mem_rng {a b : ℕ} {j : S24x26x24x4096.Idx} : j ∈ rng a b ↔ (21 ≤ (j 1).val ∧ a ≤ bandOf j ∧ bandOf j < b) := by
  simp [rng]

theorem rng_empty {a b : ℕ} (h : b ≤ a) : rng a b = ∅ := by
  ext j; rw [mem_rng]; constructor
  · intro h'; omega
  · intro h'; exact absurd h' (Finset.notMem_empty _)

theorem rng_union {a b c : ℕ} (h1 : a ≤ b) (h2 : b ≤ c) : rng a b ∪ rng b c = rng a c := by
  ext j; simp only [Finset.mem_union, mem_rng]; omega

theorem rng_disjoint {a b c : ℕ} : Disjoint (rng a b) (rng b c) := by
  rw [Finset.disjoint_left]; intro j h1 h2; rw [mem_rng] at h1 h2; omega

theorem bandSet_eq_rng (q : Fin 360) : bandSet q = rng q.val (q.val + 1) := by
  ext j; rw [mem_bandSet_iff, mem_rng]; omega

theorem tileSet_eq_rng (w : Fin 32) : tileSet w = rng (lo w.val) (lo (w.val + 1)) := by
  ext j; rw [mem_tileSet, mem_rng]

variable (d : Dev nD)

/-- A run of bands held at one contents splits at any band number inside it. -/
theorem pts_rng (q : PosShare TreeShare) (f : Buf (Elt F) (oLoc d)) {a b c : ℕ} (h1 : a ≤ b) (h2 : b ≤ c) :
    (oLoc d ↦[rng a c]{q} f : sProp 𝕄) ⊣⊢ iprop((oLoc d ↦[rng a b]{q} f) ∗ oLoc d ↦[rng b c]{q} f) := by
  rw [← rng_union h1 h2]; exact pointsTo_union rng_disjoint

end Cert.KernelIdeal.Hand

end
-- ==== Proof.KI.ScForms.lean ====
import proofs.«206564_g5145370820828_cont_8to1c4_476_13_alg».proof.Proof.KI.ScBase

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## Where each loop stands among the subcore's bands

The kernel's ten printed loops walk the subcore's bands in order: loop `2 gi + 1` the bands of grid `gi`, from `pos gi`
to `pos (gi + 1)`. The printed offset chains and conditions, in closed form over the band's number. -/

/-- The subcore's first band and the one after its last. -/
def loL (L : grid0.Coords) : ℕ := lo (widL L).val
def hiL (L : grid0.Coords) : ℕ := lo ((widL L).val + 1)

/-- The band the subcore has reached when it enters grid `gi`'s loop. -/
def pos (gi : ℕ) (L : grid0.Coords) : ℕ := min (hiL L) (max (loL L) (72 * gi))

/-- Where band `q`'s rows start in its source grid. -/
def srcOff (q : ℕ) : Fin 2 → ℕ := ![(q % 72) / 3 * 24 + (q % 72 % 3) * 8, 0]

theorem pos_zero (L : grid0.Coords) : pos 0 L = loL L := by
  unfold pos loL hiL lo; have := (widL L).isLt; omega
theorem pos_five (L : grid0.Coords) : pos 5 L = hiL L := by
  unfold pos loL hiL lo; have := (widL L).isLt; omega
theorem lo_add_le_hi (L : grid0.Coords) : loL L + 11 ≤ hiL L := by
  unfold loL hiL lo; omega
theorem hiL_le (L : grid0.Coords) : hiL L ≤ 360 := by
  unfold hiL lo; have := (widL L).isLt; omega
theorem pos_mono (gi : ℕ) (L : grid0.Coords) : pos gi L ≤ pos (gi + 1) L := by
  unfold pos; omega
theorem lo_le_pos (gi : ℕ) (L : grid0.Coords) : loL L ≤ pos gi L := by
  have := lo_add_le_hi L; unfold pos; omega
theorem pos_le_hi (gi : ℕ) (L : grid0.Coords) : pos gi L ≤ hiL L := by
  unfold pos; omega

set_option maxRecDepth 100000 in
theorem trips_t1 : ∀ L : grid0.Coords, pos 0 L + (k0_t1_loop L).trips = pos 1 L := by decide +kernel
set_option maxRecDepth 100000 in
theorem off2_cf : ∀ (L : grid0.Coords) (t : Fin (k0_t1_loop L).trips), ∀ a, k0_off2 L t a = bandOff (pos 0 L + t.val) a := by decide +kernel
set_option maxRecDepth 100000 in
theorem off4_cf : ∀ (L : grid0.Coords) (t : Fin (k0_t1_loop L).trips), ∀ a, k0_off4 L t a = bandOff (pos 0 L + t.val) a := by decide +kernel
set_option maxRecDepth 100000 in
theorem off1_cf : ∀ (L : grid0.Coords) (t : Fin (k0_t1_loop L).trips), ∀ a, k0_off1 L t a = srcOff (pos 0 L + t.val) a := by decide +kernel
set_option maxRecDepth 100000 in
theorem off3_cf : ∀ (L : grid0.Coords) (t : Fin (k0_t1_loop L).trips), ∀ a, k0_off3 L t a = srcOff (pos 0 L + t.val) a := by decide +kernel
set_option maxRecDepth 100000 in
theorem cond3_cf : ∀ (L : grid0.Coords) (t : Fin (k0_t1_loop L).trips), (k0_cond3 L t = 1#1 ↔ (pos 0 L + t.val) % 2 = 0) := by decide +kernel
set_option maxRecDepth 100000 in
theorem cond4_cf : ∀ (L : grid0.Coords) (t : Fin (k0_t1_loop L).trips), (k0_cond4 L t = 1#1 ↔ (pos 0 L + t.val) % 2 = 1) := by decide +kernel
set_option maxRecDepth 100000 in
theorem grid_t1 : ∀ (L : grid0.Coords) (t : Fin (k0_t1_loop L).trips), (pos 0 L + t.val) / 72 = 0 := by decide +kernel

set_option maxRecDepth 100000 in
theorem trips_t3 : ∀ L : grid0.Coords, pos 1 L + (k0_t3_loop L).trips = pos 2 L := by decide +kernel
set_option maxRecDepth 100000 in
theorem off10_cf : ∀ (L : grid0.Coords) (t : Fin (k0_t3_loop L).trips), ∀ a, k0_off10 L t a = bandOff (pos 1 L + t.val) a := by decide +kernel
set_option maxRecDepth 100000 in
theorem off12_cf : ∀ (L : grid0.Coords) (t : Fin (k0_t3_loop L).trips), ∀ a, k0_off12 L t a = bandOff (pos 1 L + t.val) a := by decide +kernel
set_option maxRecDepth 100000 in
theorem off9_cf : ∀ (L : grid0.Coords) (t : Fin (k0_t3_loop L).trips), ∀ a, k0_off9 L t a = srcOff (pos 1 L + t.val) a := by decide +kernel
set_option maxRecDepth 100000 in
theorem off11_cf : ∀ (L : grid0.Coords) (t : Fin (k0_t3_loop L).trips), ∀ a, k0_off11 L t a = srcOff (pos 1 L + t.val) a := by decide +kernel
set_option maxRecDepth 100000 in
theorem cond11_cf : ∀ (L : grid0.Coords) (t : Fin (k0_t3_loop L).trips), (k0_cond11 L t = 1#1 ↔ (pos 1 L + t.val) % 2 = 0) := by decide +kernel
set_option maxRecDepth 100000 in
theorem cond12_cf : ∀ (L : grid0.Coords) (t : Fin (k0_t3_loop L).trips), (k0_cond12 L t = 1#1 ↔ (pos 1 L + t.val) % 2 = 1) := by decide +kernel
set_option maxRecDepth 100000 in
theorem grid_t3 : ∀ (L : grid0.Coords) (t : Fin (k0_t3_loop L).trips), (pos 1 L + t.val) / 72 = 1 := by decide +kernel

set_option maxRecDepth 100000 in
theorem trips_t5 : ∀ L : grid0.Coords, pos 2 L + (k0_t5_loop L).trips = pos 3 L := by decide +kernel
set_option maxRecDepth 100000 in
theorem off18_cf : ∀ (L : grid0.Coords) (t : Fin (k0_t5_loop L).trips), ∀ a, k0_off18 L t a = bandOff (pos 2 L + t.val) a := by decide +kernel
set_option maxRecDepth 100000 in
theorem off20_cf : ∀ (L : grid0.Coords) (t : Fin (k0_t5_loop L).trips), ∀ a, k0_off20 L t a = bandOff (pos 2 L + t.val) a := by decide +kernel
set_option maxRecDepth 100000 in
theorem off17_cf : ∀ (L : grid0.Coords) (t : Fin (k0_t5_loop L).trips), ∀ a, k0_off17 L t a = srcOff (pos 2 L + t.val) a := by decide +kernel
set_option maxRecDepth 100000 in
theorem off19_cf : ∀ (L : grid0.Coords) (t : Fin (k0_t5_loop L).trips), ∀ a, k0_off19 L t a = srcOff (pos 2 L + t.val) a := by decide +kernel
set_option maxRecDepth 100000 in
theorem cond19_cf : ∀ (L : grid0.Coords) (t : Fin (k0_t5_loop L).trips), (k0_cond19 L t = 1#1 ↔ (pos 2 L + t.val) % 2 = 0) := by decide +kernel
set_option maxRecDepth 100000 in
theorem cond20_cf : ∀ (L : grid0.Coords) (t : Fin (k0_t5_loop L).trips), (k0_cond20 L t = 1#1 ↔ (pos 2 L + t.val) % 2 = 1) := by decide +kernel
set_option maxRecDepth 100000 in
theorem grid_t5 : ∀ (L : grid0.Coords) (t : Fin (k0_t5_loop L).trips), (pos 2 L + t.val) / 72 = 2 := by decide +kernel

set_option maxRecDepth 100000 in
theorem trips_t7 : ∀ L : grid0.Coords, pos 3 L + (k0_t7_loop L).trips = pos 4 L := by decide +kernel
set_option maxRecDepth 100000 in
theorem off26_cf : ∀ (L : grid0.Coords) (t : Fin (k0_t7_loop L).trips), ∀ a, k0_off26 L t a = bandOff (pos 3 L + t.val) a := by decide +kernel
set_option maxRecDepth 100000 in
theorem off28_cf : ∀ (L : grid0.Coords) (t : Fin (k0_t7_loop L).trips), ∀ a, k0_off28 L t a = bandOff (pos 3 L + t.val) a := by decide +kernel
set_option maxRecDepth 100000 in
theorem off25_cf : ∀ (L : grid0.Coords) (t : Fin (k0_t7_loop L).trips), ∀ a, k0_off25 L t a = srcOff (pos 3 L + t.val) a := by decide +kernel
set_option maxRecDepth 100000 in
theorem off27_cf : ∀ (L : grid0.Coords) (t : Fin (k0_t7_loop L).trips), ∀ a, k0_off27 L t a = srcOff (pos 3 L + t.val) a := by decide +kernel
set_option maxRecDepth 100000 in
theorem cond27_cf : ∀ (L : grid0.Coords) (t : Fin (k0_t7_loop L).trips), (k0_cond27 L t = 1#1 ↔ (pos 3 L + t.val) % 2 = 0) := by decide +kernel
set_option maxRecDepth 100000 in
theorem cond28_cf : ∀ (L : grid0.Coords) (t : Fin (k0_t7_loop L).trips), (k0_cond28 L t = 1#1 ↔ (pos 3 L + t.val) % 2 = 1) := by decide +kernel
set_option maxRecDepth 100000 in
theorem grid_t7 : ∀ (L : grid0.Coords) (t : Fin (k0_t7_loop L).trips), (pos 3 L + t.val) / 72 = 3 := by decide +kernel

set_option maxRecDepth 100000 in
theorem trips_t9 : ∀ L : grid0.Coords, pos 4 L + (k0_t9_loop L).trips = pos 5 L := by decide +kernel
set_option maxRecDepth 100000 in
theorem off34_cf : ∀ (L : grid0.Coords) (t : Fin (k0_t9_loop L).trips), ∀ a, k0_off34 L t a = bandOff (pos 4 L + t.val) a := by decide +kernel
set_option maxRecDepth 100000 in
theorem off36_cf : ∀ (L : grid0.Coords) (t : Fin (k0_t9_loop L).trips), ∀ a, k0_off36 L t a = bandOff (pos 4 L + t.val) a := by decide +kernel
set_option maxRecDepth 100000 in
theorem off33_cf : ∀ (L : grid0.Coords) (t : Fin (k0_t9_loop L).trips), ∀ a, k0_off33 L t a = srcOff (pos 4 L + t.val) a := by decide +kernel
set_option maxRecDepth 100000 in
theorem off35_cf : ∀ (L : grid0.Coords) (t : Fin (k0_t9_loop L).trips), ∀ a, k0_off35 L t a = srcOff (pos 4 L + t.val) a := by decide +kernel
set_option maxRecDepth 100000 in
theorem cond35_cf : ∀ (L : grid0.Coords) (t : Fin (k0_t9_loop L).trips), (k0_cond35 L t = 1#1 ↔ (pos 4 L + t.val) % 2 = 0) := by decide +kernel
set_option maxRecDepth 100000 in
theorem cond36_cf : ∀ (L : grid0.Coords) (t : Fin (k0_t9_loop L).trips), (k0_cond36 L t = 1#1 ↔ (pos 4 L + t.val) % 2 = 1) := by decide +kernel
set_option maxRecDepth 100000 in
theorem grid_t9 : ∀ (L : grid0.Coords) (t : Fin (k0_t9_loop L).trips), (pos 4 L + t.val) / 72 = 4 := by decide +kernel

end Cert.KernelIdeal.Hand

end
-- ==== Proof.KI.ScViews.lean ====
import proofs.«206564_g5145370820828_cont_8to1c4_476_13_alg».proof.Proof.KI.ScSets
import proofs.«206564_g5145370820828_cont_8to1c4_476_13_alg».proof.Proof.KI.ScForms

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (g : Dev nD → Fin 5 → FVec F S576x4096 .f32) (f0 : (d : Dev nD) → Buf (Elt F) (oLoc d))
variable (d : Dev nD) (L : grid0.Coords)

local notation "A8" => (Memref.whole cc0_scratch0 : Memref sig Kind.scVector Space.vmem S8x4096 EltTy.f32)
local notation "A9" => (Memref.whole cc0_scratch1 : Memref sig Kind.scVector Space.vmem S8x4096 EltTy.f32)
local notation "OV" => (Memref.whole main_v24_scv : Memref sig Kind.scVector Space.hbm S24x26x24x4096 EltTy.f32)
local notation "G0" => (Memref.whole main_v15_scv : Memref sig Kind.scVector Space.hbm S576x4096 EltTy.f32)
local notation "G1" => (Memref.whole main_v17_scv : Memref sig Kind.scVector Space.hbm S576x4096 EltTy.f32)
local notation "G2" => (Memref.whole main_v19_scv : Memref sig Kind.scVector Space.hbm S576x4096 EltTy.f32)
local notation "G3" => (Memref.whole main_v21_scv : Memref sig Kind.scVector Space.hbm S576x4096 EltTy.f32)
local notation "G4" => (Memref.whole main_v23_scv : Memref sig Kind.scVector Space.hbm S576x4096 EltTy.f32)

/-- The subcore's thread. -/
abbrev thrL : Thread nD τ := V d (cV L) (jV L)

/-! ## The kernel's memrefs as the subcore's thread addresses them -/

/-- A band of the kernel-layout array as the kernel slices it: one row, one channel, eight columns, every batch entry,
    the two unit axes squeezed away. -/
abbrev bandM (off : Fin 4 → ℕ) (h : ∀ a, off a + S1x1x8x4096.size a ≤ S24x26x24x4096.size a) : Memref sig Kind.scVector Space.hbm S8x4096 EltTy.f32 :=
  ((OV).slice (Rect.unit (s := S24x26x24x4096) off S1x1x8x4096.size h) (fun _ => rfl)).squeeze S8x4096 squeezes_S1x1x8x4096_S8x4096

/-- Eight rows of a source grid as the kernel slices them. -/
abbrev rowsM (G : Memref sig Kind.scVector Space.hbm S576x4096 EltTy.f32) (off : Fin 2 → ℕ) (h : ∀ a, off a + S8x4096.size a ≤ S576x4096.size a) :
    Memref sig Kind.scVector Space.hbm S8x4096 EltTy.f32 :=
  G.slice (Rect.unit (s := S576x4096) off S8x4096.size h) (fun _ => rfl)

theorem set_bandM (off : Fin 4 → ℕ) (h : ∀ a, off a + S1x1x8x4096.size a ≤ S24x26x24x4096.size a) :
    ((bandM off h).view.set : Finset S24x26x24x4096.Idx) = (Rect.unit (s := S24x26x24x4096) off S1x1x8x4096.size h).set := by
  show (((View.whole (main_v24_scv : Ref sig .scVector)).slice (Rect.unit (s := S24x26x24x4096) off S1x1x8x4096.size h)).reshape S8x4096
    squeezes_S1x1x8x4096_S8x4096.numel_eq).set = (Rect.unit (s := S24x26x24x4096) off S1x1x8x4096.size h).set
  rw [View.set_reshape, View.set_slice]; exact Finset.map_refl

theorem bandM_congr {off off' : Fin 4 → ℕ} (e : off = off') (h : ∀ a, off a + S1x1x8x4096.size a ≤ S24x26x24x4096.size a)
    (h' : ∀ a, off' a + S1x1x8x4096.size a ≤ S24x26x24x4096.size a) : bandM off h = bandM off' h' := by
  subst e; rfl

theorem set_bandM_band (q : ℕ) (hq : q < 360) (h : ∀ a, bandOff q a + S1x1x8x4096.size a ≤ S24x26x24x4096.size a) :
    ((bandM (bandOff q) h).view.set : Finset S24x26x24x4096.Idx) = rng q (q + 1) := by
  rw [set_bandM]; exact bandSet_eq_rng ⟨q, hq⟩

/-- A band held by the thread through the kernel's slice is that band of the kernel-layout array. -/
theorem pts_bandM (q : ℕ) (hq : q < 360) (h : ∀ a, bandOff q a + S1x1x8x4096.size a ≤ S24x26x24x4096.size a) (f : Buf (Elt F) (oLoc d)) :
    ((bandM (bandOff q) h).view.loc (thrL d L) ↦[(bandM (bandOff q) h).view.set]{fullShare} (f : Buf (Elt F) ((bandM (bandOff q) h).view.loc (thrL d L))) : sProp 𝕄)
      = (oLoc d ↦[rng q (q + 1)]{fullShare} f) :=
  congrArg (fun I : Finset S24x26x24x4096.Idx => (oLoc d ↦[I]{fullShare} f : sProp 𝕄)) (set_bandM_band q hq h)

theorem pts_A8 (f : Buf (Elt F) ((thrL d L).loc cc0_scratch0)) :
    ((A8).view.loc (thrL d L) ↦[(A8).view.set]{fullShare} f : sProp 𝕄) = (thrL d L).loc cc0_scratch0 ↦{fullShare} f := by
  simp only [Memref.view_whole, View.set_whole]
theorem pts_A9 (f : Buf (Elt F) ((thrL d L).loc cc0_scratch1)) :
    ((A9).view.loc (thrL d L) ↦[(A9).view.set]{fullShare} f : sProp 𝕄) = (thrL d L).loc cc0_scratch1 ↦{fullShare} f := by
  simp only [Memref.view_whole, View.set_whole]

theorem pts_G0 (q : PosShare TreeShare) (f : Buf (Elt F) ((SparseCore.T d).loc main_v15)) : ((G0).view.loc (thrL d L) ↦{q} f : sProp 𝕄) = (SparseCore.T d).loc main_v15 ↦{q} f := rfl
theorem pts_G1 (q : PosShare TreeShare) (f : Buf (Elt F) ((SparseCore.T d).loc main_v17)) : ((G1).view.loc (thrL d L) ↦{q} f : sProp 𝕄) = (SparseCore.T d).loc main_v17 ↦{q} f := rfl
theorem pts_G2 (q : PosShare TreeShare) (f : Buf (Elt F) ((SparseCore.T d).loc main_v19)) : ((G2).view.loc (thrL d L) ↦{q} f : sProp 𝕄) = (SparseCore.T d).loc main_v19 ↦{q} f := rfl
theorem pts_G3 (q : PosShare TreeShare) (f : Buf (Elt F) ((SparseCore.T d).loc main_v21)) : ((G3).view.loc (thrL d L) ↦{q} f : sProp 𝕄) = (SparseCore.T d).loc main_v21 ↦{q} f := rfl
theorem pts_G4 (q : PosShare TreeShare) (f : Buf (Elt F) ((SparseCore.T d).loc main_v23)) : ((G4).view.loc (thrL d L) ↦{q} f : sProp 𝕄) = (SparseCore.T d).loc main_v23 ↦{q} f := rfl

/-- The credit of a band's transfer into the kernel-layout array. -/
abbrev NB : ℕ := sig.dmaCredit .scVector (Kind.scVector.table .hbm) (main_v24_scv : Ref sig .scVector).idx S8x4096 .f32

theorem amount_bandM (off : Fin 4 → ℕ) (h : ∀ a, off a + S1x1x8x4096.size a ≤ S24x26x24x4096.size a) (s : DmaSem sig) :
    (bandM off h).view.amount (SemLoc.dma s) = NB := rfl
theorem credit_bandM (off : Fin 4 → ℕ) (h : ∀ a, off a + S1x1x8x4096.size a ≤ S24x26x24x4096.size a) :
    (bandM off h).view.dmaCredit = NB := rfl

end Cert.KernelIdeal.Hand

end
-- ==== Proof.KI.ScInv.lean ====
/-
  The vector subcore's task, stated: the state of the subcore before each band — which bands hold what, which staging
  buffer is idle and which has its copy into a band in flight —, the subcore's own semaphores and buffers taken out of
  its scoped storage, and the steps from one band to the next that involve no run of the program.
-/
import proofs.«206564_g5145370820828_cont_8to1c4_476_13_alg».proof.Proof.KI.ScViews

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (g : Dev nD → Fin 5 → FVec F S576x4096 .f32) (f0 : (d : Dev nD) → Buf (Elt F) (oLoc d))
variable (d : Dev nD) (L : grid0.Coords)

local notation "A8" => (Memref.whole cc0_scratch0 : Memref sig Kind.scVector Space.vmem S8x4096 EltTy.f32)
local notation "A9" => (Memref.whole cc0_scratch1 : Memref sig Kind.scVector Space.vmem S8x4096 EltTy.f32)
local notation "OV" => (Memref.whole main_v24_scv : Memref sig Kind.scVector Space.hbm S24x26x24x4096 EltTy.f32)
local notation "G0" => (Memref.whole main_v15_scv : Memref sig Kind.scVector Space.hbm S576x4096 EltTy.f32)
local notation "G1" => (Memref.whole main_v17_scv : Memref sig Kind.scVector Space.hbm S576x4096 EltTy.f32)
local notation "G2" => (Memref.whole main_v19_scv : Memref sig Kind.scVector Space.hbm S576x4096 EltTy.f32)
local notation "G3" => (Memref.whole main_v21_scv : Memref sig Kind.scVector Space.hbm S576x4096 EltTy.f32)
local notation "G4" => (Memref.whole main_v23_scv : Memref sig Kind.scVector Space.hbm S576x4096 EltTy.f32)

variable [FloatOps F]

/-- The counters' embedding the transfers' flights are stated at. -/
abbrev EC : UEmb Counters (MT nD τ sig (HIx 1) (Elt F) ℕ UU ℕ) := countersEmb (U := UU)

/-- What the kernel leaves at an index of channels 21 … 25. -/
def fin : Buf (Elt F) (oLoc d) := fun j => scVal (g d) j

/-- Buffer `p` (0: the first, 1: the second) is busy before band `q`: one of the two bands before `q`, not before the
    subcore's first band `lo`, has parity `p`, and its copy out of the buffer has not been waited for. -/
abbrev busy (p lo q : ℕ) : Prop := (lo + 1 ≤ q ∧ (q - 1) % 2 = p) ∨ (lo + 2 ≤ q ∧ q % 2 = p)

/-- The flag the kernel carries for buffer `p` before band `q`. -/
def flagP (p lo q : ℕ) : BitVec 32 := if busy p lo q then 1#32 else 0#32

/-- Buffer `p` before band `q`: idle — held at some contents, its semaphore's counter at zero — or its copy into the last
    band of parity `p` in flight, delivering that band at the source rows and the buffer back. -/
def slot (B : Memref sig Kind.scVector Space.vmem S8x4096 EltTy.f32) (sm : DmaSems sig S_) (p lo q : ℕ) : sProp 𝕄 :=
  iprop(∃ fs : Buf (Elt F) (B.view.loc (thrL d L)),
    (⌜¬ busy p lo q⌝ ∗ (B.view.loc (thrL d L) ↦[B.view.set]{fullShare} fs) ∗ semVal (thrL d L, SemLoc.dma sm.sem) 0)
    ∨ (∃ q', ∃ fd : Buf (Elt F) (oLoc d), ⌜(lo ≤ q' ∧ q' < q ∧ q ≤ q' + 2 ∧ q' % 2 = p) ∧ ∀ j ∈ rng q' (q' + 1), fd j = fin g d j⌝
        ∗ Transfers.Flight (EC (F := F)) (thrL d L) (SemLoc.dma sm.sem) (none : HIx 1) NB
            iprop((oLoc d ↦[rng q' (q' + 1)]{fullShare} fd) ∗ (B.view.loc (thrL d L) ↦[B.view.set]{fullShare} fs))))

theorem slot_def (B : Memref sig Kind.scVector Space.vmem S8x4096 EltTy.f32) (sm : DmaSems sig S_) (p lo q : ℕ) :
    (slot g d L B sm p lo q : sProp 𝕄) = iprop(∃ fs : Buf (Elt F) (B.view.loc (thrL d L)),
    (⌜¬ busy p lo q⌝ ∗ (B.view.loc (thrL d L) ↦[B.view.set]{fullShare} fs) ∗ semVal (thrL d L, SemLoc.dma sm.sem) 0)
    ∨ (∃ q', ∃ fd : Buf (Elt F) (oLoc d), ⌜(lo ≤ q' ∧ q' < q ∧ q ≤ q' + 2 ∧ q' % 2 = p) ∧ ∀ j ∈ rng q' (q' + 1), fd j = fin g d j⌝
        ∗ Transfers.Flight (EC (F := F)) (thrL d L) (SemLoc.dma sm.sem) (none : HIx 1) NB
            iprop((oLoc d ↦[rng q' (q' + 1)]{fullShare} fd) ∗ (B.view.loc (thrL d L) ↦[B.view.set]{fullShare} fs)))) := rfl

/-- The two buffers' semaphores. -/
abbrev cellA : GSem nD τ sig := (thrL d L, SemLoc.dma cc0_scratch2.sem)
abbrev cellB : GSem nD τ sig := (thrL d L, SemLoc.dma cc0_scratch3.sem)

/-- The subcore's other scoped semaphores, at zero. -/
abbrev restSems : sProp 𝕄 := bigSep (((ownCells (thrL d L)).erase (cellA d L)).erase (cellB d L)) fun c => semVal c 0

/-- The subcore's share of the sources. -/
abbrev shL : PosShare TreeShare := tileShare ⟨(L 0).val, (L 0).isLt⟩ ⟨(L 1).val, (L 1).isLt⟩

/-- The state before band `q`: the sources' read shares; the bands from `q` on as the launch left them; the bands whose
    copies were waited for at the source rows; each buffer idle or in flight; the carried flags; what the thread owes. -/
def Inv (O : CellTallies nD τ sig (HIx 1)) (W : Waits sig (HIx 1)) (q : ℕ) (acc : BitVec 32 × BitVec 32) : sProp 𝕄 :=
  iprop(⌜loL L ≤ q ∧ q ≤ hiL L ∧ acc = (flagP 0 (loL L) q, flagP 1 (loL L) q)⌝
    ∗ Transfers.MayWaits (thrL d L) (none : HIx 1) O
    ∗ ((G0).view.loc (thrL d L) ↦{shL L} (g d 0 : Buf (Elt F) ((SparseCore.T d).loc main_v15)))
    ∗ ((G1).view.loc (thrL d L) ↦{shL L} (g d 1 : Buf (Elt F) ((SparseCore.T d).loc main_v17)))
    ∗ ((G2).view.loc (thrL d L) ↦{shL L} (g d 2 : Buf (Elt F) ((SparseCore.T d).loc main_v19)))
    ∗ ((G3).view.loc (thrL d L) ↦{shL L} (g d 3 : Buf (Elt F) ((SparseCore.T d).loc main_v21)))
    ∗ ((G4).view.loc (thrL d L) ↦{shL L} (g d 4 : Buf (Elt F) ((SparseCore.T d).loc main_v23)))
    ∗ (oLoc d ↦[rng q (hiL L)]{fullShare} f0 d)
    ∗ (oLoc d ↦[rng (loL L) (q - 2)]{fullShare} fin g d)
    ∗ slot g d L (A8) cc0_scratch2 0 (loL L) q
    ∗ slot g d L (A9) cc0_scratch3 1 (loL L) q
    ∗ restSems d L
    ∗ ∃ W', ⌜∀ p ∈ W', p ∈ W ∨ p.2 = none⌝ ∗ owes (thrL d L) O W')

theorem ownSems0_V :
    (ownSems0 (thrL d L) : sProp 𝕄) = iprop(semVal (cellA d L) 0 ∗ semVal (cellB d L) 0 ∗ restSems (F := F) d L) := by
  unfold SparseCore.Cfg.ownSems0
  rw [SparseCore.bigSep_erase' ((mem_ownCells (g := cellA d L)).mpr ⟨rfl, by
      show (SemLoc.dma cc0_scratch2.sem : SemLoc sig).isScoped .scVector = true; decide⟩),
    SparseCore.bigSep_erase' (Finset.mem_erase.mpr ⟨by simp [cellA, cellB]; decide, (mem_ownCells (g := cellB d L)).mpr ⟨rfl, by
      show (SemLoc.dma cc0_scratch3.sem : SemLoc sig).isScoped .scVector = true; decide⟩⟩)]

/-- One more of the subcore's scoped semaphores taken out of the rest. -/
theorem restSems_take (s : DmaSems sig S_) (hA : (SemLoc.dma s.sem : SemLoc sig) ≠ SemLoc.dma cc0_scratch2.sem)
    (hB : (SemLoc.dma s.sem : SemLoc sig) ≠ SemLoc.dma cc0_scratch3.sem) (hs : (SemLoc.dma s.sem : SemLoc sig).isScoped .scVector = true) :
    (restSems (F := F) d L : sProp 𝕄) = iprop(semVal (thrL d L, SemLoc.dma s.sem) 0
      ∗ bigSep ((((ownCells (thrL d L)).erase (cellA d L)).erase (cellB d L)).erase (thrL d L, SemLoc.dma s.sem)) fun c => semVal c 0) :=
  SparseCore.bigSep_erase' (Finset.mem_erase.mpr ⟨fun e => hB (Prod.mk.inj e).2, Finset.mem_erase.mpr ⟨fun e => hA (Prod.mk.inj e).2,
    (mem_ownCells (g := (thrL d L, SemLoc.dma s.sem))).mpr ⟨rfl, hs⟩⟩⟩)

/-- The two staging buffers are among the subcore's own. -/
theorem ownBufs_V :
    (ownBufs (thrL d L) : sProp 𝕄)
      = iprop((∃ f, (thrL d L).loc cc0_scratch0 ↦{fullShare} f) ∗ (∃ f, (thrL d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- A band's slice, as the kernel computes its offsets, is the band's own. -/
theorem pts_band_prog {off : Fin 4 → ℕ} (h : ∀ a, off a + S1x1x8x4096.size a ≤ S24x26x24x4096.size a) (q : ℕ) (hq : q < 360) (e : off = bandOff q)
    (f : Buf (Elt F) (oLoc d)) :
    ((bandM off h).view.loc (thrL d L) ↦[(bandM off h).view.set]{fullShare} (f : Buf (Elt F) ((bandM off h).view.loc (thrL d L))) : sProp 𝕄)
      = (oLoc d ↦[rng q (q + 1)]{fullShare} f) := by
  subst e; exact pts_bandM d L q hq h f

theorem slot_other (B : Memref sig Kind.scVector Space.vmem S8x4096 EltTy.f32) (sm : DmaSems sig S_) {p lo q : ℕ} (hp : q % 2 ≠ p) (hp' : p < 2) :
    (slot g d L B sm p lo q : sProp 𝕄) ⊢ slot g d L B sm p lo (q + 1) := by
  unfold slot
  iintro ⟨%fs, H⟩
  iexists fs
  icases H with (⟨%hidle, H1, H2⟩ | ⟨%q', %fd, %hq', HF⟩)
  · ileft
    isplitr
    · ipureintro; unfold busy at hidle ⊢; omega
    isplitl [H1] <;> iassumption
  · iright
    iexists q', fd
    isplitr
    · ipureintro; exact ⟨by omega, hq'.2⟩
    iexact HF

end Cert.KernelIdeal.Hand

end
-- ==== Proof.KI.ScVal.lean ====
/-
  What one band's trip leaves in the kernel-layout array: the band, written whole with the staging buffer's read-back of
  the eight source rows, holds at every index of the band the source grid's entry at (row · 24 + column, batch).
-/
import proofs.«206564_g5145370820828_cont_8to1c4_476_13_alg».proof.Proof.KI.ScViews
import Idealize.ShloMosaic.Lib.Writes
import Idealize.ShloMosaic.Lib.QrPanel.StackBlock

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.ShloMosaic.ValueIdx

variable {F : FTy → Type}

variable (g : Dev nD → Fin 5 → FVec F S576x4096 .f32) (d : Dev nD) (L : grid0.Coords)

/-- The band's slice of the kernel-layout array addresses (row, channel, column · 8 + y₀, y₁) at (y₀, y₁). -/
theorem bandM_emb (off : Fin 4 → ℕ) (h : ∀ a, off a + S1x1x8x4096.size a ≤ S24x26x24x4096.size a) (y : S8x4096.Idx) (a : Fin 4) :
    (((bandM off h).view.emb y : S24x26x24x4096.Idx) a).val
      = off a + (Fin.cons (⟨0, Nat.one_pos⟩ : Fin 1) (Fin.cons (⟨0, Nat.one_pos⟩ : Fin 1) y) : S1x1x8x4096.Idx) a := by
  show ((Rect.unit (s := S24x26x24x4096) off S1x1x8x4096.size h).emb (Shape.reshapeEquiv squeezes_S1x1x8x4096_S8x4096.numel_eq y) a).val = _
  rw [QrPanel.StackBlock.reshapeEquiv_cons_one_one]
  show off a + 1 * ((Fin.cons (⟨0, Nat.one_pos⟩ : Fin 1) (Fin.cons (⟨0, Nat.one_pos⟩ : Fin 1) y) : S1x1x8x4096.Idx) a).val = _
  rw [Nat.one_mul]

/-- A whole write through a view, read at an index the view addresses, is the payload there. -/
theorem writes_whole_at {κ : Kind} {sp : Space} {s : Shape} {e : EltTy} (v : View sig κ sp s e) (f : v.ty.Contents (Elt F)) (w : s.Idx → Elt F e) (y : s.Idx) :
    HEq ((v.writes (Elt F) f [⟨Rect.whole s, w⟩]) (v.emb y)) (w y) := by
  have hd := View.read_writes_cons_emb v f (Rect.whole s) w [] y
  rw [Rect.emb_whole_apply, View.read_apply] at hd
  exact (cast_heq _ _).symm.trans (heq_of_eq hd)

/-- At the index the band's slice addresses by (y₀, y₁), the band written whole with the staging buffer's read-back of
    the source rows holds the source grid's entry. -/
theorem band_value_at (k : Fin 5) (q : ℕ) (hq : q < 360) (hg : q / 72 = k.val)
    (h4 : ∀ a, bandOff q a + S1x1x8x4096.size a ≤ S24x26x24x4096.size a)
    (h2 : ∀ a, srcOff q a + S8x4096.size a ≤ S576x4096.size a)
    (w0 : S8x4096.Idx → Elt F .f32)
    (hw0 : ∀ y : S8x4096.Idx, w0 y = g d k ((Rect.unit (s := S576x4096) (srcOff q) S8x4096.size h2).emb y))
    (B : Memref sig Kind.scVector Space.vmem S8x4096 EltTy.f32) (fs : Buf (Elt F) (B.view.loc (thrL d L))) (f0' : Buf (Elt F) (oLoc d))
    (y : S8x4096.Idx) :
    ((bandM (bandOff q) h4).view.writes (Elt F) (f0' : Buf (Elt F) ((bandM (bandOff q) h4).view.loc (thrL d L)))
      [⟨Rect.whole S8x4096, ReadAs.same.apply (View.read (Elt F) B.view (B.view.writes (Elt F) fs
        [⟨Rect.whole S8x4096, w0⟩]))⟩]) ((bandM (bandOff q) h4).view.emb y) = scVal (g d) ((bandM (bandOff q) h4).view.emb y) := by
  have hd := writes_whole_at (F := F) (bandM (bandOff q) h4).view (f0' : Buf (Elt F) ((bandM (bandOff q) h4).view.loc (thrL d L)))
    (ReadAs.same.apply (View.read (Elt F) B.view (B.view.writes (Elt F) fs [⟨Rect.whole S8x4096, w0⟩]))) y
  have hb := writes_whole_at (F := F) B.view fs w0 y
  have hr : HEq (ReadAs.same.apply (View.read (Elt F) B.view (B.view.writes (Elt F) fs [⟨Rect.whole S8x4096, w0⟩])) y)
      ((B.view.writes (Elt F) fs [⟨Rect.whole S8x4096, w0⟩]) (B.view.emb y)) := by
    show HEq (View.read (Elt F) B.view (B.view.writes (Elt F) fs [⟨Rect.whole S8x4096, w0⟩]) y) _
    rw [View.read_apply]; exact cast_heq _ _
  refine (eq_of_heq (hd.trans (hr.trans hb))).trans ((hw0 y).trans ?_)
  unfold scVal
  have e0 := bandM_emb (bandOff q) h4 y 0
  have e1 := bandM_emb (bandOff q) h4 y 1
  have e2 := bandM_emb (bandOff q) h4 y 2
  have e3 := bandM_emb (bandOff q) h4 y 3
  have y0 : (y 0).val < 8 := (y 0).isLt
  have y1 : (y 1).val < 4096 := (y 1).isLt
  have c0 : (((bandM (bandOff q) h4).view.emb y : S24x26x24x4096.Idx) 0).val = (q % 72) / 3 := by rw [e0]; show (q % 72) / 3 + 0 = _; omega
  have c1 : (((bandM (bandOff q) h4).view.emb y : S24x26x24x4096.Idx) 1).val = 21 + q / 72 := by rw [e1]; show 21 + q / 72 + 0 = _; omega
  have c2 : (((bandM (bandOff q) h4).view.emb y : S24x26x24x4096.Idx) 2).val = (q % 72 % 3) * 8 + (y 0).val := by rw [e2]; rfl
  have c3 : (((bandM (bandOff q) h4).view.emb y : S24x26x24x4096.Idx) 3).val = (y 1).val := by rw [e3]; show 0 + (y 1).val = _; omega
  have hk : (⟨((((bandM (bandOff q) h4).view.emb y : S24x26x24x4096.Idx) 1).val - 21) % 5, Nat.mod_lt _ (by decide)⟩ : Fin 5) = k :=
    Fin.ext (by show ((((bandM (bandOff q) h4).view.emb y : S24x26x24x4096.Idx) 1).val - 21) % 5 = k.val; rw [c1]; have := k.isLt; omega)
  rw [hk]
  refine congrArg (g d k) (funext fun a => Fin.ext ?_)
  match a with
  | ⟨0, _⟩ =>
    show (q % 72) / 3 * 24 + (q % 72 % 3) * 8 + 1 * (y 0).val = (((bandM (bandOff q) h4).view.emb y : S24x26x24x4096.Idx) 0).val * 24 + (((bandM (bandOff q) h4).view.emb y : S24x26x24x4096.Idx) 2).val
    rw [c0, c2]; omega
  | ⟨1, _⟩ =>
    show (0 + 1 * (y 1).val) = (((bandM (bandOff q) h4).view.emb y : S24x26x24x4096.Idx) 3).val
    rw [c3]; omega

/-- Every index of band `q` is addressed by the band's slice. -/
theorem band_index (q : ℕ) (hq : q < 360) (h4 : ∀ a, bandOff q a + S1x1x8x4096.size a ≤ S24x26x24x4096.size a)
    (j : S24x26x24x4096.Idx) (hj : j ∈ rng q (q + 1)) : ∃ y : S8x4096.Idx, (bandM (bandOff q) h4).view.emb y = j := by
  rw [mem_rng] at hj
  have h0 : (j 0).val < 24 := (j 0).isLt
  have h1 : (j 1).val < 26 := (j 1).isLt
  have h2 : (j 2).val < 24 := (j 2).isLt
  have h3 : (j 3).val < 4096 := (j 3).isLt
  have hb : bandOf j = q := by omega
  unfold bandOf at hb
  refine ⟨ix2 ⟨(j 2).val - (q % 72 % 3) * 8, by omega⟩ ⟨(j 3).val, h3⟩, funext fun a => Fin.ext ?_⟩
  rw [bandM_emb]
  match a with
  | ⟨0, _⟩ => show (q % 72) / 3 + 0 = (j 0).val; omega
  | ⟨1, _⟩ => show 21 + q / 72 + 0 = (j 1).val; omega
  | ⟨2, _⟩ => show (q % 72 % 3) * 8 + ((j 2).val - (q % 72 % 3) * 8) = (j 2).val; omega
  | ⟨3, _⟩ => show 0 + (j 3).val = (j 3).val; omega

theorem band_value_core (k : Fin 5) (q : ℕ) (hq : q < 360) (hg : q / 72 = k.val)
    (h4 : ∀ a, bandOff q a + S1x1x8x4096.size a ≤ S24x26x24x4096.size a)
    (h2 : ∀ a, srcOff q a + S8x4096.size a ≤ S576x4096.size a)
    (w0 : S8x4096.Idx → Elt F .f32)
    (hw0 : ∀ y : S8x4096.Idx, w0 y = g d k ((Rect.unit (s := S576x4096) (srcOff q) S8x4096.size h2).emb y))
    (B : Memref sig Kind.scVector Space.vmem S8x4096 EltTy.f32) (fs : Buf (Elt F) (B.view.loc (thrL d L))) (f0' : Buf (Elt F) (oLoc d)) :
    ∀ j ∈ rng q (q + 1), ((bandM (bandOff q) h4).view.writes (Elt F) (f0' : Buf (Elt F) ((bandM (bandOff q) h4).view.loc (thrL d L)))
      [⟨Rect.whole S8x4096, ReadAs.same.apply (View.read (Elt F) B.view (B.view.writes (Elt F) fs
        [⟨Rect.whole S8x4096, w0⟩]))⟩]) j = scVal (g d) j := by
  intro j hj
  obtain ⟨y, hy⟩ := band_index q hq h4 j hj
  have h := band_value_at g d L k q hq hg h4 h2 w0 hw0 B fs f0' y
  rw [hy] at h
  exact h

theorem band_value_0 (q : ℕ) (hq : q < 360) (hg : q / 72 = 0) (off4 : Fin 4 → ℕ) (h4 : ∀ a, off4 a + S1x1x8x4096.size a ≤ S24x26x24x4096.size a)
    (e4 : off4 = bandOff q) (off2 : Fin 2 → ℕ) (h2 : ∀ a, off2 a + S8x4096.size a ≤ S576x4096.size a) (e2 : off2 = srcOff q)
    (B : Memref sig Kind.scVector Space.vmem S8x4096 EltTy.f32) (fs : Buf (Elt F) (B.view.loc (thrL d L))) (f0' : Buf (Elt F) (oLoc d)) :
    ∀ j ∈ rng q (q + 1), ((bandM off4 h4).view.writes (Elt F) (f0' : Buf (Elt F) ((bandM off4 h4).view.loc (thrL d L)))
      [⟨Rect.whole S8x4096, ReadAs.same.apply (View.read (Elt F) B.view (B.view.writes (Elt F) fs
        [⟨Rect.whole S8x4096, ReadAs.same.apply (View.read (Elt F) (rowsM (Memref.whole main_v15_scv : Memref sig Kind.scVector Space.hbm S576x4096 EltTy.f32) off2 h2).view (g d 0))⟩]))⟩]) j
      = scVal (g d) j := by
  subst e4 e2
  exact band_value_core g d L 0 q hq hg h4 h2 _ (fun _ => rfl) B fs f0'

theorem band_value_1 (q : ℕ) (hq : q < 360) (hg : q / 72 = 1) (off4 : Fin 4 → ℕ) (h4 : ∀ a, off4 a + S1x1x8x4096.size a ≤ S24x26x24x4096.size a)
    (e4 : off4 = bandOff q) (off2 : Fin 2 → ℕ) (h2 : ∀ a, off2 a + S8x4096.size a ≤ S576x4096.size a) (e2 : off2 = srcOff q)
    (B : Memref sig Kind.scVector Space.vmem S8x4096 EltTy.f32) (fs : Buf (Elt F) (B.view.loc (thrL d L))) (f0' : Buf (Elt F) (oLoc d)) :
    ∀ j ∈ rng q (q + 1), ((bandM off4 h4).view.writes (Elt F) (f0' : Buf (Elt F) ((bandM off4 h4).view.loc (thrL d L)))
      [⟨Rect.whole S8x4096, ReadAs.same.apply (View.read (Elt F) B.view (B.view.writes (Elt F) fs
        [⟨Rect.whole S8x4096, ReadAs.same.apply (View.read (Elt F) (rowsM (Memref.whole main_v17_scv : Memref sig Kind.scVector Space.hbm S576x4096 EltTy.f32) off2 h2).view (g d 1))⟩]))⟩]) j
      = scVal (g d) j := by
  subst e4 e2
  exact band_value_core g d L 1 q hq hg h4 h2 _ (fun _ => rfl) B fs f0'

theorem band_value_2 (q : ℕ) (hq : q < 360) (hg : q / 72 = 2) (off4 : Fin 4 → ℕ) (h4 : ∀ a, off4 a + S1x1x8x4096.size a ≤ S24x26x24x4096.size a)
    (e4 : off4 = bandOff q) (off2 : Fin 2 → ℕ) (h2 : ∀ a, off2 a + S8x4096.size a ≤ S576x4096.size a) (e2 : off2 = srcOff q)
    (B : Memref sig Kind.scVector Space.vmem S8x4096 EltTy.f32) (fs : Buf (Elt F) (B.view.loc (thrL d L))) (f0' : Buf (Elt F) (oLoc d)) :
    ∀ j ∈ rng q (q + 1), ((bandM off4 h4).view.writes (Elt F) (f0' : Buf (Elt F) ((bandM off4 h4).view.loc (thrL d L)))
      [⟨Rect.whole S8x4096, ReadAs.same.apply (View.read (Elt F) B.view (B.view.writes (Elt F) fs
        [⟨Rect.whole S8x4096, ReadAs.same.apply (View.read (Elt F) (rowsM (Memref.whole main_v19_scv : Memref sig Kind.scVector Space.hbm S576x4096 EltTy.f32) off2 h2).view (g d 2))⟩]))⟩]) j
      = scVal (g d) j := by
  subst e4 e2
  exact band_value_core g d L 2 q hq hg h4 h2 _ (fun _ => rfl) B fs f0'

theorem band_value_3 (q : ℕ) (hq : q < 360) (hg : q / 72 = 3) (off4 : Fin 4 → ℕ) (h4 : ∀ a, off4 a + S1x1x8x4096.size a ≤ S24x26x24x4096.size a)
    (e4 : off4 = bandOff q) (off2 : Fin 2 → ℕ) (h2 : ∀ a, off2 a + S8x4096.size a ≤ S576x4096.size a) (e2 : off2 = srcOff q)
    (B : Memref sig Kind.scVector Space.vmem S8x4096 EltTy.f32) (fs : Buf (Elt F) (B.view.loc (thrL d L))) (f0' : Buf (Elt F) (oLoc d)) :
    ∀ j ∈ rng q (q + 1), ((bandM off4 h4).view.writes (Elt F) (f0' : Buf (Elt F) ((bandM off4 h4).view.loc (thrL d L)))
      [⟨Rect.whole S8x4096, ReadAs.same.apply (View.read (Elt F) B.view (B.view.writes (Elt F) fs
        [⟨Rect.whole S8x4096, ReadAs.same.apply (View.read (Elt F) (rowsM (Memref.whole main_v21_scv : Memref sig Kind.scVector Space.hbm S576x4096 EltTy.f32) off2 h2).view (g d 3))⟩]))⟩]) j
      = scVal (g d) j := by
  subst e4 e2
  exact band_value_core g d L 3 q hq hg h4 h2 _ (fun _ => rfl) B fs f0'

theorem band_value_4 (q : ℕ) (hq : q < 360) (hg : q / 72 = 4) (off4 : Fin 4 → ℕ) (h4 : ∀ a, off4 a + S1x1x8x4096.size a ≤ S24x26x24x4096.size a)
    (e4 : off4 = bandOff q) (off2 : Fin 2 → ℕ) (h2 : ∀ a, off2 a + S8x4096.size a ≤ S576x4096.size a) (e2 : off2 = srcOff q)
    (B : Memref sig Kind.scVector Space.vmem S8x4096 EltTy.f32) (fs : Buf (Elt F) (B.view.loc (thrL d L))) (f0' : Buf (Elt F) (oLoc d)) :
    ∀ j ∈ rng q (q + 1), ((bandM off4 h4).view.writes (Elt F) (f0' : Buf (Elt F) ((bandM off4 h4).view.loc (thrL d L)))
      [⟨Rect.whole S8x4096, ReadAs.same.apply (View.read (Elt F) B.view (B.view.writes (Elt F) fs
        [⟨Rect.whole S8x4096, ReadAs.same.apply (View.read (Elt F) (rowsM (Memref.whole main_v23_scv : Memref sig Kind.scVector Space.hbm S576x4096 EltTy.f32) off2 h2).view (g d 4))⟩]))⟩]) j
      = scVal (g d) j := by
  subst e4 e2
  exact band_value_core g d L 4 q hq hg h4 h2 _ (fun _ => rfl) B fs f0'

end Cert.KernelIdeal.Hand

end
-- ==== Proof.KI.ScTask.lean ====
/-
  The vector subcore's task.  Subcore number w copies its bands, in order, from the five source grids into channels
  21 … 25 of the kernel-layout array, through two staging buffers used in turn: before a band's rows are fetched into a
  buffer the copy that last left that buffer is waited for, and the copy out of the buffer is left in flight.  One state
  assertion indexed by the band reached carries the run through the kernel's ten loops — a loop per source grid and an
  empty remainder loop after each —; after the last loop both buffers' copies are waited for, and every band of the
  subcore holds its source rows.
-/
import proofs.«206564_g5145370820828_cont_8to1c4_476_13_alg».proof.Proof.KI.ScInv
import proofs.«206564_g5145370820828_cont_8to1c4_476_13_alg».proof.Proof.KI.ScVal

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (g : Dev nD → Fin 5 → FVec F S576x4096 .f32) (f0 : (d : Dev nD) → Buf (Elt F) (oLoc d))
variable (d : Dev nD) (L : grid0.Coords)

local notation "A8" => (Memref.whole cc0_scratch0 : Memref sig Kind.scVector Space.vmem S8x4096 EltTy.f32)
local notation "A9" => (Memref.whole cc0_scratch1 : Memref sig Kind.scVector Space.vmem S8x4096 EltTy.f32)
local notation "OV" => (Memref.whole main_v24_scv : Memref sig Kind.scVector Space.hbm S24x26x24x4096 EltTy.f32)
local notation "G0" => (Memref.whole main_v15_scv : Memref sig Kind.scVector Space.hbm S576x4096 EltTy.f32)
local notation "G1" => (Memref.whole main_v17_scv : Memref sig Kind.scVector Space.hbm S576x4096 EltTy.f32)
local notation "G2" => (Memref.whole main_v19_scv : Memref sig Kind.scVector Space.hbm S576x4096 EltTy.f32)
local notation "G3" => (Memref.whole main_v21_scv : Memref sig Kind.scVector Space.hbm S576x4096 EltTy.f32)
local notation "G4" => (Memref.whole main_v23_scv : Memref sig Kind.scVector Space.hbm S576x4096 EltTy.f32)

variable [FloatOps F]

local macro "sc_amount" : tactic => `(tactic| exact View.amount_pos _ _ (show 0 < S8x4096.numel by decide))

set_option maxHeartbeats 40000000 in
theorem tile_body (O : CellTallies nD τ sig (HIx 1)) (W : Waits sig (HIx 1)) (hO : ∀ g, O g none = 0) :
    iprop(levAts (K (F := F)).L (K (F := F)).lev ∗ emp
        ∗ (srcs d (shL L) (g d) ∗ oLoc d ↦[tileSet (widL L)]{fullShare} f0 d)
        ∗ scopedBufs (thrL d L) ∗ scopedSems0 (thrL d L) ∗ owes (thrL d L) O W)
      ⊢ wp frame (wpE (defs₀ (F := F)) 𝒱₀ (thrL d L) none) Set.univ
          (cc0_sc_body L (Memref.whole main_v15_scv) (Memref.isWhole_whole _) (Memref.whole main_v17_scv) (Memref.isWhole_whole _) (Memref.whole main_v19_scv) (Memref.isWhole_whole _) (Memref.whole main_v21_scv) (Memref.isWhole_whole _) (Memref.whole main_v23_scv) (Memref.isWhole_whole _) (Memref.whole main_v24_scv) (Memref.isWhole_whole _) (Memref.whole cc0_scratch0) (Memref.isWhole_whole _) (Memref.whole cc0_scratch1) (Memref.isWhole_whole _) cc0_scratch2 cc0_scratch3 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19)
          fun _ => iprop((srcs d (shL L) (g d) ∗ outDone d (g d) (tileSet (widL L)))
            ∗ scopedBufs (thrL d L) ∗ scopedSems0 (thrL d L) ∗ ∃ W', ⌜∀ p ∈ W', p ∈ W ∨ p.2 = none⌝ ∗ owes (thrL d L) O W') := by
  simp only [cc0_sc_body_eq_skeleton]; unfold cc0_sc_body_skel
  rw [(K (F := F)).scopedBufs_V facts d (cV L) (jV L), SparseCore.Cfg.scopedSems0_V (Val := Elt F) d (cV L) (jV L), ownSems0_V, ownBufs_V,
    tileSet_eq_rng]
  unfold srcs
  iintro ⟨#Hlv, -, ⟨⟨H0, H1, H2, H3, H4⟩, Hout⟩, ⟨⟨%f8, H8⟩, ⟨%f9, H9⟩, Hbufs⟩, ⟨HsA, HsB, Hsems⟩, HO⟩
  ihave Hmw := ((K (F := F)).mayWaits_none (thr := thrL d L) hO) $$ Hlv
  ihave H8' := (Entails.of_eq (pts_A8 (F := F) d L f8).symm) $$ H8
  ihave H9' := (Entails.of_eq (pts_A9 (F := F) d L f9).symm) $$ H9
  sl_exec

  sl_for (fun k acc => Inv g f0 d L O W (pos 0 L + k) acc) $$ [Hmw H0 H1 H2 H3 H4 Hout H8' H9' HsA HsB Hsems HO]
  case region =>

    intro k acc
    have hq1 : loL L ≤ pos 0 L + k.val := by have := lo_le_pos 0 L; omega
    have hq2 : pos 0 L + k.val < hiL L := by
      have h1 := trips_t1 L; have h2 := pos_le_hi 1 L; have h3 : k.val < (k0_t1_loop L).trips := k.isLt; omega
    have hq3 : pos 0 L + k.val < 360 := by have := hiL_le L; omega
    have eDE : k0_off2 L k = bandOff (pos 0 L + k.val) := funext (off2_cf L k)
    have eDO : k0_off4 L k = bandOff (pos 0 L + k.val) := funext (off4_cf L k)
    have eSE : k0_off1 L k = srcOff (pos 0 L + k.val) := funext (off1_cf L k)
    have eSO : k0_off3 L k = srcOff (pos 0 L + k.val) := funext (off3_cf L k)
    unfold Inv
    rcases Nat.mod_two_eq_zero_or_one (pos 0 L + k.val) with hE | hOd
    · have k0_hE : k0_cond3 L k = 1#1 := (cond3_cf L k).2 hE
      have k0_hO : ¬ k0_cond4 L k = 1#1 := fun h => by have := (cond4_cf L k).1 h; omega

      rw [restSems_take (F := F) d L cc0_scoped0 (by decide) (by decide) (by decide), slot_def g d L (A8) cc0_scratch2 0, slot_def g d L (A8) cc0_scratch2 0]
      iintro ⟨%hacc, #Hmw, H0, H1, H2, H3, H4, Hpend, Hdone, HslA, HslB, ⟨Hsc, Hsems⟩, %W', %hW', HO⟩
      obtain ⟨-, -, rfl⟩ := hacc
      ihave Hp := (pts_rng (F := F) d fullShare (f0 d) (show pos 0 L + k.val ≤ pos 0 L + k.val + 1 by omega) (show pos 0 L + k.val + 1 ≤ hiL L by omega)).1 $$ Hpend
      icases Hp with ⟨Hband, Hpend⟩
      ihave Hband' := (Entails.of_eq (pts_band_prog (F := F) d L (k0_off2_inb L k k0_hE) _ hq3 eDE (f0 d)).symm) $$ Hband
      icases HslA with ⟨%fs, (⟨%hidle, HB, HF⟩ | ⟨%q', %fd, %hq', HF⟩)⟩
      · sl_exec (disch := first | sc_amount | (revert hidle k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone]
        · rw [show rng (loL L) (pos 0 L + (k.val + 1) - 2) = rng (loL L) (pos 0 L + k.val - 2) from by
            rw [rng_empty (by unfold busy at hidle; omega), rng_empty (by unfold busy at hidle; omega)]]
          iexact Hdone

        isplitl [HF]
        · iexists _
          iright
          iexists (pos 0 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off2_inb L k k0_hE) _ hq3 eDE _)) $$ Hd
              iexact Hd'
            · iexact Hs
          · ipureintro
            exact ⟨⟨hq1, by omega, by omega, hE⟩,
              band_value_0 g d L (pos 0 L + k.val) hq3 (grid_t1 L k) _ (k0_off2_inb L k k0_hE) eDE _ (k0_off1_inb L k k0_hE) eSE (A8) _ (f0 d)⟩
        isplitl [HslB]
        · iapply (slot_other g d L (A9) cc0_scratch3 (p := 1) (lo := loL L) (q := pos 0 L + k.val) (by omega) (by omega)) $$ HslB
        isplitl [Hsc Hsems]
        · isplitl [Hsc]; · iexact Hsc
          iexact Hsems
        iexists _; isplitr
        swap
        · iexact HO
        · ipureintro; intro p hp
          rcases Finset.mem_insert.mp hp with rfl | hp
          · exact .inr rfl
          · exact hW' p hp
      · have hbusy : busy 0 (loL L) (pos 0 L + k.val) := by unfold busy; omega
        sl_exec (disch := first | sc_amount | (revert hbusy k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone HF_dst]
        · obtain rfl : q' = pos 0 L + k.val - 2 := by omega
          iapply (pts_rng (F := F) d fullShare (fin g d) (a := loL L) (b := pos 0 L + k.val - 2) (c := pos 0 L + (k.val + 1) - 2) (by omega) (by omega)).2
          isplitl [Hdone]; · iexact Hdone
          rw [show pos 0 L + (k.val + 1) - 2 = pos 0 L + k.val - 2 + 1 from by omega, pointsTo_congr (f := fin g d) (g := fd) (fun j hj => (hq'.2 j hj).symm)]
          iexact HF_dst

        isplitl [HF]
        · iexists _
          iright
          iexists (pos 0 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off2_inb L k k0_hE) _ hq3 eDE _)) $$ Hd
              iexact Hd'
            · iexact Hs
          · ipureintro
            exact ⟨⟨hq1, by omega, by omega, hE⟩,
              band_value_0 g d L (pos 0 L + k.val) hq3 (grid_t1 L k) _ (k0_off2_inb L k k0_hE) eDE _ (k0_off1_inb L k k0_hE) eSE (A8) _ (f0 d)⟩
        isplitl [HslB]
        · iapply (slot_other g d L (A9) cc0_scratch3 (p := 1) (lo := loL L) (q := pos 0 L + k.val) (by omega) (by omega)) $$ HslB
        isplitl [Hsc Hsems]
        · isplitl [Hsc]; · iexact Hsc
          iexact Hsems
        iexists _; isplitr
        swap
        · iexact HO
        · ipureintro; intro p hp
          rcases Finset.mem_insert.mp hp with rfl | hp
          · exact .inr rfl
          rcases Finset.mem_insert.mp hp with rfl | hp
          · exact .inr rfl
          · exact hW' p hp
    · have k0_hO : k0_cond4 L k = 1#1 := (cond4_cf L k).2 hOd
      have k0_hE : ¬ k0_cond3 L k = 1#1 := fun h => by have := (cond3_cf L k).1 h; omega

      rw [restSems_take (F := F) d L cc0_scoped1 (by decide) (by decide) (by decide), slot_def g d L (A9) cc0_scratch3 1, slot_def g d L (A9) cc0_scratch3 1]
      iintro ⟨%hacc, #Hmw, H0, H1, H2, H3, H4, Hpend, Hdone, HslA, HslB, ⟨Hsc, Hsems⟩, %W', %hW', HO⟩
      obtain ⟨-, -, rfl⟩ := hacc
      ihave Hp := (pts_rng (F := F) d fullShare (f0 d) (show pos 0 L + k.val ≤ pos 0 L + k.val + 1 by omega) (show pos 0 L + k.val + 1 ≤ hiL L by omega)).1 $$ Hpend
      icases Hp with ⟨Hband, Hpend⟩
      ihave Hband' := (Entails.of_eq (pts_band_prog (F := F) d L (k0_off4_inb L k k0_hO) _ hq3 eDO (f0 d)).symm) $$ Hband
      icases HslB with ⟨%fs, (⟨%hidle, HB, HF⟩ | ⟨%q', %fd, %hq', HF⟩)⟩
      · sl_exec (disch := first | sc_amount | (revert hidle k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone]
        · rw [show rng (loL L) (pos 0 L + (k.val + 1) - 2) = rng (loL L) (pos 0 L + k.val - 2) from by
            rw [rng_empty (by unfold busy at hidle; omega), rng_empty (by unfold busy at hidle; omega)]]
          iexact Hdone
        isplitl [HslA]
        · iapply (slot_other g d L (A8) cc0_scratch2 (p := 0) (lo := loL L) (q := pos 0 L + k.val) (by omega) (by omega)) $$ HslA

        isplitl [HF]
        · iexists _
          iright
          iexists (pos 0 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off4_inb L k k0_hO) _ hq3 eDO _)) $$ Hd
              iexact Hd'
            · iexact Hs
          · ipureintro
            exact ⟨⟨hq1, by omega, by omega, hOd⟩,
              band_value_0 g d L (pos 0 L + k.val) hq3 (grid_t1 L k) _ (k0_off4_inb L k k0_hO) eDO _ (k0_off3_inb L k k0_hO) eSO (A9) _ (f0 d)⟩
        isplitl [Hsc Hsems]
        · isplitl [Hsc]; · iexact Hsc
          iexact Hsems
        iexists _; isplitr
        swap
        · iexact HO
        · ipureintro; intro p hp
          rcases Finset.mem_insert.mp hp with rfl | hp
          · exact .inr rfl
          · exact hW' p hp
      · have hbusy : busy 1 (loL L) (pos 0 L + k.val) := by unfold busy; omega
        sl_exec (disch := first | sc_amount | (revert hbusy k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone HF_dst]
        · obtain rfl : q' = pos 0 L + k.val - 2 := by omega
          iapply (pts_rng (F := F) d fullShare (fin g d) (a := loL L) (b := pos 0 L + k.val - 2) (c := pos 0 L + (k.val + 1) - 2) (by omega) (by omega)).2
          isplitl [Hdone]; · iexact Hdone
          rw [show pos 0 L + (k.val + 1) - 2 = pos 0 L + k.val - 2 + 1 from by omega, pointsTo_congr (f := fin g d) (g := fd) (fun j hj => (hq'.2 j hj).symm)]
          iexact HF_dst
        isplitl [HslA]
        · iapply (slot_other g d L (A8) cc0_scratch2 (p := 0) (lo := loL L) (q := pos 0 L + k.val) (by omega) (by omega)) $$ HslA

        isplitl [HF]
        · iexists _
          iright
          iexists (pos 0 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off4_inb L k k0_hO) _ hq3 eDO _)) $$ Hd
              iexact Hd'
            · iexact Hs
          · ipureintro
            exact ⟨⟨hq1, by omega, by omega, hOd⟩,
              band_value_0 g d L (pos 0 L + k.val) hq3 (grid_t1 L k) _ (k0_off4_inb L k k0_hO) eDO _ (k0_off3_inb L k k0_hO) eSO (A9) _ (f0 d)⟩
        isplitl [Hsc Hsems]
        · isplitl [Hsc]; · iexact Hsc
          iexact Hsems
        iexists _; isplitr
        swap
        · iexact HO
        · ipureintro; intro p hp
          rcases Finset.mem_insert.mp hp with rfl | hp
          · exact .inr rfl
          rcases Finset.mem_insert.mp hp with rfl | hp
          · exact .inr rfl
          · exact hW' p hp

  · unfold Inv
    isplitr
    · ipureintro
      refine ⟨by rw [Nat.add_zero, pos_zero], by rw [Nat.add_zero, pos_zero]; have := lo_add_le_hi L; omega, ?_⟩
      clear * - L; revert L; decide +kernel
    isplitr; · iexact Hmw
    isplitl [H0]; · iexact H0
    isplitl [H1]; · iexact H1
    isplitl [H2]; · iexact H2
    isplitl [H3]; · iexact H3
    isplitl [H4]; · iexact H4
    isplitl [Hout]
    · rw [show rng (pos 0 L + 0) (hiL L) = rng (lo (widL L).val) (lo ((widL L).val + 1)) from by rw [Nat.add_zero, pos_zero]; rfl]
      iexact Hout
    isplitr
    · rw [rng_empty (by rw [Nat.add_zero, pos_zero]; omega), pointsTo_empty]; iempintro
    isplitl [H8' HsA]
    · unfold slot
      iexists f8; ileft
      isplitr
      · ipureintro; unfold busy; rw [Nat.add_zero, pos_zero]; omega
      isplitl [H8']; · iexact H8'
      iexact HsA
    isplitl [H9' HsB]
    · unfold slot
      iexists f9; ileft
      isplitr
      · ipureintro; unfold busy; rw [Nat.add_zero, pos_zero]; omega
      isplitl [H9']; · iexact H9'
      iexact HsB
    isplitl [Hsems]; · iexact Hsems
    iexists W; isplitr
    · ipureintro; exact fun p hp => .inl hp
    · iexact HO

  rw [show pos 0 L + Scf.trips (k0_t1_loop L).lb (k0_t1_loop L).ub (k0_t1_loop L).st = pos 1 L from trips_t1 L]
  iintro %acc HI
  sl_exec
  sl_for (fun _ acc => Inv g f0 d L O W (pos 1 L) acc) $$ [HI]
  case region =>
    intro k acc
    exact absurd (lt_of_lt_of_le k.isLt (k0_t2_abs L).2.1) (Nat.not_lt_zero _)
  · iexact HI
  iintro %acc HI
  sl_exec
  sl_for (fun k acc => Inv g f0 d L O W (pos 1 L + k) acc) $$ [HI]
  case region =>

    intro k acc
    have hq1 : loL L ≤ pos 1 L + k.val := by have := lo_le_pos 1 L; omega
    have hq2 : pos 1 L + k.val < hiL L := by
      have h1 := trips_t3 L; have h2 := pos_le_hi 2 L; have h3 : k.val < (k0_t3_loop L).trips := k.isLt; omega
    have hq3 : pos 1 L + k.val < 360 := by have := hiL_le L; omega
    have eDE : k0_off10 L k = bandOff (pos 1 L + k.val) := funext (off10_cf L k)
    have eDO : k0_off12 L k = bandOff (pos 1 L + k.val) := funext (off12_cf L k)
    have eSE : k0_off9 L k = srcOff (pos 1 L + k.val) := funext (off9_cf L k)
    have eSO : k0_off11 L k = srcOff (pos 1 L + k.val) := funext (off11_cf L k)
    unfold Inv
    rcases Nat.mod_two_eq_zero_or_one (pos 1 L + k.val) with hE | hOd
    · have k0_hE : k0_cond11 L k = 1#1 := (cond11_cf L k).2 hE
      have k0_hO : ¬ k0_cond12 L k = 1#1 := fun h => by have := (cond12_cf L k).1 h; omega

      rw [restSems_take (F := F) d L cc0_scoped4 (by decide) (by decide) (by decide), slot_def g d L (A8) cc0_scratch2 0, slot_def g d L (A8) cc0_scratch2 0]
      iintro ⟨%hacc, #Hmw, H0, H1, H2, H3, H4, Hpend, Hdone, HslA, HslB, ⟨Hsc, Hsems⟩, %W', %hW', HO⟩
      obtain ⟨-, -, rfl⟩ := hacc
      ihave Hp := (pts_rng (F := F) d fullShare (f0 d) (show pos 1 L + k.val ≤ pos 1 L + k.val + 1 by omega) (show pos 1 L + k.val + 1 ≤ hiL L by omega)).1 $$ Hpend
      icases Hp with ⟨Hband, Hpend⟩
      ihave Hband' := (Entails.of_eq (pts_band_prog (F := F) d L (k0_off10_inb L k k0_hE) _ hq3 eDE (f0 d)).symm) $$ Hband
      icases HslA with ⟨%fs, (⟨%hidle, HB, HF⟩ | ⟨%q', %fd, %hq', HF⟩)⟩
      · sl_exec (disch := first | sc_amount | (revert hidle k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone]
        · rw [show rng (loL L) (pos 1 L + (k.val + 1) - 2) = rng (loL L) (pos 1 L + k.val - 2) from by
            rw [rng_empty (by unfold busy at hidle; omega), rng_empty (by unfold busy at hidle; omega)]]
          iexact Hdone

        isplitl [HF]
        · iexists _
          iright
          iexists (pos 1 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off10_inb L k k0_hE) _ hq3 eDE _)) $$ Hd
              iexact Hd'
            · iexact Hs
          · ipureintro
            exact ⟨⟨hq1, by omega, by omega, hE⟩,
              band_value_1 g d L (pos 1 L + k.val) hq3 (grid_t3 L k) _ (k0_off10_inb L k k0_hE) eDE _ (k0_off9_inb L k k0_hE) eSE (A8) _ (f0 d)⟩
        isplitl [HslB]
        · iapply (slot_other g d L (A9) cc0_scratch3 (p := 1) (lo := loL L) (q := pos 1 L + k.val) (by omega) (by omega)) $$ HslB
        isplitl [Hsc Hsems]
        · isplitl [Hsc]; · iexact Hsc
          iexact Hsems
        iexists _; isplitr
        swap
        · iexact HO
        · ipureintro; intro p hp
          rcases Finset.mem_insert.mp hp with rfl | hp
          · exact .inr rfl
          · exact hW' p hp
      · have hbusy : busy 0 (loL L) (pos 1 L + k.val) := by unfold busy; omega
        sl_exec (disch := first | sc_amount | (revert hbusy k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone HF_dst]
        · obtain rfl : q' = pos 1 L + k.val - 2 := by omega
          iapply (pts_rng (F := F) d fullShare (fin g d) (a := loL L) (b := pos 1 L + k.val - 2) (c := pos 1 L + (k.val + 1) - 2) (by omega) (by omega)).2
          isplitl [Hdone]; · iexact Hdone
          rw [show pos 1 L + (k.val + 1) - 2 = pos 1 L + k.val - 2 + 1 from by omega, pointsTo_congr (f := fin g d) (g := fd) (fun j hj => (hq'.2 j hj).symm)]
          iexact HF_dst

        isplitl [HF]
        · iexists _
          iright
          iexists (pos 1 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off10_inb L k k0_hE) _ hq3 eDE _)) $$ Hd
              iexact Hd'
            · iexact Hs
          · ipureintro
            exact ⟨⟨hq1, by omega, by omega, hE⟩,
              band_value_1 g d L (pos 1 L + k.val) hq3 (grid_t3 L k) _ (k0_off10_inb L k k0_hE) eDE _ (k0_off9_inb L k k0_hE) eSE (A8) _ (f0 d)⟩
        isplitl [HslB]
        · iapply (slot_other g d L (A9) cc0_scratch3 (p := 1) (lo := loL L) (q := pos 1 L + k.val) (by omega) (by omega)) $$ HslB
        isplitl [Hsc Hsems]
        · isplitl [Hsc]; · iexact Hsc
          iexact Hsems
        iexists _; isplitr
        swap
        · iexact HO
        · ipureintro; intro p hp
          rcases Finset.mem_insert.mp hp with rfl | hp
          · exact .inr rfl
          rcases Finset.mem_insert.mp hp with rfl | hp
          · exact .inr rfl
          · exact hW' p hp
    · have k0_hO : k0_cond12 L k = 1#1 := (cond12_cf L k).2 hOd
      have k0_hE : ¬ k0_cond11 L k = 1#1 := fun h => by have := (cond11_cf L k).1 h; omega

      rw [restSems_take (F := F) d L cc0_scoped5 (by decide) (by decide) (by decide), slot_def g d L (A9) cc0_scratch3 1, slot_def g d L (A9) cc0_scratch3 1]
      iintro ⟨%hacc, #Hmw, H0, H1, H2, H3, H4, Hpend, Hdone, HslA, HslB, ⟨Hsc, Hsems⟩, %W', %hW', HO⟩
      obtain ⟨-, -, rfl⟩ := hacc
      ihave Hp := (pts_rng (F := F) d fullShare (f0 d) (show pos 1 L + k.val ≤ pos 1 L + k.val + 1 by omega) (show pos 1 L + k.val + 1 ≤ hiL L by omega)).1 $$ Hpend
      icases Hp with ⟨Hband, Hpend⟩
      ihave Hband' := (Entails.of_eq (pts_band_prog (F := F) d L (k0_off12_inb L k k0_hO) _ hq3 eDO (f0 d)).symm) $$ Hband
      icases HslB with ⟨%fs, (⟨%hidle, HB, HF⟩ | ⟨%q', %fd, %hq', HF⟩)⟩
      · sl_exec (disch := first | sc_amount | (revert hidle k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone]
        · rw [show rng (loL L) (pos 1 L + (k.val + 1) - 2) = rng (loL L) (pos 1 L + k.val - 2) from by
            rw [rng_empty (by unfold busy at hidle; omega), rng_empty (by unfold busy at hidle; omega)]]
          iexact Hdone
        isplitl [HslA]
        · iapply (slot_other g d L (A8) cc0_scratch2 (p := 0) (lo := loL L) (q := pos 1 L + k.val) (by omega) (by omega)) $$ HslA

        isplitl [HF]
        · iexists _
          iright
          iexists (pos 1 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off12_inb L k k0_hO) _ hq3 eDO _)) $$ Hd
              iexact Hd'
            · iexact Hs
          · ipureintro
            exact ⟨⟨hq1, by omega, by omega, hOd⟩,
              band_value_1 g d L (pos 1 L + k.val) hq3 (grid_t3 L k) _ (k0_off12_inb L k k0_hO) eDO _ (k0_off11_inb L k k0_hO) eSO (A9) _ (f0 d)⟩
        isplitl [Hsc Hsems]
        · isplitl [Hsc]; · iexact Hsc
          iexact Hsems
        iexists _; isplitr
        swap
        · iexact HO
        · ipureintro; intro p hp
          rcases Finset.mem_insert.mp hp with rfl | hp
          · exact .inr rfl
          · exact hW' p hp
      · have hbusy : busy 1 (loL L) (pos 1 L + k.val) := by unfold busy; omega
        sl_exec (disch := first | sc_amount | (revert hbusy k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone HF_dst]
        · obtain rfl : q' = pos 1 L + k.val - 2 := by omega
          iapply (pts_rng (F := F) d fullShare (fin g d) (a := loL L) (b := pos 1 L + k.val - 2) (c := pos 1 L + (k.val + 1) - 2) (by omega) (by omega)).2
          isplitl [Hdone]; · iexact Hdone
          rw [show pos 1 L + (k.val + 1) - 2 = pos 1 L + k.val - 2 + 1 from by omega, pointsTo_congr (f := fin g d) (g := fd) (fun j hj => (hq'.2 j hj).symm)]
          iexact HF_dst
        isplitl [HslA]
        · iapply (slot_other g d L (A8) cc0_scratch2 (p := 0) (lo := loL L) (q := pos 1 L + k.val) (by omega) (by omega)) $$ HslA

        isplitl [HF]
        · iexists _
          iright
          iexists (pos 1 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off12_inb L k k0_hO) _ hq3 eDO _)) $$ Hd
              iexact Hd'
            · iexact Hs
          · ipureintro
            exact ⟨⟨hq1, by omega, by omega, hOd⟩,
              band_value_1 g d L (pos 1 L + k.val) hq3 (grid_t3 L k) _ (k0_off12_inb L k k0_hO) eDO _ (k0_off11_inb L k k0_hO) eSO (A9) _ (f0 d)⟩
        isplitl [Hsc Hsems]
        · isplitl [Hsc]; · iexact Hsc
          iexact Hsems
        iexists _; isplitr
        swap
        · iexact HO
        · ipureintro; intro p hp
          rcases Finset.mem_insert.mp hp with rfl | hp
          · exact .inr rfl
          rcases Finset.mem_insert.mp hp with rfl | hp
          · exact .inr rfl
          · exact hW' p hp

  · iexact HI
  rw [show pos 1 L + Scf.trips (k0_t3_loop L).lb (k0_t3_loop L).ub (k0_t3_loop L).st = pos 2 L from trips_t3 L]
  iintro %acc HI
  sl_exec
  sl_for (fun _ acc => Inv g f0 d L O W (pos 2 L) acc) $$ [HI]
  case region =>
    intro k acc
    exact absurd (lt_of_lt_of_le k.isLt (k0_t4_abs L).2.1) (Nat.not_lt_zero _)
  · iexact HI
  iintro %acc HI
  sl_exec
  sl_for (fun k acc => Inv g f0 d L O W (pos 2 L + k) acc) $$ [HI]
  case region =>

    intro k acc
    have hq1 : loL L ≤ pos 2 L + k.val := by have := lo_le_pos 2 L; omega
    have hq2 : pos 2 L + k.val < hiL L := by
      have h1 := trips_t5 L; have h2 := pos_le_hi 3 L; have h3 : k.val < (k0_t5_loop L).trips := k.isLt; omega
    have hq3 : pos 2 L + k.val < 360 := by have := hiL_le L; omega
    have eDE : k0_off18 L k = bandOff (pos 2 L + k.val) := funext (off18_cf L k)
    have eDO : k0_off20 L k = bandOff (pos 2 L + k.val) := funext (off20_cf L k)
    have eSE : k0_off17 L k = srcOff (pos 2 L + k.val) := funext (off17_cf L k)
    have eSO : k0_off19 L k = srcOff (pos 2 L + k.val) := funext (off19_cf L k)
    unfold Inv
    rcases Nat.mod_two_eq_zero_or_one (pos 2 L + k.val) with hE | hOd
    · have k0_hE : k0_cond19 L k = 1#1 := (cond19_cf L k).2 hE
      have k0_hO : ¬ k0_cond20 L k = 1#1 := fun h => by have := (cond20_cf L k).1 h; omega

      rw [restSems_take (F := F) d L cc0_scoped8 (by decide) (by decide) (by decide), slot_def g d L (A8) cc0_scratch2 0, slot_def g d L (A8) cc0_scratch2 0]
      iintro ⟨%hacc, #Hmw, H0, H1, H2, H3, H4, Hpend, Hdone, HslA, HslB, ⟨Hsc, Hsems⟩, %W', %hW', HO⟩
      obtain ⟨-, -, rfl⟩ := hacc
      ihave Hp := (pts_rng (F := F) d fullShare (f0 d) (show pos 2 L + k.val ≤ pos 2 L + k.val + 1 by omega) (show pos 2 L + k.val + 1 ≤ hiL L by omega)).1 $$ Hpend
      icases Hp with ⟨Hband, Hpend⟩
      ihave Hband' := (Entails.of_eq (pts_band_prog (F := F) d L (k0_off18_inb L k k0_hE) _ hq3 eDE (f0 d)).symm) $$ Hband
      icases HslA with ⟨%fs, (⟨%hidle, HB, HF⟩ | ⟨%q', %fd, %hq', HF⟩)⟩
      · sl_exec (disch := first | sc_amount | (revert hidle k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone]
        · rw [show rng (loL L) (pos 2 L + (k.val + 1) - 2) = rng (loL L) (pos 2 L + k.val - 2) from by
            rw [rng_empty (by unfold busy at hidle; omega), rng_empty (by unfold busy at hidle; omega)]]
          iexact Hdone

        isplitl [HF]
        · iexists _
          iright
          iexists (pos 2 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off18_inb L k k0_hE) _ hq3 eDE _)) $$ Hd
              iexact Hd'
            · iexact Hs
          · ipureintro
            exact ⟨⟨hq1, by omega, by omega, hE⟩,
              band_value_2 g d L (pos 2 L + k.val) hq3 (grid_t5 L k) _ (k0_off18_inb L k k0_hE) eDE _ (k0_off17_inb L k k0_hE) eSE (A8) _ (f0 d)⟩
        isplitl [HslB]
        · iapply (slot_other g d L (A9) cc0_scratch3 (p := 1) (lo := loL L) (q := pos 2 L + k.val) (by omega) (by omega)) $$ HslB
        isplitl [Hsc Hsems]
        · isplitl [Hsc]; · iexact Hsc
          iexact Hsems
        iexists _; isplitr
        swap
        · iexact HO
        · ipureintro; intro p hp
          rcases Finset.mem_insert.mp hp with rfl | hp
          · exact .inr rfl
          · exact hW' p hp
      · have hbusy : busy 0 (loL L) (pos 2 L + k.val) := by unfold busy; omega
        sl_exec (disch := first | sc_amount | (revert hbusy k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone HF_dst]
        · obtain rfl : q' = pos 2 L + k.val - 2 := by omega
          iapply (pts_rng (F := F) d fullShare (fin g d) (a := loL L) (b := pos 2 L + k.val - 2) (c := pos 2 L + (k.val + 1) - 2) (by omega) (by omega)).2
          isplitl [Hdone]; · iexact Hdone
          rw [show pos 2 L + (k.val + 1) - 2 = pos 2 L + k.val - 2 + 1 from by omega, pointsTo_congr (f := fin g d) (g := fd) (fun j hj => (hq'.2 j hj).symm)]
          iexact HF_dst

        isplitl [HF]
        · iexists _
          iright
          iexists (pos 2 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off18_inb L k k0_hE) _ hq3 eDE _)) $$ Hd
              iexact Hd'
            · iexact Hs
          · ipureintro
            exact ⟨⟨hq1, by omega, by omega, hE⟩,
              band_value_2 g d L (pos 2 L + k.val) hq3 (grid_t5 L k) _ (k0_off18_inb L k k0_hE) eDE _ (k0_off17_inb L k k0_hE) eSE (A8) _ (f0 d)⟩
        isplitl [HslB]
        · iapply (slot_other g d L (A9) cc0_scratch3 (p := 1) (lo := loL L) (q := pos 2 L + k.val) (by omega) (by omega)) $$ HslB
        isplitl [Hsc Hsems]
        · isplitl [Hsc]; · iexact Hsc
          iexact Hsems
        iexists _; isplitr
        swap
        · iexact HO
        · ipureintro; intro p hp
          rcases Finset.mem_insert.mp hp with rfl | hp
          · exact .inr rfl
          rcases Finset.mem_insert.mp hp with rfl | hp
          · exact .inr rfl
          · exact hW' p hp
    · have k0_hO : k0_cond20 L k = 1#1 := (cond20_cf L k).2 hOd
      have k0_hE : ¬ k0_cond19 L k = 1#1 := fun h => by have := (cond19_cf L k).1 h; omega

      rw [restSems_take (F := F) d L cc0_scoped9 (by decide) (by decide) (by decide), slot_def g d L (A9) cc0_scratch3 1, slot_def g d L (A9) cc0_scratch3 1]
      iintro ⟨%hacc, #Hmw, H0, H1, H2, H3, H4, Hpend, Hdone, HslA, HslB, ⟨Hsc, Hsems⟩, %W', %hW', HO⟩
      obtain ⟨-, -, rfl⟩ := hacc
      ihave Hp := (pts_rng (F := F) d fullShare (f0 d) (show pos 2 L + k.val ≤ pos 2 L + k.val + 1 by omega) (show pos 2 L + k.val + 1 ≤ hiL L by omega)).1 $$ Hpend
      icases Hp with ⟨Hband, Hpend⟩
      ihave Hband' := (Entails.of_eq (pts_band_prog (F := F) d L (k0_off20_inb L k k0_hO) _ hq3 eDO (f0 d)).symm) $$ Hband
      icases HslB with ⟨%fs, (⟨%hidle, HB, HF⟩ | ⟨%q', %fd, %hq', HF⟩)⟩
      · sl_exec (disch := first | sc_amount | (revert hidle k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone]
        · rw [show rng (loL L) (pos 2 L + (k.val + 1) - 2) = rng (loL L) (pos 2 L + k.val - 2) from by
            rw [rng_empty (by unfold busy at hidle; omega), rng_empty (by unfold busy at hidle; omega)]]
          iexact Hdone
        isplitl [HslA]
        · iapply (slot_other g d L (A8) cc0_scratch2 (p := 0) (lo := loL L) (q := pos 2 L + k.val) (by omega) (by omega)) $$ HslA

        isplitl [HF]
        · iexists _
          iright
          iexists (pos 2 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off20_inb L k k0_hO) _ hq3 eDO _)) $$ Hd
              iexact Hd'
            · iexact Hs
          · ipureintro
            exact ⟨⟨hq1, by omega, by omega, hOd⟩,
              band_value_2 g d L (pos 2 L + k.val) hq3 (grid_t5 L k) _ (k0_off20_inb L k k0_hO) eDO _ (k0_off19_inb L k k0_hO) eSO (A9) _ (f0 d)⟩
        isplitl [Hsc Hsems]
        · isplitl [Hsc]; · iexact Hsc
          iexact Hsems
        iexists _; isplitr
        swap
        · iexact HO
        · ipureintro; intro p hp
          rcases Finset.mem_insert.mp hp with rfl | hp
          · exact .inr rfl
          · exact hW' p hp
      · have hbusy : busy 1 (loL L) (pos 2 L + k.val) := by unfold busy; omega
        sl_exec (disch := first | sc_amount | (revert hbusy k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone HF_dst]
        · obtain rfl : q' = pos 2 L + k.val - 2 := by omega
          iapply (pts_rng (F := F) d fullShare (fin g d) (a := loL L) (b := pos 2 L + k.val - 2) (c := pos 2 L + (k.val + 1) - 2) (by omega) (by omega)).2
          isplitl [Hdone]; · iexact Hdone
          rw [show pos 2 L + (k.val + 1) - 2 = pos 2 L + k.val - 2 + 1 from by omega, pointsTo_congr (f := fin g d) (g := fd) (fun j hj => (hq'.2 j hj).symm)]
          iexact HF_dst
        isplitl [HslA]
        · iapply (slot_other g d L (A8) cc0_scratch2 (p := 0) (lo := loL L) (q := pos 2 L + k.val) (by omega) (by omega)) $$ HslA

        isplitl [HF]
        · iexists _
          iright
          iexists (pos 2 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off20_inb L k k0_hO) _ hq3 eDO _)) $$ Hd
              iexact Hd'
            · iexact Hs
          · ipureintro
            exact ⟨⟨hq1, by omega, by omega, hOd⟩,
              band_value_2 g d L (pos 2 L + k.val) hq3 (grid_t5 L k) _ (k0_off20_inb L k k0_hO) eDO _ (k0_off19_inb L k k0_hO) eSO (A9) _ (f0 d)⟩
        isplitl [Hsc Hsems]
        · isplitl [Hsc]; · iexact Hsc
          iexact Hsems
        iexists _; isplitr
        swap
        · iexact HO
        · ipureintro; intro p hp
          rcases Finset.mem_insert.mp hp with rfl | hp
          · exact .inr rfl
          rcases Finset.mem_insert.mp hp with rfl | hp
          · exact .inr rfl
          · exact hW' p hp

  · iexact HI
  rw [show pos 2 L + Scf.trips (k0_t5_loop L).lb (k0_t5_loop L).ub (k0_t5_loop L).st = pos 3 L from trips_t5 L]
  iintro %acc HI
  sl_exec
  sl_for (fun _ acc => Inv g f0 d L O W (pos 3 L) acc) $$ [HI]
  case region =>
    intro k acc
    exact absurd (lt_of_lt_of_le k.isLt (k0_t6_abs L).2.1) (Nat.not_lt_zero _)
  · iexact HI
  iintro %acc HI
  sl_exec
  sl_for (fun k acc => Inv g f0 d L O W (pos 3 L + k) acc) $$ [HI]
  case region =>

    intro k acc
    have hq1 : loL L ≤ pos 3 L + k.val := by have := lo_le_pos 3 L; omega
    have hq2 : pos 3 L + k.val < hiL L := by
      have h1 := trips_t7 L; have h2 := pos_le_hi 4 L; have h3 : k.val < (k0_t7_loop L).trips := k.isLt; omega
    have hq3 : pos 3 L + k.val < 360 := by have := hiL_le L; omega
    have eDE : k0_off26 L k = bandOff (pos 3 L + k.val) := funext (off26_cf L k)
    have eDO : k0_off28 L k = bandOff (pos 3 L + k.val) := funext (off28_cf L k)
    have eSE : k0_off25 L k = srcOff (pos 3 L + k.val) := funext (off25_cf L k)
    have eSO : k0_off27 L k = srcOff (pos 3 L + k.val) := funext (off27_cf L k)
    unfold Inv
    rcases Nat.mod_two_eq_zero_or_one (pos 3 L + k.val) with hE | hOd
    · have k0_hE : k0_cond27 L k = 1#1 := (cond27_cf L k).2 hE
      have k0_hO : ¬ k0_cond28 L k = 1#1 := fun h => by have := (cond28_cf L k).1 h; omega

      rw [restSems_take (F := F) d L cc0_scoped12 (by decide) (by decide) (by decide), slot_def g d L (A8) cc0_scratch2 0, slot_def g d L (A8) cc0_scratch2 0]
      iintro ⟨%hacc, #Hmw, H0, H1, H2, H3, H4, Hpend, Hdone, HslA, HslB, ⟨Hsc, Hsems⟩, %W', %hW', HO⟩
      obtain ⟨-, -, rfl⟩ := hacc
      ihave Hp := (pts_rng (F := F) d fullShare (f0 d) (show pos 3 L + k.val ≤ pos 3 L + k.val + 1 by omega) (show pos 3 L + k.val + 1 ≤ hiL L by omega)).1 $$ Hpend
      icases Hp with ⟨Hband, Hpend⟩
      ihave Hband' := (Entails.of_eq (pts_band_prog (F := F) d L (k0_off26_inb L k k0_hE) _ hq3 eDE (f0 d)).symm) $$ Hband
      icases HslA with ⟨%fs, (⟨%hidle, HB, HF⟩ | ⟨%q', %fd, %hq', HF⟩)⟩
      · sl_exec (disch := first | sc_amount | (revert hidle k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone]
        · rw [show rng (loL L) (pos 3 L + (k.val + 1) - 2) = rng (loL L) (pos 3 L + k.val - 2) from by
            rw [rng_empty (by unfold busy at hidle; omega), rng_empty (by unfold busy at hidle; omega)]]
          iexact Hdone

        isplitl [HF]
        · iexists _
          iright
          iexists (pos 3 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off26_inb L k k0_hE) _ hq3 eDE _)) $$ Hd
              iexact Hd'
            · iexact Hs
          · ipureintro
            exact ⟨⟨hq1, by omega, by omega, hE⟩,
              band_value_3 g d L (pos 3 L + k.val) hq3 (grid_t7 L k) _ (k0_off26_inb L k k0_hE) eDE _ (k0_off25_inb L k k0_hE) eSE (A8) _ (f0 d)⟩
        isplitl [HslB]
        · iapply (slot_other g d L (A9) cc0_scratch3 (p := 1) (lo := loL L) (q := pos 3 L + k.val) (by omega) (by omega)) $$ HslB
        isplitl [Hsc Hsems]
        · isplitl [Hsc]; · iexact Hsc
          iexact Hsems
        iexists _; isplitr
        swap
        · iexact HO
        · ipureintro; intro p hp
          rcases Finset.mem_insert.mp hp with rfl | hp
          · exact .inr rfl
          · exact hW' p hp
      · have hbusy : busy 0 (loL L) (pos 3 L + k.val) := by unfold busy; omega
        sl_exec (disch := first | sc_amount | (revert hbusy k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone HF_dst]
        · obtain rfl : q' = pos 3 L + k.val - 2 := by omega
          iapply (pts_rng (F := F) d fullShare (fin g d) (a := loL L) (b := pos 3 L + k.val - 2) (c := pos 3 L + (k.val + 1) - 2) (by omega) (by omega)).2
          isplitl [Hdone]; · iexact Hdone
          rw [show pos 3 L + (k.val + 1) - 2 = pos 3 L + k.val - 2 + 1 from by omega, pointsTo_congr (f := fin g d) (g := fd) (fun j hj => (hq'.2 j hj).symm)]
          iexact HF_dst

        isplitl [HF]
        · iexists _
          iright
          iexists (pos 3 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off26_inb L k k0_hE) _ hq3 eDE _)) $$ Hd
              iexact Hd'
            · iexact Hs
          · ipureintro
            exact ⟨⟨hq1, by omega, by omega, hE⟩,
              band_value_3 g d L (pos 3 L + k.val) hq3 (grid_t7 L k) _ (k0_off26_inb L k k0_hE) eDE _ (k0_off25_inb L k k0_hE) eSE (A8) _ (f0 d)⟩
        isplitl [HslB]
        · iapply (slot_other g d L (A9) cc0_scratch3 (p := 1) (lo := loL L) (q := pos 3 L + k.val) (by omega) (by omega)) $$ HslB
        isplitl [Hsc Hsems]
        · isplitl [Hsc]; · iexact Hsc
          iexact Hsems
        iexists _; isplitr
        swap
        · iexact HO
        · ipureintro; intro p hp
          rcases Finset.mem_insert.mp hp with rfl | hp
          · exact .inr rfl
          rcases Finset.mem_insert.mp hp with rfl | hp
          · exact .inr rfl
          · exact hW' p hp
    · have k0_hO : k0_cond28 L k = 1#1 := (cond28_cf L k).2 hOd
      have k0_hE : ¬ k0_cond27 L k = 1#1 := fun h => by have := (cond27_cf L k).1 h; omega

      rw [restSems_take (F := F) d L cc0_scoped13 (by decide) (by decide) (by decide), slot_def g d L (A9) cc0_scratch3 1, slot_def g d L (A9) cc0_scratch3 1]
      iintro ⟨%hacc, #Hmw, H0, H1, H2, H3, H4, Hpend, Hdone, HslA, HslB, ⟨Hsc, Hsems⟩, %W', %hW', HO⟩
      obtain ⟨-, -, rfl⟩ := hacc
      ihave Hp := (pts_rng (F := F) d fullShare (f0 d) (show pos 3 L + k.val ≤ pos 3 L + k.val + 1 by omega) (show pos 3 L + k.val + 1 ≤ hiL L by omega)).1 $$ Hpend
      icases Hp with ⟨Hband, Hpend⟩
      ihave Hband' := (Entails.of_eq (pts_band_prog (F := F) d L (k0_off28_inb L k k0_hO) _ hq3 eDO (f0 d)).symm) $$ Hband
      icases HslB with ⟨%fs, (⟨%hidle, HB, HF⟩ | ⟨%q', %fd, %hq', HF⟩)⟩
      · sl_exec (disch := first | sc_amount | (revert hidle k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone]
        · rw [show rng (loL L) (pos 3 L + (k.val + 1) - 2) = rng (loL L) (pos 3 L + k.val - 2) from by
            rw [rng_empty (by unfold busy at hidle; omega), rng_empty (by unfold busy at hidle; omega)]]
          iexact Hdone
        isplitl [HslA]
        · iapply (slot_other g d L (A8) cc0_scratch2 (p := 0) (lo := loL L) (q := pos 3 L + k.val) (by omega) (by omega)) $$ HslA

        isplitl [HF]
        · iexists _
          iright
          iexists (pos 3 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off28_inb L k k0_hO) _ hq3 eDO _)) $$ Hd
              iexact Hd'
            · iexact Hs
          · ipureintro
            exact ⟨⟨hq1, by omega, by omega, hOd⟩,
              band_value_3 g d L (pos 3 L + k.val) hq3 (grid_t7 L k) _ (k0_off28_inb L k k0_hO) eDO _ (k0_off27_inb L k k0_hO) eSO (A9) _ (f0 d)⟩
        isplitl [Hsc Hsems]
        · isplitl [Hsc]; · iexact Hsc
          iexact Hsems
        iexists _; isplitr
        swap
        · iexact HO
        · ipureintro; intro p hp
          rcases Finset.mem_insert.mp hp with rfl | hp
          · exact .inr rfl
          · exact hW' p hp
      · have hbusy : busy 1 (loL L) (pos 3 L + k.val) := by unfold busy; omega
        sl_exec (disch := first | sc_amount | (revert hbusy k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone HF_dst]
        · obtain rfl : q' = pos 3 L + k.val - 2 := by omega
          iapply (pts_rng (F := F) d fullShare (fin g d) (a := loL L) (b := pos 3 L + k.val - 2) (c := pos 3 L + (k.val + 1) - 2) (by omega) (by omega)).2
          isplitl [Hdone]; · iexact Hdone
          rw [show pos 3 L + (k.val + 1) - 2 = pos 3 L + k.val - 2 + 1 from by omega, pointsTo_congr (f := fin g d) (g := fd) (fun j hj => (hq'.2 j hj).symm)]
          iexact HF_dst
        isplitl [HslA]
        · iapply (slot_other g d L (A8) cc0_scratch2 (p := 0) (lo := loL L) (q := pos 3 L + k.val) (by omega) (by omega)) $$ HslA

        isplitl [HF]
        · iexists _
          iright
          iexists (pos 3 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off28_inb L k k0_hO) _ hq3 eDO _)) $$ Hd
              iexact Hd'
            · iexact Hs
          · ipureintro
            exact ⟨⟨hq1, by omega, by omega, hOd⟩,
              band_value_3 g d L (pos 3 L + k.val) hq3 (grid_t7 L k) _ (k0_off28_inb L k k0_hO) eDO _ (k0_off27_inb L k k0_hO) eSO (A9) _ (f0 d)⟩
        isplitl [Hsc Hsems]
        · isplitl [Hsc]; · iexact Hsc
          iexact Hsems
        iexists _; isplitr
        swap
        · iexact HO
        · ipureintro; intro p hp
          rcases Finset.mem_insert.mp hp with rfl | hp
          · exact .inr rfl
          rcases Finset.mem_insert.mp hp with rfl | hp
          · exact .inr rfl
          · exact hW' p hp

  · iexact HI
  rw [show pos 3 L + Scf.trips (k0_t7_loop L).lb (k0_t7_loop L).ub (k0_t7_loop L).st = pos 4 L from trips_t7 L]
  iintro %acc HI
  sl_exec
  sl_for (fun _ acc => Inv g f0 d L O W (pos 4 L) acc) $$ [HI]
  case region =>
    intro k acc
    exact absurd (lt_of_lt_of_le k.isLt (k0_t8_abs L).2.1) (Nat.not_lt_zero _)
  · iexact HI
  iintro %acc HI
  sl_exec
  sl_for (fun k acc => Inv g f0 d L O W (pos 4 L + k) acc) $$ [HI]
  case region =>

    intro k acc
    have hq1 : loL L ≤ pos 4 L + k.val := by have := lo_le_pos 4 L; omega
    have hq2 : pos 4 L + k.val < hiL L := by
      have h1 := trips_t9 L; have h2 := pos_le_hi 5 L; have h3 : k.val < (k0_t9_loop L).trips := k.isLt; omega
    have hq3 : pos 4 L + k.val < 360 := by have := hiL_le L; omega
    have eDE : k0_off34 L k = bandOff (pos 4 L + k.val) := funext (off34_cf L k)
    have eDO : k0_off36 L k = bandOff (pos 4 L + k.val) := funext (off36_cf L k)
    have eSE : k0_off33 L k = srcOff (pos 4 L + k.val) := funext (off33_cf L k)
    have eSO : k0_off35 L k = srcOff (pos 4 L + k.val) := funext (off35_cf L k)
    unfold Inv
    rcases Nat.mod_two_eq_zero_or_one (pos 4 L + k.val) with hE | hOd
    · have k0_hE : k0_cond35 L k = 1#1 := (cond35_cf L k).2 hE
      have k0_hO : ¬ k0_cond36 L k = 1#1 := fun h => by have := (cond36_cf L k).1 h; omega

      rw [restSems_take (F := F) d L cc0_scoped16 (by decide) (by decide) (by decide), slot_def g d L (A8) cc0_scratch2 0, slot_def g d L (A8) cc0_scratch2 0]
      iintro ⟨%hacc, #Hmw, H0, H1, H2, H3, H4, Hpend, Hdone, HslA, HslB, ⟨Hsc, Hsems⟩, %W', %hW', HO⟩
      obtain ⟨-, -, rfl⟩ := hacc
      ihave Hp := (pts_rng (F := F) d fullShare (f0 d) (show pos 4 L + k.val ≤ pos 4 L + k.val + 1 by omega) (show pos 4 L + k.val + 1 ≤ hiL L by omega)).1 $$ Hpend
      icases Hp with ⟨Hband, Hpend⟩
      ihave Hband' := (Entails.of_eq (pts_band_prog (F := F) d L (k0_off34_inb L k k0_hE) _ hq3 eDE (f0 d)).symm) $$ Hband
      icases HslA with ⟨%fs, (⟨%hidle, HB, HF⟩ | ⟨%q', %fd, %hq', HF⟩)⟩
      · sl_exec (disch := first | sc_amount | (revert hidle k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone]
        · rw [show rng (loL L) (pos 4 L + (k.val + 1) - 2) = rng (loL L) (pos 4 L + k.val - 2) from by
            rw [rng_empty (by unfold busy at hidle; omega), rng_empty (by unfold busy at hidle; omega)]]
          iexact Hdone

        isplitl [HF]
        · iexists _
          iright
          iexists (pos 4 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off34_inb L k k0_hE) _ hq3 eDE _)) $$ Hd
              iexact Hd'
            · iexact Hs
          · ipureintro
            exact ⟨⟨hq1, by omega, by omega, hE⟩,
              band_value_4 g d L (pos 4 L + k.val) hq3 (grid_t9 L k) _ (k0_off34_inb L k k0_hE) eDE _ (k0_off33_inb L k k0_hE) eSE (A8) _ (f0 d)⟩
        isplitl [HslB]
        · iapply (slot_other g d L (A9) cc0_scratch3 (p := 1) (lo := loL L) (q := pos 4 L + k.val) (by omega) (by omega)) $$ HslB
        isplitl [Hsc Hsems]
        · isplitl [Hsc]; · iexact Hsc
          iexact Hsems
        iexists _; isplitr
        swap
        · iexact HO
        · ipureintro; intro p hp
          rcases Finset.mem_insert.mp hp with rfl | hp
          · exact .inr rfl
          · exact hW' p hp
      · have hbusy : busy 0 (loL L) (pos 4 L + k.val) := by unfold busy; omega
        sl_exec (disch := first | sc_amount | (revert hbusy k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone HF_dst]
        · obtain rfl : q' = pos 4 L + k.val - 2 := by omega
          iapply (pts_rng (F := F) d fullShare (fin g d) (a := loL L) (b := pos 4 L + k.val - 2) (c := pos 4 L + (k.val + 1) - 2) (by omega) (by omega)).2
          isplitl [Hdone]; · iexact Hdone
          rw [show pos 4 L + (k.val + 1) - 2 = pos 4 L + k.val - 2 + 1 from by omega, pointsTo_congr (f := fin g d) (g := fd) (fun j hj => (hq'.2 j hj).symm)]
          iexact HF_dst

        isplitl [HF]
        · iexists _
          iright
          iexists (pos 4 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off34_inb L k k0_hE) _ hq3 eDE _)) $$ Hd
              iexact Hd'
            · iexact Hs
          · ipureintro
            exact ⟨⟨hq1, by omega, by omega, hE⟩,
              band_value_4 g d L (pos 4 L + k.val) hq3 (grid_t9 L k) _ (k0_off34_inb L k k0_hE) eDE _ (k0_off33_inb L k k0_hE) eSE (A8) _ (f0 d)⟩
        isplitl [HslB]
        · iapply (slot_other g d L (A9) cc0_scratch3 (p := 1) (lo := loL L) (q := pos 4 L + k.val) (by omega) (by omega)) $$ HslB
        isplitl [Hsc Hsems]
        · isplitl [Hsc]; · iexact Hsc
          iexact Hsems
        iexists _; isplitr
        swap
        · iexact HO
        · ipureintro; intro p hp
          rcases Finset.mem_insert.mp hp with rfl | hp
          · exact .inr rfl
          rcases Finset.mem_insert.mp hp with rfl | hp
          · exact .inr rfl
          · exact hW' p hp
    · have k0_hO : k0_cond36 L k = 1#1 := (cond36_cf L k).2 hOd
      have k0_hE : ¬ k0_cond35 L k = 1#1 := fun h => by have := (cond35_cf L k).1 h; omega

      rw [restSems_take (F := F) d L cc0_scoped17 (by decide) (by decide) (by decide), slot_def g d L (A9) cc0_scratch3 1, slot_def g d L (A9) cc0_scratch3 1]
      iintro ⟨%hacc, #Hmw, H0, H1, H2, H3, H4, Hpend, Hdone, HslA, HslB, ⟨Hsc, Hsems⟩, %W', %hW', HO⟩
      obtain ⟨-, -, rfl⟩ := hacc
      ihave Hp := (pts_rng (F := F) d fullShare (f0 d) (show pos 4 L + k.val ≤ pos 4 L + k.val + 1 by omega) (show pos 4 L + k.val + 1 ≤ hiL L by omega)).1 $$ Hpend
      icases Hp with ⟨Hband, Hpend⟩
      ihave Hband' := (Entails.of_eq (pts_band_prog (F := F) d L (k0_off36_inb L k k0_hO) _ hq3 eDO (f0 d)).symm) $$ Hband
      icases HslB with ⟨%fs, (⟨%hidle, HB, HF⟩ | ⟨%q', %fd, %hq', HF⟩)⟩
      · sl_exec (disch := first | sc_amount | (revert hidle k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone]
        · rw [show rng (loL L) (pos 4 L + (k.val + 1) - 2) = rng (loL L) (pos 4 L + k.val - 2) from by
            rw [rng_empty (by unfold busy at hidle; omega), rng_empty (by unfold busy at hidle; omega)]]
          iexact Hdone
        isplitl [HslA]
        · iapply (slot_other g d L (A8) cc0_scratch2 (p := 0) (lo := loL L) (q := pos 4 L + k.val) (by omega) (by omega)) $$ HslA

        isplitl [HF]
        · iexists _
          iright
          iexists (pos 4 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off36_inb L k k0_hO) _ hq3 eDO _)) $$ Hd
              iexact Hd'
            · iexact Hs
          · ipureintro
            exact ⟨⟨hq1, by omega, by omega, hOd⟩,
              band_value_4 g d L (pos 4 L + k.val) hq3 (grid_t9 L k) _ (k0_off36_inb L k k0_hO) eDO _ (k0_off35_inb L k k0_hO) eSO (A9) _ (f0 d)⟩
        isplitl [Hsc Hsems]
        · isplitl [Hsc]; · iexact Hsc
          iexact Hsems
        iexists _; isplitr
        swap
        · iexact HO
        · ipureintro; intro p hp
          rcases Finset.mem_insert.mp hp with rfl | hp
          · exact .inr rfl
          · exact hW' p hp
      · have hbusy : busy 1 (loL L) (pos 4 L + k.val) := by unfold busy; omega
        sl_exec (disch := first | sc_amount | (revert hbusy k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone HF_dst]
        · obtain rfl : q' = pos 4 L + k.val - 2 := by omega
          iapply (pts_rng (F := F) d fullShare (fin g d) (a := loL L) (b := pos 4 L + k.val - 2) (c := pos 4 L + (k.val + 1) - 2) (by omega) (by omega)).2
          isplitl [Hdone]; · iexact Hdone
          rw [show pos 4 L + (k.val + 1) - 2 = pos 4 L + k.val - 2 + 1 from by omega, pointsTo_congr (f := fin g d) (g := fd) (fun j hj => (hq'.2 j hj).symm)]
          iexact HF_dst
        isplitl [HslA]
        · iapply (slot_other g d L (A8) cc0_scratch2 (p := 0) (lo := loL L) (q := pos 4 L + k.val) (by omega) (by omega)) $$ HslA

        isplitl [HF]
        · iexists _
          iright
          iexists (pos 4 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off36_inb L k k0_hO) _ hq3 eDO _)) $$ Hd
              iexact Hd'
            · iexact Hs
          · ipureintro
            exact ⟨⟨hq1, by omega, by omega, hOd⟩,
              band_value_4 g d L (pos 4 L + k.val) hq3 (grid_t9 L k) _ (k0_off36_inb L k k0_hO) eDO _ (k0_off35_inb L k k0_hO) eSO (A9) _ (f0 d)⟩
        isplitl [Hsc Hsems]
        · isplitl [Hsc]; · iexact Hsc
          iexact Hsems
        iexists _; isplitr
        swap
        · iexact HO
        · ipureintro; intro p hp
          rcases Finset.mem_insert.mp hp with rfl | hp
          · exact .inr rfl
          rcases Finset.mem_insert.mp hp with rfl | hp
          · exact .inr rfl
          · exact hW' p hp

  · iexact HI
  rw [show pos 4 L + Scf.trips (k0_t9_loop L).lb (k0_t9_loop L).ub (k0_t9_loop L).st = pos 5 L from trips_t9 L]
  iintro %acc HI
  sl_exec
  sl_for (fun _ acc => Inv g f0 d L O W (pos 5 L) acc) $$ [HI]
  case region =>
    intro k acc
    exact absurd (lt_of_lt_of_le k.isLt (k0_t10_abs L).2.1) (Nat.not_lt_zero _)
  · iexact HI
  unfold Inv
  rw [slot_def g d L (A8) cc0_scratch2 0, slot_def g d L (A9) cc0_scratch3 1, pos_five, rng_empty (le_refl (hiL L)), pointsTo_empty]
  iintro %acc ⟨%hacc, -, H0, H1, H2, H3, H4, -, Hdone, ⟨%fsA, (⟨%hiA, HBA, HFA⟩ | ⟨%qA, %fdA, %hqA, HFA⟩)⟩, ⟨%fsB, (⟨%hiB, HBB, HFB⟩ | ⟨%qB, %fdB, %hqB, HFB⟩)⟩, Hsems, %W', %hW', HO⟩
  · exfalso; have := lo_add_le_hi L; unfold busy at hiA; omega
  · exfalso; have := lo_add_le_hi L; unfold busy at hiA; omega
  · exfalso; have := lo_add_le_hi L; unfold busy at hiB; omega
  obtain ⟨-, -, rfl⟩ := hacc
  sl_exec (disch := (clear * - L; revert L; decide +kernel))
  sl_step
  have h11 := lo_add_le_hi L
  isplitl [H0 H1 H2 H3 H4 Hdone HFA_dst HFB_dst]
  · isplitl [H0 H1 H2 H3 H4]
    · isplitl [H0]; · iexact H0
      isplitl [H1]; · iexact H1
      isplitl [H2]; · iexact H2
      isplitl [H3]; · iexact H3
      iexact H4
    · unfold outDone
      iexists (fin g d)
      isplitr
      · ipureintro; exact fun j _ => rfl
      rw [show rng (lo (widL L).val) (lo ((widL L).val + 1)) = rng (loL L) (hiL L) from rfl]
      rcases Nat.mod_two_eq_zero_or_one (hiL L) with hpe | hpo
      · obtain rfl : qA = hiL L - 2 := by omega
        obtain rfl : qB = hiL L - 1 := by omega
        iapply (pts_rng (F := F) d fullShare (fin g d) (a := loL L) (b := hiL L - 2) (c := hiL L) (by omega) (by omega)).2
        isplitl [Hdone]; · iexact Hdone
        iapply (pts_rng (F := F) d fullShare (fin g d) (a := hiL L - 2) (b := hiL L - 1) (c := hiL L) (by omega) (by omega)).2
        isplitl [HFA_dst]
        · rw [show rng (hiL L - 2) (hiL L - 1) = rng (hiL L - 2) (hiL L - 2 + 1) from by rw [show hiL L - 2 + 1 = hiL L - 1 from by omega],
            pointsTo_congr (f := fin g d) (g := fdA) (fun j hj => (hqA.2 j hj).symm)]
          iexact HFA_dst
        · rw [show rng (hiL L - 1) (hiL L) = rng (hiL L - 1) (hiL L - 1 + 1) from by rw [show hiL L - 1 + 1 = hiL L from by omega],
            pointsTo_congr (f := fin g d) (g := fdB) (fun j hj => (hqB.2 j hj).symm)]
          iexact HFB_dst
      · obtain rfl : qB = hiL L - 2 := by omega
        obtain rfl : qA = hiL L - 1 := by omega
        iapply (pts_rng (F := F) d fullShare (fin g d) (a := loL L) (b := hiL L - 2) (c := hiL L) (by omega) (by omega)).2
        isplitl [Hdone]; · iexact Hdone
        iapply (pts_rng (F := F) d fullShare (fin g d) (a := hiL L - 2) (b := hiL L - 1) (c := hiL L) (by omega) (by omega)).2
        isplitl [HFB_dst]
        · rw [show rng (hiL L - 2) (hiL L - 1) = rng (hiL L - 2) (hiL L - 2 + 1) from by rw [show hiL L - 2 + 1 = hiL L - 1 from by omega],
            pointsTo_congr (f := fin g d) (g := fdB) (fun j hj => (hqB.2 j hj).symm)]
          iexact HFB_dst
        · rw [show rng (hiL L - 1) (hiL L) = rng (hiL L - 1) (hiL L - 1 + 1) from by rw [show hiL L - 1 + 1 = hiL L from by omega],
            pointsTo_congr (f := fin g d) (g := fdA) (fun j hj => (hqA.2 j hj).symm)]
          iexact HFA_dst
  isplitl [HFA_src HFB_src Hbufs]
  · isplitl [HFA_src]
    · iexists _; iapply (Entails.of_eq (pts_A8 (F := F) d L _)); iexact HFA_src
    isplitl [HFB_src]
    · iexists _; iapply (Entails.of_eq (pts_A9 (F := F) d L _)); iexact HFB_src
    iexact Hbufs
  isplitl [HFA HFB Hsems]
  · isplitl [HFA]; · iexact HFA
    isplitl [HFB]; · iexact HFB
    iexact Hsems
  iexists _; isplitr
  swap
  · iexact HO
  · ipureintro; intro p hp
    rcases Finset.mem_insert.mp hp with rfl | hp
    · exact .inr rfl
    rcases Finset.mem_insert.mp hp with rfl | hp
    · exact .inr rfl
    · exact hW' p hp

theorem tileObl : (K (F := F)).TileObl (D (F := F)) 𝒱 (P g f0) v₀ 0 := by
  intro d c i O W hO _ _
  simp only [show (P g f0).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body g f0 d (coordsV ⟨_, hc.1⟩ ⟨_, hc.2⟩) O W hO).trans (wp_mono frame _ _ fun _ => obl_post)

end Cert.KernelIdeal.Hand

end
-- ==== Proof.KI.TcBody.lean ====
/-
  The TensorCore kernel's body on any whole staging buffers: from the nine input buffers at their contents and the
  output buffer at anything, the body runs, leaving the inputs as they were and the output buffer written by the
  body's twenty-one channel stores, each a 1 × 1 × 24 × 1024 slab; the list of those stores is the witness.
-/
import proofs.«206564_g5145370820828_cont_8to1c4_476_13_alg».proof.Proof.KI.Setup
import proofs.«206564_g5145370820828_cont_8to1c4_476_13_alg».proof.Proof.Gen.KernelIdeal.Launch
import proofs.«206564_g5145370820828_cont_8to1c4_476_13_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

set_option maxHeartbeats 4000000 in
/-- What the body's stores leave in the output's staging buffer, as pieces (last first), with the proof that on whole
    staging buffers the body runs to the continuation holding the inputs as they were and the output buffer with
    those pieces written. -/
noncomputable def tcRun (c : Dev nD) (i : grid1.Coords) (arg2 : Memref sig .tc .vmem S24x1024 .i32) (harg2 : arg2.IsWhole) (arg3 : Memref sig .tc .vmem S1x1024 .f32) (harg3 : arg3.IsWhole) (arg4 : Memref sig .tc .vmem S10x1024 .f32) (harg4 : arg4.IsWhole) (arg5 : Memref sig .tc .vmem S24x1024 .f32) (harg5 : arg5.IsWhole) (arg6 : Memref sig .tc .vmem S24x1024 .f32) (harg6 : arg6.IsWhole) (arg7 : Memref sig .tc .vmem S24x1024 .f32) (harg7 : arg7.IsWhole) (arg8 : Memref sig .tc .vmem S24x1024 .f32) (harg8 : arg8.IsWhole) (arg9 : Memref sig .tc .vmem S24x1024 .f32) (harg9 : arg9.IsWhole) (arg10 : Memref sig .tc .smem S4x5 .f32) (harg10 : arg10.IsWhole) (arg12 : Memref sig .tc .vmem S1x21x24x1024 .f32) (harg12 : arg12.IsWhole)
    (x0 : Vec F S24x1024 .i32) (x1 : Vec F S1x1024 .f32) (x2 : Vec F S10x1024 .f32) (x3 x4 x5 x6 x7 : Vec F S24x1024 .f32) (x8 : Vec F S4x5 .f32) :
    { L : List (View.Piece (Elt F) S1x21x24x1024 .f32) //
      ∀ (E : Set ℕ) (K : PUnit → sProp 𝕄),
        iprop(owns (c.tc : Thread nD τ) arg2 fullShare x0 ∗ owns (c.tc : Thread nD τ) arg3 fullShare x1 ∗ owns (c.tc : Thread nD τ) arg4 fullShare x2 ∗ owns (c.tc : Thread nD τ) arg5 fullShare x3 ∗ owns (c.tc : Thread nD τ) arg6 fullShare x4 ∗ owns (c.tc : Thread nD τ) arg7 fullShare x5 ∗ owns (c.tc : Thread nD τ) arg8 fullShare x6 ∗ owns (c.tc : Thread nD τ) arg9 fullShare x7 ∗ owns (c.tc : Thread nD τ) arg10 fullShare x8 ∗ (∃ d, owns (c.tc : Thread nD τ) arg12 fullShare d)
            ∗ (iprop(owns (c.tc : Thread nD τ) arg2 fullShare x0 ∗ owns (c.tc : Thread nD τ) arg3 fullShare x1 ∗ owns (c.tc : Thread nD τ) arg4 fullShare x2 ∗ owns (c.tc : Thread nD τ) arg5 fullShare x3 ∗ owns (c.tc : Thread nD τ) arg6 fullShare x4 ∗ owns (c.tc : Thread nD τ) arg7 fullShare x5 ∗ owns (c.tc : Thread nD τ) arg8 fullShare x6 ∗ owns (c.tc : Thread nD τ) arg9 fullShare x7 ∗ owns (c.tc : Thread nD τ) arg10 fullShare x8 ∗ (∃ f, arg12.view.loc (c.tc : Thread nD τ) ↦[arg12.view.set]{fullShare} arg12.view.writes (Elt F) f L)) -∗ K ⟨⟩))
          ⊢ wp frame (wpE (defs₀ (F := F)) 𝒱₀ (c.tc : Thread nD τ) none) E (cc1__tc_body i arg2 harg2 arg3 harg3 arg4 harg4 arg5 harg5 arg6 harg6 arg7 harg7 arg8 harg8 arg9 harg9 arg10 harg10 (Memref.whole main_v24) (Memref.isWhole_whole _) arg12 harg12) K } := by
  refine ⟨?_, fun E K => ?run⟩
  case run =>
    simp only [cc1__tc_body_eq_skeleton]; unfold cc1__tc_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact H9

end Cert.KernelIdeal.Hand

end
-- ==== Proof.KI.TcRegion.lean ====
/-
  The TensorCore kernel's region as one step of the TensorCore's program: the pipeline's proof data over a valuation of
  the TensorCore's arrays (each input window's staging buffer holds its block of the array, the output window's what the
  body's stores leave), the body obligation from the body's run, the wait evidence (the pipeline's waits sit at the
  index no handshake uses, below everything the core owes), the region record, and the step itself: from the region
  boundary, the ten windowed arrays whole, the core's debts and the staging cells' launch state, the region's call
  runs to the boundary, the nine operands unchanged and the result array at what the write-backs left.
-/
import proofs.«206564_g5145370820828_cont_8to1c4_476_13_alg».proof.Proof.KI.TcBody
import Idealize.ShloMosaic.Lib.Pipeline.Regions
import Idealize.ShloMosaic.Lib.Pipeline.Value

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.SparseCore (S T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c.tc : Thread nD τ).loc b))
variable (O : Dev nD → CellTallies nD τ sig (HIx 1)) (W₀ : Dev nD → Waits sig (HIx 1))

/-- The pipeline has no prefetched table. -/
abbrev adm : (p : Fin 1) → (pcfgs (F := F) p).Adm := fun p => (cfgs p).toPCfg_adm

/-! ## The windows' blocks and current staging buffers -/

/-- Window `w`'s block at point `t`, read off its array. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One staging buffer of the output window, through which its contents are stated. -/
abbrev VO : View sig .tc .vmem S1x21x24x1024 .f32 := (Memref.whole cc1_stg9_0 : Memref sig .tc .vmem S1x21x24x1024 .f32).view

abbrev ms1_0 (t : Fin cfg1.N) : Memref sig .tc .vmem S24x1024 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S10x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S24x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S24x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S24x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S24x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S24x1024 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .smem S4x5 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x21x24x1024 .f32 := win1_9.stage (cfg1.slots t 9)
abbrev hs1_9 (t : Fin cfg1.N) : (ms1_9 t).IsWhole := hstage1_9 ((cfg1.slots t 9).cast nbuf1_9)

/-- The body's stores tile the output block (21 slabs of one channel each), so they cover it. -/
theorem cover9 (c : Dev nD) (i : grid1.Coords) (arg2 : Memref sig .tc .vmem S24x1024 .i32) (harg2 : arg2.IsWhole) (arg3 : Memref sig .tc .vmem S1x1024 .f32) (harg3 : arg3.IsWhole) (arg4 : Memref sig .tc .vmem S10x1024 .f32) (harg4 : arg4.IsWhole) (arg5 : Memref sig .tc .vmem S24x1024 .f32) (harg5 : arg5.IsWhole) (arg6 : Memref sig .tc .vmem S24x1024 .f32) (harg6 : arg6.IsWhole) (arg7 : Memref sig .tc .vmem S24x1024 .f32) (harg7 : arg7.IsWhole) (arg8 : Memref sig .tc .vmem S24x1024 .f32) (harg8 : arg8.IsWhole) (arg9 : Memref sig .tc .vmem S24x1024 .f32) (harg9 : arg9.IsWhole) (arg10 : Memref sig .tc .smem S4x5 .f32) (harg10 : arg10.IsWhole) (arg12 : Memref sig .tc .vmem S1x21x24x1024 .f32) (harg12 : arg12.IsWhole)
    (x0 : Vec F S24x1024 .i32) (x1 : Vec F S1x1024 .f32) (x2 : Vec F S10x1024 .f32) (x3 x4 x5 x6 x7 : Vec F S24x1024 .f32) (x8 : Vec F S4x5 .f32) (y : S1x21x24x1024.Idx) :
    ∃ pc ∈ (tcRun c i arg2 harg2 arg3 harg3 arg4 harg4 arg5 harg5 arg6 harg6 arg7 harg7 arg8 harg8 arg9 harg9 arg10 harg10 arg12 harg12 x0 x1 x2 x3 x4 x5 x6 x7 x8).1, y ∈ pc.1.set :=
  View.cover_of_tiledL (tcRun c i arg2 harg2 arg3 harg3 arg4 harg4 arg5 harg5 arg6 harg6 arg7 harg7 arg8 harg8 arg9 harg9 arg10 harg10 arg12 harg12 x0 x1 x2 x3 x4 x5 x6 x7 x8).1 S1x1x24x1024.size (by sl_kernel_rfl) y

/-- What the body leaves in the output's staging buffer at point `t`: its stores read back. -/
def outAt (c : Dev nD) (t : Fin cfg1.N) : Vec F S1x21x24x1024 .f32 :=
  VO.read (Elt F) (VO.writes (Elt F) VO.junk (tcRun c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk V c 0 t) (iblk V c 1 t) (iblk V c 2 t) (iblk V c 3 t) (iblk V c 4 t) (iblk V c 5 t) (iblk V c 6 t) (iblk V c 7 t) (iblk V c 8 t)).1)

/-! ## The proof data -/

/-- The pipeline's proof data on core `c`: the arrays at the valuation; after the body each input's buffer at its
    block and the output's at `outAt`; nothing carried between points; the core owes `O c` throughout, its
    recorded pairs within `W₀ c` and the pipeline's own. -/
def dats (_ : Fin 1) (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => outAt V c t
  Φ _ := BI.emp
  q _ := fullShare
  owed _ := O c
  recorded _ := ↑(W₀ c)

theorem A_eq (c : Dev nD) (w : Fin cfg1.W) : (dats V O W₀ 0 c).A w = V c (Pipeline.arrRef spec1 w) := by
  dsimp only [dats]

theorem after1_0 (c : Dev nD) (t : Fin cfg1.N) : (dats V O W₀ 0 c).after 0 t = iblk V c 0 t := by dsimp only [dats]
theorem after1_1 (c : Dev nD) (t : Fin cfg1.N) : (dats V O W₀ 0 c).after 1 t = iblk V c 1 t := by dsimp only [dats]
theorem after1_2 (c : Dev nD) (t : Fin cfg1.N) : (dats V O W₀ 0 c).after 2 t = iblk V c 2 t := by dsimp only [dats]
theorem after1_3 (c : Dev nD) (t : Fin cfg1.N) : (dats V O W₀ 0 c).after 3 t = iblk V c 3 t := by dsimp only [dats]
theorem after1_4 (c : Dev nD) (t : Fin cfg1.N) : (dats V O W₀ 0 c).after 4 t = iblk V c 4 t := by dsimp only [dats]
theorem after1_5 (c : Dev nD) (t : Fin cfg1.N) : (dats V O W₀ 0 c).after 5 t = iblk V c 5 t := by dsimp only [dats]
theorem after1_6 (c : Dev nD) (t : Fin cfg1.N) : (dats V O W₀ 0 c).after 6 t = iblk V c 6 t := by dsimp only [dats]
theorem after1_7 (c : Dev nD) (t : Fin cfg1.N) : (dats V O W₀ 0 c).after 7 t = iblk V c 7 t := by dsimp only [dats]
theorem after1_8 (c : Dev nD) (t : Fin cfg1.N) : (dats V O W₀ 0 c).after 8 t = iblk V c 8 t := by dsimp only [dats]
theorem after1_9 (c : Dev nD) (t : Fin cfg1.N) : (dats V O W₀ 0 c).after 9 t = outAt V c t := by dsimp only [dats]

/-- Input window 0's current staging buffer holds its block at every point, fetched there or not. -/
theorem before1_0 (c : Dev nD) (t : Fin cfg1.N) (d) : (dats V O W₀ 0 c).before 0 t d = iblk V c 0 t :=
  ((dats V O W₀ 0 c).before_in_eq_fetched 0 rfl (fun _ => rfl) (fun _ _ _ => rfl) (fun t => by rw [after1_0]; unfold Dat.blockOf iblk; rw [A_eq]; try rfl) t d).trans
    (by unfold Dat.fetched Dat.blockOf iblk; rw [A_eq]; try rfl)
/-- Input window 1's current staging buffer holds its block at every point, fetched there or not. -/
theorem before1_1 (c : Dev nD) (t : Fin cfg1.N) (d) : (dats V O W₀ 0 c).before 1 t d = iblk V c 1 t :=
  ((dats V O W₀ 0 c).before_in_eq_fetched 1 rfl (fun _ => rfl) (fun _ _ _ => rfl) (fun t => by rw [after1_1]; unfold Dat.blockOf iblk; rw [A_eq]; try rfl) t d).trans
    (by unfold Dat.fetched Dat.blockOf iblk; rw [A_eq]; try rfl)
/-- Input window 2's current staging buffer holds its block at every point, fetched there or not. -/
theorem before1_2 (c : Dev nD) (t : Fin cfg1.N) (d) : (dats V O W₀ 0 c).before 2 t d = iblk V c 2 t :=
  ((dats V O W₀ 0 c).before_in_eq_fetched 2 rfl (fun _ => rfl) (fun _ _ _ => rfl) (fun t => by rw [after1_2]; unfold Dat.blockOf iblk; rw [A_eq]; try rfl) t d).trans
    (by unfold Dat.fetched Dat.blockOf iblk; rw [A_eq]; try rfl)
/-- Input window 3's current staging buffer holds its block at every point, fetched there or not. -/
theorem before1_3 (c : Dev nD) (t : Fin cfg1.N) (d) : (dats V O W₀ 0 c).before 3 t d = iblk V c 3 t :=
  ((dats V O W₀ 0 c).before_in_eq_fetched 3 rfl (fun _ => rfl) (fun _ _ _ => rfl) (fun t => by rw [after1_3]; unfold Dat.blockOf iblk; rw [A_eq]; try rfl) t d).trans
    (by unfold Dat.fetched Dat.blockOf iblk; rw [A_eq]; try rfl)
/-- Input window 4's current staging buffer holds its block at every point, fetched there or not. -/
theorem before1_4 (c : Dev nD) (t : Fin cfg1.N) (d) : (dats V O W₀ 0 c).before 4 t d = iblk V c 4 t :=
  ((dats V O W₀ 0 c).before_in_eq_fetched 4 rfl (fun _ => rfl) (fun _ _ _ => rfl) (fun t => by rw [after1_4]; unfold Dat.blockOf iblk; rw [A_eq]; try rfl) t d).trans
    (by unfold Dat.fetched Dat.blockOf iblk; rw [A_eq]; try rfl)
/-- Input window 5's current staging buffer holds its block at every point, fetched there or not. -/
theorem before1_5 (c : Dev nD) (t : Fin cfg1.N) (d) : (dats V O W₀ 0 c).before 5 t d = iblk V c 5 t :=
  ((dats V O W₀ 0 c).before_in_eq_fetched 5 rfl (fun _ => rfl) (fun _ _ _ => rfl) (fun t => by rw [after1_5]; unfold Dat.blockOf iblk; rw [A_eq]; try rfl) t d).trans
    (by unfold Dat.fetched Dat.blockOf iblk; rw [A_eq]; try rfl)
/-- Input window 6's current staging buffer holds its block at every point, fetched there or not. -/
theorem before1_6 (c : Dev nD) (t : Fin cfg1.N) (d) : (dats V O W₀ 0 c).before 6 t d = iblk V c 6 t :=
  ((dats V O W₀ 0 c).before_in_eq_fetched 6 rfl (fun _ => rfl) (fun _ _ _ => rfl) (fun t => by rw [after1_6]; unfold Dat.blockOf iblk; rw [A_eq]; try rfl) t d).trans
    (by unfold Dat.fetched Dat.blockOf iblk; rw [A_eq]; try rfl)
/-- Input window 7's current staging buffer holds its block at every point, fetched there or not. -/
theorem before1_7 (c : Dev nD) (t : Fin cfg1.N) (d) : (dats V O W₀ 0 c).before 7 t d = iblk V c 7 t :=
  ((dats V O W₀ 0 c).before_in_eq_fetched 7 rfl (fun _ => rfl) (fun _ _ _ => rfl) (fun t => by rw [after1_7]; unfold Dat.blockOf iblk; rw [A_eq]; try rfl) t d).trans
    (by unfold Dat.fetched Dat.blockOf iblk; rw [A_eq]; try rfl)
/-- Input window 8's current staging buffer holds its block at every point, fetched there or not. -/
theorem before1_8 (c : Dev nD) (t : Fin cfg1.N) (d) : (dats V O W₀ 0 c).before 8 t d = iblk V c 8 t :=
  ((dats V O W₀ 0 c).before_in_eq_fetched 8 rfl (fun _ => rfl) (fun _ _ _ => rfl) (fun t => by rw [after1_8]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg1.N) : sProp 𝕄 :=
  iprop((dats V O W₀ 0 c).Φ t.castSucc ∗ (dats V O W₀ 0 c).owesAt none t.castSucc
    ∗ (∃ d, owns (c.tc : Thread nD τ) (ms1_0 t) fullShare ((dats V O W₀ 0 c).before 0 t d))
    ∗ (∃ d, owns (c.tc : Thread nD τ) (ms1_1 t) fullShare ((dats V O W₀ 0 c).before 1 t d))
    ∗ (∃ d, owns (c.tc : Thread nD τ) (ms1_2 t) fullShare ((dats V O W₀ 0 c).before 2 t d))
    ∗ (∃ d, owns (c.tc : Thread nD τ) (ms1_3 t) fullShare ((dats V O W₀ 0 c).before 3 t d))
    ∗ (∃ d, owns (c.tc : Thread nD τ) (ms1_4 t) fullShare ((dats V O W₀ 0 c).before 4 t d))
    ∗ (∃ d, owns (c.tc : Thread nD τ) (ms1_5 t) fullShare ((dats V O W₀ 0 c).before 5 t d))
    ∗ (∃ d, owns (c.tc : Thread nD τ) (ms1_6 t) fullShare ((dats V O W₀ 0 c).before 6 t d))
    ∗ (∃ d, owns (c.tc : Thread nD τ) (ms1_7 t) fullShare ((dats V O W₀ 0 c).before 7 t d))
    ∗ (∃ d, owns (c.tc : Thread nD τ) (ms1_8 t) fullShare ((dats V O W₀ 0 c).before 8 t d))
    ∗ (∃ d, owns (c.tc : Thread nD τ) (ms1_9 t) fullShare ((dats V O W₀ 0 c).before 9 t d)))

/-- and what it returns. -/
def bodyPost (c : Dev nD) (t : Fin cfg1.N) : sProp 𝕄 :=
  iprop((dats V O W₀ 0 c).Φ t.succ ∗ (dats V O W₀ 0 c).owesAt none t.succ
    ∗ owns (c.tc : Thread nD τ) (ms1_0 t) fullShare ((dats V O W₀ 0 c).after 0 t)
    ∗ owns (c.tc : Thread nD τ) (ms1_1 t) fullShare ((dats V O W₀ 0 c).after 1 t)
    ∗ owns (c.tc : Thread nD τ) (ms1_2 t) fullShare ((dats V O W₀ 0 c).after 2 t)
    ∗ owns (c.tc : Thread nD τ) (ms1_3 t) fullShare ((dats V O W₀ 0 c).after 3 t)
    ∗ owns (c.tc : Thread nD τ) (ms1_4 t) fullShare ((dats V O W₀ 0 c).after 4 t)
    ∗ owns (c.tc : Thread nD τ) (ms1_5 t) fullShare ((dats V O W₀ 0 c).after 5 t)
    ∗ owns (c.tc : Thread nD τ) (ms1_6 t) fullShare ((dats V O W₀ 0 c).after 6 t)
    ∗ owns (c.tc : Thread nD τ) (ms1_7 t) fullShare ((dats V O W₀ 0 c).after 7 t)
    ∗ owns (c.tc : Thread nD τ) (ms1_8 t) fullShare ((dats V O W₀ 0 c).after 8 t)
    ∗ owns (c.tc : Thread nD τ) (ms1_9 t) fullShare ((dats V O W₀ 0 c).after 9 t))

/-- The body at any point: the inputs' buffers hold their blocks, so the run applies; the core's debts pass through
    unread. -/
theorem sound_body (c : Dev nD) (t : Fin cfg1.N) :
    bodyPre V O W₀ c t ⊢ wp frame (wpE (defs₀ (F := F)) 𝒱₀ (c.tc : Thread nD τ) none) Set.univ (bodyAt1 t) (fun _ => bodyPost V O W₀ c t) := by
  unfold bodyPre bodyPost bodyAt1
  simp only [before1_0, before1_1, before1_2, before1_3, before1_4, before1_5, before1_6, before1_7, before1_8]
  rw [show (dats V O W₀ 0 c).Φ t.succ = (dats V O W₀ 0 c).Φ t.castSucc from rfl,
    show (dats V O W₀ 0 c).owesAt none t.succ = (dats V O W₀ 0 c).owesAt none t.castSucc from rfl,
    after1_0, after1_1, after1_2, after1_3, after1_4, after1_5, after1_6, after1_7, after1_8, after1_9]
  unfold outAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((tcRun c (grid1.coords t) _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (cover9 c _ _ _ _ _ _ _ _ _ _ _ _ _ _ _ _ _ _ _ _ _ _ _ _ _ _ _ _ _ _)

/-- The library's body obligation, at every point. -/
theorem body_obligation (c : Dev nD) : BodyObligation (dats (F := F) V O W₀ 0 c) (defs₀ (F := F)) 𝒱₀ (none : HIx 1) Set.univ := fun t => by
  rw [bigSep_W1, bigSep_W1]
  exact sound_body V O W₀ c t

/-! ## The windowed arrays, as points-tos of the buffers behind them -/

/-- The ten windowed arrays' buffers, each whole at the full share, at contents `G`. -/
def arrs (c : Dev nD) (G : (w : Fin cfg1.W) → Buf (Elt F) ((cfg1.win w).arr.view.loc (c.tc : Thread nD τ))) : sProp 𝕄 :=
  bigSep Finset.univ fun w : Fin cfg1.W => (((c.tc : Thread nD τ).loc (Pipeline.arrRef spec1 w)) ↦{fullShare} G w : sProp 𝕄)

/-- One by one. -/
theorem arrs_eq (c : Dev nD) (G : (w : Fin cfg1.W) → Buf (Elt F) ((cfg1.win w).arr.view.loc (c.tc : Thread nD τ))) :
    arrs c G = iprop((((c.tc : Thread nD τ).loc main_v1) ↦{fullShare} G 0) ∗ (((c.tc : Thread nD τ).loc main_v2) ↦{fullShare} G 1) ∗ (((c.tc : Thread nD τ).loc main_v3) ↦{fullShare} G 2) ∗ (((c.tc : Thread nD τ).loc main_v5) ↦{fullShare} G 3) ∗ (((c.tc : Thread nD τ).loc main_v7) ↦{fullShare} G 4) ∗ (((c.tc : Thread nD τ).loc main_v9) ↦{fullShare} G 5) ∗ (((c.tc : Thread nD τ).loc main_v11) ↦{fullShare} G 6) ∗ (((c.tc : Thread nD τ).loc main_v13) ↦{fullShare} G 7) ∗ (((c.tc : Thread nD τ).loc main_arg13) ↦{fullShare} G 8) ∗ (((c.tc : Thread nD τ).loc main_v25) ↦{fullShare} G 9)) := by
  unfold arrs; rw [bigSep_W1]

/-- The pipeline's arrays, held whole at the full share, are those points-tos. -/
theorem arrays_eq' (c : Dev nD) (G : (w : Fin cfg1.W) → Buf (Elt F) ((cfg1.win w).arr.view.loc (c.tc : Thread nD τ))) :
    (dats V O W₀ 0 c).arrays G = arrs c G := by
  unfold Dat.arrays arrs
  exact bigSep_congr fun w _ => by rw [(arr_whole1 w).set_eq_univ, (dats V O W₀ 0 c).share_full (fun _ => rfl) w]

/-! ## The wait evidence -/

/-- The pipeline's waits, at the index no handshake uses, sit below everything the core owes. -/
theorem hwaits (hO : ∀ c g, O c g none = 0) (lv : GSem nD τ sig → HIx 1 → ℕ) (hlv : (K (F := F)).Refines lv) (c : Dev nD) :
    (levAts (K (F := F)).L lv : sProp 𝕄) ⊢ Pipeline.cellsWaits (Pipeline.pin (pcfgs (F := F)) adm) (dats V O W₀) (none : HIx 1) 0 c :=
  Pipeline.cellsWaits_intro _ (dats V O W₀) none 0 c fun w s t => (K (F := F)).mayWait_none (.dma _) (hO c) lv hlv

/-! ## The region -/

set_option backward.isDefEq.respectTransparency.types false in
/-- The region's record: the windows' layout, no semaphore of the kernel's own, the body obligation, the wait evidence;
    entered from the ten arrays at the valuation and the core's debts, left with the arrays at what the write-backs
    made of them and the debts unchanged. -/
def reg (hO : ∀ c g, O c g none = 0) (lv : GSem nD τ sig → HIx 1 → ℕ) (hlv : (K (F := F)).Refines lv) :
    Pipeline.RegionSeg (pcfgs (F := F)) adm (dats V O W₀) (none : HIx 1) defs₀ 𝒱₀ (K (F := F)).L lv 0 where
  win := winFacts1.to₀
  block_pos := block_pos1
  stage_whole := stage_whole1
  K := PEmpty
  osem := fun k => k.elim
  ho := Pipeline.OwnSemFacts.none _
  hbody c := (body_obligation V O W₀ c).loose
  hwaits := hwaits V O W₀ hO lv hlv
  pre c := iprop(arrs c (fun w => V c (Pipeline.arrRef spec1 w)) ∗ owes (c.tc : Thread nD τ) (O c) (W₀ c))
  post c := iprop(arrs c (fun w => (dats V O W₀ 0 c).arrAt w cfg1.N) ∗ (dats V O W₀ 0 c).owesAt none (Fin.last cfg1.N))
  X _ := BI.emp
  Y _ := BI.emp
  Z _ := BI.emp
  hentry c := by
    iintro ⟨⟨Ha, HO⟩, -, -⟩
    imodintro
    isplitl [Ha]
    · iapply (Entails.of_eq (arrays_eq' V O W₀ c _).symm); iexact Ha
    isplitr; · unfold Pipeline.prefHeld; rw [show (Finset.univ : Finset (Fin 0)) = ∅ from rfl, BI.bigSep_empty]; iempintro
    isplitl [HO]
    · unfold Pipeline.Dat.owesAt Pipeline.owesWithin
      iexists (W₀ c); isplitr; · ipureintro; exact fun _ h => Or.inl h
      iexact HO
    isplitl [] <;> iempintro
  hin c := by
    iintro -; iempintro
  hout c := by
    rw [Pipeline.ownSems0_none, scopedRest1_eq]
    iintro -
    isplitl []; · iempintro
    isplitl [] <;> iempintro
  hexit c := by
    iintro ⟨Ha, HO, -, -⟩
    imodintro
    isplitl [Ha]
    · iapply (Entails.of_eq (arrays_eq' V O W₀ c _)); iexact Ha
    iexact HO

end Cert.KernelIdeal.Hand

end
-- ==== Proof.KI.TcStepA.lean ====
/-
  The TensorCore kernel's region as one step of the TensorCore's program, under the extended body table: from the
  region boundary, the level facts, the staging cells' launch state and duty tokens, the core's debts and the ten
  windowed arrays at the valuation, the region's call runs to the boundary, the arrays at what the write-backs made of
  them, and the debts unchanged.
-/
import proofs.«206564_g5145370820828_cont_8to1c4_476_13_alg».proof.Proof.KI.TcRegion

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.SparseCore (S T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c.tc : Thread nD τ).loc b))
variable (O : Dev nD → CellTallies nD τ sig (HIx 1)) (W₀ : Dev nD → Waits sig (HIx 1))

set_option maxHeartbeats 4000000 in
set_option backward.isDefEq.respectTransparency.types false in
/-- The region's call under the pipeline's own body table. -/
theorem reg_wp (hO : ∀ c g, O c g none = 0) (lv : GSem nD τ sig → HIx 1 → ℕ) (hlv : (K (F := F)).Refines lv)
    (d : Dev nD) (Φ : PUnit → sProp 𝕄) :
    iprop((iprop(boundary (d.tc : Thread nD τ) ∗ (reg V O W₀ hO lv hlv).post d)
            -∗ wp frame (wpE (D (F := F)) 𝒱 (d.tc : Thread nD τ) none) Set.univ (.ret ⟨⟩) Φ)
        ∗ boundary (d.tc : Thread nD τ) ∗ (reg V O W₀ hO lv hlv).pre d ∗ levAts (K (F := F)).L lv
        ∗ Pipeline.cellsGhost (Pipeline.pin (pcfgs (F := F)) adm) ER 0 d ∗ Pipeline.toksInit (Pipeline.pin (pcfgs (F := F)) adm) ER 0 d)
      ⊢ wp frame (wpE (D (F := F)) 𝒱 (d.tc : Thread nD τ) none) Set.univ (.op (.customCall (Pipeline.entry 0) ()) fun _ => .ret ⟨⟩) Φ :=
  Pipeline.RegionSeg.wp (pcfgs (F := F)) adm (dats V O W₀) (none : HIx 1) cellOf_inj ER defs₀ 𝒱₀ (K (F := F)).L lv
    (reg V O W₀ hO lv hlv) d none (fun _ h => absurd h (Option.not_mem_none _)) (fun _ => .ret ⟨⟩) Φ

/-- What the region is entered from, -/
theorem reg_pre (hO : ∀ c g, O c g none = 0) (lv : GSem nD τ sig → HIx 1 → ℕ) (hlv : (K (F := F)).Refines lv) (d : Dev nD) :
    (reg V O W₀ hO lv hlv).pre d = iprop(arrs d (fun w => V d (Pipeline.arrRef spec1 w)) ∗ owes (d.tc : Thread nD τ) (O d) (W₀ d)) := rfl

/-- and what it leaves. -/
theorem reg_post (hO : ∀ c g, O c g none = 0) (lv : GSem nD τ sig → HIx 1 → ℕ) (hlv : (K (F := F)).Refines lv) (d : Dev nD) :
    (reg V O W₀ hO lv hlv).post d = iprop(arrs d (fun w => (dats V O W₀ 0 d).arrAt w cfg1.N) ∗ (dats V O W₀ 0 d).owesAt none (Fin.last cfg1.N)) := rfl

/-- The TensorCore owes nothing at the index no handshake uses. -/
theorem Otc_none (d : Dev nD) (n : ℕ) (g : GSem nD τ sig) : (K (F := F)).Otc d n g none = 0 := by
  by_contra h
  have := (K (F := F)).lev_of_Otc_pos (Nat.pos_of_ne_zero h); rw [(K (F := F)).lev_none] at this; omega

/-- After the region the nine operands are as they were (an input's array is never written), the result array at what
    the write-backs made of it. -/
theorem arrs_final (c : Dev nD) :
    arrs c (fun w => (dats V O W₀ 0 c).arrAt w cfg1.N)
      = iprop((((c.tc : Thread nD τ).loc main_v1) ↦{fullShare} V c main_v1) ∗ (((c.tc : Thread nD τ).loc main_v2) ↦{fullShare} V c main_v2) ∗ (((c.tc : Thread nD τ).loc main_v3) ↦{fullShare} V c main_v3) ∗ (((c.tc : Thread nD τ).loc main_v5) ↦{fullShare} V c main_v5) ∗ (((c.tc : Thread nD τ).loc main_v7) ↦{fullShare} V c main_v7) ∗ (((c.tc : Thread nD τ).loc main_v9) ↦{fullShare} V c main_v9) ∗ (((c.tc : Thread nD τ).loc main_v11) ↦{fullShare} V c main_v11) ∗ (((c.tc : Thread nD τ).loc main_v13) ↦{fullShare} V c main_v13) ∗ (((c.tc : Thread nD τ).loc main_arg13) ↦{fullShare} V c main_arg13)
          ∗ (((c.tc : Thread nD τ).loc main_v25) ↦{fullShare} (dats V O W₀ 0 c).arrAt 9 cfg1.N)) := by
  rw [arrs_eq]
  have h0 : (dats V O W₀ 0 c).arrAt 0 cfg1.N = V c main_v1 := ((dats V O W₀ 0 c).arrAt_in 0 rfl _).trans (A_eq V O W₀ c 0)
  have h1 : (dats V O W₀ 0 c).arrAt 1 cfg1.N = V c main_v2 := ((dats V O W₀ 0 c).arrAt_in 1 rfl _).trans (A_eq V O W₀ c 1)
  have h2 : (dats V O W₀ 0 c).arrAt 2 cfg1.N = V c main_v3 := ((dats V O W₀ 0 c).arrAt_in 2 rfl _).trans (A_eq V O W₀ c 2)
  have h3 : (dats V O W₀ 0 c).arrAt 3 cfg1.N = V c main_v5 := ((dats V O W₀ 0 c).arrAt_in 3 rfl _).trans (A_eq V O W₀ c 3)
  have h4 : (dats V O W₀ 0 c).arrAt 4 cfg1.N = V c main_v7 := ((dats V O W₀ 0 c).arrAt_in 4 rfl _).trans (A_eq V O W₀ c 4)
  have h5 : (dats V O W₀ 0 c).arrAt 5 cfg1.N = V c main_v9 := ((dats V O W₀ 0 c).arrAt_in 5 rfl _).trans (A_eq V O W₀ c 5)
  have h6 : (dats V O W₀ 0 c).arrAt 6 cfg1.N = V c main_v11 := ((dats V O W₀ 0 c).arrAt_in 6 rfl _).trans (A_eq V O W₀ c 6)
  have h7 : (dats V O W₀ 0 c).arrAt 7 cfg1.N = V c main_v13 := ((dats V O W₀ 0 c).arrAt_in 7 rfl _).trans (A_eq V O W₀ c 7)
  have h8 : (dats V O W₀ 0 c).arrAt 8 cfg1.N = V c main_arg13 := ((dats V O W₀ 0 c).arrAt_in 8 rfl _).trans (A_eq V O W₀ c 8)
  rw [h0, h1, h2, h3, h4, h5, h6, h7, h8]

end Cert.KernelIdeal.Hand

end
-- ==== Proof.KI.TcStep.lean ====
/-
  The TensorCore kernel's region as one step of the TensorCore's program under the extended body table: the call in the
  extended signature is the pipeline's call lifted; from the region boundary, the level facts, the staging cells'
  launch state and duty tokens, the core's debts and the ten windowed arrays at the valuation, it runs to the
  boundary, the nine operands as they were, the result array at what the write-backs made of it, the debts unchanged
  and every newly recorded wait at the level below all handshakes.
-/
import proofs.«206564_g5145370820828_cont_8to1c4_476_13_alg».proof.Proof.KI.TcStepA
import proofs.«206564_g5145370820828_cont_8to1c4_476_13_alg».proof.Proof.KI.RegionSpec

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.SparseCore (S T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c.tc : Thread nD τ).loc b))
variable (O : Dev nD → CellTallies nD τ sig (HIx 1)) (W₀ : Dev nD → Waits sig (HIx 1))

/-- The region's call in the extended signature is the call in the pipeline's, lifted. -/
theorem lift_eq :
    (Prog.lift (.customCall (SparseCore.inner (Pipeline.entry 0)) ()) : Prog (TpuEff nD τ sig (Elt F) (SparseCore.Sig (ΛP (F := F)) 1) .tc) PUnit)
      = SparseCore.liftProg (.op (.customCall (Pipeline.entry 0) ()) fun _ => .ret ⟨⟩) := rfl

/-- A proof of the call under the pipeline's body table is one under the extended table. -/
theorem tc_lift (d : Dev nD) (Φ : PUnit → sProp 𝕄) :
    wp frame (wpE (D (F := F)) 𝒱 (d.tc : Thread nD τ) none) Set.univ (.op (.customCall (Pipeline.entry 0) ()) fun _ => .ret ⟨⟩) Φ
      ⊢ wp frame (wpE ((K (F := F)).defs D) 𝒱 (T d : Thread nD τ) none) Set.univ
          (Prog.lift (.customCall (SparseCore.inner (Pipeline.entry 0)) ())) Φ := by
  rw [lift_eq]
  exact (K (F := F)).wp_liftProg D 𝒱 (T d) Set.univ none _ Φ

/-- The pipelines at their one admissible contents are the printed configurations. -/
theorem pin_eq : Pipeline.pin (pcfgs (F := F)) adm = cfgs := rfl

set_option maxHeartbeats 1000000 in
/-- The region's call under the extended body table: from the region boundary, the level facts, the staging cells'
    launch state and duty tokens, the core's debts and the ten windowed arrays at the valuation, it runs to the boundary,
    the arrays at what the write-backs made of them, and the debts unchanged, the recorded pairs grown by the
    pipeline's own waits at most. -/
theorem tc_region_gen (hO : ∀ c g, O c g none = 0) (lv : GSem nD τ sig → HIx 1 → ℕ) (hlv : (K (F := F)).Refines lv)
    (d : Dev nD) (Φ : PUnit → sProp 𝕄) :
    iprop(boundary (T d : Thread nD τ) ∗ levAts (K (F := F)).L lv ∗ Pipeline.cellsGhost cfgs ER 0 d ∗ Pipeline.toksInit cfgs ER 0 d
        ∗ owes (T d : Thread nD τ) (O d) (W₀ d) ∗ arrs d (fun w => V d (Pipeline.arrRef spec1 w))
        ∗ (iprop(boundary (T d : Thread nD τ) ∗ arrs d (fun w => (dats V O W₀ 0 d).arrAt w cfg1.N)
            ∗ (dats V O W₀ 0 d).owesAt none (Fin.last cfg1.N)) -∗ Φ ⟨⟩))
      ⊢ wp frame (wpE ((K (F := F)).defs D) 𝒱 (T d : Thread nD τ) none) Set.univ
          (Prog.lift (.customCall (SparseCore.inner (Pipeline.entry 0)) ())) Φ := by
  refine .trans ?_ (tc_lift d Φ)
  have h := reg_wp V O W₀ hO lv hlv d Φ
  rw [reg_pre, reg_post, pin_eq] at h
  refine .trans ?_ h
  iintro ⟨Hb, Hl, Hg, Ht, HO, Ha, Hk⟩
  isplitl [Hk]
  · iintro ⟨Hb, Ha, HO⟩
    rw [wp_ret]; imodintro
    iapply Hk
    isplitl [Hb]; · iexact Hb
    isplitl [Ha]; · iexact Ha
    iexact HO
  isplitl [Hb]; · iexact Hb
  isplitl [Ha HO]
  · isplitl [Ha]; · iexact Ha
    iexact HO
  isplitl [Hl]; · iexact Hl
  isplitl [Hg]; · iexact Hg
  iexact Ht

set_option maxHeartbeats 1000000 in
/-- The region's run as the TensorCore's program uses it, the result array's contents not stated. -/
theorem tc_region_frame : RegionFrameSpec (F := F) := by
  intro d n W Φ
  iintro ⟨Hb, Hl, ⟨Hg, Ht⟩, ⟨%Wt, %hWt, HO⟩, ⟨H1, H2, H3, H4, H5, H6, H7, H8, H9⟩, H25, Hk⟩
  iapply (tc_region_gen (fun _ b => W (dr b)) (fun c => (K (F := F)).Otc c n) (fun _ => Wt) (fun c g => Otc_none c n g)
    (K (F := F)).lev (K (F := F)).refines_self d Φ)
  isplitl [Hb]; · iexact Hb
  isplitl [Hl]; · iexact Hl
  isplitl [Hg]; · iexact Hg
  isplitl [Ht]; · iexact Ht
  isplitl [HO]; · iexact HO
  isplitl [H1 H2 H3 H4 H5 H6 H7 H8 H9 H25]
  · rw [arrs_eq]
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H25
  iintro ⟨Hb, Ha, HO⟩
  ihave Ha' := (Entails.of_eq (arrs_final (fun _ b => W (dr b)) (fun c => (K (F := F)).Otc c n) (fun _ => Wt) d)) $$ Ha
  icases Ha' with ⟨H1, H2, H3, H4, H5, H6, H7, H8, H9, H25⟩
  icases HO with ⟨%W', %hW', HO⟩
  iapply Hk
  isplitl [Hb]; · iexact Hb
  isplitl [HO]
  · iexists W'; isplitr
    · ipureintro; intro p hp
      rcases hW' (Finset.mem_coe.mpr hp) with h | ⟨w, s, rfl⟩
      · exact hWt p (Finset.mem_coe.mp h)
      · rw [(K (F := F)).lev_none]; exact Nat.zero_le _
    iexact HO
  isplitl [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iexists _; iexact H25

end Cert.KernelIdeal.Hand

end
-- ==== Proof.KI.TcValA.lean ====
/-
  What the TensorCore kernel's body leaves in its output block, element by element: what a window's staging buffer
  holds is its array's block at the point's coordinates; the body's twenty-one stores, one channel each, read at an
  index, are the block's function of the input blocks — a table entry selected by the cell's tile type, the batch
  entry's step count or parameter, or the cell's value in one of the first five grids —; and that function is the
  kernels' function of the arrays at the element's place.
-/
import proofs.«206564_g5145370820828_cont_8to1c4_476_13_alg».proof.Proof.KI.TcStep
import proofs.«206564_g5145370820828_cont_8to1c4_476_13_alg».proof.Proof.Spec

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.SparseCore (S T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.ValueIdx

variable (V : (c : Dev nD) → (b : Ref sig .tc) → Buf (Elt F) ((c.tc : Thread nD τ).loc b))
variable (O : Dev nD → CellTallies nD τ sig (HIx 1)) (W₀ : Dev nD → Waits sig (HIx 1))

/-! ## Reading a loaded vector at an index -/

/-- A load through a whole staging buffer held at contents `x` reads `x` at the box's element. -/
theorem readAt_unread {sp : Space} {S : Shape} {e : EltTy} (m : Memref sig .tc sp S e) (hm : m.IsWhole) (x : S.Idx → Elt F e)
    (R : LoadRect S) (y : R.shape.Idx) : View.readAt (Elt F) m.view R (hm.unread x) y = x (R.idx y) := by
  rw [View.readAt_apply, hm.read_unread]

/-- A 24 × 1024 vector stored as a 1 × 1 × 24 × 1024 slab reads its own element. -/
theorem slab_apply {α : Type} (v : S24x1024.Idx → α) (h : S24x1024.ShapeCasts S1x1x24x1024) (x : S1x1x24x1024.Idx) :
    shapeCast S1x1x24x1024 v h x = v (ix2 (x 2) (x 3)) := by
  refine shapeCast_apply v h x (ix2 (x 2) (x 3)) ?_
  rw [Shape.rowMajor_val_two, Shape.rowMajor_val_four]
  have h0 : (x 0).val = 0 := by have := (x 0).isLt; simp at this; omega
  have h1 : (x 1).val = 0 := by have := (x 1).isLt; simp at this; omega
  show (x 2).val * 1024 + (x 3).val = (((x 0).val * 1 + (x 1).val) * 24 + (x 2).val) * 1024 + (x 3).val
  rw [h0, h1]; omega

/-- A row of 1024 broadcast over 24 rows reads the row's element. -/
theorem bcast_apply {α : Type} (v : S1x1024.Idx → α) (h : S1x1024.Broadcasts S24x1024) (y : S24x1024.Idx) :
    broadcastTo S24x1024 v h y = v (ix2 0 (y 1)) := by
  refine broadcastTo_apply v h y (ix2 0 (y 1)) fun a => ?_
  match a with
  | ⟨0, _⟩ => rfl
  | ⟨1, _⟩ => rfl

/-! ## The windows' block indices -/

theorem idx1_0 : ∀ t : Fin grid1.N, win1_0.index t 0 = (grid1.coords t 0).val ∧ win1_0.index t 1 = (grid1.coords t 1).val := by decide +kernel
theorem idx1_3 : ∀ t : Fin grid1.N, win1_3.index t 0 = (grid1.coords t 0).val ∧ win1_3.index t 1 = (grid1.coords t 1).val := by decide +kernel
theorem idx1_4 : ∀ t : Fin grid1.N, win1_4.index t 0 = (grid1.coords t 0).val ∧ win1_4.index t 1 = (grid1.coords t 1).val := by decide +kernel
theorem idx1_5 : ∀ t : Fin grid1.N, win1_5.index t 0 = (grid1.coords t 0).val ∧ win1_5.index t 1 = (grid1.coords t 1).val := by decide +kernel
theorem idx1_6 : ∀ t : Fin grid1.N, win1_6.index t 0 = (grid1.coords t 0).val ∧ win1_6.index t 1 = (grid1.coords t 1).val := by decide +kernel
theorem idx1_7 : ∀ t : Fin grid1.N, win1_7.index t 0 = (grid1.coords t 0).val ∧ win1_7.index t 1 = (grid1.coords t 1).val := by decide +kernel
theorem idx1_1 : ∀ t : Fin grid1.N, win1_1.index t 0 = 0 ∧ win1_1.index t 1 = (grid1.coords t 1).val := by decide +kernel
theorem idx1_2 : ∀ t : Fin grid1.N, win1_2.index t 0 = 0 ∧ win1_2.index t 1 = (grid1.coords t 1).val := by decide +kernel
theorem idx1_8 : ∀ t : Fin grid1.N, win1_8.index t 0 = 0 ∧ win1_8.index t 1 = 0 := by decide +kernel
theorem idx1_9 : ∀ t : Fin grid1.N, win1_9.index t 0 = (grid1.coords t 0).val ∧ win1_9.index t 1 = 0 ∧ win1_9.index t 2 = 0 ∧ win1_9.index t 3 = (grid1.coords t 1).val := by decide +kernel
/-- No block of the result's window is cut. -/
theorem xsize1_9 : ∀ (t : Fin grid1.N) (a : Fin 4), win1_9.xsize (grid1.coords t) a = S1x21x24x1024.size a := by decide +kernel

/-- The batch entry of a block's element. -/
abbrev bat (t : Fin cfg1.N) (b : Fin 1024) : Fin 4096 :=
  ⟨(grid1.coords t 1).val * 1024 + b.val, by have h1 : (grid1.coords t 1).val < 4 := (grid1.coords t 1).isLt; have := b.isLt; omega⟩

/-! ## The inputs' blocks, read at an index -/

theorem iblk0_apply (c : Dev nD) (t : Fin cfg1.N) (y : S24x1024.Idx) :
    (iblk V c 0 t : Vec F S24x1024 .i32) y = V c main_v1 (ix2 (Cert.Spec.hw (grid1.coords t 0) (y 0)) (bat t (y 1))) := by
  unfold iblk
  rw [View.read_apply]
  show V c main_v1 _ = V c main_v1 _
  congr 1
  funext a
  apply Fin.ext
  match a with
  | ⟨0, _⟩ => show win1_0.index t 0 * 24 + 1 * (y 0).val = (grid1.coords t 0).val * 24 + (y 0).val; rw [(idx1_0 t).1]; omega
  | ⟨1, _⟩ => show win1_0.index t 1 * 1024 + 1 * (y 1).val = (grid1.coords t 1).val * 1024 + (y 1).val; rw [(idx1_0 t).2]; omega
theorem iblk3_apply (c : Dev nD) (t : Fin cfg1.N) (y : S24x1024.Idx) :
    (iblk V c 3 t : Vec F S24x1024 .f32) y = V c main_v5 (ix2 (Cert.Spec.hw (grid1.coords t 0) (y 0)) (bat t (y 1))) := by
  unfold iblk
  rw [View.read_apply]
  show V c main_v5 _ = V c main_v5 _
  congr 1
  funext a
  apply Fin.ext
  match a with
  | ⟨0, _⟩ => show win1_3.index t 0 * 24 + 1 * (y 0).val = (grid1.coords t 0).val * 24 + (y 0).val; rw [(idx1_3 t).1]; omega
  | ⟨1, _⟩ => show win1_3.index t 1 * 1024 + 1 * (y 1).val = (grid1.coords t 1).val * 1024 + (y 1).val; rw [(idx1_3 t).2]; omega
theorem iblk4_apply (c : Dev nD) (t : Fin cfg1.N) (y : S24x1024.Idx) :
    (iblk V c 4 t : Vec F S24x1024 .f32) y = V c main_v7 (ix2 (Cert.Spec.hw (grid1.coords t 0) (y 0)) (bat t (y 1))) := by
  unfold iblk
  rw [View.read_apply]
  show V c main_v7 _ = V c main_v7 _
  congr 1
  funext a
  apply Fin.ext
  match a with
  | ⟨0, _⟩ => show win1_4.index t 0 * 24 + 1 * (y 0).val = (grid1.coords t 0).val * 24 + (y 0).val; rw [(idx1_4 t).1]; omega
  | ⟨1, _⟩ => show win1_4.index t 1 * 1024 + 1 * (y 1).val = (grid1.coords t 1).val * 1024 + (y 1).val; rw [(idx1_4 t).2]; omega
theorem iblk5_apply (c : Dev nD) (t : Fin cfg1.N) (y : S24x1024.Idx) :
    (iblk V c 5 t : Vec F S24x1024 .f32) y = V c main_v9 (ix2 (Cert.Spec.hw (grid1.coords t 0) (y 0)) (bat t (y 1))) := by
  unfold iblk
  rw [View.read_apply]
  show V c main_v9 _ = V c main_v9 _
  congr 1
  funext a
  apply Fin.ext
  match a with
  | ⟨0, _⟩ => show win1_5.index t 0 * 24 + 1 * (y 0).val = (grid1.coords t 0).val * 24 + (y 0).val; rw [(idx1_5 t).1]; omega
  | ⟨1, _⟩ => show win1_5.index t 1 * 1024 + 1 * (y 1).val = (grid1.coords t 1).val * 1024 + (y 1).val; rw [(idx1_5 t).2]; omega
theorem iblk6_apply (c : Dev nD) (t : Fin cfg1.N) (y : S24x1024.Idx) :
    (iblk V c 6 t : Vec F S24x1024 .f32) y = V c main_v11 (ix2 (Cert.Spec.hw (grid1.coords t 0) (y 0)) (bat t (y 1))) := by
  unfold iblk
  rw [View.read_apply]
  show V c main_v11 _ = V c main_v11 _
  congr 1
  funext a
  apply Fin.ext
  match a with
  | ⟨0, _⟩ => show win1_6.index t 0 * 24 + 1 * (y 0).val = (grid1.coords t 0).val * 24 + (y 0).val; rw [(idx1_6 t).1]; omega
  | ⟨1, _⟩ => show win1_6.index t 1 * 1024 + 1 * (y 1).val = (grid1.coords t 1).val * 1024 + (y 1).val; rw [(idx1_6 t).2]; omega
theorem iblk7_apply (c : Dev nD) (t : Fin cfg1.N) (y : S24x1024.Idx) :
    (iblk V c 7 t : Vec F S24x1024 .f32) y = V c main_v13 (ix2 (Cert.Spec.hw (grid1.coords t 0) (y 0)) (bat t (y 1))) := by
  unfold iblk
  rw [View.read_apply]
  show V c main_v13 _ = V c main_v13 _
  congr 1
  funext a
  apply Fin.ext
  match a with
  | ⟨0, _⟩ => show win1_7.index t 0 * 24 + 1 * (y 0).val = (grid1.coords t 0).val * 24 + (y 0).val; rw [(idx1_7 t).1]; omega
  | ⟨1, _⟩ => show win1_7.index t 1 * 1024 + 1 * (y 1).val = (grid1.coords t 1).val * 1024 + (y 1).val; rw [(idx1_7 t).2]; omega
theorem iblk1_apply (c : Dev nD) (t : Fin cfg1.N) (y : S1x1024.Idx) :
    (iblk V c 1 t : Vec F S1x1024 .f32) y = V c main_v2 (ix2 0 (bat t (y 1))) := by
  unfold iblk
  rw [View.read_apply]
  show V c main_v2 _ = V c main_v2 _
  congr 1
  funext a
  apply Fin.ext
  match a with
  | ⟨0, _⟩ => show win1_1.index t 0 * 1 + 1 * (y 0).val = 0; rw [(idx1_1 t).1]; have := (y 0).isLt; simp at this; omega
  | ⟨1, _⟩ => show win1_1.index t 1 * 1024 + 1 * (y 1).val = (grid1.coords t 1).val * 1024 + (y 1).val; rw [(idx1_1 t).2]; omega
theorem iblk2_apply (c : Dev nD) (t : Fin cfg1.N) (y : S10x1024.Idx) :
    (iblk V c 2 t : Vec F S10x1024 .f32) y = V c main_v3 (ix2 (y 0) (bat t (y 1))) := by
  unfold iblk
  rw [View.read_apply]
  show V c main_v3 _ = V c main_v3 _
  congr 1
  funext a
  apply Fin.ext
  match a with
  | ⟨0, _⟩ => show win1_2.index t 0 * 10 + 1 * (y 0).val = (y 0).val; rw [(idx1_2 t).1]; omega
  | ⟨1, _⟩ => show win1_2.index t 1 * 1024 + 1 * (y 1).val = (grid1.coords t 1).val * 1024 + (y 1).val; rw [(idx1_2 t).2]; omega
theorem iblk8_apply (c : Dev nD) (t : Fin cfg1.N) (y : S4x5.Idx) :
    (iblk V c 8 t : Vec F S4x5 .f32) y = V c main_arg13 y := by
  unfold iblk
  rw [View.read_apply]
  show V c main_arg13 _ = V c main_arg13 _
  congr 1
  funext a
  apply Fin.ext
  match a with
  | ⟨0, _⟩ => show win1_8.index t 0 * 4 + 1 * (y 0).val = (y 0).val; rw [(idx1_8 t).1]; omega
  | ⟨1, _⟩ => show win1_8.index t 1 * 5 + 1 * (y 1).val = (y 1).val; rw [(idx1_8 t).2]; omega

/-! ## The body's stores, read at an index -/

/-- What the body leaves in the output block, from the input blocks: channels 0 … 4 the table entry the tile type
    selects, channel 5 the step count, channels 6 … 15 the parameters, channels 16 … 20 the five grids. -/
def blkSpec (x0 : Vec F S24x1024 .i32) (x1 : Vec F S1x1024 .f32) (x2 : Vec F S10x1024 .f32) (x3 x4 x5 x6 x7 : Vec F S24x1024 .f32) (x8 : Vec F S4x5 .f32) : S1x21x24x1024.Idx → Elt F .f32 := fun z =>
  if h5 : (z 1).val < 5 then Cert.Spec.pick x8 ⟨(z 1).val, h5⟩ (x0 (ix2 (z 2) (z 3)))
  else if (z 1).val = 5 then x1 (ix2 0 (z 3))
  else if h16 : (z 1).val < 16 then x2 (ix2 ⟨(z 1).val - 6, by omega⟩ (z 3))
  else if (z 1).val = 16 then x3 (ix2 (z 2) (z 3))
  else if (z 1).val = 17 then x4 (ix2 (z 2) (z 3))
  else if (z 1).val = 18 then x5 (ix2 (z 2) (z 3))
  else if (z 1).val = 19 then x6 (ix2 (z 2) (z 3))
  else x7 (ix2 (z 2) (z 3))

/-- The element of the output block under an element of the one-channel slab at channel `k`. -/
theorem emb_slab (k : Nat) (inb : ∀ a, (![0, k, 0, 0] : Fin 4 → Nat) a + S1x1x24x1024.size a ≤ S1x21x24x1024.size a)
    (x : S1x1x24x1024.Idx) :
    ((Rect.unit (s := S1x21x24x1024) ![0, k, 0, 0] S1x1x24x1024.size inb).emb x 1).val = k
      ∧ (Rect.unit (s := S1x21x24x1024) ![0, k, 0, 0] S1x1x24x1024.size inb).emb x 2 = x 2
      ∧ (Rect.unit (s := S1x21x24x1024) ![0, k, 0, 0] S1x1x24x1024.size inb).emb x 3 = x 3 := by
  have h1 : (x 1).val = 0 := by have := (x 1).isLt; simp at this; omega
  refine ⟨?_, Fin.ext ?_, Fin.ext ?_⟩
  · rw [Rect.emb_apply]; show k + 1 * (x 1).val = k; rw [h1]; omega
  · rw [Rect.emb_apply]; show 0 + 1 * (x 2).val = (x 2).val; omega
  · rw [Rect.emb_apply]; show 0 + 1 * (x 3).val = (x 3).val; omega

/-- A grid's channel: the block loaded whole and stored as a slab. -/
theorem pay_grid (m : Memref sig .tc .vmem S24x1024 .f32) (hm : m.IsWhole) (xg : Vec F S24x1024 .f32)
    (inb0 : ∀ a, (![0, 0] : Fin 2 → Nat) a + S24x1024.size a ≤ S24x1024.size a)
    (h1 : S24x1024.ShapeCasts S24x1024) (h2 : S24x1024.ShapeCasts S1x1x24x1024) (x : S1x1x24x1024.Idx) :
    shapeCast S1x1x24x1024 (shapeCast S24x1024 (View.readAt (Elt F) m.view (Rect.unit ![0, 0] S24x1024.size inb0).toLoadRect (hm.unread xg)) h1) h2 x
      = xg (ix2 (x 2) (x 3)) := by
  refine (slab_apply _ h2 x).trans ?_
  refine (congrFun (shapeCast_self _ h1) _).trans ?_
  refine (readAt_unread m hm xg _ _).trans ?_
  congr 1
  funext a
  apply Fin.ext
  match a with
  | ⟨0, _⟩ => show 0 + 1 * (x 2).val = (x 2).val; omega
  | ⟨1, _⟩ => show 0 + 1 * (x 3).val = (x 3).val; omega

/-- A parameter's channel: one row of the parameters' block, broadcast over the columns. -/
theorem pay_par (m : Memref sig .tc .vmem S10x1024 .f32) (hm : m.IsWhole) (xp : Vec F S10x1024 .f32) (r : Nat) (hr : r < 10)
    (inb : ∀ a, (![r, 0] : Fin 2 → Nat) a + S1x1024.size a ≤ S10x1024.size a)
    (h1 h1' : S1x1024.ShapeCasts S1x1024) (hb : S1x1024.Broadcasts S24x1024) (h2 : S24x1024.ShapeCasts S1x1x24x1024) (x : S1x1x24x1024.Idx) :
    shapeCast S1x1x24x1024 (broadcastTo S24x1024 (shapeCast S1x1024 (shapeCast S1x1024
        (View.readAt (Elt F) m.view (Rect.unit (s := S10x1024) ![r, 0] S1x1024.size inb).toLoadRect (hm.unread xp)) h1) h1') hb) h2 x
      = xp (ix2 ⟨r, hr⟩ (x 3)) := by
  refine (slab_apply _ h2 x).trans ?_
  refine (bcast_apply _ hb _).trans ?_
  refine (congrFun (shapeCast_self _ h1') _).trans ?_
  refine (congrFun (shapeCast_self _ h1) _).trans ?_
  refine (readAt_unread m hm xp _ _).trans ?_
  congr 1
  funext a
  apply Fin.ext
  match a with
  | ⟨0, _⟩ => show r + 1 * 0 = r; omega
  | ⟨1, _⟩ => show 0 + 1 * (x 3).val = (x 3).val; omega

/-- The step count's channel: the one row of its block, broadcast over the columns. -/
theorem pay_step (m : Memref sig .tc .vmem S1x1024 .f32) (hm : m.IsWhole) (xs : Vec F S1x1024 .f32)
    (inb : ∀ a, (![0, 0] : Fin 2 → Nat) a + S1x1024.size a ≤ S1x1024.size a)
    (h1 h1' : S1x1024.ShapeCasts S1x1024) (hb : S1x1024.Broadcasts S24x1024) (h2 : S24x1024.ShapeCasts S1x1x24x1024) (x : S1x1x24x1024.Idx) :
    shapeCast S1x1x24x1024 (broadcastTo S24x1024 (shapeCast S1x1024 (shapeCast S1x1024
        (View.readAt (Elt F) m.view (Rect.unit ![0, 0] S1x1024.size inb).toLoadRect (hm.unread xs)) h1) h1') hb) h2 x
      = xs (ix2 0 (x 3)) := by
  refine (slab_apply _ h2 x).trans ?_
  refine (bcast_apply _ hb _).trans ?_
  refine (congrFun (shapeCast_self _ h1') _).trans ?_
  refine (congrFun (shapeCast_self _ h1) _).trans ?_
  refine (readAt_unread m hm xs _ _).trans ?_
  congr 1
  funext a
  apply Fin.ext
  match a with
  | ⟨0, _⟩ => show 0 + 1 * 0 = 0; omega
  | ⟨1, _⟩ => show 0 + 1 * (x 3).val = (x 3).val; omega

/-- A table word: the block's entry. -/
theorem pay_word (m : Memref sig .tc .smem S4x5 .f32) (hm : m.IsWhole) (xt : Vec F S4x5 .f32) (r k : Nat) (hr : r < 4) (hk : k < 5)
    (inb : ∀ a, (![r, k] : Fin 2 → Nat) a + S1x1.size a ≤ S4x5.size a) (hp : 0 < S1x1.numel) :
    View.readAt (Elt F) m.view (Rect.unit (s := S4x5) ![r, k] S1x1.size inb).toLoadRect (hm.unread xt) (Shape.Idx.first hp) = xt (ix2 ⟨r, hr⟩ ⟨k, hk⟩) := by
  refine (readAt_unread m hm xt _ _).trans ?_
  congr 1
  funext a
  apply Fin.ext
  match a with
  | ⟨0, _⟩ => show r + 1 * 0 = r; omega
  | ⟨1, _⟩ => show k + 1 * 0 = k; omega

/-- The two-level selection on a tile type, as the comparisons decide it. -/
theorem sel_scalar {α : Type} (t : BitVec 32) (s0 s1 s2 s3 : α) :
    Scalar.select (IntOp.cmpi CmpIPredicate.slt t 2#32) (Scalar.select (IntOp.cmpi CmpIPredicate.eq t 0#32) s0 s1) (Scalar.select (IntOp.cmpi CmpIPredicate.eq t 2#32) s2 s3)
      = (if t.slt 2#32 then (if t = 0#32 then s0 else s1) else (if t = 2#32 then s2 else s3)) := by
  have e0 : (t == 0#32) = decide (t = 0#32) := by by_cases h : t = 0#32 <;> simp [h]
  have e2 : (t == 2#32) = decide (t = 2#32) := by by_cases h : t = 2#32 <;> simp [h]
  unfold Scalar.select IntOp.cmpi
  simp only [e0, e2]
  by_cases ha : t.slt 2#32 = true <;> by_cases hb : t = 0#32 <;> by_cases hc : t = 2#32 <;> simp [ha, hb, hc, BitVec.ofBool]

/-- A table channel: per cell, the word the tile type selects, two comparisons deep. -/
theorem pay_tbl (m : Memref sig .tc .vmem S24x1024 .i32) (hm : m.IsWhole) (xt : Vec F S24x1024 .i32)
    (inb0 : ∀ a, (![0, 0] : Fin 2 → Nat) a + S24x1024.size a ≤ S24x1024.size a) (h1 : S24x1024.ShapeCasts S24x1024)
    (s0 s1 s2 s3 : Elt F .f32) (h2 : S24x1024.ShapeCasts S1x1x24x1024) (x : S1x1x24x1024.Idx) :
    shapeCast S1x1x24x1024
        (select (cmpi CmpIPredicate.slt (shapeCast S24x1024 (View.readAt (Elt F) m.view (Rect.unit ![0, 0] S24x1024.size inb0).toLoadRect (hm.unread xt)) h1) (broadcast S24x1024 2#32))
          (select (cmpi CmpIPredicate.eq (shapeCast S24x1024 (View.readAt (Elt F) m.view (Rect.unit ![0, 0] S24x1024.size inb0).toLoadRect (hm.unread xt)) h1) (broadcast S24x1024 0#32))
            (broadcast S24x1024 s0) (broadcast S24x1024 s1))
          (select (cmpi CmpIPredicate.eq (shapeCast S24x1024 (View.readAt (Elt F) m.view (Rect.unit ![0, 0] S24x1024.size inb0).toLoadRect (hm.unread xt)) h1) (broadcast S24x1024 2#32))
            (broadcast S24x1024 s2) (broadcast S24x1024 s3))) h2 x
      = (if (xt (ix2 (x 2) (x 3))).slt 2#32 then (if xt (ix2 (x 2) (x 3)) = 0#32 then s0 else s1)
          else (if xt (ix2 (x 2) (x 3)) = 2#32 then s2 else s3)) := by
  have hT : shapeCast S24x1024 (View.readAt (Elt F) m.view (Rect.unit ![0, 0] S24x1024.size inb0).toLoadRect (hm.unread xt)) h1 (ix2 (x 2) (x 3)) = xt (ix2 (x 2) (x 3)) := by
    refine (congrFun (shapeCast_self _ h1) _).trans ?_
    refine (readAt_unread m hm xt _ _).trans ?_
    congr 1
    funext a
    apply Fin.ext
    match a with
    | ⟨0, _⟩ => show 0 + 1 * (x 2).val = (x 2).val; omega
    | ⟨1, _⟩ => show 0 + 1 * (x 3).val = (x 3).val; omega
  simp only [slab_apply, select_apply, cmpi, broadcast_apply, hT]
  exact sel_scalar _ s0 s1 s2 s3

/-! ### The block's function, channel by channel -/

theorem blkSpec_tbl (x0 : Vec F S24x1024 .i32) (x1 : Vec F S1x1024 .f32) (x2 : Vec F S10x1024 .f32) (x3 x4 x5 x6 x7 : Vec F S24x1024 .f32) (x8 : Vec F S4x5 .f32) (z : S1x21x24x1024.Idx) (k : Nat) (hk : k < 5) (h : (z 1).val = k) :
    blkSpec x0 x1 x2 x3 x4 x5 x6 x7 x8 z = Cert.Spec.pick x8 ⟨k, hk⟩ (x0 (ix2 (z 2) (z 3))) := by
  subst h; unfold blkSpec; rw [dif_pos hk]
theorem blkSpec_step (x0 : Vec F S24x1024 .i32) (x1 : Vec F S1x1024 .f32) (x2 : Vec F S10x1024 .f32) (x3 x4 x5 x6 x7 : Vec F S24x1024 .f32) (x8 : Vec F S4x5 .f32) (z : S1x21x24x1024.Idx) (h : (z 1).val = 5) :
    blkSpec x0 x1 x2 x3 x4 x5 x6 x7 x8 z = x1 (ix2 0 (z 3)) := by
  unfold blkSpec; rw [dif_neg (by omega), if_pos h]
theorem blkSpec_par (x0 : Vec F S24x1024 .i32) (x1 : Vec F S1x1024 .f32) (x2 : Vec F S10x1024 .f32) (x3 x4 x5 x6 x7 : Vec F S24x1024 .f32) (x8 : Vec F S4x5 .f32) (z : S1x21x24x1024.Idx) (r : Nat) (hr : r < 10) (h : (z 1).val = r + 6) :
    blkSpec x0 x1 x2 x3 x4 x5 x6 x7 x8 z = x2 (ix2 ⟨r, hr⟩ (z 3)) := by
  unfold blkSpec; rw [dif_neg (by omega), if_neg (by omega), dif_pos (by omega)]
  congr 2; exact Fin.ext (by show (z 1).val - 6 = r; omega)
theorem blkSpec_g16 (x0 : Vec F S24x1024 .i32) (x1 : Vec F S1x1024 .f32) (x2 : Vec F S10x1024 .f32) (x3 x4 x5 x6 x7 : Vec F S24x1024 .f32) (x8 : Vec F S4x5 .f32) (z : S1x21x24x1024.Idx) (h : (z 1).val = 16) : blkSpec x0 x1 x2 x3 x4 x5 x6 x7 x8 z = x3 (ix2 (z 2) (z 3)) := by
  unfold blkSpec; rw [dif_neg (by omega), if_neg (by omega), dif_neg (by omega), if_pos h]
theorem blkSpec_g17 (x0 : Vec F S24x1024 .i32) (x1 : Vec F S1x1024 .f32) (x2 : Vec F S10x1024 .f32) (x3 x4 x5 x6 x7 : Vec F S24x1024 .f32) (x8 : Vec F S4x5 .f32) (z : S1x21x24x1024.Idx) (h : (z 1).val = 17) : blkSpec x0 x1 x2 x3 x4 x5 x6 x7 x8 z = x4 (ix2 (z 2) (z 3)) := by
  unfold blkSpec; rw [dif_neg (by omega), if_neg (by omega), dif_neg (by omega), if_neg (by omega), if_pos h]
theorem blkSpec_g18 (x0 : Vec F S24x1024 .i32) (x1 : Vec F S1x1024 .f32) (x2 : Vec F S10x1024 .f32) (x3 x4 x5 x6 x7 : Vec F S24x1024 .f32) (x8 : Vec F S4x5 .f32) (z : S1x21x24x1024.Idx) (h : (z 1).val = 18) : blkSpec x0 x1 x2 x3 x4 x5 x6 x7 x8 z = x5 (ix2 (z 2) (z 3)) := by
  unfold blkSpec; rw [dif_neg (by omega), if_neg (by omega), dif_neg (by omega), if_neg (by omega), if_neg (by omega), if_pos h]
theorem blkSpec_g19 (x0 : Vec F S24x1024 .i32) (x1 : Vec F S1x1024 .f32) (x2 : Vec F S10x1024 .f32) (x3 x4 x5 x6 x7 : Vec F S24x1024 .f32) (x8 : Vec F S4x5 .f32) (z : S1x21x24x1024.Idx) (h : (z 1).val = 19) : blkSpec x0 x1 x2 x3 x4 x5 x6 x7 x8 z = x6 (ix2 (z 2) (z 3)) := by
  unfold blkSpec; rw [dif_neg (by omega), if_neg (by omega), dif_neg (by omega), if_neg (by omega), if_neg (by omega), if_neg (by omega), if_pos h]
theorem blkSpec_g20 (x0 : Vec F S24x1024 .i32) (x1 : Vec F S1x1024 .f32) (x2 : Vec F S10x1024 .f32) (x3 x4 x5 x6 x7 : Vec F S24x1024 .f32) (x8 : Vec F S4x5 .f32) (z : S1x21x24x1024.Idx) (h : (z 1).val = 20) : blkSpec x0 x1 x2 x3 x4 x5 x6 x7 x8 z = x7 (ix2 (z 2) (z 3)) := by
  unfold blkSpec; rw [dif_neg (by omega), if_neg (by omega), dif_neg (by omega), if_neg (by omega), if_neg (by omega), if_neg (by omega), if_neg (by omega)]

set_option maxHeartbeats 2000000 in
/-- The body's stores, read at an index of the output block, are the block's function of the input blocks. -/
theorem canon_run (c : Dev nD) (i : grid1.Coords) (arg2 : Memref sig .tc .vmem S24x1024 .i32) (harg2 : arg2.IsWhole) (arg3 : Memref sig .tc .vmem S1x1024 .f32) (harg3 : arg3.IsWhole) (arg4 : Memref sig .tc .vmem S10x1024 .f32) (harg4 : arg4.IsWhole) (arg5 : Memref sig .tc .vmem S24x1024 .f32) (harg5 : arg5.IsWhole) (arg6 : Memref sig .tc .vmem S24x1024 .f32) (harg6 : arg6.IsWhole) (arg7 : Memref sig .tc .vmem S24x1024 .f32) (harg7 : arg7.IsWhole) (arg8 : Memref sig .tc .vmem S24x1024 .f32) (harg8 : arg8.IsWhole) (arg9 : Memref sig .tc .vmem S24x1024 .f32) (harg9 : arg9.IsWhole) (arg10 : Memref sig .tc .smem S4x5 .f32) (harg10 : arg10.IsWhole) (arg12 : Memref sig .tc .vmem S1x21x24x1024 .f32) (harg12 : arg12.IsWhole)
    (x0 : Vec F S24x1024 .i32) (x1 : Vec F S1x1024 .f32) (x2 : Vec F S10x1024 .f32) (x3 x4 x5 x6 x7 : Vec F S24x1024 .f32) (x8 : Vec F S4x5 .f32) (z : S1x21x24x1024.Idx) :
    View.canon (tcRun c i arg2 harg2 arg3 harg3 arg4 harg4 arg5 harg5 arg6 harg6 arg7 harg7 arg8 harg8 arg9 harg9 arg10 harg10 arg12 harg12 x0 x1 x2 x3 x4 x5 x6 x7 x8).1 z = blkSpec x0 x1 x2 x3 x4 x5 x6 x7 x8 z := by
  refine View.canon_apply_of_pieces (blkSpec x0 x1 x2 x3 x4 x5 x6 x7 x8) _ ?_ z (cover9 c i arg2 harg2 arg3 harg3 arg4 harg4 arg5 harg5 arg6 harg6 arg7 harg7 arg8 harg8 arg9 harg9 arg10 harg10 arg12 harg12 x0 x1 x2 x3 x4 x5 x6 x7 x8 z)
  unfold tcRun
  dsimp only
  sl_unfold_run_names
  intro p hp
  simp only [List.mem_cons, List.mem_nil_iff, or_false] at hp
  rcases hp with rfl | rfl | rfl | rfl | rfl | rfl | rfl | rfl | rfl | rfl | rfl | rfl | rfl | rfl | rfl | rfl | rfl | rfl | rfl | rfl | rfl
  · intro x
    obtain ⟨e1, e2, e3⟩ := emb_slab 20 inb_S1x21x24x1024_S1x1x24x1024_0_20_0_0 x
    refine Eq.trans ?_ (blkSpec_g20 x0 x1 x2 x3 x4 x5 x6 x7 x8 _ e1).symm
    rw [e2, e3]
    exact pay_grid arg9 harg9 x7 inb_S24x1024_S24x1024_0_0 shapeCasts_S24x1024_S24x1024 shapeCasts_S24x1024_S1x1x24x1024 x
  · intro x
    obtain ⟨e1, e2, e3⟩ := emb_slab 19 inb_S1x21x24x1024_S1x1x24x1024_0_19_0_0 x
    refine Eq.trans ?_ (blkSpec_g19 x0 x1 x2 x3 x4 x5 x6 x7 x8 _ e1).symm
    rw [e2, e3]
    exact pay_grid arg8 harg8 x6 inb_S24x1024_S24x1024_0_0 shapeCasts_S24x1024_S24x1024 shapeCasts_S24x1024_S1x1x24x1024 x
  · intro x
    obtain ⟨e1, e2, e3⟩ := emb_slab 18 inb_S1x21x24x1024_S1x1x24x1024_0_18_0_0 x
    refine Eq.trans ?_ (blkSpec_g18 x0 x1 x2 x3 x4 x5 x6 x7 x8 _ e1).symm
    rw [e2, e3]
    exact pay_grid arg7 harg7 x5 inb_S24x1024_S24x1024_0_0 shapeCasts_S24x1024_S24x1024 shapeCasts_S24x1024_S1x1x24x1024 x
  · intro x
    obtain ⟨e1, e2, e3⟩ := emb_slab 17 inb_S1x21x24x1024_S1x1x24x1024_0_17_0_0 x
    refine Eq.trans ?_ (blkSpec_g17 x0 x1 x2 x3 x4 x5 x6 x7 x8 _ e1).symm
    rw [e2, e3]
    exact pay_grid arg6 harg6 x4 inb_S24x1024_S24x1024_0_0 shapeCasts_S24x1024_S24x1024 shapeCasts_S24x1024_S1x1x24x1024 x
  · intro x
    obtain ⟨e1, e2, e3⟩ := emb_slab 16 inb_S1x21x24x1024_S1x1x24x1024_0_16_0_0 x
    refine Eq.trans ?_ (blkSpec_g16 x0 x1 x2 x3 x4 x5 x6 x7 x8 _ e1).symm
    rw [e2, e3]
    exact pay_grid arg5 harg5 x3 inb_S24x1024_S24x1024_0_0 shapeCasts_S24x1024_S24x1024 shapeCasts_S24x1024_S1x1x24x1024 x
  · intro x
    obtain ⟨e1, e2, e3⟩ := emb_slab 15 inb_S1x21x24x1024_S1x1x24x1024_0_15_0_0 x
    refine Eq.trans ?_ (blkSpec_par x0 x1 x2 x3 x4 x5 x6 x7 x8 _ 9 (by decide) e1).symm
    rw [e3]
    exact pay_par arg4 harg4 x2 9 (by decide) inb_S10x1024_S1x1024_9_0 shapeCasts_S1x1024_S1x1024 shapeCasts_S1x1024_S1x1024 broadcasts_S1x1024_S24x1024 shapeCasts_S24x1024_S1x1x24x1024 x
  · intro x
    obtain ⟨e1, e2, e3⟩ := emb_slab 14 inb_S1x21x24x1024_S1x1x24x1024_0_14_0_0 x
    refine Eq.trans ?_ (blkSpec_par x0 x1 x2 x3 x4 x5 x6 x7 x8 _ 8 (by decide) e1).symm
    rw [e3]
    exact pay_par arg4 harg4 x2 8 (by decide) inb_S10x1024_S1x1024_8_0 shapeCasts_S1x1024_S1x1024 shapeCasts_S1x1024_S1x1024 broadcasts_S1x1024_S24x1024 shapeCasts_S24x1024_S1x1x24x1024 x
  · intro x
    obtain ⟨e1, e2, e3⟩ := emb_slab 13 inb_S1x21x24x1024_S1x1x24x1024_0_13_0_0 x
    refine Eq.trans ?_ (blkSpec_par x0 x1 x2 x3 x4 x5 x6 x7 x8 _ 7 (by decide) e1).symm
    rw [e3]
    exact pay_par arg4 harg4 x2 7 (by decide) inb_S10x1024_S1x1024_7_0 shapeCasts_S1x1024_S1x1024 shapeCasts_S1x1024_S1x1024 broadcasts_S1x1024_S24x1024 shapeCasts_S24x1024_S1x1x24x1024 x
  · intro x
    obtain ⟨e1, e2, e3⟩ := emb_slab 12 inb_S1x21x24x1024_S1x1x24x1024_0_12_0_0 x
    refine Eq.trans ?_ (blkSpec_par x0 x1 x2 x3 x4 x5 x6 x7 x8 _ 6 (by decide) e1).symm
    rw [e3]
    exact pay_par arg4 harg4 x2 6 (by decide) inb_S10x1024_S1x1024_6_0 shapeCasts_S1x1024_S1x1024 shapeCasts_S1x1024_S1x1024 broadcasts_S1x1024_S24x1024 shapeCasts_S24x1024_S1x1x24x1024 x
  · intro x
    obtain ⟨e1, e2, e3⟩ := emb_slab 11 inb_S1x21x24x1024_S1x1x24x1024_0_11_0_0 x
    refine Eq.trans ?_ (blkSpec_par x0 x1 x2 x3 x4 x5 x6 x7 x8 _ 5 (by decide) e1).symm
    rw [e3]
    exact pay_par arg4 harg4 x2 5 (by decide) inb_S10x1024_S1x1024_5_0 shapeCasts_S1x1024_S1x1024 shapeCasts_S1x1024_S1x1024 broadcasts_S1x1024_S24x1024 shapeCasts_S24x1024_S1x1x24x1024 x
  · intro x
    obtain ⟨e1, e2, e3⟩ := emb_slab 10 inb_S1x21x24x1024_S1x1x24x1024_0_10_0_0 x
    refine Eq.trans ?_ (blkSpec_par x0 x1 x2 x3 x4 x5 x6 x7 x8 _ 4 (by decide) e1).symm
    rw [e3]
    exact pay_par arg4 harg4 x2 4 (by decide) inb_S10x1024_S1x1024_4_0 shapeCasts_S1x1024_S1x1024 shapeCasts_S1x1024_S1x1024 broadcasts_S1x1024_S24x1024 shapeCasts_S24x1024_S1x1x24x1024 x
  · intro x
    obtain ⟨e1, e2, e3⟩ := emb_slab 9 inb_S1x21x24x1024_S1x1x24x1024_0_9_0_0 x
    refine Eq.trans ?_ (blkSpec_par x0 x1 x2 x3 x4 x5 x6 x7 x8 _ 3 (by decide) e1).symm
    rw [e3]
    exact pay_par arg4 harg4 x2 3 (by decide) inb_S10x1024_S1x1024_3_0 shapeCasts_S1x1024_S1x1024 shapeCasts_S1x1024_S1x1024 broadcasts_S1x1024_S24x1024 shapeCasts_S24x1024_S1x1x24x1024 x
  · intro x
    obtain ⟨e1, e2, e3⟩ := emb_slab 8 inb_S1x21x24x1024_S1x1x24x1024_0_8_0_0 x
    refine Eq.trans ?_ (blkSpec_par x0 x1 x2 x3 x4 x5 x6 x7 x8 _ 2 (by decide) e1).symm
    rw [e3]
    exact pay_par arg4 harg4 x2 2 (by decide) inb_S10x1024_S1x1024_2_0 shapeCasts_S1x1024_S1x1024 shapeCasts_S1x1024_S1x1024 broadcasts_S1x1024_S24x1024 shapeCasts_S24x1024_S1x1x24x1024 x
  · intro x
    obtain ⟨e1, e2, e3⟩ := emb_slab 7 inb_S1x21x24x1024_S1x1x24x1024_0_7_0_0 x
    refine Eq.trans ?_ (blkSpec_par x0 x1 x2 x3 x4 x5 x6 x7 x8 _ 1 (by decide) e1).symm
    rw [e3]
    exact pay_par arg4 harg4 x2 1 (by decide) inb_S10x1024_S1x1024_1_0 shapeCasts_S1x1024_S1x1024 shapeCasts_S1x1024_S1x1024 broadcasts_S1x1024_S24x1024 shapeCasts_S24x1024_S1x1x24x1024 x
  · intro x
    obtain ⟨e1, e2, e3⟩ := emb_slab 6 inb_S1x21x24x1024_S1x1x24x1024_0_6_0_0 x
    refine Eq.trans ?_ (blkSpec_par x0 x1 x2 x3 x4 x5 x6 x7 x8 _ 0 (by decide) e1).symm
    rw [e3]
    exact pay_par arg4 harg4 x2 0 (by decide) inb_S10x1024_S1x1024_0_0 shapeCasts_S1x1024_S1x1024 shapeCasts_S1x1024_S1x1024 broadcasts_S1x1024_S24x1024 shapeCasts_S24x1024_S1x1x24x1024 x
  · intro x
    obtain ⟨e1, e2, e3⟩ := emb_slab 5 inb_S1x21x24x1024_S1x1x24x1024_0_5_0_0 x
    refine Eq.trans ?_ (blkSpec_step x0 x1 x2 x3 x4 x5 x6 x7 x8 _ e1).symm
    rw [e3]
    exact pay_step arg3 harg3 x1 inb_S1x1024_S1x1024_0_0 shapeCasts_S1x1024_S1x1024 shapeCasts_S1x1024_S1x1024 broadcasts_S1x1024_S24x1024 shapeCasts_S24x1024_S1x1x24x1024 x
  · intro x
    obtain ⟨e1, e2, e3⟩ := emb_slab 4 inb_S1x21x24x1024_S1x1x24x1024_0_4_0_0 x
    refine Eq.trans ?_ (blkSpec_tbl x0 x1 x2 x3 x4 x5 x6 x7 x8 _ 4 (by decide) e1).symm
    rw [e2, e3]
    refine (pay_tbl arg2 harg2 x0 inb_S24x1024_S24x1024_0_0 shapeCasts_S24x1024_S24x1024 _ _ _ _ shapeCasts_S24x1024_S1x1x24x1024 x).trans ?_
    rw [pay_word arg10 harg10 x8 0 4 (by decide) (by decide), pay_word arg10 harg10 x8 1 4 (by decide) (by decide), pay_word arg10 harg10 x8 2 4 (by decide) (by decide), pay_word arg10 harg10 x8 3 4 (by decide) (by decide)]
    rfl
  · intro x
    obtain ⟨e1, e2, e3⟩ := emb_slab 3 inb_S1x21x24x1024_S1x1x24x1024_0_3_0_0 x
    refine Eq.trans ?_ (blkSpec_tbl x0 x1 x2 x3 x4 x5 x6 x7 x8 _ 3 (by decide) e1).symm
    rw [e2, e3]
    refine (pay_tbl arg2 harg2 x0 inb_S24x1024_S24x1024_0_0 shapeCasts_S24x1024_S24x1024 _ _ _ _ shapeCasts_S24x1024_S1x1x24x1024 x).trans ?_
    rw [pay_word arg10 harg10 x8 0 3 (by decide) (by decide), pay_word arg10 harg10 x8 1 3 (by decide) (by decide), pay_word arg10 harg10 x8 2 3 (by decide) (by decide), pay_word arg10 harg10 x8 3 3 (by decide) (by decide)]
    rfl
  · intro x
    obtain ⟨e1, e2, e3⟩ := emb_slab 2 inb_S1x21x24x1024_S1x1x24x1024_0_2_0_0 x
    refine Eq.trans ?_ (blkSpec_tbl x0 x1 x2 x3 x4 x5 x6 x7 x8 _ 2 (by decide) e1).symm
    rw [e2, e3]
    refine (pay_tbl arg2 harg2 x0 inb_S24x1024_S24x1024_0_0 shapeCasts_S24x1024_S24x1024 _ _ _ _ shapeCasts_S24x1024_S1x1x24x1024 x).trans ?_
    rw [pay_word arg10 harg10 x8 0 2 (by decide) (by decide), pay_word arg10 harg10 x8 1 2 (by decide) (by decide), pay_word arg10 harg10 x8 2 2 (by decide) (by decide), pay_word arg10 harg10 x8 3 2 (by decide) (by decide)]
    rfl
  · intro x
    obtain ⟨e1, e2, e3⟩ := emb_slab 1 inb_S1x21x24x1024_S1x1x24x1024_0_1_0_0 x
    refine Eq.trans ?_ (blkSpec_tbl x0 x1 x2 x3 x4 x5 x6 x7 x8 _ 1 (by decide) e1).symm
    rw [e2, e3]
    refine (pay_tbl arg2 harg2 x0 inb_S24x1024_S24x1024_0_0 shapeCasts_S24x1024_S24x1024 _ _ _ _ shapeCasts_S24x1024_S1x1x24x1024 x).trans ?_
    rw [pay_word arg10 harg10 x8 0 1 (by decide) (by decide), pay_word arg10 harg10 x8 1 1 (by decide) (by decide), pay_word arg10 harg10 x8 2 1 (by decide) (by decide), pay_word arg10 harg10 x8 3 1 (by decide) (by decide)]
    rfl
  · intro x
    obtain ⟨e1, e2, e3⟩ := emb_slab 0 inb_S1x21x24x1024_S1x1x24x1024_0_0_0_0 x
    refine Eq.trans ?_ (blkSpec_tbl x0 x1 x2 x3 x4 x5 x6 x7 x8 _ 0 (by decide) e1).symm
    rw [e2, e3]
    refine (pay_tbl arg2 harg2 x0 inb_S24x1024_S24x1024_0_0 shapeCasts_S24x1024_S24x1024 _ _ _ _ shapeCasts_S24x1024_S1x1x24x1024 x).trans ?_
    rw [pay_word arg10 harg10 x8 0 0 (by decide) (by decide), pay_word arg10 harg10 x8 1 0 (by decide) (by decide), pay_word arg10 harg10 x8 2 0 (by decide) (by decide), pay_word arg10 harg10 x8 3 0 (by decide) (by decide)]
    rfl

/-! ## From the blocks to the arrays -/

section Arrays

variable (gfun : Fin 10 → FVec F Cert.Spec.SG .f32)

theorem outK_tbl (tt : IVec Cert.Spec.SG 32) (st : FVec F Cert.Spec.S1B .f32) (par : FVec F Cert.Spec.SPB .f32) (g : Fin 10 → FVec F Cert.Spec.SG .f32)
    (tbl : FVec F Cert.Spec.ST .f32) (j : Cert.Spec.SK.Idx) (h : (j 1).val < 5) :
    Cert.Spec.outK tt st par g tbl j = Cert.Spec.pick tbl ⟨(j 1).val, h⟩ (tt (ix2 (Cert.Spec.hw (j 0) (j 2)) (j 3))) := by
  unfold Cert.Spec.outK; simp only [dif_pos h]
theorem outK_step (tt : IVec Cert.Spec.SG 32) (st : FVec F Cert.Spec.S1B .f32) (par : FVec F Cert.Spec.SPB .f32) (g : Fin 10 → FVec F Cert.Spec.SG .f32)
    (tbl : FVec F Cert.Spec.ST .f32) (j : Cert.Spec.SK.Idx) (h : (j 1).val = 5) :
    Cert.Spec.outK tt st par g tbl j = st (ix2 0 (j 3)) := by
  unfold Cert.Spec.outK; simp only [dif_neg (show ¬(j 1).val < 5 by omega), if_pos h]
theorem outK_par (tt : IVec Cert.Spec.SG 32) (st : FVec F Cert.Spec.S1B .f32) (par : FVec F Cert.Spec.SPB .f32) (g : Fin 10 → FVec F Cert.Spec.SG .f32)
    (tbl : FVec F Cert.Spec.ST .f32) (j : Cert.Spec.SK.Idx) (h6 : 6 ≤ (j 1).val) (h16 : (j 1).val < 16) :
    Cert.Spec.outK tt st par g tbl j = par (ix2 ⟨(j 1).val - 6, by omega⟩ (j 3)) := by
  unfold Cert.Spec.outK; simp only [dif_neg (show ¬(j 1).val < 5 by omega), if_neg (show ¬(j 1).val = 5 by omega), dif_pos h16]
theorem outK_grid (tt : IVec Cert.Spec.SG 32) (st : FVec F Cert.Spec.S1B .f32) (par : FVec F Cert.Spec.SPB .f32) (g : Fin 10 → FVec F Cert.Spec.SG .f32)
    (tbl : FVec F Cert.Spec.ST .f32) (j : Cert.Spec.SK.Idx) (h16 : 16 ≤ (j 1).val) :
    Cert.Spec.outK tt st par g tbl j = g ⟨(j 1).val - 16, by have h26 : (j 1).val < 26 := (j 1).isLt; omega⟩ (ix2 (Cert.Spec.hw (j 0) (j 2)) (j 3)) := by
  unfold Cert.Spec.outK; simp only [dif_neg (show ¬(j 1).val < 5 by omega), if_neg (show ¬(j 1).val = 5 by omega), dif_neg (show ¬(j 1).val < 16 by omega)]

/-- The result array's index of an element of the output block at point `t`. -/
def jOf (t : Fin cfg1.N) (z : S1x21x24x1024.Idx) : Cert.Spec.SK.Idx :=
  ix4 (⟨(grid1.coords t 0).val, (grid1.coords t 0).isLt⟩ : Fin 24) (⟨(z 1).val, Nat.lt_of_lt_of_le (z 1).isLt (by decide)⟩ : Fin 26)
    (⟨(z 2).val, (z 2).isLt⟩ : Fin 24) (bat t ⟨(z 3).val, (z 3).isLt⟩)

/-- The block's function of the input blocks at a point is the kernels' function of the arrays at the block's elements. -/
theorem blkSpec_eq (c : Dev nD) (t : Fin cfg1.N) (z : S1x21x24x1024.Idx)
    (hg0 : gfun 0 = V c main_v5) (hg1 : gfun 1 = V c main_v7) (hg2 : gfun 2 = V c main_v9) (hg3 : gfun 3 = V c main_v11) (hg4 : gfun 4 = V c main_v13) :
    blkSpec (iblk V c 0 t) (iblk V c 1 t) (iblk V c 2 t) (iblk V c 3 t) (iblk V c 4 t) (iblk V c 5 t) (iblk V c 6 t) (iblk V c 7 t) (iblk V c 8 t) z
      = Cert.Spec.outK (V c main_v1) (V c main_v2) (V c main_v3) gfun (V c main_arg13) (jOf t z) := by
  have hz1 : ((jOf t z) 1).val = (z 1).val := rfl
  have hlt : (z 1).val < 21 := (z 1).isLt
  have e8 : (iblk V c 8 t : Vec F S4x5 .f32) = V c main_arg13 := funext (iblk8_apply V c t)
  by_cases h5 : (z 1).val < 5
  · refine (blkSpec_tbl _ _ _ _ _ _ _ _ _ z _ h5 rfl).trans ?_
    refine Eq.trans ?_ (outK_tbl _ _ _ _ _ (jOf t z) h5).symm
    rw [e8, iblk0_apply]
    rfl
  · by_cases h5' : (z 1).val = 5
    · refine (blkSpec_step _ _ _ _ _ _ _ _ _ z h5').trans ?_
      refine Eq.trans ?_ (outK_step _ _ _ _ _ (jOf t z) h5').symm
      rw [iblk1_apply]
      rfl
    · by_cases h16 : (z 1).val < 16
      · refine (blkSpec_par _ _ _ _ _ _ _ _ _ z ((z 1).val - 6) (by omega) (by omega)).trans ?_
        refine Eq.trans ?_ (outK_par _ _ _ _ _ (jOf t z) (show 6 ≤ (z 1).val by omega) h16).symm
        rw [iblk2_apply]
        rfl
      · refine Eq.trans ?_ (outK_grid _ _ _ _ _ (jOf t z) (show 16 ≤ (z 1).val by omega)).symm
        rcases (by omega : (z 1).val = 16 ∨ (z 1).val = 17 ∨ (z 1).val = 18 ∨ (z 1).val = 19 ∨ (z 1).val = 20) with h | h | h | h | h
        · refine (blkSpec_g16 _ _ _ _ _ _ _ _ _ z h).trans ?_
          rw [iblk3_apply]
          have e : (⟨((jOf t z) 1).val - 16, by have h26 : ((jOf t z) 1).val < 26 := ((jOf t z) 1).isLt; omega⟩ : Fin 10) = 0 := Fin.ext (by show (z 1).val - 16 = 0; omega)
          rw [e, hg0]
          rfl
        · refine (blkSpec_g17 _ _ _ _ _ _ _ _ _ z h).trans ?_
          rw [iblk4_apply]
          have e : (⟨((jOf t z) 1).val - 16, by have h26 : ((jOf t z) 1).val < 26 := ((jOf t z) 1).isLt; omega⟩ : Fin 10) = 1 := Fin.ext (by show (z 1).val - 16 = 1; omega)
          rw [e, hg1]
          rfl
        · refine (blkSpec_g18 _ _ _ _ _ _ _ _ _ z h).trans ?_
          rw [iblk5_apply]
          have e : (⟨((jOf t z) 1).val - 16, by have h26 : ((jOf t z) 1).val < 26 := ((jOf t z) 1).isLt; omega⟩ : Fin 10) = 2 := Fin.ext (by show (z 1).val - 16 = 2; omega)
          rw [e, hg2]
          rfl
        · refine (blkSpec_g19 _ _ _ _ _ _ _ _ _ z h).trans ?_
          rw [iblk6_apply]
          have e : (⟨((jOf t z) 1).val - 16, by have h26 : ((jOf t z) 1).val < 26 := ((jOf t z) 1).isLt; omega⟩ : Fin 10) = 3 := Fin.ext (by show (z 1).val - 16 = 3; omega)
          rw [e, hg3]
          rfl
        · refine (blkSpec_g20 _ _ _ _ _ _ _ _ _ z h).trans ?_
          rw [iblk7_apply]
          have e : (⟨((jOf t z) 1).val - 16, by have h26 : ((jOf t z) 1).val < 26 := ((jOf t z) 1).isLt; omega⟩ : Fin 10) = 4 := Fin.ext (by show (z 1).val - 16 = 4; omega)
          rw [e, hg4]
          rfl

end Arrays

end Cert.KernelIdeal.Hand

end
-- ==== Proof.KI.TcValue.lean ====
/-
  What the TensorCore kernel's region leaves in its result array, and the region's step with that value: what a point
  writes back is, element by element, the kernels' function of the staged arrays at the element's place in the array;
  every element of the channels below 21 lies in some point's block, no element of the others does; so after every
  write-back the result array's channels below 21 hold that function and the others what they held.
-/
import proofs.«206564_g5145370820828_cont_8to1c4_476_13_alg».proof.Proof.KI.TcValA

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.SparseCore (S T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.ValueIdx

variable (V : (c : Dev nD) → (b : Ref sig .tc) → Buf (Elt F) ((c.tc : Thread nD τ).loc b))
variable (O : Dev nD → CellTallies nD τ sig (HIx 1)) (W₀ : Dev nD → Waits sig (HIx 1))

section Arrays

variable (gfun : Fin 10 → FVec F Cert.Spec.SG .f32)

/-- The result array's index of a block's element is the element's place in the array. -/
theorem jOf_xinj (t : Fin cfg1.N) (y : (win1_9.xblock (grid1.coords t)).Idx) :
    jOf t (win1_9.xinj (grid1.coords t) y) = (win1_9.rect t).emb y := by
  have hi := idx1_9 t
  funext a
  apply Fin.ext
  match a with
  | ⟨0, _⟩ =>
    rw [win1_9.rect_emb_val t y ⟨0, (by decide : 0 < 4)⟩]
    have h0 : (y ⟨0, (by decide : 0 < 4)⟩).val < win1_9.xsize (grid1.coords t) ⟨0, (by decide : 0 < 4)⟩ := (y ⟨0, (by decide : 0 < 4)⟩).isLt
    rw [xsize1_9 t ⟨0, (by decide : 0 < 4)⟩] at h0
    have h0' : (y ⟨0, (by decide : 0 < 4)⟩).val < 1 := h0
    show (grid1.coords t 0).val = win1_9.index t 0 * 1 + (y ⟨0, (by decide : 0 < 4)⟩).val
    rw [hi.1]; omega
  | ⟨1, _⟩ =>
    rw [win1_9.rect_emb_val t y ⟨1, (by decide : 1 < 4)⟩]
    show (y ⟨1, (by decide : 1 < 4)⟩).val = win1_9.index t 1 * 21 + (y ⟨1, (by decide : 1 < 4)⟩).val
    rw [hi.2.1]; omega
  | ⟨2, _⟩ =>
    rw [win1_9.rect_emb_val t y ⟨2, (by decide : 2 < 4)⟩]
    show (y ⟨2, (by decide : 2 < 4)⟩).val = win1_9.index t 2 * 24 + (y ⟨2, (by decide : 2 < 4)⟩).val
    rw [hi.2.2.1]; omega
  | ⟨3, _⟩ =>
    rw [win1_9.rect_emb_val t y ⟨3, (by decide : 3 < 4)⟩]
    show (grid1.coords t 1).val * 1024 + (y ⟨3, (by decide : 3 < 4)⟩).val = win1_9.index t 3 * 1024 + (y ⟨3, (by decide : 3 < 4)⟩).val
    rw [hi.2.2.2]

/-- What a point writes back, element by element: the kernels' function of the arrays at the element's place. -/
theorem flushed9_apply (c : Dev nD) (t : Fin cfg1.N)
    (hg0 : gfun 0 = V c main_v5) (hg1 : gfun 1 = V c main_v7) (hg2 : gfun 2 = V c main_v9) (hg3 : gfun 3 = V c main_v11) (hg4 : gfun 4 = V c main_v13)
    (y : (win1_9.xblock (grid1.coords t)).Idx) :
    (dats V O W₀ 0 c).flushed 9 t y = Cert.Spec.outK (V c main_v1) (V c main_v2) (V c main_v3) gfun (V c main_arg13) ((win1_9.rect t).emb y) := by
  show (dats V O W₀ 0 c).after 9 t (win1_9.xinj (grid1.coords t) y) = _
  rw [after1_9, ← jOf_xinj]
  unfold outAt
  rw [View.read_writes_junk_eq_canon, canon_run]
  exact blkSpec_eq V gfun c t _ hg0 hg1 hg2 hg3 hg4

/-- What the result array holds after the region. -/
def outArr (c : Dev nD) : FVec F Cert.Spec.SK .f32 := fun j =>
  if (j 1).val < 21 then Cert.Spec.outK (V c main_v1) (V c main_v2) (V c main_v3) gfun (V c main_arg13) j else V c main_v25 j

set_option maxHeartbeats 1000000 in
/-- After every write-back, the result array's channels below 21 hold the kernels' function of the staged arrays, the
    others what they held. -/
theorem arrAt9_apply (c : Dev nD)
    (hg0 : gfun 0 = V c main_v5) (hg1 : gfun 1 = V c main_v7) (hg2 : gfun 2 = V c main_v9) (hg3 : gfun 3 = V c main_v11) (hg4 : gfun 4 = V c main_v13)
    (j : Cert.Spec.SK.Idx) : (dats V O W₀ 0 c).arrAt 9 cfg1.N j = outArr V gfun c j := by
  unfold outArr
  have hj0 : (j 0).val < 24 := (j 0).isLt
  have hj3 : (j 3).val < 4096 := (j 3).isLt
  by_cases hj : (j 1).val < 21
  · rw [if_pos hj]
    have hN : grid1.N = 96 := N_1
    let t : Fin cfg1.N := ⟨(j 0).val * 4 + (j 3).val / 1024, by show _ < grid1.N; rw [hN]; omega⟩
    have ht0 : (grid1.coords t 0).val = (j 0).val := by
      show ((j 0).val * 4 + (j 3).val / 1024) / grid1.stride 0 % grid1.bound 0 = _
      rw [show grid1.stride 0 = 4 from by decide, show grid1.bound 0 = 24 from rfl]; omega
    have ht1 : (grid1.coords t 1).val = (j 3).val / 1024 := by
      show ((j 0).val * 4 + (j 3).val / 1024) / grid1.stride 1 % grid1.bound 1 = _
      rw [show grid1.stride 1 = 1 from by decide, show grid1.bound 1 = 4 from rfl]; omega
    have hi := idx1_9 t
    refine (dats V O W₀ 0 c).arrAt_forall_of_flushed 9 (fun i v => v = Cert.Spec.outK (V c main_v1) (V c main_v2) (V c main_v3) gfun (V c main_arg13) i) ?_ cfg1.N t j t.isLt (flush1_9 t) ?_
    · intro t' _ y
      show (dats V O W₀ 0 c).flushed 9 t' y = Cert.Spec.outK (V c main_v1) (V c main_v2) (V c main_v3) gfun (V c main_arg13) ((win1_9.rect t').emb y)
      exact flushed9_apply V O W₀ gfun c t' hg0 hg1 hg2 hg3 hg4 y
    · show j ∈ ((View.whole main_v25).slice (win1_9.rect t)).set
      rw [View.set_slice_whole, Rect.mem_set_unit]
      intro a
      match a with
      | ⟨0, _⟩ =>
        show win1_9.index t 0 * win1_9.size 0 ≤ (j 0).val ∧ (j 0).val < win1_9.index t 0 * win1_9.size 0 + win1_9.xsize (grid1.coords t) 0
        rw [hi.1, xsize1_9 t 0, ht0]; show (j 0).val * 1 ≤ (j 0).val ∧ (j 0).val < (j 0).val * 1 + 1; omega
      | ⟨1, _⟩ =>
        show win1_9.index t 1 * win1_9.size 1 ≤ (j 1).val ∧ (j 1).val < win1_9.index t 1 * win1_9.size 1 + win1_9.xsize (grid1.coords t) 1
        rw [hi.2.1, xsize1_9 t 1]; show 0 * 21 ≤ (j 1).val ∧ (j 1).val < 0 * 21 + 21; omega
      | ⟨2, _⟩ =>
        show win1_9.index t 2 * win1_9.size 2 ≤ (j 2).val ∧ (j 2).val < win1_9.index t 2 * win1_9.size 2 + win1_9.xsize (grid1.coords t) 2
        have hj2 : (j 2).val < 24 := (j 2).isLt
        rw [hi.2.2.1, xsize1_9 t 2]; show 0 * 24 ≤ (j 2).val ∧ (j 2).val < 0 * 24 + 24; omega
      | ⟨3, _⟩ =>
        show win1_9.index t 3 * win1_9.size 3 ≤ (j 3).val ∧ (j 3).val < win1_9.index t 3 * win1_9.size 3 + win1_9.xsize (grid1.coords t) 3
        rw [hi.2.2.2, xsize1_9 t 3, ht1]; show (j 3).val / 1024 * 1024 ≤ (j 3).val ∧ (j 3).val < (j 3).val / 1024 * 1024 + 1024; omega
  · rw [if_neg hj]
    refine ((dats V O W₀ 0 c).arrAt_apply_of_forall_not_mem 9 cfg1.N j fun t _ _ hmem => hj ?_).trans (congrFun (A_eq V O W₀ c 9) j)
    have hm : j ∈ ((View.whole main_v25).slice (win1_9.rect t)).set := hmem
    rw [View.set_slice_whole, Rect.mem_set_unit] at hm
    have h1 := hm ⟨1, (by decide : 1 < 4)⟩
    have h1' : win1_9.index t 1 * win1_9.size 1 ≤ (j 1).val ∧ (j 1).val < win1_9.index t 1 * win1_9.size 1 + win1_9.xsize (grid1.coords t) 1 := h1
    rw [(idx1_9 t).2.1, xsize1_9 t 1] at h1'
    have h1'' : 0 * 21 ≤ (j 1).val ∧ (j 1).val < 0 * 21 + 21 := h1'
    omega

end Arrays

set_option maxHeartbeats 1000000 in
/-- The region's run as the TensorCore's program uses it, with the value of its result array. -/
theorem tc_region : RegionSpec (F := F) := by
  intro d n W g Φ
  iintro ⟨Hb, Hl, ⟨Hg, Ht⟩, ⟨%Wt, %hWt, HO⟩, ⟨H1, H2, H3, H4, H5, H6, H7, H8, H9⟩, H25, Hk⟩
  have e' : (dats (fun _ b => W (dr b)) (fun c => (K (F := F)).Otc c n) (fun _ => Wt) 0 d).arrAt 9 cfg1.N = (tcOut W g : Buf (Elt F) ((d.tc : Thread nD τ).loc main_v25)) :=
    funext fun j => (arrAt9_apply (fun _ b => W (dr b)) (fun c => (K (F := F)).Otc c n) (fun _ => Wt) (gfam W g) d rfl rfl rfl rfl rfl j).trans rfl
  have hfin := arrs_final (fun _ b => W (dr b)) (fun c => (K (F := F)).Otc c n) (fun _ => Wt) d
  rw [e'] at hfin
  iapply (tc_region_gen (fun _ b => W (dr b)) (fun c => (K (F := F)).Otc c n) (fun _ => Wt) (fun c g => Otc_none c n g)
    (K (F := F)).lev (K (F := F)).refines_self d Φ)
  isplitl [Hb]; · iexact Hb
  isplitl [Hl]; · iexact Hl
  isplitl [Hg]; · iexact Hg
  isplitl [Ht]; · iexact Ht
  isplitl [HO]; · iexact HO
  isplitl [H1 H2 H3 H4 H5 H6 H7 H8 H9 H25]
  · rw [arrs_eq]
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H25
  iintro ⟨Hb, Ha, HO⟩
  ihave Ha' := (Entails.of_eq hfin) $$ Ha
  icases Ha' with ⟨H1, H2, H3, H4, H5, H6, H7, H8, H9, H25⟩
  icases HO with ⟨%W', %hW', HO⟩
  iapply Hk
  isplitl [Hb]; · iexact Hb
  isplitl [HO]
  · iexists W'; isplitr
    · ipureintro; intro p hp
      rcases hW' (Finset.mem_coe.mpr hp) with h | ⟨w, s, rfl⟩
      · exact hWt p (Finset.mem_coe.mp h)
      · rw [(K (F := F)).lev_none]; exact Nat.zero_le _
    iexact HO
  isplitl [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iexact H25

end Cert.KernelIdeal.Hand

end
-- ==== Proof.K.ScBase.lean ====
import proofs.«206564_g5145370820828_cont_8to1c4_476_13_alg».proof.Proof.K.Pay

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## The vector subcore's thread and coordinates -/

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- The subcore's number among the 32. -/
def widL (L : grid0.Coords) : Fin 32 := ⟨(L 1).val * 2 + (L 0).val, by
  have h0 : (L 0).val < 2 := (L 0).isLt
  have h1 : (L 1).val < 16 := (L 1).isLt
  omega⟩

theorem defs₀_vector [FloatOps F] (c : Fin τ.nSC) (s : Fin τ.nSub) :
    defs₀ (F := F) (.scVector c s) 0 ()
      = SparseCore.onTile hcore0 hsub0 (fun c s => cc0_sc_body (coordsV c s) (Memref.whole main_v15_scv) (Memref.isWhole_whole _) (Memref.whole main_v17_scv) (Memref.isWhole_whole _) (Memref.whole main_v19_scv) (Memref.isWhole_whole _) (Memref.whole main_v21_scv) (Memref.isWhole_whole _) (Memref.whole main_v23_scv) (Memref.isWhole_whole _) (Memref.whole main_v24_scv) (Memref.isWhole_whole _) (Memref.whole cc0_scratch0) (Memref.isWhole_whole _) (Memref.whole cc0_scratch1) (Memref.isWhole_whole _) cc0_scratch2 cc0_scratch3 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.Kernel.Hand

end
-- ==== Proof.K.ScSets.lean ====
import proofs.«206564_g5145370820828_cont_8to1c4_476_13_alg».proof.Proof.K.ScBase

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## The bands as ranges of band numbers

An index of channels 21 … 25 lies in exactly one band, number `bandOf`; a run of consecutive bands is the set of
indices whose band number lies in a range. -/

/-- The indices of channels 21 … 25 whose band number lies in `[a, b)`. -/
def rng (a b : ℕ) : Finset S24x26x24x4096.Idx :=
  Finset.univ.filter fun j => 21 ≤ (j 1).val ∧ a ≤ bandOf j ∧ bandOf j < b

theorem mem_rng {a b : ℕ} {j : S24x26x24x4096.Idx} : j ∈ rng a b ↔ (21 ≤ (j 1).val ∧ a ≤ bandOf j ∧ bandOf j < b) := by
  simp [rng]

theorem rng_empty {a b : ℕ} (h : b ≤ a) : rng a b = ∅ := by
  ext j; rw [mem_rng]; constructor
  · intro h'; omega
  · intro h'; exact absurd h' (Finset.notMem_empty _)

theorem rng_union {a b c : ℕ} (h1 : a ≤ b) (h2 : b ≤ c) : rng a b ∪ rng b c = rng a c := by
  ext j; simp only [Finset.mem_union, mem_rng]; omega

theorem rng_disjoint {a b c : ℕ} : Disjoint (rng a b) (rng b c) := by
  rw [Finset.disjoint_left]; intro j h1 h2; rw [mem_rng] at h1 h2; omega

theorem bandSet_eq_rng (q : Fin 360) : bandSet q = rng q.val (q.val + 1) := by
  ext j; rw [mem_bandSet_iff, mem_rng]; omega

theorem tileSet_eq_rng (w : Fin 32) : tileSet w = rng (lo w.val) (lo (w.val + 1)) := by
  ext j; rw [mem_tileSet, mem_rng]

variable (d : Dev nD)

/-- A run of bands held at one contents splits at any band number inside it. -/
theorem pts_rng (q : PosShare TreeShare) (f : Buf (Elt F) (oLoc d)) {a b c : ℕ} (h1 : a ≤ b) (h2 : b ≤ c) :
    (oLoc d ↦[rng a c]{q} f : sProp 𝕄) ⊣⊢ iprop((oLoc d ↦[rng a b]{q} f) ∗ oLoc d ↦[rng b c]{q} f) := by
  rw [← rng_union h1 h2]; exact pointsTo_union rng_disjoint

end Cert.Kernel.Hand

end
-- ==== Proof.K.ScForms.lean ====
import proofs.«206564_g5145370820828_cont_8to1c4_476_13_alg».proof.Proof.K.ScBase

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## Where each loop stands among the subcore's bands

The kernel's ten printed loops walk the subcore's bands in order: loop `2 gi + 1` the bands of grid `gi`, from `pos gi`
to `pos (gi + 1)`. The printed offset chains and conditions, in closed form over the band's number. -/

/-- The subcore's first band and the one after its last. -/
def loL (L : grid0.Coords) : ℕ := lo (widL L).val
def hiL (L : grid0.Coords) : ℕ := lo ((widL L).val + 1)

/-- The band the subcore has reached when it enters grid `gi`'s loop. -/
def pos (gi : ℕ) (L : grid0.Coords) : ℕ := min (hiL L) (max (loL L) (72 * gi))

/-- Where band `q`'s rows start in its source grid. -/
def srcOff (q : ℕ) : Fin 2 → ℕ := ![(q % 72) / 3 * 24 + (q % 72 % 3) * 8, 0]

theorem pos_zero (L : grid0.Coords) : pos 0 L = loL L := by
  unfold pos loL hiL lo; have := (widL L).isLt; omega
theorem pos_five (L : grid0.Coords) : pos 5 L = hiL L := by
  unfold pos loL hiL lo; have := (widL L).isLt; omega
theorem lo_add_le_hi (L : grid0.Coords) : loL L + 11 ≤ hiL L := by
  unfold loL hiL lo; omega
theorem hiL_le (L : grid0.Coords) : hiL L ≤ 360 := by
  unfold hiL lo; have := (widL L).isLt; omega
theorem pos_mono (gi : ℕ) (L : grid0.Coords) : pos gi L ≤ pos (gi + 1) L := by
  unfold pos; omega
theorem lo_le_pos (gi : ℕ) (L : grid0.Coords) : loL L ≤ pos gi L := by
  have := lo_add_le_hi L; unfold pos; omega
theorem pos_le_hi (gi : ℕ) (L : grid0.Coords) : pos gi L ≤ hiL L := by
  unfold pos; omega

set_option maxRecDepth 100000 in
theorem trips_t1 : ∀ L : grid0.Coords, pos 0 L + (k0_t1_loop L).trips = pos 1 L := by decide +kernel
set_option maxRecDepth 100000 in
theorem off2_cf : ∀ (L : grid0.Coords) (t : Fin (k0_t1_loop L).trips), ∀ a, k0_off2 L t a = bandOff (pos 0 L + t.val) a := by decide +kernel
set_option maxRecDepth 100000 in
theorem off4_cf : ∀ (L : grid0.Coords) (t : Fin (k0_t1_loop L).trips), ∀ a, k0_off4 L t a = bandOff (pos 0 L + t.val) a := by decide +kernel
set_option maxRecDepth 100000 in
theorem off1_cf : ∀ (L : grid0.Coords) (t : Fin (k0_t1_loop L).trips), ∀ a, k0_off1 L t a = srcOff (pos 0 L + t.val) a := by decide +kernel
set_option maxRecDepth 100000 in
theorem off3_cf : ∀ (L : grid0.Coords) (t : Fin (k0_t1_loop L).trips), ∀ a, k0_off3 L t a = srcOff (pos 0 L + t.val) a := by decide +kernel
set_option maxRecDepth 100000 in
theorem cond3_cf : ∀ (L : grid0.Coords) (t : Fin (k0_t1_loop L).trips), (k0_cond3 L t = 1#1 ↔ (pos 0 L + t.val) % 2 = 0) := by decide +kernel
set_option maxRecDepth 100000 in
theorem cond4_cf : ∀ (L : grid0.Coords) (t : Fin (k0_t1_loop L).trips), (k0_cond4 L t = 1#1 ↔ (pos 0 L + t.val) % 2 = 1) := by decide +kernel
set_option maxRecDepth 100000 in
theorem grid_t1 : ∀ (L : grid0.Coords) (t : Fin (k0_t1_loop L).trips), (pos 0 L + t.val) / 72 = 0 := by decide +kernel

set_option maxRecDepth 100000 in
theorem trips_t3 : ∀ L : grid0.Coords, pos 1 L + (k0_t3_loop L).trips = pos 2 L := by decide +kernel
set_option maxRecDepth 100000 in
theorem off10_cf : ∀ (L : grid0.Coords) (t : Fin (k0_t3_loop L).trips), ∀ a, k0_off10 L t a = bandOff (pos 1 L + t.val) a := by decide +kernel
set_option maxRecDepth 100000 in
theorem off12_cf : ∀ (L : grid0.Coords) (t : Fin (k0_t3_loop L).trips), ∀ a, k0_off12 L t a = bandOff (pos 1 L + t.val) a := by decide +kernel
set_option maxRecDepth 100000 in
theorem off9_cf : ∀ (L : grid0.Coords) (t : Fin (k0_t3_loop L).trips), ∀ a, k0_off9 L t a = srcOff (pos 1 L + t.val) a := by decide +kernel
set_option maxRecDepth 100000 in
theorem off11_cf : ∀ (L : grid0.Coords) (t : Fin (k0_t3_loop L).trips), ∀ a, k0_off11 L t a = srcOff (pos 1 L + t.val) a := by decide +kernel
set_option maxRecDepth 100000 in
theorem cond11_cf : ∀ (L : grid0.Coords) (t : Fin (k0_t3_loop L).trips), (k0_cond11 L t = 1#1 ↔ (pos 1 L + t.val) % 2 = 0) := by decide +kernel
set_option maxRecDepth 100000 in
theorem cond12_cf : ∀ (L : grid0.Coords) (t : Fin (k0_t3_loop L).trips), (k0_cond12 L t = 1#1 ↔ (pos 1 L + t.val) % 2 = 1) := by decide +kernel
set_option maxRecDepth 100000 in
theorem grid_t3 : ∀ (L : grid0.Coords) (t : Fin (k0_t3_loop L).trips), (pos 1 L + t.val) / 72 = 1 := by decide +kernel

set_option maxRecDepth 100000 in
theorem trips_t5 : ∀ L : grid0.Coords, pos 2 L + (k0_t5_loop L).trips = pos 3 L := by decide +kernel
set_option maxRecDepth 100000 in
theorem off18_cf : ∀ (L : grid0.Coords) (t : Fin (k0_t5_loop L).trips), ∀ a, k0_off18 L t a = bandOff (pos 2 L + t.val) a := by decide +kernel
set_option maxRecDepth 100000 in
theorem off20_cf : ∀ (L : grid0.Coords) (t : Fin (k0_t5_loop L).trips), ∀ a, k0_off20 L t a = bandOff (pos 2 L + t.val) a := by decide +kernel
set_option maxRecDepth 100000 in
theorem off17_cf : ∀ (L : grid0.Coords) (t : Fin (k0_t5_loop L).trips), ∀ a, k0_off17 L t a = srcOff (pos 2 L + t.val) a := by decide +kernel
set_option maxRecDepth 100000 in
theorem off19_cf : ∀ (L : grid0.Coords) (t : Fin (k0_t5_loop L).trips), ∀ a, k0_off19 L t a = srcOff (pos 2 L + t.val) a := by decide +kernel
set_option maxRecDepth 100000 in
theorem cond19_cf : ∀ (L : grid0.Coords) (t : Fin (k0_t5_loop L).trips), (k0_cond19 L t = 1#1 ↔ (pos 2 L + t.val) % 2 = 0) := by decide +kernel
set_option maxRecDepth 100000 in
theorem cond20_cf : ∀ (L : grid0.Coords) (t : Fin (k0_t5_loop L).trips), (k0_cond20 L t = 1#1 ↔ (pos 2 L + t.val) % 2 = 1) := by decide +kernel
set_option maxRecDepth 100000 in
theorem grid_t5 : ∀ (L : grid0.Coords) (t : Fin (k0_t5_loop L).trips), (pos 2 L + t.val) / 72 = 2 := by decide +kernel

set_option maxRecDepth 100000 in
theorem trips_t7 : ∀ L : grid0.Coords, pos 3 L + (k0_t7_loop L).trips = pos 4 L := by decide +kernel
set_option maxRecDepth 100000 in
theorem off26_cf : ∀ (L : grid0.Coords) (t : Fin (k0_t7_loop L).trips), ∀ a, k0_off26 L t a = bandOff (pos 3 L + t.val) a := by decide +kernel
set_option maxRecDepth 100000 in
theorem off28_cf : ∀ (L : grid0.Coords) (t : Fin (k0_t7_loop L).trips), ∀ a, k0_off28 L t a = bandOff (pos 3 L + t.val) a := by decide +kernel
set_option maxRecDepth 100000 in
theorem off25_cf : ∀ (L : grid0.Coords) (t : Fin (k0_t7_loop L).trips), ∀ a, k0_off25 L t a = srcOff (pos 3 L + t.val) a := by decide +kernel
set_option maxRecDepth 100000 in
theorem off27_cf : ∀ (L : grid0.Coords) (t : Fin (k0_t7_loop L).trips), ∀ a, k0_off27 L t a = srcOff (pos 3 L + t.val) a := by decide +kernel
set_option maxRecDepth 100000 in
theorem cond27_cf : ∀ (L : grid0.Coords) (t : Fin (k0_t7_loop L).trips), (k0_cond27 L t = 1#1 ↔ (pos 3 L + t.val) % 2 = 0) := by decide +kernel
set_option maxRecDepth 100000 in
theorem cond28_cf : ∀ (L : grid0.Coords) (t : Fin (k0_t7_loop L).trips), (k0_cond28 L t = 1#1 ↔ (pos 3 L + t.val) % 2 = 1) := by decide +kernel
set_option maxRecDepth 100000 in
theorem grid_t7 : ∀ (L : grid0.Coords) (t : Fin (k0_t7_loop L).trips), (pos 3 L + t.val) / 72 = 3 := by decide +kernel

set_option maxRecDepth 100000 in
theorem trips_t9 : ∀ L : grid0.Coords, pos 4 L + (k0_t9_loop L).trips = pos 5 L := by decide +kernel
set_option maxRecDepth 100000 in
theorem off34_cf : ∀ (L : grid0.Coords) (t : Fin (k0_t9_loop L).trips), ∀ a, k0_off34 L t a = bandOff (pos 4 L + t.val) a := by decide +kernel
set_option maxRecDepth 100000 in
theorem off36_cf : ∀ (L : grid0.Coords) (t : Fin (k0_t9_loop L).trips), ∀ a, k0_off36 L t a = bandOff (pos 4 L + t.val) a := by decide +kernel
set_option maxRecDepth 100000 in
theorem off33_cf : ∀ (L : grid0.Coords) (t : Fin (k0_t9_loop L).trips), ∀ a, k0_off33 L t a = srcOff (pos 4 L + t.val) a := by decide +kernel
set_option maxRecDepth 100000 in
theorem off35_cf : ∀ (L : grid0.Coords) (t : Fin (k0_t9_loop L).trips), ∀ a, k0_off35 L t a = srcOff (pos 4 L + t.val) a := by decide +kernel
set_option maxRecDepth 100000 in
theorem cond35_cf : ∀ (L : grid0.Coords) (t : Fin (k0_t9_loop L).trips), (k0_cond35 L t = 1#1 ↔ (pos 4 L + t.val) % 2 = 0) := by decide +kernel
set_option maxRecDepth 100000 in
theorem cond36_cf : ∀ (L : grid0.Coords) (t : Fin (k0_t9_loop L).trips), (k0_cond36 L t = 1#1 ↔ (pos 4 L + t.val) % 2 = 1) := by decide +kernel
set_option maxRecDepth 100000 in
theorem grid_t9 : ∀ (L : grid0.Coords) (t : Fin (k0_t9_loop L).trips), (pos 4 L + t.val) / 72 = 4 := by decide +kernel

end Cert.Kernel.Hand

end
-- ==== Proof.K.ScViews.lean ====
import proofs.«206564_g5145370820828_cont_8to1c4_476_13_alg».proof.Proof.K.ScSets
import proofs.«206564_g5145370820828_cont_8to1c4_476_13_alg».proof.Proof.K.ScForms

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (g : Dev nD → Fin 5 → FVec F S576x4096 .f32) (f0 : (d : Dev nD) → Buf (Elt F) (oLoc d))
variable (d : Dev nD) (L : grid0.Coords)

local notation "A8" => (Memref.whole cc0_scratch0 : Memref sig Kind.scVector Space.vmem S8x4096 EltTy.f32)
local notation "A9" => (Memref.whole cc0_scratch1 : Memref sig Kind.scVector Space.vmem S8x4096 EltTy.f32)
local notation "OV" => (Memref.whole main_v24_scv : Memref sig Kind.scVector Space.hbm S24x26x24x4096 EltTy.f32)
local notation "G0" => (Memref.whole main_v15_scv : Memref sig Kind.scVector Space.hbm S576x4096 EltTy.f32)
local notation "G1" => (Memref.whole main_v17_scv : Memref sig Kind.scVector Space.hbm S576x4096 EltTy.f32)
local notation "G2" => (Memref.whole main_v19_scv : Memref sig Kind.scVector Space.hbm S576x4096 EltTy.f32)
local notation "G3" => (Memref.whole main_v21_scv : Memref sig Kind.scVector Space.hbm S576x4096 EltTy.f32)
local notation "G4" => (Memref.whole main_v23_scv : Memref sig Kind.scVector Space.hbm S576x4096 EltTy.f32)

/-- The subcore's thread. -/
abbrev thrL : Thread nD τ := V d (cV L) (jV L)

/-! ## The kernel's memrefs as the subcore's thread addresses them -/

/-- A band of the kernel-layout array as the kernel slices it: one row, one channel, eight columns, every batch entry,
    the two unit axes squeezed away. -/
abbrev bandM (off : Fin 4 → ℕ) (h : ∀ a, off a + S1x1x8x4096.size a ≤ S24x26x24x4096.size a) : Memref sig Kind.scVector Space.hbm S8x4096 EltTy.f32 :=
  ((OV).slice (Rect.unit (s := S24x26x24x4096) off S1x1x8x4096.size h) (fun _ => rfl)).squeeze S8x4096 squeezes_S1x1x8x4096_S8x4096

/-- Eight rows of a source grid as the kernel slices them. -/
abbrev rowsM (G : Memref sig Kind.scVector Space.hbm S576x4096 EltTy.f32) (off : Fin 2 → ℕ) (h : ∀ a, off a + S8x4096.size a ≤ S576x4096.size a) :
    Memref sig Kind.scVector Space.hbm S8x4096 EltTy.f32 :=
  G.slice (Rect.unit (s := S576x4096) off S8x4096.size h) (fun _ => rfl)

theorem set_bandM (off : Fin 4 → ℕ) (h : ∀ a, off a + S1x1x8x4096.size a ≤ S24x26x24x4096.size a) :
    ((bandM off h).view.set : Finset S24x26x24x4096.Idx) = (Rect.unit (s := S24x26x24x4096) off S1x1x8x4096.size h).set := by
  show (((View.whole (main_v24_scv : Ref sig .scVector)).slice (Rect.unit (s := S24x26x24x4096) off S1x1x8x4096.size h)).reshape S8x4096
    squeezes_S1x1x8x4096_S8x4096.numel_eq).set = (Rect.unit (s := S24x26x24x4096) off S1x1x8x4096.size h).set
  rw [View.set_reshape, View.set_slice]; exact Finset.map_refl

theorem bandM_congr {off off' : Fin 4 → ℕ} (e : off = off') (h : ∀ a, off a + S1x1x8x4096.size a ≤ S24x26x24x4096.size a)
    (h' : ∀ a, off' a + S1x1x8x4096.size a ≤ S24x26x24x4096.size a) : bandM off h = bandM off' h' := by
  subst e; rfl

theorem set_bandM_band (q : ℕ) (hq : q < 360) (h : ∀ a, bandOff q a + S1x1x8x4096.size a ≤ S24x26x24x4096.size a) :
    ((bandM (bandOff q) h).view.set : Finset S24x26x24x4096.Idx) = rng q (q + 1) := by
  rw [set_bandM]; exact bandSet_eq_rng ⟨q, hq⟩

/-- A band held by the thread through the kernel's slice is that band of the kernel-layout array. -/
theorem pts_bandM (q : ℕ) (hq : q < 360) (h : ∀ a, bandOff q a + S1x1x8x4096.size a ≤ S24x26x24x4096.size a) (f : Buf (Elt F) (oLoc d)) :
    ((bandM (bandOff q) h).view.loc (thrL d L) ↦[(bandM (bandOff q) h).view.set]{fullShare} (f : Buf (Elt F) ((bandM (bandOff q) h).view.loc (thrL d L))) : sProp 𝕄)
      = (oLoc d ↦[rng q (q + 1)]{fullShare} f) :=
  congrArg (fun I : Finset S24x26x24x4096.Idx => (oLoc d ↦[I]{fullShare} f : sProp 𝕄)) (set_bandM_band q hq h)

theorem pts_A8 (f : Buf (Elt F) ((thrL d L).loc cc0_scratch0)) :
    ((A8).view.loc (thrL d L) ↦[(A8).view.set]{fullShare} f : sProp 𝕄) = (thrL d L).loc cc0_scratch0 ↦{fullShare} f := by
  simp only [Memref.view_whole, View.set_whole]
theorem pts_A9 (f : Buf (Elt F) ((thrL d L).loc cc0_scratch1)) :
    ((A9).view.loc (thrL d L) ↦[(A9).view.set]{fullShare} f : sProp 𝕄) = (thrL d L).loc cc0_scratch1 ↦{fullShare} f := by
  simp only [Memref.view_whole, View.set_whole]

theorem pts_G0 (q : PosShare TreeShare) (f : Buf (Elt F) ((SparseCore.T d).loc main_v15)) : ((G0).view.loc (thrL d L) ↦{q} f : sProp 𝕄) = (SparseCore.T d).loc main_v15 ↦{q} f := rfl
theorem pts_G1 (q : PosShare TreeShare) (f : Buf (Elt F) ((SparseCore.T d).loc main_v17)) : ((G1).view.loc (thrL d L) ↦{q} f : sProp 𝕄) = (SparseCore.T d).loc main_v17 ↦{q} f := rfl
theorem pts_G2 (q : PosShare TreeShare) (f : Buf (Elt F) ((SparseCore.T d).loc main_v19)) : ((G2).view.loc (thrL d L) ↦{q} f : sProp 𝕄) = (SparseCore.T d).loc main_v19 ↦{q} f := rfl
theorem pts_G3 (q : PosShare TreeShare) (f : Buf (Elt F) ((SparseCore.T d).loc main_v21)) : ((G3).view.loc (thrL d L) ↦{q} f : sProp 𝕄) = (SparseCore.T d).loc main_v21 ↦{q} f := rfl
theorem pts_G4 (q : PosShare TreeShare) (f : Buf (Elt F) ((SparseCore.T d).loc main_v23)) : ((G4).view.loc (thrL d L) ↦{q} f : sProp 𝕄) = (SparseCore.T d).loc main_v23 ↦{q} f := rfl

/-- The credit of a band's transfer into the kernel-layout array. -/
abbrev NB : ℕ := sig.dmaCredit .scVector (Kind.scVector.table .hbm) (main_v24_scv : Ref sig .scVector).idx S8x4096 .f32

theorem amount_bandM (off : Fin 4 → ℕ) (h : ∀ a, off a + S1x1x8x4096.size a ≤ S24x26x24x4096.size a) (s : DmaSem sig) :
    (bandM off h).view.amount (SemLoc.dma s) = NB := rfl
theorem credit_bandM (off : Fin 4 → ℕ) (h : ∀ a, off a + S1x1x8x4096.size a ≤ S24x26x24x4096.size a) :
    (bandM off h).view.dmaCredit = NB := rfl

end Cert.Kernel.Hand

end
-- ==== Proof.K.ScInv.lean ====
/-
  The vector subcore's task, stated: the state of the subcore before each band — which bands hold what, which staging
  buffer is idle and which has its copy into a band in flight —, the subcore's own semaphores and buffers taken out of
  its scoped storage, and the steps from one band to the next that involve no run of the program.
-/
import proofs.«206564_g5145370820828_cont_8to1c4_476_13_alg».proof.Proof.K.ScViews

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (g : Dev nD → Fin 5 → FVec F S576x4096 .f32) (f0 : (d : Dev nD) → Buf (Elt F) (oLoc d))
variable (d : Dev nD) (L : grid0.Coords)

local notation "A8" => (Memref.whole cc0_scratch0 : Memref sig Kind.scVector Space.vmem S8x4096 EltTy.f32)
local notation "A9" => (Memref.whole cc0_scratch1 : Memref sig Kind.scVector Space.vmem S8x4096 EltTy.f32)
local notation "OV" => (Memref.whole main_v24_scv : Memref sig Kind.scVector Space.hbm S24x26x24x4096 EltTy.f32)
local notation "G0" => (Memref.whole main_v15_scv : Memref sig Kind.scVector Space.hbm S576x4096 EltTy.f32)
local notation "G1" => (Memref.whole main_v17_scv : Memref sig Kind.scVector Space.hbm S576x4096 EltTy.f32)
local notation "G2" => (Memref.whole main_v19_scv : Memref sig Kind.scVector Space.hbm S576x4096 EltTy.f32)
local notation "G3" => (Memref.whole main_v21_scv : Memref sig Kind.scVector Space.hbm S576x4096 EltTy.f32)
local notation "G4" => (Memref.whole main_v23_scv : Memref sig Kind.scVector Space.hbm S576x4096 EltTy.f32)

variable [FloatOps F]

/-- The counters' embedding the transfers' flights are stated at. -/
abbrev EC : UEmb Counters (MT nD τ sig (HIx 1) (Elt F) ℕ UU ℕ) := countersEmb (U := UU)

/-- What the kernel leaves at an index of channels 21 … 25. -/
def fin : Buf (Elt F) (oLoc d) := fun j => scVal (g d) j

/-- Buffer `p` (0: the first, 1: the second) is busy before band `q`: one of the two bands before `q`, not before the
    subcore's first band `lo`, has parity `p`, and its copy out of the buffer has not been waited for. -/
abbrev busy (p lo q : ℕ) : Prop := (lo + 1 ≤ q ∧ (q - 1) % 2 = p) ∨ (lo + 2 ≤ q ∧ q % 2 = p)

/-- The flag the kernel carries for buffer `p` before band `q`. -/
def flagP (p lo q : ℕ) : BitVec 32 := if busy p lo q then 1#32 else 0#32

/-- Buffer `p` before band `q`: idle — held at some contents, its semaphore's counter at zero — or its copy into the last
    band of parity `p` in flight, delivering that band at the source rows and the buffer back. -/
def slot (B : Memref sig Kind.scVector Space.vmem S8x4096 EltTy.f32) (sm : DmaSems sig S_) (p lo q : ℕ) : sProp 𝕄 :=
  iprop(∃ fs : Buf (Elt F) (B.view.loc (thrL d L)),
    (⌜¬ busy p lo q⌝ ∗ (B.view.loc (thrL d L) ↦[B.view.set]{fullShare} fs) ∗ semVal (thrL d L, SemLoc.dma sm.sem) 0)
    ∨ (∃ q', ∃ fd : Buf (Elt F) (oLoc d), ⌜(lo ≤ q' ∧ q' < q ∧ q ≤ q' + 2 ∧ q' % 2 = p) ∧ ∀ j ∈ rng q' (q' + 1), fd j = fin g d j⌝
        ∗ Transfers.Flight (EC (F := F)) (thrL d L) (SemLoc.dma sm.sem) (none : HIx 1) NB
            iprop((oLoc d ↦[rng q' (q' + 1)]{fullShare} fd) ∗ (B.view.loc (thrL d L) ↦[B.view.set]{fullShare} fs))))

theorem slot_def (B : Memref sig Kind.scVector Space.vmem S8x4096 EltTy.f32) (sm : DmaSems sig S_) (p lo q : ℕ) :
    (slot g d L B sm p lo q : sProp 𝕄) = iprop(∃ fs : Buf (Elt F) (B.view.loc (thrL d L)),
    (⌜¬ busy p lo q⌝ ∗ (B.view.loc (thrL d L) ↦[B.view.set]{fullShare} fs) ∗ semVal (thrL d L, SemLoc.dma sm.sem) 0)
    ∨ (∃ q', ∃ fd : Buf (Elt F) (oLoc d), ⌜(lo ≤ q' ∧ q' < q ∧ q ≤ q' + 2 ∧ q' % 2 = p) ∧ ∀ j ∈ rng q' (q' + 1), fd j = fin g d j⌝
        ∗ Transfers.Flight (EC (F := F)) (thrL d L) (SemLoc.dma sm.sem) (none : HIx 1) NB
            iprop((oLoc d ↦[rng q' (q' + 1)]{fullShare} fd) ∗ (B.view.loc (thrL d L) ↦[B.view.set]{fullShare} fs)))) := rfl

/-- The two buffers' semaphores. -/
abbrev cellA : GSem nD τ sig := (thrL d L, SemLoc.dma cc0_scratch2.sem)
abbrev cellB : GSem nD τ sig := (thrL d L, SemLoc.dma cc0_scratch3.sem)

/-- The subcore's other scoped semaphores, at zero. -/
abbrev restSems : sProp 𝕄 := bigSep (((ownCells (thrL d L)).erase (cellA d L)).erase (cellB d L)) fun c => semVal c 0

/-- The subcore's share of the sources. -/
abbrev shL : PosShare TreeShare := tileShare ⟨(L 0).val, (L 0).isLt⟩ ⟨(L 1).val, (L 1).isLt⟩

/-- The state before band `q`: the sources' read shares; the bands from `q` on as the launch left them; the bands whose
    copies were waited for at the source rows; each buffer idle or in flight; the carried flags; what the thread owes. -/
def Inv (O : CellTallies nD τ sig (HIx 1)) (W : Waits sig (HIx 1)) (q : ℕ) (acc : BitVec 32 × BitVec 32) : sProp 𝕄 :=
  iprop(⌜loL L ≤ q ∧ q ≤ hiL L ∧ acc = (flagP 0 (loL L) q, flagP 1 (loL L) q)⌝
    ∗ Transfers.MayWaits (thrL d L) (none : HIx 1) O
    ∗ ((G0).view.loc (thrL d L) ↦{shL L} (g d 0 : Buf (Elt F) ((SparseCore.T d).loc main_v15)))
    ∗ ((G1).view.loc (thrL d L) ↦{shL L} (g d 1 : Buf (Elt F) ((SparseCore.T d).loc main_v17)))
    ∗ ((G2).view.loc (thrL d L) ↦{shL L} (g d 2 : Buf (Elt F) ((SparseCore.T d).loc main_v19)))
    ∗ ((G3).view.loc (thrL d L) ↦{shL L} (g d 3 : Buf (Elt F) ((SparseCore.T d).loc main_v21)))
    ∗ ((G4).view.loc (thrL d L) ↦{shL L} (g d 4 : Buf (Elt F) ((SparseCore.T d).loc main_v23)))
    ∗ (oLoc d ↦[rng q (hiL L)]{fullShare} f0 d)
    ∗ (oLoc d ↦[rng (loL L) (q - 2)]{fullShare} fin g d)
    ∗ slot g d L (A8) cc0_scratch2 0 (loL L) q
    ∗ slot g d L (A9) cc0_scratch3 1 (loL L) q
    ∗ restSems d L
    ∗ ∃ W', ⌜∀ p ∈ W', p ∈ W ∨ p.2 = none⌝ ∗ owes (thrL d L) O W')

theorem ownSems0_V :
    (ownSems0 (thrL d L) : sProp 𝕄) = iprop(semVal (cellA d L) 0 ∗ semVal (cellB d L) 0 ∗ restSems (F := F) d L) := by
  unfold SparseCore.Cfg.ownSems0
  rw [SparseCore.bigSep_erase' ((mem_ownCells (g := cellA d L)).mpr ⟨rfl, by
      show (SemLoc.dma cc0_scratch2.sem : SemLoc sig).isScoped .scVector = true; decide⟩),
    SparseCore.bigSep_erase' (Finset.mem_erase.mpr ⟨by simp [cellA, cellB]; decide, (mem_ownCells (g := cellB d L)).mpr ⟨rfl, by
      show (SemLoc.dma cc0_scratch3.sem : SemLoc sig).isScoped .scVector = true; decide⟩⟩)]

/-- One more of the subcore's scoped semaphores taken out of the rest. -/
theorem restSems_take (s : DmaSems sig S_) (hA : (SemLoc.dma s.sem : SemLoc sig) ≠ SemLoc.dma cc0_scratch2.sem)
    (hB : (SemLoc.dma s.sem : SemLoc sig) ≠ SemLoc.dma cc0_scratch3.sem) (hs : (SemLoc.dma s.sem : SemLoc sig).isScoped .scVector = true) :
    (restSems (F := F) d L : sProp 𝕄) = iprop(semVal (thrL d L, SemLoc.dma s.sem) 0
      ∗ bigSep ((((ownCells (thrL d L)).erase (cellA d L)).erase (cellB d L)).erase (thrL d L, SemLoc.dma s.sem)) fun c => semVal c 0) :=
  SparseCore.bigSep_erase' (Finset.mem_erase.mpr ⟨fun e => hB (Prod.mk.inj e).2, Finset.mem_erase.mpr ⟨fun e => hA (Prod.mk.inj e).2,
    (mem_ownCells (g := (thrL d L, SemLoc.dma s.sem))).mpr ⟨rfl, hs⟩⟩⟩)

/-- The two staging buffers are among the subcore's own. -/
theorem ownBufs_V :
    (ownBufs (thrL d L) : sProp 𝕄)
      = iprop((∃ f, (thrL d L).loc cc0_scratch0 ↦{fullShare} f) ∗ (∃ f, (thrL d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- A band's slice, as the kernel computes its offsets, is the band's own. -/
theorem pts_band_prog {off : Fin 4 → ℕ} (h : ∀ a, off a + S1x1x8x4096.size a ≤ S24x26x24x4096.size a) (q : ℕ) (hq : q < 360) (e : off = bandOff q)
    (f : Buf (Elt F) (oLoc d)) :
    ((bandM off h).view.loc (thrL d L) ↦[(bandM off h).view.set]{fullShare} (f : Buf (Elt F) ((bandM off h).view.loc (thrL d L))) : sProp 𝕄)
      = (oLoc d ↦[rng q (q + 1)]{fullShare} f) := by
  subst e; exact pts_bandM d L q hq h f

theorem slot_other (B : Memref sig Kind.scVector Space.vmem S8x4096 EltTy.f32) (sm : DmaSems sig S_) {p lo q : ℕ} (hp : q % 2 ≠ p) (hp' : p < 2) :
    (slot g d L B sm p lo q : sProp 𝕄) ⊢ slot g d L B sm p lo (q + 1) := by
  unfold slot
  iintro ⟨%fs, H⟩
  iexists fs
  icases H with (⟨%hidle, H1, H2⟩ | ⟨%q', %fd, %hq', HF⟩)
  · ileft
    isplitr
    · ipureintro; unfold busy at hidle ⊢; omega
    isplitl [H1] <;> iassumption
  · iright
    iexists q', fd
    isplitr
    · ipureintro; exact ⟨by omega, hq'.2⟩
    iexact HF

end Cert.Kernel.Hand

end
-- ==== Proof.K.ScVal.lean ====
/-
  What one band's trip leaves in the kernel-layout array: the band, written whole with the staging buffer's read-back of
  the eight source rows, holds at every index of the band the source grid's entry at (row · 24 + column, batch).
-/
import proofs.«206564_g5145370820828_cont_8to1c4_476_13_alg».proof.Proof.K.ScViews
import Idealize.ShloMosaic.Lib.Writes
import Idealize.ShloMosaic.Lib.QrPanel.StackBlock

noncomputable section

namespace Cert.Kernel.Hand

open Cert.Kernel Cert.Kernel.Gen

open Idealize.ShloMosaic
open Idealize.ShloMosaic.SparseCore (S V T)
open Idealize.ShloMosaic.SparseCore.Cfg (HIx Pay)
open Idealize.ShloMosaic.ValueIdx

variable {F : FTy → Type}

variable (g : Dev nD → Fin 5 → FVec F S576x4096 .f32) (d : Dev nD) (L : grid0.Coords)

/-- The band's slice of the kernel-layout array addresses (row, channel, column · 8 + y₀, y₁) at (y₀, y₁). -/
theorem bandM_emb (off : Fin 4 → ℕ) (h : ∀ a, off a + S1x1x8x4096.size a ≤ S24x26x24x4096.size a) (y : S8x4096.Idx) (a : Fin 4) :
    (((bandM off h).view.emb y : S24x26x24x4096.Idx) a).val
      = off a + (Fin.cons (⟨0, Nat.one_pos⟩ : Fin 1) (Fin.cons (⟨0, Nat.one_pos⟩ : Fin 1) y) : S1x1x8x4096.Idx) a := by
  show ((Rect.unit (s := S24x26x24x4096) off S1x1x8x4096.size h).emb (Shape.reshapeEquiv squeezes_S1x1x8x4096_S8x4096.numel_eq y) a).val = _
  rw [QrPanel.StackBlock.reshapeEquiv_cons_one_one]
  show off a + 1 * ((Fin.cons (⟨0, Nat.one_pos⟩ : Fin 1) (Fin.cons (⟨0, Nat.one_pos⟩ : Fin 1) y) : S1x1x8x4096.Idx) a).val = _
  rw [Nat.one_mul]

/-- A whole write through a view, read at an index the view addresses, is the payload there. -/
theorem writes_whole_at {κ : Kind} {sp : Space} {s : Shape} {e : EltTy} (v : View sig κ sp s e) (f : v.ty.Contents (Elt F)) (w : s.Idx → Elt F e) (y : s.Idx) :
    HEq ((v.writes (Elt F) f [⟨Rect.whole s, w⟩]) (v.emb y)) (w y) := by
  have hd := View.read_writes_cons_emb v f (Rect.whole s) w [] y
  rw [Rect.emb_whole_apply, View.read_apply] at hd
  exact (cast_heq _ _).symm.trans (heq_of_eq hd)

/-- At the index the band's slice addresses by (y₀, y₁), the band written whole with the staging buffer's read-back of
    the source rows holds the source grid's entry. -/
theorem band_value_at (k : Fin 5) (q : ℕ) (hq : q < 360) (hg : q / 72 = k.val)
    (h4 : ∀ a, bandOff q a + S1x1x8x4096.size a ≤ S24x26x24x4096.size a)
    (h2 : ∀ a, srcOff q a + S8x4096.size a ≤ S576x4096.size a)
    (w0 : S8x4096.Idx → Elt F .f32)
    (hw0 : ∀ y : S8x4096.Idx, w0 y = g d k ((Rect.unit (s := S576x4096) (srcOff q) S8x4096.size h2).emb y))
    (B : Memref sig Kind.scVector Space.vmem S8x4096 EltTy.f32) (fs : Buf (Elt F) (B.view.loc (thrL d L))) (f0' : Buf (Elt F) (oLoc d))
    (y : S8x4096.Idx) :
    ((bandM (bandOff q) h4).view.writes (Elt F) (f0' : Buf (Elt F) ((bandM (bandOff q) h4).view.loc (thrL d L)))
      [⟨Rect.whole S8x4096, ReadAs.same.apply (View.read (Elt F) B.view (B.view.writes (Elt F) fs
        [⟨Rect.whole S8x4096, w0⟩]))⟩]) ((bandM (bandOff q) h4).view.emb y) = scVal (g d) ((bandM (bandOff q) h4).view.emb y) := by
  have hd := writes_whole_at (F := F) (bandM (bandOff q) h4).view (f0' : Buf (Elt F) ((bandM (bandOff q) h4).view.loc (thrL d L)))
    (ReadAs.same.apply (View.read (Elt F) B.view (B.view.writes (Elt F) fs [⟨Rect.whole S8x4096, w0⟩]))) y
  have hb := writes_whole_at (F := F) B.view fs w0 y
  have hr : HEq (ReadAs.same.apply (View.read (Elt F) B.view (B.view.writes (Elt F) fs [⟨Rect.whole S8x4096, w0⟩])) y)
      ((B.view.writes (Elt F) fs [⟨Rect.whole S8x4096, w0⟩]) (B.view.emb y)) := by
    show HEq (View.read (Elt F) B.view (B.view.writes (Elt F) fs [⟨Rect.whole S8x4096, w0⟩]) y) _
    rw [View.read_apply]; exact cast_heq _ _
  refine (eq_of_heq (hd.trans (hr.trans hb))).trans ((hw0 y).trans ?_)
  unfold scVal
  have e0 := bandM_emb (bandOff q) h4 y 0
  have e1 := bandM_emb (bandOff q) h4 y 1
  have e2 := bandM_emb (bandOff q) h4 y 2
  have e3 := bandM_emb (bandOff q) h4 y 3
  have y0 : (y 0).val < 8 := (y 0).isLt
  have y1 : (y 1).val < 4096 := (y 1).isLt
  have c0 : (((bandM (bandOff q) h4).view.emb y : S24x26x24x4096.Idx) 0).val = (q % 72) / 3 := by rw [e0]; show (q % 72) / 3 + 0 = _; omega
  have c1 : (((bandM (bandOff q) h4).view.emb y : S24x26x24x4096.Idx) 1).val = 21 + q / 72 := by rw [e1]; show 21 + q / 72 + 0 = _; omega
  have c2 : (((bandM (bandOff q) h4).view.emb y : S24x26x24x4096.Idx) 2).val = (q % 72 % 3) * 8 + (y 0).val := by rw [e2]; rfl
  have c3 : (((bandM (bandOff q) h4).view.emb y : S24x26x24x4096.Idx) 3).val = (y 1).val := by rw [e3]; show 0 + (y 1).val = _; omega
  have hk : (⟨((((bandM (bandOff q) h4).view.emb y : S24x26x24x4096.Idx) 1).val - 21) % 5, Nat.mod_lt _ (by decide)⟩ : Fin 5) = k :=
    Fin.ext (by show ((((bandM (bandOff q) h4).view.emb y : S24x26x24x4096.Idx) 1).val - 21) % 5 = k.val; rw [c1]; have := k.isLt; omega)
  rw [hk]
  refine congrArg (g d k) (funext fun a => Fin.ext ?_)
  match a with
  | ⟨0, _⟩ =>
    show (q % 72) / 3 * 24 + (q % 72 % 3) * 8 + 1 * (y 0).val = (((bandM (bandOff q) h4).view.emb y : S24x26x24x4096.Idx) 0).val * 24 + (((bandM (bandOff q) h4).view.emb y : S24x26x24x4096.Idx) 2).val
    rw [c0, c2]; omega
  | ⟨1, _⟩ =>
    show (0 + 1 * (y 1).val) = (((bandM (bandOff q) h4).view.emb y : S24x26x24x4096.Idx) 3).val
    rw [c3]; omega

/-- Every index of band `q` is addressed by the band's slice. -/
theorem band_index (q : ℕ) (hq : q < 360) (h4 : ∀ a, bandOff q a + S1x1x8x4096.size a ≤ S24x26x24x4096.size a)
    (j : S24x26x24x4096.Idx) (hj : j ∈ rng q (q + 1)) : ∃ y : S8x4096.Idx, (bandM (bandOff q) h4).view.emb y = j := by
  rw [mem_rng] at hj
  have h0 : (j 0).val < 24 := (j 0).isLt
  have h1 : (j 1).val < 26 := (j 1).isLt
  have h2 : (j 2).val < 24 := (j 2).isLt
  have h3 : (j 3).val < 4096 := (j 3).isLt
  have hb : bandOf j = q := by omega
  unfold bandOf at hb
  refine ⟨ix2 ⟨(j 2).val - (q % 72 % 3) * 8, by omega⟩ ⟨(j 3).val, h3⟩, funext fun a => Fin.ext ?_⟩
  rw [bandM_emb]
  match a with
  | ⟨0, _⟩ => show (q % 72) / 3 + 0 = (j 0).val; omega
  | ⟨1, _⟩ => show 21 + q / 72 + 0 = (j 1).val; omega
  | ⟨2, _⟩ => show (q % 72 % 3) * 8 + ((j 2).val - (q % 72 % 3) * 8) = (j 2).val; omega
  | ⟨3, _⟩ => show 0 + (j 3).val = (j 3).val; omega

theorem band_value_core (k : Fin 5) (q : ℕ) (hq : q < 360) (hg : q / 72 = k.val)
    (h4 : ∀ a, bandOff q a + S1x1x8x4096.size a ≤ S24x26x24x4096.size a)
    (h2 : ∀ a, srcOff q a + S8x4096.size a ≤ S576x4096.size a)
    (w0 : S8x4096.Idx → Elt F .f32)
    (hw0 : ∀ y : S8x4096.Idx, w0 y = g d k ((Rect.unit (s := S576x4096) (srcOff q) S8x4096.size h2).emb y))
    (B : Memref sig Kind.scVector Space.vmem S8x4096 EltTy.f32) (fs : Buf (Elt F) (B.view.loc (thrL d L))) (f0' : Buf (Elt F) (oLoc d)) :
    ∀ j ∈ rng q (q + 1), ((bandM (bandOff q) h4).view.writes (Elt F) (f0' : Buf (Elt F) ((bandM (bandOff q) h4).view.loc (thrL d L)))
      [⟨Rect.whole S8x4096, ReadAs.same.apply (View.read (Elt F) B.view (B.view.writes (Elt F) fs
        [⟨Rect.whole S8x4096, w0⟩]))⟩]) j = scVal (g d) j := by
  intro j hj
  obtain ⟨y, hy⟩ := band_index q hq h4 j hj
  have h := band_value_at g d L k q hq hg h4 h2 w0 hw0 B fs f0' y
  rw [hy] at h
  exact h

theorem band_value_0 (q : ℕ) (hq : q < 360) (hg : q / 72 = 0) (off4 : Fin 4 → ℕ) (h4 : ∀ a, off4 a + S1x1x8x4096.size a ≤ S24x26x24x4096.size a)
    (e4 : off4 = bandOff q) (off2 : Fin 2 → ℕ) (h2 : ∀ a, off2 a + S8x4096.size a ≤ S576x4096.size a) (e2 : off2 = srcOff q)
    (B : Memref sig Kind.scVector Space.vmem S8x4096 EltTy.f32) (fs : Buf (Elt F) (B.view.loc (thrL d L))) (f0' : Buf (Elt F) (oLoc d)) :
    ∀ j ∈ rng q (q + 1), ((bandM off4 h4).view.writes (Elt F) (f0' : Buf (Elt F) ((bandM off4 h4).view.loc (thrL d L)))
      [⟨Rect.whole S8x4096, ReadAs.same.apply (View.read (Elt F) B.view (B.view.writes (Elt F) fs
        [⟨Rect.whole S8x4096, ReadAs.same.apply (View.read (Elt F) (rowsM (Memref.whole main_v15_scv : Memref sig Kind.scVector Space.hbm S576x4096 EltTy.f32) off2 h2).view (g d 0))⟩]))⟩]) j
      = scVal (g d) j := by
  subst e4 e2
  exact band_value_core g d L 0 q hq hg h4 h2 _ (fun _ => rfl) B fs f0'

theorem band_value_1 (q : ℕ) (hq : q < 360) (hg : q / 72 = 1) (off4 : Fin 4 → ℕ) (h4 : ∀ a, off4 a + S1x1x8x4096.size a ≤ S24x26x24x4096.size a)
    (e4 : off4 = bandOff q) (off2 : Fin 2 → ℕ) (h2 : ∀ a, off2 a + S8x4096.size a ≤ S576x4096.size a) (e2 : off2 = srcOff q)
    (B : Memref sig Kind.scVector Space.vmem S8x4096 EltTy.f32) (fs : Buf (Elt F) (B.view.loc (thrL d L))) (f0' : Buf (Elt F) (oLoc d)) :
    ∀ j ∈ rng q (q + 1), ((bandM off4 h4).view.writes (Elt F) (f0' : Buf (Elt F) ((bandM off4 h4).view.loc (thrL d L)))
      [⟨Rect.whole S8x4096, ReadAs.same.apply (View.read (Elt F) B.view (B.view.writes (Elt F) fs
        [⟨Rect.whole S8x4096, ReadAs.same.apply (View.read (Elt F) (rowsM (Memref.whole main_v17_scv : Memref sig Kind.scVector Space.hbm S576x4096 EltTy.f32) off2 h2).view (g d 1))⟩]))⟩]) j
      = scVal (g d) j := by
  subst e4 e2
  exact band_value_core g d L 1 q hq hg h4 h2 _ (fun _ => rfl) B fs f0'

theorem band_value_2 (q : ℕ) (hq : q < 360) (hg : q / 72 = 2) (off4 : Fin 4 → ℕ) (h4 : ∀ a, off4 a + S1x1x8x4096.size a ≤ S24x26x24x4096.size a)
    (e4 : off4 = bandOff q) (off2 : Fin 2 → ℕ) (h2 : ∀ a, off2 a + S8x4096.size a ≤ S576x4096.size a) (e2 : off2 = srcOff q)
    (B : Memref sig Kind.scVector Space.vmem S8x4096 EltTy.f32) (fs : Buf (Elt F) (B.view.loc (thrL d L))) (f0' : Buf (Elt F) (oLoc d)) :
    ∀ j ∈ rng q (q + 1), ((bandM off4 h4).view.writes (Elt F) (f0' : Buf (Elt F) ((bandM off4 h4).view.loc (thrL d L)))
      [⟨Rect.whole S8x4096, ReadAs.same.apply (View.read (Elt F) B.view (B.view.writes (Elt F) fs
        [⟨Rect.whole S8x4096, ReadAs.same.apply (View.read (Elt F) (rowsM (Memref.whole main_v19_scv : Memref sig Kind.scVector Space.hbm S576x4096 EltTy.f32) off2 h2).view (g d 2))⟩]))⟩]) j
      = scVal (g d) j := by
  subst e4 e2
  exact band_value_core g d L 2 q hq hg h4 h2 _ (fun _ => rfl) B fs f0'

theorem band_value_3 (q : ℕ) (hq : q < 360) (hg : q / 72 = 3) (off4 : Fin 4 → ℕ) (h4 : ∀ a, off4 a + S1x1x8x4096.size a ≤ S24x26x24x4096.size a)
    (e4 : off4 = bandOff q) (off2 : Fin 2 → ℕ) (h2 : ∀ a, off2 a + S8x4096.size a ≤ S576x4096.size a) (e2 : off2 = srcOff q)
    (B : Memref sig Kind.scVector Space.vmem S8x4096 EltTy.f32) (fs : Buf (Elt F) (B.view.loc (thrL d L))) (f0' : Buf (Elt F) (oLoc d)) :
    ∀ j ∈ rng q (q + 1), ((bandM off4 h4).view.writes (Elt F) (f0' : Buf (Elt F) ((bandM off4 h4).view.loc (thrL d L)))
      [⟨Rect.whole S8x4096, ReadAs.same.apply (View.read (Elt F) B.view (B.view.writes (Elt F) fs
        [⟨Rect.whole S8x4096, ReadAs.same.apply (View.read (Elt F) (rowsM (Memref.whole main_v21_scv : Memref sig Kind.scVector Space.hbm S576x4096 EltTy.f32) off2 h2).view (g d 3))⟩]))⟩]) j
      = scVal (g d) j := by
  subst e4 e2
  exact band_value_core g d L 3 q hq hg h4 h2 _ (fun _ => rfl) B fs f0'

theorem band_value_4 (q : ℕ) (hq : q < 360) (hg : q / 72 = 4) (off4 : Fin 4 → ℕ) (h4 : ∀ a, off4 a + S1x1x8x4096.size a ≤ S24x26x24x4096.size a)
    (e4 : off4 = bandOff q) (off2 : Fin 2 → ℕ) (h2 : ∀ a, off2 a + S8x4096.size a ≤ S576x4096.size a) (e2 : off2 = srcOff q)
    (B : Memref sig Kind.scVector Space.vmem S8x4096 EltTy.f32) (fs : Buf (Elt F) (B.view.loc (thrL d L))) (f0' : Buf (Elt F) (oLoc d)) :
    ∀ j ∈ rng q (q + 1), ((bandM off4 h4).view.writes (Elt F) (f0' : Buf (Elt F) ((bandM off4 h4).view.loc (thrL d L)))
      [⟨Rect.whole S8x4096, ReadAs.same.apply (View.read (Elt F) B.view (B.view.writes (Elt F) fs
        [⟨Rect.whole S8x4096, ReadAs.same.apply (View.read (Elt F) (rowsM (Memref.whole main_v23_scv : Memref sig Kind.scVector Space.hbm S576x4096 EltTy.f32) off2 h2).view (g d 4))⟩]))⟩]) j
      = scVal (g d) j := by
  subst e4 e2
  exact band_value_core g d L 4 q hq hg h4 h2 _ (fun _ => rfl) B fs f0'

end Cert.Kernel.Hand

end
-- ==== Proof.K.ScTask.lean ====
/-
  The vector subcore's task.  Subcore number w copies its bands, in order, from the five source grids into channels
  21 … 25 of the kernel-layout array, through two staging buffers used in turn: before a band's rows are fetched into a
  buffer the copy that last left that buffer is waited for, and the copy out of the buffer is left in flight.  One state
  assertion indexed by the band reached carries the run through the kernel's ten loops — a loop per source grid and an
  empty remainder loop after each —; after the last loop both buffers' copies are waited for, and every band of the
  subcore holds its source rows.
-/
import proofs.«206564_g5145370820828_cont_8to1c4_476_13_alg».proof.Proof.K.ScInv
import proofs.«206564_g5145370820828_cont_8to1c4_476_13_alg».proof.Proof.K.ScVal

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (g : Dev nD → Fin 5 → FVec F S576x4096 .f32) (f0 : (d : Dev nD) → Buf (Elt F) (oLoc d))
variable (d : Dev nD) (L : grid0.Coords)

local notation "A8" => (Memref.whole cc0_scratch0 : Memref sig Kind.scVector Space.vmem S8x4096 EltTy.f32)
local notation "A9" => (Memref.whole cc0_scratch1 : Memref sig Kind.scVector Space.vmem S8x4096 EltTy.f32)
local notation "OV" => (Memref.whole main_v24_scv : Memref sig Kind.scVector Space.hbm S24x26x24x4096 EltTy.f32)
local notation "G0" => (Memref.whole main_v15_scv : Memref sig Kind.scVector Space.hbm S576x4096 EltTy.f32)
local notation "G1" => (Memref.whole main_v17_scv : Memref sig Kind.scVector Space.hbm S576x4096 EltTy.f32)
local notation "G2" => (Memref.whole main_v19_scv : Memref sig Kind.scVector Space.hbm S576x4096 EltTy.f32)
local notation "G3" => (Memref.whole main_v21_scv : Memref sig Kind.scVector Space.hbm S576x4096 EltTy.f32)
local notation "G4" => (Memref.whole main_v23_scv : Memref sig Kind.scVector Space.hbm S576x4096 EltTy.f32)

variable [FloatOps F]

local macro "sc_amount" : tactic => `(tactic| exact View.amount_pos _ _ (show 0 < S8x4096.numel by decide))

set_option maxHeartbeats 40000000 in
theorem tile_body (O : CellTallies nD τ sig (HIx 1)) (W : Waits sig (HIx 1)) (hO : ∀ g, O g none = 0) :
    iprop(levAts (K (F := F)).L (K (F := F)).lev ∗ emp
        ∗ (srcs d (shL L) (g d) ∗ oLoc d ↦[tileSet (widL L)]{fullShare} f0 d)
        ∗ scopedBufs (thrL d L) ∗ scopedSems0 (thrL d L) ∗ owes (thrL d L) O W)
      ⊢ wp frame (wpE (defs₀ (F := F)) 𝒱₀ (thrL d L) none) Set.univ
          (cc0_sc_body L (Memref.whole main_v15_scv) (Memref.isWhole_whole _) (Memref.whole main_v17_scv) (Memref.isWhole_whole _) (Memref.whole main_v19_scv) (Memref.isWhole_whole _) (Memref.whole main_v21_scv) (Memref.isWhole_whole _) (Memref.whole main_v23_scv) (Memref.isWhole_whole _) (Memref.whole main_v24_scv) (Memref.isWhole_whole _) (Memref.whole cc0_scratch0) (Memref.isWhole_whole _) (Memref.whole cc0_scratch1) (Memref.isWhole_whole _) cc0_scratch2 cc0_scratch3 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19)
          fun _ => iprop((srcs d (shL L) (g d) ∗ outDone d (g d) (tileSet (widL L)))
            ∗ scopedBufs (thrL d L) ∗ scopedSems0 (thrL d L) ∗ ∃ W', ⌜∀ p ∈ W', p ∈ W ∨ p.2 = none⌝ ∗ owes (thrL d L) O W') := by
  simp only [cc0_sc_body_eq_skeleton]; unfold cc0_sc_body_skel
  rw [(K (F := F)).scopedBufs_V facts d (cV L) (jV L), SparseCore.Cfg.scopedSems0_V (Val := Elt F) d (cV L) (jV L), ownSems0_V, ownBufs_V,
    tileSet_eq_rng]
  unfold srcs
  iintro ⟨#Hlv, -, ⟨⟨H0, H1, H2, H3, H4⟩, Hout⟩, ⟨⟨%f8, H8⟩, ⟨%f9, H9⟩, Hbufs⟩, ⟨HsA, HsB, Hsems⟩, HO⟩
  ihave Hmw := ((K (F := F)).mayWaits_none (thr := thrL d L) hO) $$ Hlv
  ihave H8' := (Entails.of_eq (pts_A8 (F := F) d L f8).symm) $$ H8
  ihave H9' := (Entails.of_eq (pts_A9 (F := F) d L f9).symm) $$ H9
  sl_exec

  sl_for (fun k acc => Inv g f0 d L O W (pos 0 L + k) acc) $$ [Hmw H0 H1 H2 H3 H4 Hout H8' H9' HsA HsB Hsems HO]
  case region =>

    intro k acc
    have hq1 : loL L ≤ pos 0 L + k.val := by have := lo_le_pos 0 L; omega
    have hq2 : pos 0 L + k.val < hiL L := by
      have h1 := trips_t1 L; have h2 := pos_le_hi 1 L; have h3 : k.val < (k0_t1_loop L).trips := k.isLt; omega
    have hq3 : pos 0 L + k.val < 360 := by have := hiL_le L; omega
    have eDE : k0_off2 L k = bandOff (pos 0 L + k.val) := funext (off2_cf L k)
    have eDO : k0_off4 L k = bandOff (pos 0 L + k.val) := funext (off4_cf L k)
    have eSE : k0_off1 L k = srcOff (pos 0 L + k.val) := funext (off1_cf L k)
    have eSO : k0_off3 L k = srcOff (pos 0 L + k.val) := funext (off3_cf L k)
    unfold Inv
    rcases Nat.mod_two_eq_zero_or_one (pos 0 L + k.val) with hE | hOd
    · have k0_hE : k0_cond3 L k = 1#1 := (cond3_cf L k).2 hE
      have k0_hO : ¬ k0_cond4 L k = 1#1 := fun h => by have := (cond4_cf L k).1 h; omega

      rw [restSems_take (F := F) d L cc0_scoped0 (by decide) (by decide) (by decide), slot_def g d L (A8) cc0_scratch2 0, slot_def g d L (A8) cc0_scratch2 0]
      iintro ⟨%hacc, #Hmw, H0, H1, H2, H3, H4, Hpend, Hdone, HslA, HslB, ⟨Hsc, Hsems⟩, %W', %hW', HO⟩
      obtain ⟨-, -, rfl⟩ := hacc
      ihave Hp := (pts_rng (F := F) d fullShare (f0 d) (show pos 0 L + k.val ≤ pos 0 L + k.val + 1 by omega) (show pos 0 L + k.val + 1 ≤ hiL L by omega)).1 $$ Hpend
      icases Hp with ⟨Hband, Hpend⟩
      ihave Hband' := (Entails.of_eq (pts_band_prog (F := F) d L (k0_off2_inb L k k0_hE) _ hq3 eDE (f0 d)).symm) $$ Hband
      icases HslA with ⟨%fs, (⟨%hidle, HB, HF⟩ | ⟨%q', %fd, %hq', HF⟩)⟩
      · sl_exec (disch := first | sc_amount | (revert hidle k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone]
        · rw [show rng (loL L) (pos 0 L + (k.val + 1) - 2) = rng (loL L) (pos 0 L + k.val - 2) from by
            rw [rng_empty (by unfold busy at hidle; omega), rng_empty (by unfold busy at hidle; omega)]]
          iexact Hdone

        isplitl [HF]
        · iexists _
          iright
          iexists (pos 0 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off2_inb L k k0_hE) _ hq3 eDE _)) $$ Hd
              iexact Hd'
            · iexact Hs
          · ipureintro
            exact ⟨⟨hq1, by omega, by omega, hE⟩,
              band_value_0 g d L (pos 0 L + k.val) hq3 (grid_t1 L k) _ (k0_off2_inb L k k0_hE) eDE _ (k0_off1_inb L k k0_hE) eSE (A8) _ (f0 d)⟩
        isplitl [HslB]
        · iapply (slot_other g d L (A9) cc0_scratch3 (p := 1) (lo := loL L) (q := pos 0 L + k.val) (by omega) (by omega)) $$ HslB
        isplitl [Hsc Hsems]
        · isplitl [Hsc]; · iexact Hsc
          iexact Hsems
        iexists _; isplitr
        swap
        · iexact HO
        · ipureintro; intro p hp
          rcases Finset.mem_insert.mp hp with rfl | hp
          · exact .inr rfl
          · exact hW' p hp
      · have hbusy : busy 0 (loL L) (pos 0 L + k.val) := by unfold busy; omega
        sl_exec (disch := first | sc_amount | (revert hbusy k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone HF_dst]
        · obtain rfl : q' = pos 0 L + k.val - 2 := by omega
          iapply (pts_rng (F := F) d fullShare (fin g d) (a := loL L) (b := pos 0 L + k.val - 2) (c := pos 0 L + (k.val + 1) - 2) (by omega) (by omega)).2
          isplitl [Hdone]; · iexact Hdone
          rw [show pos 0 L + (k.val + 1) - 2 = pos 0 L + k.val - 2 + 1 from by omega, pointsTo_congr (f := fin g d) (g := fd) (fun j hj => (hq'.2 j hj).symm)]
          iexact HF_dst

        isplitl [HF]
        · iexists _
          iright
          iexists (pos 0 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off2_inb L k k0_hE) _ hq3 eDE _)) $$ Hd
              iexact Hd'
            · iexact Hs
          · ipureintro
            exact ⟨⟨hq1, by omega, by omega, hE⟩,
              band_value_0 g d L (pos 0 L + k.val) hq3 (grid_t1 L k) _ (k0_off2_inb L k k0_hE) eDE _ (k0_off1_inb L k k0_hE) eSE (A8) _ (f0 d)⟩
        isplitl [HslB]
        · iapply (slot_other g d L (A9) cc0_scratch3 (p := 1) (lo := loL L) (q := pos 0 L + k.val) (by omega) (by omega)) $$ HslB
        isplitl [Hsc Hsems]
        · isplitl [Hsc]; · iexact Hsc
          iexact Hsems
        iexists _; isplitr
        swap
        · iexact HO
        · ipureintro; intro p hp
          rcases Finset.mem_insert.mp hp with rfl | hp
          · exact .inr rfl
          rcases Finset.mem_insert.mp hp with rfl | hp
          · exact .inr rfl
          · exact hW' p hp
    · have k0_hO : k0_cond4 L k = 1#1 := (cond4_cf L k).2 hOd
      have k0_hE : ¬ k0_cond3 L k = 1#1 := fun h => by have := (cond3_cf L k).1 h; omega

      rw [restSems_take (F := F) d L cc0_scoped1 (by decide) (by decide) (by decide), slot_def g d L (A9) cc0_scratch3 1, slot_def g d L (A9) cc0_scratch3 1]
      iintro ⟨%hacc, #Hmw, H0, H1, H2, H3, H4, Hpend, Hdone, HslA, HslB, ⟨Hsc, Hsems⟩, %W', %hW', HO⟩
      obtain ⟨-, -, rfl⟩ := hacc
      ihave Hp := (pts_rng (F := F) d fullShare (f0 d) (show pos 0 L + k.val ≤ pos 0 L + k.val + 1 by omega) (show pos 0 L + k.val + 1 ≤ hiL L by omega)).1 $$ Hpend
      icases Hp with ⟨Hband, Hpend⟩
      ihave Hband' := (Entails.of_eq (pts_band_prog (F := F) d L (k0_off4_inb L k k0_hO) _ hq3 eDO (f0 d)).symm) $$ Hband
      icases HslB with ⟨%fs, (⟨%hidle, HB, HF⟩ | ⟨%q', %fd, %hq', HF⟩)⟩
      · sl_exec (disch := first | sc_amount | (revert hidle k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone]
        · rw [show rng (loL L) (pos 0 L + (k.val + 1) - 2) = rng (loL L) (pos 0 L + k.val - 2) from by
            rw [rng_empty (by unfold busy at hidle; omega), rng_empty (by unfold busy at hidle; omega)]]
          iexact Hdone
        isplitl [HslA]
        · iapply (slot_other g d L (A8) cc0_scratch2 (p := 0) (lo := loL L) (q := pos 0 L + k.val) (by omega) (by omega)) $$ HslA

        isplitl [HF]
        · iexists _
          iright
          iexists (pos 0 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off4_inb L k k0_hO) _ hq3 eDO _)) $$ Hd
              iexact Hd'
            · iexact Hs
          · ipureintro
            exact ⟨⟨hq1, by omega, by omega, hOd⟩,
              band_value_0 g d L (pos 0 L + k.val) hq3 (grid_t1 L k) _ (k0_off4_inb L k k0_hO) eDO _ (k0_off3_inb L k k0_hO) eSO (A9) _ (f0 d)⟩
        isplitl [Hsc Hsems]
        · isplitl [Hsc]; · iexact Hsc
          iexact Hsems
        iexists _; isplitr
        swap
        · iexact HO
        · ipureintro; intro p hp
          rcases Finset.mem_insert.mp hp with rfl | hp
          · exact .inr rfl
          · exact hW' p hp
      · have hbusy : busy 1 (loL L) (pos 0 L + k.val) := by unfold busy; omega
        sl_exec (disch := first | sc_amount | (revert hbusy k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone HF_dst]
        · obtain rfl : q' = pos 0 L + k.val - 2 := by omega
          iapply (pts_rng (F := F) d fullShare (fin g d) (a := loL L) (b := pos 0 L + k.val - 2) (c := pos 0 L + (k.val + 1) - 2) (by omega) (by omega)).2
          isplitl [Hdone]; · iexact Hdone
          rw [show pos 0 L + (k.val + 1) - 2 = pos 0 L + k.val - 2 + 1 from by omega, pointsTo_congr (f := fin g d) (g := fd) (fun j hj => (hq'.2 j hj).symm)]
          iexact HF_dst
        isplitl [HslA]
        · iapply (slot_other g d L (A8) cc0_scratch2 (p := 0) (lo := loL L) (q := pos 0 L + k.val) (by omega) (by omega)) $$ HslA

        isplitl [HF]
        · iexists _
          iright
          iexists (pos 0 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off4_inb L k k0_hO) _ hq3 eDO _)) $$ Hd
              iexact Hd'
            · iexact Hs
          · ipureintro
            exact ⟨⟨hq1, by omega, by omega, hOd⟩,
              band_value_0 g d L (pos 0 L + k.val) hq3 (grid_t1 L k) _ (k0_off4_inb L k k0_hO) eDO _ (k0_off3_inb L k k0_hO) eSO (A9) _ (f0 d)⟩
        isplitl [Hsc Hsems]
        · isplitl [Hsc]; · iexact Hsc
          iexact Hsems
        iexists _; isplitr
        swap
        · iexact HO
        · ipureintro; intro p hp
          rcases Finset.mem_insert.mp hp with rfl | hp
          · exact .inr rfl
          rcases Finset.mem_insert.mp hp with rfl | hp
          · exact .inr rfl
          · exact hW' p hp

  · unfold Inv
    isplitr
    · ipureintro
      refine ⟨by rw [Nat.add_zero, pos_zero], by rw [Nat.add_zero, pos_zero]; have := lo_add_le_hi L; omega, ?_⟩
      clear * - L; revert L; decide +kernel
    isplitr; · iexact Hmw
    isplitl [H0]; · iexact H0
    isplitl [H1]; · iexact H1
    isplitl [H2]; · iexact H2
    isplitl [H3]; · iexact H3
    isplitl [H4]; · iexact H4
    isplitl [Hout]
    · rw [show rng (pos 0 L + 0) (hiL L) = rng (lo (widL L).val) (lo ((widL L).val + 1)) from by rw [Nat.add_zero, pos_zero]; rfl]
      iexact Hout
    isplitr
    · rw [rng_empty (by rw [Nat.add_zero, pos_zero]; omega), pointsTo_empty]; iempintro
    isplitl [H8' HsA]
    · unfold slot
      iexists f8; ileft
      isplitr
      · ipureintro; unfold busy; rw [Nat.add_zero, pos_zero]; omega
      isplitl [H8']; · iexact H8'
      iexact HsA
    isplitl [H9' HsB]
    · unfold slot
      iexists f9; ileft
      isplitr
      · ipureintro; unfold busy; rw [Nat.add_zero, pos_zero]; omega
      isplitl [H9']; · iexact H9'
      iexact HsB
    isplitl [Hsems]; · iexact Hsems
    iexists W; isplitr
    · ipureintro; exact fun p hp => .inl hp
    · iexact HO

  rw [show pos 0 L + Scf.trips (k0_t1_loop L).lb (k0_t1_loop L).ub (k0_t1_loop L).st = pos 1 L from trips_t1 L]
  iintro %acc HI
  sl_exec
  sl_for (fun _ acc => Inv g f0 d L O W (pos 1 L) acc) $$ [HI]
  case region =>
    intro k acc
    exact absurd (lt_of_lt_of_le k.isLt (k0_t2_abs L).2.1) (Nat.not_lt_zero _)
  · iexact HI
  iintro %acc HI
  sl_exec
  sl_for (fun k acc => Inv g f0 d L O W (pos 1 L + k) acc) $$ [HI]
  case region =>

    intro k acc
    have hq1 : loL L ≤ pos 1 L + k.val := by have := lo_le_pos 1 L; omega
    have hq2 : pos 1 L + k.val < hiL L := by
      have h1 := trips_t3 L; have h2 := pos_le_hi 2 L; have h3 : k.val < (k0_t3_loop L).trips := k.isLt; omega
    have hq3 : pos 1 L + k.val < 360 := by have := hiL_le L; omega
    have eDE : k0_off10 L k = bandOff (pos 1 L + k.val) := funext (off10_cf L k)
    have eDO : k0_off12 L k = bandOff (pos 1 L + k.val) := funext (off12_cf L k)
    have eSE : k0_off9 L k = srcOff (pos 1 L + k.val) := funext (off9_cf L k)
    have eSO : k0_off11 L k = srcOff (pos 1 L + k.val) := funext (off11_cf L k)
    unfold Inv
    rcases Nat.mod_two_eq_zero_or_one (pos 1 L + k.val) with hE | hOd
    · have k0_hE : k0_cond11 L k = 1#1 := (cond11_cf L k).2 hE
      have k0_hO : ¬ k0_cond12 L k = 1#1 := fun h => by have := (cond12_cf L k).1 h; omega

      rw [restSems_take (F := F) d L cc0_scoped4 (by decide) (by decide) (by decide), slot_def g d L (A8) cc0_scratch2 0, slot_def g d L (A8) cc0_scratch2 0]
      iintro ⟨%hacc, #Hmw, H0, H1, H2, H3, H4, Hpend, Hdone, HslA, HslB, ⟨Hsc, Hsems⟩, %W', %hW', HO⟩
      obtain ⟨-, -, rfl⟩ := hacc
      ihave Hp := (pts_rng (F := F) d fullShare (f0 d) (show pos 1 L + k.val ≤ pos 1 L + k.val + 1 by omega) (show pos 1 L + k.val + 1 ≤ hiL L by omega)).1 $$ Hpend
      icases Hp with ⟨Hband, Hpend⟩
      ihave Hband' := (Entails.of_eq (pts_band_prog (F := F) d L (k0_off10_inb L k k0_hE) _ hq3 eDE (f0 d)).symm) $$ Hband
      icases HslA with ⟨%fs, (⟨%hidle, HB, HF⟩ | ⟨%q', %fd, %hq', HF⟩)⟩
      · sl_exec (disch := first | sc_amount | (revert hidle k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone]
        · rw [show rng (loL L) (pos 1 L + (k.val + 1) - 2) = rng (loL L) (pos 1 L + k.val - 2) from by
            rw [rng_empty (by unfold busy at hidle; omega), rng_empty (by unfold busy at hidle; omega)]]
          iexact Hdone

        isplitl [HF]
        · iexists _
          iright
          iexists (pos 1 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off10_inb L k k0_hE) _ hq3 eDE _)) $$ Hd
              iexact Hd'
            · iexact Hs
          · ipureintro
            exact ⟨⟨hq1, by omega, by omega, hE⟩,
              band_value_1 g d L (pos 1 L + k.val) hq3 (grid_t3 L k) _ (k0_off10_inb L k k0_hE) eDE _ (k0_off9_inb L k k0_hE) eSE (A8) _ (f0 d)⟩
        isplitl [HslB]
        · iapply (slot_other g d L (A9) cc0_scratch3 (p := 1) (lo := loL L) (q := pos 1 L + k.val) (by omega) (by omega)) $$ HslB
        isplitl [Hsc Hsems]
        · isplitl [Hsc]; · iexact Hsc
          iexact Hsems
        iexists _; isplitr
        swap
        · iexact HO
        · ipureintro; intro p hp
          rcases Finset.mem_insert.mp hp with rfl | hp
          · exact .inr rfl
          · exact hW' p hp
      · have hbusy : busy 0 (loL L) (pos 1 L + k.val) := by unfold busy; omega
        sl_exec (disch := first | sc_amount | (revert hbusy k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone HF_dst]
        · obtain rfl : q' = pos 1 L + k.val - 2 := by omega
          iapply (pts_rng (F := F) d fullShare (fin g d) (a := loL L) (b := pos 1 L + k.val - 2) (c := pos 1 L + (k.val + 1) - 2) (by omega) (by omega)).2
          isplitl [Hdone]; · iexact Hdone
          rw [show pos 1 L + (k.val + 1) - 2 = pos 1 L + k.val - 2 + 1 from by omega, pointsTo_congr (f := fin g d) (g := fd) (fun j hj => (hq'.2 j hj).symm)]
          iexact HF_dst

        isplitl [HF]
        · iexists _
          iright
          iexists (pos 1 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off10_inb L k k0_hE) _ hq3 eDE _)) $$ Hd
              iexact Hd'
            · iexact Hs
          · ipureintro
            exact ⟨⟨hq1, by omega, by omega, hE⟩,
              band_value_1 g d L (pos 1 L + k.val) hq3 (grid_t3 L k) _ (k0_off10_inb L k k0_hE) eDE _ (k0_off9_inb L k k0_hE) eSE (A8) _ (f0 d)⟩
        isplitl [HslB]
        · iapply (slot_other g d L (A9) cc0_scratch3 (p := 1) (lo := loL L) (q := pos 1 L + k.val) (by omega) (by omega)) $$ HslB
        isplitl [Hsc Hsems]
        · isplitl [Hsc]; · iexact Hsc
          iexact Hsems
        iexists _; isplitr
        swap
        · iexact HO
        · ipureintro; intro p hp
          rcases Finset.mem_insert.mp hp with rfl | hp
          · exact .inr rfl
          rcases Finset.mem_insert.mp hp with rfl | hp
          · exact .inr rfl
          · exact hW' p hp
    · have k0_hO : k0_cond12 L k = 1#1 := (cond12_cf L k).2 hOd
      have k0_hE : ¬ k0_cond11 L k = 1#1 := fun h => by have := (cond11_cf L k).1 h; omega

      rw [restSems_take (F := F) d L cc0_scoped5 (by decide) (by decide) (by decide), slot_def g d L (A9) cc0_scratch3 1, slot_def g d L (A9) cc0_scratch3 1]
      iintro ⟨%hacc, #Hmw, H0, H1, H2, H3, H4, Hpend, Hdone, HslA, HslB, ⟨Hsc, Hsems⟩, %W', %hW', HO⟩
      obtain ⟨-, -, rfl⟩ := hacc
      ihave Hp := (pts_rng (F := F) d fullShare (f0 d) (show pos 1 L + k.val ≤ pos 1 L + k.val + 1 by omega) (show pos 1 L + k.val + 1 ≤ hiL L by omega)).1 $$ Hpend
      icases Hp with ⟨Hband, Hpend⟩
      ihave Hband' := (Entails.of_eq (pts_band_prog (F := F) d L (k0_off12_inb L k k0_hO) _ hq3 eDO (f0 d)).symm) $$ Hband
      icases HslB with ⟨%fs, (⟨%hidle, HB, HF⟩ | ⟨%q', %fd, %hq', HF⟩)⟩
      · sl_exec (disch := first | sc_amount | (revert hidle k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone]
        · rw [show rng (loL L) (pos 1 L + (k.val + 1) - 2) = rng (loL L) (pos 1 L + k.val - 2) from by
            rw [rng_empty (by unfold busy at hidle; omega), rng_empty (by unfold busy at hidle; omega)]]
          iexact Hdone
        isplitl [HslA]
        · iapply (slot_other g d L (A8) cc0_scratch2 (p := 0) (lo := loL L) (q := pos 1 L + k.val) (by omega) (by omega)) $$ HslA

        isplitl [HF]
        · iexists _
          iright
          iexists (pos 1 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off12_inb L k k0_hO) _ hq3 eDO _)) $$ Hd
              iexact Hd'
            · iexact Hs
          · ipureintro
            exact ⟨⟨hq1, by omega, by omega, hOd⟩,
              band_value_1 g d L (pos 1 L + k.val) hq3 (grid_t3 L k) _ (k0_off12_inb L k k0_hO) eDO _ (k0_off11_inb L k k0_hO) eSO (A9) _ (f0 d)⟩
        isplitl [Hsc Hsems]
        · isplitl [Hsc]; · iexact Hsc
          iexact Hsems
        iexists _; isplitr
        swap
        · iexact HO
        · ipureintro; intro p hp
          rcases Finset.mem_insert.mp hp with rfl | hp
          · exact .inr rfl
          · exact hW' p hp
      · have hbusy : busy 1 (loL L) (pos 1 L + k.val) := by unfold busy; omega
        sl_exec (disch := first | sc_amount | (revert hbusy k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone HF_dst]
        · obtain rfl : q' = pos 1 L + k.val - 2 := by omega
          iapply (pts_rng (F := F) d fullShare (fin g d) (a := loL L) (b := pos 1 L + k.val - 2) (c := pos 1 L + (k.val + 1) - 2) (by omega) (by omega)).2
          isplitl [Hdone]; · iexact Hdone
          rw [show pos 1 L + (k.val + 1) - 2 = pos 1 L + k.val - 2 + 1 from by omega, pointsTo_congr (f := fin g d) (g := fd) (fun j hj => (hq'.2 j hj).symm)]
          iexact HF_dst
        isplitl [HslA]
        · iapply (slot_other g d L (A8) cc0_scratch2 (p := 0) (lo := loL L) (q := pos 1 L + k.val) (by omega) (by omega)) $$ HslA

        isplitl [HF]
        · iexists _
          iright
          iexists (pos 1 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off12_inb L k k0_hO) _ hq3 eDO _)) $$ Hd
              iexact Hd'
            · iexact Hs
          · ipureintro
            exact ⟨⟨hq1, by omega, by omega, hOd⟩,
              band_value_1 g d L (pos 1 L + k.val) hq3 (grid_t3 L k) _ (k0_off12_inb L k k0_hO) eDO _ (k0_off11_inb L k k0_hO) eSO (A9) _ (f0 d)⟩
        isplitl [Hsc Hsems]
        · isplitl [Hsc]; · iexact Hsc
          iexact Hsems
        iexists _; isplitr
        swap
        · iexact HO
        · ipureintro; intro p hp
          rcases Finset.mem_insert.mp hp with rfl | hp
          · exact .inr rfl
          rcases Finset.mem_insert.mp hp with rfl | hp
          · exact .inr rfl
          · exact hW' p hp

  · iexact HI
  rw [show pos 1 L + Scf.trips (k0_t3_loop L).lb (k0_t3_loop L).ub (k0_t3_loop L).st = pos 2 L from trips_t3 L]
  iintro %acc HI
  sl_exec
  sl_for (fun _ acc => Inv g f0 d L O W (pos 2 L) acc) $$ [HI]
  case region =>
    intro k acc
    exact absurd (lt_of_lt_of_le k.isLt (k0_t4_abs L).2.1) (Nat.not_lt_zero _)
  · iexact HI
  iintro %acc HI
  sl_exec
  sl_for (fun k acc => Inv g f0 d L O W (pos 2 L + k) acc) $$ [HI]
  case region =>

    intro k acc
    have hq1 : loL L ≤ pos 2 L + k.val := by have := lo_le_pos 2 L; omega
    have hq2 : pos 2 L + k.val < hiL L := by
      have h1 := trips_t5 L; have h2 := pos_le_hi 3 L; have h3 : k.val < (k0_t5_loop L).trips := k.isLt; omega
    have hq3 : pos 2 L + k.val < 360 := by have := hiL_le L; omega
    have eDE : k0_off18 L k = bandOff (pos 2 L + k.val) := funext (off18_cf L k)
    have eDO : k0_off20 L k = bandOff (pos 2 L + k.val) := funext (off20_cf L k)
    have eSE : k0_off17 L k = srcOff (pos 2 L + k.val) := funext (off17_cf L k)
    have eSO : k0_off19 L k = srcOff (pos 2 L + k.val) := funext (off19_cf L k)
    unfold Inv
    rcases Nat.mod_two_eq_zero_or_one (pos 2 L + k.val) with hE | hOd
    · have k0_hE : k0_cond19 L k = 1#1 := (cond19_cf L k).2 hE
      have k0_hO : ¬ k0_cond20 L k = 1#1 := fun h => by have := (cond20_cf L k).1 h; omega

      rw [restSems_take (F := F) d L cc0_scoped8 (by decide) (by decide) (by decide), slot_def g d L (A8) cc0_scratch2 0, slot_def g d L (A8) cc0_scratch2 0]
      iintro ⟨%hacc, #Hmw, H0, H1, H2, H3, H4, Hpend, Hdone, HslA, HslB, ⟨Hsc, Hsems⟩, %W', %hW', HO⟩
      obtain ⟨-, -, rfl⟩ := hacc
      ihave Hp := (pts_rng (F := F) d fullShare (f0 d) (show pos 2 L + k.val ≤ pos 2 L + k.val + 1 by omega) (show pos 2 L + k.val + 1 ≤ hiL L by omega)).1 $$ Hpend
      icases Hp with ⟨Hband, Hpend⟩
      ihave Hband' := (Entails.of_eq (pts_band_prog (F := F) d L (k0_off18_inb L k k0_hE) _ hq3 eDE (f0 d)).symm) $$ Hband
      icases HslA with ⟨%fs, (⟨%hidle, HB, HF⟩ | ⟨%q', %fd, %hq', HF⟩)⟩
      · sl_exec (disch := first | sc_amount | (revert hidle k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone]
        · rw [show rng (loL L) (pos 2 L + (k.val + 1) - 2) = rng (loL L) (pos 2 L + k.val - 2) from by
            rw [rng_empty (by unfold busy at hidle; omega), rng_empty (by unfold busy at hidle; omega)]]
          iexact Hdone

        isplitl [HF]
        · iexists _
          iright
          iexists (pos 2 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off18_inb L k k0_hE) _ hq3 eDE _)) $$ Hd
              iexact Hd'
            · iexact Hs
          · ipureintro
            exact ⟨⟨hq1, by omega, by omega, hE⟩,
              band_value_2 g d L (pos 2 L + k.val) hq3 (grid_t5 L k) _ (k0_off18_inb L k k0_hE) eDE _ (k0_off17_inb L k k0_hE) eSE (A8) _ (f0 d)⟩
        isplitl [HslB]
        · iapply (slot_other g d L (A9) cc0_scratch3 (p := 1) (lo := loL L) (q := pos 2 L + k.val) (by omega) (by omega)) $$ HslB
        isplitl [Hsc Hsems]
        · isplitl [Hsc]; · iexact Hsc
          iexact Hsems
        iexists _; isplitr
        swap
        · iexact HO
        · ipureintro; intro p hp
          rcases Finset.mem_insert.mp hp with rfl | hp
          · exact .inr rfl
          · exact hW' p hp
      · have hbusy : busy 0 (loL L) (pos 2 L + k.val) := by unfold busy; omega
        sl_exec (disch := first | sc_amount | (revert hbusy k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone HF_dst]
        · obtain rfl : q' = pos 2 L + k.val - 2 := by omega
          iapply (pts_rng (F := F) d fullShare (fin g d) (a := loL L) (b := pos 2 L + k.val - 2) (c := pos 2 L + (k.val + 1) - 2) (by omega) (by omega)).2
          isplitl [Hdone]; · iexact Hdone
          rw [show pos 2 L + (k.val + 1) - 2 = pos 2 L + k.val - 2 + 1 from by omega, pointsTo_congr (f := fin g d) (g := fd) (fun j hj => (hq'.2 j hj).symm)]
          iexact HF_dst

        isplitl [HF]
        · iexists _
          iright
          iexists (pos 2 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off18_inb L k k0_hE) _ hq3 eDE _)) $$ Hd
              iexact Hd'
            · iexact Hs
          · ipureintro
            exact ⟨⟨hq1, by omega, by omega, hE⟩,
              band_value_2 g d L (pos 2 L + k.val) hq3 (grid_t5 L k) _ (k0_off18_inb L k k0_hE) eDE _ (k0_off17_inb L k k0_hE) eSE (A8) _ (f0 d)⟩
        isplitl [HslB]
        · iapply (slot_other g d L (A9) cc0_scratch3 (p := 1) (lo := loL L) (q := pos 2 L + k.val) (by omega) (by omega)) $$ HslB
        isplitl [Hsc Hsems]
        · isplitl [Hsc]; · iexact Hsc
          iexact Hsems
        iexists _; isplitr
        swap
        · iexact HO
        · ipureintro; intro p hp
          rcases Finset.mem_insert.mp hp with rfl | hp
          · exact .inr rfl
          rcases Finset.mem_insert.mp hp with rfl | hp
          · exact .inr rfl
          · exact hW' p hp
    · have k0_hO : k0_cond20 L k = 1#1 := (cond20_cf L k).2 hOd
      have k0_hE : ¬ k0_cond19 L k = 1#1 := fun h => by have := (cond19_cf L k).1 h; omega

      rw [restSems_take (F := F) d L cc0_scoped9 (by decide) (by decide) (by decide), slot_def g d L (A9) cc0_scratch3 1, slot_def g d L (A9) cc0_scratch3 1]
      iintro ⟨%hacc, #Hmw, H0, H1, H2, H3, H4, Hpend, Hdone, HslA, HslB, ⟨Hsc, Hsems⟩, %W', %hW', HO⟩
      obtain ⟨-, -, rfl⟩ := hacc
      ihave Hp := (pts_rng (F := F) d fullShare (f0 d) (show pos 2 L + k.val ≤ pos 2 L + k.val + 1 by omega) (show pos 2 L + k.val + 1 ≤ hiL L by omega)).1 $$ Hpend
      icases Hp with ⟨Hband, Hpend⟩
      ihave Hband' := (Entails.of_eq (pts_band_prog (F := F) d L (k0_off20_inb L k k0_hO) _ hq3 eDO (f0 d)).symm) $$ Hband
      icases HslB with ⟨%fs, (⟨%hidle, HB, HF⟩ | ⟨%q', %fd, %hq', HF⟩)⟩
      · sl_exec (disch := first | sc_amount | (revert hidle k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone]
        · rw [show rng (loL L) (pos 2 L + (k.val + 1) - 2) = rng (loL L) (pos 2 L + k.val - 2) from by
            rw [rng_empty (by unfold busy at hidle; omega), rng_empty (by unfold busy at hidle; omega)]]
          iexact Hdone
        isplitl [HslA]
        · iapply (slot_other g d L (A8) cc0_scratch2 (p := 0) (lo := loL L) (q := pos 2 L + k.val) (by omega) (by omega)) $$ HslA

        isplitl [HF]
        · iexists _
          iright
          iexists (pos 2 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off20_inb L k k0_hO) _ hq3 eDO _)) $$ Hd
              iexact Hd'
            · iexact Hs
          · ipureintro
            exact ⟨⟨hq1, by omega, by omega, hOd⟩,
              band_value_2 g d L (pos 2 L + k.val) hq3 (grid_t5 L k) _ (k0_off20_inb L k k0_hO) eDO _ (k0_off19_inb L k k0_hO) eSO (A9) _ (f0 d)⟩
        isplitl [Hsc Hsems]
        · isplitl [Hsc]; · iexact Hsc
          iexact Hsems
        iexists _; isplitr
        swap
        · iexact HO
        · ipureintro; intro p hp
          rcases Finset.mem_insert.mp hp with rfl | hp
          · exact .inr rfl
          · exact hW' p hp
      · have hbusy : busy 1 (loL L) (pos 2 L + k.val) := by unfold busy; omega
        sl_exec (disch := first | sc_amount | (revert hbusy k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone HF_dst]
        · obtain rfl : q' = pos 2 L + k.val - 2 := by omega
          iapply (pts_rng (F := F) d fullShare (fin g d) (a := loL L) (b := pos 2 L + k.val - 2) (c := pos 2 L + (k.val + 1) - 2) (by omega) (by omega)).2
          isplitl [Hdone]; · iexact Hdone
          rw [show pos 2 L + (k.val + 1) - 2 = pos 2 L + k.val - 2 + 1 from by omega, pointsTo_congr (f := fin g d) (g := fd) (fun j hj => (hq'.2 j hj).symm)]
          iexact HF_dst
        isplitl [HslA]
        · iapply (slot_other g d L (A8) cc0_scratch2 (p := 0) (lo := loL L) (q := pos 2 L + k.val) (by omega) (by omega)) $$ HslA

        isplitl [HF]
        · iexists _
          iright
          iexists (pos 2 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off20_inb L k k0_hO) _ hq3 eDO _)) $$ Hd
              iexact Hd'
            · iexact Hs
          · ipureintro
            exact ⟨⟨hq1, by omega, by omega, hOd⟩,
              band_value_2 g d L (pos 2 L + k.val) hq3 (grid_t5 L k) _ (k0_off20_inb L k k0_hO) eDO _ (k0_off19_inb L k k0_hO) eSO (A9) _ (f0 d)⟩
        isplitl [Hsc Hsems]
        · isplitl [Hsc]; · iexact Hsc
          iexact Hsems
        iexists _; isplitr
        swap
        · iexact HO
        · ipureintro; intro p hp
          rcases Finset.mem_insert.mp hp with rfl | hp
          · exact .inr rfl
          rcases Finset.mem_insert.mp hp with rfl | hp
          · exact .inr rfl
          · exact hW' p hp

  · iexact HI
  rw [show pos 2 L + Scf.trips (k0_t5_loop L).lb (k0_t5_loop L).ub (k0_t5_loop L).st = pos 3 L from trips_t5 L]
  iintro %acc HI
  sl_exec
  sl_for (fun _ acc => Inv g f0 d L O W (pos 3 L) acc) $$ [HI]
  case region =>
    intro k acc
    exact absurd (lt_of_lt_of_le k.isLt (k0_t6_abs L).2.1) (Nat.not_lt_zero _)
  · iexact HI
  iintro %acc HI
  sl_exec
  sl_for (fun k acc => Inv g f0 d L O W (pos 3 L + k) acc) $$ [HI]
  case region =>

    intro k acc
    have hq1 : loL L ≤ pos 3 L + k.val := by have := lo_le_pos 3 L; omega
    have hq2 : pos 3 L + k.val < hiL L := by
      have h1 := trips_t7 L; have h2 := pos_le_hi 4 L; have h3 : k.val < (k0_t7_loop L).trips := k.isLt; omega
    have hq3 : pos 3 L + k.val < 360 := by have := hiL_le L; omega
    have eDE : k0_off26 L k = bandOff (pos 3 L + k.val) := funext (off26_cf L k)
    have eDO : k0_off28 L k = bandOff (pos 3 L + k.val) := funext (off28_cf L k)
    have eSE : k0_off25 L k = srcOff (pos 3 L + k.val) := funext (off25_cf L k)
    have eSO : k0_off27 L k = srcOff (pos 3 L + k.val) := funext (off27_cf L k)
    unfold Inv
    rcases Nat.mod_two_eq_zero_or_one (pos 3 L + k.val) with hE | hOd
    · have k0_hE : k0_cond27 L k = 1#1 := (cond27_cf L k).2 hE
      have k0_hO : ¬ k0_cond28 L k = 1#1 := fun h => by have := (cond28_cf L k).1 h; omega

      rw [restSems_take (F := F) d L cc0_scoped12 (by decide) (by decide) (by decide), slot_def g d L (A8) cc0_scratch2 0, slot_def g d L (A8) cc0_scratch2 0]
      iintro ⟨%hacc, #Hmw, H0, H1, H2, H3, H4, Hpend, Hdone, HslA, HslB, ⟨Hsc, Hsems⟩, %W', %hW', HO⟩
      obtain ⟨-, -, rfl⟩ := hacc
      ihave Hp := (pts_rng (F := F) d fullShare (f0 d) (show pos 3 L + k.val ≤ pos 3 L + k.val + 1 by omega) (show pos 3 L + k.val + 1 ≤ hiL L by omega)).1 $$ Hpend
      icases Hp with ⟨Hband, Hpend⟩
      ihave Hband' := (Entails.of_eq (pts_band_prog (F := F) d L (k0_off26_inb L k k0_hE) _ hq3 eDE (f0 d)).symm) $$ Hband
      icases HslA with ⟨%fs, (⟨%hidle, HB, HF⟩ | ⟨%q', %fd, %hq', HF⟩)⟩
      · sl_exec (disch := first | sc_amount | (revert hidle k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone]
        · rw [show rng (loL L) (pos 3 L + (k.val + 1) - 2) = rng (loL L) (pos 3 L + k.val - 2) from by
            rw [rng_empty (by unfold busy at hidle; omega), rng_empty (by unfold busy at hidle; omega)]]
          iexact Hdone

        isplitl [HF]
        · iexists _
          iright
          iexists (pos 3 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off26_inb L k k0_hE) _ hq3 eDE _)) $$ Hd
              iexact Hd'
            · iexact Hs
          · ipureintro
            exact ⟨⟨hq1, by omega, by omega, hE⟩,
              band_value_3 g d L (pos 3 L + k.val) hq3 (grid_t7 L k) _ (k0_off26_inb L k k0_hE) eDE _ (k0_off25_inb L k k0_hE) eSE (A8) _ (f0 d)⟩
        isplitl [HslB]
        · iapply (slot_other g d L (A9) cc0_scratch3 (p := 1) (lo := loL L) (q := pos 3 L + k.val) (by omega) (by omega)) $$ HslB
        isplitl [Hsc Hsems]
        · isplitl [Hsc]; · iexact Hsc
          iexact Hsems
        iexists _; isplitr
        swap
        · iexact HO
        · ipureintro; intro p hp
          rcases Finset.mem_insert.mp hp with rfl | hp
          · exact .inr rfl
          · exact hW' p hp
      · have hbusy : busy 0 (loL L) (pos 3 L + k.val) := by unfold busy; omega
        sl_exec (disch := first | sc_amount | (revert hbusy k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone HF_dst]
        · obtain rfl : q' = pos 3 L + k.val - 2 := by omega
          iapply (pts_rng (F := F) d fullShare (fin g d) (a := loL L) (b := pos 3 L + k.val - 2) (c := pos 3 L + (k.val + 1) - 2) (by omega) (by omega)).2
          isplitl [Hdone]; · iexact Hdone
          rw [show pos 3 L + (k.val + 1) - 2 = pos 3 L + k.val - 2 + 1 from by omega, pointsTo_congr (f := fin g d) (g := fd) (fun j hj => (hq'.2 j hj).symm)]
          iexact HF_dst

        isplitl [HF]
        · iexists _
          iright
          iexists (pos 3 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off26_inb L k k0_hE) _ hq3 eDE _)) $$ Hd
              iexact Hd'
            · iexact Hs
          · ipureintro
            exact ⟨⟨hq1, by omega, by omega, hE⟩,
              band_value_3 g d L (pos 3 L + k.val) hq3 (grid_t7 L k) _ (k0_off26_inb L k k0_hE) eDE _ (k0_off25_inb L k k0_hE) eSE (A8) _ (f0 d)⟩
        isplitl [HslB]
        · iapply (slot_other g d L (A9) cc0_scratch3 (p := 1) (lo := loL L) (q := pos 3 L + k.val) (by omega) (by omega)) $$ HslB
        isplitl [Hsc Hsems]
        · isplitl [Hsc]; · iexact Hsc
          iexact Hsems
        iexists _; isplitr
        swap
        · iexact HO
        · ipureintro; intro p hp
          rcases Finset.mem_insert.mp hp with rfl | hp
          · exact .inr rfl
          rcases Finset.mem_insert.mp hp with rfl | hp
          · exact .inr rfl
          · exact hW' p hp
    · have k0_hO : k0_cond28 L k = 1#1 := (cond28_cf L k).2 hOd
      have k0_hE : ¬ k0_cond27 L k = 1#1 := fun h => by have := (cond27_cf L k).1 h; omega

      rw [restSems_take (F := F) d L cc0_scoped13 (by decide) (by decide) (by decide), slot_def g d L (A9) cc0_scratch3 1, slot_def g d L (A9) cc0_scratch3 1]
      iintro ⟨%hacc, #Hmw, H0, H1, H2, H3, H4, Hpend, Hdone, HslA, HslB, ⟨Hsc, Hsems⟩, %W', %hW', HO⟩
      obtain ⟨-, -, rfl⟩ := hacc
      ihave Hp := (pts_rng (F := F) d fullShare (f0 d) (show pos 3 L + k.val ≤ pos 3 L + k.val + 1 by omega) (show pos 3 L + k.val + 1 ≤ hiL L by omega)).1 $$ Hpend
      icases Hp with ⟨Hband, Hpend⟩
      ihave Hband' := (Entails.of_eq (pts_band_prog (F := F) d L (k0_off28_inb L k k0_hO) _ hq3 eDO (f0 d)).symm) $$ Hband
      icases HslB with ⟨%fs, (⟨%hidle, HB, HF⟩ | ⟨%q', %fd, %hq', HF⟩)⟩
      · sl_exec (disch := first | sc_amount | (revert hidle k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone]
        · rw [show rng (loL L) (pos 3 L + (k.val + 1) - 2) = rng (loL L) (pos 3 L + k.val - 2) from by
            rw [rng_empty (by unfold busy at hidle; omega), rng_empty (by unfold busy at hidle; omega)]]
          iexact Hdone
        isplitl [HslA]
        · iapply (slot_other g d L (A8) cc0_scratch2 (p := 0) (lo := loL L) (q := pos 3 L + k.val) (by omega) (by omega)) $$ HslA

        isplitl [HF]
        · iexists _
          iright
          iexists (pos 3 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off28_inb L k k0_hO) _ hq3 eDO _)) $$ Hd
              iexact Hd'
            · iexact Hs
          · ipureintro
            exact ⟨⟨hq1, by omega, by omega, hOd⟩,
              band_value_3 g d L (pos 3 L + k.val) hq3 (grid_t7 L k) _ (k0_off28_inb L k k0_hO) eDO _ (k0_off27_inb L k k0_hO) eSO (A9) _ (f0 d)⟩
        isplitl [Hsc Hsems]
        · isplitl [Hsc]; · iexact Hsc
          iexact Hsems
        iexists _; isplitr
        swap
        · iexact HO
        · ipureintro; intro p hp
          rcases Finset.mem_insert.mp hp with rfl | hp
          · exact .inr rfl
          · exact hW' p hp
      · have hbusy : busy 1 (loL L) (pos 3 L + k.val) := by unfold busy; omega
        sl_exec (disch := first | sc_amount | (revert hbusy k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone HF_dst]
        · obtain rfl : q' = pos 3 L + k.val - 2 := by omega
          iapply (pts_rng (F := F) d fullShare (fin g d) (a := loL L) (b := pos 3 L + k.val - 2) (c := pos 3 L + (k.val + 1) - 2) (by omega) (by omega)).2
          isplitl [Hdone]; · iexact Hdone
          rw [show pos 3 L + (k.val + 1) - 2 = pos 3 L + k.val - 2 + 1 from by omega, pointsTo_congr (f := fin g d) (g := fd) (fun j hj => (hq'.2 j hj).symm)]
          iexact HF_dst
        isplitl [HslA]
        · iapply (slot_other g d L (A8) cc0_scratch2 (p := 0) (lo := loL L) (q := pos 3 L + k.val) (by omega) (by omega)) $$ HslA

        isplitl [HF]
        · iexists _
          iright
          iexists (pos 3 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off28_inb L k k0_hO) _ hq3 eDO _)) $$ Hd
              iexact Hd'
            · iexact Hs
          · ipureintro
            exact ⟨⟨hq1, by omega, by omega, hOd⟩,
              band_value_3 g d L (pos 3 L + k.val) hq3 (grid_t7 L k) _ (k0_off28_inb L k k0_hO) eDO _ (k0_off27_inb L k k0_hO) eSO (A9) _ (f0 d)⟩
        isplitl [Hsc Hsems]
        · isplitl [Hsc]; · iexact Hsc
          iexact Hsems
        iexists _; isplitr
        swap
        · iexact HO
        · ipureintro; intro p hp
          rcases Finset.mem_insert.mp hp with rfl | hp
          · exact .inr rfl
          rcases Finset.mem_insert.mp hp with rfl | hp
          · exact .inr rfl
          · exact hW' p hp

  · iexact HI
  rw [show pos 3 L + Scf.trips (k0_t7_loop L).lb (k0_t7_loop L).ub (k0_t7_loop L).st = pos 4 L from trips_t7 L]
  iintro %acc HI
  sl_exec
  sl_for (fun _ acc => Inv g f0 d L O W (pos 4 L) acc) $$ [HI]
  case region =>
    intro k acc
    exact absurd (lt_of_lt_of_le k.isLt (k0_t8_abs L).2.1) (Nat.not_lt_zero _)
  · iexact HI
  iintro %acc HI
  sl_exec
  sl_for (fun k acc => Inv g f0 d L O W (pos 4 L + k) acc) $$ [HI]
  case region =>

    intro k acc
    have hq1 : loL L ≤ pos 4 L + k.val := by have := lo_le_pos 4 L; omega
    have hq2 : pos 4 L + k.val < hiL L := by
      have h1 := trips_t9 L; have h2 := pos_le_hi 5 L; have h3 : k.val < (k0_t9_loop L).trips := k.isLt; omega
    have hq3 : pos 4 L + k.val < 360 := by have := hiL_le L; omega
    have eDE : k0_off34 L k = bandOff (pos 4 L + k.val) := funext (off34_cf L k)
    have eDO : k0_off36 L k = bandOff (pos 4 L + k.val) := funext (off36_cf L k)
    have eSE : k0_off33 L k = srcOff (pos 4 L + k.val) := funext (off33_cf L k)
    have eSO : k0_off35 L k = srcOff (pos 4 L + k.val) := funext (off35_cf L k)
    unfold Inv
    rcases Nat.mod_two_eq_zero_or_one (pos 4 L + k.val) with hE | hOd
    · have k0_hE : k0_cond35 L k = 1#1 := (cond35_cf L k).2 hE
      have k0_hO : ¬ k0_cond36 L k = 1#1 := fun h => by have := (cond36_cf L k).1 h; omega

      rw [restSems_take (F := F) d L cc0_scoped16 (by decide) (by decide) (by decide), slot_def g d L (A8) cc0_scratch2 0, slot_def g d L (A8) cc0_scratch2 0]
      iintro ⟨%hacc, #Hmw, H0, H1, H2, H3, H4, Hpend, Hdone, HslA, HslB, ⟨Hsc, Hsems⟩, %W', %hW', HO⟩
      obtain ⟨-, -, rfl⟩ := hacc
      ihave Hp := (pts_rng (F := F) d fullShare (f0 d) (show pos 4 L + k.val ≤ pos 4 L + k.val + 1 by omega) (show pos 4 L + k.val + 1 ≤ hiL L by omega)).1 $$ Hpend
      icases Hp with ⟨Hband, Hpend⟩
      ihave Hband' := (Entails.of_eq (pts_band_prog (F := F) d L (k0_off34_inb L k k0_hE) _ hq3 eDE (f0 d)).symm) $$ Hband
      icases HslA with ⟨%fs, (⟨%hidle, HB, HF⟩ | ⟨%q', %fd, %hq', HF⟩)⟩
      · sl_exec (disch := first | sc_amount | (revert hidle k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone]
        · rw [show rng (loL L) (pos 4 L + (k.val + 1) - 2) = rng (loL L) (pos 4 L + k.val - 2) from by
            rw [rng_empty (by unfold busy at hidle; omega), rng_empty (by unfold busy at hidle; omega)]]
          iexact Hdone

        isplitl [HF]
        · iexists _
          iright
          iexists (pos 4 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off34_inb L k k0_hE) _ hq3 eDE _)) $$ Hd
              iexact Hd'
            · iexact Hs
          · ipureintro
            exact ⟨⟨hq1, by omega, by omega, hE⟩,
              band_value_4 g d L (pos 4 L + k.val) hq3 (grid_t9 L k) _ (k0_off34_inb L k k0_hE) eDE _ (k0_off33_inb L k k0_hE) eSE (A8) _ (f0 d)⟩
        isplitl [HslB]
        · iapply (slot_other g d L (A9) cc0_scratch3 (p := 1) (lo := loL L) (q := pos 4 L + k.val) (by omega) (by omega)) $$ HslB
        isplitl [Hsc Hsems]
        · isplitl [Hsc]; · iexact Hsc
          iexact Hsems
        iexists _; isplitr
        swap
        · iexact HO
        · ipureintro; intro p hp
          rcases Finset.mem_insert.mp hp with rfl | hp
          · exact .inr rfl
          · exact hW' p hp
      · have hbusy : busy 0 (loL L) (pos 4 L + k.val) := by unfold busy; omega
        sl_exec (disch := first | sc_amount | (revert hbusy k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone HF_dst]
        · obtain rfl : q' = pos 4 L + k.val - 2 := by omega
          iapply (pts_rng (F := F) d fullShare (fin g d) (a := loL L) (b := pos 4 L + k.val - 2) (c := pos 4 L + (k.val + 1) - 2) (by omega) (by omega)).2
          isplitl [Hdone]; · iexact Hdone
          rw [show pos 4 L + (k.val + 1) - 2 = pos 4 L + k.val - 2 + 1 from by omega, pointsTo_congr (f := fin g d) (g := fd) (fun j hj => (hq'.2 j hj).symm)]
          iexact HF_dst

        isplitl [HF]
        · iexists _
          iright
          iexists (pos 4 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off34_inb L k k0_hE) _ hq3 eDE _)) $$ Hd
              iexact Hd'
            · iexact Hs
          · ipureintro
            exact ⟨⟨hq1, by omega, by omega, hE⟩,
              band_value_4 g d L (pos 4 L + k.val) hq3 (grid_t9 L k) _ (k0_off34_inb L k k0_hE) eDE _ (k0_off33_inb L k k0_hE) eSE (A8) _ (f0 d)⟩
        isplitl [HslB]
        · iapply (slot_other g d L (A9) cc0_scratch3 (p := 1) (lo := loL L) (q := pos 4 L + k.val) (by omega) (by omega)) $$ HslB
        isplitl [Hsc Hsems]
        · isplitl [Hsc]; · iexact Hsc
          iexact Hsems
        iexists _; isplitr
        swap
        · iexact HO
        · ipureintro; intro p hp
          rcases Finset.mem_insert.mp hp with rfl | hp
          · exact .inr rfl
          rcases Finset.mem_insert.mp hp with rfl | hp
          · exact .inr rfl
          · exact hW' p hp
    · have k0_hO : k0_cond36 L k = 1#1 := (cond36_cf L k).2 hOd
      have k0_hE : ¬ k0_cond35 L k = 1#1 := fun h => by have := (cond35_cf L k).1 h; omega

      rw [restSems_take (F := F) d L cc0_scoped17 (by decide) (by decide) (by decide), slot_def g d L (A9) cc0_scratch3 1, slot_def g d L (A9) cc0_scratch3 1]
      iintro ⟨%hacc, #Hmw, H0, H1, H2, H3, H4, Hpend, Hdone, HslA, HslB, ⟨Hsc, Hsems⟩, %W', %hW', HO⟩
      obtain ⟨-, -, rfl⟩ := hacc
      ihave Hp := (pts_rng (F := F) d fullShare (f0 d) (show pos 4 L + k.val ≤ pos 4 L + k.val + 1 by omega) (show pos 4 L + k.val + 1 ≤ hiL L by omega)).1 $$ Hpend
      icases Hp with ⟨Hband, Hpend⟩
      ihave Hband' := (Entails.of_eq (pts_band_prog (F := F) d L (k0_off36_inb L k k0_hO) _ hq3 eDO (f0 d)).symm) $$ Hband
      icases HslB with ⟨%fs, (⟨%hidle, HB, HF⟩ | ⟨%q', %fd, %hq', HF⟩)⟩
      · sl_exec (disch := first | sc_amount | (revert hidle k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone]
        · rw [show rng (loL L) (pos 4 L + (k.val + 1) - 2) = rng (loL L) (pos 4 L + k.val - 2) from by
            rw [rng_empty (by unfold busy at hidle; omega), rng_empty (by unfold busy at hidle; omega)]]
          iexact Hdone
        isplitl [HslA]
        · iapply (slot_other g d L (A8) cc0_scratch2 (p := 0) (lo := loL L) (q := pos 4 L + k.val) (by omega) (by omega)) $$ HslA

        isplitl [HF]
        · iexists _
          iright
          iexists (pos 4 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off36_inb L k k0_hO) _ hq3 eDO _)) $$ Hd
              iexact Hd'
            · iexact Hs
          · ipureintro
            exact ⟨⟨hq1, by omega, by omega, hOd⟩,
              band_value_4 g d L (pos 4 L + k.val) hq3 (grid_t9 L k) _ (k0_off36_inb L k k0_hO) eDO _ (k0_off35_inb L k k0_hO) eSO (A9) _ (f0 d)⟩
        isplitl [Hsc Hsems]
        · isplitl [Hsc]; · iexact Hsc
          iexact Hsems
        iexists _; isplitr
        swap
        · iexact HO
        · ipureintro; intro p hp
          rcases Finset.mem_insert.mp hp with rfl | hp
          · exact .inr rfl
          · exact hW' p hp
      · have hbusy : busy 1 (loL L) (pos 4 L + k.val) := by unfold busy; omega
        sl_exec (disch := first | sc_amount | (revert hbusy k0_hE k0_hO; clear * - L k; revert k; revert L; decide +kernel))

        sl_step
        isplitr
        · ipureintro; exact ⟨by omega, by omega, by (revert k0_hE k0_hO; clear * - L k; revert k; revert L; decide +kernel)⟩
        isplitr; · iexact Hmw
        isplitl [H0]; · iexact H0
        isplitl [H1]; · iexact H1
        isplitl [H2]; · iexact H2
        isplitl [H3]; · iexact H3
        isplitl [H4]; · iexact H4
        isplitl [Hpend]; · iexact Hpend
        isplitl [Hdone HF_dst]
        · obtain rfl : q' = pos 4 L + k.val - 2 := by omega
          iapply (pts_rng (F := F) d fullShare (fin g d) (a := loL L) (b := pos 4 L + k.val - 2) (c := pos 4 L + (k.val + 1) - 2) (by omega) (by omega)).2
          isplitl [Hdone]; · iexact Hdone
          rw [show pos 4 L + (k.val + 1) - 2 = pos 4 L + k.val - 2 + 1 from by omega, pointsTo_congr (f := fin g d) (g := fd) (fun j hj => (hq'.2 j hj).symm)]
          iexact HF_dst
        isplitl [HslA]
        · iapply (slot_other g d L (A8) cc0_scratch2 (p := 0) (lo := loL L) (q := pos 4 L + k.val) (by omega) (by omega)) $$ HslA

        isplitl [HF]
        · iexists _
          iright
          iexists (pos 4 L + k.val), _
          isplitr
          swap
          · iapply (Transfers.Flight_mono (EC (F := F)) (thrL d L) ?_) $$ HF
            iintro ⟨Hd, Hs⟩
            isplitl [Hd]
            · ihave Hd' := (Entails.of_eq (pts_band_prog (F := F) d L (k0_off36_inb L k k0_hO) _ hq3 eDO _)) $$ Hd
              iexact Hd'
            · iexact Hs
          · ipureintro
            exact ⟨⟨hq1, by omega, by omega, hOd⟩,
              band_value_4 g d L (pos 4 L + k.val) hq3 (grid_t9 L k) _ (k0_off36_inb L k k0_hO) eDO _ (k0_off35_inb L k k0_hO) eSO (A9) _ (f0 d)⟩
        isplitl [Hsc Hsems]
        · isplitl [Hsc]; · iexact Hsc
          iexact Hsems
        iexists _; isplitr
        swap
        · iexact HO
        · ipureintro; intro p hp
          rcases Finset.mem_insert.mp hp with rfl | hp
          · exact .inr rfl
          rcases Finset.mem_insert.mp hp with rfl | hp
          · exact .inr rfl
          · exact hW' p hp

  · iexact HI
  rw [show pos 4 L + Scf.trips (k0_t9_loop L).lb (k0_t9_loop L).ub (k0_t9_loop L).st = pos 5 L from trips_t9 L]
  iintro %acc HI
  sl_exec
  sl_for (fun _ acc => Inv g f0 d L O W (pos 5 L) acc) $$ [HI]
  case region =>
    intro k acc
    exact absurd (lt_of_lt_of_le k.isLt (k0_t10_abs L).2.1) (Nat.not_lt_zero _)
  · iexact HI
  unfold Inv
  rw [slot_def g d L (A8) cc0_scratch2 0, slot_def g d L (A9) cc0_scratch3 1, pos_five, rng_empty (le_refl (hiL L)), pointsTo_empty]
  iintro %acc ⟨%hacc, -, H0, H1, H2, H3, H4, -, Hdone, ⟨%fsA, (⟨%hiA, HBA, HFA⟩ | ⟨%qA, %fdA, %hqA, HFA⟩)⟩, ⟨%fsB, (⟨%hiB, HBB, HFB⟩ | ⟨%qB, %fdB, %hqB, HFB⟩)⟩, Hsems, %W', %hW', HO⟩
  · exfalso; have := lo_add_le_hi L; unfold busy at hiA; omega
  · exfalso; have := lo_add_le_hi L; unfold busy at hiA; omega
  · exfalso; have := lo_add_le_hi L; unfold busy at hiB; omega
  obtain ⟨-, -, rfl⟩ := hacc
  sl_exec (disch := (clear * - L; revert L; decide +kernel))
  sl_step
  have h11 := lo_add_le_hi L
  isplitl [H0 H1 H2 H3 H4 Hdone HFA_dst HFB_dst]
  · isplitl [H0 H1 H2 H3 H4]
    · isplitl [H0]; · iexact H0
      isplitl [H1]; · iexact H1
      isplitl [H2]; · iexact H2
      isplitl [H3]; · iexact H3
      iexact H4
    · unfold outDone
      iexists (fin g d)
      isplitr
      · ipureintro; exact fun j _ => rfl
      rw [show rng (lo (widL L).val) (lo ((widL L).val + 1)) = rng (loL L) (hiL L) from rfl]
      rcases Nat.mod_two_eq_zero_or_one (hiL L) with hpe | hpo
      · obtain rfl : qA = hiL L - 2 := by omega
        obtain rfl : qB = hiL L - 1 := by omega
        iapply (pts_rng (F := F) d fullShare (fin g d) (a := loL L) (b := hiL L - 2) (c := hiL L) (by omega) (by omega)).2
        isplitl [Hdone]; · iexact Hdone
        iapply (pts_rng (F := F) d fullShare (fin g d) (a := hiL L - 2) (b := hiL L - 1) (c := hiL L) (by omega) (by omega)).2
        isplitl [HFA_dst]
        · rw [show rng (hiL L - 2) (hiL L - 1) = rng (hiL L - 2) (hiL L - 2 + 1) from by rw [show hiL L - 2 + 1 = hiL L - 1 from by omega],
            pointsTo_congr (f := fin g d) (g := fdA) (fun j hj => (hqA.2 j hj).symm)]
          iexact HFA_dst
        · rw [show rng (hiL L - 1) (hiL L) = rng (hiL L - 1) (hiL L - 1 + 1) from by rw [show hiL L - 1 + 1 = hiL L from by omega],
            pointsTo_congr (f := fin g d) (g := fdB) (fun j hj => (hqB.2 j hj).symm)]
          iexact HFB_dst
      · obtain rfl : qB = hiL L - 2 := by omega
        obtain rfl : qA = hiL L - 1 := by omega
        iapply (pts_rng (F := F) d fullShare (fin g d) (a := loL L) (b := hiL L - 2) (c := hiL L) (by omega) (by omega)).2
        isplitl [Hdone]; · iexact Hdone
        iapply (pts_rng (F := F) d fullShare (fin g d) (a := hiL L - 2) (b := hiL L - 1) (c := hiL L) (by omega) (by omega)).2
        isplitl [HFB_dst]
        · rw [show rng (hiL L - 2) (hiL L - 1) = rng (hiL L - 2) (hiL L - 2 + 1) from by rw [show hiL L - 2 + 1 = hiL L - 1 from by omega],
            pointsTo_congr (f := fin g d) (g := fdB) (fun j hj => (hqB.2 j hj).symm)]
          iexact HFB_dst
        · rw [show rng (hiL L - 1) (hiL L) = rng (hiL L - 1) (hiL L - 1 + 1) from by rw [show hiL L - 1 + 1 = hiL L from by omega],
            pointsTo_congr (f := fin g d) (g := fdA) (fun j hj => (hqA.2 j hj).symm)]
          iexact HFA_dst
  isplitl [HFA_src HFB_src Hbufs]
  · isplitl [HFA_src]
    · iexists _; iapply (Entails.of_eq (pts_A8 (F := F) d L _)); iexact HFA_src
    isplitl [HFB_src]
    · iexists _; iapply (Entails.of_eq (pts_A9 (F := F) d L _)); iexact HFB_src
    iexact Hbufs
  isplitl [HFA HFB Hsems]
  · isplitl [HFA]; · iexact HFA
    isplitl [HFB]; · iexact HFB
    iexact Hsems
  iexists _; isplitr
  swap
  · iexact HO
  · ipureintro; intro p hp
    rcases Finset.mem_insert.mp hp with rfl | hp
    · exact .inr rfl
    rcases Finset.mem_insert.mp hp with rfl | hp
    · exact .inr rfl
    · exact hW' p hp

theorem tileObl : (K (F := F)).TileObl (D (F := F)) 𝒱 (P g f0) v₀ 0 := by
  intro d c i O W hO _ _
  simp only [show (P g f0).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body g f0 d (coordsV ⟨_, hc.1⟩ ⟨_, hc.2⟩) O W hO).trans (wp_mono frame _ _ fun _ => obl_post)

end Cert.Kernel.Hand

end
-- ==== Proof.K.TcBody.lean ====
/-
  The TensorCore kernel's body on any whole staging buffers: from the nine input buffers at their contents and the
  output buffer at anything, the body runs, leaving the inputs as they were and the output buffer written by the
  body's twenty-one channel stores, each a 1 × 1 × 24 × 1024 slab; the list of those stores is the witness.
-/
import proofs.«206564_g5145370820828_cont_8to1c4_476_13_alg».proof.Proof.K.Setup
import proofs.«206564_g5145370820828_cont_8to1c4_476_13_alg».proof.Proof.Gen.Kernel.Launch
import proofs.«206564_g5145370820828_cont_8to1c4_476_13_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

set_option maxHeartbeats 4000000 in
/-- What the body's stores leave in the output's staging buffer, as pieces (last first), with the proof that on whole
    staging buffers the body runs to the continuation holding the inputs as they were and the output buffer with
    those pieces written. -/
noncomputable def tcRun (c : Dev nD) (i : grid1.Coords) (arg2 : Memref sig .tc .vmem S24x1024 .i32) (harg2 : arg2.IsWhole) (arg3 : Memref sig .tc .vmem S1x1024 .f32) (harg3 : arg3.IsWhole) (arg4 : Memref sig .tc .vmem S10x1024 .f32) (harg4 : arg4.IsWhole) (arg5 : Memref sig .tc .vmem S24x1024 .f32) (harg5 : arg5.IsWhole) (arg6 : Memref sig .tc .vmem S24x1024 .f32) (harg6 : arg6.IsWhole) (arg7 : Memref sig .tc .vmem S24x1024 .f32) (harg7 : arg7.IsWhole) (arg8 : Memref sig .tc .vmem S24x1024 .f32) (harg8 : arg8.IsWhole) (arg9 : Memref sig .tc .vmem S24x1024 .f32) (harg9 : arg9.IsWhole) (arg10 : Memref sig .tc .smem S4x5 .f32) (harg10 : arg10.IsWhole) (arg12 : Memref sig .tc .vmem S1x21x24x1024 .f32) (harg12 : arg12.IsWhole)
    (x0 : Vec F S24x1024 .i32) (x1 : Vec F S1x1024 .f32) (x2 : Vec F S10x1024 .f32) (x3 x4 x5 x6 x7 : Vec F S24x1024 .f32) (x8 : Vec F S4x5 .f32) :
    { L : List (View.Piece (Elt F) S1x21x24x1024 .f32) //
      ∀ (E : Set ℕ) (K : PUnit → sProp 𝕄),
        iprop(owns (c.tc : Thread nD τ) arg2 fullShare x0 ∗ owns (c.tc : Thread nD τ) arg3 fullShare x1 ∗ owns (c.tc : Thread nD τ) arg4 fullShare x2 ∗ owns (c.tc : Thread nD τ) arg5 fullShare x3 ∗ owns (c.tc : Thread nD τ) arg6 fullShare x4 ∗ owns (c.tc : Thread nD τ) arg7 fullShare x5 ∗ owns (c.tc : Thread nD τ) arg8 fullShare x6 ∗ owns (c.tc : Thread nD τ) arg9 fullShare x7 ∗ owns (c.tc : Thread nD τ) arg10 fullShare x8 ∗ (∃ d, owns (c.tc : Thread nD τ) arg12 fullShare d)
            ∗ (iprop(owns (c.tc : Thread nD τ) arg2 fullShare x0 ∗ owns (c.tc : Thread nD τ) arg3 fullShare x1 ∗ owns (c.tc : Thread nD τ) arg4 fullShare x2 ∗ owns (c.tc : Thread nD τ) arg5 fullShare x3 ∗ owns (c.tc : Thread nD τ) arg6 fullShare x4 ∗ owns (c.tc : Thread nD τ) arg7 fullShare x5 ∗ owns (c.tc : Thread nD τ) arg8 fullShare x6 ∗ owns (c.tc : Thread nD τ) arg9 fullShare x7 ∗ owns (c.tc : Thread nD τ) arg10 fullShare x8 ∗ (∃ f, arg12.view.loc (c.tc : Thread nD τ) ↦[arg12.view.set]{fullShare} arg12.view.writes (Elt F) f L)) -∗ K ⟨⟩))
          ⊢ wp frame (wpE (defs₀ (F := F)) 𝒱₀ (c.tc : Thread nD τ) none) E (cc1__tc_body i arg2 harg2 arg3 harg3 arg4 harg4 arg5 harg5 arg6 harg6 arg7 harg7 arg8 harg8 arg9 harg9 arg10 harg10 (Memref.whole main_v24) (Memref.isWhole_whole _) arg12 harg12) K } := by
  refine ⟨?_, fun E K => ?run⟩
  case run =>
    simp only [cc1__tc_body_eq_skeleton]; unfold cc1__tc_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact H9

end Cert.Kernel.Hand

end
-- ==== Proof.K.TcRegion.lean ====
/-
  The TensorCore kernel's region as one step of the TensorCore's program: the pipeline's proof data over a valuation of
  the TensorCore's arrays (each input window's staging buffer holds its block of the array, the output window's what the
  body's stores leave), the body obligation from the body's run, the wait evidence (the pipeline's waits sit at the
  index no handshake uses, below everything the core owes), the region record, and the step itself: from the region
  boundary, the ten windowed arrays whole, the core's debts and the staging cells' launch state, the region's call
  runs to the boundary, the nine operands unchanged and the result array at what the write-backs left.
-/
import proofs.«206564_g5145370820828_cont_8to1c4_476_13_alg».proof.Proof.K.TcBody
import Idealize.ShloMosaic.Lib.Pipeline.Regions
import Idealize.ShloMosaic.Lib.Pipeline.Value

set_option maxRecDepth 16384

noncomputable section

namespace Cert.Kernel.Hand

open Cert.Kernel Cert.Kernel.Gen

open Idealize.ShloMosaic Idealize.ShloMosaic.TcCoe Idealize.ShloMosaic.Tactic
open Idealize.ShloMosaic.SparseCore (S T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c.tc : Thread nD τ).loc b))
variable (O : Dev nD → CellTallies nD τ sig (HIx 1)) (W₀ : Dev nD → Waits sig (HIx 1))

/-- The pipeline has no prefetched table. -/
abbrev adm : (p : Fin 1) → (pcfgs (F := F) p).Adm := fun p => (cfgs p).toPCfg_adm

/-! ## The windows' blocks and current staging buffers -/

/-- Window `w`'s block at point `t`, read off its array. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One staging buffer of the output window, through which its contents are stated. -/
abbrev VO : View sig .tc .vmem S1x21x24x1024 .f32 := (Memref.whole cc1_stg9_0 : Memref sig .tc .vmem S1x21x24x1024 .f32).view

abbrev ms1_0 (t : Fin cfg1.N) : Memref sig .tc .vmem S24x1024 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S10x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S24x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S24x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S24x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S24x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S24x1024 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .smem S4x5 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x21x24x1024 .f32 := win1_9.stage (cfg1.slots t 9)
abbrev hs1_9 (t : Fin cfg1.N) : (ms1_9 t).IsWhole := hstage1_9 ((cfg1.slots t 9).cast nbuf1_9)

/-- The body's stores tile the output block (21 slabs of one channel each), so they cover it. -/
theorem cover9 (c : Dev nD) (i : grid1.Coords) (arg2 : Memref sig .tc .vmem S24x1024 .i32) (harg2 : arg2.IsWhole) (arg3 : Memref sig .tc .vmem S1x1024 .f32) (harg3 : arg3.IsWhole) (arg4 : Memref sig .tc .vmem S10x1024 .f32) (harg4 : arg4.IsWhole) (arg5 : Memref sig .tc .vmem S24x1024 .f32) (harg5 : arg5.IsWhole) (arg6 : Memref sig .tc .vmem S24x1024 .f32) (harg6 : arg6.IsWhole) (arg7 : Memref sig .tc .vmem S24x1024 .f32) (harg7 : arg7.IsWhole) (arg8 : Memref sig .tc .vmem S24x1024 .f32) (harg8 : arg8.IsWhole) (arg9 : Memref sig .tc .vmem S24x1024 .f32) (harg9 : arg9.IsWhole) (arg10 : Memref sig .tc .smem S4x5 .f32) (harg10 : arg10.IsWhole) (arg12 : Memref sig .tc .vmem S1x21x24x1024 .f32) (harg12 : arg12.IsWhole)
    (x0 : Vec F S24x1024 .i32) (x1 : Vec F S1x1024 .f32) (x2 : Vec F S10x1024 .f32) (x3 x4 x5 x6 x7 : Vec F S24x1024 .f32) (x8 : Vec F S4x5 .f32) (y : S1x21x24x1024.Idx) :
    ∃ pc ∈ (tcRun c i arg2 harg2 arg3 harg3 arg4 harg4 arg5 harg5 arg6 harg6 arg7 harg7 arg8 harg8 arg9 harg9 arg10 harg10 arg12 harg12 x0 x1 x2 x3 x4 x5 x6 x7 x8).1, y ∈ pc.1.set :=
  View.cover_of_tiledL (tcRun c i arg2 harg2 arg3 harg3 arg4 harg4 arg5 harg5 arg6 harg6 arg7 harg7 arg8 harg8 arg9 harg9 arg10 harg10 arg12 harg12 x0 x1 x2 x3 x4 x5 x6 x7 x8).1 S1x1x24x1024.size (by sl_kernel_rfl) y

/-- What the body leaves in the output's staging buffer at point `t`: its stores read back. -/
def outAt (c : Dev nD) (t : Fin cfg1.N) : Vec F S1x21x24x1024 .f32 :=
  VO.read (Elt F) (VO.writes (Elt F) VO.junk (tcRun c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk V c 0 t) (iblk V c 1 t) (iblk V c 2 t) (iblk V c 3 t) (iblk V c 4 t) (iblk V c 5 t) (iblk V c 6 t) (iblk V c 7 t) (iblk V c 8 t)).1)

/-! ## The proof data -/

/-- The pipeline's proof data on core `c`: the arrays at the valuation; after the body each input's buffer at its
    block and the output's at `outAt`; nothing carried between points; the core owes `O c` throughout, its
    recorded pairs within `W₀ c` and the pipeline's own. -/
def dats (_ : Fin 1) (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => outAt V c t
  Φ _ := BI.emp
  q _ := fullShare
  owed _ := O c
  recorded _ := ↑(W₀ c)

theorem A_eq (c : Dev nD) (w : Fin cfg1.W) : (dats V O W₀ 0 c).A w = V c (Pipeline.arrRef spec1 w) := by
  dsimp only [dats]

theorem after1_0 (c : Dev nD) (t : Fin cfg1.N) : (dats V O W₀ 0 c).after 0 t = iblk V c 0 t := by dsimp only [dats]
theorem after1_1 (c : Dev nD) (t : Fin cfg1.N) : (dats V O W₀ 0 c).after 1 t = iblk V c 1 t := by dsimp only [dats]
theorem after1_2 (c : Dev nD) (t : Fin cfg1.N) : (dats V O W₀ 0 c).after 2 t = iblk V c 2 t := by dsimp only [dats]
theorem after1_3 (c : Dev nD) (t : Fin cfg1.N) : (dats V O W₀ 0 c).after 3 t = iblk V c 3 t := by dsimp only [dats]
theorem after1_4 (c : Dev nD) (t : Fin cfg1.N) : (dats V O W₀ 0 c).after 4 t = iblk V c 4 t := by dsimp only [dats]
theorem after1_5 (c : Dev nD) (t : Fin cfg1.N) : (dats V O W₀ 0 c).after 5 t = iblk V c 5 t := by dsimp only [dats]
theorem after1_6 (c : Dev nD) (t : Fin cfg1.N) : (dats V O W₀ 0 c).after 6 t = iblk V c 6 t := by dsimp only [dats]
theorem after1_7 (c : Dev nD) (t : Fin cfg1.N) : (dats V O W₀ 0 c).after 7 t = iblk V c 7 t := by dsimp only [dats]
theorem after1_8 (c : Dev nD) (t : Fin cfg1.N) : (dats V O W₀ 0 c).after 8 t = iblk V c 8 t := by dsimp only [dats]
theorem after1_9 (c : Dev nD) (t : Fin cfg1.N) : (dats V O W₀ 0 c).after 9 t = outAt V c t := by dsimp only [dats]

/-- Input window 0's current staging buffer holds its block at every point, fetched there or not. -/
theorem before1_0 (c : Dev nD) (t : Fin cfg1.N) (d) : (dats V O W₀ 0 c).before 0 t d = iblk V c 0 t :=
  ((dats V O W₀ 0 c).before_in_eq_fetched 0 rfl (fun _ => rfl) (fun _ _ _ => rfl) (fun t => by rw [after1_0]; unfold Dat.blockOf iblk; rw [A_eq]; try rfl) t d).trans
    (by unfold Dat.fetched Dat.blockOf iblk; rw [A_eq]; try rfl)
/-- Input window 1's current staging buffer holds its block at every point, fetched there or not. -/
theorem before1_1 (c : Dev nD) (t : Fin cfg1.N) (d) : (dats V O W₀ 0 c).before 1 t d = iblk V c 1 t :=
  ((dats V O W₀ 0 c).before_in_eq_fetched 1 rfl (fun _ => rfl) (fun _ _ _ => rfl) (fun t => by rw [after1_1]; unfold Dat.blockOf iblk; rw [A_eq]; try rfl) t d).trans
    (by unfold Dat.fetched Dat.blockOf iblk; rw [A_eq]; try rfl)
/-- Input window 2's current staging buffer holds its block at every point, fetched there or not. -/
theorem before1_2 (c : Dev nD) (t : Fin cfg1.N) (d) : (dats V O W₀ 0 c).before 2 t d = iblk V c 2 t :=
  ((dats V O W₀ 0 c).before_in_eq_fetched 2 rfl (fun _ => rfl) (fun _ _ _ => rfl) (fun t => by rw [after1_2]; unfold Dat.blockOf iblk; rw [A_eq]; try rfl) t d).trans
    (by unfold Dat.fetched Dat.blockOf iblk; rw [A_eq]; try rfl)
/-- Input window 3's current staging buffer holds its block at every point, fetched there or not. -/
theorem before1_3 (c : Dev nD) (t : Fin cfg1.N) (d) : (dats V O W₀ 0 c).before 3 t d = iblk V c 3 t :=
  ((dats V O W₀ 0 c).before_in_eq_fetched 3 rfl (fun _ => rfl) (fun _ _ _ => rfl) (fun t => by rw [after1_3]; unfold Dat.blockOf iblk; rw [A_eq]; try rfl) t d).trans
    (by unfold Dat.fetched Dat.blockOf iblk; rw [A_eq]; try rfl)
/-- Input window 4's current staging buffer holds its block at every point, fetched there or not. -/
theorem before1_4 (c : Dev nD) (t : Fin cfg1.N) (d) : (dats V O W₀ 0 c).before 4 t d = iblk V c 4 t :=
  ((dats V O W₀ 0 c).before_in_eq_fetched 4 rfl (fun _ => rfl) (fun _ _ _ => rfl) (fun t => by rw [after1_4]; unfold Dat.blockOf iblk; rw [A_eq]; try rfl) t d).trans
    (by unfold Dat.fetched Dat.blockOf iblk; rw [A_eq]; try rfl)
/-- Input window 5's current staging buffer holds its block at every point, fetched there or not. -/
theorem before1_5 (c : Dev nD) (t : Fin cfg1.N) (d) : (dats V O W₀ 0 c).before 5 t d = iblk V c 5 t :=
  ((dats V O W₀ 0 c).before_in_eq_fetched 5 rfl (fun _ => rfl) (fun _ _ _ => rfl) (fun t => by rw [after1_5]; unfold Dat.blockOf iblk; rw [A_eq]; try rfl) t d).trans
    (by unfold Dat.fetched Dat.blockOf iblk; rw [A_eq]; try rfl)
/-- Input window 6's current staging buffer holds its block at every point, fetched there or not. -/
theorem before1_6 (c : Dev nD) (t : Fin cfg1.N) (d) : (dats V O W₀ 0 c).before 6 t d = iblk V c 6 t :=
  ((dats V O W₀ 0 c).before_in_eq_fetched 6 rfl (fun _ => rfl) (fun _ _ _ => rfl) (fun t => by rw [after1_6]; unfold Dat.blockOf iblk; rw [A_eq]; try rfl) t d).trans
    (by unfold Dat.fetched Dat.blockOf iblk; rw [A_eq]; try rfl)
/-- Input window 7's current staging buffer holds its block at every point, fetched there or not. -/
theorem before1_7 (c : Dev nD) (t : Fin cfg1.N) (d) : (dats V O W₀ 0 c).before 7 t d = iblk V c 7 t :=
  ((dats V O W₀ 0 c).before_in_eq_fetched 7 rfl (fun _ => rfl) (fun _ _ _ => rfl) (fun t => by rw [after1_7]; unfold Dat.blockOf iblk; rw [A_eq]; try rfl) t d).trans
    (by unfold Dat.fetched Dat.blockOf iblk; rw [A_eq]; try rfl)
/-- Input window 8's current staging buffer holds its block at every point, fetched there or not. -/
theorem before1_8 (c : Dev nD) (t : Fin cfg1.N) (d) : (dats V O W₀ 0 c).before 8 t d = iblk V c 8 t :=
  ((dats V O W₀ 0 c).before_in_eq_fetched 8 rfl (fun _ => rfl) (fun _ _ _ => rfl) (fun t => by rw [after1_8]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg1.N) : sProp 𝕄 :=
  iprop((dats V O W₀ 0 c).Φ t.castSucc ∗ (dats V O W₀ 0 c).owesAt none t.castSucc
    ∗ (∃ d, owns (c.tc : Thread nD τ) (ms1_0 t) fullShare ((dats V O W₀ 0 c).before 0 t d))
    ∗ (∃ d, owns (c.tc : Thread nD τ) (ms1_1 t) fullShare ((dats V O W₀ 0 c).before 1 t d))
    ∗ (∃ d, owns (c.tc : Thread nD τ) (ms1_2 t) fullShare ((dats V O W₀ 0 c).before 2 t d))
    ∗ (∃ d, owns (c.tc : Thread nD τ) (ms1_3 t) fullShare ((dats V O W₀ 0 c).before 3 t d))
    ∗ (∃ d, owns (c.tc : Thread nD τ) (ms1_4 t) fullShare ((dats V O W₀ 0 c).before 4 t d))
    ∗ (∃ d, owns (c.tc : Thread nD τ) (ms1_5 t) fullShare ((dats V O W₀ 0 c).before 5 t d))
    ∗ (∃ d, owns (c.tc : Thread nD τ) (ms1_6 t) fullShare ((dats V O W₀ 0 c).before 6 t d))
    ∗ (∃ d, owns (c.tc : Thread nD τ) (ms1_7 t) fullShare ((dats V O W₀ 0 c).before 7 t d))
    ∗ (∃ d, owns (c.tc : Thread nD τ) (ms1_8 t) fullShare ((dats V O W₀ 0 c).before 8 t d))
    ∗ (∃ d, owns (c.tc : Thread nD τ) (ms1_9 t) fullShare ((dats V O W₀ 0 c).before 9 t d)))

/-- and what it returns. -/
def bodyPost (c : Dev nD) (t : Fin cfg1.N) : sProp 𝕄 :=
  iprop((dats V O W₀ 0 c).Φ t.succ ∗ (dats V O W₀ 0 c).owesAt none t.succ
    ∗ owns (c.tc : Thread nD τ) (ms1_0 t) fullShare ((dats V O W₀ 0 c).after 0 t)
    ∗ owns (c.tc : Thread nD τ) (ms1_1 t) fullShare ((dats V O W₀ 0 c).after 1 t)
    ∗ owns (c.tc : Thread nD τ) (ms1_2 t) fullShare ((dats V O W₀ 0 c).after 2 t)
    ∗ owns (c.tc : Thread nD τ) (ms1_3 t) fullShare ((dats V O W₀ 0 c).after 3 t)
    ∗ owns (c.tc : Thread nD τ) (ms1_4 t) fullShare ((dats V O W₀ 0 c).after 4 t)
    ∗ owns (c.tc : Thread nD τ) (ms1_5 t) fullShare ((dats V O W₀ 0 c).after 5 t)
    ∗ owns (c.tc : Thread nD τ) (ms1_6 t) fullShare ((dats V O W₀ 0 c).after 6 t)
    ∗ owns (c.tc : Thread nD τ) (ms1_7 t) fullShare ((dats V O W₀ 0 c).after 7 t)
    ∗ owns (c.tc : Thread nD τ) (ms1_8 t) fullShare ((dats V O W₀ 0 c).after 8 t)
    ∗ owns (c.tc : Thread nD τ) (ms1_9 t) fullShare ((dats V O W₀ 0 c).after 9 t))

/-- The body at any point: the inputs' buffers hold their blocks, so the run applies; the core's debts pass through
    unread. -/
theorem sound_body (c : Dev nD) (t : Fin cfg1.N) :
    bodyPre V O W₀ c t ⊢ wp frame (wpE (defs₀ (F := F)) 𝒱₀ (c.tc : Thread nD τ) none) Set.univ (bodyAt1 t) (fun _ => bodyPost V O W₀ c t) := by
  unfold bodyPre bodyPost bodyAt1
  simp only [before1_0, before1_1, before1_2, before1_3, before1_4, before1_5, before1_6, before1_7, before1_8]
  rw [show (dats V O W₀ 0 c).Φ t.succ = (dats V O W₀ 0 c).Φ t.castSucc from rfl,
    show (dats V O W₀ 0 c).owesAt none t.succ = (dats V O W₀ 0 c).owesAt none t.castSucc from rfl,
    after1_0, after1_1, after1_2, after1_3, after1_4, after1_5, after1_6, after1_7, after1_8, after1_9]
  unfold outAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((tcRun c (grid1.coords t) _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (cover9 c _ _ _ _ _ _ _ _ _ _ _ _ _ _ _ _ _ _ _ _ _ _ _ _ _ _ _ _ _ _)

/-- The library's body obligation, at every point. -/
theorem body_obligation (c : Dev nD) : BodyObligation (dats (F := F) V O W₀ 0 c) (defs₀ (F := F)) 𝒱₀ (none : HIx 1) Set.univ := fun t => by
  rw [bigSep_W1, bigSep_W1]
  exact sound_body V O W₀ c t

/-! ## The windowed arrays, as points-tos of the buffers behind them -/

/-- The ten windowed arrays' buffers, each whole at the full share, at contents `G`. -/
def arrs (c : Dev nD) (G : (w : Fin cfg1.W) → Buf (Elt F) ((cfg1.win w).arr.view.loc (c.tc : Thread nD τ))) : sProp 𝕄 :=
  bigSep Finset.univ fun w : Fin cfg1.W => (((c.tc : Thread nD τ).loc (Pipeline.arrRef spec1 w)) ↦{fullShare} G w : sProp 𝕄)

/-- One by one. -/
theorem arrs_eq (c : Dev nD) (G : (w : Fin cfg1.W) → Buf (Elt F) ((cfg1.win w).arr.view.loc (c.tc : Thread nD τ))) :
    arrs c G = iprop((((c.tc : Thread nD τ).loc main_v1) ↦{fullShare} G 0) ∗ (((c.tc : Thread nD τ).loc main_v2) ↦{fullShare} G 1) ∗ (((c.tc : Thread nD τ).loc main_v3) ↦{fullShare} G 2) ∗ (((c.tc : Thread nD τ).loc main_v5) ↦{fullShare} G 3) ∗ (((c.tc : Thread nD τ).loc main_v7) ↦{fullShare} G 4) ∗ (((c.tc : Thread nD τ).loc main_v9) ↦{fullShare} G 5) ∗ (((c.tc : Thread nD τ).loc main_v11) ↦{fullShare} G 6) ∗ (((c.tc : Thread nD τ).loc main_v13) ↦{fullShare} G 7) ∗ (((c.tc : Thread nD τ).loc main_arg13) ↦{fullShare} G 8) ∗ (((c.tc : Thread nD τ).loc main_v25) ↦{fullShare} G 9)) := by
  unfold arrs; rw [bigSep_W1]

/-- The pipeline's arrays, held whole at the full share, are those points-tos. -/
theorem arrays_eq' (c : Dev nD) (G : (w : Fin cfg1.W) → Buf (Elt F) ((cfg1.win w).arr.view.loc (c.tc : Thread nD τ))) :
    (dats V O W₀ 0 c).arrays G = arrs c G := by
  unfold Dat.arrays arrs
  exact bigSep_congr fun w _ => by rw [(arr_whole1 w).set_eq_univ, (dats V O W₀ 0 c).share_full (fun _ => rfl) w]

/-! ## The wait evidence -/

/-- The pipeline's waits, at the index no handshake uses, sit below everything the core owes. -/
theorem hwaits (hO : ∀ c g, O c g none = 0) (lv : GSem nD τ sig → HIx 1 → ℕ) (hlv : (K (F := F)).Refines lv) (c : Dev nD) :
    (levAts (K (F := F)).L lv : sProp 𝕄) ⊢ Pipeline.cellsWaits (Pipeline.pin (pcfgs (F := F)) adm) (dats V O W₀) (none : HIx 1) 0 c :=
  Pipeline.cellsWaits_intro _ (dats V O W₀) none 0 c fun w s t => (K (F := F)).mayWait_none (.dma _) (hO c) lv hlv

/-! ## The region -/

set_option backward.isDefEq.respectTransparency.types false in
/-- The region's record: the windows' layout, no semaphore of the kernel's own, the body obligation, the wait evidence;
    entered from the ten arrays at the valuation and the core's debts, left with the arrays at what the write-backs
    made of them and the debts unchanged. -/
def reg (hO : ∀ c g, O c g none = 0) (lv : GSem nD τ sig → HIx 1 → ℕ) (hlv : (K (F := F)).Refines lv) :
    Pipeline.RegionSeg (pcfgs (F := F)) adm (dats V O W₀) (none : HIx 1) defs₀ 𝒱₀ (K (F := F)).L lv 0 where
  win := winFacts1.to₀
  block_pos := block_pos1
  stage_whole := stage_whole1
  K := PEmpty
  osem := fun k => k.elim
  ho := Pipeline.OwnSemFacts.none _
  hbody c := (body_obligation V O W₀ c).loose
  hwaits := hwaits V O W₀ hO lv hlv
  pre c := iprop(arrs c (fun w => V c (Pipeline.arrRef spec1 w)) ∗ owes (c.tc : Thread nD τ) (O c) (W₀ c))
  post c := iprop(arrs c (fun w => (dats V O W₀ 0 c).arrAt w cfg1.N) ∗ (dats V O W₀ 0 c).owesAt none (Fin.last cfg1.N))
  X _ := BI.emp
  Y _ := BI.emp
  Z _ := BI.emp
  hentry c := by
    iintro ⟨⟨Ha, HO⟩, -, -⟩
    imodintro
    isplitl [Ha]
    · iapply (Entails.of_eq (arrays_eq' V O W₀ c _).symm); iexact Ha
    isplitr; · unfold Pipeline.prefHeld; rw [show (Finset.univ : Finset (Fin 0)) = ∅ from rfl, BI.bigSep_empty]; iempintro
    isplitl [HO]
    · unfold Pipeline.Dat.owesAt Pipeline.owesWithin
      iexists (W₀ c); isplitr; · ipureintro; exact fun _ h => Or.inl h
      iexact HO
    isplitl [] <;> iempintro
  hin c := by
    iintro -; iempintro
  hout c := by
    rw [Pipeline.ownSems0_none, scopedRest1_eq]
    iintro -
    isplitl []; · iempintro
    isplitl [] <;> iempintro
  hexit c := by
    iintro ⟨Ha, HO, -, -⟩
    imodintro
    isplitl [Ha]
    · iapply (Entails.of_eq (arrays_eq' V O W₀ c _)); iexact Ha
    iexact HO

end Cert.Kernel.Hand

end
-- ==== Proof.K.TcStepA.lean ====
/-
  The TensorCore kernel's region as one step of the TensorCore's program, under the extended body table: from the
  region boundary, the level facts, the staging cells' launch state and duty tokens, the core's debts and the ten
  windowed arrays at the valuation, the region's call runs to the boundary, the arrays at what the write-backs made of
  them, and the debts unchanged.
-/
import proofs.«206564_g5145370820828_cont_8to1c4_476_13_alg».proof.Proof.K.TcRegion

set_option maxRecDepth 16384

noncomputable section

namespace Cert.Kernel.Hand

open Cert.Kernel Cert.Kernel.Gen

open Idealize.ShloMosaic Idealize.ShloMosaic.TcCoe Idealize.ShloMosaic.Tactic
open Idealize.ShloMosaic.SparseCore (S T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c.tc : Thread nD τ).loc b))
variable (O : Dev nD → CellTallies nD τ sig (HIx 1)) (W₀ : Dev nD → Waits sig (HIx 1))

set_option maxHeartbeats 4000000 in
set_option backward.isDefEq.respectTransparency.types false in
/-- The region's call under the pipeline's own body table. -/
theorem reg_wp (hO : ∀ c g, O c g none = 0) (lv : GSem nD τ sig → HIx 1 → ℕ) (hlv : (K (F := F)).Refines lv)
    (d : Dev nD) (Φ : PUnit → sProp 𝕄) :
    iprop((iprop(boundary (d.tc : Thread nD τ) ∗ (reg V O W₀ hO lv hlv).post d)
            -∗ wp frame (wpE (D (F := F)) 𝒱 (d.tc : Thread nD τ) none) Set.univ (.ret ⟨⟩) Φ)
        ∗ boundary (d.tc : Thread nD τ) ∗ (reg V O W₀ hO lv hlv).pre d ∗ levAts (K (F := F)).L lv
        ∗ Pipeline.cellsGhost (Pipeline.pin (pcfgs (F := F)) adm) ER 0 d ∗ Pipeline.toksInit (Pipeline.pin (pcfgs (F := F)) adm) ER 0 d)
      ⊢ wp frame (wpE (D (F := F)) 𝒱 (d.tc : Thread nD τ) none) Set.univ (.op (.customCall (Pipeline.entry 0) ()) fun _ => .ret ⟨⟩) Φ :=
  Pipeline.RegionSeg.wp (pcfgs (F := F)) adm (dats V O W₀) (none : HIx 1) cellOf_inj ER defs₀ 𝒱₀ (K (F := F)).L lv
    (reg V O W₀ hO lv hlv) d none (fun _ h => absurd h (Option.not_mem_none _)) (fun _ => .ret ⟨⟩) Φ

/-- What the region is entered from, -/
theorem reg_pre (hO : ∀ c g, O c g none = 0) (lv : GSem nD τ sig → HIx 1 → ℕ) (hlv : (K (F := F)).Refines lv) (d : Dev nD) :
    (reg V O W₀ hO lv hlv).pre d = iprop(arrs d (fun w => V d (Pipeline.arrRef spec1 w)) ∗ owes (d.tc : Thread nD τ) (O d) (W₀ d)) := rfl

/-- and what it leaves. -/
theorem reg_post (hO : ∀ c g, O c g none = 0) (lv : GSem nD τ sig → HIx 1 → ℕ) (hlv : (K (F := F)).Refines lv) (d : Dev nD) :
    (reg V O W₀ hO lv hlv).post d = iprop(arrs d (fun w => (dats V O W₀ 0 d).arrAt w cfg1.N) ∗ (dats V O W₀ 0 d).owesAt none (Fin.last cfg1.N)) := rfl

/-- The TensorCore owes nothing at the index no handshake uses. -/
theorem Otc_none (d : Dev nD) (n : ℕ) (g : GSem nD τ sig) : (K (F := F)).Otc d n g none = 0 := by
  by_contra h
  have := (K (F := F)).lev_of_Otc_pos (Nat.pos_of_ne_zero h); rw [(K (F := F)).lev_none] at this; omega

/-- After the region the nine operands are as they were (an input's array is never written), the result array at what
    the write-backs made of it. -/
theorem arrs_final (c : Dev nD) :
    arrs c (fun w => (dats V O W₀ 0 c).arrAt w cfg1.N)
      = iprop((((c.tc : Thread nD τ).loc main_v1) ↦{fullShare} V c main_v1) ∗ (((c.tc : Thread nD τ).loc main_v2) ↦{fullShare} V c main_v2) ∗ (((c.tc : Thread nD τ).loc main_v3) ↦{fullShare} V c main_v3) ∗ (((c.tc : Thread nD τ).loc main_v5) ↦{fullShare} V c main_v5) ∗ (((c.tc : Thread nD τ).loc main_v7) ↦{fullShare} V c main_v7) ∗ (((c.tc : Thread nD τ).loc main_v9) ↦{fullShare} V c main_v9) ∗ (((c.tc : Thread nD τ).loc main_v11) ↦{fullShare} V c main_v11) ∗ (((c.tc : Thread nD τ).loc main_v13) ↦{fullShare} V c main_v13) ∗ (((c.tc : Thread nD τ).loc main_arg13) ↦{fullShare} V c main_arg13)
          ∗ (((c.tc : Thread nD τ).loc main_v25) ↦{fullShare} (dats V O W₀ 0 c).arrAt 9 cfg1.N)) := by
  rw [arrs_eq]
  have h0 : (dats V O W₀ 0 c).arrAt 0 cfg1.N = V c main_v1 := ((dats V O W₀ 0 c).arrAt_in 0 rfl _).trans (A_eq V O W₀ c 0)
  have h1 : (dats V O W₀ 0 c).arrAt 1 cfg1.N = V c main_v2 := ((dats V O W₀ 0 c).arrAt_in 1 rfl _).trans (A_eq V O W₀ c 1)
  have h2 : (dats V O W₀ 0 c).arrAt 2 cfg1.N = V c main_v3 := ((dats V O W₀ 0 c).arrAt_in 2 rfl _).trans (A_eq V O W₀ c 2)
  have h3 : (dats V O W₀ 0 c).arrAt 3 cfg1.N = V c main_v5 := ((dats V O W₀ 0 c).arrAt_in 3 rfl _).trans (A_eq V O W₀ c 3)
  have h4 : (dats V O W₀ 0 c).arrAt 4 cfg1.N = V c main_v7 := ((dats V O W₀ 0 c).arrAt_in 4 rfl _).trans (A_eq V O W₀ c 4)
  have h5 : (dats V O W₀ 0 c).arrAt 5 cfg1.N = V c main_v9 := ((dats V O W₀ 0 c).arrAt_in 5 rfl _).trans (A_eq V O W₀ c 5)
  have h6 : (dats V O W₀ 0 c).arrAt 6 cfg1.N = V c main_v11 := ((dats V O W₀ 0 c).arrAt_in 6 rfl _).trans (A_eq V O W₀ c 6)
  have h7 : (dats V O W₀ 0 c).arrAt 7 cfg1.N = V c main_v13 := ((dats V O W₀ 0 c).arrAt_in 7 rfl _).trans (A_eq V O W₀ c 7)
  have h8 : (dats V O W₀ 0 c).arrAt 8 cfg1.N = V c main_arg13 := ((dats V O W₀ 0 c).arrAt_in 8 rfl _).trans (A_eq V O W₀ c 8)
  rw [h0, h1, h2, h3, h4, h5, h6, h7, h8]

end Cert.Kernel.Hand

end
-- ==== Proof.K.TcStep.lean ====
/-
  The TensorCore kernel's region as one step of the TensorCore's program under the extended body table: the call in the
  extended signature is the pipeline's call lifted; from the region boundary, the level facts, the staging cells'
  launch state and duty tokens, the core's debts and the ten windowed arrays at the valuation, it runs to the
  boundary, the nine operands as they were, the result array at what the write-backs made of it, the debts unchanged
  and every newly recorded wait at the level below all handshakes.
-/
import proofs.«206564_g5145370820828_cont_8to1c4_476_13_alg».proof.Proof.K.TcStepA
import proofs.«206564_g5145370820828_cont_8to1c4_476_13_alg».proof.Proof.K.RegionSpec

set_option maxRecDepth 16384

noncomputable section

namespace Cert.Kernel.Hand

open Cert.Kernel Cert.Kernel.Gen

open Idealize.ShloMosaic Idealize.ShloMosaic.TcCoe Idealize.ShloMosaic.Tactic
open Idealize.ShloMosaic.SparseCore (S T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c.tc : Thread nD τ).loc b))
variable (O : Dev nD → CellTallies nD τ sig (HIx 1)) (W₀ : Dev nD → Waits sig (HIx 1))

/-- The region's call in the extended signature is the call in the pipeline's, lifted. -/
theorem lift_eq :
    (Prog.lift (.customCall (SparseCore.inner (Pipeline.entry 0)) ()) : Prog (TpuEff nD τ sig (Elt F) (SparseCore.Sig (ΛP (F := F)) 1) .tc) PUnit)
      = SparseCore.liftProg (.op (.customCall (Pipeline.entry 0) ()) fun _ => .ret ⟨⟩) := rfl

/-- A proof of the call under the pipeline's body table is one under the extended table. -/
theorem tc_lift (d : Dev nD) (Φ : PUnit → sProp 𝕄) :
    wp frame (wpE (D (F := F)) 𝒱 (d.tc : Thread nD τ) none) Set.univ (.op (.customCall (Pipeline.entry 0) ()) fun _ => .ret ⟨⟩) Φ
      ⊢ wp frame (wpE ((K (F := F)).defs D) 𝒱 (T d : Thread nD τ) none) Set.univ
          (Prog.lift (.customCall (SparseCore.inner (Pipeline.entry 0)) ())) Φ := by
  rw [lift_eq]
  exact (K (F := F)).wp_liftProg D 𝒱 (T d) Set.univ none _ Φ

/-- The pipelines at their one admissible contents are the printed configurations. -/
theorem pin_eq : Pipeline.pin (pcfgs (F := F)) adm = cfgs := rfl

set_option maxHeartbeats 1000000 in
/-- The region's call under the extended body table: from the region boundary, the level facts, the staging cells'
    launch state and duty tokens, the core's debts and the ten windowed arrays at the valuation, it runs to the boundary,
    the arrays at what the write-backs made of them, and the debts unchanged, the recorded pairs grown by the
    pipeline's own waits at most. -/
theorem tc_region_gen (hO : ∀ c g, O c g none = 0) (lv : GSem nD τ sig → HIx 1 → ℕ) (hlv : (K (F := F)).Refines lv)
    (d : Dev nD) (Φ : PUnit → sProp 𝕄) :
    iprop(boundary (T d : Thread nD τ) ∗ levAts (K (F := F)).L lv ∗ Pipeline.cellsGhost cfgs ER 0 d ∗ Pipeline.toksInit cfgs ER 0 d
        ∗ owes (T d : Thread nD τ) (O d) (W₀ d) ∗ arrs d (fun w => V d (Pipeline.arrRef spec1 w))
        ∗ (iprop(boundary (T d : Thread nD τ) ∗ arrs d (fun w => (dats V O W₀ 0 d).arrAt w cfg1.N)
            ∗ (dats V O W₀ 0 d).owesAt none (Fin.last cfg1.N)) -∗ Φ ⟨⟩))
      ⊢ wp frame (wpE ((K (F := F)).defs D) 𝒱 (T d : Thread nD τ) none) Set.univ
          (Prog.lift (.customCall (SparseCore.inner (Pipeline.entry 0)) ())) Φ := by
  refine .trans ?_ (tc_lift d Φ)
  have h := reg_wp V O W₀ hO lv hlv d Φ
  rw [reg_pre, reg_post, pin_eq] at h
  refine .trans ?_ h
  iintro ⟨Hb, Hl, Hg, Ht, HO, Ha, Hk⟩
  isplitl [Hk]
  · iintro ⟨Hb, Ha, HO⟩
    rw [wp_ret]; imodintro
    iapply Hk
    isplitl [Hb]; · iexact Hb
    isplitl [Ha]; · iexact Ha
    iexact HO
  isplitl [Hb]; · iexact Hb
  isplitl [Ha HO]
  · isplitl [Ha]; · iexact Ha
    iexact HO
  isplitl [Hl]; · iexact Hl
  isplitl [Hg]; · iexact Hg
  iexact Ht

set_option maxHeartbeats 1000000 in
/-- The region's run as the TensorCore's program uses it, the result array's contents not stated. -/
theorem tc_region_frame : RegionFrameSpec (F := F) := by
  intro d n W Φ
  iintro ⟨Hb, Hl, ⟨Hg, Ht⟩, ⟨%Wt, %hWt, HO⟩, ⟨H1, H2, H3, H4, H5, H6, H7, H8, H9⟩, H25, Hk⟩
  iapply (tc_region_gen (fun _ b => W (dr b)) (fun c => (K (F := F)).Otc c n) (fun _ => Wt) (fun c g => Otc_none c n g)
    (K (F := F)).lev (K (F := F)).refines_self d Φ)
  isplitl [Hb]; · iexact Hb
  isplitl [Hl]; · iexact Hl
  isplitl [Hg]; · iexact Hg
  isplitl [Ht]; · iexact Ht
  isplitl [HO]; · iexact HO
  isplitl [H1 H2 H3 H4 H5 H6 H7 H8 H9 H25]
  · rw [arrs_eq]
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H25
  iintro ⟨Hb, Ha, HO⟩
  ihave Ha' := (Entails.of_eq (arrs_final (fun _ b => W (dr b)) (fun c => (K (F := F)).Otc c n) (fun _ => Wt) d)) $$ Ha
  icases Ha' with ⟨H1, H2, H3, H4, H5, H6, H7, H8, H9, H25⟩
  icases HO with ⟨%W', %hW', HO⟩
  iapply Hk
  isplitl [Hb]; · iexact Hb
  isplitl [HO]
  · iexists W'; isplitr
    · ipureintro; intro p hp
      rcases hW' (Finset.mem_coe.mpr hp) with h | ⟨w, s, rfl⟩
      · exact hWt p (Finset.mem_coe.mp h)
      · rw [(K (F := F)).lev_none]; exact Nat.zero_le _
    iexact HO
  isplitl [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iexists _; iexact H25

end Cert.Kernel.Hand

end
-- ==== Proof.K.TcValA.lean ====
/-
  What the TensorCore kernel's body leaves in its output block, element by element: what a window's staging buffer
  holds is its array's block at the point's coordinates; the body's twenty-one stores, one channel each, read at an
  index, are the block's function of the input blocks — a table entry selected by the cell's tile type, the batch
  entry's step count or parameter, or the cell's value in one of the first five grids —; and that function is the
  kernels' function of the arrays at the element's place.
-/
import proofs.«206564_g5145370820828_cont_8to1c4_476_13_alg».proof.Proof.K.TcStep
import proofs.«206564_g5145370820828_cont_8to1c4_476_13_alg».proof.Proof.Spec

set_option maxRecDepth 16384

noncomputable section

namespace Cert.Kernel.Hand

open Cert.Kernel Cert.Kernel.Gen

open Idealize.ShloMosaic Idealize.ShloMosaic.TcCoe Idealize.ShloMosaic.Tactic
open Idealize.ShloMosaic.SparseCore (S T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.ValueIdx

variable (V : (c : Dev nD) → (b : Ref sig .tc) → Buf (Elt F) ((c.tc : Thread nD τ).loc b))
variable (O : Dev nD → CellTallies nD τ sig (HIx 1)) (W₀ : Dev nD → Waits sig (HIx 1))

/-! ## Reading a loaded vector at an index -/

/-- A load through a whole staging buffer held at contents `x` reads `x` at the box's element. -/
theorem readAt_unread {sp : Space} {S : Shape} {e : EltTy} (m : Memref sig .tc sp S e) (hm : m.IsWhole) (x : S.Idx → Elt F e)
    (R : LoadRect S) (y : R.shape.Idx) : View.readAt (Elt F) m.view R (hm.unread x) y = x (R.idx y) := by
  rw [View.readAt_apply, hm.read_unread]

/-- A 24 × 1024 vector stored as a 1 × 1 × 24 × 1024 slab reads its own element. -/
theorem slab_apply {α : Type} (v : S24x1024.Idx → α) (h : S24x1024.ShapeCasts S1x1x24x1024) (x : S1x1x24x1024.Idx) :
    shapeCast S1x1x24x1024 v h x = v (ix2 (x 2) (x 3)) := by
  refine shapeCast_apply v h x (ix2 (x 2) (x 3)) ?_
  rw [Shape.rowMajor_val_two, Shape.rowMajor_val_four]
  have h0 : (x 0).val = 0 := by have := (x 0).isLt; simp at this; omega
  have h1 : (x 1).val = 0 := by have := (x 1).isLt; simp at this; omega
  show (x 2).val * 1024 + (x 3).val = (((x 0).val * 1 + (x 1).val) * 24 + (x 2).val) * 1024 + (x 3).val
  rw [h0, h1]; omega

/-- A row of 1024 broadcast over 24 rows reads the row's element. -/
theorem bcast_apply {α : Type} (v : S1x1024.Idx → α) (h : S1x1024.Broadcasts S24x1024) (y : S24x1024.Idx) :
    broadcastTo S24x1024 v h y = v (ix2 0 (y 1)) := by
  refine broadcastTo_apply v h y (ix2 0 (y 1)) fun a => ?_
  match a with
  | ⟨0, _⟩ => rfl
  | ⟨1, _⟩ => rfl

/-! ## The windows' block indices -/

theorem idx1_0 : ∀ t : Fin grid1.N, win1_0.index t 0 = (grid1.coords t 0).val ∧ win1_0.index t 1 = (grid1.coords t 1).val := by decide +kernel
theorem idx1_3 : ∀ t : Fin grid1.N, win1_3.index t 0 = (grid1.coords t 0).val ∧ win1_3.index t 1 = (grid1.coords t 1).val := by decide +kernel
theorem idx1_4 : ∀ t : Fin grid1.N, win1_4.index t 0 = (grid1.coords t 0).val ∧ win1_4.index t 1 = (grid1.coords t 1).val := by decide +kernel
theorem idx1_5 : ∀ t : Fin grid1.N, win1_5.index t 0 = (grid1.coords t 0).val ∧ win1_5.index t 1 = (grid1.coords t 1).val := by decide +kernel
theorem idx1_6 : ∀ t : Fin grid1.N, win1_6.index t 0 = (grid1.coords t 0).val ∧ win1_6.index t 1 = (grid1.coords t 1).val := by decide +kernel
theorem idx1_7 : ∀ t : Fin grid1.N, win1_7.index t 0 = (grid1.coords t 0).val ∧ win1_7.index t 1 = (grid1.coords t 1).val := by decide +kernel
theorem idx1_1 : ∀ t : Fin grid1.N, win1_1.index t 0 = 0 ∧ win1_1.index t 1 = (grid1.coords t 1).val := by decide +kernel
theorem idx1_2 : ∀ t : Fin grid1.N, win1_2.index t 0 = 0 ∧ win1_2.index t 1 = (grid1.coords t 1).val := by decide +kernel
theorem idx1_8 : ∀ t : Fin grid1.N, win1_8.index t 0 = 0 ∧ win1_8.index t 1 = 0 := by decide +kernel
theorem idx1_9 : ∀ t : Fin grid1.N, win1_9.index t 0 = (grid1.coords t 0).val ∧ win1_9.index t 1 = 0 ∧ win1_9.index t 2 = 0 ∧ win1_9.index t 3 = (grid1.coords t 1).val := by decide +kernel
/-- No block of the result's window is cut. -/
theorem xsize1_9 : ∀ (t : Fin grid1.N) (a : Fin 4), win1_9.xsize (grid1.coords t) a = S1x21x24x1024.size a := by decide +kernel

/-- The batch entry of a block's element. -/
abbrev bat (t : Fin cfg1.N) (b : Fin 1024) : Fin 4096 :=
  ⟨(grid1.coords t 1).val * 1024 + b.val, by have h1 : (grid1.coords t 1).val < 4 := (grid1.coords t 1).isLt; have := b.isLt; omega⟩

/-! ## The inputs' blocks, read at an index -/

theorem iblk0_apply (c : Dev nD) (t : Fin cfg1.N) (y : S24x1024.Idx) :
    (iblk V c 0 t : Vec F S24x1024 .i32) y = V c main_v1 (ix2 (Cert.Spec.hw (grid1.coords t 0) (y 0)) (bat t (y 1))) := by
  unfold iblk
  rw [View.read_apply]
  show V c main_v1 _ = V c main_v1 _
  congr 1
  funext a
  apply Fin.ext
  match a with
  | ⟨0, _⟩ => show win1_0.index t 0 * 24 + 1 * (y 0).val = (grid1.coords t 0).val * 24 + (y 0).val; rw [(idx1_0 t).1]; omega
  | ⟨1, _⟩ => show win1_0.index t 1 * 1024 + 1 * (y 1).val = (grid1.coords t 1).val * 1024 + (y 1).val; rw [(idx1_0 t).2]; omega
theorem iblk3_apply (c : Dev nD) (t : Fin cfg1.N) (y : S24x1024.Idx) :
    (iblk V c 3 t : Vec F S24x1024 .f32) y = V c main_v5 (ix2 (Cert.Spec.hw (grid1.coords t 0) (y 0)) (bat t (y 1))) := by
  unfold iblk
  rw [View.read_apply]
  show V c main_v5 _ = V c main_v5 _
  congr 1
  funext a
  apply Fin.ext
  match a with
  | ⟨0, _⟩ => show win1_3.index t 0 * 24 + 1 * (y 0).val = (grid1.coords t 0).val * 24 + (y 0).val; rw [(idx1_3 t).1]; omega
  | ⟨1, _⟩ => show win1_3.index t 1 * 1024 + 1 * (y 1).val = (grid1.coords t 1).val * 1024 + (y 1).val; rw [(idx1_3 t).2]; omega
theorem iblk4_apply (c : Dev nD) (t : Fin cfg1.N) (y : S24x1024.Idx) :
    (iblk V c 4 t : Vec F S24x1024 .f32) y = V c main_v7 (ix2 (Cert.Spec.hw (grid1.coords t 0) (y 0)) (bat t (y 1))) := by
  unfold iblk
  rw [View.read_apply]
  show V c main_v7 _ = V c main_v7 _
  congr 1
  funext a
  apply Fin.ext
  match a with
  | ⟨0, _⟩ => show win1_4.index t 0 * 24 + 1 * (y 0).val = (grid1.coords t 0).val * 24 + (y 0).val; rw [(idx1_4 t).1]; omega
  | ⟨1, _⟩ => show win1_4.index t 1 * 1024 + 1 * (y 1).val = (grid1.coords t 1).val * 1024 + (y 1).val; rw [(idx1_4 t).2]; omega
theorem iblk5_apply (c : Dev nD) (t : Fin cfg1.N) (y : S24x1024.Idx) :
    (iblk V c 5 t : Vec F S24x1024 .f32) y = V c main_v9 (ix2 (Cert.Spec.hw (grid1.coords t 0) (y 0)) (bat t (y 1))) := by
  unfold iblk
  rw [View.read_apply]
  show V c main_v9 _ = V c main_v9 _
  congr 1
  funext a
  apply Fin.ext
  match a with
  | ⟨0, _⟩ => show win1_5.index t 0 * 24 + 1 * (y 0).val = (grid1.coords t 0).val * 24 + (y 0).val; rw [(idx1_5 t).1]; omega
  | ⟨1, _⟩ => show win1_5.index t 1 * 1024 + 1 * (y 1).val = (grid1.coords t 1).val * 1024 + (y 1).val; rw [(idx1_5 t).2]; omega
theorem iblk6_apply (c : Dev nD) (t : Fin cfg1.N) (y : S24x1024.Idx) :
    (iblk V c 6 t : Vec F S24x1024 .f32) y = V c main_v11 (ix2 (Cert.Spec.hw (grid1.coords t 0) (y 0)) (bat t (y 1))) := by
  unfold iblk
  rw [View.read_apply]
  show V c main_v11 _ = V c main_v11 _
  congr 1
  funext a
  apply Fin.ext
  match a with
  | ⟨0, _⟩ => show win1_6.index t 0 * 24 + 1 * (y 0).val = (grid1.coords t 0).val * 24 + (y 0).val; rw [(idx1_6 t).1]; omega
  | ⟨1, _⟩ => show win1_6.index t 1 * 1024 + 1 * (y 1).val = (grid1.coords t 1).val * 1024 + (y 1).val; rw [(idx1_6 t).2]; omega
theorem iblk7_apply (c : Dev nD) (t : Fin cfg1.N) (y : S24x1024.Idx) :
    (iblk V c 7 t : Vec F S24x1024 .f32) y = V c main_v13 (ix2 (Cert.Spec.hw (grid1.coords t 0) (y 0)) (bat t (y 1))) := by
  unfold iblk
  rw [View.read_apply]
  show V c main_v13 _ = V c main_v13 _
  congr 1
  funext a
  apply Fin.ext
  match a with
  | ⟨0, _⟩ => show win1_7.index t 0 * 24 + 1 * (y 0).val = (grid1.coords t 0).val * 24 + (y 0).val; rw [(idx1_7 t).1]; omega
  | ⟨1, _⟩ => show win1_7.index t 1 * 1024 + 1 * (y 1).val = (grid1.coords t 1).val * 1024 + (y 1).val; rw [(idx1_7 t).2]; omega
theorem iblk1_apply (c : Dev nD) (t : Fin cfg1.N) (y : S1x1024.Idx) :
    (iblk V c 1 t : Vec F S1x1024 .f32) y = V c main_v2 (ix2 0 (bat t (y 1))) := by
  unfold iblk
  rw [View.read_apply]
  show V c main_v2 _ = V c main_v2 _
  congr 1
  funext a
  apply Fin.ext
  match a with
  | ⟨0, _⟩ => show win1_1.index t 0 * 1 + 1 * (y 0).val = 0; rw [(idx1_1 t).1]; have := (y 0).isLt; simp at this; omega
  | ⟨1, _⟩ => show win1_1.index t 1 * 1024 + 1 * (y 1).val = (grid1.coords t 1).val * 1024 + (y 1).val; rw [(idx1_1 t).2]; omega
theorem iblk2_apply (c : Dev nD) (t : Fin cfg1.N) (y : S10x1024.Idx) :
    (iblk V c 2 t : Vec F S10x1024 .f32) y = V c main_v3 (ix2 (y 0) (bat t (y 1))) := by
  unfold iblk
  rw [View.read_apply]
  show V c main_v3 _ = V c main_v3 _
  congr 1
  funext a
  apply Fin.ext
  match a with
  | ⟨0, _⟩ => show win1_2.index t 0 * 10 + 1 * (y 0).val = (y 0).val; rw [(idx1_2 t).1]; omega
  | ⟨1, _⟩ => show win1_2.index t 1 * 1024 + 1 * (y 1).val = (grid1.coords t 1).val * 1024 + (y 1).val; rw [(idx1_2 t).2]; omega
theorem iblk8_apply (c : Dev nD) (t : Fin cfg1.N) (y : S4x5.Idx) :
    (iblk V c 8 t : Vec F S4x5 .f32) y = V c main_arg13 y := by
  unfold iblk
  rw [View.read_apply]
  show V c main_arg13 _ = V c main_arg13 _
  congr 1
  funext a
  apply Fin.ext
  match a with
  | ⟨0, _⟩ => show win1_8.index t 0 * 4 + 1 * (y 0).val = (y 0).val; rw [(idx1_8 t).1]; omega
  | ⟨1, _⟩ => show win1_8.index t 1 * 5 + 1 * (y 1).val = (y 1).val; rw [(idx1_8 t).2]; omega

/-! ## The body's stores, read at an index -/

/-- What the body leaves in the output block, from the input blocks: channels 0 … 4 the table entry the tile type
    selects, channel 5 the step count, channels 6 … 15 the parameters, channels 16 … 20 the five grids. -/
def blkSpec (x0 : Vec F S24x1024 .i32) (x1 : Vec F S1x1024 .f32) (x2 : Vec F S10x1024 .f32) (x3 x4 x5 x6 x7 : Vec F S24x1024 .f32) (x8 : Vec F S4x5 .f32) : S1x21x24x1024.Idx → Elt F .f32 := fun z =>
  if h5 : (z 1).val < 5 then Cert.Spec.pick x8 ⟨(z 1).val, h5⟩ (x0 (ix2 (z 2) (z 3)))
  else if (z 1).val = 5 then x1 (ix2 0 (z 3))
  else if h16 : (z 1).val < 16 then x2 (ix2 ⟨(z 1).val - 6, by omega⟩ (z 3))
  else if (z 1).val = 16 then x3 (ix2 (z 2) (z 3))
  else if (z 1).val = 17 then x4 (ix2 (z 2) (z 3))
  else if (z 1).val = 18 then x5 (ix2 (z 2) (z 3))
  else if (z 1).val = 19 then x6 (ix2 (z 2) (z 3))
  else x7 (ix2 (z 2) (z 3))

/-- The element of the output block under an element of the one-channel slab at channel `k`. -/
theorem emb_slab (k : Nat) (inb : ∀ a, (![0, k, 0, 0] : Fin 4 → Nat) a + S1x1x24x1024.size a ≤ S1x21x24x1024.size a)
    (x : S1x1x24x1024.Idx) :
    ((Rect.unit (s := S1x21x24x1024) ![0, k, 0, 0] S1x1x24x1024.size inb).emb x 1).val = k
      ∧ (Rect.unit (s := S1x21x24x1024) ![0, k, 0, 0] S1x1x24x1024.size inb).emb x 2 = x 2
      ∧ (Rect.unit (s := S1x21x24x1024) ![0, k, 0, 0] S1x1x24x1024.size inb).emb x 3 = x 3 := by
  have h1 : (x 1).val = 0 := by have := (x 1).isLt; simp at this; omega
  refine ⟨?_, Fin.ext ?_, Fin.ext ?_⟩
  · rw [Rect.emb_apply]; show k + 1 * (x 1).val = k; rw [h1]; omega
  · rw [Rect.emb_apply]; show 0 + 1 * (x 2).val = (x 2).val; omega
  · rw [Rect.emb_apply]; show 0 + 1 * (x 3).val = (x 3).val; omega

/-- A grid's channel: the block loaded whole and stored as a slab. -/
theorem pay_grid (m : Memref sig .tc .vmem S24x1024 .f32) (hm : m.IsWhole) (xg : Vec F S24x1024 .f32)
    (inb0 : ∀ a, (![0, 0] : Fin 2 → Nat) a + S24x1024.size a ≤ S24x1024.size a)
    (h1 : S24x1024.ShapeCasts S24x1024) (h2 : S24x1024.ShapeCasts S1x1x24x1024) (x : S1x1x24x1024.Idx) :
    shapeCast S1x1x24x1024 (shapeCast S24x1024 (View.readAt (Elt F) m.view (Rect.unit ![0, 0] S24x1024.size inb0).toLoadRect (hm.unread xg)) h1) h2 x
      = xg (ix2 (x 2) (x 3)) := by
  refine (slab_apply _ h2 x).trans ?_
  refine (congrFun (shapeCast_self _ h1) _).trans ?_
  refine (readAt_unread m hm xg _ _).trans ?_
  congr 1
  funext a
  apply Fin.ext
  match a with
  | ⟨0, _⟩ => show 0 + 1 * (x 2).val = (x 2).val; omega
  | ⟨1, _⟩ => show 0 + 1 * (x 3).val = (x 3).val; omega

/-- A parameter's channel: one row of the parameters' block, broadcast over the columns. -/
theorem pay_par (m : Memref sig .tc .vmem S10x1024 .f32) (hm : m.IsWhole) (xp : Vec F S10x1024 .f32) (r : Nat) (hr : r < 10)
    (inb : ∀ a, (![r, 0] : Fin 2 → Nat) a + S1x1024.size a ≤ S10x1024.size a)
    (h1 h1' : S1x1024.ShapeCasts S1x1024) (hb : S1x1024.Broadcasts S24x1024) (h2 : S24x1024.ShapeCasts S1x1x24x1024) (x : S1x1x24x1024.Idx) :
    shapeCast S1x1x24x1024 (broadcastTo S24x1024 (shapeCast S1x1024 (shapeCast S1x1024
        (View.readAt (Elt F) m.view (Rect.unit (s := S10x1024) ![r, 0] S1x1024.size inb).toLoadRect (hm.unread xp)) h1) h1') hb) h2 x
      = xp (ix2 ⟨r, hr⟩ (x 3)) := by
  refine (slab_apply _ h2 x).trans ?_
  refine (bcast_apply _ hb _).trans ?_
  refine (congrFun (shapeCast_self _ h1') _).trans ?_
  refine (congrFun (shapeCast_self _ h1) _).trans ?_
  refine (readAt_unread m hm xp _ _).trans ?_
  congr 1
  funext a
  apply Fin.ext
  match a with
  | ⟨0, _⟩ => show r + 1 * 0 = r; omega
  | ⟨1, _⟩ => show 0 + 1 * (x 3).val = (x 3).val; omega

/-- The step count's channel: the one row of its block, broadcast over the columns. -/
theorem pay_step (m : Memref sig .tc .vmem S1x1024 .f32) (hm : m.IsWhole) (xs : Vec F S1x1024 .f32)
    (inb : ∀ a, (![0, 0] : Fin 2 → Nat) a + S1x1024.size a ≤ S1x1024.size a)
    (h1 h1' : S1x1024.ShapeCasts S1x1024) (hb : S1x1024.Broadcasts S24x1024) (h2 : S24x1024.ShapeCasts S1x1x24x1024) (x : S1x1x24x1024.Idx) :
    shapeCast S1x1x24x1024 (broadcastTo S24x1024 (shapeCast S1x1024 (shapeCast S1x1024
        (View.readAt (Elt F) m.view (Rect.unit ![0, 0] S1x1024.size inb).toLoadRect (hm.unread xs)) h1) h1') hb) h2 x
      = xs (ix2 0 (x 3)) := by
  refine (slab_apply _ h2 x).trans ?_
  refine (bcast_apply _ hb _).trans ?_
  refine (congrFun (shapeCast_self _ h1') _).trans ?_
  refine (congrFun (shapeCast_self _ h1) _).trans ?_
  refine (readAt_unread m hm xs _ _).trans ?_
  congr 1
  funext a
  apply Fin.ext
  match a with
  | ⟨0, _⟩ => show 0 + 1 * 0 = 0; omega
  | ⟨1, _⟩ => show 0 + 1 * (x 3).val = (x 3).val; omega

/-- A table word: the block's entry. -/
theorem pay_word (m : Memref sig .tc .smem S4x5 .f32) (hm : m.IsWhole) (xt : Vec F S4x5 .f32) (r k : Nat) (hr : r < 4) (hk : k < 5)
    (inb : ∀ a, (![r, k] : Fin 2 → Nat) a + S1x1.size a ≤ S4x5.size a) (hp : 0 < S1x1.numel) :
    View.readAt (Elt F) m.view (Rect.unit (s := S4x5) ![r, k] S1x1.size inb).toLoadRect (hm.unread xt) (Shape.Idx.first hp) = xt (ix2 ⟨r, hr⟩ ⟨k, hk⟩) := by
  refine (readAt_unread m hm xt _ _).trans ?_
  congr 1
  funext a
  apply Fin.ext
  match a with
  | ⟨0, _⟩ => show r + 1 * 0 = r; omega
  | ⟨1, _⟩ => show k + 1 * 0 = k; omega

/-- The two-level selection on a tile type, as the comparisons decide it. -/
theorem sel_scalar {α : Type} (t : BitVec 32) (s0 s1 s2 s3 : α) :
    Scalar.select (IntOp.cmpi CmpIPredicate.slt t 2#32) (Scalar.select (IntOp.cmpi CmpIPredicate.eq t 0#32) s0 s1) (Scalar.select (IntOp.cmpi CmpIPredicate.eq t 2#32) s2 s3)
      = (if t.slt 2#32 then (if t = 0#32 then s0 else s1) else (if t = 2#32 then s2 else s3)) := by
  have e0 : (t == 0#32) = decide (t = 0#32) := by by_cases h : t = 0#32 <;> simp [h]
  have e2 : (t == 2#32) = decide (t = 2#32) := by by_cases h : t = 2#32 <;> simp [h]
  unfold Scalar.select IntOp.cmpi
  simp only [e0, e2]
  by_cases ha : t.slt 2#32 = true <;> by_cases hb : t = 0#32 <;> by_cases hc : t = 2#32 <;> simp [ha, hb, hc, BitVec.ofBool]

/-- A table channel: per cell, the word the tile type selects, two comparisons deep. -/
theorem pay_tbl (m : Memref sig .tc .vmem S24x1024 .i32) (hm : m.IsWhole) (xt : Vec F S24x1024 .i32)
    (inb0 : ∀ a, (![0, 0] : Fin 2 → Nat) a + S24x1024.size a ≤ S24x1024.size a) (h1 : S24x1024.ShapeCasts S24x1024)
    (s0 s1 s2 s3 : Elt F .f32) (h2 : S24x1024.ShapeCasts S1x1x24x1024) (x : S1x1x24x1024.Idx) :
    shapeCast S1x1x24x1024
        (select (cmpi CmpIPredicate.slt (shapeCast S24x1024 (View.readAt (Elt F) m.view (Rect.unit ![0, 0] S24x1024.size inb0).toLoadRect (hm.unread xt)) h1) (broadcast S24x1024 2#32))
          (select (cmpi CmpIPredicate.eq (shapeCast S24x1024 (View.readAt (Elt F) m.view (Rect.unit ![0, 0] S24x1024.size inb0).toLoadRect (hm.unread xt)) h1) (broadcast S24x1024 0#32))
            (broadcast S24x1024 s0) (broadcast S24x1024 s1))
          (select (cmpi CmpIPredicate.eq (shapeCast S24x1024 (View.readAt (Elt F) m.view (Rect.unit ![0, 0] S24x1024.size inb0).toLoadRect (hm.unread xt)) h1) (broadcast S24x1024 2#32))
            (broadcast S24x1024 s2) (broadcast S24x1024 s3))) h2 x
      = (if (xt (ix2 (x 2) (x 3))).slt 2#32 then (if xt (ix2 (x 2) (x 3)) = 0#32 then s0 else s1)
          else (if xt (ix2 (x 2) (x 3)) = 2#32 then s2 else s3)) := by
  have hT : shapeCast S24x1024 (View.readAt (Elt F) m.view (Rect.unit ![0, 0] S24x1024.size inb0).toLoadRect (hm.unread xt)) h1 (ix2 (x 2) (x 3)) = xt (ix2 (x 2) (x 3)) := by
    refine (congrFun (shapeCast_self _ h1) _).trans ?_
    refine (readAt_unread m hm xt _ _).trans ?_
    congr 1
    funext a
    apply Fin.ext
    match a with
    | ⟨0, _⟩ => show 0 + 1 * (x 2).val = (x 2).val; omega
    | ⟨1, _⟩ => show 0 + 1 * (x 3).val = (x 3).val; omega
  simp only [slab_apply, select_apply, cmpi, broadcast_apply, hT]
  exact sel_scalar _ s0 s1 s2 s3

/-! ### The block's function, channel by channel -/

theorem blkSpec_tbl (x0 : Vec F S24x1024 .i32) (x1 : Vec F S1x1024 .f32) (x2 : Vec F S10x1024 .f32) (x3 x4 x5 x6 x7 : Vec F S24x1024 .f32) (x8 : Vec F S4x5 .f32) (z : S1x21x24x1024.Idx) (k : Nat) (hk : k < 5) (h : (z 1).val = k) :
    blkSpec x0 x1 x2 x3 x4 x5 x6 x7 x8 z = Cert.Spec.pick x8 ⟨k, hk⟩ (x0 (ix2 (z 2) (z 3))) := by
  subst h; unfold blkSpec; rw [dif_pos hk]
theorem blkSpec_step (x0 : Vec F S24x1024 .i32) (x1 : Vec F S1x1024 .f32) (x2 : Vec F S10x1024 .f32) (x3 x4 x5 x6 x7 : Vec F S24x1024 .f32) (x8 : Vec F S4x5 .f32) (z : S1x21x24x1024.Idx) (h : (z 1).val = 5) :
    blkSpec x0 x1 x2 x3 x4 x5 x6 x7 x8 z = x1 (ix2 0 (z 3)) := by
  unfold blkSpec; rw [dif_neg (by omega), if_pos h]
theorem blkSpec_par (x0 : Vec F S24x1024 .i32) (x1 : Vec F S1x1024 .f32) (x2 : Vec F S10x1024 .f32) (x3 x4 x5 x6 x7 : Vec F S24x1024 .f32) (x8 : Vec F S4x5 .f32) (z : S1x21x24x1024.Idx) (r : Nat) (hr : r < 10) (h : (z 1).val = r + 6) :
    blkSpec x0 x1 x2 x3 x4 x5 x6 x7 x8 z = x2 (ix2 ⟨r, hr⟩ (z 3)) := by
  unfold blkSpec; rw [dif_neg (by omega), if_neg (by omega), dif_pos (by omega)]
  congr 2; exact Fin.ext (by show (z 1).val - 6 = r; omega)
theorem blkSpec_g16 (x0 : Vec F S24x1024 .i32) (x1 : Vec F S1x1024 .f32) (x2 : Vec F S10x1024 .f32) (x3 x4 x5 x6 x7 : Vec F S24x1024 .f32) (x8 : Vec F S4x5 .f32) (z : S1x21x24x1024.Idx) (h : (z 1).val = 16) : blkSpec x0 x1 x2 x3 x4 x5 x6 x7 x8 z = x3 (ix2 (z 2) (z 3)) := by
  unfold blkSpec; rw [dif_neg (by omega), if_neg (by omega), dif_neg (by omega), if_pos h]
theorem blkSpec_g17 (x0 : Vec F S24x1024 .i32) (x1 : Vec F S1x1024 .f32) (x2 : Vec F S10x1024 .f32) (x3 x4 x5 x6 x7 : Vec F S24x1024 .f32) (x8 : Vec F S4x5 .f32) (z : S1x21x24x1024.Idx) (h : (z 1).val = 17) : blkSpec x0 x1 x2 x3 x4 x5 x6 x7 x8 z = x4 (ix2 (z 2) (z 3)) := by
  unfold blkSpec; rw [dif_neg (by omega), if_neg (by omega), dif_neg (by omega), if_neg (by omega), if_pos h]
theorem blkSpec_g18 (x0 : Vec F S24x1024 .i32) (x1 : Vec F S1x1024 .f32) (x2 : Vec F S10x1024 .f32) (x3 x4 x5 x6 x7 : Vec F S24x1024 .f32) (x8 : Vec F S4x5 .f32) (z : S1x21x24x1024.Idx) (h : (z 1).val = 18) : blkSpec x0 x1 x2 x3 x4 x5 x6 x7 x8 z = x5 (ix2 (z 2) (z 3)) := by
  unfold blkSpec; rw [dif_neg (by omega), if_neg (by omega), dif_neg (by omega), if_neg (by omega), if_neg (by omega), if_pos h]
theorem blkSpec_g19 (x0 : Vec F S24x1024 .i32) (x1 : Vec F S1x1024 .f32) (x2 : Vec F S10x1024 .f32) (x3 x4 x5 x6 x7 : Vec F S24x1024 .f32) (x8 : Vec F S4x5 .f32) (z : S1x21x24x1024.Idx) (h : (z 1).val = 19) : blkSpec x0 x1 x2 x3 x4 x5 x6 x7 x8 z = x6 (ix2 (z 2) (z 3)) := by
  unfold blkSpec; rw [dif_neg (by omega), if_neg (by omega), dif_neg (by omega), if_neg (by omega), if_neg (by omega), if_neg (by omega), if_pos h]
theorem blkSpec_g20 (x0 : Vec F S24x1024 .i32) (x1 : Vec F S1x1024 .f32) (x2 : Vec F S10x1024 .f32) (x3 x4 x5 x6 x7 : Vec F S24x1024 .f32) (x8 : Vec F S4x5 .f32) (z : S1x21x24x1024.Idx) (h : (z 1).val = 20) : blkSpec x0 x1 x2 x3 x4 x5 x6 x7 x8 z = x7 (ix2 (z 2) (z 3)) := by
  unfold blkSpec; rw [dif_neg (by omega), if_neg (by omega), dif_neg (by omega), if_neg (by omega), if_neg (by omega), if_neg (by omega), if_neg (by omega)]

set_option maxHeartbeats 2000000 in
/-- The body's stores, read at an index of the output block, are the block's function of the input blocks. -/
theorem canon_run (c : Dev nD) (i : grid1.Coords) (arg2 : Memref sig .tc .vmem S24x1024 .i32) (harg2 : arg2.IsWhole) (arg3 : Memref sig .tc .vmem S1x1024 .f32) (harg3 : arg3.IsWhole) (arg4 : Memref sig .tc .vmem S10x1024 .f32) (harg4 : arg4.IsWhole) (arg5 : Memref sig .tc .vmem S24x1024 .f32) (harg5 : arg5.IsWhole) (arg6 : Memref sig .tc .vmem S24x1024 .f32) (harg6 : arg6.IsWhole) (arg7 : Memref sig .tc .vmem S24x1024 .f32) (harg7 : arg7.IsWhole) (arg8 : Memref sig .tc .vmem S24x1024 .f32) (harg8 : arg8.IsWhole) (arg9 : Memref sig .tc .vmem S24x1024 .f32) (harg9 : arg9.IsWhole) (arg10 : Memref sig .tc .smem S4x5 .f32) (harg10 : arg10.IsWhole) (arg12 : Memref sig .tc .vmem S1x21x24x1024 .f32) (harg12 : arg12.IsWhole)
    (x0 : Vec F S24x1024 .i32) (x1 : Vec F S1x1024 .f32) (x2 : Vec F S10x1024 .f32) (x3 x4 x5 x6 x7 : Vec F S24x1024 .f32) (x8 : Vec F S4x5 .f32) (z : S1x21x24x1024.Idx) :
    View.canon (tcRun c i arg2 harg2 arg3 harg3 arg4 harg4 arg5 harg5 arg6 harg6 arg7 harg7 arg8 harg8 arg9 harg9 arg10 harg10 arg12 harg12 x0 x1 x2 x3 x4 x5 x6 x7 x8).1 z = blkSpec x0 x1 x2 x3 x4 x5 x6 x7 x8 z := by
  refine View.canon_apply_of_pieces (blkSpec x0 x1 x2 x3 x4 x5 x6 x7 x8) _ ?_ z (cover9 c i arg2 harg2 arg3 harg3 arg4 harg4 arg5 harg5 arg6 harg6 arg7 harg7 arg8 harg8 arg9 harg9 arg10 harg10 arg12 harg12 x0 x1 x2 x3 x4 x5 x6 x7 x8 z)
  unfold tcRun
  dsimp only
  sl_unfold_run_names
  intro p hp
  simp only [List.mem_cons, List.mem_nil_iff, or_false] at hp
  rcases hp with rfl | rfl | rfl | rfl | rfl | rfl | rfl | rfl | rfl | rfl | rfl | rfl | rfl | rfl | rfl | rfl | rfl | rfl | rfl | rfl | rfl
  · intro x
    obtain ⟨e1, e2, e3⟩ := emb_slab 20 inb_S1x21x24x1024_S1x1x24x1024_0_20_0_0 x
    refine Eq.trans ?_ (blkSpec_g20 x0 x1 x2 x3 x4 x5 x6 x7 x8 _ e1).symm
    rw [e2, e3]
    exact pay_grid arg9 harg9 x7 inb_S24x1024_S24x1024_0_0 shapeCasts_S24x1024_S24x1024 shapeCasts_S24x1024_S1x1x24x1024 x
  · intro x
    obtain ⟨e1, e2, e3⟩ := emb_slab 19 inb_S1x21x24x1024_S1x1x24x1024_0_19_0_0 x
    refine Eq.trans ?_ (blkSpec_g19 x0 x1 x2 x3 x4 x5 x6 x7 x8 _ e1).symm
    rw [e2, e3]
    exact pay_grid arg8 harg8 x6 inb_S24x1024_S24x1024_0_0 shapeCasts_S24x1024_S24x1024 shapeCasts_S24x1024_S1x1x24x1024 x
  · intro x
    obtain ⟨e1, e2, e3⟩ := emb_slab 18 inb_S1x21x24x1024_S1x1x24x1024_0_18_0_0 x
    refine Eq.trans ?_ (blkSpec_g18 x0 x1 x2 x3 x4 x5 x6 x7 x8 _ e1).symm
    rw [e2, e3]
    exact pay_grid arg7 harg7 x5 inb_S24x1024_S24x1024_0_0 shapeCasts_S24x1024_S24x1024 shapeCasts_S24x1024_S1x1x24x1024 x
  · intro x
    obtain ⟨e1, e2, e3⟩ := emb_slab 17 inb_S1x21x24x1024_S1x1x24x1024_0_17_0_0 x
    refine Eq.trans ?_ (blkSpec_g17 x0 x1 x2 x3 x4 x5 x6 x7 x8 _ e1).symm
    rw [e2, e3]
    exact pay_grid arg6 harg6 x4 inb_S24x1024_S24x1024_0_0 shapeCasts_S24x1024_S24x1024 shapeCasts_S24x1024_S1x1x24x1024 x
  · intro x
    obtain ⟨e1, e2, e3⟩ := emb_slab 16 inb_S1x21x24x1024_S1x1x24x1024_0_16_0_0 x
    refine Eq.trans ?_ (blkSpec_g16 x0 x1 x2 x3 x4 x5 x6 x7 x8 _ e1).symm
    rw [e2, e3]
    exact pay_grid arg5 harg5 x3 inb_S24x1024_S24x1024_0_0 shapeCasts_S24x1024_S24x1024 shapeCasts_S24x1024_S1x1x24x1024 x
  · intro x
    obtain ⟨e1, e2, e3⟩ := emb_slab 15 inb_S1x21x24x1024_S1x1x24x1024_0_15_0_0 x
    refine Eq.trans ?_ (blkSpec_par x0 x1 x2 x3 x4 x5 x6 x7 x8 _ 9 (by decide) e1).symm
    rw [e3]
    exact pay_par arg4 harg4 x2 9 (by decide) inb_S10x1024_S1x1024_9_0 shapeCasts_S1x1024_S1x1024 shapeCasts_S1x1024_S1x1024 broadcasts_S1x1024_S24x1024 shapeCasts_S24x1024_S1x1x24x1024 x
  · intro x
    obtain ⟨e1, e2, e3⟩ := emb_slab 14 inb_S1x21x24x1024_S1x1x24x1024_0_14_0_0 x
    refine Eq.trans ?_ (blkSpec_par x0 x1 x2 x3 x4 x5 x6 x7 x8 _ 8 (by decide) e1).symm
    rw [e3]
    exact pay_par arg4 harg4 x2 8 (by decide) inb_S10x1024_S1x1024_8_0 shapeCasts_S1x1024_S1x1024 shapeCasts_S1x1024_S1x1024 broadcasts_S1x1024_S24x1024 shapeCasts_S24x1024_S1x1x24x1024 x
  · intro x
    obtain ⟨e1, e2, e3⟩ := emb_slab 13 inb_S1x21x24x1024_S1x1x24x1024_0_13_0_0 x
    refine Eq.trans ?_ (blkSpec_par x0 x1 x2 x3 x4 x5 x6 x7 x8 _ 7 (by decide) e1).symm
    rw [e3]
    exact pay_par arg4 harg4 x2 7 (by decide) inb_S10x1024_S1x1024_7_0 shapeCasts_S1x1024_S1x1024 shapeCasts_S1x1024_S1x1024 broadcasts_S1x1024_S24x1024 shapeCasts_S24x1024_S1x1x24x1024 x
  · intro x
    obtain ⟨e1, e2, e3⟩ := emb_slab 12 inb_S1x21x24x1024_S1x1x24x1024_0_12_0_0 x
    refine Eq.trans ?_ (blkSpec_par x0 x1 x2 x3 x4 x5 x6 x7 x8 _ 6 (by decide) e1).symm
    rw [e3]
    exact pay_par arg4 harg4 x2 6 (by decide) inb_S10x1024_S1x1024_6_0 shapeCasts_S1x1024_S1x1024 shapeCasts_S1x1024_S1x1024 broadcasts_S1x1024_S24x1024 shapeCasts_S24x1024_S1x1x24x1024 x
  · intro x
    obtain ⟨e1, e2, e3⟩ := emb_slab 11 inb_S1x21x24x1024_S1x1x24x1024_0_11_0_0 x
    refine Eq.trans ?_ (blkSpec_par x0 x1 x2 x3 x4 x5 x6 x7 x8 _ 5 (by decide) e1).symm
    rw [e3]
    exact pay_par arg4 harg4 x2 5 (by decide) inb_S10x1024_S1x1024_5_0 shapeCasts_S1x1024_S1x1024 shapeCasts_S1x1024_S1x1024 broadcasts_S1x1024_S24x1024 shapeCasts_S24x1024_S1x1x24x1024 x
  · intro x
    obtain ⟨e1, e2, e3⟩ := emb_slab 10 inb_S1x21x24x1024_S1x1x24x1024_0_10_0_0 x
    refine Eq.trans ?_ (blkSpec_par x0 x1 x2 x3 x4 x5 x6 x7 x8 _ 4 (by decide) e1).symm
    rw [e3]
    exact pay_par arg4 harg4 x2 4 (by decide) inb_S10x1024_S1x1024_4_0 shapeCasts_S1x1024_S1x1024 shapeCasts_S1x1024_S1x1024 broadcasts_S1x1024_S24x1024 shapeCasts_S24x1024_S1x1x24x1024 x
  · intro x
    obtain ⟨e1, e2, e3⟩ := emb_slab 9 inb_S1x21x24x1024_S1x1x24x1024_0_9_0_0 x
    refine Eq.trans ?_ (blkSpec_par x0 x1 x2 x3 x4 x5 x6 x7 x8 _ 3 (by decide) e1).symm
    rw [e3]
    exact pay_par arg4 harg4 x2 3 (by decide) inb_S10x1024_S1x1024_3_0 shapeCasts_S1x1024_S1x1024 shapeCasts_S1x1024_S1x1024 broadcasts_S1x1024_S24x1024 shapeCasts_S24x1024_S1x1x24x1024 x
  · intro x
    obtain ⟨e1, e2, e3⟩ := emb_slab 8 inb_S1x21x24x1024_S1x1x24x1024_0_8_0_0 x
    refine Eq.trans ?_ (blkSpec_par x0 x1 x2 x3 x4 x5 x6 x7 x8 _ 2 (by decide) e1).symm
    rw [e3]
    exact pay_par arg4 harg4 x2 2 (by decide) inb_S10x1024_S1x1024_2_0 shapeCasts_S1x1024_S1x1024 shapeCasts_S1x1024_S1x1024 broadcasts_S1x1024_S24x1024 shapeCasts_S24x1024_S1x1x24x1024 x
  · intro x
    obtain ⟨e1, e2, e3⟩ := emb_slab 7 inb_S1x21x24x1024_S1x1x24x1024_0_7_0_0 x
    refine Eq.trans ?_ (blkSpec_par x0 x1 x2 x3 x4 x5 x6 x7 x8 _ 1 (by decide) e1).symm
    rw [e3]
    exact pay_par arg4 harg4 x2 1 (by decide) inb_S10x1024_S1x1024_1_0 shapeCasts_S1x1024_S1x1024 shapeCasts_S1x1024_S1x1024 broadcasts_S1x1024_S24x1024 shapeCasts_S24x1024_S1x1x24x1024 x
  · intro x
    obtain ⟨e1, e2, e3⟩ := emb_slab 6 inb_S1x21x24x1024_S1x1x24x1024_0_6_0_0 x
    refine Eq.trans ?_ (blkSpec_par x0 x1 x2 x3 x4 x5 x6 x7 x8 _ 0 (by decide) e1).symm
    rw [e3]
    exact pay_par arg4 harg4 x2 0 (by decide) inb_S10x1024_S1x1024_0_0 shapeCasts_S1x1024_S1x1024 shapeCasts_S1x1024_S1x1024 broadcasts_S1x1024_S24x1024 shapeCasts_S24x1024_S1x1x24x1024 x
  · intro x
    obtain ⟨e1, e2, e3⟩ := emb_slab 5 inb_S1x21x24x1024_S1x1x24x1024_0_5_0_0 x
    refine Eq.trans ?_ (blkSpec_step x0 x1 x2 x3 x4 x5 x6 x7 x8 _ e1).symm
    rw [e3]
    exact pay_step arg3 harg3 x1 inb_S1x1024_S1x1024_0_0 shapeCasts_S1x1024_S1x1024 shapeCasts_S1x1024_S1x1024 broadcasts_S1x1024_S24x1024 shapeCasts_S24x1024_S1x1x24x1024 x
  · intro x
    obtain ⟨e1, e2, e3⟩ := emb_slab 4 inb_S1x21x24x1024_S1x1x24x1024_0_4_0_0 x
    refine Eq.trans ?_ (blkSpec_tbl x0 x1 x2 x3 x4 x5 x6 x7 x8 _ 4 (by decide) e1).symm
    rw [e2, e3]
    refine (pay_tbl arg2 harg2 x0 inb_S24x1024_S24x1024_0_0 shapeCasts_S24x1024_S24x1024 _ _ _ _ shapeCasts_S24x1024_S1x1x24x1024 x).trans ?_
    rw [pay_word arg10 harg10 x8 0 4 (by decide) (by decide), pay_word arg10 harg10 x8 1 4 (by decide) (by decide), pay_word arg10 harg10 x8 2 4 (by decide) (by decide), pay_word arg10 harg10 x8 3 4 (by decide) (by decide)]
    rfl
  · intro x
    obtain ⟨e1, e2, e3⟩ := emb_slab 3 inb_S1x21x24x1024_S1x1x24x1024_0_3_0_0 x
    refine Eq.trans ?_ (blkSpec_tbl x0 x1 x2 x3 x4 x5 x6 x7 x8 _ 3 (by decide) e1).symm
    rw [e2, e3]
    refine (pay_tbl arg2 harg2 x0 inb_S24x1024_S24x1024_0_0 shapeCasts_S24x1024_S24x1024 _ _ _ _ shapeCasts_S24x1024_S1x1x24x1024 x).trans ?_
    rw [pay_word arg10 harg10 x8 0 3 (by decide) (by decide), pay_word arg10 harg10 x8 1 3 (by decide) (by decide), pay_word arg10 harg10 x8 2 3 (by decide) (by decide), pay_word arg10 harg10 x8 3 3 (by decide) (by decide)]
    rfl
  · intro x
    obtain ⟨e1, e2, e3⟩ := emb_slab 2 inb_S1x21x24x1024_S1x1x24x1024_0_2_0_0 x
    refine Eq.trans ?_ (blkSpec_tbl x0 x1 x2 x3 x4 x5 x6 x7 x8 _ 2 (by decide) e1).symm
    rw [e2, e3]
    refine (pay_tbl arg2 harg2 x0 inb_S24x1024_S24x1024_0_0 shapeCasts_S24x1024_S24x1024 _ _ _ _ shapeCasts_S24x1024_S1x1x24x1024 x).trans ?_
    rw [pay_word arg10 harg10 x8 0 2 (by decide) (by decide), pay_word arg10 harg10 x8 1 2 (by decide) (by decide), pay_word arg10 harg10 x8 2 2 (by decide) (by decide), pay_word arg10 harg10 x8 3 2 (by decide) (by decide)]
    rfl
  · intro x
    obtain ⟨e1, e2, e3⟩ := emb_slab 1 inb_S1x21x24x1024_S1x1x24x1024_0_1_0_0 x
    refine Eq.trans ?_ (blkSpec_tbl x0 x1 x2 x3 x4 x5 x6 x7 x8 _ 1 (by decide) e1).symm
    rw [e2, e3]
    refine (pay_tbl arg2 harg2 x0 inb_S24x1024_S24x1024_0_0 shapeCasts_S24x1024_S24x1024 _ _ _ _ shapeCasts_S24x1024_S1x1x24x1024 x).trans ?_
    rw [pay_word arg10 harg10 x8 0 1 (by decide) (by decide), pay_word arg10 harg10 x8 1 1 (by decide) (by decide), pay_word arg10 harg10 x8 2 1 (by decide) (by decide), pay_word arg10 harg10 x8 3 1 (by decide) (by decide)]
    rfl
  · intro x
    obtain ⟨e1, e2, e3⟩ := emb_slab 0 inb_S1x21x24x1024_S1x1x24x1024_0_0_0_0 x
    refine Eq.trans ?_ (blkSpec_tbl x0 x1 x2 x3 x4 x5 x6 x7 x8 _ 0 (by decide) e1).symm
    rw [e2, e3]
    refine (pay_tbl arg2 harg2 x0 inb_S24x1024_S24x1024_0_0 shapeCasts_S24x1024_S24x1024 _ _ _ _ shapeCasts_S24x1024_S1x1x24x1024 x).trans ?_
    rw [pay_word arg10 harg10 x8 0 0 (by decide) (by decide), pay_word arg10 harg10 x8 1 0 (by decide) (by decide), pay_word arg10 harg10 x8 2 0 (by decide) (by decide), pay_word arg10 harg10 x8 3 0 (by decide) (by decide)]
    rfl

/-! ## From the blocks to the arrays -/

section Arrays

variable (gfun : Fin 10 → FVec F Cert.Spec.SG .f32)

theorem outK_tbl (tt : IVec Cert.Spec.SG 32) (st : FVec F Cert.Spec.S1B .f32) (par : FVec F Cert.Spec.SPB .f32) (g : Fin 10 → FVec F Cert.Spec.SG .f32)
    (tbl : FVec F Cert.Spec.ST .f32) (j : Cert.Spec.SK.Idx) (h : (j 1).val < 5) :
    Cert.Spec.outK tt st par g tbl j = Cert.Spec.pick tbl ⟨(j 1).val, h⟩ (tt (ix2 (Cert.Spec.hw (j 0) (j 2)) (j 3))) := by
  unfold Cert.Spec.outK; simp only [dif_pos h]
theorem outK_step (tt : IVec Cert.Spec.SG 32) (st : FVec F Cert.Spec.S1B .f32) (par : FVec F Cert.Spec.SPB .f32) (g : Fin 10 → FVec F Cert.Spec.SG .f32)
    (tbl : FVec F Cert.Spec.ST .f32) (j : Cert.Spec.SK.Idx) (h : (j 1).val = 5) :
    Cert.Spec.outK tt st par g tbl j = st (ix2 0 (j 3)) := by
  unfold Cert.Spec.outK; simp only [dif_neg (show ¬(j 1).val < 5 by omega), if_pos h]
theorem outK_par (tt : IVec Cert.Spec.SG 32) (st : FVec F Cert.Spec.S1B .f32) (par : FVec F Cert.Spec.SPB .f32) (g : Fin 10 → FVec F Cert.Spec.SG .f32)
    (tbl : FVec F Cert.Spec.ST .f32) (j : Cert.Spec.SK.Idx) (h6 : 6 ≤ (j 1).val) (h16 : (j 1).val < 16) :
    Cert.Spec.outK tt st par g tbl j = par (ix2 ⟨(j 1).val - 6, by omega⟩ (j 3)) := by
  unfold Cert.Spec.outK; simp only [dif_neg (show ¬(j 1).val < 5 by omega), if_neg (show ¬(j 1).val = 5 by omega), dif_pos h16]
theorem outK_grid (tt : IVec Cert.Spec.SG 32) (st : FVec F Cert.Spec.S1B .f32) (par : FVec F Cert.Spec.SPB .f32) (g : Fin 10 → FVec F Cert.Spec.SG .f32)
    (tbl : FVec F Cert.Spec.ST .f32) (j : Cert.Spec.SK.Idx) (h16 : 16 ≤ (j 1).val) :
    Cert.Spec.outK tt st par g tbl j = g ⟨(j 1).val - 16, by have h26 : (j 1).val < 26 := (j 1).isLt; omega⟩ (ix2 (Cert.Spec.hw (j 0) (j 2)) (j 3)) := by
  unfold Cert.Spec.outK; simp only [dif_neg (show ¬(j 1).val < 5 by omega), if_neg (show ¬(j 1).val = 5 by omega), dif_neg (show ¬(j 1).val < 16 by omega)]

/-- The result array's index of an element of the output block at point `t`. -/
def jOf (t : Fin cfg1.N) (z : S1x21x24x1024.Idx) : Cert.Spec.SK.Idx :=
  ix4 (⟨(grid1.coords t 0).val, (grid1.coords t 0).isLt⟩ : Fin 24) (⟨(z 1).val, Nat.lt_of_lt_of_le (z 1).isLt (by decide)⟩ : Fin 26)
    (⟨(z 2).val, (z 2).isLt⟩ : Fin 24) (bat t ⟨(z 3).val, (z 3).isLt⟩)

/-- The block's function of the input blocks at a point is the kernels' function of the arrays at the block's elements. -/
theorem blkSpec_eq (c : Dev nD) (t : Fin cfg1.N) (z : S1x21x24x1024.Idx)
    (hg0 : gfun 0 = V c main_v5) (hg1 : gfun 1 = V c main_v7) (hg2 : gfun 2 = V c main_v9) (hg3 : gfun 3 = V c main_v11) (hg4 : gfun 4 = V c main_v13) :
    blkSpec (iblk V c 0 t) (iblk V c 1 t) (iblk V c 2 t) (iblk V c 3 t) (iblk V c 4 t) (iblk V c 5 t) (iblk V c 6 t) (iblk V c 7 t) (iblk V c 8 t) z
      = Cert.Spec.outK (V c main_v1) (V c main_v2) (V c main_v3) gfun (V c main_arg13) (jOf t z) := by
  have hz1 : ((jOf t z) 1).val = (z 1).val := rfl
  have hlt : (z 1).val < 21 := (z 1).isLt
  have e8 : (iblk V c 8 t : Vec F S4x5 .f32) = V c main_arg13 := funext (iblk8_apply V c t)
  by_cases h5 : (z 1).val < 5
  · refine (blkSpec_tbl _ _ _ _ _ _ _ _ _ z _ h5 rfl).trans ?_
    refine Eq.trans ?_ (outK_tbl _ _ _ _ _ (jOf t z) h5).symm
    rw [e8, iblk0_apply]
    rfl
  · by_cases h5' : (z 1).val = 5
    · refine (blkSpec_step _ _ _ _ _ _ _ _ _ z h5').trans ?_
      refine Eq.trans ?_ (outK_step _ _ _ _ _ (jOf t z) h5').symm
      rw [iblk1_apply]
      rfl
    · by_cases h16 : (z 1).val < 16
      · refine (blkSpec_par _ _ _ _ _ _ _ _ _ z ((z 1).val - 6) (by omega) (by omega)).trans ?_
        refine Eq.trans ?_ (outK_par _ _ _ _ _ (jOf t z) (show 6 ≤ (z 1).val by omega) h16).symm
        rw [iblk2_apply]
        rfl
      · refine Eq.trans ?_ (outK_grid _ _ _ _ _ (jOf t z) (show 16 ≤ (z 1).val by omega)).symm
        rcases (by omega : (z 1).val = 16 ∨ (z 1).val = 17 ∨ (z 1).val = 18 ∨ (z 1).val = 19 ∨ (z 1).val = 20) with h | h | h | h | h
        · refine (blkSpec_g16 _ _ _ _ _ _ _ _ _ z h).trans ?_
          rw [iblk3_apply]
          have e : (⟨((jOf t z) 1).val - 16, by have h26 : ((jOf t z) 1).val < 26 := ((jOf t z) 1).isLt; omega⟩ : Fin 10) = 0 := Fin.ext (by show (z 1).val - 16 = 0; omega)
          rw [e, hg0]
          rfl
        · refine (blkSpec_g17 _ _ _ _ _ _ _ _ _ z h).trans ?_
          rw [iblk4_apply]
          have e : (⟨((jOf t z) 1).val - 16, by have h26 : ((jOf t z) 1).val < 26 := ((jOf t z) 1).isLt; omega⟩ : Fin 10) = 1 := Fin.ext (by show (z 1).val - 16 = 1; omega)
          rw [e, hg1]
          rfl
        · refine (blkSpec_g18 _ _ _ _ _ _ _ _ _ z h).trans ?_
          rw [iblk5_apply]
          have e : (⟨((jOf t z) 1).val - 16, by have h26 : ((jOf t z) 1).val < 26 := ((jOf t z) 1).isLt; omega⟩ : Fin 10) = 2 := Fin.ext (by show (z 1).val - 16 = 2; omega)
          rw [e, hg2]
          rfl
        · refine (blkSpec_g19 _ _ _ _ _ _ _ _ _ z h).trans ?_
          rw [iblk6_apply]
          have e : (⟨((jOf t z) 1).val - 16, by have h26 : ((jOf t z) 1).val < 26 := ((jOf t z) 1).isLt; omega⟩ : Fin 10) = 3 := Fin.ext (by show (z 1).val - 16 = 3; omega)
          rw [e, hg3]
          rfl
        · refine (blkSpec_g20 _ _ _ _ _ _ _ _ _ z h).trans ?_
          rw [iblk7_apply]
          have e : (⟨((jOf t z) 1).val - 16, by have h26 : ((jOf t z) 1).val < 26 := ((jOf t z) 1).isLt; omega⟩ : Fin 10) = 4 := Fin.ext (by show (z 1).val - 16 = 4; omega)
          rw [e, hg4]
          rfl

end Arrays

end Cert.Kernel.Hand

end
-- ==== Proof.K.TcValue.lean ====
/-
  What the TensorCore kernel's region leaves in its result array, and the region's step with that value: what a point
  writes back is, element by element, the kernels' function of the staged arrays at the element's place in the array;
  every element of the channels below 21 lies in some point's block, no element of the others does; so after every
  write-back the result array's channels below 21 hold that function and the others what they held.
-/
import proofs.«206564_g5145370820828_cont_8to1c4_476_13_alg».proof.Proof.K.TcValA

set_option maxRecDepth 16384

noncomputable section

namespace Cert.Kernel.Hand

open Cert.Kernel Cert.Kernel.Gen

open Idealize.ShloMosaic Idealize.ShloMosaic.TcCoe Idealize.ShloMosaic.Tactic
open Idealize.ShloMosaic.SparseCore (S T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.ValueIdx

variable (V : (c : Dev nD) → (b : Ref sig .tc) → Buf (Elt F) ((c.tc : Thread nD τ).loc b))
variable (O : Dev nD → CellTallies nD τ sig (HIx 1)) (W₀ : Dev nD → Waits sig (HIx 1))

section Arrays

variable (gfun : Fin 10 → FVec F Cert.Spec.SG .f32)

/-- The result array's index of a block's element is the element's place in the array. -/
theorem jOf_xinj (t : Fin cfg1.N) (y : (win1_9.xblock (grid1.coords t)).Idx) :
    jOf t (win1_9.xinj (grid1.coords t) y) = (win1_9.rect t).emb y := by
  have hi := idx1_9 t
  funext a
  apply Fin.ext
  match a with
  | ⟨0, _⟩ =>
    rw [win1_9.rect_emb_val t y ⟨0, (by decide : 0 < 4)⟩]
    have h0 : (y ⟨0, (by decide : 0 < 4)⟩).val < win1_9.xsize (grid1.coords t) ⟨0, (by decide : 0 < 4)⟩ := (y ⟨0, (by decide : 0 < 4)⟩).isLt
    rw [xsize1_9 t ⟨0, (by decide : 0 < 4)⟩] at h0
    have h0' : (y ⟨0, (by decide : 0 < 4)⟩).val < 1 := h0
    show (grid1.coords t 0).val = win1_9.index t 0 * 1 + (y ⟨0, (by decide : 0 < 4)⟩).val
    rw [hi.1]; omega
  | ⟨1, _⟩ =>
    rw [win1_9.rect_emb_val t y ⟨1, (by decide : 1 < 4)⟩]
    show (y ⟨1, (by decide : 1 < 4)⟩).val = win1_9.index t 1 * 21 + (y ⟨1, (by decide : 1 < 4)⟩).val
    rw [hi.2.1]; omega
  | ⟨2, _⟩ =>
    rw [win1_9.rect_emb_val t y ⟨2, (by decide : 2 < 4)⟩]
    show (y ⟨2, (by decide : 2 < 4)⟩).val = win1_9.index t 2 * 24 + (y ⟨2, (by decide : 2 < 4)⟩).val
    rw [hi.2.2.1]; omega
  | ⟨3, _⟩ =>
    rw [win1_9.rect_emb_val t y ⟨3, (by decide : 3 < 4)⟩]
    show (grid1.coords t 1).val * 1024 + (y ⟨3, (by decide : 3 < 4)⟩).val = win1_9.index t 3 * 1024 + (y ⟨3, (by decide : 3 < 4)⟩).val
    rw [hi.2.2.2]

/-- What a point writes back, element by element: the kernels' function of the arrays at the element's place. -/
theorem flushed9_apply (c : Dev nD) (t : Fin cfg1.N)
    (hg0 : gfun 0 = V c main_v5) (hg1 : gfun 1 = V c main_v7) (hg2 : gfun 2 = V c main_v9) (hg3 : gfun 3 = V c main_v11) (hg4 : gfun 4 = V c main_v13)
    (y : (win1_9.xblock (grid1.coords t)).Idx) :
    (dats V O W₀ 0 c).flushed 9 t y = Cert.Spec.outK (V c main_v1) (V c main_v2) (V c main_v3) gfun (V c main_arg13) ((win1_9.rect t).emb y) := by
  show (dats V O W₀ 0 c).after 9 t (win1_9.xinj (grid1.coords t) y) = _
  rw [after1_9, ← jOf_xinj]
  unfold outAt
  rw [View.read_writes_junk_eq_canon, canon_run]
  exact blkSpec_eq V gfun c t _ hg0 hg1 hg2 hg3 hg4

/-- What the result array holds after the region. -/
def outArr (c : Dev nD) : FVec F Cert.Spec.SK .f32 := fun j =>
  if (j 1).val < 21 then Cert.Spec.outK (V c main_v1) (V c main_v2) (V c main_v3) gfun (V c main_arg13) j else V c main_v25 j

set_option maxHeartbeats 1000000 in
/-- After every write-back, the result array's channels below 21 hold the kernels' function of the staged arrays, the
    others what they held. -/
theorem arrAt9_apply (c : Dev nD)
    (hg0 : gfun 0 = V c main_v5) (hg1 : gfun 1 = V c main_v7) (hg2 : gfun 2 = V c main_v9) (hg3 : gfun 3 = V c main_v11) (hg4 : gfun 4 = V c main_v13)
    (j : Cert.Spec.SK.Idx) : (dats V O W₀ 0 c).arrAt 9 cfg1.N j = outArr V gfun c j := by
  unfold outArr
  have hj0 : (j 0).val < 24 := (j 0).isLt
  have hj3 : (j 3).val < 4096 := (j 3).isLt
  by_cases hj : (j 1).val < 21
  · rw [if_pos hj]
    have hN : grid1.N = 96 := N_1
    let t : Fin cfg1.N := ⟨(j 0).val * 4 + (j 3).val / 1024, by show _ < grid1.N; rw [hN]; omega⟩
    have ht0 : (grid1.coords t 0).val = (j 0).val := by
      show ((j 0).val * 4 + (j 3).val / 1024) / grid1.stride 0 % grid1.bound 0 = _
      rw [show grid1.stride 0 = 4 from by decide, show grid1.bound 0 = 24 from rfl]; omega
    have ht1 : (grid1.coords t 1).val = (j 3).val / 1024 := by
      show ((j 0).val * 4 + (j 3).val / 1024) / grid1.stride 1 % grid1.bound 1 = _
      rw [show grid1.stride 1 = 1 from by decide, show grid1.bound 1 = 4 from rfl]; omega
    have hi := idx1_9 t
    refine (dats V O W₀ 0 c).arrAt_forall_of_flushed 9 (fun i v => v = Cert.Spec.outK (V c main_v1) (V c main_v2) (V c main_v3) gfun (V c main_arg13) i) ?_ cfg1.N t j t.isLt (flush1_9 t) ?_
    · intro t' _ y
      show (dats V O W₀ 0 c).flushed 9 t' y = Cert.Spec.outK (V c main_v1) (V c main_v2) (V c main_v3) gfun (V c main_arg13) ((win1_9.rect t').emb y)
      exact flushed9_apply V O W₀ gfun c t' hg0 hg1 hg2 hg3 hg4 y
    · show j ∈ ((View.whole main_v25).slice (win1_9.rect t)).set
      rw [View.set_slice_whole, Rect.mem_set_unit]
      intro a
      match a with
      | ⟨0, _⟩ =>
        show win1_9.index t 0 * win1_9.size 0 ≤ (j 0).val ∧ (j 0).val < win1_9.index t 0 * win1_9.size 0 + win1_9.xsize (grid1.coords t) 0
        rw [hi.1, xsize1_9 t 0, ht0]; show (j 0).val * 1 ≤ (j 0).val ∧ (j 0).val < (j 0).val * 1 + 1; omega
      | ⟨1, _⟩ =>
        show win1_9.index t 1 * win1_9.size 1 ≤ (j 1).val ∧ (j 1).val < win1_9.index t 1 * win1_9.size 1 + win1_9.xsize (grid1.coords t) 1
        rw [hi.2.1, xsize1_9 t 1]; show 0 * 21 ≤ (j 1).val ∧ (j 1).val < 0 * 21 + 21; omega
      | ⟨2, _⟩ =>
        show win1_9.index t 2 * win1_9.size 2 ≤ (j 2).val ∧ (j 2).val < win1_9.index t 2 * win1_9.size 2 + win1_9.xsize (grid1.coords t) 2
        have hj2 : (j 2).val < 24 := (j 2).isLt
        rw [hi.2.2.1, xsize1_9 t 2]; show 0 * 24 ≤ (j 2).val ∧ (j 2).val < 0 * 24 + 24; omega
      | ⟨3, _⟩ =>
        show win1_9.index t 3 * win1_9.size 3 ≤ (j 3).val ∧ (j 3).val < win1_9.index t 3 * win1_9.size 3 + win1_9.xsize (grid1.coords t) 3
        rw [hi.2.2.2, xsize1_9 t 3, ht1]; show (j 3).val / 1024 * 1024 ≤ (j 3).val ∧ (j 3).val < (j 3).val / 1024 * 1024 + 1024; omega
  · rw [if_neg hj]
    refine ((dats V O W₀ 0 c).arrAt_apply_of_forall_not_mem 9 cfg1.N j fun t _ _ hmem => hj ?_).trans (congrFun (A_eq V O W₀ c 9) j)
    have hm : j ∈ ((View.whole main_v25).slice (win1_9.rect t)).set := hmem
    rw [View.set_slice_whole, Rect.mem_set_unit] at hm
    have h1 := hm ⟨1, (by decide : 1 < 4)⟩
    have h1' : win1_9.index t 1 * win1_9.size 1 ≤ (j 1).val ∧ (j 1).val < win1_9.index t 1 * win1_9.size 1 + win1_9.xsize (grid1.coords t) 1 := h1
    rw [(idx1_9 t).2.1, xsize1_9 t 1] at h1'
    have h1'' : 0 * 21 ≤ (j 1).val ∧ (j 1).val < 0 * 21 + 21 := h1'
    omega

end Arrays

set_option maxHeartbeats 1000000 in
/-- The region's run as the TensorCore's program uses it, with the value of its result array. -/
theorem tc_region : RegionSpec (F := F) := by
  intro d n W g Φ
  iintro ⟨Hb, Hl, ⟨Hg, Ht⟩, ⟨%Wt, %hWt, HO⟩, ⟨H1, H2, H3, H4, H5, H6, H7, H8, H9⟩, H25, Hk⟩
  have e' : (dats (fun _ b => W (dr b)) (fun c => (K (F := F)).Otc c n) (fun _ => Wt) 0 d).arrAt 9 cfg1.N = (tcOut W g : Buf (Elt F) ((d.tc : Thread nD τ).loc main_v25)) :=
    funext fun j => (arrAt9_apply (fun _ b => W (dr b)) (fun c => (K (F := F)).Otc c n) (fun _ => Wt) (gfam W g) d rfl rfl rfl rfl rfl j).trans rfl
  have hfin := arrs_final (fun _ b => W (dr b)) (fun c => (K (F := F)).Otc c n) (fun _ => Wt) d
  rw [e'] at hfin
  iapply (tc_region_gen (fun _ b => W (dr b)) (fun c => (K (F := F)).Otc c n) (fun _ => Wt) (fun c g => Otc_none c n g)
    (K (F := F)).lev (K (F := F)).refines_self d Φ)
  isplitl [Hb]; · iexact Hb
  isplitl [Hl]; · iexact Hl
  isplitl [Hg]; · iexact Hg
  isplitl [Ht]; · iexact Ht
  isplitl [HO]; · iexact HO
  isplitl [H1 H2 H3 H4 H5 H6 H7 H8 H9 H25]
  · rw [arrs_eq]
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H25
  iintro ⟨Hb, Ha, HO⟩
  ihave Ha' := (Entails.of_eq hfin) $$ Ha
  icases Ha' with ⟨H1, H2, H3, H4, H5, H6, H7, H8, H9, H25⟩
  icases HO with ⟨%W', %hW', HO⟩
  iapply Hk
  isplitl [Hb]; · iexact Hb
  isplitl [HO]
  · iexists W'; isplitr
    · ipureintro; intro p hp
      rcases hW' (Finset.mem_coe.mpr hp) with h | ⟨w, s, rfl⟩
      · exact hWt p (Finset.mem_coe.mp h)
      · rw [(K (F := F)).lev_none]; exact Nat.zero_le _
    iexact HO
  isplitl [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iexact H25

end Cert.Kernel.Hand

end
-- ==== Proof.RefRun.lean ====
/-
  The reference program's run.  Its @main is a straight line of forty-two host operations: the twenty-three of the
  table lookup (the outlined take, with the outlined select inside it, written over the call's own buffers), the
  reshapes and broadcasts that spread the step count and the parameters over the map, the ten grids given a unit
  channel axis, and the concatenation of the thirteen pieces along the channel axis.  Every weakly fair execution
  terminates with the result buffer at `res` of the fourteen argument arrays and the arguments unchanged.
-/
import proofs.«206564_g5145370820828_cont_8to1c4_476_13_alg».proof.Proof.Gen.ReferenceIdeal
import Idealize.ShloMosaic.Lib.StableHlo.Run

set_option Elab.async false

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The result as a term of the arguments -/

/-- The tile type, a negative one moved up by the table's height (the lookup's index normalisation). -/
def wrapIdx (a0 : IVec S4096x24x24 32) : IVec S4096x24x24 32 :=
  select (cmpi .slt a0 (broadcastInDim S4096x24x24 ![] bcast_S_S4096x24x24 (constantI S_ 32 0#32)))
    (addi a0 (broadcastInDim S4096x24x24 ![] bcast_S_S4096x24x24 (constantI S_ 32 4#32))) a0

/-- The lookup's index table: the normalised tile type under a unit index-vector axis. -/
def idx (a0 : IVec S4096x24x24 32) : IVec S4096x24x24x1 32 :=
  broadcastInDim S4096x24x24x1 ![0, 1, 2] bcast_S4096x24x24_S4096x24x24x1_0_1_2 (wrapIdx a0)

/-- Whether the index lies in 0 … 3, per cell: the conjunction over the unit index-vector axis. -/
def inRange (a0 : IVec S4096x24x24 32) : IVec S4096x24x24 1 :=
  Host.reduce IntOp.andi
    (andi (cmpi .sge (idx a0) (broadcastInDim S4096x24x24x1 ![] bcast_S_S4096x24x24x1 (constantI S_ 32 0#32)))
      (cmpi .sle (idx a0)
        (broadcastInDim S4096x24x24x1 ![0, 1, 2, 3] bcast_S1x1x1x1_S4096x24x24x1_0_1_2_3
          (broadcastInDim S1x1x1x1 ![3] bcast_S1_S1x1x1x1_3 (constantI S1 32 3#32)))))
    (constantI S_ 1 1#1) reducesTo_S4096x24x24x1_S4096x24x24_d3 h_S_

/-- The five embedding channels: the table's row gathered at the index where it is in range, the fill value elsewhere. -/
def emb (a0 : IVec S4096x24x24 32) (a13 : FVec F S4x5 .f32) : FVec F S4096x24x24x5 .f32 :=
  select (broadcastInDim S4096x24x24x5 ![0, 1, 2] bcast_S4096x24x24_S4096x24x24x5_0_1_2 (inRange a0))
    (Host.gather gather_S4x5_S4096x24x24x1_S4096x24x24x5_3_0_n_n_0_3_15 a13 (idx a0))
    (broadcastInDim S4096x24x24x5 ![] bcast_S_S4096x24x24x5 (constant S_ .f32 0x7FC00000#32))

/-- The step count spread over the map, one channel. -/
def stepCh (a1 : FVec F S4096 .f32) : FVec F S4096x24x24x1 .f32 :=
  shapeCast S4096x24x24x1
    (broadcastInDim S1x4096x24x1x24x1x1x1 ![0, 1, 2, 3, 4, 5, 6, 7] bcast_S1x4096x1x1x1x1x1x1_S1x4096x24x1x24x1x1x1_0_1_2_3_4_5_6_7
      (shapeCast S1x4096x1x1x1x1x1x1 (shapeCast S4096x1x1x1 a1 shapeCasts_S4096_S4096x1x1x1) shapeCasts_S4096x1x1x1_S1x4096x1x1x1x1x1x1))
    shapeCasts_S1x4096x24x1x24x1x1x1_S4096x24x24x1

/-- The ten parameters spread over the map, ten channels. -/
def parCh (a2 : FVec F S4096x10 .f32) : FVec F S4096x24x24x10 .f32 :=
  shapeCast S4096x24x24x10
    (broadcastInDim S1x4096x24x1x24x1x1x10 ![0, 1, 2, 3, 4, 5, 6, 7] bcast_S1x4096x1x1x1x1x1x10_S1x4096x24x1x24x1x1x10_0_1_2_3_4_5_6_7
      (shapeCast S1x4096x1x1x1x1x1x10 (shapeCast S4096x1x1x10 a2 shapeCasts_S4096x10_S4096x1x1x10) shapeCasts_S4096x1x1x10_S1x4096x1x1x1x1x1x10))
    shapeCasts_S1x4096x24x1x24x1x1x10_S4096x24x24x10

/-- A grid given a unit channel axis. -/
def gridCh (a : FVec F S4096x24x24 .f32) : FVec F S4096x24x24x1 .f32 :=
  broadcastInDim S4096x24x24x1 ![0, 1, 2] bcast_S4096x24x24_S4096x24x24x1_0_1_2 a

/-- The reference's result: the thirteen pieces side by side along the channel axis. -/
def res (a0 : IVec S4096x24x24 32) (a1 : FVec F S4096 .f32) (a2 : FVec F S4096x10 .f32)
    (a3 a4 a5 a6 a7 a8 a9 a10 a11 a12 : FVec F S4096x24x24 .f32) (a13 : FVec F S4x5 .f32) : FVec F S4096x24x24x26 .f32 :=
  concatenate S4096x24x24x26 3
    [⟨S4096x24x24x5, emb a0 a13⟩, ⟨S4096x24x24x1, stepCh a1⟩, ⟨S4096x24x24x10, parCh a2⟩,
      ⟨S4096x24x24x1, gridCh a3⟩, ⟨S4096x24x24x1, gridCh a4⟩, ⟨S4096x24x24x1, gridCh a5⟩, ⟨S4096x24x24x1, gridCh a6⟩,
      ⟨S4096x24x24x1, gridCh a7⟩, ⟨S4096x24x24x1, gridCh a8⟩, ⟨S4096x24x24x1, gridCh a9⟩, ⟨S4096x24x24x1, gridCh a10⟩,
      ⟨S4096x24x24x1, gridCh a11⟩, ⟨S4096x24x24x1, gridCh a12⟩]
    concatenates_S4096x24x24x5_S4096x24x24x1_S4096x24x24x10_S4096x24x24x1_S4096x24x24x1_S4096x24x24x1_S4096x24x24x1_S4096x24x24x1_S4096x24x24x1_S4096x24x24x1_S4096x24x24x1_S4096x24x24x1_S4096x24x24x1_S4096x24x24x26_d3

/-! ## The program as a list of operations -/

/-- The last operation: the concatenation of the thirteen pieces along the channel axis. -/
abbrev catOp : HloOp τ sig (Elt F) :=
  nary ![main_v0, main_v4, main_v8, main_v9, main_v10, main_v11, main_v12, main_v13, main_v14, main_v15, main_v16, main_v17, main_v18] main_v19 (fun u => concatenate S4096x24x24x26 3 [⟨S4096x24x24x5, u 0⟩, ⟨S4096x24x24x1, u 1⟩, ⟨S4096x24x24x10, u 2⟩, ⟨S4096x24x24x1, u 3⟩, ⟨S4096x24x24x1, u 4⟩, ⟨S4096x24x24x1, u 5⟩, ⟨S4096x24x24x1, u 6⟩, ⟨S4096x24x24x1, u 7⟩, ⟨S4096x24x24x1, u 8⟩, ⟨S4096x24x24x1, u 9⟩, ⟨S4096x24x24x1, u 10⟩, ⟨S4096x24x24x1, u 11⟩, ⟨S4096x24x24x1, u 12⟩] concatenates_S4096x24x24x5_S4096x24x24x1_S4096x24x24x10_S4096x24x24x1_S4096x24x24x1_S4096x24x24x1_S4096x24x24x1_S4096x24x24x1_S4096x24x24x1_S4096x24x24x1_S4096x24x24x1_S4096x24x24x1_S4096x24x24x1_S4096x24x24x26_d3)

/-- @main's forty-two operations in order, the two calls unfolded over the call records' buffers (each buffer named by its
    own reference: the typed references of the functions' bodies are these, their transports the identity). -/
abbrev ops : List (HloOp τ sig (Elt F)) :=
  [ nullary main_call0_c (constantI S_ 32 0#32 : (⟨S_, .i32⟩ : BufTy).Contents (Elt F)),
    unary main_call0_c main_call0_v0 (broadcastInDim S4096x24x24 ![] bcast_S_S4096x24x24 : (⟨S_, .i32⟩ : BufTy).Contents (Elt F) → (⟨S4096x24x24, .i32⟩ : BufTy).Contents (Elt F)),
    binary main_arg0 main_call0_v0 main_call0_v1 (cmpi .slt : (⟨S4096x24x24, .i32⟩ : BufTy).Contents (Elt F) → (⟨S4096x24x24, .i32⟩ : BufTy).Contents (Elt F) → (⟨S4096x24x24, .i1⟩ : BufTy).Contents (Elt F)),
    nullary main_call0_c_0 (constantI S_ 32 4#32 : (⟨S_, .i32⟩ : BufTy).Contents (Elt F)),
    unary main_call0_c_0 main_call0_v2 (broadcastInDim S4096x24x24 ![] bcast_S_S4096x24x24 : (⟨S_, .i32⟩ : BufTy).Contents (Elt F) → (⟨S4096x24x24, .i32⟩ : BufTy).Contents (Elt F)),
    binary main_arg0 main_call0_v2 main_call0_v3 (addi : (⟨S4096x24x24, .i32⟩ : BufTy).Contents (Elt F) → (⟨S4096x24x24, .i32⟩ : BufTy).Contents (Elt F) → (⟨S4096x24x24, .i32⟩ : BufTy).Contents (Elt F)),
    ternary main_call0_v1 main_call0_v3 main_arg0 main_call0_v4 (select : (⟨S4096x24x24, .i1⟩ : BufTy).Contents (Elt F) → (⟨S4096x24x24, .i32⟩ : BufTy).Contents (Elt F) → (⟨S4096x24x24, .i32⟩ : BufTy).Contents (Elt F) → (⟨S4096x24x24, .i32⟩ : BufTy).Contents (Elt F)),
    unary main_call0_v4 main_call0_v5 (broadcastInDim S4096x24x24x1 ![0, 1, 2] bcast_S4096x24x24_S4096x24x24x1_0_1_2 : (⟨S4096x24x24, .i32⟩ : BufTy).Contents (Elt F) → (⟨S4096x24x24x1, .i32⟩ : BufTy).Contents (Elt F)),
    nullary main_call0_c_1 (constantI S1 32 3#32 : (⟨S1, .i32⟩ : BufTy).Contents (Elt F)),
    nullary main_call0_c_2 (constantI S_ 32 0#32 : (⟨S_, .i32⟩ : BufTy).Contents (Elt F)),
    unary main_call0_c_2 main_call0_v6 (broadcastInDim S4096x24x24x1 ![] bcast_S_S4096x24x24x1 : (⟨S_, .i32⟩ : BufTy).Contents (Elt F) → (⟨S4096x24x24x1, .i32⟩ : BufTy).Contents (Elt F)),
    binary main_call0_v5 main_call0_v6 main_call0_v7 (cmpi .sge : (⟨S4096x24x24x1, .i32⟩ : BufTy).Contents (Elt F) → (⟨S4096x24x24x1, .i32⟩ : BufTy).Contents (Elt F) → (⟨S4096x24x24x1, .i1⟩ : BufTy).Contents (Elt F)),
    unary main_call0_c_1 main_call0_v8 (broadcastInDim S1x1x1x1 ![3] bcast_S1_S1x1x1x1_3 : (⟨S1, .i32⟩ : BufTy).Contents (Elt F) → (⟨S1x1x1x1, .i32⟩ : BufTy).Contents (Elt F)),
    unary main_call0_v8 main_call0_v9 (broadcastInDim S4096x24x24x1 ![0, 1, 2, 3] bcast_S1x1x1x1_S4096x24x24x1_0_1_2_3 : (⟨S1x1x1x1, .i32⟩ : BufTy).Contents (Elt F) → (⟨S4096x24x24x1, .i32⟩ : BufTy).Contents (Elt F)),
    binary main_call0_v5 main_call0_v9 main_call0_v10 (cmpi .sle : (⟨S4096x24x24x1, .i32⟩ : BufTy).Contents (Elt F) → (⟨S4096x24x24x1, .i32⟩ : BufTy).Contents (Elt F) → (⟨S4096x24x24x1, .i1⟩ : BufTy).Contents (Elt F)),
    binary main_call0_v7 main_call0_v10 main_call0_v11 (andi : (⟨S4096x24x24x1, .i1⟩ : BufTy).Contents (Elt F) → (⟨S4096x24x24x1, .i1⟩ : BufTy).Contents (Elt F) → (⟨S4096x24x24x1, .i1⟩ : BufTy).Contents (Elt F)),
    nullary main_call0_c_3 (constantI S_ 1 1#1 : (⟨S_, .i1⟩ : BufTy).Contents (Elt F)),
    binary main_call0_v11 main_call0_c_3 main_call0_v12 ((fun x v => Host.reduce IntOp.andi x v reducesTo_S4096x24x24x1_S4096x24x24_d3 h_S_) : (⟨S4096x24x24x1, .i1⟩ : BufTy).Contents (Elt F) → (⟨S_, .i1⟩ : BufTy).Contents (Elt F) → (⟨S4096x24x24, .i1⟩ : BufTy).Contents (Elt F)),
    binary main_arg13 main_call0_v5 main_call0_v13 ((fun x i => Host.gather gather_S4x5_S4096x24x24x1_S4096x24x24x5_3_0_n_n_0_3_15 x i) : (⟨S4x5, .f32⟩ : BufTy).Contents (Elt F) → (⟨S4096x24x24x1, .i32⟩ : BufTy).Contents (Elt F) → (⟨S4096x24x24x5, .f32⟩ : BufTy).Contents (Elt F)),
    unary main_call0_v12 main_call0_v14 (broadcastInDim S4096x24x24x5 ![0, 1, 2] bcast_S4096x24x24_S4096x24x24x5_0_1_2 : (⟨S4096x24x24, .i1⟩ : BufTy).Contents (Elt F) → (⟨S4096x24x24x5, .i1⟩ : BufTy).Contents (Elt F)),
    nullary main_call0_cst (constant S_ .f32 0x7FC00000#32 : (⟨S_, .f32⟩ : BufTy).Contents (Elt F)),
    unary main_call0_cst main_call0_v15 (broadcastInDim S4096x24x24x5 ![] bcast_S_S4096x24x24x5 : (⟨S_, .f32⟩ : BufTy).Contents (Elt F) → (⟨S4096x24x24x5, .f32⟩ : BufTy).Contents (Elt F)),
    ternary main_call0_v14 main_call0_v13 main_call0_v15 main_v0 (select : (⟨S4096x24x24x5, .i1⟩ : BufTy).Contents (Elt F) → (⟨S4096x24x24x5, .f32⟩ : BufTy).Contents (Elt F) → (⟨S4096x24x24x5, .f32⟩ : BufTy).Contents (Elt F) → (⟨S4096x24x24x5, .f32⟩ : BufTy).Contents (Elt F)),
    reshape main_arg1 main_v1 rfl shapeCasts_S4096_S4096x1x1x1,
    reshape main_v1 main_v2 rfl shapeCasts_S4096x1x1x1_S1x4096x1x1x1x1x1x1,
    unary main_v2 main_v3 (broadcastInDim S1x4096x24x1x24x1x1x1 ![0, 1, 2, 3, 4, 5, 6, 7] bcast_S1x4096x1x1x1x1x1x1_S1x4096x24x1x24x1x1x1_0_1_2_3_4_5_6_7 : (⟨S1x4096x1x1x1x1x1x1, .f32⟩ : BufTy).Contents (Elt F) → (⟨S1x4096x24x1x24x1x1x1, .f32⟩ : BufTy).Contents (Elt F)),
    reshape main_v3 main_v4 rfl shapeCasts_S1x4096x24x1x24x1x1x1_S4096x24x24x1,
    reshape main_arg2 main_v5 rfl shapeCasts_S4096x10_S4096x1x1x10,
    reshape main_v5 main_v6 rfl shapeCasts_S4096x1x1x10_S1x4096x1x1x1x1x1x10,
    unary main_v6 main_v7 (broadcastInDim S1x4096x24x1x24x1x1x10 ![0, 1, 2, 3, 4, 5, 6, 7] bcast_S1x4096x1x1x1x1x1x10_S1x4096x24x1x24x1x1x10_0_1_2_3_4_5_6_7 : (⟨S1x4096x1x1x1x1x1x10, .f32⟩ : BufTy).Contents (Elt F) → (⟨S1x4096x24x1x24x1x1x10, .f32⟩ : BufTy).Contents (Elt F)),
    reshape main_v7 main_v8 rfl shapeCasts_S1x4096x24x1x24x1x1x10_S4096x24x24x10,
    unary main_arg3 main_v9 (broadcastInDim S4096x24x24x1 ![0, 1, 2] bcast_S4096x24x24_S4096x24x24x1_0_1_2 : (⟨S4096x24x24, .f32⟩ : BufTy).Contents (Elt F) → (⟨S4096x24x24x1, .f32⟩ : BufTy).Contents (Elt F)),
    unary main_arg4 main_v10 (broadcastInDim S4096x24x24x1 ![0, 1, 2] bcast_S4096x24x24_S4096x24x24x1_0_1_2 : (⟨S4096x24x24, .f32⟩ : BufTy).Contents (Elt F) → (⟨S4096x24x24x1, .f32⟩ : BufTy).Contents (Elt F)),
    unary main_arg5 main_v11 (broadcastInDim S4096x24x24x1 ![0, 1, 2] bcast_S4096x24x24_S4096x24x24x1_0_1_2 : (⟨S4096x24x24, .f32⟩ : BufTy).Contents (Elt F) → (⟨S4096x24x24x1, .f32⟩ : BufTy).Contents (Elt F)),
    unary main_arg6 main_v12 (broadcastInDim S4096x24x24x1 ![0, 1, 2] bcast_S4096x24x24_S4096x24x24x1_0_1_2 : (⟨S4096x24x24, .f32⟩ : BufTy).Contents (Elt F) → (⟨S4096x24x24x1, .f32⟩ : BufTy).Contents (Elt F)),
    unary main_arg7 main_v13 (broadcastInDim S4096x24x24x1 ![0, 1, 2] bcast_S4096x24x24_S4096x24x24x1_0_1_2 : (⟨S4096x24x24, .f32⟩ : BufTy).Contents (Elt F) → (⟨S4096x24x24x1, .f32⟩ : BufTy).Contents (Elt F)),
    unary main_arg8 main_v14 (broadcastInDim S4096x24x24x1 ![0, 1, 2] bcast_S4096x24x24_S4096x24x24x1_0_1_2 : (⟨S4096x24x24, .f32⟩ : BufTy).Contents (Elt F) → (⟨S4096x24x24x1, .f32⟩ : BufTy).Contents (Elt F)),
    unary main_arg9 main_v15 (broadcastInDim S4096x24x24x1 ![0, 1, 2] bcast_S4096x24x24_S4096x24x24x1_0_1_2 : (⟨S4096x24x24, .f32⟩ : BufTy).Contents (Elt F) → (⟨S4096x24x24x1, .f32⟩ : BufTy).Contents (Elt F)),
    unary main_arg10 main_v16 (broadcastInDim S4096x24x24x1 ![0, 1, 2] bcast_S4096x24x24_S4096x24x24x1_0_1_2 : (⟨S4096x24x24, .f32⟩ : BufTy).Contents (Elt F) → (⟨S4096x24x24x1, .f32⟩ : BufTy).Contents (Elt F)),
    unary main_arg11 main_v17 (broadcastInDim S4096x24x24x1 ![0, 1, 2] bcast_S4096x24x24_S4096x24x24x1_0_1_2 : (⟨S4096x24x24, .f32⟩ : BufTy).Contents (Elt F) → (⟨S4096x24x24x1, .f32⟩ : BufTy).Contents (Elt F)),
    unary main_arg12 main_v18 (broadcastInDim S4096x24x24x1 ![0, 1, 2] bcast_S4096x24x24_S4096x24x24x1_0_1_2 : (⟨S4096x24x24, .f32⟩ : BufTy).Contents (Elt F) → (⟨S4096x24x24x1, .f32⟩ : BufTy).Contents (Elt F)),
    catOp ]

/-- The same line as the program prints it: the two functions' operations over the typed references of the call records. -/
abbrev opsT : List (HloOp τ sig (Elt F)) :=
  [ TRef.nullary main_call0.c (constantI S_ 32 0#32),
    TRef.unary main_call0.c main_call0.v0 (broadcastInDim S4096x24x24 ![] bcast_S_S4096x24x24),
    TRef.binary (.of main_arg0) main_call0.v0 main_call0.v1 (cmpi .slt),
    TRef.nullary main_call0.c_0 (constantI S_ 32 4#32),
    TRef.unary main_call0.c_0 main_call0.v2 (broadcastInDim S4096x24x24 ![] bcast_S_S4096x24x24),
    TRef.binary (.of main_arg0) main_call0.v2 main_call0.v3 addi,
    TRef.ternary main_call0.v1 main_call0.v3 (.of main_arg0) main_call0.call0.v0 select,
    TRef.unary main_call0.call0.v0 main_call0.v5 (broadcastInDim S4096x24x24x1 ![0, 1, 2] bcast_S4096x24x24_S4096x24x24x1_0_1_2),
    TRef.nullary main_call0.c_1 (constantI S1 32 3#32),
    TRef.nullary main_call0.c_2 (constantI S_ 32 0#32),
    TRef.unary main_call0.c_2 main_call0.v6 (broadcastInDim S4096x24x24x1 ![] bcast_S_S4096x24x24x1),
    TRef.binary main_call0.v5 main_call0.v6 main_call0.v7 (cmpi .sge),
    TRef.unary main_call0.c_1 main_call0.v8 (broadcastInDim S1x1x1x1 ![3] bcast_S1_S1x1x1x1_3),
    TRef.unary main_call0.v8 main_call0.v9 (broadcastInDim S4096x24x24x1 ![0, 1, 2, 3] bcast_S1x1x1x1_S4096x24x24x1_0_1_2_3),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x24x24x1_S4096x24x24_d3 h_S_),
    TRef.binary (.of main_arg13) main_call0.v5 main_call0.v13 (fun x i => Host.gather gather_S4x5_S4096x24x24x1_S4096x24x24x5_3_0_n_n_0_3_15 x i),
    TRef.unary main_call0.v12 main_call0.v14 (broadcastInDim S4096x24x24x5 ![0, 1, 2] bcast_S4096x24x24_S4096x24x24x5_0_1_2),
    TRef.nullary main_call0.cst (constant S_ .f32 0x7FC00000#32),
    TRef.unary main_call0.cst main_call0.v15 (broadcastInDim S4096x24x24x5 ![] bcast_S_S4096x24x24x5),
    TRef.ternary main_call0.v14 main_call0.v13 main_call0.v15 main_call0.v16 select,
    reshape main_arg1 main_v1 rfl shapeCasts_S4096_S4096x1x1x1,
    reshape main_v1 main_v2 rfl shapeCasts_S4096x1x1x1_S1x4096x1x1x1x1x1x1,
    unary main_v2 main_v3 (broadcastInDim S1x4096x24x1x24x1x1x1 ![0, 1, 2, 3, 4, 5, 6, 7] bcast_S1x4096x1x1x1x1x1x1_S1x4096x24x1x24x1x1x1_0_1_2_3_4_5_6_7 : (⟨S1x4096x1x1x1x1x1x1, .f32⟩ : BufTy).Contents (Elt F) → (⟨S1x4096x24x1x24x1x1x1, .f32⟩ : BufTy).Contents (Elt F)),
    reshape main_v3 main_v4 rfl shapeCasts_S1x4096x24x1x24x1x1x1_S4096x24x24x1,
    reshape main_arg2 main_v5 rfl shapeCasts_S4096x10_S4096x1x1x10,
    reshape main_v5 main_v6 rfl shapeCasts_S4096x1x1x10_S1x4096x1x1x1x1x1x10,
    unary main_v6 main_v7 (broadcastInDim S1x4096x24x1x24x1x1x10 ![0, 1, 2, 3, 4, 5, 6, 7] bcast_S1x4096x1x1x1x1x1x10_S1x4096x24x1x24x1x1x10_0_1_2_3_4_5_6_7 : (⟨S1x4096x1x1x1x1x1x10, .f32⟩ : BufTy).Contents (Elt F) → (⟨S1x4096x24x1x24x1x1x10, .f32⟩ : BufTy).Contents (Elt F)),
    reshape main_v7 main_v8 rfl shapeCasts_S1x4096x24x1x24x1x1x10_S4096x24x24x10,
    unary main_arg3 main_v9 (broadcastInDim S4096x24x24x1 ![0, 1, 2] bcast_S4096x24x24_S4096x24x24x1_0_1_2 : (⟨S4096x24x24, .f32⟩ : BufTy).Contents (Elt F) → (⟨S4096x24x24x1, .f32⟩ : BufTy).Contents (Elt F)),
    unary main_arg4 main_v10 (broadcastInDim S4096x24x24x1 ![0, 1, 2] bcast_S4096x24x24_S4096x24x24x1_0_1_2 : (⟨S4096x24x24, .f32⟩ : BufTy).Contents (Elt F) → (⟨S4096x24x24x1, .f32⟩ : BufTy).Contents (Elt F)),
    unary main_arg5 main_v11 (broadcastInDim S4096x24x24x1 ![0, 1, 2] bcast_S4096x24x24_S4096x24x24x1_0_1_2 : (⟨S4096x24x24, .f32⟩ : BufTy).Contents (Elt F) → (⟨S4096x24x24x1, .f32⟩ : BufTy).Contents (Elt F)),
    unary main_arg6 main_v12 (broadcastInDim S4096x24x24x1 ![0, 1, 2] bcast_S4096x24x24_S4096x24x24x1_0_1_2 : (⟨S4096x24x24, .f32⟩ : BufTy).Contents (Elt F) → (⟨S4096x24x24x1, .f32⟩ : BufTy).Contents (Elt F)),
    unary main_arg7 main_v13 (broadcastInDim S4096x24x24x1 ![0, 1, 2] bcast_S4096x24x24_S4096x24x24x1_0_1_2 : (⟨S4096x24x24, .f32⟩ : BufTy).Contents (Elt F) → (⟨S4096x24x24x1, .f32⟩ : BufTy).Contents (Elt F)),
    unary main_arg8 main_v14 (broadcastInDim S4096x24x24x1 ![0, 1, 2] bcast_S4096x24x24_S4096x24x24x1_0_1_2 : (⟨S4096x24x24, .f32⟩ : BufTy).Contents (Elt F) → (⟨S4096x24x24x1, .f32⟩ : BufTy).Contents (Elt F)),
    unary main_arg9 main_v15 (broadcastInDim S4096x24x24x1 ![0, 1, 2] bcast_S4096x24x24_S4096x24x24x1_0_1_2 : (⟨S4096x24x24, .f32⟩ : BufTy).Contents (Elt F) → (⟨S4096x24x24x1, .f32⟩ : BufTy).Contents (Elt F)),
    unary main_arg10 main_v16 (broadcastInDim S4096x24x24x1 ![0, 1, 2] bcast_S4096x24x24_S4096x24x24x1_0_1_2 : (⟨S4096x24x24, .f32⟩ : BufTy).Contents (Elt F) → (⟨S4096x24x24x1, .f32⟩ : BufTy).Contents (Elt F)),
    unary main_arg11 main_v17 (broadcastInDim S4096x24x24x1 ![0, 1, 2] bcast_S4096x24x24_S4096x24x24x1_0_1_2 : (⟨S4096x24x24, .f32⟩ : BufTy).Contents (Elt F) → (⟨S4096x24x24x1, .f32⟩ : BufTy).Contents (Elt F)),
    unary main_arg12 main_v18 (broadcastInDim S4096x24x24x1 ![0, 1, 2] bcast_S4096x24x24_S4096x24x24x1_0_1_2 : (⟨S4096x24x24, .f32⟩ : BufTy).Contents (Elt F) → (⟨S4096x24x24x1, .f32⟩ : BufTy).Contents (Elt F)),
    catOp ]

set_option maxRecDepth 1024 in
/-- @main is that straight line: the two functions' definitions unfolded at their calls, sequencing reassociated. -/
theorem main_eqT (c : Dev nD) : main (F := F) c = seq opsT := by
  simp only [main, fn_take.body, fn_where.body, seq, bind_assoc, pure_bind]

-- the reduction and the gather are kept folded: the comparison never looks inside them
attribute [local irreducible] Host.reduce Host.gather in
/-- Operation by operation the two lists agree: a typed reference built from a literal reference is that reference, and
    its transports are the identity. -/
theorem opsT_eq : (opsT : List (HloOp τ sig (Elt F))) = ops := by
  delta opsT ops
  repeat (refine congrArg₂ List.cons (by rfl) ?_)
  rfl

/-- @main is the straight line `ops`. -/
theorem main_eq (c : Dev nD) : main (F := F) c = seq ops := by
  rw [main_eqT, opsT_eq]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., reshape_bufs_sub .., unary_bufs_sub .., reshape_bufs_sub .., reshape_bufs_sub .., reshape_bufs_sub .., unary_bufs_sub .., reshape_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub ..⟩

/-! ## The fold at the result and at the arguments -/

/-- The forty-one operations before the concatenation. -/
abbrev ops41 : List (HloOp τ sig (Elt F)) :=
  [ nullary main_call0_c (constantI S_ 32 0#32 : (⟨S_, .i32⟩ : BufTy).Contents (Elt F)),
    unary main_call0_c main_call0_v0 (broadcastInDim S4096x24x24 ![] bcast_S_S4096x24x24 : (⟨S_, .i32⟩ : BufTy).Contents (Elt F) → (⟨S4096x24x24, .i32⟩ : BufTy).Contents (Elt F)),
    binary main_arg0 main_call0_v0 main_call0_v1 (cmpi .slt : (⟨S4096x24x24, .i32⟩ : BufTy).Contents (Elt F) → (⟨S4096x24x24, .i32⟩ : BufTy).Contents (Elt F) → (⟨S4096x24x24, .i1⟩ : BufTy).Contents (Elt F)),
    nullary main_call0_c_0 (constantI S_ 32 4#32 : (⟨S_, .i32⟩ : BufTy).Contents (Elt F)),
    unary main_call0_c_0 main_call0_v2 (broadcastInDim S4096x24x24 ![] bcast_S_S4096x24x24 : (⟨S_, .i32⟩ : BufTy).Contents (Elt F) → (⟨S4096x24x24, .i32⟩ : BufTy).Contents (Elt F)),
    binary main_arg0 main_call0_v2 main_call0_v3 (addi : (⟨S4096x24x24, .i32⟩ : BufTy).Contents (Elt F) → (⟨S4096x24x24, .i32⟩ : BufTy).Contents (Elt F) → (⟨S4096x24x24, .i32⟩ : BufTy).Contents (Elt F)),
    ternary main_call0_v1 main_call0_v3 main_arg0 main_call0_v4 (select : (⟨S4096x24x24, .i1⟩ : BufTy).Contents (Elt F) → (⟨S4096x24x24, .i32⟩ : BufTy).Contents (Elt F) → (⟨S4096x24x24, .i32⟩ : BufTy).Contents (Elt F) → (⟨S4096x24x24, .i32⟩ : BufTy).Contents (Elt F)),
    unary main_call0_v4 main_call0_v5 (broadcastInDim S4096x24x24x1 ![0, 1, 2] bcast_S4096x24x24_S4096x24x24x1_0_1_2 : (⟨S4096x24x24, .i32⟩ : BufTy).Contents (Elt F) → (⟨S4096x24x24x1, .i32⟩ : BufTy).Contents (Elt F)),
    nullary main_call0_c_1 (constantI S1 32 3#32 : (⟨S1, .i32⟩ : BufTy).Contents (Elt F)),
    nullary main_call0_c_2 (constantI S_ 32 0#32 : (⟨S_, .i32⟩ : BufTy).Contents (Elt F)),
    unary main_call0_c_2 main_call0_v6 (broadcastInDim S4096x24x24x1 ![] bcast_S_S4096x24x24x1 : (⟨S_, .i32⟩ : BufTy).Contents (Elt F) → (⟨S4096x24x24x1, .i32⟩ : BufTy).Contents (Elt F)),
    binary main_call0_v5 main_call0_v6 main_call0_v7 (cmpi .sge : (⟨S4096x24x24x1, .i32⟩ : BufTy).Contents (Elt F) → (⟨S4096x24x24x1, .i32⟩ : BufTy).Contents (Elt F) → (⟨S4096x24x24x1, .i1⟩ : BufTy).Contents (Elt F)),
    unary main_call0_c_1 main_call0_v8 (broadcastInDim S1x1x1x1 ![3] bcast_S1_S1x1x1x1_3 : (⟨S1, .i32⟩ : BufTy).Contents (Elt F) → (⟨S1x1x1x1, .i32⟩ : BufTy).Contents (Elt F)),
    unary main_call0_v8 main_call0_v9 (broadcastInDim S4096x24x24x1 ![0, 1, 2, 3] bcast_S1x1x1x1_S4096x24x24x1_0_1_2_3 : (⟨S1x1x1x1, .i32⟩ : BufTy).Contents (Elt F) → (⟨S4096x24x24x1, .i32⟩ : BufTy).Contents (Elt F)),
    binary main_call0_v5 main_call0_v9 main_call0_v10 (cmpi .sle : (⟨S4096x24x24x1, .i32⟩ : BufTy).Contents (Elt F) → (⟨S4096x24x24x1, .i32⟩ : BufTy).Contents (Elt F) → (⟨S4096x24x24x1, .i1⟩ : BufTy).Contents (Elt F)),
    binary main_call0_v7 main_call0_v10 main_call0_v11 (andi : (⟨S4096x24x24x1, .i1⟩ : BufTy).Contents (Elt F) → (⟨S4096x24x24x1, .i1⟩ : BufTy).Contents (Elt F) → (⟨S4096x24x24x1, .i1⟩ : BufTy).Contents (Elt F)),
    nullary main_call0_c_3 (constantI S_ 1 1#1 : (⟨S_, .i1⟩ : BufTy).Contents (Elt F)),
    binary main_call0_v11 main_call0_c_3 main_call0_v12 ((fun x v => Host.reduce IntOp.andi x v reducesTo_S4096x24x24x1_S4096x24x24_d3 h_S_) : (⟨S4096x24x24x1, .i1⟩ : BufTy).Contents (Elt F) → (⟨S_, .i1⟩ : BufTy).Contents (Elt F) → (⟨S4096x24x24, .i1⟩ : BufTy).Contents (Elt F)),
    binary main_arg13 main_call0_v5 main_call0_v13 ((fun x i => Host.gather gather_S4x5_S4096x24x24x1_S4096x24x24x5_3_0_n_n_0_3_15 x i) : (⟨S4x5, .f32⟩ : BufTy).Contents (Elt F) → (⟨S4096x24x24x1, .i32⟩ : BufTy).Contents (Elt F) → (⟨S4096x24x24x5, .f32⟩ : BufTy).Contents (Elt F)),
    unary main_call0_v12 main_call0_v14 (broadcastInDim S4096x24x24x5 ![0, 1, 2] bcast_S4096x24x24_S4096x24x24x5_0_1_2 : (⟨S4096x24x24, .i1⟩ : BufTy).Contents (Elt F) → (⟨S4096x24x24x5, .i1⟩ : BufTy).Contents (Elt F)),
    nullary main_call0_cst (constant S_ .f32 0x7FC00000#32 : (⟨S_, .f32⟩ : BufTy).Contents (Elt F)),
    unary main_call0_cst main_call0_v15 (broadcastInDim S4096x24x24x5 ![] bcast_S_S4096x24x24x5 : (⟨S_, .f32⟩ : BufTy).Contents (Elt F) → (⟨S4096x24x24x5, .f32⟩ : BufTy).Contents (Elt F)),
    ternary main_call0_v14 main_call0_v13 main_call0_v15 main_v0 (select : (⟨S4096x24x24x5, .i1⟩ : BufTy).Contents (Elt F) → (⟨S4096x24x24x5, .f32⟩ : BufTy).Contents (Elt F) → (⟨S4096x24x24x5, .f32⟩ : BufTy).Contents (Elt F) → (⟨S4096x24x24x5, .f32⟩ : BufTy).Contents (Elt F)),
    reshape main_arg1 main_v1 rfl shapeCasts_S4096_S4096x1x1x1,
    reshape main_v1 main_v2 rfl shapeCasts_S4096x1x1x1_S1x4096x1x1x1x1x1x1,
    unary main_v2 main_v3 (broadcastInDim S1x4096x24x1x24x1x1x1 ![0, 1, 2, 3, 4, 5, 6, 7] bcast_S1x4096x1x1x1x1x1x1_S1x4096x24x1x24x1x1x1_0_1_2_3_4_5_6_7 : (⟨S1x4096x1x1x1x1x1x1, .f32⟩ : BufTy).Contents (Elt F) → (⟨S1x4096x24x1x24x1x1x1, .f32⟩ : BufTy).Contents (Elt F)),
    reshape main_v3 main_v4 rfl shapeCasts_S1x4096x24x1x24x1x1x1_S4096x24x24x1,
    reshape main_arg2 main_v5 rfl shapeCasts_S4096x10_S4096x1x1x10,
    reshape main_v5 main_v6 rfl shapeCasts_S4096x1x1x10_S1x4096x1x1x1x1x1x10,
    unary main_v6 main_v7 (broadcastInDim S1x4096x24x1x24x1x1x10 ![0, 1, 2, 3, 4, 5, 6, 7] bcast_S1x4096x1x1x1x1x1x10_S1x4096x24x1x24x1x1x10_0_1_2_3_4_5_6_7 : (⟨S1x4096x1x1x1x1x1x10, .f32⟩ : BufTy).Contents (Elt F) → (⟨S1x4096x24x1x24x1x1x10, .f32⟩ : BufTy).Contents (Elt F)),
    reshape main_v7 main_v8 rfl shapeCasts_S1x4096x24x1x24x1x1x10_S4096x24x24x10,
    unary main_arg3 main_v9 (broadcastInDim S4096x24x24x1 ![0, 1, 2] bcast_S4096x24x24_S4096x24x24x1_0_1_2 : (⟨S4096x24x24, .f32⟩ : BufTy).Contents (Elt F) → (⟨S4096x24x24x1, .f32⟩ : BufTy).Contents (Elt F)),
    unary main_arg4 main_v10 (broadcastInDim S4096x24x24x1 ![0, 1, 2] bcast_S4096x24x24_S4096x24x24x1_0_1_2 : (⟨S4096x24x24, .f32⟩ : BufTy).Contents (Elt F) → (⟨S4096x24x24x1, .f32⟩ : BufTy).Contents (Elt F)),
    unary main_arg5 main_v11 (broadcastInDim S4096x24x24x1 ![0, 1, 2] bcast_S4096x24x24_S4096x24x24x1_0_1_2 : (⟨S4096x24x24, .f32⟩ : BufTy).Contents (Elt F) → (⟨S4096x24x24x1, .f32⟩ : BufTy).Contents (Elt F)),
    unary main_arg6 main_v12 (broadcastInDim S4096x24x24x1 ![0, 1, 2] bcast_S4096x24x24_S4096x24x24x1_0_1_2 : (⟨S4096x24x24, .f32⟩ : BufTy).Contents (Elt F) → (⟨S4096x24x24x1, .f32⟩ : BufTy).Contents (Elt F)),
    unary main_arg7 main_v13 (broadcastInDim S4096x24x24x1 ![0, 1, 2] bcast_S4096x24x24_S4096x24x24x1_0_1_2 : (⟨S4096x24x24, .f32⟩ : BufTy).Contents (Elt F) → (⟨S4096x24x24x1, .f32⟩ : BufTy).Contents (Elt F)),
    unary main_arg8 main_v14 (broadcastInDim S4096x24x24x1 ![0, 1, 2] bcast_S4096x24x24_S4096x24x24x1_0_1_2 : (⟨S4096x24x24, .f32⟩ : BufTy).Contents (Elt F) → (⟨S4096x24x24x1, .f32⟩ : BufTy).Contents (Elt F)),
    unary main_arg9 main_v15 (broadcastInDim S4096x24x24x1 ![0, 1, 2] bcast_S4096x24x24_S4096x24x24x1_0_1_2 : (⟨S4096x24x24, .f32⟩ : BufTy).Contents (Elt F) → (⟨S4096x24x24x1, .f32⟩ : BufTy).Contents (Elt F)),
    unary main_arg10 main_v16 (broadcastInDim S4096x24x24x1 ![0, 1, 2] bcast_S4096x24x24_S4096x24x24x1_0_1_2 : (⟨S4096x24x24, .f32⟩ : BufTy).Contents (Elt F) → (⟨S4096x24x24x1, .f32⟩ : BufTy).Contents (Elt F)),
    unary main_arg11 main_v17 (broadcastInDim S4096x24x24x1 ![0, 1, 2] bcast_S4096x24x24_S4096x24x24x1_0_1_2 : (⟨S4096x24x24, .f32⟩ : BufTy).Contents (Elt F) → (⟨S4096x24x24x1, .f32⟩ : BufTy).Contents (Elt F)),
    unary main_arg12 main_v18 (broadcastInDim S4096x24x24x1 ![0, 1, 2] bcast_S4096x24x24_S4096x24x24x1_0_1_2 : (⟨S4096x24x24, .f32⟩ : BufTy).Contents (Elt F) → (⟨S4096x24x24x1, .f32⟩ : BufTy).Contents (Elt F)) ]

/-- The line is those forty-one and then the concatenation. -/
theorem ops_split : (ops : List (HloOp τ sig (Elt F))) = ops41 ++ [catOp] := rfl

/-- Two lines run one after the other: the second from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The concatenation's result buffer after it: the concatenation of what its thirteen operand buffers hold. -/
theorem catOp_result (W : Valuation τ sig (Elt F)) :
    (catOp (F := F)).result W (main_v19 : DevRef τ sig)
      = concatenate S4096x24x24x26 3 [⟨S4096x24x24x5, W (main_v0 : DevRef τ sig)⟩, ⟨S4096x24x24x1, W (main_v4 : DevRef τ sig)⟩, ⟨S4096x24x24x10, W (main_v8 : DevRef τ sig)⟩, ⟨S4096x24x24x1, W (main_v9 : DevRef τ sig)⟩, ⟨S4096x24x24x1, W (main_v10 : DevRef τ sig)⟩, ⟨S4096x24x24x1, W (main_v11 : DevRef τ sig)⟩, ⟨S4096x24x24x1, W (main_v12 : DevRef τ sig)⟩, ⟨S4096x24x24x1, W (main_v13 : DevRef τ sig)⟩, ⟨S4096x24x24x1, W (main_v14 : DevRef τ sig)⟩, ⟨S4096x24x24x1, W (main_v15 : DevRef τ sig)⟩, ⟨S4096x24x24x1, W (main_v16 : DevRef τ sig)⟩, ⟨S4096x24x24x1, W (main_v17 : DevRef τ sig)⟩, ⟨S4096x24x24x1, W (main_v18 : DevRef τ sig)⟩] concatenates_S4096x24x24x5_S4096x24x24x1_S4096x24x24x10_S4096x24x24x1_S4096x24x24x1_S4096x24x24x1_S4096x24x24x1_S4096x24x24x1_S4096x24x24x1_S4096x24x24x1_S4096x24x24x1_S4096x24x24x1_S4096x24x24x1_S4096x24x24x26_d3 := by
  rw [catOp, nary_result]
  rfl

section Pieces
-- each operand buffer of the concatenation, traced back through the operations before it: an operation's result at its
-- own buffer is its function of its operands' contents, at any other buffer what was there; what is left is the piece's
-- definition unfolded
attribute [local irreducible] Host.reduce Host.gather shapeCast broadcastInDim select cmpi addi andi constantI constant
set_option maxRecDepth 16384

theorem main_v0_eq (V : Valuation τ sig (Elt F)) :
    after ops41 V (main_v0 : DevRef τ sig) = emb (V (main_arg0 : DevRef τ sig)) (V (main_arg13 : DevRef τ sig)) := by
  after_results_simp
  rfl

theorem main_v4_eq (V : Valuation τ sig (Elt F)) :
    after ops41 V (main_v4 : DevRef τ sig) = stepCh (V (main_arg1 : DevRef τ sig)) := by
  after_results_simp
  rfl

theorem main_v8_eq (V : Valuation τ sig (Elt F)) :
    after ops41 V (main_v8 : DevRef τ sig) = parCh (V (main_arg2 : DevRef τ sig)) := by
  after_results_simp
  rfl

theorem main_v9_eq (V : Valuation τ sig (Elt F)) :
    after ops41 V (main_v9 : DevRef τ sig) = gridCh (V (main_arg3 : DevRef τ sig)) := by
  after_results_simp
  rfl

theorem main_v10_eq (V : Valuation τ sig (Elt F)) :
    after ops41 V (main_v10 : DevRef τ sig) = gridCh (V (main_arg4 : DevRef τ sig)) := by
  after_results_simp
  rfl

theorem main_v11_eq (V : Valuation τ sig (Elt F)) :
    after ops41 V (main_v11 : DevRef τ sig) = gridCh (V (main_arg5 : DevRef τ sig)) := by
  after_results_simp
  rfl

theorem main_v12_eq (V : Valuation τ sig (Elt F)) :
    after ops41 V (main_v12 : DevRef τ sig) = gridCh (V (main_arg6 : DevRef τ sig)) := by
  after_results_simp
  rfl

theorem main_v13_eq (V : Valuation τ sig (Elt F)) :
    after ops41 V (main_v13 : DevRef τ sig) = gridCh (V (main_arg7 : DevRef τ sig)) := by
  after_results_simp
  rfl

theorem main_v14_eq (V : Valuation τ sig (Elt F)) :
    after ops41 V (main_v14 : DevRef τ sig) = gridCh (V (main_arg8 : DevRef τ sig)) := by
  after_results_simp
  rfl

theorem main_v15_eq (V : Valuation τ sig (Elt F)) :
    after ops41 V (main_v15 : DevRef τ sig) = gridCh (V (main_arg9 : DevRef τ sig)) := by
  after_results_simp
  rfl

theorem main_v16_eq (V : Valuation τ sig (Elt F)) :
    after ops41 V (main_v16 : DevRef τ sig) = gridCh (V (main_arg10 : DevRef τ sig)) := by
  after_results_simp
  rfl

theorem main_v17_eq (V : Valuation τ sig (Elt F)) :
    after ops41 V (main_v17 : DevRef τ sig) = gridCh (V (main_arg11 : DevRef τ sig)) := by
  after_results_simp
  rfl

theorem main_v18_eq (V : Valuation τ sig (Elt F)) :
    after ops41 V (main_v18 : DevRef τ sig) = gridCh (V (main_arg12 : DevRef τ sig)) := by
  after_results_simp
  rfl

end Pieces

/-- The fold at the result buffer is `res` of the arguments' contents. -/
theorem res_eq_after (V : Valuation τ sig (Elt F)) :
    after ops V (main_v19 : DevRef τ sig) = res (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) := by
  rw [ops_split, after_append, after_cons, after_nil, catOp_result, main_v0_eq, main_v4_eq, main_v8_eq, main_v9_eq, main_v10_eq, main_v11_eq, main_v12_eq, main_v13_eq, main_v14_eq, main_v15_eq, main_v16_eq, main_v17_eq, main_v18_eq]
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem arg9_eq (V : Valuation τ sig (Elt F)) :
    after ops V (main_arg9 : DevRef τ sig) = V (main_arg9 : DevRef τ sig) := by
  after_results_simp

theorem arg10_eq (V : Valuation τ sig (Elt F)) :
    after ops V (main_arg10 : DevRef τ sig) = V (main_arg10 : DevRef τ sig) := by
  after_results_simp

theorem arg11_eq (V : Valuation τ sig (Elt F)) :
    after ops V (main_arg11 : DevRef τ sig) = V (main_arg11 : DevRef τ sig) := by
  after_results_simp

theorem arg12_eq (V : Valuation τ sig (Elt F)) :
    after ops V (main_arg12 : DevRef τ sig) = V (main_arg12 : DevRef τ sig) := by
  after_results_simp

theorem arg13_eq (V : Valuation τ sig (Elt F)) :
    after ops V (main_arg13 : DevRef τ sig) = V (main_arg13 : DevRef τ sig) := by
  after_results_simp

/-- On every device, for any float values, from any memory with zero counters: every weakly fair execution of @main
    terminates with the result at `res` of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v19) = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v19).trans (res_eq_after _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _)⟩)
    (run_seq scopedRefs_eq scopedSems_eq defs main (fun _ => ops) main_eq (fun _ => ops_sub) m ρ)

end Cert.ReferenceIdeal.RefValue

end
-- ==== Proof.RefValue.lean ====
/-
  The reference's result, index by index.  `res` (the composed host operations of the reference's run) equals the
  specification `Cert.Spec.G` of the fourteen arguments when every tile type lies in 0 … 3: channels 0–4 are the
  table's row at the tile type (the lookup's index is then unchanged by its normalisation, in range, and unclamped, so
  the fill branch is never taken), channel 5 the step count, channels 6–15 the parameters, channels 16–25 the grids.
  The range is what the precondition's last conjunct says; it is decoded here from the predicate itself.
-/
import proofs.«206564_g5145370820828_cont_8to1c4_476_13_alg».proof.Proof.Spec
import proofs.«206564_g5145370820828_cont_8to1c4_476_13_alg».proof.Proof.RefRun
import proofs.«206564_g5145370820828_cont_8to1c4_476_13_alg».proof.Pre_input_domain
import Idealize.ShloMosaic.Lib.ValueIdx
import Idealize.ShloMosaic.Lib.ReduceAll
import Idealize.ShloMosaic.Lib.Pipeline.Value

noncomputable section

namespace Cert.Spec

open Idealize.ShloMosaic

variable {F : FTy → Type}

/-- The ten grids as a family: arguments 3 … 12 in order. -/
def argGrids (a3 a4 a5 a6 a7 a8 a9 a10 a11 a12 : FVec F SA .f32) : Fin 10 → FVec F SA .f32 := fun k =>
  match k with
  | ⟨0, _⟩ => a3 | ⟨1, _⟩ => a4 | ⟨2, _⟩ => a5 | ⟨3, _⟩ => a6 | ⟨4, _⟩ => a7
  | ⟨5, _⟩ => a8 | ⟨6, _⟩ => a9 | ⟨7, _⟩ => a10 | ⟨8, _⟩ => a11 | ⟨9, _⟩ => a12

end Cert.Spec

namespace Cert.ReferenceIdeal.RefValue

open Cert.ReferenceIdeal Cert.ReferenceIdeal.Gen Idealize.ShloMosaic Idealize.ShloMosaic.ValueIdx

variable {F : FTy → Type} [FloatOps F]

/-! ## Rank-8 indices (the reshapes that spread a batch entry over the map go through rank 8) -/

/-- A rank-8 index from its coordinates. -/
abbrev ix8 {n0 n1 n2 n3 n4 n5 n6 n7 : Nat} (c0 : Fin n0) (c1 : Fin n1) (c2 : Fin n2) (c3 : Fin n3) (c4 : Fin n4) (c5 : Fin n5)
    (c6 : Fin n6) (c7 : Fin n7) : (⟨8, ![n0, n1, n2, n3, n4, n5, n6, n7]⟩ : Shape).Idx :=
  fun g => match g with
    | ⟨0, _⟩ => c0 | ⟨1, _⟩ => c1 | ⟨2, _⟩ => c2 | ⟨3, _⟩ => c3 | ⟨4, _⟩ => c4 | ⟨5, _⟩ => c5 | ⟨6, _⟩ => c6 | ⟨7, _⟩ => c7

/-- Rank 8: the row-major position as one sum of products. -/
theorem rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5 + (i 5).val) * d 6
          + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

/-! ## Words -/

theorem toInt_zero32 : (0#32 : BitVec 32).toInt = 0 := by decide
theorem toInt_three32 : (3#32 : BitVec 32).toInt = 3 := by decide

/-- A word whose signed value lies in 0 … 3 has that unsigned value. -/
theorem toNat_of_range (t : BitVec 32) (h0 : 0 ≤ t.toInt) (h3 : t.toInt ≤ 3) : t.toInt.toNat = t.toNat ∧ t.toNat < 4 := by
  have hc := BitVec.toInt_eq_toNat_cond t
  have hlt := t.isLt
  split at hc <;> omega

/-- A left fold by `and` from 1 over words that are all 1 is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl =>
    foldl_andi_one f l _ (by subst h; show IntOp.andi 1#1 (f a) = 1#1; rw [hl a List.mem_cons_self]; rfl)
      (fun n hn => hl n (List.mem_cons_of_mem _ hn))

/-! ## The precondition's range conjunct, decoded -/

instance : Subsingleton (⟨0, ![]⟩ : Shape).Idx := ⟨fun a b => funext fun x => x.elim0⟩

/-- The input-domain predicate holding says every tile type lies in 0 … 3: its last conjunct is the conjunction over
    all cells of `0 ≤ tile type` and `tile type ≤ 3`. -/
theorem range_of_pre [Cert.Pre_input_domain.Facts] (a0 : IVec S4096x24x24 32) (a1 : FVec F S4096 .f32) (a2 : FVec F S4096x10 .f32)
    (a3 a4 a5 a6 a7 a8 a9 a10 a11 a12 : FVec F S4096x24x24 .f32) (a13 : FVec F S4x5 .f32)
    (h : Cert.Pre_input_domain.fn (F := F) a0 a1 a2 a3 a4 a5 a6 a7 a8 a9 a10 a11 a12 a13 = fun _ => 1#1) (i : S4096x24x24.Idx) :
    0 ≤ (a0 i).toInt ∧ (a0 i).toInt ≤ 3 := by
  have e := congrFun h ix0
  simp only [Cert.Pre_input_domain.fn, Cert.Pre_input_domain.fn_part1, Cert.Pre_input_domain.fn_part2,
    Cert.Pre_input_domain.fn_part3, Cert.Pre_input_domain.fn_part4] at e
  have key : ∀ (x y : IVec Cert.Pre_input_domain.S_ 1), andi x y ix0 = 1#1 → y ix0 = 1#1 :=
    fun x y hxy => (IntOp.andi_eq_one.1 hxy).2
  have hR := key _ _ e
  have hi := Host.reduce_andi_all _ _ _ _ _ hR i
  have hi' : IntOp.andi (IntOp.cmpi .sge (a0 i) 0#32) (IntOp.cmpi .sle (a0 i) 3#32) = 1#1 := hi
  rw [IntOp.andi_eq_one, IntOp.cmpi_sge, IntOp.cmpi_sle, toInt_zero32, toInt_three32] at hi'
  exact hi'

/-! ## The pieces at an index -/

section Pieces

variable (a0 : IVec S4096x24x24 32) (hrange : ∀ i, 0 ≤ (a0 i).toInt ∧ (a0 i).toInt ≤ 3)
include hrange

/-- A tile type in range is not moved by the lookup's index normalisation. -/
theorem wrapIdx_apply (k : S4096x24x24.Idx) : wrapIdx a0 k = a0 k := by
  show Scalar.select (IntOp.cmpi .slt (a0 k) 0#32) (IntOp.addi (a0 k) 4#32) (a0 k) = a0 k
  have hz : IntOp.cmpi .slt (a0 k) 0#32 = 0#1 := eq_zero_of_ne_one fun h => by
    rw [IntOp.cmpi_slt, toInt_zero32] at h
    have := (hrange k).1
    omega
  rw [hz, select_zero]

/-- The lookup's index table at a cell (its unit axis at any coordinate) is the cell's tile type. -/
theorem idx_apply (i : S4096x24x24x1.Idx) : idx a0 i = a0 (ix3 (i 0) (i 1) (i 2)) := by
  unfold idx
  refine (broadcastInDim_apply _ _ _ i (ix3 (n0 := 4096) (n1 := 24) (n2 := 24) (i 0) (i 1) (i 2))
    (fun a => match a with | ⟨0, _⟩ => rfl | ⟨1, _⟩ => rfl | ⟨2, _⟩ => rfl)).trans ?_
  exact wrapIdx_apply a0 hrange _

/-- Every cell's index is in range: the fill branch is never taken. -/
theorem inRange_eq_one (k : S4096x24x24.Idx) : inRange a0 k = 1#1 := by
  unfold inRange
  rw [Host.reduce_eq_foldl]
  refine foldl_andi_one _ _ _ rfl (fun i _ => ?_)
  show IntOp.andi (IntOp.cmpi .sge (idx a0 i) 0#32) (IntOp.cmpi .sle (idx a0 i) 3#32) = 1#1
  rw [idx_apply a0 hrange i, IntOp.andi_eq_one, IntOp.cmpi_sge, IntOp.cmpi_sle, toInt_zero32, toInt_three32]
  exact hrange _

end Pieces

/-- The gather of the lookup read at a result index: the table at the row the start index names, read signed and clamped
    into 0 … 3, and the result's channel. -/
theorem gather_apply {α : Type} {w : Nat} (tbl : S4x5.Idx → α) (ix : IVec S4096x24x24x1 w) (j : S4096x24x24x5.Idx) :
    Host.gather gather_S4x5_S4096x24x24x1_S4096x24x24x5_3_0_n_n_0_3_15 tbl ix j
      = tbl (ix2 (n0 := 4) (n1 := 5) ⟨min (ix (ix4 (j 0) (j 1) (j 2) 0)).toInt.toNat 3, by omega⟩ (j 3)) := by
  unfold Host.gather
  congr 1
  funext a
  refine Fin.ext ?_
  match a with
  | ⟨0, _⟩ =>
    show gather_S4x5_S4096x24x24x1_S4096x24x24x5_3_0_n_n_0_3_15.start j ix 0 + gather_S4x5_S4096x24x24x1_S4096x24x24x5_3_0_n_n_0_3_15.batchCoord j 0 + gather_S4x5_S4096x24x24x1_S4096x24x24x5_3_0_n_n_0_3_15.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S4x5_S4096x24x24x1_S4096x24x24x5_3_0_n_n_0_3_15.startIndexMap from List.mem_singleton.mpr rfl)]
    have hsi : gather_S4x5_S4096x24x24x1_S4096x24x24x5_3_0_n_n_0_3_15.siIdx j ⟨List.idxOf (0 : Fin 2) gather_S4x5_S4096x24x24x1_S4096x24x24x5_3_0_n_n_0_3_15.startIndexMap,
        List.idxOf_lt_length_iff.2 (List.mem_singleton.mpr rfl)⟩ = ix4 (j 0) (j 1) (j 2) 0 := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show gather_S4x5_S4096x24x24x1_S4096x24x24x5_3_0_n_n_0_3_15.start j ix 1 + gather_S4x5_S4096x24x24x1_S4096x24x24x5_3_0_n_n_0_3_15.batchCoord j 1 + gather_S4x5_S4096x24x24x1_S4096x24x24x5_3_0_n_n_0_3_15.offCoord j 1 = (j 3).val
    rw [GatherDims.batchCoord_eq_zero _ _ _ List.not_mem_nil]
    unfold GatherDims.start
    rw [dif_neg (show (1 : Fin 2) ∉ gather_S4x5_S4096x24x24x1_S4096x24x24x5_3_0_n_n_0_3_15.startIndexMap from by decide)]
    unfold GatherDims.offCoord
    rw [dif_pos (show (1 : Fin 2) ∈ gather_S4x5_S4096x24x24x1_S4096x24x24x5_3_0_n_n_0_3_15.sKept from by decide)]
    simp only [Nat.zero_add]
    rfl

section PiecesApply

variable (a0 : IVec S4096x24x24 32) (hrange : ∀ i, 0 ≤ (a0 i).toInt ∧ (a0 i).toInt ≤ 3)

include hrange in
/-- The embedding channels at an index: the specification's choice of table entry for the cell's tile type. -/
theorem emb_apply (a13 : FVec F S4x5 .f32) (j : S4096x24x24x5.Idx) :
    emb a0 a13 j = Cert.Spec.pick a13 ⟨(j 3).val, (j 3).isLt⟩ (a0 (ix3 (j 0) (j 1) (j 2))) := by
  have hsel : emb a0 a13 j
      = Scalar.select (broadcastInDim S4096x24x24x5 ![0, 1, 2] bcast_S4096x24x24_S4096x24x24x5_0_1_2 (inRange a0) j)
          (Host.gather gather_S4x5_S4096x24x24x1_S4096x24x24x5_3_0_n_n_0_3_15 a13 (idx a0) j)
          (broadcastInDim S4096x24x24x5 ![] bcast_S_S4096x24x24x5 (constant S_ .f32 0x7FC00000#32) j) := rfl
  have hb : broadcastInDim S4096x24x24x5 ![0, 1, 2] bcast_S4096x24x24_S4096x24x24x5_0_1_2 (inRange a0) j = 1#1 :=
    (broadcastInDim_apply _ _ (inRange a0) j (ix3 (n0 := 4096) (n1 := 24) (n2 := 24) (j 0) (j 1) (j 2))
      (fun a => match a with | ⟨0, _⟩ => rfl | ⟨1, _⟩ => rfl | ⟨2, _⟩ => rfl)).trans (inRange_eq_one a0 hrange _)
  rw [hsel, hb, select_one, gather_apply]
  have hidx : idx a0 (ix4 (n3 := 1) (j 0) (j 1) (j 2) 0) = a0 (ix3 (j 0) (j 1) (j 2)) := idx_apply a0 hrange _
  obtain ⟨h0, h3⟩ := hrange (ix3 (j 0) (j 1) (j 2))
  obtain ⟨e1, e2⟩ := toNat_of_range _ h0 h3
  rw [Cert.Spec.pick_of_lt a13 _ _ e2]
  refine congrArg a13 (funext fun a => ?_)
  match a with
  | ⟨0, _⟩ =>
    exact Fin.ext (by
      show min (idx a0 (ix4 (n3 := 1) (j 0) (j 1) (j 2) 0)).toInt.toNat 3 = (a0 (ix3 (j 0) (j 1) (j 2))).toNat
      rw [hidx, e1]; omega)
  | ⟨1, _⟩ => rfl

/-- The step-count channel at an index: the batch entry's step count. -/
theorem stepCh_apply (a1 : FVec F S4096 .f32) (j : S4096x24x24x1.Idx) : stepCh a1 j = a1 (ix1 (j 0)) := by
  have h3 : (j 3).val < 1 := (j 3).isLt
  unfold stepCh
  refine (shapeCast_apply _ _ j
    (ix8 (n0 := 1) (n1 := 4096) (n2 := 24) (n3 := 1) (n4 := 24) (n5 := 1) (n6 := 1) (n7 := 1) 0 (j 0) (j 1) 0 (j 2) 0 0 0) ?_).trans ?_
  · rw [rowMajor_val_eight, Shape.rowMajor_val_four]
    show (((((((0 * 4096 + (j 0).val) * 24 + (j 1).val) * 1 + 0) * 24 + (j 2).val) * 1 + 0) * 1 + 0) * 1 + 0)
      = (((j 0).val * 24 + (j 1).val) * 24 + (j 2).val) * 1 + (j 3).val
    omega
  refine (broadcastInDim_apply _ _ _ _
    (ix8 (n0 := 1) (n1 := 4096) (n2 := 1) (n3 := 1) (n4 := 1) (n5 := 1) (n6 := 1) (n7 := 1) 0 (j 0) 0 0 0 0 0 0) ?_).trans ?_
  · intro a
    match a with
    | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl
  refine (shapeCast_apply _ _ _ (ix4 (n0 := 4096) (n1 := 1) (n2 := 1) (n3 := 1) (j 0) 0 0 0) ?_).trans ?_
  · rw [Shape.rowMajor_val_four, rowMajor_val_eight]
    show (((j 0).val * 1 + 0) * 1 + 0) * 1 + 0 = (((((((0 * 4096 + (j 0).val) * 1 + 0) * 1 + 0) * 1 + 0) * 1 + 0) * 1 + 0) * 1 + 0)
    omega
  refine shapeCast_apply _ _ _ (ix1 (n := 4096) (j 0)) ?_
  rw [Shape.rowMajor_val_one, Shape.rowMajor_val_four]
  show (j 0).val = (((j 0).val * 1 + 0) * 1 + 0) * 1 + 0
  omega

/-- The parameter channels at an index: the batch entry's parameter. -/
theorem parCh_apply (a2 : FVec F S4096x10 .f32) (j : S4096x24x24x10.Idx) : parCh a2 j = a2 (ix2 (j 0) (j 3)) := by
  unfold parCh
  refine (shapeCast_apply _ _ j
    (ix8 (n0 := 1) (n1 := 4096) (n2 := 24) (n3 := 1) (n4 := 24) (n5 := 1) (n6 := 1) (n7 := 10) 0 (j 0) (j 1) 0 (j 2) 0 0 (j 3)) ?_).trans ?_
  · rw [rowMajor_val_eight, Shape.rowMajor_val_four]
    show (((((((0 * 4096 + (j 0).val) * 24 + (j 1).val) * 1 + 0) * 24 + (j 2).val) * 1 + 0) * 1 + 0) * 10 + (j 3).val)
      = (((j 0).val * 24 + (j 1).val) * 24 + (j 2).val) * 10 + (j 3).val
    omega
  refine (broadcastInDim_apply _ _ _ _
    (ix8 (n0 := 1) (n1 := 4096) (n2 := 1) (n3 := 1) (n4 := 1) (n5 := 1) (n6 := 1) (n7 := 10) 0 (j 0) 0 0 0 0 0 (j 3)) ?_).trans ?_
  · intro a
    match a with
    | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl
  refine (shapeCast_apply _ _ _ (ix4 (n0 := 4096) (n1 := 1) (n2 := 1) (n3 := 10) (j 0) 0 0 (j 3)) ?_).trans ?_
  · rw [Shape.rowMajor_val_four, rowMajor_val_eight]
    show (((j 0).val * 1 + 0) * 1 + 0) * 10 + (j 3).val
      = (((((((0 * 4096 + (j 0).val) * 1 + 0) * 1 + 0) * 1 + 0) * 1 + 0) * 1 + 0) * 10 + (j 3).val)
    omega
  refine shapeCast_apply _ _ _ (ix2 (n0 := 4096) (n1 := 10) (j 0) (j 3)) ?_
  rw [Shape.rowMajor_val_two, Shape.rowMajor_val_four]
  show (j 0).val * 10 + (j 3).val = (((j 0).val * 1 + 0) * 1 + 0) * 10 + (j 3).val
  omega

/-- A grid's channel at an index: the grid at the cell. -/
theorem gridCh_apply (a : FVec F S4096x24x24 .f32) (j : S4096x24x24x1.Idx) : gridCh a j = a (ix3 (j 0) (j 1) (j 2)) := by
  unfold gridCh
  exact broadcastInDim_apply _ _ _ j (ix3 (j 0) (j 1) (j 2)) (fun a => match a with | ⟨0, _⟩ => rfl | ⟨1, _⟩ => rfl | ⟨2, _⟩ => rfl)

end PiecesApply

/-! ## The concatenation at an index: which piece holds each channel -/

section Concat

variable (a0 : IVec S4096x24x24 32) (a1 : FVec F S4096 .f32) (a2 : FVec F S4096x10 .f32)
    (a3 a4 a5 a6 a7 a8 a9 a10 a11 a12 : FVec F S4096x24x24 .f32) (a13 : FVec F S4x5 .f32)

theorem res_apply_emb (i : S4096x24x24x26.Idx) (h5 : (i 3).val < 5) :
    res a0 a1 a2 a3 a4 a5 a6 a7 a8 a9 a10 a11 a12 a13 i = emb a0 a13 (ix4 (i 0) (i 1) (i 2) ⟨(i 3).val, h5⟩) := by
  unfold res
  exact concatenate_apply_piece 3 _ _ i 0 (by show (0 : Nat) < 13; omega) S4096x24x24x5 (emb a0 a13) rfl rfl 0 rfl _
    (fun b hb => match b with | ⟨0, _⟩ => rfl | ⟨1, _⟩ => rfl | ⟨2, _⟩ => rfl | ⟨3, _⟩ => absurd rfl hb) (by show 0 + (i 3).val = (i 3).val; omega)

theorem res_apply_step (i : S4096x24x24x26.Idx) (h5 : (i 3).val = 5) :
    res a0 a1 a2 a3 a4 a5 a6 a7 a8 a9 a10 a11 a12 a13 i = stepCh a1 (ix4 (n3 := 1) (i 0) (i 1) (i 2) 0) := by
  unfold res
  exact concatenate_apply_piece 3 _ _ i 1 (by show (1 : Nat) < 13; omega) S4096x24x24x1 (stepCh a1) rfl rfl 5 rfl _
    (fun b hb => match b with | ⟨0, _⟩ => rfl | ⟨1, _⟩ => rfl | ⟨2, _⟩ => rfl | ⟨3, _⟩ => absurd rfl hb) (by show 5 + 0 = (i 3).val; omega)

theorem res_apply_par (i : S4096x24x24x26.Idx) (h6 : 6 ≤ (i 3).val) (h16 : (i 3).val < 16) :
    res a0 a1 a2 a3 a4 a5 a6 a7 a8 a9 a10 a11 a12 a13 i = parCh a2 (ix4 (i 0) (i 1) (i 2) ⟨(i 3).val - 6, by omega⟩) := by
  unfold res
  exact concatenate_apply_piece 3 _ _ i 2 (by show (2 : Nat) < 13; omega) S4096x24x24x10 (parCh a2) rfl rfl 6 rfl _
    (fun b hb => match b with | ⟨0, _⟩ => rfl | ⟨1, _⟩ => rfl | ⟨2, _⟩ => rfl | ⟨3, _⟩ => absurd rfl hb) (by show 6 + ((i 3).val - 6) = (i 3).val; omega)

theorem res_apply_grid (i : S4096x24x24x26.Idx) (g : Fin 10) (hg : (i 3).val = 16 + g.val) :
    res a0 a1 a2 a3 a4 a5 a6 a7 a8 a9 a10 a11 a12 a13 i = gridCh (Cert.Spec.argGrids a3 a4 a5 a6 a7 a8 a9 a10 a11 a12 g) (ix4 (n3 := 1) (i 0) (i 1) (i 2) 0) := by
  unfold res
  match g, hg with
  | ⟨0, _⟩, hg =>
    exact concatenate_apply_piece 3 _ _ i 3 (by show (3 : Nat) < 13; omega) S4096x24x24x1 (gridCh a3) rfl rfl 16 rfl _
      (fun b hb => match b with | ⟨0, _⟩ => rfl | ⟨1, _⟩ => rfl | ⟨2, _⟩ => rfl | ⟨3, _⟩ => absurd rfl hb) (by show 16 + 0 = (i 3).val; simp only at hg; omega)
  | ⟨1, _⟩, hg =>
    exact concatenate_apply_piece 3 _ _ i 4 (by show (4 : Nat) < 13; omega) S4096x24x24x1 (gridCh a4) rfl rfl 17 rfl _
      (fun b hb => match b with | ⟨0, _⟩ => rfl | ⟨1, _⟩ => rfl | ⟨2, _⟩ => rfl | ⟨3, _⟩ => absurd rfl hb) (by show 17 + 0 = (i 3).val; simp only at hg; omega)
  | ⟨2, _⟩, hg =>
    exact concatenate_apply_piece 3 _ _ i 5 (by show (5 : Nat) < 13; omega) S4096x24x24x1 (gridCh a5) rfl rfl 18 rfl _
      (fun b hb => match b with | ⟨0, _⟩ => rfl | ⟨1, _⟩ => rfl | ⟨2, _⟩ => rfl | ⟨3, _⟩ => absurd rfl hb) (by show 18 + 0 = (i 3).val; simp only at hg; omega)
  | ⟨3, _⟩, hg =>
    exact concatenate_apply_piece 3 _ _ i 6 (by show (6 : Nat) < 13; omega) S4096x24x24x1 (gridCh a6) rfl rfl 19 rfl _
      (fun b hb => match b with | ⟨0, _⟩ => rfl | ⟨1, _⟩ => rfl | ⟨2, _⟩ => rfl | ⟨3, _⟩ => absurd rfl hb) (by show 19 + 0 = (i 3).val; simp only at hg; omega)
  | ⟨4, _⟩, hg =>
    exact concatenate_apply_piece 3 _ _ i 7 (by show (7 : Nat) < 13; omega) S4096x24x24x1 (gridCh a7) rfl rfl 20 rfl _
      (fun b hb => match b with | ⟨0, _⟩ => rfl | ⟨1, _⟩ => rfl | ⟨2, _⟩ => rfl | ⟨3, _⟩ => absurd rfl hb) (by show 20 + 0 = (i 3).val; simp only at hg; omega)
  | ⟨5, _⟩, hg =>
    exact concatenate_apply_piece 3 _ _ i 8 (by show (8 : Nat) < 13; omega) S4096x24x24x1 (gridCh a8) rfl rfl 21 rfl _
      (fun b hb => match b with | ⟨0, _⟩ => rfl | ⟨1, _⟩ => rfl | ⟨2, _⟩ => rfl | ⟨3, _⟩ => absurd rfl hb) (by show 21 + 0 = (i 3).val; simp only at hg; omega)
  | ⟨6, _⟩, hg =>
    exact concatenate_apply_piece 3 _ _ i 9 (by show (9 : Nat) < 13; omega) S4096x24x24x1 (gridCh a9) rfl rfl 22 rfl _
      (fun b hb => match b with | ⟨0, _⟩ => rfl | ⟨1, _⟩ => rfl | ⟨2, _⟩ => rfl | ⟨3, _⟩ => absurd rfl hb) (by show 22 + 0 = (i 3).val; simp only at hg; omega)
  | ⟨7, _⟩, hg =>
    exact concatenate_apply_piece 3 _ _ i 10 (by show (10 : Nat) < 13; omega) S4096x24x24x1 (gridCh a10) rfl rfl 23 rfl _
      (fun b hb => match b with | ⟨0, _⟩ => rfl | ⟨1, _⟩ => rfl | ⟨2, _⟩ => rfl | ⟨3, _⟩ => absurd rfl hb) (by show 23 + 0 = (i 3).val; simp only at hg; omega)
  | ⟨8, _⟩, hg =>
    exact concatenate_apply_piece 3 _ _ i 11 (by show (11 : Nat) < 13; omega) S4096x24x24x1 (gridCh a11) rfl rfl 24 rfl _
      (fun b hb => match b with | ⟨0, _⟩ => rfl | ⟨1, _⟩ => rfl | ⟨2, _⟩ => rfl | ⟨3, _⟩ => absurd rfl hb) (by show 24 + 0 = (i 3).val; simp only at hg; omega)
  | ⟨9, _⟩, hg =>
    exact concatenate_apply_piece 3 _ _ i 12 (by show (12 : Nat) < 13; omega) S4096x24x24x1 (gridCh a12) rfl rfl 25 rfl _
      (fun b hb => match b with | ⟨0, _⟩ => rfl | ⟨1, _⟩ => rfl | ⟨2, _⟩ => rfl | ⟨3, _⟩ => absurd rfl hb) (by show 25 + 0 = (i 3).val; simp only at hg; omega)

end Concat

/-! ## The result is the specification -/

/-- For tile types in 0 … 3 the reference's result is `Cert.Spec.G` of its arguments. -/
theorem res_eq (a0 : IVec S4096x24x24 32) (a1 : FVec F S4096 .f32) (a2 : FVec F S4096x10 .f32)
    (a3 a4 a5 a6 a7 a8 a9 a10 a11 a12 : FVec F S4096x24x24 .f32) (a13 : FVec F S4x5 .f32)
    (hrange : ∀ i, 0 ≤ (a0 i).toInt ∧ (a0 i).toInt ≤ 3) :
    res a0 a1 a2 a3 a4 a5 a6 a7 a8 a9 a10 a11 a12 a13 = Cert.Spec.G (F := F) a0 a1 a2 (Cert.Spec.argGrids a3 a4 a5 a6 a7 a8 a9 a10 a11 a12) a13 := by
  funext i
  have h26 : (i 3).val < 26 := (i 3).isLt
  unfold Cert.Spec.G
  dsimp only
  by_cases h5 : (i 3).val < 5
  · rw [dif_pos h5, res_apply_emb _ _ _ _ _ _ _ _ _ _ _ _ _ _ i h5, emb_apply a0 hrange]
  · rw [dif_neg h5]
    by_cases e5 : (i 3).val = 5
    · rw [if_pos e5, res_apply_step _ _ _ _ _ _ _ _ _ _ _ _ _ _ i e5, stepCh_apply]
    · rw [if_neg e5]
      by_cases h16 : (i 3).val < 16
      · rw [dif_pos h16, res_apply_par _ _ _ _ _ _ _ _ _ _ _ _ _ _ i (by omega) h16, parCh_apply]
      · rw [dif_neg h16, res_apply_grid _ _ _ _ _ _ _ _ _ _ _ _ _ _ i ⟨(i 3).val - 16, by omega⟩ (by show (i 3).val = 16 + ((i 3).val - 16); omega),
          gridCh_apply]

end Cert.ReferenceIdeal.RefValue

end
-- ==== Proof.lean ====
/-
  The claim.  Kernel and its idealization are one text read at two float instances; both run — the twenty-four host
  operations, the SparseCore kernel moving the last five grids band by band into channels 21 … 25 of the kernel-layout
  array, the copy, the TensorCore kernel writing channels 0 … 20 block by block, the last transpose — to an end with the
  arguments unchanged (the two frames), the result being the specification's function of the arguments: table row by tile
  type, the step count, the ten parameters, the ten grids.  The reference's host program computes the same function
  (in range, its take never fills), so at the ideal instance the two results are equal.  The idealization rewrote nothing.
-/
import proofs.«206564_g5145370820828_cont_8to1c4_476_13_alg».proof.Defs
import proofs.«206564_g5145370820828_cont_8to1c4_476_13_alg».proof.Proof.Gen.Kernel
import proofs.«206564_g5145370820828_cont_8to1c4_476_13_alg».proof.Proof.Gen.KernelIdeal
import proofs.«206564_g5145370820828_cont_8to1c4_476_13_alg».proof.Proof.Gen.ReferenceIdeal
import proofs.«206564_g5145370820828_cont_8to1c4_476_13_alg».proof.Proof.Gen.Pre_input_domain
import proofs.«206564_g5145370820828_cont_8to1c4_476_13_alg».proof.Proof.KI.Launch
import proofs.«206564_g5145370820828_cont_8to1c4_476_13_alg».proof.Proof.KI.Value
import proofs.«206564_g5145370820828_cont_8to1c4_476_13_alg».proof.Proof.K.Launch
import proofs.«206564_g5145370820828_cont_8to1c4_476_13_alg».proof.Proof.KI.ScTask
import proofs.«206564_g5145370820828_cont_8to1c4_476_13_alg».proof.Proof.KI.TcValue
import proofs.«206564_g5145370820828_cont_8to1c4_476_13_alg».proof.Proof.K.ScTask
import proofs.«206564_g5145370820828_cont_8to1c4_476_13_alg».proof.Proof.K.TcValue
import proofs.«206564_g5145370820828_cont_8to1c4_476_13_alg».proof.Proof.RefRun
import proofs.«206564_g5145370820828_cont_8to1c4_476_13_alg».proof.Proof.RefValue
import Idealize.ShloMosaic.Adequacy
import Idealize.ShloMosaic.Init

noncomputable section

namespace Cert.Proof

open Idealize.ShloMosaic Idealize.SL.Sem

theorem frame_k : Cert.frame_Kernel := fun m ρ _ =>
  (θ_run Cert.Kernel.defs _ _).mono (fun _ h c => (h c).2)
    (Cert.Kernel.Hand.run_main (F := Bits) m ρ Cert.Kernel.Hand.tc_region (Cert.Kernel.Hand.tileObl _ _))

theorem frame_ki : Cert.frame_KernelIdeal := fun m ρ _ =>
  (θ_run Cert.KernelIdeal.defs _ _).mono (fun _ h c => (h c).2)
    (Cert.KernelIdeal.Hand.run_main (F := Ideal) m ρ Cert.KernelIdeal.Hand.tc_region (Cert.KernelIdeal.Hand.tileObl _ _))

theorem frame_ri : Cert.frame_ReferenceIdeal := fun m ρ _ =>
  (θ_run Cert.ReferenceIdeal.defs _ _).mono (fun _ h c => (h c).2) (Cert.ReferenceIdeal.RefValue.run (F := Ideal) m ρ)

/-- The ten grids among the arguments, in the two spellings. -/
theorem argGrids_eq (m : (ℓ : Loc Cert.KernelIdeal.nD Cert.KernelIdeal.τ Cert.KernelIdeal.sig) → Buf (Elt Ideal) ℓ) (c : Dev Cert.KernelIdeal.nD) :
    Cert.KernelIdeal.Hand.argGrids m c = Cert.Spec.argGrids (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
  funext k
  match k with
  | ⟨0, _⟩ => rfl | ⟨1, _⟩ => rfl | ⟨2, _⟩ => rfl | ⟨3, _⟩ => rfl | ⟨4, _⟩ => rfl
  | ⟨5, _⟩ => rfl | ⟨6, _⟩ => rfl | ⟨7, _⟩ => rfl | ⟨8, _⟩ => rfl | ⟨9, _⟩ => rfl

theorem algebraic : Cert.algebraic_KernelIdeal_ReferenceIdeal := by
  intro m ρ m' ρ' hpre hagree
  refine ⟨fun c => Cert.KernelIdeal.Hand.out26 m c,
    Cert.KernelIdeal.Hand.run_main (F := Ideal) m ρ Cert.KernelIdeal.Hand.tc_region (Cert.KernelIdeal.Hand.tileObl _ _), ?_⟩
  refine (θ_run Cert.ReferenceIdeal.defs _ _).mono (fun _ h c => ⟨(h c).1.trans ?_, (h c).2⟩) (Cert.ReferenceIdeal.RefValue.run (F := Ideal) m' ρ')
  obtain ⟨e0, e1, e2, e3, e4, e5, e6, e7, e8, e9, e10, e11, e12, e13⟩ := hagree c
  rw [e0, e1, e2, e3, e4, e5, e6, e7, e8, e9, e10, e11, e12, e13]
  rw [Cert.ReferenceIdeal.RefValue.res_eq _ _ _ _ _ _ _ _ _ _ _ _ _ _ (fun i => Cert.ReferenceIdeal.RefValue.range_of_pre _ _ _ _ _ _ _ _ _ _ _ _ _ _ (hpre c) i)]
  show _ = Cert.KernelIdeal.Hand.out26 m c
  rw [Cert.KernelIdeal.Hand.out26_eq m c, argGrids_eq m c]

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
